-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v83_0)) (v2 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v83_0) = v1 c
          ∧ r.2.mem ((c.tc : Thread Cert.KernelIdeal.nD Cert.KernelIdeal.τ).loc Cert.KernelIdeal.main_v153) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v237) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x64 : Shape := ⟨2, ![250000, 64]⟩
abbrev S10000x64 : Shape := ⟨2, ![10000, 64]⟩
abbrev S250000x1 : Shape := ⟨2, ![250000, 1]⟩
abbrev S9x64x64 : Shape := ⟨3, ![9, 64, 64]⟩
abbrev S9x64 : Shape := ⟨2, ![9, 64]⟩
abbrev S3x64 : Shape := ⟨2, ![3, 64]⟩
abbrev S250000 : Shape := ⟨1, ![250000]⟩
abbrev S_ : Shape := ⟨0, ![]⟩

class Facts : Prop where
  bcast_S_S250000x64 : S_.BroadcastsInDim S250000x64 (![] : Fin 0 → Fin S250000x64.rank)
  reducesTo_S250000x64_S_d0_1 : S250000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S250000x1 : S_.BroadcastsInDim S250000x1 (![] : Fin 0 → Fin S250000x1.rank)
  reducesTo_S250000x1_S_d0_1 : S250000x1.ReducesTo [0, 1] S_
  bcast_S_S9x64x64 : S_.BroadcastsInDim S9x64x64 (![] : Fin 0 → Fin S9x64x64.rank)
  reducesTo_S9x64x64_S_d0_1_2 : S9x64x64.ReducesTo [0, 1, 2] S_
  bcast_S_S9x64 : S_.BroadcastsInDim S9x64 (![] : Fin 0 → Fin S9x64.rank)
  reducesTo_S9x64_S_d0_1 : S9x64.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_arg8 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg4 : FVec F S250000x1 .f32) (main_arg5 : FVec F S9x64x64 .f32) (main_arg6 : FVec F S9x64 .f32) (main_arg7 : FVec F S3x64 .f32) (main_arg8 : FVec F S3x64 .f32) (main_v13 : IVec S_ 1) (main_v16 : IVec S250000x1 1) : IVec S_ 1 :=
  let main_c_5 : IVec S_ 1 := constantI S_ 1 1#1
  let main_v17 : IVec S_ 1 := (fun x v => Host.reduce IntOp.andi x v reducesTo_S250000x1_S_d0_1 h_S_) main_v16 main_c_5
  let main_v18 : IVec S_ 1 := andi main_v13 main_v17
  let main_v19 : FVec F S250000x1 .f32 := Host.absf main_arg4
  let main_cst_6 : FVec F S_ .f32 := constant S_ .f32 0x7F800000#32
  let main_v20 : FVec F S250000x1 .f32 := broadcastInDim S250000x1 ![] bcast_S_S250000x1 main_cst_6
  let main_v21 : IVec S250000x1 1 := cmpf .olt main_v19 main_v20
  let main_c_7 : IVec S_ 1 := constantI S_ 1 1#1
  let main_v22 : IVec S_ 1 := (fun x v => Host.reduce IntOp.andi x v reducesTo_S250000x1_S_d0_1 h_S_) main_v21 main_c_7
  let main_v23 : IVec S_ 1 := andi main_v18 main_v22
  let main_v24 : FVec F S9x64x64 .f32 := Host.absf main_arg5
  let main_cst_8 : FVec F S_ .f32 := constant S_ .f32 0x7F800000#32
  let main_v25 : FVec F S9x64x64 .f32 := broadcastInDim S9x64x64 ![] bcast_S_S9x64x64 main_cst_8
  let main_v26 : IVec S9x64x64 1 := cmpf .olt main_v24 main_v25
  let main_c_9 : IVec S_ 1 := constantI S_ 1 1#1
  let main_v27 : IVec S_ 1 := (fun x v => Host.reduce IntOp.andi x v reducesTo_S9x64x64_S_d0_1_2 h_S_) main_v26 main_c_9
  let main_v28 : IVec S_ 1 := andi main_v23 main_v27
  let main_v29 : FVec F S9x64 .f32 := Host.absf main_arg6
  let main_cst_10 : FVec F S_ .f32 := constant S_ .f32 0x7F800000#32
  let main_v30 : FVec F S9x64 .f32 := broadcastInDim S9x64 ![] bcast_S_S9x64 main_cst_10
  let main_v31 : IVec S9x64 1 := cmpf .olt main_v29 main_v30
  let main_c_11 : IVec S_ 1 := constantI S_ 1 1#1
  let main_v32 : IVec S_ 1 := (fun x v => Host.reduce IntOp.andi x v reducesTo_S9x64_S_d0_1 h_S_) main_v31 main_c_11
  let main_v33 : IVec S_ 1 := andi main_v28 main_v32
  fn_part2 (F := F) main_arg7 main_arg8 main_v33

def fn {F : FTy → Type} [FloatOps F] (main_arg0 : FVec F S250000x64 .f32) (main_arg1 : FVec F S250000x64 .f32) (main_arg2 : FVec F S10000x64 .f32) (main_arg3 : FVec F S250000x1 .f32) (main_arg4 : FVec F S250000x1 .f32) (main_arg5 : FVec F S9x64x64 .f32) (main_arg6 : FVec F S9x64 .f32) (main_arg7 : FVec F S3x64 .f32) (main_arg8 : FVec F S3x64 .f32) (main_arg9 : IVec S250000 32) (main_arg10 : IVec S250000 32) (main_arg11 : IVec S250000 32) (main_arg12 : IVec S250000 32) : IVec S_ 1 :=
  let main_v0 : FVec F S250000x64 .f32 := Host.absf main_arg0
  let main_cst : FVec F S_ .f32 := constant S_ .f32 0x7F800000#32
  let main_v1 : FVec F S250000x64 .f32 := broadcastInDim S250000x64 ![] bcast_S_S250000x64 main_cst
  let main_v2 : IVec S250000x64 1 := cmpf .olt main_v0 main_v1
  let main_c : IVec S_ 1 := constantI S_ 1 1#1
  let main_v3 : IVec S_ 1 := (fun x v => Host.reduce IntOp.andi x v reducesTo_S250000x64_S_d0_1 h_S_) main_v2 main_c
  let main_v4 : FVec F S250000x64 .f32 := Host.absf main_arg1
  let main_cst_0 : FVec F S_ .f32 := constant S_ .f32 0x7F800000#32
  let main_v5 : FVec F S250000x64 .f32 := broadcastInDim S250000x64 ![] bcast_S_S250000x64 main_cst_0
  let main_v6 : IVec S250000x64 1 := cmpf .olt main_v4 main_v5
  let main_c_1 : IVec S_ 1 := constantI S_ 1 1#1
  let main_v7 : IVec S_ 1 := (fun x v => Host.reduce IntOp.andi x v reducesTo_S250000x64_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S250000x1 .f32 := Host.absf main_arg3
  let main_cst_4 : FVec F S_ .f32 := constant S_ .f32 0x7F800000#32
  let main_v15 : FVec F S250000x1 .f32 := broadcastInDim S250000x1 ![] bcast_S_S250000x1 main_cst_4
  let main_v16 : IVec S250000x1 1 := cmpf .olt main_v14 main_v15
  fn_part1 (F := F) main_arg4 main_arg5 main_arg6 main_arg7 main_arg8 main_v13 main_v16
-- ==== Kernel.lean ====
abbrev S250000x64 : Shape := ⟨2, ![250000, 64]⟩
abbrev S10000x64 : Shape := ⟨2, ![10000, 64]⟩
abbrev S250000x1 : Shape := ⟨2, ![250000, 1]⟩
abbrev S9x64x64 : Shape := ⟨3, ![9, 64, 64]⟩
abbrev S9x64 : Shape := ⟨2, ![9, 64]⟩
abbrev S3x64 : Shape := ⟨2, ![3, 64]⟩
abbrev S250000 : Shape := ⟨1, ![250000]⟩
abbrev S1x64x64 : Shape := ⟨3, ![1, 64, 64]⟩
abbrev S64x64 : Shape := ⟨2, ![64, 64]⟩
abbrev S64x192 : Shape := ⟨2, ![64, 192]⟩
abbrev S1x64 : Shape := ⟨2, ![1, 64]⟩
abbrev S64 : Shape := ⟨1, ![64]⟩
abbrev S192 : Shape := ⟨1, ![192]⟩
abbrev S1x192 : Shape := ⟨2, ![1, 192]⟩
abbrev S250000x192 : Shape := ⟨2, ![250000, 192]⟩
abbrev S10000x192 : Shape := ⟨2, ![10000, 192]⟩
abbrev S_ : Shape := ⟨0, ![]⟩
abbrev S10000x1 : Shape := ⟨2, ![10000, 1]⟩
abbrev S500000 : Shape := ⟨1, ![500000]⟩
abbrev S500000x64 : Shape := ⟨2, ![500000, 64]⟩
abbrev S500000x1 : Shape := ⟨2, ![500000, 1]⟩

abbrev nBuf : Space → Nat
  | .hbm => 201
  | .vmem => 79
  | .smem => 0
  | _ => 0

abbrev hbmTy0_0 (i : Nat) : BufTy := match i % 128 with
  | 0 => ⟨S250000x64, .f32⟩
  | 1 => ⟨S250000x64, .f32⟩
  | 2 => ⟨S10000x64, .f32⟩
  | 3 => ⟨S250000x1, .f32⟩
  | 4 => ⟨S250000x1, .f32⟩
  | 5 => ⟨S9x64x64, .f32⟩
  | 6 => ⟨S9x64, .f32⟩
  | 7 => ⟨S3x64, .f32⟩
  | 8 => ⟨S3x64, .f32⟩
  | 9 => ⟨S250000, .i32⟩
  | 10 => ⟨S250000, .i32⟩
  | 11 => ⟨S250000, .i32⟩
  | 12 => ⟨S250000, .i32⟩
  | 13 => ⟨S1x64x64, .f32⟩
  | 14 => ⟨S64x64, .f32⟩
  | 15 => ⟨S1x64x64, .f32⟩
  | 16 => ⟨S64x64, .f32⟩
  | 17 => ⟨S1x64x64, .f32⟩
  | 18 => ⟨S64x64, .f32⟩
  | 19 => ⟨S64x192, .f32⟩
  | 20 => ⟨S1x64, .f32⟩
  | 21 => ⟨S64, .f32⟩
  | 22 => ⟨S1x64, .f32⟩
  | 23 => ⟨S64, .f32⟩
  | 24 => ⟨S1x64, .f32⟩
  | 25 => ⟨S64, .f32⟩
  | 26 => ⟨S192, .f32⟩
  | 27 => ⟨S1x192, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S1x64x64, .f32⟩
  | 34 => ⟨S64x64, .f32⟩
  | 35 => ⟨S1x64x64, .f32⟩
  | 36 => ⟨S64x64, .f32⟩
  | 37 => ⟨S1x64x64, .f32⟩
  | 38 => ⟨S64x64, .f32⟩
  | 39 => ⟨S64x192, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S192, .f32⟩
  | 47 => ⟨S1x192, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S1x64x64, .f32⟩
  | 54 => ⟨S64x64, .f32⟩
  | 55 => ⟨S1x64, .f32⟩
  | 56 => ⟨S64, .f32⟩
  | 57 => ⟨S1x64, .f32⟩
  | 58 => ⟨S250000x192, .f32⟩
  | 59 => ⟨S250000x64, .f32⟩
  | 60 => ⟨S250000x64, .f32⟩
  | 61 => ⟨S250000x64, .f32⟩
  | 62 => ⟨S250000x64, .f32⟩
  | 63 => ⟨S10000x192, .f32⟩
  | 64 => ⟨S10000x64, .f32⟩
  | 65 => ⟨S10000x64, .f32⟩
  | 66 => ⟨S10000x64, .f32⟩
  | 67 => ⟨S_, .i32⟩
  | 68 => ⟨S250000, .i32⟩
  | 69 => ⟨S250000, .i1⟩
  | 70 => ⟨S_, .i32⟩
  | 71 => ⟨S250000, .i32⟩
  | 72 => ⟨S250000, .i32⟩
  | 73 => ⟨S250000, .i32⟩
  | 74 => ⟨S250000x1, .i32⟩
  | 75 => ⟨S250000x64, .f32⟩
  | 76 => ⟨S_, .i32⟩
  | 77 => ⟨S250000, .i32⟩
  | 78 => ⟨S250000, .i1⟩
  | 79 => ⟨S_, .i32⟩
  | 80 => ⟨S250000, .i32⟩
  | 81 => ⟨S250000, .i32⟩
  | 82 => ⟨S250000, .i32⟩
  | 83 => ⟨S250000x1, .i32⟩
  | 84 => ⟨S250000x64, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x64, .f32⟩
  | 94 => ⟨S250000x64, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S1x64, .f32⟩
  | 106 => ⟨S1x64, .f32⟩
  | 107 => ⟨S250000x64, .f32⟩
  | 108 => ⟨S250000x64, .f32⟩
  | 109 => ⟨S500000, .i32⟩
  | 110 => ⟨S_, .i32⟩
  | 111 => ⟨S250000, .i32⟩
  | 112 => ⟨S250000, .i1⟩
  | 113 => ⟨S_, .i32⟩
  | 114 => ⟨S250000, .i32⟩
  | 115 => ⟨S250000, .i32⟩
  | 116 => ⟨S250000, .i32⟩
  | 117 => ⟨S250000x1, .i32⟩
  | 118 => ⟨S250000x64, .f32⟩
  | 119 => ⟨S_, .i32⟩
  | 120 => ⟨S250000, .i32⟩
  | 121 => ⟨S250000, .i1⟩
  | 122 => ⟨S_, .i32⟩
  | 123 => ⟨S250000, .i32⟩
  | 124 => ⟨S250000, .i32⟩
  | 125 => ⟨S250000, .i32⟩
  | 126 => ⟨S250000x1, .i32⟩
  | 127 => ⟨S250000x64, .f32⟩
  | _ => ⟨S250000x64, .f32⟩

abbrev hbmTy0_1 (i : Nat) : BufTy := match i % 128 with
  | 0 => ⟨S500000x64, .f32⟩
  | 1 => ⟨S500000x64, .f32⟩
  | 2 => ⟨S500000x64, .f32⟩
  | 3 => ⟨S_, .f32⟩
  | 4 => ⟨S250000x64, .f32⟩
  | 5 => ⟨S500000x1, .i32⟩
  | 6 => ⟨S250000x64, .f32⟩
  | 7 => ⟨S_, .f32⟩
  | 8 => ⟨S250000x64, .f32⟩
  | 9 => ⟨S500000x1, .i32⟩
  | 10 => ⟨S250000x64, .f32⟩
  | 11 => ⟨S_, .f32⟩
  | 12 => ⟨S250000x64, .f32⟩
  | 13 => ⟨S250000x64, .f32⟩
  | 14 => ⟨S_, .i32⟩
  | 15 => ⟨S250000, .i32⟩
  | 16 => ⟨S250000, .i1⟩
  | 17 => ⟨S_, .i32⟩
  | 18 => ⟨S250000, .i32⟩
  | 19 => ⟨S250000, .i32⟩
  | 20 => ⟨S250000, .i32⟩
  | 21 => ⟨S250000x1, .i32⟩
  | 22 => ⟨S250000x64, .f32⟩
  | 23 => ⟨S250000x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S250000x64, .f32⟩
  | 37 => ⟨S250000x64, .f32⟩
  | 38 => ⟨S250000x64, .f32⟩
  | 39 => ⟨S_, .f32⟩
  | 40 => ⟨S250000x1, .f32⟩
  | 41 => ⟨S_, .f32⟩
  | 42 => ⟨S10000x1, .f32⟩
  | 43 => ⟨S250000x1, .i32⟩
  | 44 => ⟨S10000x1, .f32⟩
  | 45 => ⟨S_, .f32⟩
  | 46 => ⟨S250000x1, .f32⟩
  | 47 => ⟨S_, .f32⟩
  | 48 => ⟨S10000x1, .f32⟩
  | 49 => ⟨S250000x1, .i32⟩
  | 50 => ⟨S10000x1, .f32⟩
  | 51 => ⟨S_, .f32⟩
  | 52 => ⟨S10000x64, .f32⟩
  | 53 => ⟨S250000x1, .i32⟩
  | 54 => ⟨S10000x64, .f32⟩
  | 55 => ⟨S_, .f32⟩
  | 56 => ⟨S10000x1, .f32⟩
  | 57 => ⟨S10000x1, .f32⟩
  | 58 => ⟨S10000x64, .f32⟩
  | 59 => ⟨S10000x64, .f32⟩
  | 60 => ⟨S_, .f32⟩
  | 61 => ⟨S10000x64, .f32⟩
  | 62 => ⟨S250000x1, .i32⟩
  | 63 => ⟨S10000x64, .f32⟩
  | 64 => ⟨S_, .f32⟩
  | 65 => ⟨S10000x1, .f32⟩
  | 66 => ⟨S10000x1, .f32⟩
  | 67 => ⟨S10000x64, .f32⟩
  | 68 => ⟨S10000x64, .f32⟩
  | 69 => ⟨S10000x64, .f32⟩
  | 70 => ⟨S1x64, .f32⟩
  | 71 => ⟨S1x64, .f32⟩
  | 72 => ⟨S10000x64, .f32⟩
  | _ => ⟨S250000x64, .f32⟩

abbrev hbmTy (i : Nat) : BufTy := match i / 128 with
  | 0 => hbmTy0_0 i
  | 1 => hbmTy0_1 i
  | _ => ⟨S250000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x192, .f32⟩
  | .local _ .vmem, ⟨5, _⟩ => ⟨S1x192, .f32⟩
  | .local _ .vmem, ⟨6, _⟩ => ⟨S64x64, .f32⟩
  | .local _ .vmem, ⟨7, _⟩ => ⟨S1x64, .f32⟩
  | .local _ .vmem, ⟨8, _⟩ => ⟨S10000x192, .f32⟩
  | .local _ .vmem, ⟨9, _⟩ => ⟨S10000x192, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x192, .f32⟩
  | .local _ .vmem, ⟨14, _⟩ => ⟨S1x192, .f32⟩
  | .local _ .vmem, ⟨15, _⟩ => ⟨S10000x192, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x1, .f32⟩
  | .local _ .vmem, ⟨25, _⟩ => ⟨S10000x1, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x1, .f32⟩
  | .local _ .vmem, ⟨49, _⟩ => ⟨S10000x1, .f32⟩
  | .local _ .vmem, ⟨50, _⟩ => ⟨S10000x64, .f32⟩
  | .local _ .vmem, ⟨51, _⟩ => ⟨S10000x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S64x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S1x64, .f32⟩
  | .local _ .vmem, ⟨77, _⟩ => ⟨S1x64, .f32⟩
  | .local _ .vmem, ⟨78, _⟩ => ⟨S10000x64, .f32⟩
  | _, _ => ⟨S250000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_v53 : Ref sig .tc := ⟨.hbm, 68, rfl⟩
abbrev main_v54 : Ref sig .tc := ⟨.hbm, 69, rfl⟩
abbrev main_c_0 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_1 : Ref sig .tc := ⟨.hbm, 76, rfl⟩
abbrev main_v60 : Ref sig .tc := ⟨.hbm, 77, rfl⟩
abbrev main_v61 : Ref sig .tc := ⟨.hbm, 78, rfl⟩
abbrev main_c_2 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_3 : Ref sig .tc := ⟨.hbm, 85, rfl⟩
abbrev main_v67 : Ref sig .tc := ⟨.hbm, 86, rfl⟩
abbrev main_v68 : Ref sig .tc := ⟨.hbm, 87, rfl⟩
abbrev main_c_4 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74_0 : Ref sig .tc := ⟨.hbm, 94, rfl⟩
abbrev main_v74_1 : Ref sig .tc := ⟨.hbm, 95, rfl⟩
abbrev main_v74_2 : Ref sig .tc := ⟨.hbm, 96, rfl⟩
abbrev main_cst : Ref sig .tc := ⟨.hbm, 97, rfl⟩
abbrev main_v75 : Ref sig .tc := ⟨.hbm, 98, rfl⟩
abbrev main_v76 : Ref sig .tc := ⟨.hbm, 99, rfl⟩
abbrev main_cst_5 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83_0 : Ref sig .tc := ⟨.hbm, 107, rfl⟩
abbrev main_v83_1 : Ref sig .tc := ⟨.hbm, 108, rfl⟩
abbrev main_v84 : Ref sig .tc := ⟨.hbm, 109, rfl⟩
abbrev main_c_6 : Ref sig .tc := ⟨.hbm, 110, rfl⟩
abbrev main_v85 : Ref sig .tc := ⟨.hbm, 111, rfl⟩
abbrev main_v86 : Ref sig .tc := ⟨.hbm, 112, rfl⟩
abbrev main_c_7 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_8 : Ref sig .tc := ⟨.hbm, 119, rfl⟩
abbrev main_v92 : Ref sig .tc := ⟨.hbm, 120, rfl⟩
abbrev main_v93 : Ref sig .tc := ⟨.hbm, 121, rfl⟩
abbrev main_c_9 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_11 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_12 : Ref sig .tc := ⟨.hbm, 139, rfl⟩
abbrev main_v108 : Ref sig .tc := ⟨.hbm, 140, rfl⟩
abbrev main_v109 : Ref sig .tc := ⟨.hbm, 141, rfl⟩
abbrev main_c_13 : Ref sig .tc := ⟨.hbm, 142, rfl⟩
abbrev main_v110 : Ref sig .tc := ⟨.hbm, 143, rfl⟩
abbrev main_v111 : Ref sig .tc := ⟨.hbm, 144, rfl⟩
abbrev main_c_14 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117_0 : Ref sig .tc := ⟨.hbm, 151, rfl⟩
abbrev main_v117_1 : Ref sig .tc := ⟨.hbm, 152, rfl⟩
abbrev main_v117_2 : Ref sig .tc := ⟨.hbm, 153, rfl⟩
abbrev main_cst_15 : Ref sig .tc := ⟨.hbm, 154, rfl⟩
abbrev main_v118 : Ref sig .tc := ⟨.hbm, 155, rfl⟩
abbrev main_v119 : Ref sig .tc := ⟨.hbm, 156, rfl⟩
abbrev main_cst_16 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127_0 : Ref sig .tc := ⟨.hbm, 165, rfl⟩
abbrev main_v127_1 : Ref sig .tc := ⟨.hbm, 166, rfl⟩
abbrev main_cst_17 : Ref sig .tc := ⟨.hbm, 167, rfl⟩
abbrev main_v128 : Ref sig .tc := ⟨.hbm, 168, rfl⟩
abbrev main_cst_18 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_19 : Ref sig .tc := ⟨.hbm, 173, rfl⟩
abbrev main_v132 : Ref sig .tc := ⟨.hbm, 174, rfl⟩
abbrev main_cst_20 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_21 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_22 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_23 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_24 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg7_0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg6_1 : Ref sig .tc := ⟨.vmem, 71, rfl⟩
abbrev cc6_stg7_0 : Ref sig .tc := ⟨.vmem, 72, rfl⟩
abbrev cc6_stg7_1 : Ref sig .tc := ⟨.vmem, 73, rfl⟩
abbrev cc7_stg0_0 : Ref sig .tc := ⟨.vmem, 74, rfl⟩
abbrev cc7_stg1_0 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem7_0 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem6_1 : DmaSem sig := 71
abbrev cc6_sem7_0 : DmaSem sig := 72
abbrev cc6_sem7_1 : DmaSem sig := 73
abbrev cc7_sem0_0 : DmaSem sig := 74
abbrev cc7_sem1_0 : DmaSem sig := 75
abbrev cc7_sem2_0 : DmaSem sig := 76
abbrev cc7_sem3_0 : DmaSem sig := 77
abbrev cc7_sem4_0 : DmaSem sig := 78

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S10000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S10000x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S10000x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S10000x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

class Facts₀ : Prop where
  slices_S9x64x64_S1x64x64_0_0_0 : S9x64x64.Slices ![0, 0, 0] S1x64x64
  shapeCasts_S1x64x64_S64x64 : S1x64x64.ShapeCasts S64x64
  slices_S9x64x64_S1x64x64_3_0_0 : S9x64x64.Slices ![3, 0, 0] S1x64x64
  slices_S9x64x64_S1x64x64_4_0_0 : S9x64x64.Slices ![4, 0, 0] S1x64x64
  concatenates_S64x64_S64x64_S64x64_S64x192_d1 : Shape.Concatenates [S64x64, S64x64, S64x64] S64x192 1
  slices_S9x64_S1x64_0_0 : S9x64.Slices ![0, 0] S1x64
  shapeCasts_S1x64_S64 : S1x64.ShapeCasts S64
  slices_S9x64_S1x64_3_0 : S9x64.Slices ![3, 0] S1x64
  slices_S9x64_S1x64_4_0 : S9x64.Slices ![4, 0] S1x64
  concatenates_S64_S64_S64_S192_d0 : Shape.Concatenates [S64, S64, S64] S192 0
  shapeCasts_S192_S1x192 : S192.ShapeCasts S1x192
  slices_S9x64x64_S1x64x64_1_0_0 : S9x64x64.Slices ![1, 0, 0] S1x64x64
  slices_S9x64_S1x64_1_0 : S9x64.Slices ![1, 0] S1x64
  shapeCasts_S64_S1x64 : S64.ShapeCasts S1x64
  slices_S9x64x64_S1x64x64_2_0_0 : S9x64x64.Slices ![2, 0, 0] S1x64x64
  slices_S9x64x64_S1x64x64_5_0_0 : S9x64x64.Slices ![5, 0, 0] S1x64x64
  slices_S9x64x64_S1x64x64_8_0_0 : S9x64x64.Slices ![8, 0, 0] S1x64x64
  slices_S9x64_S1x64_2_0 : S9x64.Slices ![2, 0] S1x64
  slices_S9x64_S1x64_5_0 : S9x64.Slices ![5, 0] S1x64
  slices_S9x64_S1x64_8_0 : S9x64.Slices ![8, 0] S1x64
  slices_S9x64x64_S1x64x64_6_0_0 : S9x64x64.Slices ![6, 0, 0] S1x64x64
  slices_S9x64_S1x64_6_0 : S9x64.Slices ![6, 0] S1x64
  slices_S9x64x64_S1x64x64_7_0_0 : S9x64x64.Slices ![7, 0, 0] S1x64x64
  slices_S9x64_S1x64_7_0 : S9x64.Slices ![7, 0] S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10000x192 : S1x192.Broadcasts S10000x192
  inb_S10000x192_S10000x192_0_0 : ∀ a, (![0, 0] : Fin 2 → Nat) a + S10000x192.size a ≤ S10000x192.size a
  h_S10000x192 : 0 < S10000x192.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S250000x192_S250000x64_0_0 : S250000x192.Slices ![0, 0] S250000x64
  slices_S250000x192_S250000x64_0_64 : S250000x192.Slices ![0, 64] S250000x64
  slices_S250000x192_S250000x64_0_128 : S250000x192.Slices ![0, 128] S250000x64
  slices_S10000x192_S10000x64_0_0 : S10000x192.Slices ![0, 0] S10000x64
  slices_S10000x192_S10000x64_0_64 : S10000x192.Slices ![0, 64] S10000x64
  slices_S10000x192_S10000x64_0_128 : S10000x192.Slices ![0, 128] S10000x64
  bcast_S_S250000 : S_.BroadcastsInDim S250000 (![] : Fin 0 → Fin S250000.rank)
  bcast_S250000_S250000x1_0 : S250000.BroadcastsInDim S250000x1 (![0] : Fin 1 → Fin S250000x1.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  reduces_S10000x64_S64 : S10000x64.Reduces [0] S64
  bcast_S_S1x64 : S_.BroadcastsInDim S1x64 (![] : Fin 0 → Fin S1x64.rank)
  slices_S3x64_S1x64_0_0 : S3x64.Slices ![0, 0] S1x64
  concatenates_S250000_S250000_S500000_d0 : Shape.Concatenates [S250000, S250000] S500000 0
  concatenates_S250000x64_S250000x64_S500000x64_d0 : Shape.Concatenates [S250000x64, S250000x64] S500000x64 0
  bcast_S_S250000x64 : S_.BroadcastsInDim S250000x64 (![] : Fin 0 → Fin S250000x64.rank)
  bcast_S500000_S500000x1_0 : S500000.BroadcastsInDim S500000x1 (![0] : Fin 1 → Fin S500000x1.rank)
  slices_S3x64_S1x64_1_0 : S3x64.Slices ![1, 0] S1x64
  bcast_S_S250000x1 : S_.BroadcastsInDim S250000x1 (![] : Fin 0 → Fin S250000x1.rank)
  bcast_S_S10000x1 : S_.BroadcastsInDim S10000x1 (![] : Fin 0 → Fin S10000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  slices_S3x64_S1x64_2_0 : S3x64.Slices ![2, 0] S1x64
  dot_S10000x64_S64x192_S10000x192_1_0_0_1_n_n_wf : DotDims.WF S10000x64 S64x192 S10000x192 [1] [0] [0] [1] [] []
  dot_S10000x64_S64x64_S10000x64_1_0_0_1_n_n_wf : DotDims.WF S10000x64 S64x64 S10000x64 [1] [0] [0] [1] [] []
  gather_S250000x64_S250000x1_S250000x64_1_0_n_n_0_1_164_wf : GatherDims.WF S250000x64 S250000x1 S250000x64 [1] [0] [] [0] [] 1 ![1, 64]
  gather_S10000x64_S250000x1_S250000x64_1_0_n_n_0_1_164_wf : GatherDims.WF S10000x64 S250000x1 S250000x64 [1] [0] [] [0] [] 1 ![1, 64]
  scatter_S250000x64_S500000x1_S500000x64_1_0_0_1_wf : ScatterDims.WF S250000x64 S500000x1 S500000x64 [1] [0] [0] 1
  scatter_S10000x1_S250000x1_S250000x1_1_0_0_1_wf : ScatterDims.WF S10000x1 S250000x1 S250000x1 [1] [0] [0] 1
  scatter_S10000x64_S250000x1_S250000x64_1_0_0_1_wf : ScatterDims.WF S10000x64 S250000x1 S250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S250000x64.size a
  hwx0_0 : ∀ i : grid0.Coords, EltTy.bits .f32 = 32 ∨ (Rect.block (s := S250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S250000x64.size a
  hwx0_1 : ∀ i : grid0.Coords, EltTy.bits .f32 = 32 ∨ (Rect.block (s := S250000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .f32 = 32 ∨ (Rect.block (s := S64x192) S64x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192.size a ≤ S1x192.size a
  hwx0_3 : ∀ i : grid0.Coords, EltTy.bits .f32 = 32 ∨ (Rect.block (s := S1x192) S1x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x192.size a ≤ S250000x192.size a
  hwx0_6 : ∀ i : grid0.Coords, EltTy.bits .f32 = 32 ∨ (Rect.block (s := S250000x192) S10000x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S250000x64.size a
  hwx0_7 : ∀ i : grid0.Coords, EltTy.bits .f32 = 32 ∨ (Rect.block (s := S250000x64) S10000x64.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x192.size a ≤ S64x192.size a
  hwx1_1 : ∀ i : grid1.Coords, EltTy.bits .f32 = 32 ∨ (Rect.block (s := S64x192) S64x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x192.size a ≤ S10000x192.size a
  hwx1_3 : ∀ i : grid1.Coords, EltTy.bits .f32 = 32 ∨ (Rect.block (s := S10000x192) S10000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S250000x64.size a
  hwx2_0 : ∀ i : grid2.Coords, EltTy.bits .f32 = 32 ∨ (Rect.block (s := S250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S250000x64.size a
  hwx2_1 : ∀ i : grid2.Coords, EltTy.bits .f32 = 32 ∨ (Rect.block (s := S250000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S250000x64.size a
  hwx2_2 : ∀ i : grid2.Coords, EltTy.bits .f32 = 32 ∨ (Rect.block (s := S250000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S250000x64.size a
  hwx2_3 : ∀ i : grid2.Coords, EltTy.bits .f32 = 32 ∨ (Rect.block (s := S250000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S250000x1.size a
  hwx2_4 : ∀ i : grid2.Coords, EltTy.bits .f32 = 32 ∨ (Rect.block (s := S250000x1) S10000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S250000x64.size a
  hwx2_5 : ∀ i : grid2.Coords, EltTy.bits .f32 = 32 ∨ (Rect.block (s := S250000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S250000x64.size a
  hwx3_0 : ∀ i : grid3.Coords, EltTy.bits .f32 = 32 ∨ (Rect.block (s := S250000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S250000x64.size a
  hwx3_5 : ∀ i : grid3.Coords, EltTy.bits .f32 = 32 ∨ (Rect.block (s := S250000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S250000x64.size a
  hwx3_6 : ∀ i : grid3.Coords, EltTy.bits .f32 = 32 ∨ (Rect.block (s := S250000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S250000x64.size a
  hwx4_0 : ∀ i : grid4.Coords, EltTy.bits .f32 = 32 ∨ (Rect.block (s := S250000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S250000x64.size a
  hwx4_1 : ∀ i : grid4.Coords, EltTy.bits .f32 = 32 ∨ (Rect.block (s := S250000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S250000x64.size a
  hwx4_2 : ∀ i : grid4.Coords, EltTy.bits .f32 = 32 ∨ (Rect.block (s := S250000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S250000x64.size a
  hwx4_3 : ∀ i : grid4.Coords, EltTy.bits .f32 = 32 ∨ (Rect.block (s := S250000x64) S10000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x1.size a ≤ S250000x1.size a
  hwx4_4 : ∀ i : grid4.Coords, EltTy.bits .f32 = 32 ∨ (Rect.block (s := S250000x1) S10000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S250000x64.size a
  hwx4_5 : ∀ i : grid4.Coords, EltTy.bits .f32 = 32 ∨ (Rect.block (s := S250000x64) S10000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S250000x64.size a
  hwx5_0 : ∀ i : grid5.Coords, EltTy.bits .f32 = 32 ∨ (Rect.block (s := S250000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S250000x64.size a
  hwx5_5 : ∀ i : grid5.Coords, EltTy.bits .f32 = 32 ∨ (Rect.block (s := S250000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S250000x64.size a
  hwx6_0 : ∀ i : grid6.Coords, EltTy.bits .f32 = 32 ∨ (Rect.block (s := S250000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S250000x64.size a
  hwx6_1 : ∀ i : grid6.Coords, EltTy.bits .f32 = 32 ∨ (Rect.block (s := S250000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S250000x64.size a
  hwx6_6 : ∀ i : grid6.Coords, EltTy.bits .f32 = 32 ∨ (Rect.block (s := S250000x64) S10000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x64.size a ≤ S250000x64.size a
  hwx6_7 : ∀ i : grid6.Coords, EltTy.bits .f32 = 32 ∨ (Rect.block (s := S250000x64) S10000x64.size (cc6_transform_7 i) (hinb6_7 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S10000x64.size a
  hwx7_0 : ∀ i : grid7.Coords, EltTy.bits .f32 = 32 ∨ (Rect.block (s := S10000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S10000x64.size a
  hwx7_1 : ∀ i : grid7.Coords, EltTy.bits .f32 = 32 ∨ (Rect.block (s := S10000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S10000x64.size a
  hwx7_4 : ∀ i : grid7.Coords, EltTy.bits .f32 = 32 ∨ (Rect.block (s := S10000x64) S10000x64.size (cc7_transform_4 i) (hinb7_4 i)).WholeWords (EltTy.packing .f32)

variable [Facts₀]

def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S250000x64_S250000x1_S250000x64_1_0_n_n_0_1_164 : GatherDims S250000x64 S250000x1 S250000x64 where
  offsetDims := [1]
  collapsedSliceDims := [0]
  operandBatchingDims := []
  startIndicesBatchingDims := []
  startIndexMap := [0]
  indexVectorDim := 1
  sliceSizes := ![1, 64]
  wf := gather_S250000x64_S250000x1_S250000x64_1_0_n_n_0_1_164_wf
def gather_S10000x64_S250000x1_S250000x64_1_0_n_n_0_1_164 : GatherDims S10000x64 S250000x1 S250000x64 where
  offsetDims := [1]
  collapsedSliceDims := [0]
  operandBatchingDims := []
  startIndicesBatchingDims := []
  startIndexMap := [0]
  indexVectorDim := 1
  sliceSizes := ![1, 64]
  wf := gather_S10000x64_S250000x1_S250000x64_1_0_n_n_0_1_164_wf
def scatter_S250000x64_S500000x1_S500000x64_1_0_0_1 : ScatterDims S250000x64 S500000x1 S500000x64 where
  updateWindowDims := [1]
  insertedWindowDims := [0]
  scatterDimsToOperandDims := [0]
  indexVectorDim := 1
  wf := scatter_S250000x64_S500000x1_S500000x64_1_0_0_1_wf
def scatter_S10000x1_S250000x1_S250000x1_1_0_0_1 : ScatterDims S10000x1 S250000x1 S250000x1 where
  updateWindowDims := [1]
  insertedWindowDims := [0]
  scatterDimsToOperandDims := [0]
  indexVectorDim := 1
  wf := scatter_S10000x1_S250000x1_S250000x1_1_0_0_1_wf
def scatter_S10000x64_S250000x1_S250000x64_1_0_0_1 : ScatterDims S10000x64 S250000x1 S250000x64 where
  updateWindowDims := [1]
  insertedWindowDims := [0]
  scatterDimsToOperandDims := [0]
  indexVectorDim := 1
  wf := scatter_S10000x64_S250000x1_S250000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45_0) S10000x192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v45_1) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v26) S64x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x192.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_1) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v74_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v74_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v74_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v83_1) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v47) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v116) S10000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg3) S10000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v117_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v117_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v117_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v117_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v126) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83_0) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v36) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v39) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v41) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v44) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127_0) S10000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v127_1) S10000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v150) S10000x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v52) S10000x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v151) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v152) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v153) S10000x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S250000x64 : Shape := ⟨2, ![250000, 64]⟩
abbrev S10000x64 : Shape := ⟨2, ![10000, 64]⟩
abbrev S250000x1 : Shape := ⟨2, ![250000, 1]⟩
abbrev S9x64x64 : Shape := ⟨3, ![9, 64, 64]⟩
abbrev S9x64 : Shape := ⟨2, ![9, 64]⟩
abbrev S3x64 : Shape := ⟨2, ![3, 64]⟩
abbrev S250000 : Shape := ⟨1, ![250000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S500000 : Shape := ⟨1, ![500000]⟩
abbrev S500000x64 : Shape := ⟨2, ![500000, 64]⟩
abbrev S500000x1 : Shape := ⟨2, ![500000, 1]⟩
abbrev S10000x1 : Shape := ⟨2, ![10000, 1]⟩

abbrev nBuf : Space → Nat
  | .hbm => 393
  | .vmem => 0
  | .smem => 0
  | _ => 0

abbrev hbmTy0_0 (i : Nat) : BufTy := match i % 128 with
  | 0 => ⟨S250000x64, .f32⟩
  | 1 => ⟨S250000x64, .f32⟩
  | 2 => ⟨S10000x64, .f32⟩
  | 3 => ⟨S250000x1, .f32⟩
  | 4 => ⟨S250000x1, .f32⟩
  | 5 => ⟨S9x64x64, .f32⟩
  | 6 => ⟨S9x64, .f32⟩
  | 7 => ⟨S3x64, .f32⟩
  | 8 => ⟨S3x64, .f32⟩
  | 9 => ⟨S250000, .i32⟩
  | 10 => ⟨S250000, .i32⟩
  | 11 => ⟨S250000, .i32⟩
  | 12 => ⟨S250000, .i32⟩
  | 13 => ⟨S1x64x64, .f32⟩
  | 14 => ⟨S64x64, .f32⟩
  | 15 => ⟨S250000x64, .f32⟩
  | 16 => ⟨S1x64, .f32⟩
  | 17 => ⟨S64, .f32⟩
  | 18 => ⟨S1x64, .f32⟩
  | 19 => ⟨S250000x64, .f32⟩
  | 20 => ⟨S250000x64, .f32⟩
  | 21 => ⟨S1x64x64, .f32⟩
  | 22 => ⟨S64x64, .f32⟩
  | 23 => ⟨S250000x64, .f32⟩
  | 24 => ⟨S1x64, .f32⟩
  | 25 => ⟨S64, .f32⟩
  | 26 => ⟨S1x64, .f32⟩
  | 27 => ⟨S250000x64, .f32⟩
  | 28 => ⟨S250000x64, .f32⟩
  | 29 => ⟨S1x64x64, .f32⟩
  | 30 => ⟨S64x64, .f32⟩
  | 31 => ⟨S250000x64, .f32⟩
  | 32 => ⟨S1x64, .f32⟩
  | 33 => ⟨S64, .f32⟩
  | 34 => ⟨S1x64, .f32⟩
  | 35 => ⟨S250000x64, .f32⟩
  | 36 => ⟨S250000x64, .f32⟩
  | 37 => ⟨S1x64x64, .f32⟩
  | 38 => ⟨S64x64, .f32⟩
  | 39 => ⟨S250000x64, .f32⟩
  | 40 => ⟨S1x64, .f32⟩
  | 41 => ⟨S64, .f32⟩
  | 42 => ⟨S1x64, .f32⟩
  | 43 => ⟨S250000x64, .f32⟩
  | 44 => ⟨S250000x64, .f32⟩
  | 45 => ⟨S1x64x64, .f32⟩
  | 46 => ⟨S64x64, .f32⟩
  | 47 => ⟨S10000x64, .f32⟩
  | 48 => ⟨S1x64, .f32⟩
  | 49 => ⟨S64, .f32⟩
  | 50 => ⟨S1x64, .f32⟩
  | 51 => ⟨S10000x64, .f32⟩
  | 52 => ⟨S10000x64, .f32⟩
  | 53 => ⟨S1x64x64, .f32⟩
  | 54 => ⟨S64x64, .f32⟩
  | 55 => ⟨S10000x64, .f32⟩
  | 56 => ⟨S1x64, .f32⟩
  | 57 => ⟨S64, .f32⟩
  | 58 => ⟨S1x64, .f32⟩
  | 59 => ⟨S10000x64, .f32⟩
  | 60 => ⟨S10000x64, .f32⟩
  | 61 => ⟨S_, .i32⟩
  | 62 => ⟨S250000, .i32⟩
  | 63 => ⟨S250000, .i1⟩
  | 64 => ⟨S_, .i32⟩
  | 65 => ⟨S250000, .i32⟩
  | 66 => ⟨S250000, .i32⟩
  | 67 => ⟨S250000, .i32⟩
  | 68 => ⟨S250000x1, .i32⟩
  | 69 => ⟨S250000x64, .f32⟩
  | 70 => ⟨S_, .i32⟩
  | 71 => ⟨S250000, .i32⟩
  | 72 => ⟨S250000, .i1⟩
  | 73 => ⟨S_, .i32⟩
  | 74 => ⟨S250000, .i32⟩
  | 75 => ⟨S250000, .i32⟩
  | 76 => ⟨S250000, .i32⟩
  | 77 => ⟨S250000x1, .i32⟩
  | 78 => ⟨S250000x64, .f32⟩
  | 79 => ⟨S250000x64, .f32⟩
  | 80 => ⟨S250000x64, .f32⟩
  | 81 => ⟨S_, .i32⟩
  | 82 => ⟨S250000, .i32⟩
  | 83 => ⟨S250000, .i1⟩
  | 84 => ⟨S_, .i32⟩
  | 85 => ⟨S250000, .i32⟩
  | 86 => ⟨S250000, .i32⟩
  | 87 => ⟨S250000, .i32⟩
  | 88 => ⟨S250000x1, .i32⟩
  | 89 => ⟨S250000x64, .f32⟩
  | 90 => ⟨S250000x64, .f32⟩
  | 91 => ⟨S250000x64, .f32⟩
  | 92 => ⟨S250000x64, .f32⟩
  | 93 => ⟨S1x64, .f32⟩
  | 94 => ⟨S64, .f32⟩
  | 95 => ⟨S1x64, .f32⟩
  | 96 => ⟨S64, .f32⟩
  | 97 => ⟨S_, .f32⟩
  | 98 => ⟨S64, .f32⟩
  | 99 => ⟨S_, .f32⟩
  | 100 => ⟨S64, .f32⟩
  | 101 => ⟨S64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S250000x64, .f32⟩
  | 110 => ⟨S250000x64, .f32⟩
  | 111 => ⟨S250000x64, .f32⟩
  | 112 => ⟨S_, .f32⟩
  | 113 => ⟨S_, .f32⟩
  | 114 => ⟨S_, .f32⟩
  | 115 => ⟨S_, .f32⟩
  | 116 => ⟨S64, .f32⟩
  | 117 => ⟨S64, .f32⟩
  | 118 => ⟨S64, .f32⟩
  | 119 => ⟨S_, .f32⟩
  | 120 => ⟨S_, .i1⟩
  | 121 => ⟨S_, .f32⟩
  | 122 => ⟨S_, .f32⟩
  | 123 => ⟨S64, .f32⟩
  | 124 => ⟨S64, .f32⟩
  | 125 => ⟨S1x64, .f32⟩
  | 126 => ⟨S250000x64, .f32⟩
  | 127 => ⟨S250000x64, .f32⟩
  | _ => ⟨S250000x64, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S250000x64, .f32⟩
  | 6 => ⟨S250000x64, .f32⟩
  | 7 => ⟨S1x64, .f32⟩
  | 8 => ⟨S250000x64, .f32⟩
  | 9 => ⟨S250000x64, .f32⟩
  | 10 => ⟨S1x64, .f32⟩
  | 11 => ⟨S250000x64, .f32⟩
  | 12 => ⟨S250000x64, .f32⟩
  | 13 => ⟨S_, .f32⟩
  | 14 => ⟨S250000x64, .f32⟩
  | 15 => ⟨S250000x64, .i1⟩
  | 16 => ⟨S_, .f32⟩
  | 17 => ⟨S250000x64, .f32⟩
  | 18 => ⟨S250000x64, .i1⟩
  | 19 => ⟨S_, .f32⟩
  | 20 => ⟨S_, .f32⟩
  | 21 => ⟨S250000x64, .f32⟩
  | 22 => ⟨S250000x64, .f32⟩
  | 23 => ⟨S250000x64, .f32⟩
  | 24 => ⟨S_, .f32⟩
  | 25 => ⟨S250000x64, .f32⟩
  | 26 => ⟨S250000x64, .f32⟩
  | 27 => ⟨S250000x64, .f32⟩
  | 28 => ⟨S250000x64, .f32⟩
  | 29 => ⟨S250000x64, .f32⟩
  | 30 => ⟨S_, .f32⟩
  | 31 => ⟨S250000x64, .f32⟩
  | 32 => ⟨S250000x64, .f32⟩
  | 33 => ⟨S_, .f32⟩
  | 34 => ⟨S250000x64, .f32⟩
  | 35 => ⟨S250000x64, .f32⟩
  | 36 => ⟨S500000, .i32⟩
  | 37 => ⟨S_, .i32⟩
  | 38 => ⟨S250000, .i32⟩
  | 39 => ⟨S250000, .i1⟩
  | 40 => ⟨S_, .i32⟩
  | 41 => ⟨S250000, .i32⟩
  | 42 => ⟨S250000, .i32⟩
  | 43 => ⟨S250000, .i32⟩
  | 44 => ⟨S250000x1, .i32⟩
  | 45 => ⟨S250000x64, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x64, .f32⟩
  | 55 => ⟨S500000x64, .f32⟩
  | 56 => ⟨S500000x64, .f32⟩
  | 57 => ⟨S500000x64, .f32⟩
  | 58 => ⟨S_, .f32⟩
  | 59 => ⟨S250000x64, .f32⟩
  | 60 => ⟨S500000x1, .i32⟩
  | 61 => ⟨S250000x64, .f32⟩
  | 62 => ⟨S_, .f32⟩
  | 63 => ⟨S250000x64, .f32⟩
  | 64 => ⟨S500000x1, .i32⟩
  | 65 => ⟨S250000x64, .f32⟩
  | 66 => ⟨S_, .f32⟩
  | 67 => ⟨S250000x64, .f32⟩
  | 68 => ⟨S250000x64, .f32⟩
  | 69 => ⟨S250000x64, .f32⟩
  | 70 => ⟨S250000x64, .f32⟩
  | 71 => ⟨S_, .i32⟩
  | 72 => ⟨S250000, .i32⟩
  | 73 => ⟨S250000, .i1⟩
  | 74 => ⟨S_, .i32⟩
  | 75 => ⟨S250000, .i32⟩
  | 76 => ⟨S250000, .i32⟩
  | 77 => ⟨S250000, .i32⟩
  | 78 => ⟨S250000x1, .i32⟩
  | 79 => ⟨S250000x64, .f32⟩
  | 80 => ⟨S250000x64, .f32⟩
  | 81 => ⟨S250000x64, .f32⟩
  | 82 => ⟨S250000x64, .f32⟩
  | 83 => ⟨S1x64, .f32⟩
  | 84 => ⟨S64, .f32⟩
  | 85 => ⟨S1x64, .f32⟩
  | 86 => ⟨S64, .f32⟩
  | 87 => ⟨S_, .f32⟩
  | 88 => ⟨S64, .f32⟩
  | 89 => ⟨S_, .f32⟩
  | 90 => ⟨S64, .f32⟩
  | 91 => ⟨S64, .f32⟩
  | 92 => ⟨S_, .i32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S250000x64, .f32⟩
  | 100 => ⟨S250000x64, .f32⟩
  | 101 => ⟨S250000x64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S_, .i1⟩
  | 111 => ⟨S_, .f32⟩
  | 112 => ⟨S_, .f32⟩
  | 113 => ⟨S64, .f32⟩
  | 114 => ⟨S64, .f32⟩
  | 115 => ⟨S1x64, .f32⟩
  | 116 => ⟨S250000x64, .f32⟩
  | 117 => ⟨S250000x64, .f32⟩
  | 118 => ⟨S_, .f32⟩
  | 119 => ⟨S64, .f32⟩
  | 120 => ⟨S64, .f32⟩
  | 121 => ⟨S64, .f32⟩
  | 122 => ⟨S1x64, .f32⟩
  | 123 => ⟨S250000x64, .f32⟩
  | 124 => ⟨S250000x64, .f32⟩
  | 125 => ⟨S1x64, .f32⟩
  | 126 => ⟨S250000x64, .f32⟩
  | 127 => ⟨S250000x64, .f32⟩
  | _ => ⟨S250000x64, .f32⟩

abbrev hbmTy0_2 (i : Nat) : BufTy := match i % 128 with
  | 0 => ⟨S1x64, .f32⟩
  | 1 => ⟨S250000x64, .f32⟩
  | 2 => ⟨S250000x64, .f32⟩
  | 3 => ⟨S_, .f32⟩
  | 4 => ⟨S250000x64, .f32⟩
  | 5 => ⟨S250000x64, .i1⟩
  | 6 => ⟨S_, .f32⟩
  | 7 => ⟨S250000x64, .f32⟩
  | 8 => ⟨S250000x64, .i1⟩
  | 9 => ⟨S_, .f32⟩
  | 10 => ⟨S_, .f32⟩
  | 11 => ⟨S250000x64, .f32⟩
  | 12 => ⟨S250000x64, .f32⟩
  | 13 => ⟨S250000x64, .f32⟩
  | 14 => ⟨S_, .f32⟩
  | 15 => ⟨S250000x64, .f32⟩
  | 16 => ⟨S250000x64, .f32⟩
  | 17 => ⟨S250000x64, .f32⟩
  | 18 => ⟨S1x64x64, .f32⟩
  | 19 => ⟨S64x64, .f32⟩
  | 20 => ⟨S250000x64, .f32⟩
  | 21 => ⟨S1x64, .f32⟩
  | 22 => ⟨S64, .f32⟩
  | 23 => ⟨S1x64, .f32⟩
  | 24 => ⟨S250000x64, .f32⟩
  | 25 => ⟨S250000x64, .f32⟩
  | 26 => ⟨S1x64x64, .f32⟩
  | 27 => ⟨S64x64, .f32⟩
  | 28 => ⟨S250000x64, .f32⟩
  | 29 => ⟨S1x64, .f32⟩
  | 30 => ⟨S64, .f32⟩
  | 31 => ⟨S1x64, .f32⟩
  | 32 => ⟨S250000x64, .f32⟩
  | 33 => ⟨S250000x64, .f32⟩
  | 34 => ⟨S1x64x64, .f32⟩
  | 35 => ⟨S64x64, .f32⟩
  | 36 => ⟨S10000x64, .f32⟩
  | 37 => ⟨S1x64, .f32⟩
  | 38 => ⟨S64, .f32⟩
  | 39 => ⟨S1x64, .f32⟩
  | 40 => ⟨S10000x64, .f32⟩
  | 41 => ⟨S10000x64, .f32⟩
  | 42 => ⟨S_, .f32⟩
  | 43 => ⟨S250000x1, .f32⟩
  | 44 => ⟨S_, .f32⟩
  | 45 => ⟨S10000x1, .f32⟩
  | 46 => ⟨S250000x1, .i32⟩
  | 47 => ⟨S10000x1, .f32⟩
  | 48 => ⟨S_, .f32⟩
  | 49 => ⟨S250000x1, .f32⟩
  | 50 => ⟨S_, .f32⟩
  | 51 => ⟨S10000x1, .f32⟩
  | 52 => ⟨S250000x1, .i32⟩
  | 53 => ⟨S10000x1, .f32⟩
  | 54 => ⟨S_, .f32⟩
  | 55 => ⟨S10000x64, .f32⟩
  | 56 => ⟨S250000x1, .i32⟩
  | 57 => ⟨S10000x64, .f32⟩
  | 58 => ⟨S_, .f32⟩
  | 59 => ⟨S10000x1, .f32⟩
  | 60 => ⟨S10000x1, .f32⟩
  | 61 => ⟨S10000x64, .f32⟩
  | 62 => ⟨S10000x64, .f32⟩
  | 63 => ⟨S_, .f32⟩
  | 64 => ⟨S10000x64, .f32⟩
  | 65 => ⟨S250000x1, .i32⟩
  | 66 => ⟨S10000x64, .f32⟩
  | 67 => ⟨S_, .f32⟩
  | 68 => ⟨S10000x1, .f32⟩
  | 69 => ⟨S10000x1, .f32⟩
  | 70 => ⟨S10000x64, .f32⟩
  | 71 => ⟨S10000x64, .f32⟩
  | 72 => ⟨S10000x64, .f32⟩
  | 73 => ⟨S10000x64, .f32⟩
  | 74 => ⟨S1x64, .f32⟩
  | 75 => ⟨S64, .f32⟩
  | 76 => ⟨S1x64, .f32⟩
  | 77 => ⟨S64, .f32⟩
  | 78 => ⟨S_, .f32⟩
  | 79 => ⟨S64, .f32⟩
  | 80 => ⟨S_, .f32⟩
  | 81 => ⟨S64, .f32⟩
  | 82 => ⟨S64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S10000x64, .f32⟩
  | 91 => ⟨S10000x64, .f32⟩
  | 92 => ⟨S10000x64, .f32⟩
  | 93 => ⟨S_, .f32⟩
  | 94 => ⟨S_, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S_, .i1⟩
  | 102 => ⟨S_, .f32⟩
  | 103 => ⟨S_, .f32⟩
  | 104 => ⟨S64, .f32⟩
  | 105 => ⟨S64, .f32⟩
  | 106 => ⟨S1x64, .f32⟩
  | 107 => ⟨S10000x64, .f32⟩
  | 108 => ⟨S10000x64, .f32⟩
  | 109 => ⟨S_, .f32⟩
  | 110 => ⟨S64, .f32⟩
  | 111 => ⟨S64, .f32⟩
  | 112 => ⟨S64, .f32⟩
  | 113 => ⟨S1x64, .f32⟩
  | 114 => ⟨S10000x64, .f32⟩
  | 115 => ⟨S10000x64, .f32⟩
  | 116 => ⟨S1x64, .f32⟩
  | 117 => ⟨S10000x64, .f32⟩
  | 118 => ⟨S10000x64, .f32⟩
  | 119 => ⟨S1x64, .f32⟩
  | 120 => ⟨S10000x64, .f32⟩
  | 121 => ⟨S10000x64, .f32⟩
  | 122 => ⟨S_, .f32⟩
  | 123 => ⟨S10000x64, .f32⟩
  | 124 => ⟨S10000x64, .i1⟩
  | 125 => ⟨S_, .f32⟩
  | 126 => ⟨S10000x64, .f32⟩
  | 127 => ⟨S10000x64, .i1⟩
  | _ => ⟨S250000x64, .f32⟩

abbrev hbmTy0_3 (i : Nat) : BufTy := match i % 128 with
  | 0 => ⟨S_, .f32⟩
  | 1 => ⟨S_, .f32⟩
  | 2 => ⟨S10000x64, .f32⟩
  | 3 => ⟨S10000x64, .f32⟩
  | 4 => ⟨S10000x64, .f32⟩
  | 5 => ⟨S_, .f32⟩
  | 6 => ⟨S10000x64, .f32⟩
  | 7 => ⟨S10000x64, .f32⟩
  | 8 => ⟨S10000x64, .f32⟩
  | _ => ⟨S250000x64, .f32⟩

abbrev hbmTy (i : Nat) : BufTy := match i / 128 with
  | 0 => hbmTy0_0 i
  | 1 => hbmTy0_1 i
  | 2 => hbmTy0_2 i
  | 3 => hbmTy0_3 i
  | _ => ⟨S250000x64, .f32⟩

abbrev bufTy : (tb : Table) → Fin (tcTables nBuf tb) → BufTy
  | .hbm, ⟨i, _⟩ => hbmTy i
  | _, _ => ⟨S250000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_v48 : Ref sig .tc := ⟨.hbm, 62, rfl⟩
abbrev main_v49 : Ref sig .tc := ⟨.hbm, 63, rfl⟩
abbrev main_c_0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_1 : Ref sig .tc := ⟨.hbm, 70, rfl⟩
abbrev main_v55 : Ref sig .tc := ⟨.hbm, 71, rfl⟩
abbrev main_v56 : Ref sig .tc := ⟨.hbm, 72, rfl⟩
abbrev main_c_2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_3 : Ref sig .tc := ⟨.hbm, 81, rfl⟩
abbrev main_v64 : Ref sig .tc := ⟨.hbm, 82, rfl⟩
abbrev main_v65 : Ref sig .tc := ⟨.hbm, 83, rfl⟩
abbrev main_c_4 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst : Ref sig .tc := ⟨.hbm, 97, rfl⟩
abbrev main_v78 : Ref sig .tc := ⟨.hbm, 98, rfl⟩
abbrev main_cst_5 : Ref sig .tc := ⟨.hbm, 99, rfl⟩
abbrev main_v79 : Ref sig .tc := ⟨.hbm, 100, rfl⟩
abbrev main_v80 : Ref sig .tc := ⟨.hbm, 101, rfl⟩
abbrev main_c_6 : Ref sig .tc := ⟨.hbm, 102, rfl⟩
abbrev main_call0_cst : Ref sig .tc := ⟨.hbm, 103, rfl⟩
abbrev main_call0_v0 : Ref sig .tc := ⟨.hbm, 104, rfl⟩
abbrev main_call0_v1 : Ref sig .tc := ⟨.hbm, 105, rfl⟩
abbrev main_call0_cst_0 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_cst_1 : Ref sig .tc := ⟨.hbm, 113, rfl⟩
abbrev main_call0_v8 : Ref sig .tc := ⟨.hbm, 114, rfl⟩
abbrev main_call0_cst_2 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_cst_3 : Ref sig .tc := ⟨.hbm, 119, rfl⟩
abbrev main_call0_v12 : Ref sig .tc := ⟨.hbm, 120, rfl⟩
abbrev main_call0_cst_4 : Ref sig .tc := ⟨.hbm, 121, rfl⟩
abbrev main_call0_call0_v0 : Ref sig .tc := ⟨.hbm, 122, rfl⟩
abbrev main_call0_call0_v1 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_7 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call1_cst : Ref sig .tc := ⟨.hbm, 141, rfl⟩
abbrev main_call1_v0 : Ref sig .tc := ⟨.hbm, 142, rfl⟩
abbrev main_call1_v1 : Ref sig .tc := ⟨.hbm, 143, rfl⟩
abbrev main_call1_cst_0 : Ref sig .tc := ⟨.hbm, 144, rfl⟩
abbrev main_call1_v2 : Ref sig .tc := ⟨.hbm, 145, rfl⟩
abbrev main_call1_v3 : Ref sig .tc := ⟨.hbm, 146, rfl⟩
abbrev main_call1_cst_1 : Ref sig .tc := ⟨.hbm, 147, rfl⟩
abbrev main_call1_call0_v0 : Ref sig .tc := ⟨.hbm, 148, rfl⟩
abbrev main_call1_call0_v1 : Ref sig .tc := ⟨.hbm, 149, rfl⟩
abbrev main_call1_v4 : Ref sig .tc := ⟨.hbm, 150, rfl⟩
abbrev main_call1_v5 : Ref sig .tc := ⟨.hbm, 151, rfl⟩
abbrev main_call1_cst_2 : Ref sig .tc := ⟨.hbm, 152, rfl⟩
abbrev main_call1_v6 : Ref sig .tc := ⟨.hbm, 153, rfl⟩
abbrev main_call1_v7 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_8 : Ref sig .tc := ⟨.hbm, 158, rfl⟩
abbrev main_v100 : Ref sig .tc := ⟨.hbm, 159, rfl⟩
abbrev main_v101 : Ref sig .tc := ⟨.hbm, 160, rfl⟩
abbrev main_cst_9 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_c_10 : Ref sig .tc := ⟨.hbm, 165, rfl⟩
abbrev main_v105 : Ref sig .tc := ⟨.hbm, 166, rfl⟩
abbrev main_v106 : Ref sig .tc := ⟨.hbm, 167, rfl⟩
abbrev main_c_11 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_12 : Ref sig .tc := ⟨.hbm, 174, rfl⟩
abbrev main_v112 : Ref sig .tc := ⟨.hbm, 175, rfl⟩
abbrev main_v113 : Ref sig .tc := ⟨.hbm, 176, rfl⟩
abbrev main_c_13 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_14 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_15 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_16 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_c_17 : Ref sig .tc := ⟨.hbm, 199, rfl⟩
abbrev main_v132 : Ref sig .tc := ⟨.hbm, 200, rfl⟩
abbrev main_v133 : Ref sig .tc := ⟨.hbm, 201, rfl⟩
abbrev main_c_18 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_19 : Ref sig .tc := ⟨.hbm, 215, rfl⟩
abbrev main_v146 : Ref sig .tc := ⟨.hbm, 216, rfl⟩
abbrev main_cst_20 : Ref sig .tc := ⟨.hbm, 217, rfl⟩
abbrev main_v147 : Ref sig .tc := ⟨.hbm, 218, rfl⟩
abbrev main_v148 : Ref sig .tc := ⟨.hbm, 219, rfl⟩
abbrev main_c_21 : Ref sig .tc := ⟨.hbm, 220, rfl⟩
abbrev main_call2_cst : Ref sig .tc := ⟨.hbm, 221, rfl⟩
abbrev main_call2_v0 : Ref sig .tc := ⟨.hbm, 222, rfl⟩
abbrev main_call2_v1 : Ref sig .tc := ⟨.hbm, 223, rfl⟩
abbrev main_call2_cst_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_cst_1 : Ref sig .tc := ⟨.hbm, 231, rfl⟩
abbrev main_call2_v8 : Ref sig .tc := ⟨.hbm, 232, rfl⟩
abbrev main_call2_cst_2 : Ref sig .tc := ⟨.hbm, 233, rfl⟩
abbrev main_call2_v9 : Ref sig .tc := ⟨.hbm, 234, rfl⟩
abbrev main_call2_v10 : Ref sig .tc := ⟨.hbm, 235, rfl⟩
abbrev main_call2_v11 : Ref sig .tc := ⟨.hbm, 236, rfl⟩
abbrev main_call2_cst_3 : Ref sig .tc := ⟨.hbm, 237, rfl⟩
abbrev main_call2_v12 : Ref sig .tc := ⟨.hbm, 238, rfl⟩
abbrev main_call2_cst_4 : Ref sig .tc := ⟨.hbm, 239, rfl⟩
abbrev main_call2_call0_v0 : Ref sig .tc := ⟨.hbm, 240, rfl⟩
abbrev main_call2_call0_v1 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_cst_22 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_call3_cst : Ref sig .tc := ⟨.hbm, 259, rfl⟩
abbrev main_call3_v0 : Ref sig .tc := ⟨.hbm, 260, rfl⟩
abbrev main_call3_v1 : Ref sig .tc := ⟨.hbm, 261, rfl⟩
abbrev main_call3_cst_0 : Ref sig .tc := ⟨.hbm, 262, rfl⟩
abbrev main_call3_v2 : Ref sig .tc := ⟨.hbm, 263, rfl⟩
abbrev main_call3_v3 : Ref sig .tc := ⟨.hbm, 264, rfl⟩
abbrev main_call3_cst_1 : Ref sig .tc := ⟨.hbm, 265, rfl⟩
abbrev main_call3_call0_v0 : Ref sig .tc := ⟨.hbm, 266, rfl⟩
abbrev main_call3_call0_v1 : Ref sig .tc := ⟨.hbm, 267, rfl⟩
abbrev main_call3_v4 : Ref sig .tc := ⟨.hbm, 268, rfl⟩
abbrev main_call3_v5 : Ref sig .tc := ⟨.hbm, 269, rfl⟩
abbrev main_call3_cst_2 : Ref sig .tc := ⟨.hbm, 270, rfl⟩
abbrev main_call3_v6 : Ref sig .tc := ⟨.hbm, 271, rfl⟩
abbrev main_call3_v7 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_cst_23 : Ref sig .tc := ⟨.hbm, 298, rfl⟩
abbrev main_v190 : Ref sig .tc := ⟨.hbm, 299, rfl⟩
abbrev main_cst_24 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_cst_25 : Ref sig .tc := ⟨.hbm, 304, rfl⟩
abbrev main_v194 : Ref sig .tc := ⟨.hbm, 305, rfl⟩
abbrev main_cst_26 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_cst_27 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_cst_28 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_cst_29 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_cst_30 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_cst_31 : Ref sig .tc := ⟨.hbm, 334, rfl⟩
abbrev main_v218 : Ref sig .tc := ⟨.hbm, 335, rfl⟩
abbrev main_cst_32 : Ref sig .tc := ⟨.hbm, 336, rfl⟩
abbrev main_v219 : Ref sig .tc := ⟨.hbm, 337, rfl⟩
abbrev main_v220 : Ref sig .tc := ⟨.hbm, 338, rfl⟩
abbrev main_c_33 : Ref sig .tc := ⟨.hbm, 339, rfl⟩
abbrev main_call4_cst : Ref sig .tc := ⟨.hbm, 340, rfl⟩
abbrev main_call4_v0 : Ref sig .tc := ⟨.hbm, 341, rfl⟩
abbrev main_call4_v1 : Ref sig .tc := ⟨.hbm, 342, rfl⟩
abbrev main_call4_cst_0 : Ref sig .tc := ⟨.hbm, 343, rfl⟩
abbrev main_call4_v2 : Ref sig .tc := ⟨.hbm, 344, rfl⟩
abbrev main_call4_v3 : Ref sig .tc := ⟨.hbm, 345, rfl⟩
abbrev main_call4_v4 : Ref sig .tc := ⟨.hbm, 346, rfl⟩
abbrev main_call4_v5 : Ref sig .tc := ⟨.hbm, 347, rfl⟩
abbrev main_call4_v6 : Ref sig .tc := ⟨.hbm, 348, rfl⟩
abbrev main_call4_v7 : Ref sig .tc := ⟨.hbm, 349, rfl⟩
abbrev main_call4_cst_1 : Ref sig .tc := ⟨.hbm, 350, rfl⟩
abbrev main_call4_v8 : Ref sig .tc := ⟨.hbm, 351, rfl⟩
abbrev main_call4_cst_2 : Ref sig .tc := ⟨.hbm, 352, rfl⟩
abbrev main_call4_v9 : Ref sig .tc := ⟨.hbm, 353, rfl⟩
abbrev main_call4_v10 : Ref sig .tc := ⟨.hbm, 354, rfl⟩
abbrev main_call4_v11 : Ref sig .tc := ⟨.hbm, 355, rfl⟩
abbrev main_call4_cst_3 : Ref sig .tc := ⟨.hbm, 356, rfl⟩
abbrev main_call4_v12 : Ref sig .tc := ⟨.hbm, 357, rfl⟩
abbrev main_call4_cst_4 : Ref sig .tc := ⟨.hbm, 358, rfl⟩
abbrev main_call4_call0_v0 : Ref sig .tc := ⟨.hbm, 359, rfl⟩
abbrev main_call4_call0_v1 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_v224 : Ref sig .tc := ⟨.hbm, 364, rfl⟩
abbrev main_cst_34 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_call5_cst : Ref sig .tc := ⟨.hbm, 378, rfl⟩
abbrev main_call5_v0 : Ref sig .tc := ⟨.hbm, 379, rfl⟩
abbrev main_call5_v1 : Ref sig .tc := ⟨.hbm, 380, rfl⟩
abbrev main_call5_cst_0 : Ref sig .tc := ⟨.hbm, 381, rfl⟩
abbrev main_call5_v2 : Ref sig .tc := ⟨.hbm, 382, rfl⟩
abbrev main_call5_v3 : Ref sig .tc := ⟨.hbm, 383, rfl⟩
abbrev main_call5_cst_1 : Ref sig .tc := ⟨.hbm, 384, rfl⟩
abbrev main_call5_call0_v0 : Ref sig .tc := ⟨.hbm, 385, rfl⟩
abbrev main_call5_call0_v1 : Ref sig .tc := ⟨.hbm, 386, rfl⟩
abbrev main_call5_v4 : Ref sig .tc := ⟨.hbm, 387, rfl⟩
abbrev main_call5_v5 : Ref sig .tc := ⟨.hbm, 388, rfl⟩
abbrev main_call5_cst_2 : Ref sig .tc := ⟨.hbm, 389, rfl⟩
abbrev main_call5_v6 : Ref sig .tc := ⟨.hbm, 390, rfl⟩
abbrev main_call5_v7 : Ref sig .tc := ⟨.hbm, 391, rfl⟩
abbrev main_v237 : Ref sig .tc := ⟨.hbm, 392, rfl⟩

abbrev nD : Nat := 1
abbrev τ : Topo := Topo.v7x

variable {F : FTy → Type} [FloatOps F]

class Facts₀ : Prop where
  slices_S9x64x64_S1x64x64_0_0_0 : S9x64x64.Slices ![0, 0, 0] S1x64x64
  shapeCasts_S1x64x64_S64x64 : S1x64x64.ShapeCasts S64x64
  slices_S9x64_S1x64_0_0 : S9x64.Slices ![0, 0] S1x64
  shapeCasts_S1x64_S64 : S1x64.ShapeCasts S64
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  slices_S9x64x64_S1x64x64_3_0_0 : S9x64x64.Slices ![3, 0, 0] S1x64x64
  slices_S9x64_S1x64_3_0 : S9x64.Slices ![3, 0] S1x64
  slices_S9x64x64_S1x64x64_4_0_0 : S9x64x64.Slices ![4, 0, 0] S1x64x64
  slices_S9x64_S1x64_4_0 : S9x64.Slices ![4, 0] S1x64
  slices_S9x64x64_S1x64x64_1_0_0 : S9x64x64.Slices ![1, 0, 0] S1x64x64
  slices_S9x64_S1x64_1_0 : S9x64.Slices ![1, 0] S1x64
  slices_S9x64x64_S1x64x64_2_0_0 : S9x64x64.Slices ![2, 0, 0] S1x64x64
  slices_S9x64_S1x64_2_0 : S9x64.Slices ![2, 0] S1x64
  bcast_S1x64_S10000x64_0_1 : S1x64.BroadcastsInDim S10000x64 (![0, 1] : Fin 2 → Fin S10000x64.rank)
  slices_S9x64x64_S1x64x64_5_0_0 : S9x64x64.Slices ![5, 0, 0] S1x64x64
  slices_S9x64_S1x64_5_0 : S9x64.Slices ![5, 0] S1x64
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x64_0_1 : S250000x1.BroadcastsInDim S250000x64 (![0, 1] : Fin 2 → Fin S250000x64.rank)
  slices_S3x64_S1x64_0_0 : S3x64.Slices ![0, 0] S1x64
  reducesTo_S250000x64_S64_d0 : S250000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S250000x64 : S_.BroadcastsInDim S250000x64 (![] : Fin 0 → Fin S250000x64.rank)
  concatenates_S250000_S250000_S500000_d0 : Shape.Concatenates [S250000, S250000] S500000 0
  concatenates_S250000x64_S250000x64_S500000x64_d0 : Shape.Concatenates [S250000x64, S250000x64] S500000x64 0
  bcast_S500000_S500000x1_0 : S500000.BroadcastsInDim S500000x1 (![0] : Fin 1 → Fin S500000x1.rank)
  slices_S3x64_S1x64_1_0 : S3x64.Slices ![1, 0] S1x64
  slices_S9x64x64_S1x64x64_6_0_0 : S9x64x64.Slices ![6, 0, 0] S1x64x64
  slices_S9x64_S1x64_6_0 : S9x64.Slices ![6, 0] S1x64
  slices_S9x64x64_S1x64x64_7_0_0 : S9x64x64.Slices ![7, 0, 0] S1x64x64
  slices_S9x64_S1x64_7_0 : S9x64.Slices ![7, 0] S1x64
  slices_S9x64x64_S1x64x64_8_0_0 : S9x64x64.Slices ![8, 0, 0] S1x64x64
  slices_S9x64_S1x64_8_0 : S9x64.Slices ![8, 0] S1x64
  bcast_S_S250000x1 : S_.BroadcastsInDim S250000x1 (![] : Fin 0 → Fin S250000x1.rank)
  bcast_S_S10000x1 : S_.BroadcastsInDim S10000x1 (![] : Fin 0 → Fin S10000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  slices_S3x64_S1x64_2_0 : S3x64.Slices ![2, 0] S1x64
  reducesTo_S10000x64_S64_d0 : S10000x64.ReducesTo [0] S64
  dot_S250000x64_S64x64_S250000x64_1_0_0_1_n_n_wf : DotDims.WF S250000x64 S64x64 S250000x64 [1] [0] [0] [1] [] []
  dot_S10000x64_S64x64_S10000x64_1_0_0_1_n_n_wf : DotDims.WF S10000x64 S64x64 S10000x64 [1] [0] [0] [1] [] []
  gather_S250000x64_S250000x1_S250000x64_1_0_n_n_0_1_164_wf : GatherDims.WF S250000x64 S250000x1 S250000x64 [1] [0] [] [0] [] 1 ![1, 64]
  gather_S10000x64_S250000x1_S250000x64_1_0_n_n_0_1_164_wf : GatherDims.WF S10000x64 S250000x1 S250000x64 [1] [0] [] [0] [] 1 ![1, 64]
  scatter_S250000x64_S500000x1_S500000x64_1_0_0_1_wf : ScatterDims.WF S250000x64 S500000x1 S500000x64 [1] [0] [0] 1
  scatter_S10000x1_S250000x1_S250000x1_1_0_0_1_wf : ScatterDims.WF S10000x1 S250000x1 S250000x1 [1] [0] [0] 1
  scatter_S10000x64_S250000x1_S250000x64_1_0_0_1_wf : ScatterDims.WF S10000x64 S250000x1 S250000x64 [1] [0] [0] 1

variable [Facts₀]

def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S250000x64_S250000x1_S250000x64_1_0_n_n_0_1_164 : GatherDims S250000x64 S250000x1 S250000x64 where
  offsetDims := [1]
  collapsedSliceDims := [0]
  operandBatchingDims := []
  startIndicesBatchingDims := []
  startIndexMap := [0]
  indexVectorDim := 1
  sliceSizes := ![1, 64]
  wf := gather_S250000x64_S250000x1_S250000x64_1_0_n_n_0_1_164_wf
def gather_S10000x64_S250000x1_S250000x64_1_0_n_n_0_1_164 : GatherDims S10000x64 S250000x1 S250000x64 where
  offsetDims := [1]
  collapsedSliceDims := [0]
  operandBatchingDims := []
  startIndicesBatchingDims := []
  startIndexMap := [0]
  indexVectorDim := 1
  sliceSizes := ![1, 64]
  wf := gather_S10000x64_S250000x1_S250000x64_1_0_n_n_0_1_164_wf
def scatter_S250000x64_S500000x1_S500000x64_1_0_0_1 : ScatterDims S250000x64 S500000x1 S500000x64 where
  updateWindowDims := [1]
  insertedWindowDims := [0]
  scatterDimsToOperandDims := [0]
  indexVectorDim := 1
  wf := scatter_S250000x64_S500000x1_S500000x64_1_0_0_1_wf
def scatter_S10000x1_S250000x1_S250000x1_1_0_0_1 : ScatterDims S10000x1 S250000x1 S250000x1 where
  updateWindowDims := [1]
  insertedWindowDims := [0]
  scatterDimsToOperandDims := [0]
  indexVectorDim := 1
  wf := scatter_S10000x1_S250000x1_S250000x1_1_0_0_1_wf
def scatter_S10000x64_S250000x1_S250000x64_1_0_0_1 : ScatterDims S10000x64 S250000x1 S250000x64 where
  updateWindowDims := [1]
  insertedWindowDims := [0]
  scatterDimsToOperandDims := [0]
  indexVectorDim := 1
  wf := scatter_S10000x64_S250000x1_S250000x64_1_0_0_1_wf

class Facts : Prop extends Facts₀ where

variable [Facts]
-- ==== Proof.K.Reg0.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for region 0: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not, for any proof
    data whose array is `V`'s and whose body leaves the block in place: where the window is not fetched its block
    index has not moved since the point before, so the block left there is this point's. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_S10000x64 : Rect S10000x64 := Rect.unit (s := S10000x64) ![0, 0] S10000x64.size inb_S10000x64_S10000x64_0_0
abbrev r0_S64x192 : Rect S64x192 := Rect.unit (s := S64x192) ![0, 0] S64x192.size inb_S64x192_S64x192_0_0
abbrev r0_S1x192 : Rect S1x192 := Rect.unit (s := S1x192) ![0, 0] S1x192.size inb_S1x192_S1x192_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0
abbrev r0_S10000x192 : Rect S10000x192 := Rect.unit (s := S10000x192) ![0, 0] S10000x192.size inb_S10000x192_S10000x192_0_0

/-! ## What the body leaves in each output window's buffer -/

/-- Window 6's staging buffer after the body, from the blocks of windows 0, 2, 3: its one store, of the matrix
    product of the first two, each rounded to bf16 and the sum kept in f32 from zero, plus the third's row
    broadcast down the rows. -/
def out0_6 (x0 : Vec F S10000x64 .f32) (x2 : Vec F S64x192 .f32) (x3 : Vec F S1x192 .f32) : Vec F S10000x192 .f32 :=
  View.canon [⟨r0_S10000x192, k0_pay1 (View.ld x0 r0_S10000x64) (View.ld x2 r0_S64x192) (View.ld x3 r0_S1x192)⟩]

/-- The store is of the whole buffer, so it covers it. -/
theorem cover0_6 (p0 : Vec F S10000x192 .f32) (y : S10000x192.Idx) :
    ∃ pc ∈ ([⟨r0_S10000x192, p0⟩] : List (View.Piece (Elt F) S10000x192 .f32)), y ∈ pc.1.set :=
  View.cover_of_tiled [⟨r0_S10000x192, p0⟩] S10000x192.size (by rfl) y

/-- Window 7's staging buffer after the body, from the blocks of windows 1, 4, 5: its one store, of the matrix
    product of the first two, each rounded to bf16 and the sum kept in f32 from zero, plus the third's row
    broadcast down the rows. -/
def out0_7 (x1 : Vec F S10000x64 .f32) (x4 : Vec F S64x64 .f32) (x5 : Vec F S1x64 .f32) : Vec F S10000x64 .f32 :=
  View.canon [⟨r0_S10000x64, k0_pay2 (View.ld x1 r0_S10000x64) (View.ld x4 r0_S64x64) (View.ld x5 r0_S1x64)⟩]

/-- The store is of the whole buffer, so it covers it. -/
theorem cover0_7 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

/-! ## The body's triple -/

set_option maxHeartbeats 1000000 in
/-- The kernel body on whole staging memrefs, the inputs' at read contents `xW` and the outputs' at anything, runs to
    the continuation holding the inputs' as they were and each output's at `out0_W` of the inputs'. The load of an
    output buffer just before its store reads a value nothing uses. -/
theorem sound_kernel0 (c : Dev nD) (E : Set ℕ) (i : grid0.Coords)
    (arg0 : Memref sig .tc .vmem S10000x64 .f32) (harg0 : arg0.IsWhole) (arg1 : Memref sig .tc .vmem S10000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x192 .f32) (harg6 : arg6.IsWhole) (arg7 : Memref sig .tc .vmem S10000x64 .f32) (harg7 : arg7.IsWhole)
    (x0 : Vec F S10000x64 .f32) (x1 : Vec F S10000x64 .f32) (x2 : Vec F S64x192 .f32) (x3 : Vec F S1x192 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x2 x3) ∗ owns (c : Thread nD τ) arg7 fullShare (out0_7 x1 x4 x5)) -∗ K ⟨⟩))
      ⊢ wp frame (wpE (defs₀ (F := F)) Variants.none c none) E (cc0__lin_hue_kernel i arg0 harg0 arg1 harg1 arg2 harg2 arg3 harg3 arg4 harg4 arg5 harg5 arg6 harg6 arg7 harg7) K := by
  simp only [cc0__lin_hue_kernel_eq_skeleton]; unfold cc0__lin_hue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for region 1: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where it is not fetched the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S10000x64 := Rect.unit (s := S10000x64) ![0, 0] S10000x64.size inb_S10000x64_S10000x64_0_0
abbrev r1_b : Rect S64x192 := Rect.unit (s := S64x192) ![0, 0] S64x192.size inb_S64x192_S64x192_0_0
abbrev r1_c : Rect S1x192 := Rect.unit (s := S1x192) ![0, 0] S1x192.size inb_S1x192_S1x192_0_0
abbrev r1_o : Rect S10000x192 := Rect.unit (s := S10000x192) ![0, 0] S10000x192.size inb_S10000x192_S10000x192_0_0

/-! ## What the body leaves in the output window's buffer -/

/-- Window 3's staging buffer after the body, from the input windows' blocks: its one store, of the matrix
    product of windows 0 and 1, each rounded to bf16 and the sum kept in f32 from zero, plus window 2's row
    broadcast down the rows. -/
def out1_3 (x0 : Vec F S10000x64 .f32) (x1 : Vec F S64x192 .f32) (x2 : Vec F S1x192 .f32) : Vec F S10000x192 .f32 :=
  View.canon [⟨r1_o, k1_pay1 (View.ld x0 r1_a) (View.ld x1 r1_b) (View.ld x2 r1_c)⟩]

/-- The store is of the whole buffer, so it covers it. -/
theorem cover1_3 (p0 : Vec F S10000x192 .f32) (y : S10000x192.Idx) :
    ∃ pc ∈ ([⟨r1_o, p0⟩] : List (View.Piece (Elt F) S10000x192 .f32)), y ∈ pc.1.set :=
  View.cover_of_tiled [⟨r1_o, p0⟩] S10000x192.size (by rfl) y

/-! ## The body's triple -/

set_option maxHeartbeats 1000000 in
/-- The kernel body on whole staging memrefs, the inputs' at read contents `xW` and the output's at anything, runs to
    the continuation holding the inputs' as they were and the output's at `out1_3` of the inputs'. The load of the
    output buffer just before its store reads a value nothing uses. -/
theorem sound_kernel1 (c : Dev nD) (E : Set ℕ) (i : grid1.Coords)
    (arg0 : Memref sig .tc .vmem S10000x64 .f32) (harg0 : arg0.IsWhole) (arg1 : Memref sig .tc .vmem S64x192 .f32) (harg1 : arg1.IsWhole)
    (arg2 : Memref sig .tc .vmem S1x192 .f32) (harg2 : arg2.IsWhole) (arg3 : Memref sig .tc .vmem S10000x192 .f32) (harg3 : arg3.IsWhole)
    (x0 : Vec F S10000x64 .f32) (x1 : Vec F S64x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__lin_u_kernel i arg0 harg0 arg1 harg1 arg2 harg2 arg3 harg3) K := by
  simp only [cc1__lin_u_kernel_eq_skeleton]; unfold cc1__lin_u_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of @main (the bond update's sum of four terms times the graph norm, with the column sums that its batch norm needs): the half of the frame that belongs to this pallas_call, at a PARAMETER `V` — the
  buffers' contents when the region is entered. The kernel walks 25 row blocks of 10000 rows; each point overwrites its own
  block of the first output, while the two [1,64] outputs keep one block for the whole grid: zeroed at the first point,
  then the block's column sums (of the row values and of their squares) added at every point, and written back once, after
  the last. So what those two buffers hold after point `t` is defined by recursion on `t` from what the body's run leaves
  in each of its two cases (first point / later point).
-/
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for any proof data whose array is `V`'s and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for any proof data whose array is `V`'s and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for any proof data whose array is `V`'s and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for any proof data whose array is `V`'s and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: "is this the first point?" -/

/-- The condition of the body's conditional, from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the 25 points. -/
theorem hcond2_0 : ∀ t : Fin cfg2.N, cond2_0 (grid2.coords t) ↔ t.val % 25 = 0 :=
  (by decide +kernel : ∀ t : Fin grid2.N, cond2_0 (grid2.coords t) ↔ t.val % 25 = 0)

/-- One staging buffer of each output window, through which its contents are stated (the choice does not matter). -/
abbrev VO2_5 : View sig .tc .vmem S10000x64 .f32 := (Memref.whole cc2_stg5_0 : Memref sig .tc .vmem S10000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-! ## The body's run, case by case: what its stores leave in each output's buffer -/

set_option maxHeartbeats 4000000 in
/-- AT THE FIRST POINT (the conditional taken): on whole staging memrefs, the inputs' at their contents and the outputs' at
    anything, the body runs to the continuation holding the inputs' as they were and each output's buffer with the listed
    pieces written (last first); the lists are whatever the run finds. -/
noncomputable def kernelRun2_A (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__bond_combine_kernel i arg1 harg1 arg2 harg2 arg3 harg3 arg4 harg4 arg5 harg5 arg6 harg6 arg7 harg7 arg8 harg8) K } := by
  refine ⟨?_, ?_, ?_, fun E K => ?run⟩
  case run =>
    simp only [cc2__bond_combine_kernel_eq_skeleton]; unfold cc2__bond_combine_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 4000000 in
/-- AT A LATER POINT (the conditional not taken): the same, the two accumulating outputs' buffers at their running contents
    `xo6`, `xo7`, which the body reads before it stores. -/
noncomputable def kernelRun2_B (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__bond_combine_kernel i arg1 harg1 arg2 harg2 arg3 harg3 arg4 harg4 arg5 harg5 arg6 harg6 arg7 harg7 arg8 harg8) K } := by
  refine ⟨?_, ?_, ?_, fun E K => ?run⟩
  case run =>
    simp only [cc2__bond_combine_kernel_eq_skeleton]; unfold cc2__bond_combine_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-- The pieces found for output 5 in case A tile its block, so they cover it. -/
theorem cover2_A_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S10000x64.Idx) :
    ∃ pc ∈ (kernelRun2_A c i arg1 harg1 arg2 harg2 arg3 harg3 arg4 harg4 arg5 harg5 arg6 harg6 arg7 harg7 arg8 harg8 hc0 x0 x1 x2 x3 x4).1, y ∈ pc.1.set :=
  View.cover_of_tiledL (kernelRun2_A c i arg1 harg1 arg2 harg2 arg3 harg3 arg4 harg4 arg5 harg5 arg6 harg6 arg7 harg7 arg8 harg8 hc0 x0 x1 x2 x3 x4).1 S10000x64.size (by sl_kernel_rfl) y

/-- What case A leaves in output 5's staging buffer: its pieces read back. -/
def out2_A_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S10000x64 .f32 :=
  VO2_5.read (Elt F) (VO2_5.writes (Elt F) VO2_5.junk (kernelRun2_A c i arg1 harg1 arg2 harg2 arg3 harg3 arg4 harg4 arg5 harg5 arg6 harg6 arg7 harg7 arg8 harg8 hc0 x0 x1 x2 x3 x4).1)

/-- The pieces found for output 6 in case A tile its block, so they cover it. -/
theorem cover2_A_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun2_A c i arg1 harg1 arg2 harg2 arg3 harg3 arg4 harg4 arg5 harg5 arg6 harg6 arg7 harg7 arg8 harg8 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.1 S1x64.size (by sl_kernel_rfl) y

/-- What case A leaves in output 6's staging buffer: its pieces read back. -/
def out2_A_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S1x64 .f32 :=
  VO2_6.read (Elt F) (VO2_6.writes (Elt F) VO2_6.junk (kernelRun2_A c i arg1 harg1 arg2 harg2 arg3 harg3 arg4 harg4 arg5 harg5 arg6 harg6 arg7 harg7 arg8 harg8 hc0 x0 x1 x2 x3 x4).2.1)

/-- The pieces found for output 7 in case A tile its block, so they cover it. -/
theorem cover2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun2_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.2.1 S1x64.size (by sl_kernel_rfl) y

/-- What case A leaves in output 7's staging buffer: its pieces read back. -/
def out2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S1x64 .f32 :=
  VO2_7.read (Elt F) (VO2_7.writes (Elt F) VO2_7.junk (kernelRun2_A c i arg1 harg1 arg2 harg2 arg3 harg3 arg4 harg4 arg5 harg5 arg6 harg6 arg7 harg7 arg8 harg8 hc0 x0 x1 x2 x3 x4).2.2.1)

/-- The pieces found for output 5 in case B tile its block, so they cover it. -/
theorem cover2_B_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S10000x64.Idx) :
    ∃ pc ∈ (kernelRun2_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).1 S10000x64.size (by sl_kernel_rfl) y

/-- What case B leaves in output 5's staging buffer: its pieces read back. -/
def out2_B_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S10000x64 .f32 :=
  VO2_5.read (Elt F) (VO2_5.writes (Elt F) VO2_5.junk (kernelRun2_B c i arg1 harg1 arg2 harg2 arg3 harg3 arg4 harg4 arg5 harg5 arg6 harg6 arg7 harg7 arg8 harg8 hc0 x0 x1 x2 x3 x4 xo6 xo7).1)

/-- The pieces found for output 6 in case B tile its block, so they cover it. -/
theorem cover2_B_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun2_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.1 S1x64.size (by sl_kernel_rfl) y

/-- What case B leaves in output 6's staging buffer: its pieces read back. -/
def out2_B_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO2_6.read (Elt F) (VO2_6.writes (Elt F) VO2_6.junk (kernelRun2_B c i arg1 harg1 arg2 harg2 arg3 harg3 arg4 harg4 arg5 harg5 arg6 harg6 arg7 harg7 arg8 harg8 hc0 x0 x1 x2 x3 x4 xo6 xo7).2.1)

/-- The pieces found for output 7 in case B tile its block, so they cover it. -/
theorem cover2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun2_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.2.1 S1x64.size (by sl_kernel_rfl) y

/-- What case B leaves in output 7's staging buffer: its pieces read back. -/
def out2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO2_7.read (Elt F) (VO2_7.writes (Elt F) VO2_7.junk (kernelRun2_B c i arg1 harg1 arg2 harg2 arg3 harg3 arg4 harg4 arg5 harg5 arg6 harg6 arg7 harg7 arg8 harg8 hc0 x0 x1 x2 x3 x4 xo6 xo7).2.2.1)

/-! ## What the outputs hold after each point -/

/-- THE ACCUMULATION: the three outputs' staging buffers after the body at position `n` — the first point's case at `0`,
    the later point's case after it, the two running sums taken from what this gives at `n - 1` (their buffer is not
    written back in between). -/
def outsAt2 (c : Dev nD) : (n : ℕ) → n < cfg2.N → Vec F S10000x64 .f32 × Vec F S1x64 .f32 × Vec F S1x64 .f32
  | 0, hn =>
    (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
     out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
     out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 25 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
       out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
       out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
       out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
       out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at the first point. -/
theorem outsAt2_A (c : Dev nD) (t : Fin cfg2.N) (h0 : t.val % 25 = 0) :
    outsAt2 V c t.val t.isLt =
      (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
       out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
       out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a later point: that case's contents, over what the point before left. -/
theorem outsAt2_B (c : Dev nD) (t : Fin cfg2.N) (h0 : ¬t.val % 25 = 0) :
    outsAt2 V c t.val t.isLt =
      (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
       out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
       out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt2`; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point accumulating output 6's staging buffer holds what the body left at the point before: the buffer is not
    written back in between (only after the last point), the window is live and uncut. -/
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

/-- At a later point accumulating output 7's staging buffer holds what the body left at the point before: the buffer is not
    written back in between (only after the last point), the window is live and uncut. -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the condition says which case the point
    is in; at a later point the two accumulating outputs hold what the point before left; so that case's run applies. The
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 25 := lt_of_lt_of_eq t.isLt (show cfg2.N = 25 from N_2)
  by_cases h0 : t.val % 25 = 0
  · rw [outsAt2_A V c t h0]
    dsimp only
    unfold out2_A_5 out2_A_6 out2_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    dsimp only
    simp only [before2_6_B V c t h0, before2_7_B V c t h0]
    unfold out2_B_5 out2_B_6 out2_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for pipeline 3: what each window's staging buffer holds before and after the
    kernel body at every grid point, as a function of the arrays' contents when the region is entered. -/

-- membership of an index in a rectangle of the full block extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where the pipeline
    does not fetch it the block index has not moved since the previous point, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where the pipeline
    does not fetch it the block index has not moved since the previous point, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where the pipeline
    does not fetch it the block index has not moved since the previous point, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: where the pipeline
    does not fetch it the block index has not moved since the previous point, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: where the pipeline
    does not fetch it the block index has not moved since the previous point, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through: each staging buffer whole -/

abbrev r3_a : Rect S10000x64 := Rect.unit (s := S10000x64) ![0, 0] S10000x64.size inb_S10000x64_S10000x64_0_0
abbrev r3_b : Rect S1x64 := Rect.unit (s := S1x64) ![0, 0] S1x64.size inb_S1x64_S1x64_0_0

/-! ## What the body leaves in each output window's buffer -/

/-- Output window 5's staging buffer after the body, from the input windows' blocks: the body's stores into it as
    pieces, last first. -/
def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_a, k3_pay1 (View.ld x0 r3_a) (View.ld x2 r3_b) (View.ld x1 r3_b) (View.ld x3 r3_b) (View.ld x4 r3_b)⟩]

/-- The stores tile the buffer, so they cover it. -/
theorem cover3_5 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-- Output window 6's staging buffer after the body, from the input windows' blocks: the body's stores into it as
    pieces, last first. -/
def out3_6 (x0 : Vec F S10000x64 .f32) (x1 : Vec F S1x64 .f32) (x2 : Vec F S1x64 .f32) (x3 : Vec F S1x64 .f32) (x4 : Vec F S1x64 .f32) : Vec F S10000x64 .f32 :=
  View.canon [⟨r3_a, k3_pay2 (View.ld x0 r3_a) (View.ld x2 r3_b) (View.ld x1 r3_b) (View.ld x3 r3_b) (View.ld x4 r3_b)⟩]

/-- The stores tile the buffer, so they cover it. -/
theorem cover3_6 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-! ## The body's triple -/

set_option maxHeartbeats 4000000 in
/-- The kernel body on whole staging memrefs, the inputs' at read contents `xW` and the outputs' at anything, runs to
    the continuation holding the inputs' as they were and each output's at `out3_W` of the inputs'. What the body
    loads of an output's buffer before storing it whole is never used. -/
theorem sound_kernel3 (c : Dev nD) (E : Set ℕ) (i : grid3.Coords) (a0 : Memref sig .tc .vmem S10000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S10000x64 .f32) (ha5 : a5.IsWhole) (a6 : Memref sig .tc .vmem S10000x64 .f32) (ha6 : a6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3_5 x0 x1 x2 x3 x4) ∗ owns (c : Thread nD τ) a6 fullShare (out3_6 x0 x1 x2 x3 x4)) -∗ K ⟨⟩))
      ⊢ wp frame (wpE (defs₀ (F := F)) Variants.none c none) E (cc3__norm_elu_sig_kernel i a0 ha0 a1 ha1 a2 ha2 a3 ha3 a4 ha4 a5 ha5 a6 ha6) K := by
  simp only [cc3__norm_elu_sig_kernel_eq_skeleton]; unfold cc3__norm_elu_sig_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and each output's at `out3_W` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the body's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t
-- ==== Proof.K.Reg4.lean ====
/-
  Region 4 of @main (the atom update's self term plus gated ratio plus graph term, times the graph norm, with the column sums that its batch norm needs): the half of the frame that belongs to this pallas_call, at a PARAMETER `V` — the
  buffers' contents when the region is entered. The kernel walks 25 row blocks of 10000 rows; each point overwrites its own
  block of the first output, while the two [1,64] outputs keep one block for the whole grid: zeroed at the first point,
  then the block's column sums (of the row values and of their squares) added at every point, and written back once, after
  the last. So what those two buffers hold after point `t` is defined by recursion on `t` from what the body's run leaves
  in each of its two cases (first point / later point).
-/
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, for any proof data whose array is `V`'s and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, for any proof data whose array is `V`'s and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's one branch: "is this the first point?" -/

/-- The condition of the body's conditional, from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- One staging buffer of each output window, through which its contents are stated (the choice does not matter). -/
abbrev VO4_5 : View sig .tc .vmem S10000x64 .f32 := (Memref.whole cc4_stg5_0 : Memref sig .tc .vmem S10000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S10000x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S10000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-! ## The body's run, case by case: what its stores leave in each output's buffer -/

set_option maxHeartbeats 4000000 in
/-- AT THE FIRST POINT (the conditional taken): on whole staging memrefs, the inputs' at their contents and the outputs' at
    anything, the body runs to the continuation holding the inputs' as they were and each output's buffer with the listed
    pieces written (last first); the lists are whatever the run finds. -/
noncomputable def kernelRun4_A (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__atom_combine_kernel i arg1 harg1 arg2 harg2 arg3 harg3 arg4 harg4 arg5 harg5 arg6 harg6 arg7 harg7 arg8 harg8) K } := by
  refine ⟨?_, ?_, ?_, fun E K => ?run⟩
  case run =>
    simp only [cc4__atom_combine_kernel_eq_skeleton]; unfold cc4__atom_combine_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 4000000 in
/-- AT A LATER POINT (the conditional not taken): the same, the two accumulating outputs' buffers at their running contents
    `xo6`, `xo7`, which the body reads before it stores. -/
noncomputable def kernelRun4_B (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__atom_combine_kernel i arg1 harg1 arg2 harg2 arg3 harg3 arg4 harg4 arg5 harg5 arg6 harg6 arg7 harg7 arg8 harg8) K } := by
  refine ⟨?_, ?_, ?_, fun E K => ?run⟩
  case run =>
    simp only [cc4__atom_combine_kernel_eq_skeleton]; unfold cc4__atom_combine_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-- The pieces found for output 5 in case A tile its block, so they cover it. -/
theorem cover4_A_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S10000x64.Idx) :
    ∃ pc ∈ (kernelRun4_A c i arg1 harg1 arg2 harg2 arg3 harg3 arg4 harg4 arg5 harg5 arg6 harg6 arg7 harg7 arg8 harg8 hc0 x0 x1 x2 x3 x4).1, y ∈ pc.1.set :=
  View.cover_of_tiledL (kernelRun4_A c i arg1 harg1 arg2 harg2 arg3 harg3 arg4 harg4 arg5 harg5 arg6 harg6 arg7 harg7 arg8 harg8 hc0 x0 x1 x2 x3 x4).1 S10000x64.size (by sl_kernel_rfl) y

/-- What case A leaves in output 5's staging buffer: its pieces read back. -/
def out4_A_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S10000x64 .f32 :=
  VO4_5.read (Elt F) (VO4_5.writes (Elt F) VO4_5.junk (kernelRun4_A c i arg1 harg1 arg2 harg2 arg3 harg3 arg4 harg4 arg5 harg5 arg6 harg6 arg7 harg7 arg8 harg8 hc0 x0 x1 x2 x3 x4).1)

/-- The pieces found for output 6 in case A tile its block, so they cover it. -/
theorem cover4_A_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun4_A c i arg1 harg1 arg2 harg2 arg3 harg3 arg4 harg4 arg5 harg5 arg6 harg6 arg7 harg7 arg8 harg8 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.1 S1x64.size (by sl_kernel_rfl) y

/-- What case A leaves in output 6's staging buffer: its pieces read back. -/
def out4_A_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S1x64 .f32 :=
  VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4).2.1)

/-- The pieces found for output 7 in case A tile its block, so they cover it. -/
theorem cover4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun4_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.2.1 S1x64.size (by sl_kernel_rfl) y

/-- What case A leaves in output 7's staging buffer: its pieces read back. -/
def out4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S1x64 .f32 :=
  VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4).2.2.1)

/-- The pieces found for output 5 in case B tile its block, so they cover it. -/
theorem cover4_B_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S10000x64.Idx) :
    ∃ pc ∈ (kernelRun4_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).1 S10000x64.size (by sl_kernel_rfl) y

/-- What case B leaves in output 5's staging buffer: its pieces read back. -/
def out4_B_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S10000x64 .f32 :=
  VO4_5.read (Elt F) (VO4_5.writes (Elt F) VO4_5.junk (kernelRun4_B c i arg1 harg1 arg2 harg2 arg3 harg3 arg4 harg4 arg5 harg5 arg6 harg6 arg7 harg7 arg8 harg8 hc0 x0 x1 x2 x3 x4 xo6 xo7).1)

/-- The pieces found for output 6 in case B tile its block, so they cover it. -/
theorem cover4_B_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun4_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.1 S1x64.size (by sl_kernel_rfl) y

/-- What case B leaves in output 6's staging buffer: its pieces read back. -/
def out4_B_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 xo6 xo7).2.1)

/-- The pieces found for output 7 in case B tile its block, so they cover it. -/
theorem cover4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun4_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.2.1 S1x64.size (by sl_kernel_rfl) y

/-- What case B leaves in output 7's staging buffer: its pieces read back. -/
def out4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 xo6 xo7).2.2.1)

/-! ## What the outputs hold after each point -/

/-- THE ACCUMULATION: the three outputs' staging buffers after the body at position `n` — the first point's case at `0`,
    the later point's case after it, the two running sums taken from what this gives at `n - 1` (their buffer is not
    written back in between). -/
def outsAt4 (c : Dev nD) : (n : ℕ) → n < cfg4.N → Vec F S10000x64 .f32 × Vec F S1x64 .f32 × Vec F S1x64 .f32
  | 0, hn =>
    (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩),
     out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩),
     out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 25 = 0 then
      (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩),
       out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩),
       out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2,
       out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2,
       out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)

/-- `outsAt4` at the first point. -/
theorem outsAt4_A (c : Dev nD) (t : Fin cfg4.N) (h0 : t.val % 25 = 0) :
    outsAt4 V c t.val t.isLt =
      (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t),
       out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans rfl

/-- `outsAt4` at a later point: that case's contents, over what the point before left. -/
theorem outsAt4_B (c : Dev nD) (t : Fin cfg4.N) (h0 : ¬t.val % 25 = 0) :
    outsAt4 V c t.val t.isLt =
      (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2,
       out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt4`; the invariant the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point accumulating output 6's staging buffer holds what the body left at the point before: the buffer is not
    written back in between (only after the last point), the window is live and uncut. -/
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 6 rfl t (by omega) (Bool.eq_false_iff.mpr fun h => by have := (flush4_6 _).mp h; dsimp only at this; omega)
    (fun _ => rfl) (fun _ _ => rfl)]
  dsimp only [dat4]

/-- At a later point accumulating output 7's staging buffer holds what the body left at the point before: the buffer is not
    written back in between (only after the last point), the window is live and uncut. -/
theorem before4_7_B (c : Dev nD) (t : Fin cfg4.N) (h0 : ¬t.val % 25 = 0) (d) :
    (dat4 V c).before 7 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point: the inputs' memrefs hold their blocks; the closed form of the condition says which case the point
    is in; at a later point the two accumulating outputs hold what the point before left; so that case's run applies. The
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 25 := lt_of_lt_of_eq t.isLt (show cfg4.N = 25 from N_4)
  by_cases h0 : t.val % 25 = 0
  · rw [outsAt4_A V c t h0]
    dsimp only
    unfold out4_A_5 out4_A_6 out4_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ ((hcond4_0 t).mpr h0) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _)
  · rw [outsAt4_B V c t h0]
    dsimp only
    simp only [before4_6_B V c t h0, before4_7_B V c t h0]
    unfold out4_B_5 out4_B_6 out4_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ (fun h => h0 ((hcond4_0 t).mp h)) (iblk4 V c 0 t) (iblk4 V c 1 t) (iblk4 V c 2 t) (iblk4 V c 3 t) (iblk4 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for pipeline 5: what each window's staging buffer holds before and after the
    kernel body at every grid point, as a function of the arrays' contents when the region is entered. -/

-- membership of an index in a rectangle of the full block extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where the pipeline
    does not fetch it the block index has not moved since the previous point, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where the pipeline
    does not fetch it the block index has not moved since the previous point, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where the pipeline
    does not fetch it the block index has not moved since the previous point, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: where the pipeline
    does not fetch it the block index has not moved since the previous point, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: where the pipeline
    does not fetch it the block index has not moved since the previous point, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body loads and stores through: each staging buffer whole -/

abbrev r5_a : Rect S10000x64 := Rect.unit (s := S10000x64) ![0, 0] S10000x64.size inb_S10000x64_S10000x64_0_0
abbrev r5_b : Rect S1x64 := Rect.unit (s := S1x64) ![0, 0] S1x64.size inb_S1x64_S1x64_0_0

/-! ## What the body leaves in each output window's buffer -/

/-- Output window 5's staging buffer after the body, from the input windows' blocks: the body's stores into it as
    pieces, last first. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_a, k5_pay1 (View.ld x0 r5_a) (View.ld x2 r5_b) (View.ld x1 r5_b) (View.ld x3 r5_b) (View.ld x4 r5_b)⟩]

/-- The stores tile the buffer, so they cover it. -/
theorem cover5_5 (p0 : Vec F S10000x64 .f32) (y : S10000x64.Idx) :
    ∃ pc ∈ ([⟨r5_a, p0⟩] : List (View.Piece (Elt F) S10000x64 .f32)), y ∈ pc.1.set :=
  View.cover_of_tiled [⟨r5_a, p0⟩] S10000x64.size (by rfl) y

/-! ## The body's triple -/

set_option maxHeartbeats 4000000 in
/-- The kernel body on whole staging memrefs, the inputs' at read contents `xW` and the outputs' at anything, runs to
    the continuation holding the inputs' as they were and each output's at `out5_W` of the inputs'. What the body
    loads of an output's buffer before storing it whole is never used. -/
theorem sound_kernel5 (c : Dev nD) (E : Set ℕ) (i : grid5.Coords) (a0 : Memref sig .tc .vmem S10000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S10000x64 .f32) (ha5 : a5.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out5_5 x0 x1 x2 x3 x4)) -∗ K ⟨⟩))
      ⊢ wp frame (wpE (defs₀ (F := F)) Variants.none c none) E (cc5__norm_elu_kernel i a0 ha0 a1 ha1 a2 ha2 a3 ha3 a4 ha4 a5 ha5) K := by
  simp only [cc5__norm_elu_kernel_eq_skeleton]; unfold cc5__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t` each
    input's buffer at its block and each output's at `out5_W` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in
/-- The body at any point: the inputs' memrefs hold their blocks, so the body's triple applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t
-- ==== Proof.K.Reg6.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for region 6: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not, for any proof
    data whose array is `V`'s and whose body leaves the block in place: where the window is not fetched its block
    index has not moved since the point before, so the block left there is this point's. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer is read and written whole -/

abbrev r6_S10000x64 : Rect S10000x64 := Rect.unit (s := S10000x64) ![0, 0] S10000x64.size inb_S10000x64_S10000x64_0_0
abbrev r6_S64x64 : Rect S64x64 := Rect.unit (s := S64x64) ![0, 0] S64x64.size inb_S64x64_S64x64_0_0
abbrev r6_S1x64 : Rect S1x64 := Rect.unit (s := S1x64) ![0, 0] S1x64.size inb_S1x64_S1x64_0_0

/-! ## What the body leaves in each output window's buffer -/

/-- Window 6's staging buffer after the body, from the blocks of windows 0, 2, 3: its one store, of the matrix
    product of the first two, each rounded to bf16 and the sum kept in f32 from zero, plus the third's row
    broadcast down the rows. -/
def out6_6 (x0 : Vec F S10000x64 .f32) (x2 : Vec F S64x64 .f32) (x3 : Vec F S1x64 .f32) : Vec F S10000x64 .f32 :=
  View.canon [⟨r6_S10000x64, k6_pay1 (View.ld x0 r6_S10000x64) (View.ld x2 r6_S64x64) (View.ld x3 r6_S1x64)⟩]

/-- The store is of the whole buffer, so it covers it. -/
theorem cover6_6 (p0 : Vec F S10000x64 .f32) (y : S10000x64.Idx) :
    ∃ pc ∈ ([⟨r6_S10000x64, p0⟩] : List (View.Piece (Elt F) S10000x64 .f32)), y ∈ pc.1.set :=
  View.cover_of_tiled [⟨r6_S10000x64, p0⟩] S10000x64.size (by rfl) y

/-- Window 7's staging buffer after the body, from the blocks of windows 1, 4, 5: its one store, of the matrix
    product of the first two, each rounded to bf16 and the sum kept in f32 from zero, plus the third's row
    broadcast down the rows. -/
def out6_7 (x1 : Vec F S10000x64 .f32) (x4 : Vec F S64x64 .f32) (x5 : Vec F S1x64 .f32) : Vec F S10000x64 .f32 :=
  View.canon [⟨r6_S10000x64, k6_pay2 (View.ld x1 r6_S10000x64) (View.ld x4 r6_S64x64) (View.ld x5 r6_S1x64)⟩]

/-- The store is of the whole buffer, so it covers it. -/
theorem cover6_7 (p0 : Vec F S10000x64 .f32) (y : S10000x64.Idx) :
    ∃ pc ∈ ([⟨r6_S10000x64, p0⟩] : List (View.Piece (Elt F) S10000x64 .f32)), y ∈ pc.1.set :=
  View.cover_of_tiled [⟨r6_S10000x64, p0⟩] S10000x64.size (by rfl) y

/-! ## The body's triple -/

set_option maxHeartbeats 1000000 in
/-- The kernel body on whole staging memrefs, the inputs' at read contents `xW` and the outputs' at anything, runs to
    the continuation holding the inputs' as they were and each output's at `out6_W` of the inputs'. The load of an
    output buffer just before its store reads a value nothing uses. -/
theorem sound_kernel6 (c : Dev nD) (E : Set ℕ) (i : grid6.Coords)
    (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_6 x0 x2 x3) ∗ owns (c : Thread nD τ) arg7 fullShare (out6_7 x1 x4 x5)) -∗ K ⟨⟩))
      ⊢ wp frame (wpE (defs₀ (F := F)) Variants.none c none) E (cc6__lin_ge_kernel i arg0 harg0 arg1 harg1 arg2 harg2 arg3 harg3 arg4 harg4 arg5 harg5 arg6 harg6 arg7 harg7) K := by
  simp only [cc6__lin_ge_kernel_eq_skeleton]; unfold cc6__lin_ge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- The proof data of the pipeline on core `c`: the arrays as the region finds them; after the body at point `t`
    each input's buffer at its block and each output's at `out6_W` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 2 t) (iblk6 V c 3 t)
    | ⟨7, _⟩ => out6_7 (iblk6 V c 1 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 2 t) (iblk6 V c 3 t) := by dsimp only [dat6]
theorem after6_7 (c : Dev nD) (t : Fin cfg6.N) : (dat6 V c).after 7 t = out6_7 (iblk6 V c 1 t) (iblk6 V c 4 t) (iblk6 V c 5 t) := by dsimp only [dat6]

/-! Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, so the body's triple applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«180658_j65867618451767_1_alg».proof.Proof.Gen.Kernel.Launch
import proofs.«180658_j65867618451767_1_alg».proof.Proof.Gen.Kernel.Skeleton
import proofs.«180658_j65867618451767_1_alg».proof.Proof.Gen.Kernel.Points
import Idealize.ShloMosaic.Lib.Pipeline.FrameBody
import Idealize.ShloMosaic.Lib.Ring
import Idealize.ShloMosaic.Lib.Tactic

/-! The per-region half of the frame for pipeline 7: what each window's staging buffer holds before and after the
    kernel body at every grid point, as a function of the arrays' contents when the region is entered. -/

-- membership of an index in a rectangle of the full block extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: where the pipeline
    does not fetch it the block index has not moved since the previous point, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: where the pipeline
    does not fetch it the block index has not moved since the previous point, and the body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not: where the pipeline
    does not fetch it the block index has not moved since the previous point, and the body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not: where the pipeline
    does not fetch it the block index has not moved since the previous point, and the body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body loads and stores through: each staging buffer whole -/

abbrev r7_a : Rect S10000x64 := Rect.unit (s := S10000x64) ![0, 0] S10000x64.size inb_S10000x64_S10000x64_0_0
abbrev r7_b : Rect S1x64 := Rect.unit (s := S1x64) ![0, 0] S1x64.size inb_S1x64_S1x64_0_0

/-! ## What the body leaves in each output window's buffer -/

/-- Output window 4's staging buffer after the body, from the input windows' blocks: the body's stores into it as
    pieces, last first. -/
def out7_4 (x0 : Vec F S10000x64 .f32) (x1 : Vec F S10000x64 .f32) (x2 : Vec F S1x64 .f32) (x3 : Vec F S1x64 .f32) : Vec F S10000x64 .f32 :=
  View.canon [⟨r7_a, k7_pay1 (View.ld x0 r7_a) (View.ld x1 r7_a) (View.ld x2 r7_b) (View.ld x3 r7_b)⟩]

/-- The stores tile the buffer, so they cover it. -/
theorem cover7_4 (p0 : Vec F S10000x64 .f32) (y : S10000x64.Idx) :
    ∃ pc ∈ ([⟨r7_a, p0⟩] : List (View.Piece (Elt F) S10000x64 .f32)), y ∈ pc.1.set :=
  View.cover_of_tiled [⟨r7_a, p0⟩] S10000x64.size (by rfl) y

/-! ## The body's triple -/

set_option maxHeartbeats 4000000 in
/-- The kernel body on whole staging memrefs, the inputs' at read contents `xW` and the outputs' at anything, runs to
    the continuation holding the inputs' as they were and each output's at `out7_W` of the inputs'. What the body
    loads of an output's buffer before storing it whole is never used. -/
theorem sound_kernel7 (c : Dev nD) (E : Set ℕ) (i : grid7.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S10000x64 .f32) (ha4 : a4.IsWhole)
    (x0 : Vec F S10000x64 .f32) (x1 : Vec F S10000x64 .f32) (x2 : Vec F S1x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out7_4 x0 x1 x2 x3)) -∗ K ⟨⟩))
      ⊢ wp frame (wpE (defs₀ (F := F)) Variants.none c none) E (cc7__global_update_kernel i a0 ha0 a1 ha1 a2 ha2 a3 ha3 a4 ha4) K := by
  simp only [cc7__global_update_kernel_eq_skeleton]; unfold cc7__global_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays as the region finds them; after the body at point `t` each
    input's buffer at its block and each output's at `out7_W` of the input blocks; the invariant the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

set_option maxHeartbeats 1000000 in
/-- The body at any point: the inputs' memrefs hold their blocks, so the body's triple applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t
-- ==== Proof.K.Run.lean ====
/-
  The run of @main as a whole: fifteen segments — seven stretches of host operations and eight kernel regions — chained
  through the contents of every unscoped buffer at the sixteen boundaries between them. A host stretch takes a boundary's
  contents to their image under its operations; a region leaves every buffer as it found it except the arrays of its
  windows, which end at what its write-backs leave (an input window's array as entered). From the launch to the return every
  weakly fair execution terminates and the final memory is the last boundary's contents; no segment writes an argument, so
  each argument is read back to its launch contents.
-/
import proofs.«180658_j65867618451767_1_alg».proof.Proof.K.Reg0
import proofs.«180658_j65867618451767_1_alg».proof.Proof.K.Reg1
import proofs.«180658_j65867618451767_1_alg».proof.Proof.K.Reg2
import proofs.«180658_j65867618451767_1_alg».proof.Proof.K.Reg3
import proofs.«180658_j65867618451767_1_alg».proof.Proof.K.Reg4
import proofs.«180658_j65867618451767_1_alg».proof.Proof.K.Reg5
import proofs.«180658_j65867618451767_1_alg».proof.Proof.K.Reg6
import proofs.«180658_j65867618451767_1_alg».proof.Proof.K.Reg7
import proofs.«180658_j65867618451767_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0's proof data take. -/
abbrev En1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references: what region 1's proof data take. -/
abbrev En3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references: what region 2's proof data take. -/
abbrev En5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (En5 m ρ) c).arrAt w cfg2.N
theorem W6_arr (c : Dev nD) (w : Fin cfg2.W) :
    W6 m ρ c (Proc.devRef .tc (Pipeline.arrRef spec2 w)) = (dat2 (En5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Ex6 : (c : Dev nD) → (b : Ref sig .tc) → Buf (Elt F) ((c : Thread nD τ).loc b) := fun c b => W6 m ρ c b
theorem hF2 (c : Dev nD) (w : Fin cfg2.W) : (dat2 (En5 m ρ) c).arrAt w cfg2.N = Ex6 m ρ c (Pipeline.arrRef spec2 w) :=
  (W6_arr m ρ c w).symm
theorem hrest2 (c : Dev nD) : ∀ b, b ∉ Finset.univ.image (Pipeline.arrRef spec2) → Ex6 m ρ c b = En5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same read at the TensorCore's references: what region 3's proof data take. -/
abbrev En7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (En7 m ρ) c).arrAt w cfg3.N
theorem W8_arr (c : Dev nD) (w : Fin cfg3.W) :
    W8 m ρ c (Proc.devRef .tc (Pipeline.arrRef spec3 w)) = (dat3 (En7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Ex8 : (c : Dev nD) → (b : Ref sig .tc) → Buf (Elt F) ((c : Thread nD τ).loc b) := fun c b => W8 m ρ c b
theorem hF3 (c : Dev nD) (w : Fin cfg3.W) : (dat3 (En7 m ρ) c).arrAt w cfg3.N = Ex8 m ρ c (Pipeline.arrRef spec3 w) :=
  (W8_arr m ρ c w).symm
theorem hrest3 (c : Dev nD) : ∀ b, b ∉ Finset.univ.image (Pipeline.arrRef spec3) → Ex8 m ρ c b = En7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
/-- The same read at the TensorCore's references: what region 4's proof data take. -/
abbrev En9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (En9 m ρ) c).arrAt w cfg4.N
theorem W10_arr (c : Dev nD) (w : Fin cfg4.W) :
    W10 m ρ c (Proc.devRef .tc (Pipeline.arrRef spec4 w)) = (dat4 (En9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Ex10 : (c : Dev nD) → (b : Ref sig .tc) → Buf (Elt F) ((c : Thread nD τ).loc b) := fun c b => W10 m ρ c b
theorem hF4 (c : Dev nD) (w : Fin cfg4.W) : (dat4 (En9 m ρ) c).arrAt w cfg4.N = Ex10 m ρ c (Pipeline.arrRef spec4 w) :=
  (W10_arr m ρ c w).symm
theorem hrest4 (c : Dev nD) : ∀ b, b ∉ Finset.univ.image (Pipeline.arrRef spec4) → Ex10 m ρ c b = En9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
/-- The same read at the TensorCore's references: what region 5's proof data take. -/
abbrev En11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (En11 m ρ) c).arrAt w cfg5.N
theorem W12_arr (c : Dev nD) (w : Fin cfg5.W) :
    W12 m ρ c (Proc.devRef .tc (Pipeline.arrRef spec5 w)) = (dat5 (En11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Ex12 : (c : Dev nD) → (b : Ref sig .tc) → Buf (Elt F) ((c : Thread nD τ).loc b) := fun c b => W12 m ρ c b
theorem hF5 (c : Dev nD) (w : Fin cfg5.W) : (dat5 (En11 m ρ) c).arrAt w cfg5.N = Ex12 m ρ c (Pipeline.arrRef spec5 w) :=
  (W12_arr m ρ c w).symm
theorem hrest5 (c : Dev nD) : ∀ b, b ∉ Finset.univ.image (Pipeline.arrRef spec5) → Ex12 m ρ c b = En11 m ρ c b :=
  fun b hb => W12_of_ne m ρ c b fun w e => hb (Finset.mem_image.mpr ⟨w, Finset.mem_univ _, e⟩)
/-- The same read at the TensorCore's references: what region 6's proof data take. -/
abbrev En12 : (c : Dev nD) → (b : Ref sig .tc) → Buf (Elt F) ((c : Thread nD τ).loc b) := fun c b => W12 m ρ c b
/-- At region 6's exit: its arrays at what the pipeline leaves, every other buffer as entered. -/
def W13 (c : Dev nD) : Valuation τ sig (Elt F) :=
  Pipeline.withArrays spec6 c (W12 m ρ c) fun w => (dat6 (En12 m ρ) c).arrAt w cfg6.N
theorem W13_arr (c : Dev nD) (w : Fin cfg6.W) :
    W13 m ρ c (Proc.devRef .tc (Pipeline.arrRef spec6 w)) = (dat6 (En12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev Ex13 : (c : Dev nD) → (b : Ref sig .tc) → Buf (Elt F) ((c : Thread nD τ).loc b) := fun c b => W13 m ρ c b
theorem hF6 (c : Dev nD) (w : Fin cfg6.W) : (dat6 (En12 m ρ) c).arrAt w cfg6.N = Ex13 m ρ c (Pipeline.arrRef spec6 w) :=
  (W13_arr m ρ c w).symm
theorem hrest6 (c : Dev nD) : ∀ b, b ∉ Finset.univ.image (Pipeline.arrRef spec6) → Ex13 m ρ c b = En12 m ρ c b :=
  fun b hb => W13_of_ne m ρ c b fun w e => hb (Finset.mem_image.mpr ⟨w, Finset.mem_univ _, e⟩)
/-- After the host stretch `hostOps7`. -/
abbrev W14 : Dev nD → Valuation τ sig (Elt F) := fun c => StableHlo.after hostOps7 (W13 m ρ c)
/-- The same read at the TensorCore's references: what region 7's proof data take. -/
abbrev En14 : (c : Dev nD) → (b : Ref sig .tc) → Buf (Elt F) ((c : Thread nD τ).loc b) := fun c b => W14 m ρ c b
/-- At region 7's exit: its arrays at what the pipeline leaves, every other buffer as entered. -/
def W15 (c : Dev nD) : Valuation τ sig (Elt F) :=
  Pipeline.withArrays spec7 c (W14 m ρ c) fun w => (dat7 (En14 m ρ) c).arrAt w cfg7.N
theorem W15_arr (c : Dev nD) (w : Fin cfg7.W) :
    W15 m ρ c (Proc.devRef .tc (Pipeline.arrRef spec7 w)) = (dat7 (En14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev Ex15 : (c : Dev nD) → (b : Ref sig .tc) → Buf (Elt F) ((c : Thread nD τ).loc b) := fun c b => W15 m ρ c b
theorem hF7 (c : Dev nD) (w : Fin cfg7.W) : (dat7 (En14 m ρ) c).arrAt w cfg7.N = Ex15 m ρ c (Pipeline.arrRef spec7 w) :=
  (W15_arr m ρ c w).symm
theorem hrest7 (c : Dev nD) : ∀ b, b ∉ Finset.univ.image (Pipeline.arrRef spec7) → Ex15 m ρ c b = En14 m ρ c b :=
  fun b hb => W15_of_ne m ρ c b fun w e => hb (Finset.mem_image.mpr ⟨w, Finset.mem_univ _, e⟩)

/-! ## The arguments end as launched -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := StableHlo.after_of_writes_sub hostOps7 _ hostOps7_writes (by decide)
    _ = W12 m ρ c (Proc.devRef .tc main_arg0) := W13_of_ne m ρ c main_arg0 (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (En1 m ρ) c).arrAt_in 0 rfl _).trans (A_eq0 (En1 m ρ) c 0))
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := StableHlo.after_of_writes_sub hostOps7 _ hostOps7_writes (by decide)
    _ = W12 m ρ c (Proc.devRef .tc main_arg1) := W13_of_ne m ρ c main_arg1 (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (En1 m ρ) c).arrAt_in 1 rfl _).trans (A_eq0 (En1 m ρ) c 1))
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := StableHlo.after_of_writes_sub hostOps7 _ hostOps7_writes (by decide)
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := (W4_arr m ρ c 0).trans (((dat1 (En3 m ρ) c).arrAt_in 0 rfl _).trans (A_eq1 (En3 m ρ) c 0))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := StableHlo.after_of_writes_sub hostOps7 _ hostOps7_writes (by decide)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := (W10_arr m ρ c 4).trans (((dat4 (En9 m ρ) c).arrAt_in 4 rfl _).trans (A_eq4 (En9 m ρ) c 4))
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := StableHlo.after_of_writes_sub hostOps7 _ hostOps7_writes (by decide)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := (W6_arr m ρ c 4).trans (((dat2 (En5 m ρ) c).arrAt_in 4 rfl _).trans (A_eq2 (En5 m ρ) c 4))
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := StableHlo.after_of_writes_sub hostOps7 _ hostOps7_writes (by decide)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := StableHlo.after_of_writes_sub hostOps7 _ hostOps7_writes (by decide)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := StableHlo.after_of_writes_sub hostOps7 _ hostOps7_writes (by decide)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := StableHlo.after_of_writes_sub hostOps7 _ hostOps7_writes (by decide)
    _ = W12 m ρ c (Proc.devRef .tc main_arg8) := W13_of_ne m ρ c main_arg8 (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := StableHlo.after_of_writes_sub hostOps7 _ hostOps7_writes (by decide)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := StableHlo.after_of_writes_sub hostOps7 _ hostOps7_writes (by decide)
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := StableHlo.after_of_writes_sub hostOps7 _ hostOps7_writes (by decide)
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := StableHlo.after_of_writes_sub hostOps7 _ hostOps7_writes (by decide)
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- No pallas_call has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
  | ⟨4, _⟩ => fun c => dat4 (En9 m ρ) c
  | ⟨5, _⟩ => fun c => dat5 (En11 m ρ) c
  | ⟨6, _⟩ => fun c => dat6 (En12 m ρ) c
  | ⟨7, _⟩ => fun c => dat7 (En14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- REGION 0 over the thread state: entered from every unscoped buffer at `W1`, left at `W2`. Its arrays are split out
    of the unscoped buffers and put back at the exit contents; the generator register goes into the pipeline's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the pipeline's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the pipeline's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the pipeline's invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out
    of the unscoped buffers and put back at the exit contents; the generator register goes into the pipeline's invariant and
    comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (En9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (En9 m ρ c) (Ex10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are split out
    of the unscoped buffers and put back at the exit contents; the generator register goes into the pipeline's invariant and
    comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (En11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (En11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (En11 m ρ c) (Ex12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`. Its arrays are split out
    of the unscoped buffers and put back at the exit contents; the generator register goes into the pipeline's invariant and
    comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (En12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (En12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (En12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (En12 m ρ c) (Ex13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W14`, left at `W15`. Its arrays are split out
    of the unscoped buffers and put back at the exit contents; the generator register goes into the pipeline's invariant and
    comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (En14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (En14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (En14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (En14 m ρ c) (Ex15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .region (reg6 m ρ),
    .host (hseg hostOps7 hostOps7_sub hostOps7_fresh (W13 m ρ)),
    .region (reg7 m ρ) ]

/-- @main IS the run of the segments. -/
theorem main_run (c : Dev nD) : main (F := F) c = Pipeline.Seg.run (segs m ρ) := by
  rw [main_chain c, Pipeline.Seg.run_eq_chain]
  exact congrArg Pipeline.chain (show _ = (segs m ρ).map Pipeline.Seg.prog from rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩) (run_all m ρ)

end Cert.Kernel.Hand

end
-- ==== Proof.KI.Reg0.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for region 0: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not, for any proof
    data whose array is `V`'s and whose body leaves the block in place: where the window is not fetched its block
    index has not moved since the point before, so the block left there is this point's. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_S10000x64 : Rect S10000x64 := Rect.unit (s := S10000x64) ![0, 0] S10000x64.size inb_S10000x64_S10000x64_0_0
abbrev r0_S64x192 : Rect S64x192 := Rect.unit (s := S64x192) ![0, 0] S64x192.size inb_S64x192_S64x192_0_0
abbrev r0_S1x192 : Rect S1x192 := Rect.unit (s := S1x192) ![0, 0] S1x192.size inb_S1x192_S1x192_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0
abbrev r0_S10000x192 : Rect S10000x192 := Rect.unit (s := S10000x192) ![0, 0] S10000x192.size inb_S10000x192_S10000x192_0_0

/-! ## What the body leaves in each output window's buffer -/

/-- Window 6's staging buffer after the body, from the blocks of windows 0, 2, 3: its one store, of the matrix
    product of the first two, each rounded to bf16 and the sum kept in f32 from zero, plus the third's row
    broadcast down the rows. -/
def out0_6 (x0 : Vec F S10000x64 .f32) (x2 : Vec F S64x192 .f32) (x3 : Vec F S1x192 .f32) : Vec F S10000x192 .f32 :=
  View.canon [⟨r0_S10000x192, k0_pay1 (View.ld x0 r0_S10000x64) (View.ld x2 r0_S64x192) (View.ld x3 r0_S1x192)⟩]

/-- The store is of the whole buffer, so it covers it. -/
theorem cover0_6 (p0 : Vec F S10000x192 .f32) (y : S10000x192.Idx) :
    ∃ pc ∈ ([⟨r0_S10000x192, p0⟩] : List (View.Piece (Elt F) S10000x192 .f32)), y ∈ pc.1.set :=
  View.cover_of_tiled [⟨r0_S10000x192, p0⟩] S10000x192.size (by rfl) y

/-- Window 7's staging buffer after the body, from the blocks of windows 1, 4, 5: its one store, of the matrix
    product of the first two, each rounded to bf16 and the sum kept in f32 from zero, plus the third's row
    broadcast down the rows. -/
def out0_7 (x1 : Vec F S10000x64 .f32) (x4 : Vec F S64x64 .f32) (x5 : Vec F S1x64 .f32) : Vec F S10000x64 .f32 :=
  View.canon [⟨r0_S10000x64, k0_pay2 (View.ld x1 r0_S10000x64) (View.ld x4 r0_S64x64) (View.ld x5 r0_S1x64)⟩]

/-- The store is of the whole buffer, so it covers it. -/
theorem cover0_7 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

/-! ## The body's triple -/

set_option maxHeartbeats 1000000 in
/-- The kernel body on whole staging memrefs, the inputs' at read contents `xW` and the outputs' at anything, runs to
    the continuation holding the inputs' as they were and each output's at `out0_W` of the inputs'. The load of an
    output buffer just before its store reads a value nothing uses. -/
theorem sound_kernel0 (c : Dev nD) (E : Set ℕ) (i : grid0.Coords)
    (arg0 : Memref sig .tc .vmem S10000x64 .f32) (harg0 : arg0.IsWhole) (arg1 : Memref sig .tc .vmem S10000x64 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x192 .f32) (harg6 : arg6.IsWhole) (arg7 : Memref sig .tc .vmem S10000x64 .f32) (harg7 : arg7.IsWhole)
    (x0 : Vec F S10000x64 .f32) (x1 : Vec F S10000x64 .f32) (x2 : Vec F S64x192 .f32) (x3 : Vec F S1x192 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out0_6 x0 x2 x3) ∗ owns (c : Thread nD τ) arg7 fullShare (out0_7 x1 x4 x5)) -∗ K ⟨⟩))
      ⊢ wp frame (wpE (defs₀ (F := F)) Variants.none c none) E (cc0__lin_hue_kernel i arg0 harg0 arg1 harg1 arg2 harg2 arg3 harg3 arg4 harg4 arg5 harg5 arg6 harg6 arg7 harg7) K := by
  simp only [cc0__lin_hue_kernel_eq_skeleton]; unfold cc0__lin_hue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for region 1: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where it is not fetched the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_a : Rect S10000x64 := Rect.unit (s := S10000x64) ![0, 0] S10000x64.size inb_S10000x64_S10000x64_0_0
abbrev r1_b : Rect S64x192 := Rect.unit (s := S64x192) ![0, 0] S64x192.size inb_S64x192_S64x192_0_0
abbrev r1_c : Rect S1x192 := Rect.unit (s := S1x192) ![0, 0] S1x192.size inb_S1x192_S1x192_0_0
abbrev r1_o : Rect S10000x192 := Rect.unit (s := S10000x192) ![0, 0] S10000x192.size inb_S10000x192_S10000x192_0_0

/-! ## What the body leaves in the output window's buffer -/

/-- Window 3's staging buffer after the body, from the input windows' blocks: its one store, of the matrix
    product of windows 0 and 1, each rounded to bf16 and the sum kept in f32 from zero, plus window 2's row
    broadcast down the rows. -/
def out1_3 (x0 : Vec F S10000x64 .f32) (x1 : Vec F S64x192 .f32) (x2 : Vec F S1x192 .f32) : Vec F S10000x192 .f32 :=
  View.canon [⟨r1_o, k1_pay1 (View.ld x0 r1_a) (View.ld x1 r1_b) (View.ld x2 r1_c)⟩]

/-- The store is of the whole buffer, so it covers it. -/
theorem cover1_3 (p0 : Vec F S10000x192 .f32) (y : S10000x192.Idx) :
    ∃ pc ∈ ([⟨r1_o, p0⟩] : List (View.Piece (Elt F) S10000x192 .f32)), y ∈ pc.1.set :=
  View.cover_of_tiled [⟨r1_o, p0⟩] S10000x192.size (by rfl) y

/-! ## The body's triple -/

set_option maxHeartbeats 1000000 in
/-- The kernel body on whole staging memrefs, the inputs' at read contents `xW` and the output's at anything, runs to
    the continuation holding the inputs' as they were and the output's at `out1_3` of the inputs'. The load of the
    output buffer just before its store reads a value nothing uses. -/
theorem sound_kernel1 (c : Dev nD) (E : Set ℕ) (i : grid1.Coords)
    (arg0 : Memref sig .tc .vmem S10000x64 .f32) (harg0 : arg0.IsWhole) (arg1 : Memref sig .tc .vmem S64x192 .f32) (harg1 : arg1.IsWhole)
    (arg2 : Memref sig .tc .vmem S1x192 .f32) (harg2 : arg2.IsWhole) (arg3 : Memref sig .tc .vmem S10000x192 .f32) (harg3 : arg3.IsWhole)
    (x0 : Vec F S10000x64 .f32) (x1 : Vec F S64x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__lin_u_kernel i arg0 harg0 arg1 harg1 arg2 harg2 arg3 harg3) K := by
  simp only [cc1__lin_u_kernel_eq_skeleton]; unfold cc1__lin_u_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main (the bond update's sum of four terms times the graph norm, with the column sums that its batch norm needs): the half of the frame that belongs to this pallas_call, at a PARAMETER `V` — the
  buffers' contents when the region is entered. The kernel walks 25 row blocks of 10000 rows; each point overwrites its own
  block of the first output, while the two [1,64] outputs keep one block for the whole grid: zeroed at the first point,
  then the block's column sums (of the row values and of their squares) added at every point, and written back once, after
  the last. So what those two buffers hold after point `t` is defined by recursion on `t` from what the body's run leaves
  in each of its two cases (first point / later point).
-/
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, for any proof data whose array is `V`'s and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, for any proof data whose array is `V`'s and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, for any proof data whose array is `V`'s and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, for any proof data whose array is `V`'s and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: "is this the first point?" -/

/-- The condition of the body's conditional, from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the 25 points. -/
theorem hcond2_0 : ∀ t : Fin cfg2.N, cond2_0 (grid2.coords t) ↔ t.val % 25 = 0 :=
  (by decide +kernel : ∀ t : Fin grid2.N, cond2_0 (grid2.coords t) ↔ t.val % 25 = 0)

/-- One staging buffer of each output window, through which its contents are stated (the choice does not matter). -/
abbrev VO2_5 : View sig .tc .vmem S10000x64 .f32 := (Memref.whole cc2_stg5_0 : Memref sig .tc .vmem S10000x64 .f32).view
abbrev VO2_6 : View sig .tc .vmem S1x64 .f32 := (Memref.whole cc2_stg6_0 : Memref sig .tc .vmem S1x64 .f32).view
abbrev VO2_7 : View sig .tc .vmem S1x64 .f32 := (Memref.whole cc2_stg7_0 : Memref sig .tc .vmem S1x64 .f32).view
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S10000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)

/-! ## The body's run, case by case: what its stores leave in each output's buffer -/

set_option maxHeartbeats 4000000 in
/-- AT THE FIRST POINT (the conditional taken): on whole staging memrefs, the inputs' at their contents and the outputs' at
    anything, the body runs to the continuation holding the inputs' as they were and each output's buffer with the listed
    pieces written (last first); the lists are whatever the run finds. -/
noncomputable def kernelRun2_A (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__bond_combine_kernel i arg1 harg1 arg2 harg2 arg3 harg3 arg4 harg4 arg5 harg5 arg6 harg6 arg7 harg7 arg8 harg8) K } := by
  refine ⟨?_, ?_, ?_, fun E K => ?run⟩
  case run =>
    simp only [cc2__bond_combine_kernel_eq_skeleton]; unfold cc2__bond_combine_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 4000000 in
/-- AT A LATER POINT (the conditional not taken): the same, the two accumulating outputs' buffers at their running contents
    `xo6`, `xo7`, which the body reads before it stores. -/
noncomputable def kernelRun2_B (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__bond_combine_kernel i arg1 harg1 arg2 harg2 arg3 harg3 arg4 harg4 arg5 harg5 arg6 harg6 arg7 harg7 arg8 harg8) K } := by
  refine ⟨?_, ?_, ?_, fun E K => ?run⟩
  case run =>
    simp only [cc2__bond_combine_kernel_eq_skeleton]; unfold cc2__bond_combine_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-- The pieces found for output 5 in case A tile its block, so they cover it. -/
theorem cover2_A_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S10000x64.Idx) :
    ∃ pc ∈ (kernelRun2_A c i arg1 harg1 arg2 harg2 arg3 harg3 arg4 harg4 arg5 harg5 arg6 harg6 arg7 harg7 arg8 harg8 hc0 x0 x1 x2 x3 x4).1, y ∈ pc.1.set :=
  View.cover_of_tiledL (kernelRun2_A c i arg1 harg1 arg2 harg2 arg3 harg3 arg4 harg4 arg5 harg5 arg6 harg6 arg7 harg7 arg8 harg8 hc0 x0 x1 x2 x3 x4).1 S10000x64.size (by sl_kernel_rfl) y

/-- What case A leaves in output 5's staging buffer: its pieces read back. -/
def out2_A_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S10000x64 .f32 :=
  VO2_5.read (Elt F) (VO2_5.writes (Elt F) VO2_5.junk (kernelRun2_A c i arg1 harg1 arg2 harg2 arg3 harg3 arg4 harg4 arg5 harg5 arg6 harg6 arg7 harg7 arg8 harg8 hc0 x0 x1 x2 x3 x4).1)

/-- The pieces found for output 6 in case A tile its block, so they cover it. -/
theorem cover2_A_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun2_A c i arg1 harg1 arg2 harg2 arg3 harg3 arg4 harg4 arg5 harg5 arg6 harg6 arg7 harg7 arg8 harg8 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.1 S1x64.size (by sl_kernel_rfl) y

/-- What case A leaves in output 6's staging buffer: its pieces read back. -/
def out2_A_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S1x64 .f32 :=
  VO2_6.read (Elt F) (VO2_6.writes (Elt F) VO2_6.junk (kernelRun2_A c i arg1 harg1 arg2 harg2 arg3 harg3 arg4 harg4 arg5 harg5 arg6 harg6 arg7 harg7 arg8 harg8 hc0 x0 x1 x2 x3 x4).2.1)

/-- The pieces found for output 7 in case A tile its block, so they cover it. -/
theorem cover2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun2_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.2.1 S1x64.size (by sl_kernel_rfl) y

/-- What case A leaves in output 7's staging buffer: its pieces read back. -/
def out2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 : Vec F S10000x64 .f32) (x1 : Vec F S10000x64 .f32) (x2 : Vec F S10000x64 .f32) (x3 : Vec F S10000x64 .f32) (x4 : Vec F S10000x1 .f32) : Vec F S1x64 .f32 :=
  VO2_7.read (Elt F) (VO2_7.writes (Elt F) VO2_7.junk (kernelRun2_A c i arg1 harg1 arg2 harg2 arg3 harg3 arg4 harg4 arg5 harg5 arg6 harg6 arg7 harg7 arg8 harg8 hc0 x0 x1 x2 x3 x4).2.2.1)

/-- The pieces found for output 5 in case B tile its block, so they cover it. -/
theorem cover2_B_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S10000x64.Idx) :
    ∃ pc ∈ (kernelRun2_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).1 S10000x64.size (by sl_kernel_rfl) y

/-- What case B leaves in output 5's staging buffer: its pieces read back. -/
def out2_B_5 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S10000x64 .f32 :=
  VO2_5.read (Elt F) (VO2_5.writes (Elt F) VO2_5.junk (kernelRun2_B c i arg1 harg1 arg2 harg2 arg3 harg3 arg4 harg4 arg5 harg5 arg6 harg6 arg7 harg7 arg8 harg8 hc0 x0 x1 x2 x3 x4 xo6 xo7).1)

/-- The pieces found for output 6 in case B tile its block, so they cover it. -/
theorem cover2_B_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun2_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.1 S1x64.size (by sl_kernel_rfl) y

/-- What case B leaves in output 6's staging buffer: its pieces read back. -/
def out2_B_6 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO2_6.read (Elt F) (VO2_6.writes (Elt F) VO2_6.junk (kernelRun2_B c i arg1 harg1 arg2 harg2 arg3 harg3 arg4 harg4 arg5 harg5 arg6 harg6 arg7 harg7 arg8 harg8 hc0 x0 x1 x2 x3 x4 xo6 xo7).2.1)

/-- The pieces found for output 7 in case B tile its block, so they cover it. -/
theorem cover2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun2_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.2.1 S1x64.size (by sl_kernel_rfl) y

/-- What case B leaves in output 7's staging buffer: its pieces read back. -/
def out2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO2_7.read (Elt F) (VO2_7.writes (Elt F) VO2_7.junk (kernelRun2_B c i arg1 harg1 arg2 harg2 arg3 harg3 arg4 harg4 arg5 harg5 arg6 harg6 arg7 harg7 arg8 harg8 hc0 x0 x1 x2 x3 x4 xo6 xo7).2.2.1)

/-! ## What the outputs hold after each point -/

/-- THE ACCUMULATION: the three outputs' staging buffers after the body at position `n` — the first point's case at `0`,
    the later point's case after it, the two running sums taken from what this gives at `n - 1` (their buffer is not
    written back in between). -/
def outsAt2 (c : Dev nD) : (n : ℕ) → n < cfg2.N → Vec F S10000x64 .f32 × Vec F S1x64 .f32 × Vec F S1x64 .f32
  | 0, hn =>
    (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
     out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
     out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 25 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
       out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
       out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
       out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
       out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at the first point. -/
theorem outsAt2_A (c : Dev nD) (t : Fin cfg2.N) (h0 : t.val % 25 = 0) :
    outsAt2 V c t.val t.isLt =
      (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
       out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
       out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a later point: that case's contents, over what the point before left. -/
theorem outsAt2_B (c : Dev nD) (t : Fin cfg2.N) (h0 : ¬t.val % 25 = 0) :
    outsAt2 V c t.val t.isLt =
      (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
       out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
       out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt2`; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point accumulating output 6's staging buffer holds what the body left at the point before: the buffer is not
    written back in between (only after the last point), the window is live and uncut. -/
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

/-- At a later point accumulating output 7's staging buffer holds what the body left at the point before: the buffer is not
    written back in between (only after the last point), the window is live and uncut. -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the condition says which case the point
    is in; at a later point the two accumulating outputs hold what the point before left; so that case's run applies. The
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 25 := lt_of_lt_of_eq t.isLt (show cfg2.N = 25 from N_2)
  by_cases h0 : t.val % 25 = 0
  · rw [outsAt2_A V c t h0]
    dsimp only
    unfold out2_A_5 out2_A_6 out2_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    dsimp only
    simp only [before2_6_B V c t h0, before2_7_B V c t h0]
    unfold out2_B_5 out2_B_6 out2_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for pipeline 3: what each window's staging buffer holds before and after the
    kernel body at every grid point, as a function of the arrays' contents when the region is entered. -/

-- membership of an index in a rectangle of the full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where the pipeline
    does not fetch it the block index has not moved since the previous point, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where the pipeline
    does not fetch it the block index has not moved since the previous point, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where the pipeline
    does not fetch it the block index has not moved since the previous point, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: where the pipeline
    does not fetch it the block index has not moved since the previous point, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: where the pipeline
    does not fetch it the block index has not moved since the previous point, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through: each staging buffer whole -/

abbrev r3_a : Rect S10000x64 := Rect.unit (s := S10000x64) ![0, 0] S10000x64.size inb_S10000x64_S10000x64_0_0
abbrev r3_b : Rect S1x64 := Rect.unit (s := S1x64) ![0, 0] S1x64.size inb_S1x64_S1x64_0_0

/-! ## What the body leaves in each output window's buffer -/

/-- Output window 5's staging buffer after the body, from the input windows' blocks: the body's stores into it as
    pieces, last first. -/
def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_a, k3_pay1 (View.ld x0 r3_a) (View.ld x2 r3_b) (View.ld x1 r3_b) (View.ld x3 r3_b) (View.ld x4 r3_b)⟩]

/-- The stores tile the buffer, so they cover it. -/
theorem cover3_5 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-- Output window 6's staging buffer after the body, from the input windows' blocks: the body's stores into it as
    pieces, last first. -/
def out3_6 (x0 : Vec F S10000x64 .f32) (x1 : Vec F S1x64 .f32) (x2 : Vec F S1x64 .f32) (x3 : Vec F S1x64 .f32) (x4 : Vec F S1x64 .f32) : Vec F S10000x64 .f32 :=
  View.canon [⟨r3_a, k3_pay2 (View.ld x0 r3_a) (View.ld x2 r3_b) (View.ld x1 r3_b) (View.ld x3 r3_b) (View.ld x4 r3_b)⟩]

/-- The stores tile the buffer, so they cover it. -/
theorem cover3_6 (p0 : Vec F S10000x64 .f32) (y : S10000x64.Idx) :
    ∃ pc ∈ ([⟨r3_a, p0⟩] : List (View.Piece (Elt F) S10000x64 .f32)), y ∈ pc.1.set :=
  View.cover_of_tiled [⟨r3_a, p0⟩] S10000x64.size (by rfl) y

/-! ## The body's triple -/

set_option maxHeartbeats 4000000 in
/-- The kernel body on whole staging memrefs, the inputs' at read contents `xW` and the outputs' at anything, runs to
    the continuation holding the inputs' as they were and each output's at `out3_W` of the inputs'. What the body
    loads of an output's buffer before storing it whole is never used. -/
theorem sound_kernel3 (c : Dev nD) (E : Set ℕ) (i : grid3.Coords) (a0 : Memref sig .tc .vmem S10000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S10000x64 .f32) (ha5 : a5.IsWhole) (a6 : Memref sig .tc .vmem S10000x64 .f32) (ha6 : a6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3_5 x0 x1 x2 x3 x4) ∗ owns (c : Thread nD τ) a6 fullShare (out3_6 x0 x1 x2 x3 x4)) -∗ K ⟨⟩))
      ⊢ wp frame (wpE (defs₀ (F := F)) Variants.none c none) E (cc3__norm_elu_sig_kernel i a0 ha0 a1 ha1 a2 ha2 a3 ha3 a4 ha4 a5 ha5 a6 ha6) K := by
  simp only [cc3__norm_elu_sig_kernel_eq_skeleton]; unfold cc3__norm_elu_sig_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and each output's at `out3_W` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks, so the body's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t
-- ==== Proof.KI.Reg4.lean ====
/-
  Region 4 of @main (the atom update's self term plus gated ratio plus graph term, times the graph norm, with the column sums that its batch norm needs): the half of the frame that belongs to this pallas_call, at a PARAMETER `V` — the
  buffers' contents when the region is entered. The kernel walks 25 row blocks of 10000 rows; each point overwrites its own
  block of the first output, while the two [1,64] outputs keep one block for the whole grid: zeroed at the first point,
  then the block's column sums (of the row values and of their squares) added at every point, and written back once, after
  the last. So what those two buffers hold after point `t` is defined by recursion on `t` from what the body's run leaves
  in each of its two cases (first point / later point).
-/
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, for any proof data whose array is `V`'s and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, for any proof data whose array is `V`'s and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's one branch: "is this the first point?" -/

/-- The condition of the body's conditional, from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- One staging buffer of each output window, through which its contents are stated (the choice does not matter). -/
abbrev VO4_5 : View sig .tc .vmem S10000x64 .f32 := (Memref.whole cc4_stg5_0 : Memref sig .tc .vmem S10000x64 .f32).view
abbrev VO4_6 : View sig .tc .vmem S1x64 .f32 := (Memref.whole cc4_stg6_0 : Memref sig .tc .vmem S1x64 .f32).view
abbrev VO4_7 : View sig .tc .vmem S1x64 .f32 := (Memref.whole cc4_stg7_0 : Memref sig .tc .vmem S1x64 .f32).view
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S10000x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S10000x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)

/-! ## The body's run, case by case: what its stores leave in each output's buffer -/

set_option maxHeartbeats 4000000 in
/-- AT THE FIRST POINT (the conditional taken): on whole staging memrefs, the inputs' at their contents and the outputs' at
    anything, the body runs to the continuation holding the inputs' as they were and each output's buffer with the listed
    pieces written (last first); the lists are whatever the run finds. -/
noncomputable def kernelRun4_A (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__atom_combine_kernel i arg1 harg1 arg2 harg2 arg3 harg3 arg4 harg4 arg5 harg5 arg6 harg6 arg7 harg7 arg8 harg8) K } := by
  refine ⟨?_, ?_, ?_, fun E K => ?run⟩
  case run =>
    simp only [cc4__atom_combine_kernel_eq_skeleton]; unfold cc4__atom_combine_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 4000000 in
/-- AT A LATER POINT (the conditional not taken): the same, the two accumulating outputs' buffers at their running contents
    `xo6`, `xo7`, which the body reads before it stores. -/
noncomputable def kernelRun4_B (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) :
    (L5 : List (View.Piece (Elt F) S10000x64 .f32)) × (L6 : List (View.Piece (Elt F) S1x64 .f32)) × { L7 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__atom_combine_kernel i arg1 harg1 arg2 harg2 arg3 harg3 arg4 harg4 arg5 harg5 arg6 harg6 arg7 harg7 arg8 harg8) K } := by
  refine ⟨?_, ?_, ?_, fun E K => ?run⟩
  case run =>
    simp only [cc4__atom_combine_kernel_eq_skeleton]; unfold cc4__atom_combine_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-- The pieces found for output 5 in case A tile its block, so they cover it. -/
theorem cover4_A_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S10000x64.Idx) :
    ∃ pc ∈ (kernelRun4_A c i arg1 harg1 arg2 harg2 arg3 harg3 arg4 harg4 arg5 harg5 arg6 harg6 arg7 harg7 arg8 harg8 hc0 x0 x1 x2 x3 x4).1, y ∈ pc.1.set :=
  View.cover_of_tiledL (kernelRun4_A c i arg1 harg1 arg2 harg2 arg3 harg3 arg4 harg4 arg5 harg5 arg6 harg6 arg7 harg7 arg8 harg8 hc0 x0 x1 x2 x3 x4).1 S10000x64.size (by sl_kernel_rfl) y

/-- What case A leaves in output 5's staging buffer: its pieces read back. -/
def out4_A_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S10000x64 .f32 :=
  VO4_5.read (Elt F) (VO4_5.writes (Elt F) VO4_5.junk (kernelRun4_A c i arg1 harg1 arg2 harg2 arg3 harg3 arg4 harg4 arg5 harg5 arg6 harg6 arg7 harg7 arg8 harg8 hc0 x0 x1 x2 x3 x4).1)

/-- The pieces found for output 6 in case A tile its block, so they cover it. -/
theorem cover4_A_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun4_A c i arg1 harg1 arg2 harg2 arg3 harg3 arg4 harg4 arg5 harg5 arg6 harg6 arg7 harg7 arg8 harg8 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.1 S1x64.size (by sl_kernel_rfl) y

/-- What case A leaves in output 6's staging buffer: its pieces read back. -/
def out4_A_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S1x64 .f32 :=
  VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4).2.1)

/-- The pieces found for output 7 in case A tile its block, so they cover it. -/
theorem cover4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) (y : S1x64.Idx) :
    ∃ pc ∈ (kernelRun4_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.2.1 S1x64.size (by sl_kernel_rfl) y

/-- What case A leaves in output 7's staging buffer: its pieces read back. -/
def out4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 : Vec F S10000x64 .f32) (x1 : Vec F S10000x64 .f32) (x2 : Vec F S10000x64 .f32) (x3 : Vec F S10000x64 .f32) (x4 : Vec F S10000x1 .f32) : Vec F S1x64 .f32 :=
  VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4).2.2.1)

/-- The pieces found for output 5 in case B tile its block, so they cover it. -/
theorem cover4_B_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S10000x64.Idx) :
    ∃ pc ∈ (kernelRun4_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).1 S10000x64.size (by sl_kernel_rfl) y

/-- What case B leaves in output 5's staging buffer: its pieces read back. -/
def out4_B_5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S10000x64 .f32 :=
  VO4_5.read (Elt F) (VO4_5.writes (Elt F) VO4_5.junk (kernelRun4_B c i arg1 harg1 arg2 harg2 arg3 harg3 arg4 harg4 arg5 harg5 arg6 harg6 arg7 harg7 arg8 harg8 hc0 x0 x1 x2 x3 x4 xo6 xo7).1)

/-- The pieces found for output 6 in case B tile its block, so they cover it. -/
theorem cover4_B_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun4_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.1 S1x64.size (by sl_kernel_rfl) y

/-- What case B leaves in output 6's staging buffer: its pieces read back. -/
def out4_B_6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 xo6 xo7).2.1)

/-- The pieces found for output 7 in case B tile its block, so they cover it. -/
theorem cover4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) (y : S1x64.Idx) :
    ∃ pc ∈ (kernelRun4_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.2.1 S1x64.size (by sl_kernel_rfl) y

/-- What case B leaves in output 7's staging buffer: its pieces read back. -/
def out4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 : Vec F S10000x64 .f32) (x1 : Vec F S10000x64 .f32) (x2 : Vec F S10000x64 .f32) (x3 : Vec F S10000x64 .f32) (x4 : Vec F S10000x1 .f32) (xo6 : Vec F S1x64 .f32) (xo7 : Vec F S1x64 .f32) : Vec F S1x64 .f32 :=
  VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 xo6 xo7).2.2.1)

/-! ## What the outputs hold after each point -/

/-- THE ACCUMULATION: the three outputs' staging buffers after the body at position `n` — the first point's case at `0`,
    the later point's case after it, the two running sums taken from what this gives at `n - 1` (their buffer is not
    written back in between). -/
def outsAt4 (c : Dev nD) : (n : ℕ) → n < cfg4.N → Vec F S10000x64 .f32 × Vec F S1x64 .f32 × Vec F S1x64 .f32
  | 0, hn =>
    (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩),
     out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩),
     out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 25 = 0 then
      (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩),
       out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩),
       out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2,
       out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2,
       out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.1 (outsAt4 c n (Nat.lt_of_succ_lt hn)).2.2)

/-- `outsAt4` at the first point. -/
theorem outsAt4_A (c : Dev nD) (t : Fin cfg4.N) (h0 : t.val % 25 = 0) :
    outsAt4 V c t.val t.isLt =
      (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t),
       out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans rfl

/-- `outsAt4` at a later point: that case's contents, over what the point before left. -/
theorem outsAt4_B (c : Dev nD) (t : Fin cfg4.N) (h0 : ¬t.val % 25 = 0) :
    outsAt4 V c t.val t.isLt =
      (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2,
       out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt4`; the invariant the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point accumulating output 6's staging buffer holds what the body left at the point before: the buffer is not
    written back in between (only after the last point), the window is live and uncut. -/
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 6 rfl t (by omega) (Bool.eq_false_iff.mpr fun h => by have := (flush4_6 _).mp h; dsimp only at this; omega)
    (fun _ => rfl) (fun _ _ => rfl)]
  dsimp only [dat4]

/-- At a later point accumulating output 7's staging buffer holds what the body left at the point before: the buffer is not
    written back in between (only after the last point), the window is live and uncut. -/
theorem before4_7_B (c : Dev nD) (t : Fin cfg4.N) (h0 : ¬t.val % 25 = 0) (d) :
    (dat4 V c).before 7 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point: the inputs' memrefs hold their blocks; the closed form of the condition says which case the point
    is in; at a later point the two accumulating outputs hold what the point before left; so that case's run applies. The
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 25 := lt_of_lt_of_eq t.isLt (show cfg4.N = 25 from N_4)
  by_cases h0 : t.val % 25 = 0
  · rw [outsAt4_A V c t h0]
    dsimp only
    unfold out4_A_5 out4_A_6 out4_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ ((hcond4_0 t).mpr h0) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _)
  · rw [outsAt4_B V c t h0]
    dsimp only
    simp only [before4_6_B V c t h0, before4_7_B V c t h0]
    unfold out4_B_5 out4_B_6 out4_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ (fun h => h0 ((hcond4_0 t).mp h)) (iblk4 V c 0 t) (iblk4 V c 1 t) (iblk4 V c 2 t) (iblk4 V c 3 t) (iblk4 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for pipeline 5: what each window's staging buffer holds before and after the
    kernel body at every grid point, as a function of the arrays' contents when the region is entered. -/

-- membership of an index in a rectangle of the full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where the pipeline
    does not fetch it the block index has not moved since the previous point, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: where the pipeline
    does not fetch it the block index has not moved since the previous point, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: where the pipeline
    does not fetch it the block index has not moved since the previous point, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: where the pipeline
    does not fetch it the block index has not moved since the previous point, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: where the pipeline
    does not fetch it the block index has not moved since the previous point, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body loads and stores through: each staging buffer whole -/

abbrev r5_a : Rect S10000x64 := Rect.unit (s := S10000x64) ![0, 0] S10000x64.size inb_S10000x64_S10000x64_0_0
abbrev r5_b : Rect S1x64 := Rect.unit (s := S1x64) ![0, 0] S1x64.size inb_S1x64_S1x64_0_0

/-! ## What the body leaves in each output window's buffer -/

/-- Output window 5's staging buffer after the body, from the input windows' blocks: the body's stores into it as
    pieces, last first. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_a, k5_pay1 (View.ld x0 r5_a) (View.ld x2 r5_b) (View.ld x1 r5_b) (View.ld x3 r5_b) (View.ld x4 r5_b)⟩]

/-- The stores tile the buffer, so they cover it. -/
theorem cover5_5 (p0 : Vec F S10000x64 .f32) (y : S10000x64.Idx) :
    ∃ pc ∈ ([⟨r5_a, p0⟩] : List (View.Piece (Elt F) S10000x64 .f32)), y ∈ pc.1.set :=
  View.cover_of_tiled [⟨r5_a, p0⟩] S10000x64.size (by rfl) y

/-! ## The body's triple -/

set_option maxHeartbeats 4000000 in
/-- The kernel body on whole staging memrefs, the inputs' at read contents `xW` and the outputs' at anything, runs to
    the continuation holding the inputs' as they were and each output's at `out5_W` of the inputs'. What the body
    loads of an output's buffer before storing it whole is never used. -/
theorem sound_kernel5 (c : Dev nD) (E : Set ℕ) (i : grid5.Coords) (a0 : Memref sig .tc .vmem S10000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S10000x64 .f32) (ha5 : a5.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out5_5 x0 x1 x2 x3 x4)) -∗ K ⟨⟩))
      ⊢ wp frame (wpE (defs₀ (F := F)) Variants.none c none) E (cc5__norm_elu_kernel i a0 ha0 a1 ha1 a2 ha2 a3 ha3 a4 ha4 a5 ha5) K := by
  simp only [cc5__norm_elu_kernel_eq_skeleton]; unfold cc5__norm_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t` each
    input's buffer at its block and each output's at `out5_W` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in
/-- The body at any point: the inputs' memrefs hold their blocks, so the body's triple applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t
-- ==== Proof.KI.Reg6.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for region 6: the blocks its windows show at a grid point, what the body's
    stores leave in each output window's staging buffer as a closed function of the input blocks, the body's
    triple, the pipeline's proof data at the contents `V` the region is entered with, and the body obligation
    at every point. -/

-- membership in a rectangle of extent 10000 along the long axis: the structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current staging buffer holds its block at every point, fetched there or not, for any proof
    data whose array is `V`'s and whose body leaves the block in place: where the window is not fetched its block
    index has not moved since the point before, so the block left there is this point's. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer is read and written whole -/

abbrev r6_S10000x64 : Rect S10000x64 := Rect.unit (s := S10000x64) ![0, 0] S10000x64.size inb_S10000x64_S10000x64_0_0
abbrev r6_S64x64 : Rect S64x64 := Rect.unit (s := S64x64) ![0, 0] S64x64.size inb_S64x64_S64x64_0_0
abbrev r6_S1x64 : Rect S1x64 := Rect.unit (s := S1x64) ![0, 0] S1x64.size inb_S1x64_S1x64_0_0

/-! ## What the body leaves in each output window's buffer -/

/-- Window 6's staging buffer after the body, from the blocks of windows 0, 2, 3: its one store, of the matrix
    product of the first two, each rounded to bf16 and the sum kept in f32 from zero, plus the third's row
    broadcast down the rows. -/
def out6_6 (x0 : Vec F S10000x64 .f32) (x2 : Vec F S64x64 .f32) (x3 : Vec F S1x64 .f32) : Vec F S10000x64 .f32 :=
  View.canon [⟨r6_S10000x64, k6_pay1 (View.ld x0 r6_S10000x64) (View.ld x2 r6_S64x64) (View.ld x3 r6_S1x64)⟩]

/-- The store is of the whole buffer, so it covers it. -/
theorem cover6_6 (p0 : Vec F S10000x64 .f32) (y : S10000x64.Idx) :
    ∃ pc ∈ ([⟨r6_S10000x64, p0⟩] : List (View.Piece (Elt F) S10000x64 .f32)), y ∈ pc.1.set :=
  View.cover_of_tiled [⟨r6_S10000x64, p0⟩] S10000x64.size (by rfl) y

/-- Window 7's staging buffer after the body, from the blocks of windows 1, 4, 5: its one store, of the matrix
    product of the first two, each rounded to bf16 and the sum kept in f32 from zero, plus the third's row
    broadcast down the rows. -/
def out6_7 (x1 : Vec F S10000x64 .f32) (x4 : Vec F S64x64 .f32) (x5 : Vec F S1x64 .f32) : Vec F S10000x64 .f32 :=
  View.canon [⟨r6_S10000x64, k6_pay2 (View.ld x1 r6_S10000x64) (View.ld x4 r6_S64x64) (View.ld x5 r6_S1x64)⟩]

/-- The store is of the whole buffer, so it covers it. -/
theorem cover6_7 (p0 : Vec F S10000x64 .f32) (y : S10000x64.Idx) :
    ∃ pc ∈ ([⟨r6_S10000x64, p0⟩] : List (View.Piece (Elt F) S10000x64 .f32)), y ∈ pc.1.set :=
  View.cover_of_tiled [⟨r6_S10000x64, p0⟩] S10000x64.size (by rfl) y

/-! ## The body's triple -/

set_option maxHeartbeats 1000000 in
/-- The kernel body on whole staging memrefs, the inputs' at read contents `xW` and the outputs' at anything, runs to
    the continuation holding the inputs' as they were and each output's at `out6_W` of the inputs'. The load of an
    output buffer just before its store reads a value nothing uses. -/
theorem sound_kernel6 (c : Dev nD) (E : Set ℕ) (i : grid6.Coords)
    (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S10000x64 .f32) (harg7 : arg7.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out6_6 x0 x2 x3) ∗ owns (c : Thread nD τ) arg7 fullShare (out6_7 x1 x4 x5)) -∗ K ⟨⟩))
      ⊢ wp frame (wpE (defs₀ (F := F)) Variants.none c none) E (cc6__lin_ge_kernel i arg0 harg0 arg1 harg1 arg2 harg2 arg3 harg3 arg4 harg4 arg5 harg5 arg6 harg6 arg7 harg7) K := by
  simp only [cc6__lin_ge_kernel_eq_skeleton]; unfold cc6__lin_ge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- The proof data of the pipeline on core `c`: the arrays as the region finds them; after the body at point `t`
    each input's buffer at its block and each output's at `out6_W` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 2 t) (iblk6 V c 3 t)
    | ⟨7, _⟩ => out6_7 (iblk6 V c 1 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-! What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 2 t) (iblk6 V c 3 t) := by dsimp only [dat6]
theorem after6_7 (c : Dev nD) (t : Fin cfg6.N) : (dat6 V c).after 7 t = out6_7 (iblk6 V c 1 t) (iblk6 V c 4 t) (iblk6 V c 5 t) := by dsimp only [dat6]

/-! Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 1000000 in
/-- The body at any point: the inputs' memrefs hold their blocks, so the body's triple applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic

/-! The per-region half of the frame for pipeline 7: what each window's staging buffer holds before and after the
    kernel body at every grid point, as a function of the arrays' contents when the region is entered. -/

-- membership of an index in a rectangle of the full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not: where the pipeline
    does not fetch it the block index has not moved since the previous point, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not: where the pipeline
    does not fetch it the block index has not moved since the previous point, and the body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not: where the pipeline
    does not fetch it the block index has not moved since the previous point, and the body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not: where the pipeline
    does not fetch it the block index has not moved since the previous point, and the body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body loads and stores through: each staging buffer whole -/

abbrev r7_a : Rect S10000x64 := Rect.unit (s := S10000x64) ![0, 0] S10000x64.size inb_S10000x64_S10000x64_0_0
abbrev r7_b : Rect S1x64 := Rect.unit (s := S1x64) ![0, 0] S1x64.size inb_S1x64_S1x64_0_0

/-! ## What the body leaves in each output window's buffer -/

/-- Output window 4's staging buffer after the body, from the input windows' blocks: the body's stores into it as
    pieces, last first. -/
def out7_4 (x0 : Vec F S10000x64 .f32) (x1 : Vec F S10000x64 .f32) (x2 : Vec F S1x64 .f32) (x3 : Vec F S1x64 .f32) : Vec F S10000x64 .f32 :=
  View.canon [⟨r7_a, k7_pay1 (View.ld x0 r7_a) (View.ld x1 r7_a) (View.ld x2 r7_b) (View.ld x3 r7_b)⟩]

/-- The stores tile the buffer, so they cover it. -/
theorem cover7_4 (p0 : Vec F S10000x64 .f32) (y : S10000x64.Idx) :
    ∃ pc ∈ ([⟨r7_a, p0⟩] : List (View.Piece (Elt F) S10000x64 .f32)), y ∈ pc.1.set :=
  View.cover_of_tiled [⟨r7_a, p0⟩] S10000x64.size (by rfl) y

/-! ## The body's triple -/

set_option maxHeartbeats 4000000 in
/-- The kernel body on whole staging memrefs, the inputs' at read contents `xW` and the outputs' at anything, runs to
    the continuation holding the inputs' as they were and each output's at `out7_W` of the inputs'. What the body
    loads of an output's buffer before storing it whole is never used. -/
theorem sound_kernel7 (c : Dev nD) (E : Set ℕ) (i : grid7.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S10000x64 .f32) (ha4 : a4.IsWhole)
    (x0 : Vec F S10000x64 .f32) (x1 : Vec F S10000x64 .f32) (x2 : Vec F S1x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out7_4 x0 x1 x2 x3)) -∗ K ⟨⟩))
      ⊢ wp frame (wpE (defs₀ (F := F)) Variants.none c none) E (cc7__global_update_kernel i a0 ha0 a1 ha1 a2 ha2 a3 ha3 a4 ha4) K := by
  simp only [cc7__global_update_kernel_eq_skeleton]; unfold cc7__global_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays as the region finds them; after the body at point `t` each
    input's buffer at its block and each output's at `out7_W` of the input blocks; the invariant the scoped rest and
    the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

set_option maxHeartbeats 1000000 in
/-- The body at any point: the inputs' memrefs hold their blocks, so the body's triple applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t
-- ==== Proof.KI.Run.lean ====
/-
  The run of @main as a whole: fifteen segments — seven stretches of host operations and eight kernel regions — chained
  through the contents of every unscoped buffer at the sixteen boundaries between them. A host stretch takes a boundary's
  contents to their image under its operations; a region leaves every buffer as it found it except the arrays of its
  windows, which end at what its write-backs leave (an input window's array as entered). From the launch to the return every
  weakly fair execution terminates and the final memory is the last boundary's contents; no segment writes an argument, so
  each argument is read back to its launch contents.
-/
import proofs.«180658_j65867618451767_1_alg».proof.Proof.KI.Reg0
import proofs.«180658_j65867618451767_1_alg».proof.Proof.KI.Reg1
import proofs.«180658_j65867618451767_1_alg».proof.Proof.KI.Reg2
import proofs.«180658_j65867618451767_1_alg».proof.Proof.KI.Reg3
import proofs.«180658_j65867618451767_1_alg».proof.Proof.KI.Reg4
import proofs.«180658_j65867618451767_1_alg».proof.Proof.KI.Reg5
import proofs.«180658_j65867618451767_1_alg».proof.Proof.KI.Reg6
import proofs.«180658_j65867618451767_1_alg».proof.Proof.KI.Reg7
import proofs.«180658_j65867618451767_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0's proof data take. -/
abbrev En1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references: what region 1's proof data take. -/
abbrev En3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
/-- The same read at the TensorCore's references: what region 2's proof data take. -/
abbrev En5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (En5 m ρ) c).arrAt w cfg2.N
theorem W6_arr (c : Dev nD) (w : Fin cfg2.W) :
    W6 m ρ c (Proc.devRef .tc (Pipeline.arrRef spec2 w)) = (dat2 (En5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Ex6 : (c : Dev nD) → (b : Ref sig .tc) → Buf (Elt F) ((c : Thread nD τ).loc b) := fun c b => W6 m ρ c b
theorem hF2 (c : Dev nD) (w : Fin cfg2.W) : (dat2 (En5 m ρ) c).arrAt w cfg2.N = Ex6 m ρ c (Pipeline.arrRef spec2 w) :=
  (W6_arr m ρ c w).symm
theorem hrest2 (c : Dev nD) : ∀ b, b ∉ Finset.univ.image (Pipeline.arrRef spec2) → Ex6 m ρ c b = En5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
/-- The same read at the TensorCore's references: what region 3's proof data take. -/
abbrev En7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (En7 m ρ) c).arrAt w cfg3.N
theorem W8_arr (c : Dev nD) (w : Fin cfg3.W) :
    W8 m ρ c (Proc.devRef .tc (Pipeline.arrRef spec3 w)) = (dat3 (En7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Ex8 : (c : Dev nD) → (b : Ref sig .tc) → Buf (Elt F) ((c : Thread nD τ).loc b) := fun c b => W8 m ρ c b
theorem hF3 (c : Dev nD) (w : Fin cfg3.W) : (dat3 (En7 m ρ) c).arrAt w cfg3.N = Ex8 m ρ c (Pipeline.arrRef spec3 w) :=
  (W8_arr m ρ c w).symm
theorem hrest3 (c : Dev nD) : ∀ b, b ∉ Finset.univ.image (Pipeline.arrRef spec3) → Ex8 m ρ c b = En7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
/-- The same read at the TensorCore's references: what region 4's proof data take. -/
abbrev En9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (En9 m ρ) c).arrAt w cfg4.N
theorem W10_arr (c : Dev nD) (w : Fin cfg4.W) :
    W10 m ρ c (Proc.devRef .tc (Pipeline.arrRef spec4 w)) = (dat4 (En9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Ex10 : (c : Dev nD) → (b : Ref sig .tc) → Buf (Elt F) ((c : Thread nD τ).loc b) := fun c b => W10 m ρ c b
theorem hF4 (c : Dev nD) (w : Fin cfg4.W) : (dat4 (En9 m ρ) c).arrAt w cfg4.N = Ex10 m ρ c (Pipeline.arrRef spec4 w) :=
  (W10_arr m ρ c w).symm
theorem hrest4 (c : Dev nD) : ∀ b, b ∉ Finset.univ.image (Pipeline.arrRef spec4) → Ex10 m ρ c b = En9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
/-- The same read at the TensorCore's references: what region 5's proof data take. -/
abbrev En11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (En11 m ρ) c).arrAt w cfg5.N
theorem W12_arr (c : Dev nD) (w : Fin cfg5.W) :
    W12 m ρ c (Proc.devRef .tc (Pipeline.arrRef spec5 w)) = (dat5 (En11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Ex12 : (c : Dev nD) → (b : Ref sig .tc) → Buf (Elt F) ((c : Thread nD τ).loc b) := fun c b => W12 m ρ c b
theorem hF5 (c : Dev nD) (w : Fin cfg5.W) : (dat5 (En11 m ρ) c).arrAt w cfg5.N = Ex12 m ρ c (Pipeline.arrRef spec5 w) :=
  (W12_arr m ρ c w).symm
theorem hrest5 (c : Dev nD) : ∀ b, b ∉ Finset.univ.image (Pipeline.arrRef spec5) → Ex12 m ρ c b = En11 m ρ c b :=
  fun b hb => W12_of_ne m ρ c b fun w e => hb (Finset.mem_image.mpr ⟨w, Finset.mem_univ _, e⟩)
/-- The same read at the TensorCore's references: what region 6's proof data take. -/
abbrev En12 : (c : Dev nD) → (b : Ref sig .tc) → Buf (Elt F) ((c : Thread nD τ).loc b) := fun c b => W12 m ρ c b
/-- At region 6's exit: its arrays at what the pipeline leaves, every other buffer as entered. -/
def W13 (c : Dev nD) : Valuation τ sig (Elt F) :=
  Pipeline.withArrays spec6 c (W12 m ρ c) fun w => (dat6 (En12 m ρ) c).arrAt w cfg6.N
theorem W13_arr (c : Dev nD) (w : Fin cfg6.W) :
    W13 m ρ c (Proc.devRef .tc (Pipeline.arrRef spec6 w)) = (dat6 (En12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev Ex13 : (c : Dev nD) → (b : Ref sig .tc) → Buf (Elt F) ((c : Thread nD τ).loc b) := fun c b => W13 m ρ c b
theorem hF6 (c : Dev nD) (w : Fin cfg6.W) : (dat6 (En12 m ρ) c).arrAt w cfg6.N = Ex13 m ρ c (Pipeline.arrRef spec6 w) :=
  (W13_arr m ρ c w).symm
theorem hrest6 (c : Dev nD) : ∀ b, b ∉ Finset.univ.image (Pipeline.arrRef spec6) → Ex13 m ρ c b = En12 m ρ c b :=
  fun b hb => W13_of_ne m ρ c b fun w e => hb (Finset.mem_image.mpr ⟨w, Finset.mem_univ _, e⟩)
/-- After the host stretch `hostOps7`. -/
abbrev W14 : Dev nD → Valuation τ sig (Elt F) := fun c => StableHlo.after hostOps7 (W13 m ρ c)
/-- The same read at the TensorCore's references: what region 7's proof data take. -/
abbrev En14 : (c : Dev nD) → (b : Ref sig .tc) → Buf (Elt F) ((c : Thread nD τ).loc b) := fun c b => W14 m ρ c b
/-- At region 7's exit: its arrays at what the pipeline leaves, every other buffer as entered. -/
def W15 (c : Dev nD) : Valuation τ sig (Elt F) :=
  Pipeline.withArrays spec7 c (W14 m ρ c) fun w => (dat7 (En14 m ρ) c).arrAt w cfg7.N
theorem W15_arr (c : Dev nD) (w : Fin cfg7.W) :
    W15 m ρ c (Proc.devRef .tc (Pipeline.arrRef spec7 w)) = (dat7 (En14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
abbrev Ex15 : (c : Dev nD) → (b : Ref sig .tc) → Buf (Elt F) ((c : Thread nD τ).loc b) := fun c b => W15 m ρ c b
theorem hF7 (c : Dev nD) (w : Fin cfg7.W) : (dat7 (En14 m ρ) c).arrAt w cfg7.N = Ex15 m ρ c (Pipeline.arrRef spec7 w) :=
  (W15_arr m ρ c w).symm
theorem hrest7 (c : Dev nD) : ∀ b, b ∉ Finset.univ.image (Pipeline.arrRef spec7) → Ex15 m ρ c b = En14 m ρ c b :=
  fun b hb => W15_of_ne m ρ c b fun w e => hb (Finset.mem_image.mpr ⟨w, Finset.mem_univ _, e⟩)

/-! ## The arguments end as launched -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := StableHlo.after_of_writes_sub hostOps7 _ hostOps7_writes (by decide)
    _ = W12 m ρ c (Proc.devRef .tc main_arg0) := W13_of_ne m ρ c main_arg0 (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (En1 m ρ) c).arrAt_in 0 rfl _).trans (A_eq0 (En1 m ρ) c 0))
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := StableHlo.after_of_writes_sub hostOps7 _ hostOps7_writes (by decide)
    _ = W12 m ρ c (Proc.devRef .tc main_arg1) := W13_of_ne m ρ c main_arg1 (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (En1 m ρ) c).arrAt_in 1 rfl _).trans (A_eq0 (En1 m ρ) c 1))
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := StableHlo.after_of_writes_sub hostOps7 _ hostOps7_writes (by decide)
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := (W4_arr m ρ c 0).trans (((dat1 (En3 m ρ) c).arrAt_in 0 rfl _).trans (A_eq1 (En3 m ρ) c 0))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := StableHlo.after_of_writes_sub hostOps7 _ hostOps7_writes (by decide)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := (W10_arr m ρ c 4).trans (((dat4 (En9 m ρ) c).arrAt_in 4 rfl _).trans (A_eq4 (En9 m ρ) c 4))
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := StableHlo.after_of_writes_sub hostOps7 _ hostOps7_writes (by decide)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := (W6_arr m ρ c 4).trans (((dat2 (En5 m ρ) c).arrAt_in 4 rfl _).trans (A_eq2 (En5 m ρ) c 4))
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := StableHlo.after_of_writes_sub hostOps7 _ hostOps7_writes (by decide)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := StableHlo.after_of_writes_sub hostOps7 _ hostOps7_writes (by decide)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := StableHlo.after_of_writes_sub hostOps7 _ hostOps7_writes (by decide)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := StableHlo.after_of_writes_sub hostOps7 _ hostOps7_writes (by decide)
    _ = W12 m ρ c (Proc.devRef .tc main_arg8) := W13_of_ne m ρ c main_arg8 (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := StableHlo.after_of_writes_sub hostOps7 _ hostOps7_writes (by decide)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := StableHlo.after_of_writes_sub hostOps7 _ hostOps7_writes (by decide)
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := StableHlo.after_of_writes_sub hostOps7 _ hostOps7_writes (by decide)
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := StableHlo.after_of_writes_sub hostOps7 _ hostOps7_writes (by decide)
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

/-- No pallas_call has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
  | ⟨4, _⟩ => fun c => dat4 (En9 m ρ) c
  | ⟨5, _⟩ => fun c => dat5 (En11 m ρ) c
  | ⟨6, _⟩ => fun c => dat6 (En12 m ρ) c
  | ⟨7, _⟩ => fun c => dat7 (En14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- REGION 0 over the thread state: entered from every unscoped buffer at `W1`, left at `W2`. Its arrays are split out
    of the unscoped buffers and put back at the exit contents; the generator register goes into the pipeline's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split out
    of the unscoped buffers and put back at the exit contents; the generator register goes into the pipeline's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split out
    of the unscoped buffers and put back at the exit contents; the generator register goes into the pipeline's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are split out
    of the unscoped buffers and put back at the exit contents; the generator register goes into the pipeline's invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are split out
    of the unscoped buffers and put back at the exit contents; the generator register goes into the pipeline's invariant and
    comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (En9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (En9 m ρ c) (Ex10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are split out
    of the unscoped buffers and put back at the exit contents; the generator register goes into the pipeline's invariant and
    comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (En11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (En11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (En11 m ρ c) (Ex12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`. Its arrays are split out
    of the unscoped buffers and put back at the exit contents; the generator register goes into the pipeline's invariant and
    comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (En12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (En12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (En12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (En12 m ρ c) (Ex13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W14`, left at `W15`. Its arrays are split out
    of the unscoped buffers and put back at the exit contents; the generator register goes into the pipeline's invariant and
    comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (En14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (En14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (En14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (En14 m ρ c) (Ex15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .region (reg6 m ρ),
    .host (hseg hostOps7 hostOps7_sub hostOps7_fresh (W13 m ρ)),
    .region (reg7 m ρ) ]

/-- @main IS the run of the segments. -/
theorem main_run (c : Dev nD) : main (F := F) c = Pipeline.Seg.run (segs m ρ) := by
  rw [main_chain c, Pipeline.Seg.run_eq_chain]
  exact congrArg Pipeline.chain (show _ = (segs m ρ).map Pipeline.Seg.prog from rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩) (run_all m ρ)

end Cert.KernelIdeal.Hand

end
-- ==== Proof.Ref.Ops0.lean ====
/- A table: the operations of window 0 of the reference program's @main (its statements main_part0), in order, each
   as the program states it, a module-local function's operations in place of its call, over the call's buffer
   record and with the call's operands for its parameters; and the references these operations write. -/
import proofs.«180658_j65867618451767_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 60 operations of window 0, in order. -/
abbrev ops0 : List (HloOp τ sig (Elt F)) :=
  [ StableHlo.unary main_arg5 main_v0 ((extractStridedSlice S1x64x64 ![0, 0, 0] · slices_S9x64x64_S1x64x64_0_0_0) : (⟨S9x64x64, .f32⟩ : BufTy).Contents (Elt F) → (⟨S1x64x64, .f32⟩ : BufTy).Contents (Elt F)),
    StableHlo.reshape main_v0 main_v1 rfl shapeCasts_S1x64x64_S64x64,
    StableHlo.binary main_arg0 main_v1 main_v2 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v3 ((extractStridedSlice S1x64 ![0, 0] · slices_S9x64_S1x64_0_0) : (⟨S9x64, .f32⟩ : BufTy).Contents (Elt F) → (⟨S1x64, .f32⟩ : BufTy).Contents (Elt F)),
    StableHlo.reshape main_v3 main_v4 rfl shapeCasts_S1x64_S64,
    StableHlo.unary main_v4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S250000x64 ![0, 1] bcast_S1x64_S250000x64_0_1 : (⟨S1x64, .f32⟩ : BufTy).Contents (Elt F) → (⟨S250000x64, .f32⟩ : BufTy).Contents (Elt F)),
    StableHlo.binary main_v2 main_v6 main_v7 (addf : (⟨S250000x64, .f32⟩ : BufTy).Contents (Elt F) → (⟨S250000x64, .f32⟩ : BufTy).Contents (Elt F) → (⟨S250000x64, .f32⟩ : BufTy).Contents (Elt F)),
    StableHlo.unary main_arg5 main_v8 ((extractStridedSlice S1x64x64 ![3, 0, 0] · slices_S9x64x64_S1x64x64_3_0_0) : (⟨S9x64x64, .f32⟩ : BufTy).Contents (Elt F) → (⟨S1x64x64, .f32⟩ : BufTy).Contents (Elt F)),
    StableHlo.reshape main_v8 main_v9 rfl shapeCasts_S1x64x64_S64x64,
    StableHlo.binary main_arg0 main_v9 main_v10 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v11 ((extractStridedSlice S1x64 ![3, 0] · slices_S9x64_S1x64_3_0) : (⟨S9x64, .f32⟩ : BufTy).Contents (Elt F) → (⟨S1x64, .f32⟩ : BufTy).Contents (Elt F)),
    StableHlo.reshape main_v11 main_v12 rfl shapeCasts_S1x64_S64,
    StableHlo.unary main_v12 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S250000x64 ![0, 1] bcast_S1x64_S250000x64_0_1 : (⟨S1x64, .f32⟩ : BufTy).Contents (Elt F) → (⟨S250000x64, .f32⟩ : BufTy).Contents (Elt F)),
    StableHlo.binary main_v10 main_v14 main_v15 (addf : (⟨S250000x64, .f32⟩ : BufTy).Contents (Elt F) → (⟨S250000x64, .f32⟩ : BufTy).Contents (Elt F) → (⟨S250000x64, .f32⟩ : BufTy).Contents (Elt F)),
    StableHlo.unary main_arg5 main_v16 ((extractStridedSlice S1x64x64 ![4, 0, 0] · slices_S9x64x64_S1x64x64_4_0_0) : (⟨S9x64x64, .f32⟩ : BufTy).Contents (Elt F) → (⟨S1x64x64, .f32⟩ : BufTy).Contents (Elt F)),
    StableHlo.reshape main_v16 main_v17 rfl shapeCasts_S1x64x64_S64x64,
    StableHlo.binary main_arg0 main_v17 main_v18 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v19 ((extractStridedSlice S1x64 ![4, 0] · slices_S9x64_S1x64_4_0) : (⟨S9x64, .f32⟩ : BufTy).Contents (Elt F) → (⟨S1x64, .f32⟩ : BufTy).Contents (Elt F)),
    StableHlo.reshape main_v19 main_v20 rfl shapeCasts_S1x64_S64,
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S250000x64 ![0, 1] bcast_S1x64_S250000x64_0_1 : (⟨S1x64, .f32⟩ : BufTy).Contents (Elt F) → (⟨S250000x64, .f32⟩ : BufTy).Contents (Elt F)),
    StableHlo.binary main_v18 main_v22 main_v23 (addf : (⟨S250000x64, .f32⟩ : BufTy).Contents (Elt F) → (⟨S250000x64, .f32⟩ : BufTy).Contents (Elt F) → (⟨S250000x64, .f32⟩ : BufTy).Contents (Elt F)),
    StableHlo.unary main_arg5 main_v24 ((extractStridedSlice S1x64x64 ![1, 0, 0] · slices_S9x64x64_S1x64x64_1_0_0) : (⟨S9x64x64, .f32⟩ : BufTy).Contents (Elt F) → (⟨S1x64x64, .f32⟩ : BufTy).Contents (Elt F)),
    StableHlo.reshape main_v24 main_v25 rfl shapeCasts_S1x64x64_S64x64,
    StableHlo.binary main_arg1 main_v25 main_v26 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v27 ((extractStridedSlice S1x64 ![1, 0] · slices_S9x64_S1x64_1_0) : (⟨S9x64, .f32⟩ : BufTy).Contents (Elt F) → (⟨S1x64, .f32⟩ : BufTy).Contents (Elt F)),
    StableHlo.reshape main_v27 main_v28 rfl shapeCasts_S1x64_S64,
    StableHlo.unary main_v28 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S250000x64 ![0, 1] bcast_S1x64_S250000x64_0_1 : (⟨S1x64, .f32⟩ : BufTy).Contents (Elt F) → (⟨S250000x64, .f32⟩ : BufTy).Contents (Elt F)),
    StableHlo.binary main_v26 main_v30 main_v31 (addf : (⟨S250000x64, .f32⟩ : BufTy).Contents (Elt F) → (⟨S250000x64, .f32⟩ : BufTy).Contents (Elt F) → (⟨S250000x64, .f32⟩ : BufTy).Contents (Elt F)),
    StableHlo.unary main_arg5 main_v32 ((extractStridedSlice S1x64x64 ![2, 0, 0] · slices_S9x64x64_S1x64x64_2_0_0) : (⟨S9x64x64, .f32⟩ : BufTy).Contents (Elt F) → (⟨S1x64x64, .f32⟩ : BufTy).Contents (Elt F)),
    StableHlo.reshape main_v32 main_v33 rfl shapeCasts_S1x64x64_S64x64,
    StableHlo.binary main_arg2 main_v33 main_v34 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg6 main_v35 ((extractStridedSlice S1x64 ![2, 0] · slices_S9x64_S1x64_2_0) : (⟨S9x64, .f32⟩ : BufTy).Contents (Elt F) → (⟨S1x64, .f32⟩ : BufTy).Contents (Elt F)),
    StableHlo.reshape main_v35 main_v36 rfl shapeCasts_S1x64_S64,
    StableHlo.unary main_v36 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S10000x64 ![0, 1] bcast_S1x64_S10000x64_0_1 : (⟨S1x64, .f32⟩ : BufTy).Contents (Elt F) → (⟨S10000x64, .f32⟩ : BufTy).Contents (Elt F)),
    StableHlo.binary main_v34 main_v38 main_v39 (addf : (⟨S10000x64, .f32⟩ : BufTy).Contents (Elt F) → (⟨S10000x64, .f32⟩ : BufTy).Contents (Elt F) → (⟨S10000x64, .f32⟩ : BufTy).Contents (Elt F)),
    StableHlo.unary main_arg5 main_v40 ((extractStridedSlice S1x64x64 ![5, 0, 0] · slices_S9x64x64_S1x64x64_5_0_0) : (⟨S9x64x64, .f32⟩ : BufTy).Contents (Elt F) → (⟨S1x64x64, .f32⟩ : BufTy).Contents (Elt F)),
    StableHlo.reshape main_v40 main_v41 rfl shapeCasts_S1x64x64_S64x64,
    StableHlo.binary main_arg2 main_v41 main_v42 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg6 main_v43 ((extractStridedSlice S1x64 ![5, 0] · slices_S9x64_S1x64_5_0) : (⟨S9x64, .f32⟩ : BufTy).Contents (Elt F) → (⟨S1x64, .f32⟩ : BufTy).Contents (Elt F)),
    StableHlo.reshape main_v43 main_v44 rfl shapeCasts_S1x64_S64,
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S10000x64 ![0, 1] bcast_S1x64_S10000x64_0_1 : (⟨S1x64, .f32⟩ : BufTy).Contents (Elt F) → (⟨S10000x64, .f32⟩ : BufTy).Contents (Elt F)),
    StableHlo.binary main_v42 main_v46 main_v47 (addf : (⟨S10000x64, .f32⟩ : BufTy).Contents (Elt F) → (⟨S10000x64, .f32⟩ : BufTy).Contents (Elt F) → (⟨S10000x64, .f32⟩ : BufTy).Contents (Elt F)),
    StableHlo.nullary main_c (constantI S_ 32 0#32),
    StableHlo.unary main_c main_v48 (broadcastInDim S250000 ![] bcast_S_S250000 : (⟨S_, .i32⟩ : BufTy).Contents (Elt F) → (⟨S250000, .i32⟩ : BufTy).Contents (Elt F)),
    StableHlo.binary main_arg9 main_v48 main_v49 (cmpi .slt : (⟨S250000, .i32⟩ : BufTy).Contents (Elt F) → (⟨S250000, .i32⟩ : BufTy).Contents (Elt F) → (⟨S250000, .i1⟩ : BufTy).Contents (Elt F)),
    StableHlo.nullary main_c_0 (constantI S_ 32 250000#32),
    StableHlo.unary main_c_0 main_v50 (broadcastInDim S250000 ![] bcast_S_S250000 : (⟨S_, .i32⟩ : BufTy).Contents (Elt F) → (⟨S250000, .i32⟩ : BufTy).Contents (Elt F)),
    StableHlo.binary main_arg9 main_v50 main_v51 (addi : (⟨S250000, .i32⟩ : BufTy).Contents (Elt F) → (⟨S250000, .i32⟩ : BufTy).Contents (Elt F) → (⟨S250000, .i32⟩ : BufTy).Contents (Elt F)),
    StableHlo.ternary main_v49 main_v51 main_arg9 main_v52 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v52 main_v53 (broadcastInDim S250000x1 ![0] bcast_S250000_S250000x1_0 : (⟨S250000, .i32⟩ : BufTy).Contents (Elt F) → (⟨S250000x1, .i32⟩ : BufTy).Contents (Elt F)),
    StableHlo.binary main_v7 main_v53 main_v54 ((fun x i => Host.gather gather_S250000x64_S250000x1_S250000x64_1_0_n_n_0_1_164 x i) : (⟨S250000x64, .f32⟩ : BufTy).Contents (Elt F) → (⟨S250000x1, .i32⟩ : BufTy).Contents (Elt F) → (⟨S250000x64, .f32⟩ : BufTy).Contents (Elt F)),
    StableHlo.nullary main_c_1 (constantI S_ 32 0#32),
    StableHlo.unary main_c_1 main_v55 (broadcastInDim S250000 ![] bcast_S_S250000 : (⟨S_, .i32⟩ : BufTy).Contents (Elt F) → (⟨S250000, .i32⟩ : BufTy).Contents (Elt F)),
    StableHlo.binary main_arg10 main_v55 main_v56 (cmpi .slt : (⟨S250000, .i32⟩ : BufTy).Contents (Elt F) → (⟨S250000, .i32⟩ : BufTy).Contents (Elt F) → (⟨S250000, .i1⟩ : BufTy).Contents (Elt F)) ]

/-- The references they write, in order. -/
abbrev W0 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_c, main_v48, main_v49, main_c_0, main_v50, main_v51, main_v52, main_v53, main_v54, main_c_1, main_v55, main_v56]

end Cert.ReferenceIdeal.Hand

end
-- ==== Proof.Ref.Part0.lean ====
import proofs.«180658_j65867618451767_1_alg».proof.Proof.Ref.Ops0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one bind re-associated per statement: the rewrite under the chain recurses once per statement
set_option maxRecDepth 4096 in
/-- Window 0 of @main is the straight line of its operations: both sides are one chain of host steps once sequencing is
    re-associated to the right and the returns in the middle are dropped (the monad laws). -/
theorem part0_eq (c : Dev nD) : main_part0 (F := F) c = seq ops0 := by
  simp only [main_part0, seq, bind_assoc, pure_bind]
  rfl

/-- Every operation of the window touches TensorCore references only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of the window determines its results. -/
theorem ops0_fresh : (ops0 : List (HloOp τ sig (Elt F))).Forall fun op => op.fresh = ∅ := by
  simp only [List.Forall]; repeat' constructor

/-- Each operation of the window writes one reference, a member of `W0`. -/
theorem ops0_writes : (ops0 : List (HloOp τ sig (Elt F))).Forall fun op =>
    op.writes ⊆ (W0.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

end Cert.ReferenceIdeal.Hand

end
-- ==== Proof.Ref.Ops1.lean ====
/- A table: the operations of window 1 of the reference program's @main (its statements main_part1), in order, each
   as the program states it, a module-local function's operations in place of its call, over the call's buffer
   record and with the call's operands for its parameters; and the references these operations write. -/
import proofs.«180658_j65867618451767_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 95 operations of window 1, in order. -/
abbrev ops1 : List (HloOp τ sig (Elt F)) :=
  [ StableHlo.nullary main_c_2 (constantI S_ 32 250000#32),
    StableHlo.unary main_c_2 main_v57 (broadcastInDim S250000 ![] bcast_S_S250000 : (⟨S_, .i32⟩ : BufTy).Contents (Elt F) → (⟨S250000, .i32⟩ : BufTy).Contents (Elt F)),
    StableHlo.binary main_arg10 main_v57 main_v58 (addi : (⟨S250000, .i32⟩ : BufTy).Contents (Elt F) → (⟨S250000, .i32⟩ : BufTy).Contents (Elt F) → (⟨S250000, .i32⟩ : BufTy).Contents (Elt F)),
    StableHlo.ternary main_v56 main_v58 main_arg10 main_v59 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v59 main_v60 (broadcastInDim S250000x1 ![0] bcast_S250000_S250000x1_0 : (⟨S250000, .i32⟩ : BufTy).Contents (Elt F) → (⟨S250000x1, .i32⟩ : BufTy).Contents (Elt F)),
    StableHlo.binary main_v7 main_v60 main_v61 ((fun x i => Host.gather gather_S250000x64_S250000x1_S250000x64_1_0_n_n_0_1_164 x i) : (⟨S250000x64, .f32⟩ : BufTy).Contents (Elt F) → (⟨S250000x1, .i32⟩ : BufTy).Contents (Elt F) → (⟨S250000x64, .f32⟩ : BufTy).Contents (Elt F)),
    StableHlo.binary main_v54 main_v61 main_v62 (addf : (⟨S250000x64, .f32⟩ : BufTy).Contents (Elt F) → (⟨S250000x64, .f32⟩ : BufTy).Contents (Elt F) → (⟨S250000x64, .f32⟩ : BufTy).Contents (Elt F)),
    StableHlo.binary main_v62 main_v31 main_v63 (addf : (⟨S250000x64, .f32⟩ : BufTy).Contents (Elt F) → (⟨S250000x64, .f32⟩ : BufTy).Contents (Elt F) → (⟨S250000x64, .f32⟩ : BufTy).Contents (Elt F)),
    StableHlo.nullary main_c_3 (constantI S_ 32 0#32),
    StableHlo.unary main_c_3 main_v64 (broadcastInDim S250000 ![] bcast_S_S250000 : (⟨S_, .i32⟩ : BufTy).Contents (Elt F) → (⟨S250000, .i32⟩ : BufTy).Contents (Elt F)),
    StableHlo.binary main_arg12 main_v64 main_v65 (cmpi .slt : (⟨S250000, .i32⟩ : BufTy).Contents (Elt F) → (⟨S250000, .i32⟩ : BufTy).Contents (Elt F) → (⟨S250000, .i1⟩ : BufTy).Contents (Elt F)),
    StableHlo.nullary main_c_4 (constantI S_ 32 10000#32),
    StableHlo.unary main_c_4 main_v66 (broadcastInDim S250000 ![] bcast_S_S250000 : (⟨S_, .i32⟩ : BufTy).Contents (Elt F) → (⟨S250000, .i32⟩ : BufTy).Contents (Elt F)),
    StableHlo.binary main_arg12 main_v66 main_v67 (addi : (⟨S250000, .i32⟩ : BufTy).Contents (Elt F) → (⟨S250000, .i32⟩ : BufTy).Contents (Elt F) → (⟨S250000, .i32⟩ : BufTy).Contents (Elt F)),
    StableHlo.ternary main_v65 main_v67 main_arg12 main_v68 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v68 main_v69 (broadcastInDim S250000x1 ![0] bcast_S250000_S250000x1_0 : (⟨S250000, .i32⟩ : BufTy).Contents (Elt F) → (⟨S250000x1, .i32⟩ : BufTy).Contents (Elt F)),
    StableHlo.binary main_v39 main_v69 main_v70 ((fun x i => Host.gather gather_S10000x64_S250000x1_S250000x64_1_0_n_n_0_1_164 x i) : (⟨S10000x64, .f32⟩ : BufTy).Contents (Elt F) → (⟨S250000x1, .i32⟩ : BufTy).Contents (Elt F) → (⟨S250000x64, .f32⟩ : BufTy).Contents (Elt F)),
    StableHlo.binary main_v63 main_v70 main_v71 (addf : (⟨S250000x64, .f32⟩ : BufTy).Contents (Elt F) → (⟨S250000x64, .f32⟩ : BufTy).Contents (Elt F) → (⟨S250000x64, .f32⟩ : BufTy).Contents (Elt F)),
    StableHlo.unary main_arg4 main_v72 (broadcastInDim S250000x64 ![0, 1] bcast_S250000x1_S250000x64_0_1 : (⟨S250000x1, .f32⟩ : BufTy).Contents (Elt F) → (⟨S250000x64, .f32⟩ : BufTy).Contents (Elt F)),
    StableHlo.binary main_v71 main_v72 main_v73 (mulf : (⟨S250000x64, .f32⟩ : BufTy).Contents (Elt F) → (⟨S250000x64, .f32⟩ : BufTy).Contents (Elt F) → (⟨S250000x64, .f32⟩ : BufTy).Contents (Elt F)),
    StableHlo.unary main_arg7 main_v74 ((extractStridedSlice S1x64 ![0, 0] · slices_S3x64_S1x64_0_0) : (⟨S3x64, .f32⟩ : BufTy).Contents (Elt F) → (⟨S1x64, .f32⟩ : BufTy).Contents (Elt F)),
    StableHlo.reshape main_v74 main_v75 rfl shapeCasts_S1x64_S64,
    StableHlo.unary main_arg8 main_v76 ((extractStridedSlice S1x64 ![0, 0] · slices_S3x64_S1x64_0_0) : (⟨S3x64, .f32⟩ : BufTy).Contents (Elt F) → (⟨S1x64, .f32⟩ : BufTy).Contents (Elt F)),
    StableHlo.reshape main_v76 main_v77 rfl shapeCasts_S1x64_S64,
    StableHlo.nullary main_cst (constant S_ .f32 0x00000000#32),
    StableHlo.binary main_v73 main_cst main_v78 ((fun x v => Host.reduceAdd x v reducesTo_S250000x64_S64_d0 h_S_) : (⟨S250000x64, .f32⟩ : BufTy).Contents (Elt F) → (⟨S_, .f32⟩ : BufTy).Contents (Elt F) → (⟨S64, .f32⟩ : BufTy).Contents (Elt F)),
    StableHlo.nullary main_cst_5 (constant S_ .f32 0x48742400#32),
    StableHlo.unary main_cst_5 main_v79 (broadcastInDim S64 ![] bcast_S_S64 : (⟨S_, .f32⟩ : BufTy).Contents (Elt F) → (⟨S64, .f32⟩ : BufTy).Contents (Elt F)),
    StableHlo.binary main_v78 main_v79 main_v80 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call0.cst (constant S_ .f32 0x00000000#32),
    StableHlo.TRef.binary (.of main_v73 : StableHlo.TRef sig ⟨S250000x64, .f32⟩) main_call0.cst main_call0.v0 (fun x v => Host.reduceAdd x v reducesTo_S250000x64_S64_d0 h_S_),
    StableHlo.TRef.unary main_call0.v0 main_call0.v1 (broadcastInDim S1x64 ![1] bcast_S64_S1x64_1),
    StableHlo.TRef.nullary main_call0.cst_0 (constant S_ .f32 0x48742400#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S250000x64 ![0, 1] bcast_S1x64_S250000x64_0_1),
    StableHlo.TRef.binary (.of main_v73 : StableHlo.TRef sig ⟨S250000x64, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x48742400#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S250000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v80 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S250000x64 ![0, 1] bcast_S1x64_S250000x64_0_1 : (⟨S1x64, .f32⟩ : BufTy).Contents (Elt F) → (⟨S250000x64, .f32⟩ : BufTy).Contents (Elt F)),
    StableHlo.binary main_v73 main_v83 main_v84 (subf : (⟨S250000x64, .f32⟩ : BufTy).Contents (Elt F) → (⟨S250000x64, .f32⟩ : BufTy).Contents (Elt F) → (⟨S250000x64, .f32⟩ : BufTy).Contents (Elt F)),
    StableHlo.nullary main_cst_7 (constant S_ .f32 0x3727C5AC#32),
    StableHlo.unary main_cst_7 main_v85 (broadcastInDim S64 ![] bcast_S_S64 : (⟨S_, .f32⟩ : BufTy).Contents (Elt F) → (⟨S64, .f32⟩ : BufTy).Contents (Elt F)),
    StableHlo.binary main_v81 main_v85 main_v86 (addf : (⟨S64, .f32⟩ : BufTy).Contents (Elt F) → (⟨S64, .f32⟩ : BufTy).Contents (Elt F) → (⟨S64, .f32⟩ : BufTy).Contents (Elt F)),
    StableHlo.unary main_v86 main_v87 (Host.rsqrt : (⟨S64, .f32⟩ : BufTy).Contents (Elt F) → (⟨S64, .f32⟩ : BufTy).Contents (Elt F)),
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S250000x64 ![0, 1] bcast_S1x64_S250000x64_0_1 : (⟨S1x64, .f32⟩ : BufTy).Contents (Elt F) → (⟨S250000x64, .f32⟩ : BufTy).Contents (Elt F)),
    StableHlo.binary main_v84 main_v89 main_v90 (mulf : (⟨S250000x64, .f32⟩ : BufTy).Contents (Elt F) → (⟨S250000x64, .f32⟩ : BufTy).Contents (Elt F) → (⟨S250000x64, .f32⟩ : BufTy).Contents (Elt F)),
    StableHlo.unary main_v75 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S250000x64 ![0, 1] bcast_S1x64_S250000x64_0_1 : (⟨S1x64, .f32⟩ : BufTy).Contents (Elt F) → (⟨S250000x64, .f32⟩ : BufTy).Contents (Elt F)),
    StableHlo.binary main_v90 main_v92 main_v93 (mulf : (⟨S250000x64, .f32⟩ : BufTy).Contents (Elt F) → (⟨S250000x64, .f32⟩ : BufTy).Contents (Elt F) → (⟨S250000x64, .f32⟩ : BufTy).Contents (Elt F)),
    StableHlo.unary main_v77 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S250000x64 ![0, 1] bcast_S1x64_S250000x64_0_1 : (⟨S1x64, .f32⟩ : BufTy).Contents (Elt F) → (⟨S250000x64, .f32⟩ : BufTy).Contents (Elt F)),
    StableHlo.binary main_v93 main_v95 main_v96 (addf : (⟨S250000x64, .f32⟩ : BufTy).Contents (Elt F) → (⟨S250000x64, .f32⟩ : BufTy).Contents (Elt F) → (⟨S250000x64, .f32⟩ : BufTy).Contents (Elt F)),
    StableHlo.TRef.nullary main_call1.cst (constant S_ .f32 0x00000000#32),
    StableHlo.TRef.unary main_call1.cst main_call1.v0 (broadcastInDim S250000x64 ![] bcast_S_S250000x64),
    StableHlo.TRef.binary (.of main_v96 : StableHlo.TRef sig ⟨S250000x64, .f32⟩) main_call1.v0 main_call1.v1 (cmpf .ogt),
    StableHlo.TRef.nullary main_call1.cst_0 (constant S_ .f32 0x00000000#32),
    StableHlo.TRef.unary main_call1.cst_0 main_call1.v2 (broadcastInDim S250000x64 ![] bcast_S_S250000x64),
    StableHlo.TRef.binary (.of main_v96 : StableHlo.TRef sig ⟨S250000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S250000x64 ![] bcast_S_S250000x64),
    StableHlo.TRef.ternary main_call1.v3 main_call1.call0.v1 (.of main_v96 : StableHlo.TRef sig ⟨S250000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S250000x64 ![] bcast_S_S250000x64),
    StableHlo.TRef.binary main_call1.v6 main_call1.v5 main_call1.v7 mulf,
    StableHlo.TRef.ternary main_call1.v1 (.of main_v96 : StableHlo.TRef sig ⟨S250000x64, .f32⟩) main_call1.v7 main_call1.call1.v0 select,
    StableHlo.unary main_v97 main_v98 (Host.negf : (⟨S250000x64, .f32⟩ : BufTy).Contents (Elt F) → (⟨S250000x64, .f32⟩ : BufTy).Contents (Elt F)),
    StableHlo.unary main_v98 main_v99 (Host.exp : (⟨S250000x64, .f32⟩ : BufTy).Contents (Elt F) → (⟨S250000x64, .f32⟩ : BufTy).Contents (Elt F)),
    StableHlo.nullary main_cst_8 (constant S_ .f32 0x3F800000#32),
    StableHlo.unary main_cst_8 main_v100 (broadcastInDim S250000x64 ![] bcast_S_S250000x64 : (⟨S_, .f32⟩ : BufTy).Contents (Elt F) → (⟨S250000x64, .f32⟩ : BufTy).Contents (Elt F)),
    StableHlo.binary main_v100 main_v99 main_v101 (addf : (⟨S250000x64, .f32⟩ : BufTy).Contents (Elt F) → (⟨S250000x64, .f32⟩ : BufTy).Contents (Elt F) → (⟨S250000x64, .f32⟩ : BufTy).Contents (Elt F)),
    StableHlo.nullary main_cst_9 (constant S_ .f32 0x3F800000#32),
    StableHlo.unary main_cst_9 main_v102 (broadcastInDim S250000x64 ![] bcast_S_S250000x64 : (⟨S_, .f32⟩ : BufTy).Contents (Elt F) → (⟨S250000x64, .f32⟩ : BufTy).Contents (Elt F)),
    StableHlo.binary main_v102 main_v101 main_v103 (Host.divf : (⟨S250000x64, .f32⟩ : BufTy).Contents (Elt F) → (⟨S250000x64, .f32⟩ : BufTy).Contents (Elt F) → (⟨S250000x64, .f32⟩ : BufTy).Contents (Elt F)),
    StableHlo.binary main_arg9 main_arg10 main_v104 ((fun a b => concatenate S500000 0 [⟨S250000, a⟩, ⟨S250000, b⟩] concatenates_S250000_S250000_S500000_d0) : (⟨S250000, .i32⟩ : BufTy).Contents (Elt F) → (⟨S250000, .i32⟩ : BufTy).Contents (Elt F) → (⟨S500000, .i32⟩ : BufTy).Contents (Elt F)),
    StableHlo.nullary main_c_10 (constantI S_ 32 0#32),
    StableHlo.unary main_c_10 main_v105 (broadcastInDim S250000 ![] bcast_S_S250000 : (⟨S_, .i32⟩ : BufTy).Contents (Elt F) → (⟨S250000, .i32⟩ : BufTy).Contents (Elt F)),
    StableHlo.binary main_arg10 main_v105 main_v106 (cmpi .slt : (⟨S250000, .i32⟩ : BufTy).Contents (Elt F) → (⟨S250000, .i32⟩ : BufTy).Contents (Elt F) → (⟨S250000, .i1⟩ : BufTy).Contents (Elt F)) ]

/-- The references they write, in order. -/
abbrev W1 : List (Ref sig .tc) :=
  [main_c_2, main_v57, main_v58, main_v59, main_v60, main_v61, main_v62, main_v63, main_c_3, main_v64, main_v65, main_c_4, main_v66, main_v67, main_v68, main_v69, main_v70, main_v71, main_v72, main_v73, main_v74, main_v75, main_v76, main_v77, main_cst, main_v78, main_cst_5, main_v79, main_v80, main_c_6, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v82, main_v83, main_v84, main_cst_7, main_v85, main_v86, main_v87, main_v88, main_v89, main_v90, main_v91, main_v92, main_v93, main_v94, main_v95, main_v96, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v98, main_v99, main_cst_8, main_v100, main_v101, main_cst_9, main_v102, main_v103, main_v104, main_c_10, main_v105, main_v106]

end Cert.ReferenceIdeal.Hand

end
-- ==== Proof.Ref.Part1.lean ====
import proofs.«180658_j65867618451767_1_alg».proof.Proof.Ref.Ops1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one bind re-associated per statement: the rewrite under the chain recurses once per statement
set_option maxRecDepth 4096 in
/-- Window 1 of @main is the straight line of its operations: each call is its function's body at the call's operands and record (the definitions unfolded), and then both sides are one chain of host steps once sequencing is
    re-associated to the right and the returns in the middle are dropped (the monad laws). -/
theorem part1_eq (c : Dev nD) : main_part1 (F := F) c = seq ops1 := by
  simp only [main_part1, fn_var.body, fn_where.body, fn_elu.body, fn_where_0.body, fn_where_1.body, seq, bind_assoc, pure_bind]
  rfl

/-- Every operation of the window touches TensorCore references only. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of the window determines its results. -/
theorem ops1_fresh : (ops1 : List (HloOp τ sig (Elt F))).Forall fun op => op.fresh = ∅ := by
  simp only [List.Forall]; repeat' constructor

/-- Each operation of the window writes one reference, a member of `W1`. -/
theorem ops1_writes : (ops1 : List (HloOp τ sig (Elt F))).Forall fun op =>
    op.writes ⊆ (W1.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

end Cert.ReferenceIdeal.Hand

end
-- ==== Proof.Ref.Ops2.lean ====
/- A table: the operations of window 2 of the reference program's @main (its statements main_part2), in order, each
   as the program states it, a module-local function's operations in place of its call, over the call's buffer
   record and with the call's operands for its parameters; and the references these operations write. -/
import proofs.«180658_j65867618451767_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 81 operations of window 2, in order. -/
abbrev ops2 : List (HloOp τ sig (Elt F)) :=
  [ StableHlo.nullary main_c_11 (constantI S_ 32 250000#32),
    StableHlo.unary main_c_11 main_v107 (broadcastInDim S250000 ![] bcast_S_S250000 : (⟨S_, .i32⟩ : BufTy).Contents (Elt F) → (⟨S250000, .i32⟩ : BufTy).Contents (Elt F)),
    StableHlo.binary main_arg10 main_v107 main_v108 (addi : (⟨S250000, .i32⟩ : BufTy).Contents (Elt F) → (⟨S250000, .i32⟩ : BufTy).Contents (Elt F) → (⟨S250000, .i32⟩ : BufTy).Contents (Elt F)),
    StableHlo.ternary main_v106 main_v108 main_arg10 main_v109 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v109 main_v110 (broadcastInDim S250000x1 ![0] bcast_S250000_S250000x1_0 : (⟨S250000, .i32⟩ : BufTy).Contents (Elt F) → (⟨S250000x1, .i32⟩ : BufTy).Contents (Elt F)),
    StableHlo.binary main_v23 main_v110 main_v111 ((fun x i => Host.gather gather_S250000x64_S250000x1_S250000x64_1_0_n_n_0_1_164 x i) : (⟨S250000x64, .f32⟩ : BufTy).Contents (Elt F) → (⟨S250000x1, .i32⟩ : BufTy).Contents (Elt F) → (⟨S250000x64, .f32⟩ : BufTy).Contents (Elt F)),
    StableHlo.nullary main_c_12 (constantI S_ 32 0#32),
    StableHlo.unary main_c_12 main_v112 (broadcastInDim S250000 ![] bcast_S_S250000 : (⟨S_, .i32⟩ : BufTy).Contents (Elt F) → (⟨S250000, .i32⟩ : BufTy).Contents (Elt F)),
    StableHlo.binary main_arg9 main_v112 main_v113 (cmpi .slt : (⟨S250000, .i32⟩ : BufTy).Contents (Elt F) → (⟨S250000, .i32⟩ : BufTy).Contents (Elt F) → (⟨S250000, .i1⟩ : BufTy).Contents (Elt F)),
    StableHlo.nullary main_c_13 (constantI S_ 32 250000#32),
    StableHlo.unary main_c_13 main_v114 (broadcastInDim S250000 ![] bcast_S_S250000 : (⟨S_, .i32⟩ : BufTy).Contents (Elt F) → (⟨S250000, .i32⟩ : BufTy).Contents (Elt F)),
    StableHlo.binary main_arg9 main_v114 main_v115 (addi : (⟨S250000, .i32⟩ : BufTy).Contents (Elt F) → (⟨S250000, .i32⟩ : BufTy).Contents (Elt F) → (⟨S250000, .i32⟩ : BufTy).Contents (Elt F)),
    StableHlo.ternary main_v113 main_v115 main_arg9 main_v116 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v116 main_v117 (broadcastInDim S250000x1 ![0] bcast_S250000_S250000x1_0 : (⟨S250000, .i32⟩ : BufTy).Contents (Elt F) → (⟨S250000x1, .i32⟩ : BufTy).Contents (Elt F)),
    StableHlo.binary main_v23 main_v117 main_v118 ((fun x i => Host.gather gather_S250000x64_S250000x1_S250000x64_1_0_n_n_0_1_164 x i) : (⟨S250000x64, .f32⟩ : BufTy).Contents (Elt F) → (⟨S250000x1, .i32⟩ : BufTy).Contents (Elt F) → (⟨S250000x64, .f32⟩ : BufTy).Contents (Elt F)),
    StableHlo.binary main_v111 main_v118 main_v119 ((fun a b => concatenate S500000x64 0 [⟨S250000x64, a⟩, ⟨S250000x64, b⟩] concatenates_S250000x64_S250000x64_S500000x64_d0) : (⟨S250000x64, .f32⟩ : BufTy).Contents (Elt F) → (⟨S250000x64, .f32⟩ : BufTy).Contents (Elt F) → (⟨S500000x64, .f32⟩ : BufTy).Contents (Elt F)),
    StableHlo.binary main_v103 main_v103 main_v120 ((fun a b => concatenate S500000x64 0 [⟨S250000x64, a⟩, ⟨S250000x64, b⟩] concatenates_S250000x64_S250000x64_S500000x64_d0) : (⟨S250000x64, .f32⟩ : BufTy).Contents (Elt F) → (⟨S250000x64, .f32⟩ : BufTy).Contents (Elt F) → (⟨S500000x64, .f32⟩ : BufTy).Contents (Elt F)),
    StableHlo.binary main_v120 main_v119 main_v121 (mulf : (⟨S500000x64, .f32⟩ : BufTy).Contents (Elt F) → (⟨S500000x64, .f32⟩ : BufTy).Contents (Elt F) → (⟨S500000x64, .f32⟩ : BufTy).Contents (Elt F)),
    StableHlo.nullary main_cst_14 (constant S_ .f32 0x00000000#32),
    StableHlo.unary main_cst_14 main_v122 (broadcastInDim S250000x64 ![] bcast_S_S250000x64 : (⟨S_, .f32⟩ : BufTy).Contents (Elt F) → (⟨S250000x64, .f32⟩ : BufTy).Contents (Elt F)),
    StableHlo.unary main_v104 main_v123 (broadcastInDim S500000x1 ![0] bcast_S500000_S500000x1_0 : (⟨S500000, .i32⟩ : BufTy).Contents (Elt F) → (⟨S500000x1, .i32⟩ : BufTy).Contents (Elt F)),
    StableHlo.ternary main_v122 main_v123 main_v121 main_v124 ((fun x i u => Host.scatterAdd scatter_S250000x64_S500000x1_S500000x64_1_0_0_1 x i u) : (⟨S250000x64, .f32⟩ : BufTy).Contents (Elt F) → (⟨S500000x1, .i32⟩ : BufTy).Contents (Elt F) → (⟨S500000x64, .f32⟩ : BufTy).Contents (Elt F) → (⟨S250000x64, .f32⟩ : BufTy).Contents (Elt F)),
    StableHlo.nullary main_cst_15 (constant S_ .f32 0x00000000#32),
    StableHlo.unary main_cst_15 main_v125 (broadcastInDim S250000x64 ![] bcast_S_S250000x64 : (⟨S_, .f32⟩ : BufTy).Contents (Elt F) → (⟨S250000x64, .f32⟩ : BufTy).Contents (Elt F)),
    StableHlo.unary main_v104 main_v126 (broadcastInDim S500000x1 ![0] bcast_S500000_S500000x1_0 : (⟨S500000, .i32⟩ : BufTy).Contents (Elt F) → (⟨S500000x1, .i32⟩ : BufTy).Contents (Elt F)),
    StableHlo.ternary main_v125 main_v126 main_v120 main_v127 ((fun x i u => Host.scatterAdd scatter_S250000x64_S500000x1_S500000x64_1_0_0_1 x i u) : (⟨S250000x64, .f32⟩ : BufTy).Contents (Elt F) → (⟨S500000x1, .i32⟩ : BufTy).Contents (Elt F) → (⟨S500000x64, .f32⟩ : BufTy).Contents (Elt F) → (⟨S250000x64, .f32⟩ : BufTy).Contents (Elt F)),
    StableHlo.nullary main_cst_16 (constant S_ .f32 0x358637BD#32),
    StableHlo.unary main_cst_16 main_v128 (broadcastInDim S250000x64 ![] bcast_S_S250000x64 : (⟨S_, .f32⟩ : BufTy).Contents (Elt F) → (⟨S250000x64, .f32⟩ : BufTy).Contents (Elt F)),
    StableHlo.binary main_v127 main_v128 main_v129 (addf : (⟨S250000x64, .f32⟩ : BufTy).Contents (Elt F) → (⟨S250000x64, .f32⟩ : BufTy).Contents (Elt F) → (⟨S250000x64, .f32⟩ : BufTy).Contents (Elt F)),
    StableHlo.binary main_v124 main_v129 main_v130 (Host.divf : (⟨S250000x64, .f32⟩ : BufTy).Contents (Elt F) → (⟨S250000x64, .f32⟩ : BufTy).Contents (Elt F) → (⟨S250000x64, .f32⟩ : BufTy).Contents (Elt F)),
    StableHlo.binary main_v15 main_v130 main_v131 (addf : (⟨S250000x64, .f32⟩ : BufTy).Contents (Elt F) → (⟨S250000x64, .f32⟩ : BufTy).Contents (Elt F) → (⟨S250000x64, .f32⟩ : BufTy).Contents (Elt F)),
    StableHlo.nullary main_c_17 (constantI S_ 32 0#32),
    StableHlo.unary main_c_17 main_v132 (broadcastInDim S250000 ![] bcast_S_S250000 : (⟨S_, .i32⟩ : BufTy).Contents (Elt F) → (⟨S250000, .i32⟩ : BufTy).Contents (Elt F)),
    StableHlo.binary main_arg11 main_v132 main_v133 (cmpi .slt : (⟨S250000, .i32⟩ : BufTy).Contents (Elt F) → (⟨S250000, .i32⟩ : BufTy).Contents (Elt F) → (⟨S250000, .i1⟩ : BufTy).Contents (Elt F)),
    StableHlo.nullary main_c_18 (constantI S_ 32 10000#32),
    StableHlo.unary main_c_18 main_v134 (broadcastInDim S250000 ![] bcast_S_S250000 : (⟨S_, .i32⟩ : BufTy).Contents (Elt F) → (⟨S250000, .i32⟩ : BufTy).Contents (Elt F)),
    StableHlo.binary main_arg11 main_v134 main_v135 (addi : (⟨S250000, .i32⟩ : BufTy).Contents (Elt F) → (⟨S250000, .i32⟩ : BufTy).Contents (Elt F) → (⟨S250000, .i32⟩ : BufTy).Contents (Elt F)),
    StableHlo.ternary main_v133 main_v135 main_arg11 main_v136 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v136 main_v137 (broadcastInDim S250000x1 ![0] bcast_S250000_S250000x1_0 : (⟨S250000, .i32⟩ : BufTy).Contents (Elt F) → (⟨S250000x1, .i32⟩ : BufTy).Contents (Elt F)),
    StableHlo.binary main_v47 main_v137 main_v138 ((fun x i => Host.gather gather_S10000x64_S250000x1_S250000x64_1_0_n_n_0_1_164 x i) : (⟨S10000x64, .f32⟩ : BufTy).Contents (Elt F) → (⟨S250000x1, .i32⟩ : BufTy).Contents (Elt F) → (⟨S250000x64, .f32⟩ : BufTy).Contents (Elt F)),
    StableHlo.binary main_v131 main_v138 main_v139 (addf : (⟨S250000x64, .f32⟩ : BufTy).Contents (Elt F) → (⟨S250000x64, .f32⟩ : BufTy).Contents (Elt F) → (⟨S250000x64, .f32⟩ : BufTy).Contents (Elt F)),
    StableHlo.unary main_arg3 main_v140 (broadcastInDim S250000x64 ![0, 1] bcast_S250000x1_S250000x64_0_1 : (⟨S250000x1, .f32⟩ : BufTy).Contents (Elt F) → (⟨S250000x64, .f32⟩ : BufTy).Contents (Elt F)),
    StableHlo.binary main_v139 main_v140 main_v141 (mulf : (⟨S250000x64, .f32⟩ : BufTy).Contents (Elt F) → (⟨S250000x64, .f32⟩ : BufTy).Contents (Elt F) → (⟨S250000x64, .f32⟩ : BufTy).Contents (Elt F)),
    StableHlo.unary main_arg7 main_v142 ((extractStridedSlice S1x64 ![1, 0] · slices_S3x64_S1x64_1_0) : (⟨S3x64, .f32⟩ : BufTy).Contents (Elt F) → (⟨S1x64, .f32⟩ : BufTy).Contents (Elt F)),
    StableHlo.reshape main_v142 main_v143 rfl shapeCasts_S1x64_S64,
    StableHlo.unary main_arg8 main_v144 ((extractStridedSlice S1x64 ![1, 0] · slices_S3x64_S1x64_1_0) : (⟨S3x64, .f32⟩ : BufTy).Contents (Elt F) → (⟨S1x64, .f32⟩ : BufTy).Contents (Elt F)),
    StableHlo.reshape main_v144 main_v145 rfl shapeCasts_S1x64_S64,
    StableHlo.nullary main_cst_19 (constant S_ .f32 0x00000000#32),
    StableHlo.binary main_v141 main_cst_19 main_v146 ((fun x v => Host.reduceAdd x v reducesTo_S250000x64_S64_d0 h_S_) : (⟨S250000x64, .f32⟩ : BufTy).Contents (Elt F) → (⟨S_, .f32⟩ : BufTy).Contents (Elt F) → (⟨S64, .f32⟩ : BufTy).Contents (Elt F)),
    StableHlo.nullary main_cst_20 (constant S_ .f32 0x48742400#32),
    StableHlo.unary main_cst_20 main_v147 (broadcastInDim S64 ![] bcast_S_S64 : (⟨S_, .f32⟩ : BufTy).Contents (Elt F) → (⟨S64, .f32⟩ : BufTy).Contents (Elt F)),
    StableHlo.binary main_v146 main_v147 main_v148 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32),
    StableHlo.TRef.nullary main_call2.cst (constant S_ .f32 0x00000000#32),
    StableHlo.TRef.binary (.of main_v141 : StableHlo.TRef sig ⟨S250000x64, .f32⟩) main_call2.cst main_call2.v0 (fun x v => Host.reduceAdd x v reducesTo_S250000x64_S64_d0 h_S_),
    StableHlo.TRef.unary main_call2.v0 main_call2.v1 (broadcastInDim S1x64 ![1] bcast_S64_S1x64_1),
    StableHlo.TRef.nullary main_call2.cst_0 (constant S_ .f32 0x48742400#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S250000x64 ![0, 1] bcast_S1x64_S250000x64_0_1),
    StableHlo.TRef.binary (.of main_v141 : StableHlo.TRef sig ⟨S250000x64, .f32⟩) main_call2.v4 main_call2.v5 subf,
    StableHlo.TRef.binary main_call2.v5 main_call2.v5 main_call2.v6 mulf,
    StableHlo.TRef.unary (.of main_c_21 : StableHlo.TRef sig ⟨S_, .i32⟩) main_call2.v7 (sitofp .f32),
    StableHlo.TRef.nullary main_call2.cst_1 (constant S_ .f32 0x48742400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S250000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v148 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S250000x64 ![0, 1] bcast_S1x64_S250000x64_0_1 : (⟨S1x64, .f32⟩ : BufTy).Contents (Elt F) → (⟨S250000x64, .f32⟩ : BufTy).Contents (Elt F)),
    StableHlo.binary main_v141 main_v151 main_v152 (subf : (⟨S250000x64, .f32⟩ : BufTy).Contents (Elt F) → (⟨S250000x64, .f32⟩ : BufTy).Contents (Elt F) → (⟨S250000x64, .f32⟩ : BufTy).Contents (Elt F)),
    StableHlo.nullary main_cst_22 (constant S_ .f32 0x3727C5AC#32),
    StableHlo.unary main_cst_22 main_v153 (broadcastInDim S64 ![] bcast_S_S64 : (⟨S_, .f32⟩ : BufTy).Contents (Elt F) → (⟨S64, .f32⟩ : BufTy).Contents (Elt F)),
    StableHlo.binary main_v149 main_v153 main_v154 (addf : (⟨S64, .f32⟩ : BufTy).Contents (Elt F) → (⟨S64, .f32⟩ : BufTy).Contents (Elt F) → (⟨S64, .f32⟩ : BufTy).Contents (Elt F)) ]

/-- The references they write, in order. -/
abbrev W2 : List (Ref sig .tc) :=
  [main_c_11, main_v107, main_v108, main_v109, main_v110, main_v111, main_c_12, main_v112, main_v113, main_c_13, main_v114, main_v115, main_v116, main_v117, main_v118, main_v119, main_v120, main_v121, main_cst_14, main_v122, main_v123, main_v124, main_cst_15, main_v125, main_v126, main_v127, main_cst_16, main_v128, main_v129, main_v130, main_v131, main_c_17, main_v132, main_v133, main_c_18, main_v134, main_v135, main_v136, main_v137, main_v138, main_v139, main_v140, main_v141, main_v142, main_v143, main_v144, main_v145, main_cst_19, main_v146, main_cst_20, main_v147, main_v148, main_c_21, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v150, main_v151, main_v152, main_cst_22, main_v153, main_v154]

end Cert.ReferenceIdeal.Hand

end
-- ==== Proof.Ref.Part2.lean ====
import proofs.«180658_j65867618451767_1_alg».proof.Proof.Ref.Ops2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one bind re-associated per statement: the rewrite under the chain recurses once per statement
set_option maxRecDepth 4096 in
/-- Window 2 of @main is the straight line of its operations: each call is its function's body at the call's operands and record (the definitions unfolded), and then both sides are one chain of host steps once sequencing is
    re-associated to the right and the returns in the middle are dropped (the monad laws). -/
theorem part2_eq (c : Dev nD) : main_part2 (F := F) c = seq ops2 := by
  simp only [main_part2, fn_var.body, fn_where.body, seq, bind_assoc, pure_bind]
  rfl

/-- Every operation of the window touches TensorCore references only. -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of the window determines its results. -/
theorem ops2_fresh : (ops2 : List (HloOp τ sig (Elt F))).Forall fun op => op.fresh = ∅ := by
  simp only [List.Forall]; repeat' constructor

/-- Each operation of the window writes one reference, a member of `W2`. -/
theorem ops2_writes : (ops2 : List (HloOp τ sig (Elt F))).Forall fun op =>
    op.writes ⊆ (W2.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

end Cert.ReferenceIdeal.Hand

end
-- ==== Proof.Ref.Ops3.lean ====
/- A table: the operations of window 3 of the reference program's @main (its statements main_part3), in order, each
   as the program states it, a module-local function's operations in place of its call, over the call's buffer
   record and with the call's operands for its parameters; and the references these operations write. -/
import proofs.«180658_j65867618451767_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 74 operations of window 3, in order. -/
abbrev ops3 : List (HloOp τ sig (Elt F)) :=
  [ StableHlo.unary main_v154 main_v155 (Host.rsqrt : (⟨S64, .f32⟩ : BufTy).Contents (Elt F) → (⟨S64, .f32⟩ : BufTy).Contents (Elt F)),
    StableHlo.unary main_v155 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S250000x64 ![0, 1] bcast_S1x64_S250000x64_0_1 : (⟨S1x64, .f32⟩ : BufTy).Contents (Elt F) → (⟨S250000x64, .f32⟩ : BufTy).Contents (Elt F)),
    StableHlo.binary main_v152 main_v157 main_v158 (mulf : (⟨S250000x64, .f32⟩ : BufTy).Contents (Elt F) → (⟨S250000x64, .f32⟩ : BufTy).Contents (Elt F) → (⟨S250000x64, .f32⟩ : BufTy).Contents (Elt F)),
    StableHlo.unary main_v143 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S250000x64 ![0, 1] bcast_S1x64_S250000x64_0_1 : (⟨S1x64, .f32⟩ : BufTy).Contents (Elt F) → (⟨S250000x64, .f32⟩ : BufTy).Contents (Elt F)),
    StableHlo.binary main_v158 main_v160 main_v161 (mulf : (⟨S250000x64, .f32⟩ : BufTy).Contents (Elt F) → (⟨S250000x64, .f32⟩ : BufTy).Contents (Elt F) → (⟨S250000x64, .f32⟩ : BufTy).Contents (Elt F)),
    StableHlo.unary main_v145 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S250000x64 ![0, 1] bcast_S1x64_S250000x64_0_1 : (⟨S1x64, .f32⟩ : BufTy).Contents (Elt F) → (⟨S250000x64, .f32⟩ : BufTy).Contents (Elt F)),
    StableHlo.binary main_v161 main_v163 main_v164 (addf : (⟨S250000x64, .f32⟩ : BufTy).Contents (Elt F) → (⟨S250000x64, .f32⟩ : BufTy).Contents (Elt F) → (⟨S250000x64, .f32⟩ : BufTy).Contents (Elt F)),
    StableHlo.TRef.nullary main_call3.cst (constant S_ .f32 0x00000000#32),
    StableHlo.TRef.unary main_call3.cst main_call3.v0 (broadcastInDim S250000x64 ![] bcast_S_S250000x64),
    StableHlo.TRef.binary (.of main_v164 : StableHlo.TRef sig ⟨S250000x64, .f32⟩) main_call3.v0 main_call3.v1 (cmpf .ogt),
    StableHlo.TRef.nullary main_call3.cst_0 (constant S_ .f32 0x00000000#32),
    StableHlo.TRef.unary main_call3.cst_0 main_call3.v2 (broadcastInDim S250000x64 ![] bcast_S_S250000x64),
    StableHlo.TRef.binary (.of main_v164 : StableHlo.TRef sig ⟨S250000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S250000x64 ![] bcast_S_S250000x64),
    StableHlo.TRef.ternary main_call3.v3 main_call3.call0.v1 (.of main_v164 : StableHlo.TRef sig ⟨S250000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S250000x64 ![] bcast_S_S250000x64),
    StableHlo.TRef.binary main_call3.v6 main_call3.v5 main_call3.v7 mulf,
    StableHlo.TRef.ternary main_call3.v1 (.of main_v164 : StableHlo.TRef sig ⟨S250000x64, .f32⟩) main_call3.v7 main_call3.call1.v0 select,
    StableHlo.unary main_arg5 main_v166 ((extractStridedSlice S1x64x64 ![6, 0, 0] · slices_S9x64x64_S1x64x64_6_0_0) : (⟨S9x64x64, .f32⟩ : BufTy).Contents (Elt F) → (⟨S1x64x64, .f32⟩ : BufTy).Contents (Elt F)),
    StableHlo.reshape main_v166 main_v167 rfl shapeCasts_S1x64x64_S64x64,
    StableHlo.binary main_v165 main_v167 main_v168 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v169 ((extractStridedSlice S1x64 ![6, 0] · slices_S9x64_S1x64_6_0) : (⟨S9x64, .f32⟩ : BufTy).Contents (Elt F) → (⟨S1x64, .f32⟩ : BufTy).Contents (Elt F)),
    StableHlo.reshape main_v169 main_v170 rfl shapeCasts_S1x64_S64,
    StableHlo.unary main_v170 main_v171 (broadcastInDim S1x64 ![1] bcast_S64_S1x64_1 : (⟨S64, .f32⟩ : BufTy).Contents (Elt F) → (⟨S1x64, .f32⟩ : BufTy).Contents (Elt F)),
    StableHlo.unary main_v171 main_v172 (broadcastInDim S250000x64 ![0, 1] bcast_S1x64_S250000x64_0_1 : (⟨S1x64, .f32⟩ : BufTy).Contents (Elt F) → (⟨S250000x64, .f32⟩ : BufTy).Contents (Elt F)),
    StableHlo.binary main_v168 main_v172 main_v173 (addf : (⟨S250000x64, .f32⟩ : BufTy).Contents (Elt F) → (⟨S250000x64, .f32⟩ : BufTy).Contents (Elt F) → (⟨S250000x64, .f32⟩ : BufTy).Contents (Elt F)),
    StableHlo.unary main_arg5 main_v174 ((extractStridedSlice S1x64x64 ![7, 0, 0] · slices_S9x64x64_S1x64x64_7_0_0) : (⟨S9x64x64, .f32⟩ : BufTy).Contents (Elt F) → (⟨S1x64x64, .f32⟩ : BufTy).Contents (Elt F)),
    StableHlo.reshape main_v174 main_v175 rfl shapeCasts_S1x64x64_S64x64,
    StableHlo.binary main_v97 main_v175 main_v176 ((fun l r => Host.dotGeneral dot_S250000x64_S64x64_S250000x64_1_0_0_1_n_n none l r) : (⟨S250000x64, .f32⟩ : BufTy).Contents (Elt F) → (⟨S64x64, .f32⟩ : BufTy).Contents (Elt F) → (⟨S250000x64, .f32⟩ : BufTy).Contents (Elt F)),
    StableHlo.unary main_arg6 main_v177 ((extractStridedSlice S1x64 ![7, 0] · slices_S9x64_S1x64_7_0) : (⟨S9x64, .f32⟩ : BufTy).Contents (Elt F) → (⟨S1x64, .f32⟩ : BufTy).Contents (Elt F)),
    StableHlo.reshape main_v177 main_v178 rfl shapeCasts_S1x64_S64,
    StableHlo.unary main_v178 main_v179 (broadcastInDim S1x64 ![1] bcast_S64_S1x64_1 : (⟨S64, .f32⟩ : BufTy).Contents (Elt F) → (⟨S1x64, .f32⟩ : BufTy).Contents (Elt F)),
    StableHlo.unary main_v179 main_v180 (broadcastInDim S250000x64 ![0, 1] bcast_S1x64_S250000x64_0_1 : (⟨S1x64, .f32⟩ : BufTy).Contents (Elt F) → (⟨S250000x64, .f32⟩ : BufTy).Contents (Elt F)),
    StableHlo.binary main_v176 main_v180 main_v181 (addf : (⟨S250000x64, .f32⟩ : BufTy).Contents (Elt F) → (⟨S250000x64, .f32⟩ : BufTy).Contents (Elt F) → (⟨S250000x64, .f32⟩ : BufTy).Contents (Elt F)),
    StableHlo.unary main_arg5 main_v182 ((extractStridedSlice S1x64x64 ![8, 0, 0] · slices_S9x64x64_S1x64x64_8_0_0) : (⟨S9x64x64, .f32⟩ : BufTy).Contents (Elt F) → (⟨S1x64x64, .f32⟩ : BufTy).Contents (Elt F)),
    StableHlo.reshape main_v182 main_v183 rfl shapeCasts_S1x64x64_S64x64,
    StableHlo.binary main_arg2 main_v183 main_v184 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg6 main_v185 ((extractStridedSlice S1x64 ![8, 0] · slices_S9x64_S1x64_8_0) : (⟨S9x64, .f32⟩ : BufTy).Contents (Elt F) → (⟨S1x64, .f32⟩ : BufTy).Contents (Elt F)),
    StableHlo.reshape main_v185 main_v186 rfl shapeCasts_S1x64_S64,
    StableHlo.unary main_v186 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S10000x64 ![0, 1] bcast_S1x64_S10000x64_0_1 : (⟨S1x64, .f32⟩ : BufTy).Contents (Elt F) → (⟨S10000x64, .f32⟩ : BufTy).Contents (Elt F)),
    StableHlo.binary main_v184 main_v188 main_v189 (addf : (⟨S10000x64, .f32⟩ : BufTy).Contents (Elt F) → (⟨S10000x64, .f32⟩ : BufTy).Contents (Elt F) → (⟨S10000x64, .f32⟩ : BufTy).Contents (Elt F)),
    StableHlo.nullary main_cst_23 (constant S_ .f32 0x3F800000#32),
    StableHlo.unary main_cst_23 main_v190 (broadcastInDim S250000x1 ![] bcast_S_S250000x1 : (⟨S_, .f32⟩ : BufTy).Contents (Elt F) → (⟨S250000x1, .f32⟩ : BufTy).Contents (Elt F)),
    StableHlo.nullary main_cst_24 (constant S_ .f32 0x00000000#32),
    StableHlo.unary main_cst_24 main_v191 (broadcastInDim S10000x1 ![] bcast_S_S10000x1 : (⟨S_, .f32⟩ : BufTy).Contents (Elt F) → (⟨S10000x1, .f32⟩ : BufTy).Contents (Elt F)),
    StableHlo.unary main_arg11 main_v192 (broadcastInDim S250000x1 ![0] bcast_S250000_S250000x1_0 : (⟨S250000, .i32⟩ : BufTy).Contents (Elt F) → (⟨S250000x1, .i32⟩ : BufTy).Contents (Elt F)),
    StableHlo.ternary main_v191 main_v192 main_v190 main_v193 ((fun x i u => Host.scatterAdd scatter_S10000x1_S250000x1_S250000x1_1_0_0_1 x i u) : (⟨S10000x1, .f32⟩ : BufTy).Contents (Elt F) → (⟨S250000x1, .i32⟩ : BufTy).Contents (Elt F) → (⟨S250000x1, .f32⟩ : BufTy).Contents (Elt F) → (⟨S10000x1, .f32⟩ : BufTy).Contents (Elt F)),
    StableHlo.nullary main_cst_25 (constant S_ .f32 0x3F800000#32),
    StableHlo.unary main_cst_25 main_v194 (broadcastInDim S250000x1 ![] bcast_S_S250000x1 : (⟨S_, .f32⟩ : BufTy).Contents (Elt F) → (⟨S250000x1, .f32⟩ : BufTy).Contents (Elt F)),
    StableHlo.nullary main_cst_26 (constant S_ .f32 0x00000000#32),
    StableHlo.unary main_cst_26 main_v195 (broadcastInDim S10000x1 ![] bcast_S_S10000x1 : (⟨S_, .f32⟩ : BufTy).Contents (Elt F) → (⟨S10000x1, .f32⟩ : BufTy).Contents (Elt F)),
    StableHlo.unary main_arg12 main_v196 (broadcastInDim S250000x1 ![0] bcast_S250000_S250000x1_0 : (⟨S250000, .i32⟩ : BufTy).Contents (Elt F) → (⟨S250000x1, .i32⟩ : BufTy).Contents (Elt F)),
    StableHlo.ternary main_v195 main_v196 main_v194 main_v197 ((fun x i u => Host.scatterAdd scatter_S10000x1_S250000x1_S250000x1_1_0_0_1 x i u) : (⟨S10000x1, .f32⟩ : BufTy).Contents (Elt F) → (⟨S250000x1, .i32⟩ : BufTy).Contents (Elt F) → (⟨S250000x1, .f32⟩ : BufTy).Contents (Elt F) → (⟨S10000x1, .f32⟩ : BufTy).Contents (Elt F)),
    StableHlo.nullary main_cst_27 (constant S_ .f32 0x00000000#32),
    StableHlo.unary main_cst_27 main_v198 (broadcastInDim S10000x64 ![] bcast_S_S10000x64 : (⟨S_, .f32⟩ : BufTy).Contents (Elt F) → (⟨S10000x64, .f32⟩ : BufTy).Contents (Elt F)),
    StableHlo.unary main_arg11 main_v199 (broadcastInDim S250000x1 ![0] bcast_S250000_S250000x1_0 : (⟨S250000, .i32⟩ : BufTy).Contents (Elt F) → (⟨S250000x1, .i32⟩ : BufTy).Contents (Elt F)),
    StableHlo.ternary main_v198 main_v199 main_v173 main_v200 ((fun x i u => Host.scatterAdd scatter_S10000x64_S250000x1_S250000x64_1_0_0_1 x i u) : (⟨S10000x64, .f32⟩ : BufTy).Contents (Elt F) → (⟨S250000x1, .i32⟩ : BufTy).Contents (Elt F) → (⟨S250000x64, .f32⟩ : BufTy).Contents (Elt F) → (⟨S10000x64, .f32⟩ : BufTy).Contents (Elt F)),
    StableHlo.nullary main_cst_28 (constant S_ .f32 0x3F800000#32),
    StableHlo.unary main_cst_28 main_v201 (broadcastInDim S10000x1 ![] bcast_S_S10000x1 : (⟨S_, .f32⟩ : BufTy).Contents (Elt F) → (⟨S10000x1, .f32⟩ : BufTy).Contents (Elt F)),
    StableHlo.binary main_v193 main_v201 main_v202 (maximumf : (⟨S10000x1, .f32⟩ : BufTy).Contents (Elt F) → (⟨S10000x1, .f32⟩ : BufTy).Contents (Elt F) → (⟨S10000x1, .f32⟩ : BufTy).Contents (Elt F)),
    StableHlo.unary main_v202 main_v203 (broadcastInDim S10000x64 ![0, 1] bcast_S10000x1_S10000x64_0_1 : (⟨S10000x1, .f32⟩ : BufTy).Contents (Elt F) → (⟨S10000x64, .f32⟩ : BufTy).Contents (Elt F)),
    StableHlo.binary main_v200 main_v203 main_v204 (Host.divf : (⟨S10000x64, .f32⟩ : BufTy).Contents (Elt F) → (⟨S10000x64, .f32⟩ : BufTy).Contents (Elt F) → (⟨S10000x64, .f32⟩ : BufTy).Contents (Elt F)),
    StableHlo.nullary main_cst_29 (constant S_ .f32 0x00000000#32),
    StableHlo.unary main_cst_29 main_v205 (broadcastInDim S10000x64 ![] bcast_S_S10000x64 : (⟨S_, .f32⟩ : BufTy).Contents (Elt F) → (⟨S10000x64, .f32⟩ : BufTy).Contents (Elt F)),
    StableHlo.unary main_arg12 main_v206 (broadcastInDim S250000x1 ![0] bcast_S250000_S250000x1_0 : (⟨S250000, .i32⟩ : BufTy).Contents (Elt F) → (⟨S250000x1, .i32⟩ : BufTy).Contents (Elt F)),
    StableHlo.ternary main_v205 main_v206 main_v181 main_v207 ((fun x i u => Host.scatterAdd scatter_S10000x64_S250000x1_S250000x64_1_0_0_1 x i u) : (⟨S10000x64, .f32⟩ : BufTy).Contents (Elt F) → (⟨S250000x1, .i32⟩ : BufTy).Contents (Elt F) → (⟨S250000x64, .f32⟩ : BufTy).Contents (Elt F) → (⟨S10000x64, .f32⟩ : BufTy).Contents (Elt F)) ]

/-- The references they write, in order. -/
abbrev W3 : List (Ref sig .tc) :=
  [main_v155, main_v156, main_v157, main_v158, main_v159, main_v160, main_v161, main_v162, main_v163, main_v164, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref, main_v166, main_v167, main_v168, main_v169, main_v170, main_v171, main_v172, main_v173, main_v174, main_v175, main_v176, main_v177, main_v178, main_v179, main_v180, main_v181, main_v182, main_v183, main_v184, main_v185, main_v186, main_v187, main_v188, main_v189, main_cst_23, main_v190, main_cst_24, main_v191, main_v192, main_v193, main_cst_25, main_v194, main_cst_26, main_v195, main_v196, main_v197, main_cst_27, main_v198, main_v199, main_v200, main_cst_28, main_v201, main_v202, main_v203, main_v204, main_cst_29, main_v205, main_v206, main_v207]

end Cert.ReferenceIdeal.Hand

end
-- ==== Proof.Ref.Part3.lean ====
import proofs.«180658_j65867618451767_1_alg».proof.Proof.Ref.Ops3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one bind re-associated per statement: the rewrite under the chain recurses once per statement
set_option maxRecDepth 4096 in
/-- Window 3 of @main is the straight line of its operations: each call is its function's body at the call's operands and record (the definitions unfolded), and then both sides are one chain of host steps once sequencing is
    re-associated to the right and the returns in the middle are dropped (the monad laws). -/
theorem part3_eq (c : Dev nD) : main_part3 (F := F) c = seq ops3 := by
  simp only [main_part3, fn_elu.body, fn_where_0.body, fn_where_1.body, seq, bind_assoc, pure_bind]
  rfl

/-- Every operation of the window touches TensorCore references only. -/
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of the window determines its results. -/
theorem ops3_fresh : (ops3 : List (HloOp τ sig (Elt F))).Forall fun op => op.fresh = ∅ := by
  simp only [List.Forall]; repeat' constructor

/-- Each operation of the window writes one reference, a member of `W3`. -/
theorem ops3_writes : (ops3 : List (HloOp τ sig (Elt F))).Forall fun op =>
    op.writes ⊆ (W3.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

end Cert.ReferenceIdeal.Hand

end
-- ==== Proof.Ref.Ops4.lean ====
/- A table: the operations of window 4 of the reference program's @main (its statements main_part4), in order, each
   as the program states it, a module-local function's operations in place of its call, over the call's buffer
   record and with the call's operands for its parameters; and the references these operations write. -/
import proofs.«180658_j65867618451767_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 4, in order. -/
abbrev ops4 : List (HloOp τ sig (Elt F)) :=
  [ StableHlo.nullary main_cst_30 (constant S_ .f32 0x3F800000#32),
    StableHlo.unary main_cst_30 main_v208 (broadcastInDim S10000x1 ![] bcast_S_S10000x1 : (⟨S_, .f32⟩ : BufTy).Contents (Elt F) → (⟨S10000x1, .f32⟩ : BufTy).Contents (Elt F)),
    StableHlo.binary main_v197 main_v208 main_v209 (maximumf : (⟨S10000x1, .f32⟩ : BufTy).Contents (Elt F) → (⟨S10000x1, .f32⟩ : BufTy).Contents (Elt F) → (⟨S10000x1, .f32⟩ : BufTy).Contents (Elt F)),
    StableHlo.unary main_v209 main_v210 (broadcastInDim S10000x64 ![0, 1] bcast_S10000x1_S10000x64_0_1 : (⟨S10000x1, .f32⟩ : BufTy).Contents (Elt F) → (⟨S10000x64, .f32⟩ : BufTy).Contents (Elt F)),
    StableHlo.binary main_v207 main_v210 main_v211 (Host.divf : (⟨S10000x64, .f32⟩ : BufTy).Contents (Elt F) → (⟨S10000x64, .f32⟩ : BufTy).Contents (Elt F) → (⟨S10000x64, .f32⟩ : BufTy).Contents (Elt F)),
    StableHlo.binary main_v204 main_v211 main_v212 (addf : (⟨S10000x64, .f32⟩ : BufTy).Contents (Elt F) → (⟨S10000x64, .f32⟩ : BufTy).Contents (Elt F) → (⟨S10000x64, .f32⟩ : BufTy).Contents (Elt F)),
    StableHlo.binary main_v212 main_v189 main_v213 (addf : (⟨S10000x64, .f32⟩ : BufTy).Contents (Elt F) → (⟨S10000x64, .f32⟩ : BufTy).Contents (Elt F) → (⟨S10000x64, .f32⟩ : BufTy).Contents (Elt F)),
    StableHlo.unary main_arg7 main_v214 ((extractStridedSlice S1x64 ![2, 0] · slices_S3x64_S1x64_2_0) : (⟨S3x64, .f32⟩ : BufTy).Contents (Elt F) → (⟨S1x64, .f32⟩ : BufTy).Contents (Elt F)),
    StableHlo.reshape main_v214 main_v215 rfl shapeCasts_S1x64_S64,
    StableHlo.unary main_arg8 main_v216 ((extractStridedSlice S1x64 ![2, 0] · slices_S3x64_S1x64_2_0) : (⟨S3x64, .f32⟩ : BufTy).Contents (Elt F) → (⟨S1x64, .f32⟩ : BufTy).Contents (Elt F)),
    StableHlo.reshape main_v216 main_v217 rfl shapeCasts_S1x64_S64,
    StableHlo.nullary main_cst_31 (constant S_ .f32 0x00000000#32),
    StableHlo.binary main_v213 main_cst_31 main_v218 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_32 (constant S_ .f32 0x461C4000#32),
    StableHlo.unary main_cst_32 main_v219 (broadcastInDim S64 ![] bcast_S_S64 : (⟨S_, .f32⟩ : BufTy).Contents (Elt F) → (⟨S64, .f32⟩ : BufTy).Contents (Elt F)),
    StableHlo.binary main_v218 main_v219 main_v220 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32),
    StableHlo.TRef.nullary main_call4.cst (constant S_ .f32 0x00000000#32),
    StableHlo.TRef.binary (.of main_v213 : StableHlo.TRef sig ⟨S10000x64, .f32⟩) main_call4.cst main_call4.v0 (fun x v => Host.reduceAdd x v reducesTo_S10000x64_S64_d0 h_S_),
    StableHlo.TRef.unary main_call4.v0 main_call4.v1 (broadcastInDim S1x64 ![1] bcast_S64_S1x64_1),
    StableHlo.TRef.nullary main_call4.cst_0 (constant S_ .f32 0x461C4000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S10000x64 ![0, 1] bcast_S1x64_S10000x64_0_1),
    StableHlo.TRef.binary (.of main_v213 : StableHlo.TRef sig ⟨S10000x64, .f32⟩) main_call4.v4 main_call4.v5 subf,
    StableHlo.TRef.binary main_call4.v5 main_call4.v5 main_call4.v6 mulf,
    StableHlo.TRef.unary (.of main_c_33 : StableHlo.TRef sig ⟨S_, .i32⟩) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v220 main_v222 (broadcastInDim S1x64 ![1] bcast_S64_S1x64_1 : (⟨S64, .f32⟩ : BufTy).Contents (Elt F) → (⟨S1x64, .f32⟩ : BufTy).Contents (Elt F)),
    StableHlo.unary main_v222 main_v223 (broadcastInDim S10000x64 ![0, 1] bcast_S1x64_S10000x64_0_1 : (⟨S1x64, .f32⟩ : BufTy).Contents (Elt F) → (⟨S10000x64, .f32⟩ : BufTy).Contents (Elt F)),
    StableHlo.binary main_v213 main_v223 main_v224 (subf : (⟨S10000x64, .f32⟩ : BufTy).Contents (Elt F) → (⟨S10000x64, .f32⟩ : BufTy).Contents (Elt F) → (⟨S10000x64, .f32⟩ : BufTy).Contents (Elt F)),
    StableHlo.nullary main_cst_34 (constant S_ .f32 0x3727C5AC#32),
    StableHlo.unary main_cst_34 main_v225 (broadcastInDim S64 ![] bcast_S_S64 : (⟨S_, .f32⟩ : BufTy).Contents (Elt F) → (⟨S64, .f32⟩ : BufTy).Contents (Elt F)),
    StableHlo.binary main_v221 main_v225 main_v226 (addf : (⟨S64, .f32⟩ : BufTy).Contents (Elt F) → (⟨S64, .f32⟩ : BufTy).Contents (Elt F) → (⟨S64, .f32⟩ : BufTy).Contents (Elt F)),
    StableHlo.unary main_v226 main_v227 (Host.rsqrt : (⟨S64, .f32⟩ : BufTy).Contents (Elt F) → (⟨S64, .f32⟩ : BufTy).Contents (Elt F)),
    StableHlo.unary main_v227 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S10000x64 ![0, 1] bcast_S1x64_S10000x64_0_1 : (⟨S1x64, .f32⟩ : BufTy).Contents (Elt F) → (⟨S10000x64, .f32⟩ : BufTy).Contents (Elt F)),
    StableHlo.binary main_v224 main_v229 main_v230 (mulf : (⟨S10000x64, .f32⟩ : BufTy).Contents (Elt F) → (⟨S10000x64, .f32⟩ : BufTy).Contents (Elt F) → (⟨S10000x64, .f32⟩ : BufTy).Contents (Elt F)),
    StableHlo.unary main_v215 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S10000x64 ![0, 1] bcast_S1x64_S10000x64_0_1 : (⟨S1x64, .f32⟩ : BufTy).Contents (Elt F) → (⟨S10000x64, .f32⟩ : BufTy).Contents (Elt F)),
    StableHlo.binary main_v230 main_v232 main_v233 (mulf : (⟨S10000x64, .f32⟩ : BufTy).Contents (Elt F) → (⟨S10000x64, .f32⟩ : BufTy).Contents (Elt F) → (⟨S10000x64, .f32⟩ : BufTy).Contents (Elt F)),
    StableHlo.unary main_v217 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S10000x64 ![0, 1] bcast_S1x64_S10000x64_0_1 : (⟨S1x64, .f32⟩ : BufTy).Contents (Elt F) → (⟨S10000x64, .f32⟩ : BufTy).Contents (Elt F)),
    StableHlo.binary main_v233 main_v235 main_v236 (addf : (⟨S10000x64, .f32⟩ : BufTy).Contents (Elt F) → (⟨S10000x64, .f32⟩ : BufTy).Contents (Elt F) → (⟨S10000x64, .f32⟩ : BufTy).Contents (Elt F)),
    StableHlo.TRef.nullary main_call5.cst (constant S_ .f32 0x00000000#32),
    StableHlo.TRef.unary main_call5.cst main_call5.v0 (broadcastInDim S10000x64 ![] bcast_S_S10000x64),
    StableHlo.TRef.binary (.of main_v236 : StableHlo.TRef sig ⟨S10000x64, .f32⟩) main_call5.v0 main_call5.v1 (cmpf .ogt),
    StableHlo.TRef.nullary main_call5.cst_0 (constant S_ .f32 0x00000000#32),
    StableHlo.TRef.unary main_call5.cst_0 main_call5.v2 (broadcastInDim S10000x64 ![] bcast_S_S10000x64),
    StableHlo.TRef.binary (.of main_v236 : StableHlo.TRef sig ⟨S10000x64, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S10000x64 ![] bcast_S_S10000x64),
    StableHlo.TRef.ternary main_call5.v3 main_call5.call0.v1 (.of main_v236 : StableHlo.TRef sig ⟨S10000x64, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S10000x64 ![] bcast_S_S10000x64),
    StableHlo.TRef.binary main_call5.v6 main_call5.v5 main_call5.v7 mulf,
    StableHlo.TRef.ternary main_call5.v1 (.of main_v236 : StableHlo.TRef sig ⟨S10000x64, .f32⟩) main_call5.v7 main_call5.call1.v0 select ]

/-- The references they write, in order. -/
abbrev W4 : List (Ref sig .tc) :=
  [main_cst_30, main_v208, main_v209, main_v210, main_v211, main_v212, main_v213, main_v214, main_v215, main_v216, main_v217, main_cst_31, main_v218, main_cst_32, main_v219, main_v220, main_c_33, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v222, main_v223, main_v224, main_cst_34, main_v225, main_v226, main_v227, main_v228, main_v229, main_v230, main_v231, main_v232, main_v233, main_v234, main_v235, main_v236, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref]

end Cert.ReferenceIdeal.Hand

end
-- ==== Proof.Ref.Part4.lean ====
import proofs.«180658_j65867618451767_1_alg».proof.Proof.Ref.Ops4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one bind re-associated per statement: the rewrite under the chain recurses once per statement
set_option maxRecDepth 4096 in
/-- Window 4 of @main is the straight line of its operations: each call is its function's body at the call's operands and record (the definitions unfolded), and then both sides are one chain of host steps once sequencing is
    re-associated to the right and the returns in the middle are dropped (the monad laws). -/
theorem part4_eq (c : Dev nD) : main_part4 (F := F) c = seq ops4 := by
  simp only [main_part4, fn_var_2.body, fn_where.body, fn_elu_3.body, fn_where_4.body, fn_where_5.body, seq, bind_assoc, pure_bind]

/-- Every operation of the window touches TensorCore references only. -/
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of the window determines its results. -/
theorem ops4_fresh : (ops4 : List (HloOp τ sig (Elt F))).Forall fun op => op.fresh = ∅ := by
  simp only [List.Forall]; repeat' constructor

/-- Each operation of the window writes one reference, a member of `W4`. -/
theorem ops4_writes : (ops4 : List (HloOp τ sig (Elt F))).Forall fun op =>
    op.writes ⊆ (W4.map (Proc.devRef (τ := τ) .tc)).toFinset := by
  simp only [List.Forall, nullary_writes, unary_writes, binary_writes, ternary_writes, reshape_writes,
    Finset.singleton_subset_iff, List.mem_toFinset]
  repeat' constructor
  all_goals exact List.mem_map_of_mem (by decide)

end Cert.ReferenceIdeal.Hand

end
-- ==== Proof.Ref.Run.lean ====
import proofs.«180658_j65867618451767_1_alg».proof.Proof.Ref.Part0
import proofs.«180658_j65867618451767_1_alg».proof.Proof.Ref.Part1
import proofs.«180658_j65867618451767_1_alg».proof.Proof.Ref.Part2
import proofs.«180658_j65867618451767_1_alg».proof.Proof.Ref.Part3
import proofs.«180658_j65867618451767_1_alg».proof.Proof.Ref.Part4
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- All of @main's operations in order, each called function's operations in place of its call: the five
    windows' lists one after the other. -/
abbrev ops : List (HloOp τ sig (Elt F)) := ops0 ++ (ops1 ++ (ops2 ++ (ops3 ++ ops4)))

/-- @main runs its five windows in order, each the straight line of its operations; lines run one after
    the other are their concatenation run as one. -/
theorem main_eq (c : Dev nD) : main (F := F) c = seq ops := by
  show main (F := F) c = seq (ops0 ++ (ops1 ++ (ops2 ++ (ops3 ++ ops4))))
  rw [seq_append, seq_append, seq_append, seq_append,
    ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

/-- Every operation determines its results: window by window. -/
theorem ops_fresh : (ops : List (HloOp τ sig (Elt F))).Forall fun op => op.fresh = ∅ :=
  List.forall_append.mpr ⟨ops0_fresh, List.forall_append.mpr ⟨ops1_fresh, List.forall_append.mpr ⟨ops2_fresh,
    List.forall_append.mpr ⟨ops3_fresh, ops4_fresh⟩⟩⟩⟩

/-- On every device, for any float values, from any memory with zero counters: every weakly fair execution of
    @main terminates, and every final state has each TensorCore buffer at the fold of the operations' results
    over the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- A reference that no window's operations write holds after all of them what it held before: the fold over
    the concatenation is the folds in turn, and each window's fold leaves alone a reference outside the list of
    those it writes. -/
theorem after_ops_of (V : Valuation τ sig (Elt F)) (r : Ref sig .tc)
    (h0 : r ∉ W0) (h1 : r ∉ W1) (h2 : r ∉ W2) (h3 : r ∉ W3) (h4 : r ∉ W4) :
    after ops V (Proc.devRef .tc r) = V (Proc.devRef .tc r) := by
  show after (ops0 ++ (ops1 ++ (ops2 ++ (ops3 ++ ops4)))) V (Proc.devRef .tc r) = V (Proc.devRef .tc r)
  rw [after_append, after_append, after_append, after_append,
    after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-- The thirteen arguments are unchanged: no operation writes an argument's buffer (each writes the buffer of
    the value it defines), so the run's fold at an argument is the launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      (h c main_arg0).trans (after_ops_of _ main_arg0 (by decide) (by decide) (by decide) (by decide) (by decide)),
      (h c main_arg1).trans (after_ops_of _ main_arg1 (by decide) (by decide) (by decide) (by decide) (by decide)),
      (h c main_arg2).trans (after_ops_of _ main_arg2 (by decide) (by decide) (by decide) (by decide) (by decide)),
      (h c main_arg3).trans (after_ops_of _ main_arg3 (by decide) (by decide) (by decide) (by decide) (by decide)),
      (h c main_arg4).trans (after_ops_of _ main_arg4 (by decide) (by decide) (by decide) (by decide) (by decide)),
      (h c main_arg5).trans (after_ops_of _ main_arg5 (by decide) (by decide) (by decide) (by decide) (by decide)),
      (h c main_arg6).trans (after_ops_of _ main_arg6 (by decide) (by decide) (by decide) (by decide) (by decide)),
      (h c main_arg7).trans (after_ops_of _ main_arg7 (by decide) (by decide) (by decide) (by decide) (by decide)),
      (h c main_arg8).trans (after_ops_of _ main_arg8 (by decide) (by decide) (by decide) (by decide) (by decide)),
      (h c main_arg9).trans (after_ops_of _ main_arg9 (by decide) (by decide) (by decide) (by decide) (by decide)),
      (h c main_arg10).trans (after_ops_of _ main_arg10 (by decide) (by decide) (by decide) (by decide) (by decide)),
      (h c main_arg11).trans (after_ops_of _ main_arg11 (by decide) (by decide) (by decide) (by decide) (by decide)),
      (h c main_arg12).trans (after_ops_of _ main_arg12 (by decide) (by decide) (by decide) (by decide) (by decide))⟩)
    (run_after m ρ)

end Cert.ReferenceIdeal.Hand

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«180658_j65867618451767_1_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«180658_j65867618451767_1_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.KI.Ssa.lean ====
/-
  The kernel program read as a system of equations at its LAST boundary. Every buffer of @main is written once: by one
  host operation, or as an output array of one region. So what a buffer holds at the last boundary is what it held right
  after the segment that wrote it, and an operation's operands, written earlier, hold there what they held when it ran.
  Hence, at the last boundary's contents, each host operation's result IS its function of its operands' contents, and each
  region's output array is what its write-backs leave from its input arrays' contents.
-/
import proofs.«180658_j65867618451767_1_alg».proof.Proof.KI.Run
import proofs.«180658_j65867618451767_1_alg».proof.Proof.LibHostOnce

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Each host stretch writes its listed buffers, one per operation, all different -/

theorem outs_h0 : HostRead.Outs (hostOps0 : List (HloOp τ sig (Elt F))) hostOps0_W := by
  unfold hostOps0 hostOps0_W
  repeat' first | exact List.Forall₂.nil | refine List.Forall₂.cons rfl ?_
theorem nodup_h0 : (hostOps0_W : List (Ref sig .tc)).Nodup := by decide
theorem outs_h1 : HostRead.Outs (hostOps1 : List (HloOp τ sig (Elt F))) hostOps1_W := by
  unfold hostOps1 hostOps1_W
  repeat' first | exact List.Forall₂.nil | refine List.Forall₂.cons rfl ?_
theorem nodup_h1 : (hostOps1_W : List (Ref sig .tc)).Nodup := by decide
theorem outs_h2 : HostRead.Outs (hostOps2 : List (HloOp τ sig (Elt F))) hostOps2_W := by
  unfold hostOps2 hostOps2_W
  repeat' first | exact List.Forall₂.nil | refine List.Forall₂.cons rfl ?_
theorem nodup_h2 : (hostOps2_W : List (Ref sig .tc)).Nodup := by decide
theorem outs_h3 : HostRead.Outs (hostOps3 : List (HloOp τ sig (Elt F))) hostOps3_W := by
  unfold hostOps3 hostOps3_W
  repeat' first | exact List.Forall₂.nil | refine List.Forall₂.cons rfl ?_
theorem nodup_h3 : (hostOps3_W : List (Ref sig .tc)).Nodup := by decide
theorem outs_h4 : HostRead.Outs (hostOps4 : List (HloOp τ sig (Elt F))) hostOps4_W := by
  unfold hostOps4 hostOps4_W
  repeat' first | exact List.Forall₂.nil | refine List.Forall₂.cons rfl ?_
theorem nodup_h4 : (hostOps4_W : List (Ref sig .tc)).Nodup := by decide
theorem outs_h5 : HostRead.Outs (hostOps5 : List (HloOp τ sig (Elt F))) hostOps5_W := by
  unfold hostOps5 hostOps5_W
  repeat' first | exact List.Forall₂.nil | refine List.Forall₂.cons rfl ?_
theorem nodup_h5 : (hostOps5_W : List (Ref sig .tc)).Nodup := by decide
theorem outs_h7 : HostRead.Outs (hostOps7 : List (HloOp τ sig (Elt F))) hostOps7_W := by
  unfold hostOps7 hostOps7_W
  repeat' first | exact List.Forall₂.nil | refine List.Forall₂.cons rfl ?_
theorem nodup_h7 : (hostOps7_W : List (Ref sig .tc)).Nodup := by decide

/-! ## What a segment leaves alone -/

theorem keep1 (c : Dev nD) (b : Ref sig .tc) (hb : b ∉ hostOps0_W) : W1 m ρ c (Proc.devRef .tc b) = W0 m ρ c (Proc.devRef .tc b) :=
  StableHlo.after_of_writes_sub hostOps0 _ hostOps0_writes hb
/-- Region 0 leaves every buffer but its output arrays as it found it: a buffer no window stages is untouched, an input
    window's array ends as entered. -/
theorem keep2 (c : Dev nD) (b : Ref sig .tc) (hb : b ∉ ([main_v45_0, main_v45_1] : List (Ref sig .tc))) : W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (En1 m ρ) c).arrAt_in w hin _).trans (A_eq0 (En1 m ρ) c w))
  · exact W2_of_ne m ρ c b fun w e => h ⟨w, e⟩
theorem keep3 (c : Dev nD) (b : Ref sig .tc) (hb : b ∉ hostOps1_W) : W3 m ρ c (Proc.devRef .tc b) = W2 m ρ c (Proc.devRef .tc b) :=
  StableHlo.after_of_writes_sub hostOps1 _ hostOps1_writes hb
/-- Region 1 leaves every buffer but its output arrays as it found it: a buffer no window stages is untouched, an input
    window's array ends as entered. -/
theorem keep4 (c : Dev nD) (b : Ref sig .tc) (hb : b ∉ ([main_v49] : List (Ref sig .tc))) : W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (En3 m ρ) c).arrAt_in w hin _).trans (A_eq1 (En3 m ρ) c w))
  · exact W4_of_ne m ρ c b fun w e => h ⟨w, e⟩
theorem keep5 (c : Dev nD) (b : Ref sig .tc) (hb : b ∉ hostOps2_W) : W5 m ρ c (Proc.devRef .tc b) = W4 m ρ c (Proc.devRef .tc b) :=
  StableHlo.after_of_writes_sub hostOps2 _ hostOps2_writes hb
/-- Region 2 leaves every buffer but its output arrays as it found it: a buffer no window stages is untouched, an input
    window's array ends as entered. -/
theorem keep6 (c : Dev nD) (b : Ref sig .tc) (hb : b ∉ ([main_v74_0, main_v74_1, main_v74_2] : List (Ref sig .tc))) : W6 m ρ c (Proc.devRef .tc b) = W5 m ρ c (Proc.devRef .tc b) := by
  by_cases h : ∃ w, Pipeline.arrRef spec2 w = b
  · obtain ⟨w, rfl⟩ := h
    have hin : (cfg2.win w).isOut = false := by revert hb; revert w; decide
    exact (W6_arr m ρ c w).trans (((dat2 (En5 m ρ) c).arrAt_in w hin _).trans (A_eq2 (En5 m ρ) c w))
  · exact W6_of_ne m ρ c b fun w e => h ⟨w, e⟩
theorem keep7 (c : Dev nD) (b : Ref sig .tc) (hb : b ∉ hostOps3_W) : W7 m ρ c (Proc.devRef .tc b) = W6 m ρ c (Proc.devRef .tc b) :=
  StableHlo.after_of_writes_sub hostOps3 _ hostOps3_writes hb
/-- Region 3 leaves every buffer but its output arrays as it found it: a buffer no window stages is untouched, an input
    window's array ends as entered. -/
theorem keep8 (c : Dev nD) (b : Ref sig .tc) (hb : b ∉ ([main_v83_0, main_v83_1] : List (Ref sig .tc))) : W8 m ρ c (Proc.devRef .tc b) = W7 m ρ c (Proc.devRef .tc b) := by
  by_cases h : ∃ w, Pipeline.arrRef spec3 w = b
  · obtain ⟨w, rfl⟩ := h
    have hin : (cfg3.win w).isOut = false := by revert hb; revert w; decide
    exact (W8_arr m ρ c w).trans (((dat3 (En7 m ρ) c).arrAt_in w hin _).trans (A_eq3 (En7 m ρ) c w))
  · exact W8_of_ne m ρ c b fun w e => h ⟨w, e⟩
theorem keep9 (c : Dev nD) (b : Ref sig .tc) (hb : b ∉ hostOps4_W) : W9 m ρ c (Proc.devRef .tc b) = W8 m ρ c (Proc.devRef .tc b) :=
  StableHlo.after_of_writes_sub hostOps4 _ hostOps4_writes hb
/-- Region 4 leaves every buffer but its output arrays as it found it: a buffer no window stages is untouched, an input
    window's array ends as entered. -/
theorem keep10 (c : Dev nD) (b : Ref sig .tc) (hb : b ∉ ([main_v117_0, main_v117_1, main_v117_2] : List (Ref sig .tc))) : W10 m ρ c (Proc.devRef .tc b) = W9 m ρ c (Proc.devRef .tc b) := by
  by_cases h : ∃ w, Pipeline.arrRef spec4 w = b
  · obtain ⟨w, rfl⟩ := h
    have hin : (cfg4.win w).isOut = false := by revert hb; revert w; decide
    exact (W10_arr m ρ c w).trans (((dat4 (En9 m ρ) c).arrAt_in w hin _).trans (A_eq4 (En9 m ρ) c w))
  · exact W10_of_ne m ρ c b fun w e => h ⟨w, e⟩
theorem keep11 (c : Dev nD) (b : Ref sig .tc) (hb : b ∉ hostOps5_W) : W11 m ρ c (Proc.devRef .tc b) = W10 m ρ c (Proc.devRef .tc b) :=
  StableHlo.after_of_writes_sub hostOps5 _ hostOps5_writes hb
/-- Region 5 leaves every buffer but its output arrays as it found it: a buffer no window stages is untouched, an input
    window's array ends as entered. -/
theorem keep12 (c : Dev nD) (b : Ref sig .tc) (hb : b ∉ ([main_v126] : List (Ref sig .tc))) : W12 m ρ c (Proc.devRef .tc b) = W11 m ρ c (Proc.devRef .tc b) := by
  by_cases h : ∃ w, Pipeline.arrRef spec5 w = b
  · obtain ⟨w, rfl⟩ := h
    have hin : (cfg5.win w).isOut = false := by revert hb; revert w; decide
    exact (W12_arr m ρ c w).trans (((dat5 (En11 m ρ) c).arrAt_in w hin _).trans (A_eq5 (En11 m ρ) c w))
  · exact W12_of_ne m ρ c b fun w e => h ⟨w, e⟩
/-- Region 6 leaves every buffer but its output arrays as it found it: a buffer no window stages is untouched, an input
    window's array ends as entered. -/
theorem keep13 (c : Dev nD) (b : Ref sig .tc) (hb : b ∉ ([main_v127_0, main_v127_1] : List (Ref sig .tc))) : W13 m ρ c (Proc.devRef .tc b) = W12 m ρ c (Proc.devRef .tc b) := by
  by_cases h : ∃ w, Pipeline.arrRef spec6 w = b
  · obtain ⟨w, rfl⟩ := h
    have hin : (cfg6.win w).isOut = false := by revert hb; revert w; decide
    exact (W13_arr m ρ c w).trans (((dat6 (En12 m ρ) c).arrAt_in w hin _).trans (A_eq6 (En12 m ρ) c w))
  · exact W13_of_ne m ρ c b fun w e => h ⟨w, e⟩
theorem keep14 (c : Dev nD) (b : Ref sig .tc) (hb : b ∉ hostOps7_W) : W14 m ρ c (Proc.devRef .tc b) = W13 m ρ c (Proc.devRef .tc b) :=
  StableHlo.after_of_writes_sub hostOps7 _ hostOps7_writes hb
/-- Region 7 leaves every buffer but its output arrays as it found it: a buffer no window stages is untouched, an input
    window's array ends as entered. -/
theorem keep15 (c : Dev nD) (b : Ref sig .tc) (hb : b ∉ ([main_v153] : List (Ref sig .tc))) : W15 m ρ c (Proc.devRef .tc b) = W14 m ρ c (Proc.devRef .tc b) := by
  by_cases h : ∃ w, Pipeline.arrRef spec7 w = b
  · obtain ⟨w, rfl⟩ := h
    have hin : (cfg7.win w).isOut = false := by revert hb; revert w; decide
    exact (W15_arr m ρ c w).trans (((dat7 (En14 m ρ) c).arrAt_in w hin _).trans (A_eq7 (En14 m ρ) c w))
  · exact W15_of_ne m ρ c b fun w e => h ⟨w, e⟩

/-! ## From a boundary to the last one -/

/-- The buffers written after boundary 14. -/
abbrev later14 : List (Ref sig .tc) := ([main_v153] : List (Ref sig .tc))
theorem last_of14 (c : Dev nD) (b : Ref sig .tc) (hb : b ∉ later14) : W15 m ρ c (Proc.devRef .tc b) = W14 m ρ c (Proc.devRef .tc b) :=
  keep15 m ρ c b hb
/-- The buffers written after boundary 13. -/
abbrev later13 : List (Ref sig .tc) := hostOps7_W ++ later14
theorem last_of13 (c : Dev nD) (b : Ref sig .tc) (hb : b ∉ later13) : W15 m ρ c (Proc.devRef .tc b) = W13 m ρ c (Proc.devRef .tc b) :=
  (last_of14 m ρ c b (fun h => hb (List.mem_append_right _ h))).trans (keep14 m ρ c b (fun h => hb (List.mem_append_left _ h)))
/-- The buffers written after boundary 12. -/
abbrev later12 : List (Ref sig .tc) := ([main_v127_0, main_v127_1] : List (Ref sig .tc)) ++ later13
theorem last_of12 (c : Dev nD) (b : Ref sig .tc) (hb : b ∉ later12) : W15 m ρ c (Proc.devRef .tc b) = W12 m ρ c (Proc.devRef .tc b) :=
  (last_of13 m ρ c b (fun h => hb (List.mem_append_right _ h))).trans (keep13 m ρ c b (fun h => hb (List.mem_append_left _ h)))
/-- The buffers written after boundary 11. -/
abbrev later11 : List (Ref sig .tc) := ([main_v126] : List (Ref sig .tc)) ++ later12
theorem last_of11 (c : Dev nD) (b : Ref sig .tc) (hb : b ∉ later11) : W15 m ρ c (Proc.devRef .tc b) = W11 m ρ c (Proc.devRef .tc b) :=
  (last_of12 m ρ c b (fun h => hb (List.mem_append_right _ h))).trans (keep12 m ρ c b (fun h => hb (List.mem_append_left _ h)))
/-- The buffers written after boundary 10. -/
abbrev later10 : List (Ref sig .tc) := hostOps5_W ++ later11
theorem last_of10 (c : Dev nD) (b : Ref sig .tc) (hb : b ∉ later10) : W15 m ρ c (Proc.devRef .tc b) = W10 m ρ c (Proc.devRef .tc b) :=
  (last_of11 m ρ c b (fun h => hb (List.mem_append_right _ h))).trans (keep11 m ρ c b (fun h => hb (List.mem_append_left _ h)))
/-- The buffers written after boundary 9. -/
abbrev later9 : List (Ref sig .tc) := ([main_v117_0, main_v117_1, main_v117_2] : List (Ref sig .tc)) ++ later10
theorem last_of9 (c : Dev nD) (b : Ref sig .tc) (hb : b ∉ later9) : W15 m ρ c (Proc.devRef .tc b) = W9 m ρ c (Proc.devRef .tc b) :=
  (last_of10 m ρ c b (fun h => hb (List.mem_append_right _ h))).trans (keep10 m ρ c b (fun h => hb (List.mem_append_left _ h)))
/-- The buffers written after boundary 8. -/
abbrev later8 : List (Ref sig .tc) := hostOps4_W ++ later9
theorem last_of8 (c : Dev nD) (b : Ref sig .tc) (hb : b ∉ later8) : W15 m ρ c (Proc.devRef .tc b) = W8 m ρ c (Proc.devRef .tc b) :=
  (last_of9 m ρ c b (fun h => hb (List.mem_append_right _ h))).trans (keep9 m ρ c b (fun h => hb (List.mem_append_left _ h)))
/-- The buffers written after boundary 7. -/
abbrev later7 : List (Ref sig .tc) := ([main_v83_0, main_v83_1] : List (Ref sig .tc)) ++ later8
theorem last_of7 (c : Dev nD) (b : Ref sig .tc) (hb : b ∉ later7) : W15 m ρ c (Proc.devRef .tc b) = W7 m ρ c (Proc.devRef .tc b) :=
  (last_of8 m ρ c b (fun h => hb (List.mem_append_right _ h))).trans (keep8 m ρ c b (fun h => hb (List.mem_append_left _ h)))
/-- The buffers written after boundary 6. -/
abbrev later6 : List (Ref sig .tc) := hostOps3_W ++ later7
theorem last_of6 (c : Dev nD) (b : Ref sig .tc) (hb : b ∉ later6) : W15 m ρ c (Proc.devRef .tc b) = W6 m ρ c (Proc.devRef .tc b) :=
  (last_of7 m ρ c b (fun h => hb (List.mem_append_right _ h))).trans (keep7 m ρ c b (fun h => hb (List.mem_append_left _ h)))
/-- The buffers written after boundary 5. -/
abbrev later5 : List (Ref sig .tc) := ([main_v74_0, main_v74_1, main_v74_2] : List (Ref sig .tc)) ++ later6
theorem last_of5 (c : Dev nD) (b : Ref sig .tc) (hb : b ∉ later5) : W15 m ρ c (Proc.devRef .tc b) = W5 m ρ c (Proc.devRef .tc b) :=
  (last_of6 m ρ c b (fun h => hb (List.mem_append_right _ h))).trans (keep6 m ρ c b (fun h => hb (List.mem_append_left _ h)))
/-- The buffers written after boundary 4. -/
abbrev later4 : List (Ref sig .tc) := hostOps2_W ++ later5
theorem last_of4 (c : Dev nD) (b : Ref sig .tc) (hb : b ∉ later4) : W15 m ρ c (Proc.devRef .tc b) = W4 m ρ c (Proc.devRef .tc b) :=
  (last_of5 m ρ c b (fun h => hb (List.mem_append_right _ h))).trans (keep5 m ρ c b (fun h => hb (List.mem_append_left _ h)))
/-- The buffers written after boundary 3. -/
abbrev later3 : List (Ref sig .tc) := ([main_v49] : List (Ref sig .tc)) ++ later4
theorem last_of3 (c : Dev nD) (b : Ref sig .tc) (hb : b ∉ later3) : W15 m ρ c (Proc.devRef .tc b) = W3 m ρ c (Proc.devRef .tc b) :=
  (last_of4 m ρ c b (fun h => hb (List.mem_append_right _ h))).trans (keep4 m ρ c b (fun h => hb (List.mem_append_left _ h)))
/-- The buffers written after boundary 2. -/
abbrev later2 : List (Ref sig .tc) := hostOps1_W ++ later3
theorem last_of2 (c : Dev nD) (b : Ref sig .tc) (hb : b ∉ later2) : W15 m ρ c (Proc.devRef .tc b) = W2 m ρ c (Proc.devRef .tc b) :=
  (last_of3 m ρ c b (fun h => hb (List.mem_append_right _ h))).trans (keep3 m ρ c b (fun h => hb (List.mem_append_left _ h)))
/-- The buffers written after boundary 1. -/
abbrev later1 : List (Ref sig .tc) := ([main_v45_0, main_v45_1] : List (Ref sig .tc)) ++ later2
theorem last_of1 (c : Dev nD) (b : Ref sig .tc) (hb : b ∉ later1) : W15 m ρ c (Proc.devRef .tc b) = W1 m ρ c (Proc.devRef .tc b) :=
  (last_of2 m ρ c b (fun h => hb (List.mem_append_right _ h))).trans (keep2 m ρ c b (fun h => hb (List.mem_append_left _ h)))

/-! ## A host operation read at the last boundary -/

section ReadAtEnd
variable {ops : List (HloOp τ sig (Elt F))} {ys : List (Ref sig .tc)} (hO : HostRead.Outs ops ys)
  (Vfrom Wf : Valuation τ sig (Elt F)) (later : List (Ref sig .tc))
  (hl : ∀ b : Ref sig .tc, b ∉ later → Wf (Proc.devRef .tc b) = after ops Vfrom (Proc.devRef .tc b))
include hO hl

theorem end_nullary (k : Nat) (y : Ref sig .tc) (v : y.ty.Contents (Elt F)) (hy)
    (hk : ops[k]? = some (nullary y v hy)) (hy' : y ∉ ys.drop (k + 1)) (ly : y ∉ later) :
    Wf (Proc.devRef .tc y) = v := by
  rw [hl y ly]; exact HostRead.nullary_at hO Vfrom k y v hy hk hy'

theorem end_unary (k : Nat) (x y : Ref sig .tc) (f : x.ty.Contents (Elt F) → y.ty.Contents (Elt F)) (hx hy)
    (hk : ops[k]? = some (unary x y f hx hy)) (hy' : y ∉ ys.drop (k + 1)) (hx' : x ∉ ys.drop k) (ly : y ∉ later) (lx : x ∉ later) :
    Wf (Proc.devRef .tc y) = f (Wf (Proc.devRef .tc x)) := by
  rw [hl y ly, hl x lx]; exact HostRead.unary_at hO Vfrom k x y f hx hy hk hy' hx'

theorem end_reshape (k : Nat) (x y : Ref sig .tc) (he hn hx hy)
    (hk : ops[k]? = some (reshape (Val := Elt F) x y he hn hx hy)) (hy' : y ∉ ys.drop (k + 1)) (hx' : x ∉ ys.drop k) (ly : y ∉ later) (lx : x ∉ later) :
    Wf (Proc.devRef .tc y) = fun i => he ▸ shapeCast y.ty.shape (Wf (Proc.devRef .tc x)) hn i := by
  rw [hl y ly, hl x lx]; exact HostRead.reshape_at hO Vfrom k x y he hn hx hy hk hy' hx'

theorem end_binary (k : Nat) (a b y : Ref sig .tc) (f : a.ty.Contents (Elt F) → b.ty.Contents (Elt F) → y.ty.Contents (Elt F)) (ha hb hy)
    (hk : ops[k]? = some (binary a b y f ha hb hy)) (hy' : y ∉ ys.drop (k + 1)) (ha' : a ∉ ys.drop k) (hb' : b ∉ ys.drop k)
    (ly : y ∉ later) (la : a ∉ later) (lb : b ∉ later) :
    Wf (Proc.devRef .tc y) = f (Wf (Proc.devRef .tc a)) (Wf (Proc.devRef .tc b)) := by
  rw [hl y ly, hl a la, hl b lb]; exact HostRead.binary_at hO Vfrom k a b y f ha hb hy hk hy' ha' hb'

theorem end_ternary (k : Nat) (c₀ a b y : Ref sig .tc)
    (f : c₀.ty.Contents (Elt F) → a.ty.Contents (Elt F) → b.ty.Contents (Elt F) → y.ty.Contents (Elt F)) (hc ha hb hy)
    (hk : ops[k]? = some (ternary c₀ a b y f hc ha hb hy)) (hy' : y ∉ ys.drop (k + 1))
    (hc' : c₀ ∉ ys.drop k) (ha' : a ∉ ys.drop k) (hb' : b ∉ ys.drop k)
    (ly : y ∉ later) (lc : c₀ ∉ later) (la : a ∉ later) (lb : b ∉ later) :
    Wf (Proc.devRef .tc y) = f (Wf (Proc.devRef .tc c₀)) (Wf (Proc.devRef .tc a)) (Wf (Proc.devRef .tc b)) := by
  rw [hl y ly, hl c₀ lc, hl a la, hl b lb]; exact HostRead.ternary_at hO Vfrom k c₀ a b y f hc ha hb hy hk hy' hc' ha' hb'

theorem end_nary (k : Nat) {n : Nat} (xs : Fin n → Ref sig .tc) (y : Ref sig .tc)
    (f : ((i : Fin n) → (xs i).ty.Contents (Elt F)) → y.ty.Contents (Elt F)) (hxs hy)
    (hk : ops[k]? = some (nary xs y f hxs hy)) (hy' : y ∉ ys.drop (k + 1)) (hx' : ∀ i, xs i ∉ ys.drop k)
    (ly : y ∉ later) (lx : ∀ i, xs i ∉ later) :
    Wf (Proc.devRef .tc y) = f (fun i => Wf (Proc.devRef .tc (xs i))) := by
  rw [hl y ly, HostRead.nary_at hO Vfrom k xs y f hxs hy hk hy' hx']
  exact congrArg f (funext fun i => (hl (xs i) (lx i)).symm)

end ReadAtEnd

/-! ## The last boundary against each stretch's own exit -/

theorem last_h0 (c : Dev nD) : ∀ b : Ref sig .tc, b ∉ later1 → W15 m ρ c (Proc.devRef .tc b) = after hostOps0 (W0 m ρ c) (Proc.devRef .tc b) :=
  fun b hb => last_of1 m ρ c b hb
theorem last_h1 (c : Dev nD) : ∀ b : Ref sig .tc, b ∉ later3 → W15 m ρ c (Proc.devRef .tc b) = after hostOps1 (W2 m ρ c) (Proc.devRef .tc b) :=
  fun b hb => last_of3 m ρ c b hb
theorem last_h2 (c : Dev nD) : ∀ b : Ref sig .tc, b ∉ later5 → W15 m ρ c (Proc.devRef .tc b) = after hostOps2 (W4 m ρ c) (Proc.devRef .tc b) :=
  fun b hb => last_of5 m ρ c b hb
theorem last_h3 (c : Dev nD) : ∀ b : Ref sig .tc, b ∉ later7 → W15 m ρ c (Proc.devRef .tc b) = after hostOps3 (W6 m ρ c) (Proc.devRef .tc b) :=
  fun b hb => last_of7 m ρ c b hb
theorem last_h4 (c : Dev nD) : ∀ b : Ref sig .tc, b ∉ later9 → W15 m ρ c (Proc.devRef .tc b) = after hostOps4 (W8 m ρ c) (Proc.devRef .tc b) :=
  fun b hb => last_of9 m ρ c b hb
theorem last_h5 (c : Dev nD) : ∀ b : Ref sig .tc, b ∉ later11 → W15 m ρ c (Proc.devRef .tc b) = after hostOps5 (W10 m ρ c) (Proc.devRef .tc b) :=
  fun b hb => last_of11 m ρ c b hb
theorem last_h7 (c : Dev nD) : ∀ b : Ref sig .tc, b ∉ later14 → W15 m ρ c (Proc.devRef .tc b) = after hostOps7 (W13 m ρ c) (Proc.devRef .tc b) :=
  fun b hb => last_of14 m ρ c b hb

/-! ## A region's arrays at the last boundary -/

/-- Region 0's window `w`'s array at the last boundary is what the region's write-backs leave, provided nothing later writes it. -/
theorem last_arr0 (c : Dev nD) (w : Fin cfg0.W) (hb : Pipeline.arrRef spec0 w ∉ later2) :
    W15 m ρ c (Proc.devRef .tc (Pipeline.arrRef spec0 w)) = (dat0 (En1 m ρ) c).arrAt w cfg0.N :=
  (last_of2 m ρ c _ hb).trans (W2_arr m ρ c w)
/-- What region 0 found in a buffer is what the buffer holds at the last boundary, when nothing from the region on writes it. -/
theorem entry0 (c : Dev nD) (b : Ref sig .tc) (hb : b ∉ later1) : En1 m ρ c b = W15 m ρ c (Proc.devRef .tc b) :=
  (last_of1 m ρ c b hb).symm
/-- Region 1's window `w`'s array at the last boundary is what the region's write-backs leave, provided nothing later writes it. -/
theorem last_arr1 (c : Dev nD) (w : Fin cfg1.W) (hb : Pipeline.arrRef spec1 w ∉ later4) :
    W15 m ρ c (Proc.devRef .tc (Pipeline.arrRef spec1 w)) = (dat1 (En3 m ρ) c).arrAt w cfg1.N :=
  (last_of4 m ρ c _ hb).trans (W4_arr m ρ c w)
/-- What region 1 found in a buffer is what the buffer holds at the last boundary, when nothing from the region on writes it. -/
theorem entry1 (c : Dev nD) (b : Ref sig .tc) (hb : b ∉ later3) : En3 m ρ c b = W15 m ρ c (Proc.devRef .tc b) :=
  (last_of3 m ρ c b hb).symm
/-- Region 2's window `w`'s array at the last boundary is what the region's write-backs leave, provided nothing later writes it. -/
theorem last_arr2 (c : Dev nD) (w : Fin cfg2.W) (hb : Pipeline.arrRef spec2 w ∉ later6) :
    W15 m ρ c (Proc.devRef .tc (Pipeline.arrRef spec2 w)) = (dat2 (En5 m ρ) c).arrAt w cfg2.N :=
  (last_of6 m ρ c _ hb).trans (W6_arr m ρ c w)
/-- What region 2 found in a buffer is what the buffer holds at the last boundary, when nothing from the region on writes it. -/
theorem entry2 (c : Dev nD) (b : Ref sig .tc) (hb : b ∉ later5) : En5 m ρ c b = W15 m ρ c (Proc.devRef .tc b) :=
  (last_of5 m ρ c b hb).symm
/-- Region 3's window `w`'s array at the last boundary is what the region's write-backs leave, provided nothing later writes it. -/
theorem last_arr3 (c : Dev nD) (w : Fin cfg3.W) (hb : Pipeline.arrRef spec3 w ∉ later8) :
    W15 m ρ c (Proc.devRef .tc (Pipeline.arrRef spec3 w)) = (dat3 (En7 m ρ) c).arrAt w cfg3.N :=
  (last_of8 m ρ c _ hb).trans (W8_arr m ρ c w)
/-- What region 3 found in a buffer is what the buffer holds at the last boundary, when nothing from the region on writes it. -/
theorem entry3 (c : Dev nD) (b : Ref sig .tc) (hb : b ∉ later7) : En7 m ρ c b = W15 m ρ c (Proc.devRef .tc b) :=
  (last_of7 m ρ c b hb).symm
/-- Region 4's window `w`'s array at the last boundary is what the region's write-backs leave, provided nothing later writes it. -/
theorem last_arr4 (c : Dev nD) (w : Fin cfg4.W) (hb : Pipeline.arrRef spec4 w ∉ later10) :
    W15 m ρ c (Proc.devRef .tc (Pipeline.arrRef spec4 w)) = (dat4 (En9 m ρ) c).arrAt w cfg4.N :=
  (last_of10 m ρ c _ hb).trans (W10_arr m ρ c w)
/-- What region 4 found in a buffer is what the buffer holds at the last boundary, when nothing from the region on writes it. -/
theorem entry4 (c : Dev nD) (b : Ref sig .tc) (hb : b ∉ later9) : En9 m ρ c b = W15 m ρ c (Proc.devRef .tc b) :=
  (last_of9 m ρ c b hb).symm
/-- Region 5's window `w`'s array at the last boundary is what the region's write-backs leave, provided nothing later writes it. -/
theorem last_arr5 (c : Dev nD) (w : Fin cfg5.W) (hb : Pipeline.arrRef spec5 w ∉ later12) :
    W15 m ρ c (Proc.devRef .tc (Pipeline.arrRef spec5 w)) = (dat5 (En11 m ρ) c).arrAt w cfg5.N :=
  (last_of12 m ρ c _ hb).trans (W12_arr m ρ c w)
/-- What region 5 found in a buffer is what the buffer holds at the last boundary, when nothing from the region on writes it. -/
theorem entry5 (c : Dev nD) (b : Ref sig .tc) (hb : b ∉ later11) : En11 m ρ c b = W15 m ρ c (Proc.devRef .tc b) :=
  (last_of11 m ρ c b hb).symm
/-- Region 6's window `w`'s array at the last boundary is what the region's write-backs leave, provided nothing later writes it. -/
theorem last_arr6 (c : Dev nD) (w : Fin cfg6.W) (hb : Pipeline.arrRef spec6 w ∉ later13) :
    W15 m ρ c (Proc.devRef .tc (Pipeline.arrRef spec6 w)) = (dat6 (En12 m ρ) c).arrAt w cfg6.N :=
  (last_of13 m ρ c _ hb).trans (W13_arr m ρ c w)
/-- What region 6 found in a buffer is what the buffer holds at the last boundary, when nothing from the region on writes it. -/
theorem entry6 (c : Dev nD) (b : Ref sig .tc) (hb : b ∉ later12) : En12 m ρ c b = W15 m ρ c (Proc.devRef .tc b) :=
  (last_of12 m ρ c b hb).symm
/-- Region 7's window `w`'s array at the last boundary is what the region's write-backs leave, provided nothing later writes it. -/
theorem last_arr7 (c : Dev nD) (w : Fin cfg7.W) :
    W15 m ρ c (Proc.devRef .tc (Pipeline.arrRef spec7 w)) = (dat7 (En14 m ρ) c).arrAt w cfg7.N :=
  W15_arr m ρ c w
/-- What region 7 found in a buffer is what the buffer holds at the last boundary, when nothing from the region on writes it. -/
theorem entry7 (c : Dev nD) (b : Ref sig .tc) (hb : b ∉ later14) : En14 m ρ c b = W15 m ρ c (Proc.devRef .tc b) :=
  (last_of14 m ρ c b hb).symm

end Cert.KernelIdeal.Hand

end
-- ==== Proof.KI.HostEqs.lean ====
/-
  The kernel program's host operations, one equation each: at the last boundary's contents an operation's result buffer
  holds the operation's own function of what its operand buffers hold there (every buffer is written once).
-/
import proofs.«180658_j65867618451767_1_alg».proof.Proof.KI.Ssa
import Idealize.ShloMosaic.PureOps.Ideal

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.StableHlo

variable (m : (ℓ : Loc nD τ sig) → Buf (Elt Ideal) ℓ) (ρ : Dev nD → PrngReg)

/-- What buffer b holds on core c at the last boundary. -/
abbrev Wf (c : Dev nD) (b : Ref sig .tc) : Buf (Elt Ideal) ((c : Thread nD τ).loc b) := W15 (F := Ideal) m ρ c (Proc.devRef .tc b)

theorem k_h0_0 (c : Dev nD) : Wf m ρ c main_v0 = ((extractStridedSlice S1x64x64 ![0, 0, 0] · slices_S9x64x64_S1x64x64_0_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 0 main_arg5 main_v0 _ _ _ rfl (by decide) (by decide) (by decide) (by decide)
theorem k_h0_1 (c : Dev nD) : Wf m ρ c main_v1 = fun i => shapeCast _ (Wf m ρ c main_v0) shapeCasts_S1x64x64_S64x64 i :=
  end_reshape outs_h0 (W0 m ρ c) (W15 m ρ c) later1 (last_h0 m ρ c) 1 main_v0 main_v1 _ _ _ _ rfl (by decide) (by decide) (by decide) (by decide)
theorem k_h0_2 (c : Dev nD) : Wf m ρ c main_v2 = ((extractStridedSlice S1x64x64 ![3, 0, 0] · slices_S9x64x64_S1x64x64_3_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 2 main_arg5 main_v2 _ _ _ rfl (by decide) (by decide) (by decide) (by decide)
theorem k_h0_3 (c : Dev nD) : Wf m ρ c main_v3 = fun i => shapeCast _ (Wf m ρ c main_v2) shapeCasts_S1x64x64_S64x64 i :=
  end_reshape outs_h0 (W0 m ρ c) (W15 m ρ c) later1 (last_h0 m ρ c) 3 main_v2 main_v3 _ _ _ _ rfl (by decide) (by decide) (by decide) (by decide)
theorem k_h0_4 (c : Dev nD) : Wf m ρ c main_v4 = ((extractStridedSlice S1x64x64 ![4, 0, 0] · slices_S9x64x64_S1x64x64_4_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 4 main_arg5 main_v4 _ _ _ rfl (by decide) (by decide) (by decide) (by decide)
theorem k_h0_5 (c : Dev nD) : Wf m ρ c main_v5 = fun i => shapeCast _ (Wf m ρ c main_v4) shapeCasts_S1x64x64_S64x64 i :=
  end_reshape outs_h0 (W0 m ρ c) (W15 m ρ c) later1 (last_h0 m ρ c) 5 main_v4 main_v5 _ _ _ _ rfl (by decide) (by decide) (by decide) (by decide)
theorem k_h0_6 (c : Dev nD) : Wf m ρ c main_v6 = concatenate S64x192 1 [⟨S64x64, (Wf m ρ c main_v1)⟩, ⟨S64x64, (Wf m ρ c main_v3)⟩, ⟨S64x64, (Wf m ρ c main_v5)⟩] concatenates_S64x64_S64x64_S64x64_S64x192_d1 :=
  end_nary outs_h0 (W0 m ρ c) (W15 m ρ c) later1 (last_h0 m ρ c) 6 ![main_v1, main_v3, main_v5] main_v6 _ _ _ rfl (by decide) (by decide) (by decide) (by decide)
theorem k_h0_7 (c : Dev nD) : Wf m ρ c main_v7 = ((extractStridedSlice S1x64 ![0, 0] · slices_S9x64_S1x64_0_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 7 main_arg6 main_v7 _ _ _ rfl (by decide) (by decide) (by decide) (by decide)
theorem k_h0_8 (c : Dev nD) : Wf m ρ c main_v8 = fun i => shapeCast _ (Wf m ρ c main_v7) shapeCasts_S1x64_S64 i :=
  end_reshape outs_h0 (W0 m ρ c) (W15 m ρ c) later1 (last_h0 m ρ c) 8 main_v7 main_v8 _ _ _ _ rfl (by decide) (by decide) (by decide) (by decide)
theorem k_h0_9 (c : Dev nD) : Wf m ρ c main_v9 = ((extractStridedSlice S1x64 ![3, 0] · slices_S9x64_S1x64_3_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 9 main_arg6 main_v9 _ _ _ rfl (by decide) (by decide) (by decide) (by decide)
theorem k_h0_10 (c : Dev nD) : Wf m ρ c main_v10 = fun i => shapeCast _ (Wf m ρ c main_v9) shapeCasts_S1x64_S64 i :=
  end_reshape outs_h0 (W0 m ρ c) (W15 m ρ c) later1 (last_h0 m ρ c) 10 main_v9 main_v10 _ _ _ _ rfl (by decide) (by decide) (by decide) (by decide)
theorem k_h0_11 (c : Dev nD) : Wf m ρ c main_v11 = ((extractStridedSlice S1x64 ![4, 0] · slices_S9x64_S1x64_4_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 11 main_arg6 main_v11 _ _ _ rfl (by decide) (by decide) (by decide) (by decide)
theorem k_h0_12 (c : Dev nD) : Wf m ρ c main_v12 = fun i => shapeCast _ (Wf m ρ c main_v11) shapeCasts_S1x64_S64 i :=
  end_reshape outs_h0 (W0 m ρ c) (W15 m ρ c) later1 (last_h0 m ρ c) 12 main_v11 main_v12 _ _ _ _ rfl (by decide) (by decide) (by decide) (by decide)
theorem k_h0_13 (c : Dev nD) : Wf m ρ c main_v13 = concatenate S192 0 [⟨S64, (Wf m ρ c main_v8)⟩, ⟨S64, (Wf m ρ c main_v10)⟩, ⟨S64, (Wf m ρ c main_v12)⟩] concatenates_S64_S64_S64_S192_d0 :=
  end_nary outs_h0 (W0 m ρ c) (W15 m ρ c) later1 (last_h0 m ρ c) 13 ![main_v8, main_v10, main_v12] main_v13 _ _ _ rfl (by decide) (by decide) (by decide) (by decide)
theorem k_h0_14 (c : Dev nD) : Wf m ρ c main_v14 = fun i => shapeCast _ (Wf m ρ c main_v13) shapeCasts_S192_S1x192 i :=
  end_reshape outs_h0 (W0 m ρ c) (W15 m ρ c) later1 (last_h0 m ρ c) 14 main_v13 main_v14 _ _ _ _ rfl (by decide) (by decide) (by decide) (by decide)
theorem k_h0_15 (c : Dev nD) : Wf m ρ c main_v15 = ((extractStridedSlice S1x64x64 ![1, 0, 0] · slices_S9x64x64_S1x64x64_1_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 15 main_arg5 main_v15 _ _ _ rfl (by decide) (by decide) (by decide) (by decide)
theorem k_h0_16 (c : Dev nD) : Wf m ρ c main_v16 = fun i => shapeCast _ (Wf m ρ c main_v15) shapeCasts_S1x64x64_S64x64 i :=
  end_reshape outs_h0 (W0 m ρ c) (W15 m ρ c) later1 (last_h0 m ρ c) 16 main_v15 main_v16 _ _ _ _ rfl (by decide) (by decide) (by decide) (by decide)
theorem k_h0_17 (c : Dev nD) : Wf m ρ c main_v17 = ((extractStridedSlice S1x64 ![1, 0] · slices_S9x64_S1x64_1_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 17 main_arg6 main_v17 _ _ _ rfl (by decide) (by decide) (by decide) (by decide)
theorem k_h0_18 (c : Dev nD) : Wf m ρ c main_v18 = fun i => shapeCast _ (Wf m ρ c main_v17) shapeCasts_S1x64_S64 i :=
  end_reshape outs_h0 (W0 m ρ c) (W15 m ρ c) later1 (last_h0 m ρ c) 18 main_v17 main_v18 _ _ _ _ rfl (by decide) (by decide) (by decide) (by decide)
theorem k_h0_19 (c : Dev nD) : Wf m ρ c main_v19 = fun i => shapeCast _ (Wf m ρ c main_v18) shapeCasts_S64_S1x64 i :=
  end_reshape outs_h0 (W0 m ρ c) (W15 m ρ c) later1 (last_h0 m ρ c) 19 main_v18 main_v19 _ _ _ _ rfl (by decide) (by decide) (by decide) (by decide)
theorem k_h0_20 (c : Dev nD) : Wf m ρ c main_v20 = ((extractStridedSlice S1x64x64 ![2, 0, 0] · slices_S9x64x64_S1x64x64_2_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 20 main_arg5 main_v20 _ _ _ rfl (by decide) (by decide) (by decide) (by decide)
theorem k_h0_21 (c : Dev nD) : Wf m ρ c main_v21 = fun i => shapeCast _ (Wf m ρ c main_v20) shapeCasts_S1x64x64_S64x64 i :=
  end_reshape outs_h0 (W0 m ρ c) (W15 m ρ c) later1 (last_h0 m ρ c) 21 main_v20 main_v21 _ _ _ _ rfl (by decide) (by decide) (by decide) (by decide)
theorem k_h0_22 (c : Dev nD) : Wf m ρ c main_v22 = ((extractStridedSlice S1x64x64 ![5, 0, 0] · slices_S9x64x64_S1x64x64_5_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 22 main_arg5 main_v22 _ _ _ rfl (by decide) (by decide) (by decide) (by decide)
theorem k_h0_23 (c : Dev nD) : Wf m ρ c main_v23 = fun i => shapeCast _ (Wf m ρ c main_v22) shapeCasts_S1x64x64_S64x64 i :=
  end_reshape outs_h0 (W0 m ρ c) (W15 m ρ c) later1 (last_h0 m ρ c) 23 main_v22 main_v23 _ _ _ _ rfl (by decide) (by decide) (by decide) (by decide)
theorem k_h0_24 (c : Dev nD) : Wf m ρ c main_v24 = ((extractStridedSlice S1x64x64 ![8, 0, 0] · slices_S9x64x64_S1x64x64_8_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 24 main_arg5 main_v24 _ _ _ rfl (by decide) (by decide) (by decide) (by decide)
theorem k_h0_25 (c : Dev nD) : Wf m ρ c main_v25 = fun i => shapeCast _ (Wf m ρ c main_v24) shapeCasts_S1x64x64_S64x64 i :=
  end_reshape outs_h0 (W0 m ρ c) (W15 m ρ c) later1 (last_h0 m ρ c) 25 main_v24 main_v25 _ _ _ _ rfl (by decide) (by decide) (by decide) (by decide)
theorem k_h0_26 (c : Dev nD) : Wf m ρ c main_v26 = concatenate S64x192 1 [⟨S64x64, (Wf m ρ c main_v21)⟩, ⟨S64x64, (Wf m ρ c main_v23)⟩, ⟨S64x64, (Wf m ρ c main_v25)⟩] concatenates_S64x64_S64x64_S64x64_S64x192_d1 :=
  end_nary outs_h0 (W0 m ρ c) (W15 m ρ c) later1 (last_h0 m ρ c) 26 ![main_v21, main_v23, main_v25] main_v26 _ _ _ rfl (by decide) (by decide) (by decide) (by decide)
theorem k_h0_27 (c : Dev nD) : Wf m ρ c main_v27 = ((extractStridedSlice S1x64 ![2, 0] · slices_S9x64_S1x64_2_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 27 main_arg6 main_v27 _ _ _ rfl (by decide) (by decide) (by decide) (by decide)
theorem k_h0_28 (c : Dev nD) : Wf m ρ c main_v28 = fun i => shapeCast _ (Wf m ρ c main_v27) shapeCasts_S1x64_S64 i :=
  end_reshape outs_h0 (W0 m ρ c) (W15 m ρ c) later1 (last_h0 m ρ c) 28 main_v27 main_v28 _ _ _ _ rfl (by decide) (by decide) (by decide) (by decide)
theorem k_h0_29 (c : Dev nD) : Wf m ρ c main_v29 = ((extractStridedSlice S1x64 ![5, 0] · slices_S9x64_S1x64_5_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 29 main_arg6 main_v29 _ _ _ rfl (by decide) (by decide) (by decide) (by decide)
theorem k_h0_30 (c : Dev nD) : Wf m ρ c main_v30 = fun i => shapeCast _ (Wf m ρ c main_v29) shapeCasts_S1x64_S64 i :=
  end_reshape outs_h0 (W0 m ρ c) (W15 m ρ c) later1 (last_h0 m ρ c) 30 main_v29 main_v30 _ _ _ _ rfl (by decide) (by decide) (by decide) (by decide)
theorem k_h0_31 (c : Dev nD) : Wf m ρ c main_v31 = ((extractStridedSlice S1x64 ![8, 0] · slices_S9x64_S1x64_8_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 31 main_arg6 main_v31 _ _ _ rfl (by decide) (by decide) (by decide) (by decide)
theorem k_h0_32 (c : Dev nD) : Wf m ρ c main_v32 = fun i => shapeCast _ (Wf m ρ c main_v31) shapeCasts_S1x64_S64 i :=
  end_reshape outs_h0 (W0 m ρ c) (W15 m ρ c) later1 (last_h0 m ρ c) 32 main_v31 main_v32 _ _ _ _ rfl (by decide) (by decide) (by decide) (by decide)
theorem k_h0_33 (c : Dev nD) : Wf m ρ c main_v33 = concatenate S192 0 [⟨S64, (Wf m ρ c main_v28)⟩, ⟨S64, (Wf m ρ c main_v30)⟩, ⟨S64, (Wf m ρ c main_v32)⟩] concatenates_S64_S64_S64_S192_d0 :=
  end_nary outs_h0 (W0 m ρ c) (W15 m ρ c) later1 (last_h0 m ρ c) 33 ![main_v28, main_v30, main_v32] main_v33 _ _ _ rfl (by decide) (by decide) (by decide) (by decide)
theorem k_h0_34 (c : Dev nD) : Wf m ρ c main_v34 = fun i => shapeCast _ (Wf m ρ c main_v33) shapeCasts_S192_S1x192 i :=
  end_reshape outs_h0 (W0 m ρ c) (W15 m ρ c) later1 (last_h0 m ρ c) 34 main_v33 main_v34 _ _ _ _ rfl (by decide) (by decide) (by decide) (by decide)
theorem k_h0_35 (c : Dev nD) : Wf m ρ c main_v35 = ((extractStridedSlice S1x64x64 ![6, 0, 0] · slices_S9x64x64_S1x64x64_6_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 35 main_arg5 main_v35 _ _ _ rfl (by decide) (by decide) (by decide) (by decide)
theorem k_h0_36 (c : Dev nD) : Wf m ρ c main_v36 = fun i => shapeCast _ (Wf m ρ c main_v35) shapeCasts_S1x64x64_S64x64 i :=
  end_reshape outs_h0 (W0 m ρ c) (W15 m ρ c) later1 (last_h0 m ρ c) 36 main_v35 main_v36 _ _ _ _ rfl (by decide) (by decide) (by decide) (by decide)
theorem k_h0_37 (c : Dev nD) : Wf m ρ c main_v37 = ((extractStridedSlice S1x64 ![6, 0] · slices_S9x64_S1x64_6_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 37 main_arg6 main_v37 _ _ _ rfl (by decide) (by decide) (by decide) (by decide)
theorem k_h0_38 (c : Dev nD) : Wf m ρ c main_v38 = fun i => shapeCast _ (Wf m ρ c main_v37) shapeCasts_S1x64_S64 i :=
  end_reshape outs_h0 (W0 m ρ c) (W15 m ρ c) later1 (last_h0 m ρ c) 38 main_v37 main_v38 _ _ _ _ rfl (by decide) (by decide) (by decide) (by decide)
theorem k_h0_39 (c : Dev nD) : Wf m ρ c main_v39 = fun i => shapeCast _ (Wf m ρ c main_v38) shapeCasts_S64_S1x64 i :=
  end_reshape outs_h0 (W0 m ρ c) (W15 m ρ c) later1 (last_h0 m ρ c) 39 main_v38 main_v39 _ _ _ _ rfl (by decide) (by decide) (by decide) (by decide)
theorem k_h0_40 (c : Dev nD) : Wf m ρ c main_v40 = ((extractStridedSlice S1x64x64 ![7, 0, 0] · slices_S9x64x64_S1x64x64_7_0_0) : (⟨S9x64x64, .f32⟩ : BufTy).Contents (Elt Ideal) → (⟨S1x64x64, .f32⟩ : BufTy).Contents (Elt Ideal)) (Wf m ρ c main_arg5) :=
  end_unary outs_h0 (W0 m ρ c) (W15 m ρ c) later1 (last_h0 m ρ c) 40 main_arg5 main_v40 _ _ _ rfl (by decide) (by decide) (by decide) (by decide)
theorem k_h0_41 (c : Dev nD) : Wf m ρ c main_v41 = fun i => shapeCast _ (Wf m ρ c main_v40) shapeCasts_S1x64x64_S64x64 i :=
  end_reshape outs_h0 (W0 m ρ c) (W15 m ρ c) later1 (last_h0 m ρ c) 41 main_v40 main_v41 _ _ _ _ rfl (by decide) (by decide) (by decide) (by decide)
theorem k_h0_42 (c : Dev nD) : Wf m ρ c main_v42 = ((extractStridedSlice S1x64 ![7, 0] · slices_S9x64_S1x64_7_0) : (⟨S9x64, .f32⟩ : BufTy).Contents (Elt Ideal) → (⟨S1x64, .f32⟩ : BufTy).Contents (Elt Ideal)) (Wf m ρ c main_arg6) :=
  end_unary outs_h0 (W0 m ρ c) (W15 m ρ c) later1 (last_h0 m ρ c) 42 main_arg6 main_v42 _ _ _ rfl (by decide) (by decide) (by decide) (by decide)
theorem k_h0_43 (c : Dev nD) : Wf m ρ c main_v43 = fun i => shapeCast _ (Wf m ρ c main_v42) shapeCasts_S1x64_S64 i :=
  end_reshape outs_h0 (W0 m ρ c) (W15 m ρ c) later1 (last_h0 m ρ c) 43 main_v42 main_v43 _ _ _ _ rfl (by decide) (by decide) (by decide) (by decide)
theorem k_h0_44 (c : Dev nD) : Wf m ρ c main_v44 = fun i => shapeCast _ (Wf m ρ c main_v43) shapeCasts_S64_S1x64 i :=
  end_reshape outs_h0 (W0 m ρ c) (W15 m ρ c) later1 (last_h0 m ρ c) 44 main_v43 main_v44 _ _ _ _ rfl (by decide) (by decide) (by decide) (by decide)

theorem k_h1_0 (c : Dev nD) : Wf m ρ c main_v46 = ((extractStridedSlice S250000x64 ![0, 0] · slices_S250000x192_S250000x64_0_0) : (⟨S250000x192, .f32⟩ : BufTy).Contents (Elt Ideal) → (⟨S250000x64, .f32⟩ : BufTy).Contents (Elt Ideal)) (Wf m ρ c main_v45_0) :=
  end_unary outs_h1 (W2 m ρ c) (W15 m ρ c) later3 (last_h1 m ρ c) 0 main_v45_0 main_v46 _ _ _ rfl (by decide) (by decide) (by decide) (by decide)
theorem k_h1_1 (c : Dev nD) : Wf m ρ c main_v47 = ((extractStridedSlice S250000x64 ![0, 64] · slices_S250000x192_S250000x64_0_64) : (⟨S250000x192, .f32⟩ : BufTy).Contents (Elt Ideal) → (⟨S250000x64, .f32⟩ : BufTy).Contents (Elt Ideal)) (Wf m ρ c main_v45_0) :=
  end_unary outs_h1 (W2 m ρ c) (W15 m ρ c) later3 (last_h1 m ρ c) 1 main_v45_0 main_v47 _ _ _ rfl (by decide) (by decide) (by decide) (by decide)
theorem k_h1_2 (c : Dev nD) : Wf m ρ c main_v48 = ((extractStridedSlice S250000x64 ![0, 128] · slices_S250000x192_S250000x64_0_128) : (⟨S250000x192, .f32⟩ : BufTy).Contents (Elt Ideal) → (⟨S250000x64, .f32⟩ : BufTy).Contents (Elt Ideal)) (Wf m ρ c main_v45_0) :=
  end_unary outs_h1 (W2 m ρ c) (W15 m ρ c) later3 (last_h1 m ρ c) 2 main_v45_0 main_v48 _ _ _ rfl (by decide) (by decide) (by decide) (by decide)

theorem k_h2_0 (c : Dev nD) : Wf m ρ c main_v50 = ((extractStridedSlice S10000x64 ![0, 0] · slices_S10000x192_S10000x64_0_0) : (⟨S10000x192, .f32⟩ : BufTy).Contents (Elt Ideal) → (⟨S10000x64, .f32⟩ : BufTy).Contents (Elt Ideal)) (Wf m ρ c main_v49) :=
  end_unary outs_h2 (W4 m ρ c) (W15 m ρ c) later5 (last_h2 m ρ c) 0 main_v49 main_v50 _ _ _ rfl (by decide) (by decide) (by decide) (by decide)
theorem k_h2_1 (c : Dev nD) : Wf m ρ c main_v51 = ((extractStridedSlice S10000x64 ![0, 64] · slices_S10000x192_S10000x64_0_64) : (⟨S10000x192, .f32⟩ : BufTy).Contents (Elt Ideal) → (⟨S10000x64, .f32⟩ : BufTy).Contents (Elt Ideal)) (Wf m ρ c main_v49) :=
  end_unary outs_h2 (W4 m ρ c) (W15 m ρ c) later5 (last_h2 m ρ c) 1 main_v49 main_v51 _ _ _ rfl (by decide) (by decide) (by decide) (by decide)
theorem k_h2_2 (c : Dev nD) : Wf m ρ c main_v52 = ((extractStridedSlice S10000x64 ![0, 128] · slices_S10000x192_S10000x64_0_128) : (⟨S10000x192, .f32⟩ : BufTy).Contents (Elt Ideal) → (⟨S10000x64, .f32⟩ : BufTy).Contents (Elt Ideal)) (Wf m ρ c main_v49) :=
  end_unary outs_h2 (W4 m ρ c) (W15 m ρ c) later5 (last_h2 m ρ c) 2 main_v49 main_v52 _ _ _ rfl (by decide) (by decide) (by decide) (by decide)
theorem k_h2_3 (c : Dev nD) : Wf m ρ c main_c = (constantI S_ 32 0#32) :=
  end_nullary outs_h2 (W4 m ρ c) (W15 m ρ c) later5 (last_h2 m ρ c) 3 main_c _ _ rfl (by decide) (by decide)
theorem k_h2_4 (c : Dev nD) : Wf m ρ c main_v53 = (broadcastInDim S250000 ![] bcast_S_S250000 : (⟨S_, .i32⟩ : BufTy).Contents (Elt Ideal) → (⟨S250000, .i32⟩ : BufTy).Contents (Elt Ideal)) (Wf m ρ c main_c) :=
  end_unary outs_h2 (W4 m ρ c) (W15 m ρ c) later5 (last_h2 m ρ c) 4 main_c main_v53 _ _ _ rfl (by decide) (by decide) (by decide) (by decide)
theorem k_h2_5 (c : Dev nD) : Wf m ρ c main_v54 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg9) (Wf m ρ c main_v53) :=
  end_binary outs_h2 (W4 m ρ c) (W15 m ρ c) later5 (last_h2 m ρ c) 5 main_arg9 main_v53 main_v54 _ _ _ _ rfl (by decide) (by decide) (by decide) (by decide) (by decide) (by decide)
theorem k_h2_6 (c : Dev nD) : Wf m ρ c main_c_0 = (constantI S_ 32 250000#32) :=
  end_nullary outs_h2 (W4 m ρ c) (W15 m ρ c) later5 (last_h2 m ρ c) 6 main_c_0 _ _ rfl (by decide) (by decide)
theorem k_h2_7 (c : Dev nD) : Wf m ρ c main_v55 = (broadcastInDim S250000 ![] bcast_S_S250000 : (⟨S_, .i32⟩ : BufTy).Contents (Elt Ideal) → (⟨S250000, .i32⟩ : BufTy).Contents (Elt Ideal)) (Wf m ρ c main_c_0) :=
  end_unary outs_h2 (W4 m ρ c) (W15 m ρ c) later5 (last_h2 m ρ c) 7 main_c_0 main_v55 _ _ _ rfl (by decide) (by decide) (by decide) (by decide)
theorem k_h2_8 (c : Dev nD) : Wf m ρ c main_v56 = (addi : (⟨S250000, .i32⟩ : BufTy).Contents (Elt Ideal) → (⟨S250000, .i32⟩ : BufTy).Contents (Elt Ideal) → (⟨S250000, .i32⟩ : BufTy).Contents (Elt Ideal)) (Wf m ρ c main_arg9) (Wf m ρ c main_v55) :=
  end_binary outs_h2 (W4 m ρ c) (W15 m ρ c) later5 (last_h2 m ρ c) 8 main_arg9 main_v55 main_v56 _ _ _ _ rfl (by decide) (by decide) (by decide) (by decide) (by decide) (by decide)
theorem k_h2_9 (c : Dev nD) : Wf m ρ c main_v57 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v54) (Wf m ρ c main_v56) (Wf m ρ c main_arg9) :=
  end_ternary outs_h2 (W4 m ρ c) (W15 m ρ c) later5 (last_h2 m ρ c) 9 main_v54 main_v56 main_arg9 main_v57 _ _ _ _ _ rfl (by decide) (by decide) (by decide) (by decide) (by decide) (by decide) (by decide) (by decide)
theorem k_h2_10 (c : Dev nD) : Wf m ρ c main_v58 = (broadcastInDim S250000x1 ![0] bcast_S250000_S250000x1_0 : (⟨S250000, .i32⟩ : BufTy).Contents (Elt Ideal) → (⟨S250000x1, .i32⟩ : BufTy).Contents (Elt Ideal)) (Wf m ρ c main_v57) :=
  end_unary outs_h2 (W4 m ρ c) (W15 m ρ c) later5 (last_h2 m ρ c) 10 main_v57 main_v58 _ _ _ rfl (by decide) (by decide) (by decide) (by decide)
theorem k_h2_11 (c : Dev nD) : Wf m ρ c main_v59 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (Wf m ρ c main_v46) (Wf m ρ c main_v58) :=
  end_binary outs_h2 (W4 m ρ c) (W15 m ρ c) later5 (last_h2 m ρ c) 11 main_v46 main_v58 main_v59 _ _ _ _ rfl (by decide) (by decide) (by decide) (by decide) (by decide) (by decide)
theorem k_h2_12 (c : Dev nD) : Wf m ρ c main_c_1 = (constantI S_ 32 0#32) :=
  end_nullary outs_h2 (W4 m ρ c) (W15 m ρ c) later5 (last_h2 m ρ c) 12 main_c_1 _ _ rfl (by decide) (by decide)
theorem k_h2_13 (c : Dev nD) : Wf m ρ c main_v60 = (broadcastInDim S250000 ![] bcast_S_S250000 : (⟨S_, .i32⟩ : BufTy).Contents (Elt Ideal) → (⟨S250000, .i32⟩ : BufTy).Contents (Elt Ideal)) (Wf m ρ c main_c_1) :=
  end_unary outs_h2 (W4 m ρ c) (W15 m ρ c) later5 (last_h2 m ρ c) 13 main_c_1 main_v60 _ _ _ rfl (by decide) (by decide) (by decide) (by decide)
theorem k_h2_14 (c : Dev nD) : Wf m ρ c main_v61 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg10) (Wf m ρ c main_v60) :=
  end_binary outs_h2 (W4 m ρ c) (W15 m ρ c) later5 (last_h2 m ρ c) 14 main_arg10 main_v60 main_v61 _ _ _ _ rfl (by decide) (by decide) (by decide) (by decide) (by decide) (by decide)
theorem k_h2_15 (c : Dev nD) : Wf m ρ c main_c_2 = (constantI S_ 32 250000#32) :=
  end_nullary outs_h2 (W4 m ρ c) (W15 m ρ c) later5 (last_h2 m ρ c) 15 main_c_2 _ _ rfl (by decide) (by decide)
theorem k_h2_16 (c : Dev nD) : Wf m ρ c main_v62 = (broadcastInDim S250000 ![] bcast_S_S250000 : (⟨S_, .i32⟩ : BufTy).Contents (Elt Ideal) → (⟨S250000, .i32⟩ : BufTy).Contents (Elt Ideal)) (Wf m ρ c main_c_2) :=
  end_unary outs_h2 (W4 m ρ c) (W15 m ρ c) later5 (last_h2 m ρ c) 16 main_c_2 main_v62 _ _ _ rfl (by decide) (by decide) (by decide) (by decide)
theorem k_h2_17 (c : Dev nD) : Wf m ρ c main_v63 = (addi : (⟨S250000, .i32⟩ : BufTy).Contents (Elt Ideal) → (⟨S250000, .i32⟩ : BufTy).Contents (Elt Ideal) → (⟨S250000, .i32⟩ : BufTy).Contents (Elt Ideal)) (Wf m ρ c main_arg10) (Wf m ρ c main_v62) :=
  end_binary outs_h2 (W4 m ρ c) (W15 m ρ c) later5 (last_h2 m ρ c) 17 main_arg10 main_v62 main_v63 _ _ _ _ rfl (by decide) (by decide) (by decide) (by decide) (by decide) (by decide)
theorem k_h2_18 (c : Dev nD) : Wf m ρ c main_v64 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v61) (Wf m ρ c main_v63) (Wf m ρ c main_arg10) :=
  end_ternary outs_h2 (W4 m ρ c) (W15 m ρ c) later5 (last_h2 m ρ c) 18 main_v61 main_v63 main_arg10 main_v64 _ _ _ _ _ rfl (by decide) (by decide) (by decide) (by decide) (by decide) (by decide) (by decide) (by decide)
theorem k_h2_19 (c : Dev nD) : Wf m ρ c main_v65 = (broadcastInDim S250000x1 ![0] bcast_S250000_S250000x1_0 : (⟨S250000, .i32⟩ : BufTy).Contents (Elt Ideal) → (⟨S250000x1, .i32⟩ : BufTy).Contents (Elt Ideal)) (Wf m ρ c main_v64) :=
  end_unary outs_h2 (W4 m ρ c) (W15 m ρ c) later5 (last_h2 m ρ c) 19 main_v64 main_v65 _ _ _ rfl (by decide) (by decide) (by decide) (by decide)
theorem k_h2_20 (c : Dev nD) : Wf m ρ c main_v66 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (Wf m ρ c main_v46) (Wf m ρ c main_v65) :=
  end_binary outs_h2 (W4 m ρ c) (W15 m ρ c) later5 (last_h2 m ρ c) 20 main_v46 main_v65 main_v66 _ _ _ _ rfl (by decide) (by decide) (by decide) (by decide) (by decide) (by decide)
theorem k_h2_21 (c : Dev nD) : Wf m ρ c main_c_3 = (constantI S_ 32 0#32) :=
  end_nullary outs_h2 (W4 m ρ c) (W15 m ρ c) later5 (last_h2 m ρ c) 21 main_c_3 _ _ rfl (by decide) (by decide)
theorem k_h2_22 (c : Dev nD) : Wf m ρ c main_v67 = (broadcastInDim S250000 ![] bcast_S_S250000 : (⟨S_, .i32⟩ : BufTy).Contents (Elt Ideal) → (⟨S250000, .i32⟩ : BufTy).Contents (Elt Ideal)) (Wf m ρ c main_c_3) :=
  end_unary outs_h2 (W4 m ρ c) (W15 m ρ c) later5 (last_h2 m ρ c) 22 main_c_3 main_v67 _ _ _ rfl (by decide) (by decide) (by decide) (by decide)
theorem k_h2_23 (c : Dev nD) : Wf m ρ c main_v68 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg12) (Wf m ρ c main_v67) :=
  end_binary outs_h2 (W4 m ρ c) (W15 m ρ c) later5 (last_h2 m ρ c) 23 main_arg12 main_v67 main_v68 _ _ _ _ rfl (by decide) (by decide) (by decide) (by decide) (by decide) (by decide)
theorem k_h2_24 (c : Dev nD) : Wf m ρ c main_c_4 = (constantI S_ 32 10000#32) :=
  end_nullary outs_h2 (W4 m ρ c) (W15 m ρ c) later5 (last_h2 m ρ c) 24 main_c_4 _ _ rfl (by decide) (by decide)
theorem k_h2_25 (c : Dev nD) : Wf m ρ c main_v69 = (broadcastInDim S250000 ![] bcast_S_S250000 : (⟨S_, .i32⟩ : BufTy).Contents (Elt Ideal) → (⟨S250000, .i32⟩ : BufTy).Contents (Elt Ideal)) (Wf m ρ c main_c_4) :=
  end_unary outs_h2 (W4 m ρ c) (W15 m ρ c) later5 (last_h2 m ρ c) 25 main_c_4 main_v69 _ _ _ rfl (by decide) (by decide) (by decide) (by decide)
theorem k_h2_26 (c : Dev nD) : Wf m ρ c main_v70 = (addi : (⟨S250000, .i32⟩ : BufTy).Contents (Elt Ideal) → (⟨S250000, .i32⟩ : BufTy).Contents (Elt Ideal) → (⟨S250000, .i32⟩ : BufTy).Contents (Elt Ideal)) (Wf m ρ c main_arg12) (Wf m ρ c main_v69) :=
  end_binary outs_h2 (W4 m ρ c) (W15 m ρ c) later5 (last_h2 m ρ c) 26 main_arg12 main_v69 main_v70 _ _ _ _ rfl (by decide) (by decide) (by decide) (by decide) (by decide) (by decide)
theorem k_h2_27 (c : Dev nD) : Wf m ρ c main_v71 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v68) (Wf m ρ c main_v70) (Wf m ρ c main_arg12) :=
  end_ternary outs_h2 (W4 m ρ c) (W15 m ρ c) later5 (last_h2 m ρ c) 27 main_v68 main_v70 main_arg12 main_v71 _ _ _ _ _ rfl (by decide) (by decide) (by decide) (by decide) (by decide) (by decide) (by decide) (by decide)
theorem k_h2_28 (c : Dev nD) : Wf m ρ c main_v72 = (broadcastInDim S250000x1 ![0] bcast_S250000_S250000x1_0 : (⟨S250000, .i32⟩ : BufTy).Contents (Elt Ideal) → (⟨S250000x1, .i32⟩ : BufTy).Contents (Elt Ideal)) (Wf m ρ c main_v71) :=
  end_unary outs_h2 (W4 m ρ c) (W15 m ρ c) later5 (last_h2 m ρ c) 28 main_v71 main_v72 _ _ _ rfl (by decide) (by decide) (by decide) (by decide)
theorem k_h2_29 (c : Dev nD) : Wf m ρ c main_v73 = ((fun x i => Host.gather gather_S10000x64_S250000x1_S250000x64_1_0_n_n_0_1_164 x i) : (⟨S10000x64, .f32⟩ : BufTy).Contents (Elt Ideal) → (⟨S250000x1, .i32⟩ : BufTy).Contents (Elt Ideal) → (⟨S250000x64, .f32⟩ : BufTy).Contents (Elt Ideal)) (Wf m ρ c main_v50) (Wf m ρ c main_v72) :=
  end_binary outs_h2 (W4 m ρ c) (W15 m ρ c) later5 (last_h2 m ρ c) 29 main_v50 main_v72 main_v73 _ _ _ _ rfl (by decide) (by decide) (by decide) (by decide) (by decide) (by decide)

theorem k_h3_0 (c : Dev nD) : Wf m ρ c main_cst = (constant (F := Ideal) S_ .f32 0x48742400#32) :=
  end_nullary outs_h3 (W6 m ρ c) (W15 m ρ c) later7 (last_h3 m ρ c) 0 main_cst _ _ rfl (by decide) (by decide)
theorem k_h3_1 (c : Dev nD) : Wf m ρ c main_v75 = (broadcastInDim S1x64 ![] bcast_S_S1x64 : (⟨S_, .f32⟩ : BufTy).Contents (Elt Ideal) → (⟨S1x64, .f32⟩ : BufTy).Contents (Elt Ideal)) (Wf m ρ c main_cst) :=
  end_unary outs_h3 (W6 m ρ c) (W15 m ρ c) later7 (last_h3 m ρ c) 1 main_cst main_v75 _ _ _ rfl (by decide) (by decide) (by decide) (by decide)
theorem k_h3_2 (c : Dev nD) : Wf m ρ c main_v76 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v74_1) (Wf m ρ c main_v75) :=
  end_binary outs_h3 (W6 m ρ c) (W15 m ρ c) later7 (last_h3 m ρ c) 2 main_v74_1 main_v75 main_v76 _ _ _ _ rfl (by decide) (by decide) (by decide) (by decide) (by decide) (by decide)
theorem k_h3_3 (c : Dev nD) : Wf m ρ c main_cst_5 = (constant (F := Ideal) S_ .f32 0x48742400#32) :=
  end_nullary outs_h3 (W6 m ρ c) (W15 m ρ c) later7 (last_h3 m ρ c) 3 main_cst_5 _ _ rfl (by decide) (by decide)
theorem k_h3_4 (c : Dev nD) : Wf m ρ c main_v77 = (broadcastInDim S1x64 ![] bcast_S_S1x64 : (⟨S_, .f32⟩ : BufTy).Contents (Elt Ideal) → (⟨S1x64, .f32⟩ : BufTy).Contents (Elt Ideal)) (Wf m ρ c main_cst_5) :=
  end_unary outs_h3 (W6 m ρ c) (W15 m ρ c) later7 (last_h3 m ρ c) 4 main_cst_5 main_v77 _ _ _ rfl (by decide) (by decide) (by decide) (by decide)
theorem k_h3_5 (c : Dev nD) : Wf m ρ c main_v78 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v74_2) (Wf m ρ c main_v77) :=
  end_binary outs_h3 (W6 m ρ c) (W15 m ρ c) later7 (last_h3 m ρ c) 5 main_v74_2 main_v77 main_v78 _ _ _ _ rfl (by decide) (by decide) (by decide) (by decide) (by decide) (by decide)
theorem k_h3_6 (c : Dev nD) : Wf m ρ c main_v79 = (mulf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v76) (Wf m ρ c main_v76) :=
  end_binary outs_h3 (W6 m ρ c) (W15 m ρ c) later7 (last_h3 m ρ c) 6 main_v76 main_v76 main_v79 _ _ _ _ rfl (by decide) (by decide) (by decide) (by decide) (by decide) (by decide)
theorem k_h3_7 (c : Dev nD) : Wf m ρ c main_v80 = (subf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v78) (Wf m ρ c main_v79) :=
  end_binary outs_h3 (W6 m ρ c) (W15 m ρ c) later7 (last_h3 m ρ c) 7 main_v78 main_v79 main_v80 _ _ _ _ rfl (by decide) (by decide) (by decide) (by decide) (by decide) (by decide)
theorem k_h3_8 (c : Dev nD) : Wf m ρ c main_v81 = ((extractStridedSlice S1x64 ![0, 0] · slices_S3x64_S1x64_0_0) : (⟨S3x64, .f32⟩ : BufTy).Contents (Elt Ideal) → (⟨S1x64, .f32⟩ : BufTy).Contents (Elt Ideal)) (Wf m ρ c main_arg7) :=
  end_unary outs_h3 (W6 m ρ c) (W15 m ρ c) later7 (last_h3 m ρ c) 8 main_arg7 main_v81 _ _ _ rfl (by decide) (by decide) (by decide) (by decide)
theorem k_h3_9 (c : Dev nD) : Wf m ρ c main_v82 = ((extractStridedSlice S1x64 ![0, 0] · slices_S3x64_S1x64_0_0) : (⟨S3x64, .f32⟩ : BufTy).Contents (Elt Ideal) → (⟨S1x64, .f32⟩ : BufTy).Contents (Elt Ideal)) (Wf m ρ c main_arg8) :=
  end_unary outs_h3 (W6 m ρ c) (W15 m ρ c) later7 (last_h3 m ρ c) 9 main_arg8 main_v82 _ _ _ rfl (by decide) (by decide) (by decide) (by decide)

theorem k_h4_0 (c : Dev nD) : Wf m ρ c main_v84 = ((fun a b => concatenate S500000 0 [⟨S250000, a⟩, ⟨S250000, b⟩] concatenates_S250000_S250000_S500000_d0) : (⟨S250000, .i32⟩ : BufTy).Contents (Elt Ideal) → (⟨S250000, .i32⟩ : BufTy).Contents (Elt Ideal) → (⟨S500000, .i32⟩ : BufTy).Contents (Elt Ideal)) (Wf m ρ c main_arg9) (Wf m ρ c main_arg10) :=
  end_binary outs_h4 (W8 m ρ c) (W15 m ρ c) later9 (last_h4 m ρ c) 0 main_arg9 main_arg10 main_v84 _ _ _ _ rfl (by decide) (by decide) (by decide) (by decide) (by decide) (by decide)
theorem k_h4_1 (c : Dev nD) : Wf m ρ c main_c_6 = (constantI S_ 32 0#32) :=
  end_nullary outs_h4 (W8 m ρ c) (W15 m ρ c) later9 (last_h4 m ρ c) 1 main_c_6 _ _ rfl (by decide) (by decide)
theorem k_h4_2 (c : Dev nD) : Wf m ρ c main_v85 = (broadcastInDim S250000 ![] bcast_S_S250000 : (⟨S_, .i32⟩ : BufTy).Contents (Elt Ideal) → (⟨S250000, .i32⟩ : BufTy).Contents (Elt Ideal)) (Wf m ρ c main_c_6) :=
  end_unary outs_h4 (W8 m ρ c) (W15 m ρ c) later9 (last_h4 m ρ c) 2 main_c_6 main_v85 _ _ _ rfl (by decide) (by decide) (by decide) (by decide)
theorem k_h4_3 (c : Dev nD) : Wf m ρ c main_v86 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg10) (Wf m ρ c main_v85) :=
  end_binary outs_h4 (W8 m ρ c) (W15 m ρ c) later9 (last_h4 m ρ c) 3 main_arg10 main_v85 main_v86 _ _ _ _ rfl (by decide) (by decide) (by decide) (by decide) (by decide) (by decide)
theorem k_h4_4 (c : Dev nD) : Wf m ρ c main_c_7 = (constantI S_ 32 250000#32) :=
  end_nullary outs_h4 (W8 m ρ c) (W15 m ρ c) later9 (last_h4 m ρ c) 4 main_c_7 _ _ rfl (by decide) (by decide)
theorem k_h4_5 (c : Dev nD) : Wf m ρ c main_v87 = (broadcastInDim S250000 ![] bcast_S_S250000 : (⟨S_, .i32⟩ : BufTy).Contents (Elt Ideal) → (⟨S250000, .i32⟩ : BufTy).Contents (Elt Ideal)) (Wf m ρ c main_c_7) :=
  end_unary outs_h4 (W8 m ρ c) (W15 m ρ c) later9 (last_h4 m ρ c) 5 main_c_7 main_v87 _ _ _ rfl (by decide) (by decide) (by decide) (by decide)
theorem k_h4_6 (c : Dev nD) : Wf m ρ c main_v88 = (addi : (⟨S250000, .i32⟩ : BufTy).Contents (Elt Ideal) → (⟨S250000, .i32⟩ : BufTy).Contents (Elt Ideal) → (⟨S250000, .i32⟩ : BufTy).Contents (Elt Ideal)) (Wf m ρ c main_arg10) (Wf m ρ c main_v87) :=
  end_binary outs_h4 (W8 m ρ c) (W15 m ρ c) later9 (last_h4 m ρ c) 6 main_arg10 main_v87 main_v88 _ _ _ _ rfl (by decide) (by decide) (by decide) (by decide) (by decide) (by decide)
theorem k_h4_7 (c : Dev nD) : Wf m ρ c main_v89 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v86) (Wf m ρ c main_v88) (Wf m ρ c main_arg10) :=
  end_ternary outs_h4 (W8 m ρ c) (W15 m ρ c) later9 (last_h4 m ρ c) 7 main_v86 main_v88 main_arg10 main_v89 _ _ _ _ _ rfl (by decide) (by decide) (by decide) (by decide) (by decide) (by decide) (by decide) (by decide)
theorem k_h4_8 (c : Dev nD) : Wf m ρ c main_v90 = (broadcastInDim S250000x1 ![0] bcast_S250000_S250000x1_0 : (⟨S250000, .i32⟩ : BufTy).Contents (Elt Ideal) → (⟨S250000x1, .i32⟩ : BufTy).Contents (Elt Ideal)) (Wf m ρ c main_v89) :=
  end_unary outs_h4 (W8 m ρ c) (W15 m ρ c) later9 (last_h4 m ρ c) 8 main_v89 main_v90 _ _ _ rfl (by decide) (by decide) (by decide) (by decide)
theorem k_h4_9 (c : Dev nD) : Wf m ρ c main_v91 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (Wf m ρ c main_v48) (Wf m ρ c main_v90) :=
  end_binary outs_h4 (W8 m ρ c) (W15 m ρ c) later9 (last_h4 m ρ c) 9 main_v48 main_v90 main_v91 _ _ _ _ rfl (by decide) (by decide) (by decide) (by decide) (by decide) (by decide)
theorem k_h4_10 (c : Dev nD) : Wf m ρ c main_c_8 = (constantI S_ 32 0#32) :=
  end_nullary outs_h4 (W8 m ρ c) (W15 m ρ c) later9 (last_h4 m ρ c) 10 main_c_8 _ _ rfl (by decide) (by decide)
theorem k_h4_11 (c : Dev nD) : Wf m ρ c main_v92 = (broadcastInDim S250000 ![] bcast_S_S250000 : (⟨S_, .i32⟩ : BufTy).Contents (Elt Ideal) → (⟨S250000, .i32⟩ : BufTy).Contents (Elt Ideal)) (Wf m ρ c main_c_8) :=
  end_unary outs_h4 (W8 m ρ c) (W15 m ρ c) later9 (last_h4 m ρ c) 11 main_c_8 main_v92 _ _ _ rfl (by decide) (by decide) (by decide) (by decide)
theorem k_h4_12 (c : Dev nD) : Wf m ρ c main_v93 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg9) (Wf m ρ c main_v92) :=
  end_binary outs_h4 (W8 m ρ c) (W15 m ρ c) later9 (last_h4 m ρ c) 12 main_arg9 main_v92 main_v93 _ _ _ _ rfl (by decide) (by decide) (by decide) (by decide) (by decide) (by decide)
theorem k_h4_13 (c : Dev nD) : Wf m ρ c main_c_9 = (constantI S_ 32 250000#32) :=
  end_nullary outs_h4 (W8 m ρ c) (W15 m ρ c) later9 (last_h4 m ρ c) 13 main_c_9 _ _ rfl (by decide) (by decide)
theorem k_h4_14 (c : Dev nD) : Wf m ρ c main_v94 = (broadcastInDim S250000 ![] bcast_S_S250000 : (⟨S_, .i32⟩ : BufTy).Contents (Elt Ideal) → (⟨S250000, .i32⟩ : BufTy).Contents (Elt Ideal)) (Wf m ρ c main_c_9) :=
  end_unary outs_h4 (W8 m ρ c) (W15 m ρ c) later9 (last_h4 m ρ c) 14 main_c_9 main_v94 _ _ _ rfl (by decide) (by decide) (by decide) (by decide)
theorem k_h4_15 (c : Dev nD) : Wf m ρ c main_v95 = (addi : (⟨S250000, .i32⟩ : BufTy).Contents (Elt Ideal) → (⟨S250000, .i32⟩ : BufTy).Contents (Elt Ideal) → (⟨S250000, .i32⟩ : BufTy).Contents (Elt Ideal)) (Wf m ρ c main_arg9) (Wf m ρ c main_v94) :=
  end_binary outs_h4 (W8 m ρ c) (W15 m ρ c) later9 (last_h4 m ρ c) 15 main_arg9 main_v94 main_v95 _ _ _ _ rfl (by decide) (by decide) (by decide) (by decide) (by decide) (by decide)
theorem k_h4_16 (c : Dev nD) : Wf m ρ c main_v96 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v93) (Wf m ρ c main_v95) (Wf m ρ c main_arg9) :=
  end_ternary outs_h4 (W8 m ρ c) (W15 m ρ c) later9 (last_h4 m ρ c) 16 main_v93 main_v95 main_arg9 main_v96 _ _ _ _ _ rfl (by decide) (by decide) (by decide) (by decide) (by decide) (by decide) (by decide) (by decide)
theorem k_h4_17 (c : Dev nD) : Wf m ρ c main_v97 = (broadcastInDim S250000x1 ![0] bcast_S250000_S250000x1_0 : (⟨S250000, .i32⟩ : BufTy).Contents (Elt Ideal) → (⟨S250000x1, .i32⟩ : BufTy).Contents (Elt Ideal)) (Wf m ρ c main_v96) :=
  end_unary outs_h4 (W8 m ρ c) (W15 m ρ c) later9 (last_h4 m ρ c) 17 main_v96 main_v97 _ _ _ rfl (by decide) (by decide) (by decide) (by decide)
theorem k_h4_18 (c : Dev nD) : Wf m ρ c main_v98 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (Wf m ρ c main_v48) (Wf m ρ c main_v97) :=
  end_binary outs_h4 (W8 m ρ c) (W15 m ρ c) later9 (last_h4 m ρ c) 18 main_v48 main_v97 main_v98 _ _ _ _ rfl (by decide) (by decide) (by decide) (by decide) (by decide) (by decide)
theorem k_h4_19 (c : Dev nD) : Wf m ρ c main_v99 = ((fun a b => concatenate S500000x64 0 [⟨S250000x64, a⟩, ⟨S250000x64, b⟩] concatenates_S250000x64_S250000x64_S500000x64_d0) : (⟨S250000x64, .f32⟩ : BufTy).Contents (Elt Ideal) → (⟨S250000x64, .f32⟩ : BufTy).Contents (Elt Ideal) → (⟨S500000x64, .f32⟩ : BufTy).Contents (Elt Ideal)) (Wf m ρ c main_v91) (Wf m ρ c main_v98) :=
  end_binary outs_h4 (W8 m ρ c) (W15 m ρ c) later9 (last_h4 m ρ c) 19 main_v91 main_v98 main_v99 _ _ _ _ rfl (by decide) (by decide) (by decide) (by decide) (by decide) (by decide)
theorem k_h4_20 (c : Dev nD) : Wf m ρ c main_v100 = ((fun a b => concatenate S500000x64 0 [⟨S250000x64, a⟩, ⟨S250000x64, b⟩] concatenates_S250000x64_S250000x64_S500000x64_d0) : (⟨S250000x64, .f32⟩ : BufTy).Contents (Elt Ideal) → (⟨S250000x64, .f32⟩ : BufTy).Contents (Elt Ideal) → (⟨S500000x64, .f32⟩ : BufTy).Contents (Elt Ideal)) (Wf m ρ c main_v83_1) (Wf m ρ c main_v83_1) :=
  end_binary outs_h4 (W8 m ρ c) (W15 m ρ c) later9 (last_h4 m ρ c) 20 main_v83_1 main_v83_1 main_v100 _ _ _ _ rfl (by decide) (by decide) (by decide) (by decide) (by decide) (by decide)
theorem k_h4_21 (c : Dev nD) : Wf m ρ c main_v101 = (mulf (F := Ideal) (φ := .f32) : (⟨S500000x64, .f32⟩ : BufTy).Contents (Elt Ideal) → (⟨S500000x64, .f32⟩ : BufTy).Contents (Elt Ideal) → (⟨S500000x64, .f32⟩ : BufTy).Contents (Elt Ideal)) (Wf m ρ c main_v100) (Wf m ρ c main_v99) :=
  end_binary outs_h4 (W8 m ρ c) (W15 m ρ c) later9 (last_h4 m ρ c) 21 main_v100 main_v99 main_v101 _ _ _ _ rfl (by decide) (by decide) (by decide) (by decide) (by decide) (by decide)
theorem k_h4_22 (c : Dev nD) : Wf m ρ c main_cst_10 = (constant (F := Ideal) S_ .f32 0x00000000#32) :=
  end_nullary outs_h4 (W8 m ρ c) (W15 m ρ c) later9 (last_h4 m ρ c) 22 main_cst_10 _ _ rfl (by decide) (by decide)
theorem k_h4_23 (c : Dev nD) : Wf m ρ c main_v102 = (broadcastInDim S250000x64 ![] bcast_S_S250000x64 : (⟨S_, .f32⟩ : BufTy).Contents (Elt Ideal) → (⟨S250000x64, .f32⟩ : BufTy).Contents (Elt Ideal)) (Wf m ρ c main_cst_10) :=
  end_unary outs_h4 (W8 m ρ c) (W15 m ρ c) later9 (last_h4 m ρ c) 23 main_cst_10 main_v102 _ _ _ rfl (by decide) (by decide) (by decide) (by decide)
theorem k_h4_24 (c : Dev nD) : Wf m ρ c main_v103 = (broadcastInDim S500000x1 ![0] bcast_S500000_S500000x1_0 : (⟨S500000, .i32⟩ : BufTy).Contents (Elt Ideal) → (⟨S500000x1, .i32⟩ : BufTy).Contents (Elt Ideal)) (Wf m ρ c main_v84) :=
  end_unary outs_h4 (W8 m ρ c) (W15 m ρ c) later9 (last_h4 m ρ c) 24 main_v84 main_v103 _ _ _ rfl (by decide) (by decide) (by decide) (by decide)
theorem k_h4_25 (c : Dev nD) : Wf m ρ c main_v104 = ((fun x i u => Host.scatterAdd (F := Ideal) (φ := .f32) scatter_S250000x64_S500000x1_S500000x64_1_0_0_1 x i u) : (⟨S250000x64, .f32⟩ : BufTy).Contents (Elt Ideal) → (⟨S500000x1, .i32⟩ : BufTy).Contents (Elt Ideal) → (⟨S500000x64, .f32⟩ : BufTy).Contents (Elt Ideal) → (⟨S250000x64, .f32⟩ : BufTy).Contents (Elt Ideal)) (Wf m ρ c main_v102) (Wf m ρ c main_v103) (Wf m ρ c main_v101) :=
  end_ternary outs_h4 (W8 m ρ c) (W15 m ρ c) later9 (last_h4 m ρ c) 25 main_v102 main_v103 main_v101 main_v104 _ _ _ _ _ rfl (by decide) (by decide) (by decide) (by decide) (by decide) (by decide) (by decide) (by decide)
theorem k_h4_26 (c : Dev nD) : Wf m ρ c main_cst_11 = (constant (F := Ideal) S_ .f32 0x00000000#32) :=
  end_nullary outs_h4 (W8 m ρ c) (W15 m ρ c) later9 (last_h4 m ρ c) 26 main_cst_11 _ _ rfl (by decide) (by decide)
theorem k_h4_27 (c : Dev nD) : Wf m ρ c main_v105 = (broadcastInDim S250000x64 ![] bcast_S_S250000x64 : (⟨S_, .f32⟩ : BufTy).Contents (Elt Ideal) → (⟨S250000x64, .f32⟩ : BufTy).Contents (Elt Ideal)) (Wf m ρ c main_cst_11) :=
  end_unary outs_h4 (W8 m ρ c) (W15 m ρ c) later9 (last_h4 m ρ c) 27 main_cst_11 main_v105 _ _ _ rfl (by decide) (by decide) (by decide) (by decide)
theorem k_h4_28 (c : Dev nD) : Wf m ρ c main_v106 = (broadcastInDim S500000x1 ![0] bcast_S500000_S500000x1_0 : (⟨S500000, .i32⟩ : BufTy).Contents (Elt Ideal) → (⟨S500000x1, .i32⟩ : BufTy).Contents (Elt Ideal)) (Wf m ρ c main_v84) :=
  end_unary outs_h4 (W8 m ρ c) (W15 m ρ c) later9 (last_h4 m ρ c) 28 main_v84 main_v106 _ _ _ rfl (by decide) (by decide) (by decide) (by decide)
theorem k_h4_29 (c : Dev nD) : Wf m ρ c main_v107 = ((fun x i u => Host.scatterAdd (F := Ideal) (φ := .f32) scatter_S250000x64_S500000x1_S500000x64_1_0_0_1 x i u) : (⟨S250000x64, .f32⟩ : BufTy).Contents (Elt Ideal) → (⟨S500000x1, .i32⟩ : BufTy).Contents (Elt Ideal) → (⟨S500000x64, .f32⟩ : BufTy).Contents (Elt Ideal) → (⟨S250000x64, .f32⟩ : BufTy).Contents (Elt Ideal)) (Wf m ρ c main_v105) (Wf m ρ c main_v106) (Wf m ρ c main_v100) :=
  end_ternary outs_h4 (W8 m ρ c) (W15 m ρ c) later9 (last_h4 m ρ c) 29 main_v105 main_v106 main_v100 main_v107 _ _ _ _ _ rfl (by decide) (by decide) (by decide) (by decide) (by decide) (by decide) (by decide) (by decide)
theorem k_h4_30 (c : Dev nD) : Wf m ρ c main_cst_12 = (constant (F := Ideal) S_ .f32 0x358637BD#32) :=
  end_nullary outs_h4 (W8 m ρ c) (W15 m ρ c) later9 (last_h4 m ρ c) 30 main_cst_12 _ _ rfl (by decide) (by decide)
theorem k_h4_31 (c : Dev nD) : Wf m ρ c main_v108 = (broadcastInDim S250000x64 ![] bcast_S_S250000x64 : (⟨S_, .f32⟩ : BufTy).Contents (Elt Ideal) → (⟨S250000x64, .f32⟩ : BufTy).Contents (Elt Ideal)) (Wf m ρ c main_cst_12) :=
  end_unary outs_h4 (W8 m ρ c) (W15 m ρ c) later9 (last_h4 m ρ c) 31 main_cst_12 main_v108 _ _ _ rfl (by decide) (by decide) (by decide) (by decide)
theorem k_h4_32 (c : Dev nD) : Wf m ρ c main_v109 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (Wf m ρ c main_v107) (Wf m ρ c main_v108) :=
  end_binary outs_h4 (W8 m ρ c) (W15 m ρ c) later9 (last_h4 m ρ c) 32 main_v107 main_v108 main_v109 _ _ _ _ rfl (by decide) (by decide) (by decide) (by decide) (by decide) (by decide)
theorem k_h4_33 (c : Dev nD) : Wf m ρ c main_c_13 = (constantI S_ 32 0#32) :=
  end_nullary outs_h4 (W8 m ρ c) (W15 m ρ c) later9 (last_h4 m ρ c) 33 main_c_13 _ _ rfl (by decide) (by decide)
theorem k_h4_34 (c : Dev nD) : Wf m ρ c main_v110 = (broadcastInDim S250000 ![] bcast_S_S250000 : (⟨S_, .i32⟩ : BufTy).Contents (Elt Ideal) → (⟨S250000, .i32⟩ : BufTy).Contents (Elt Ideal)) (Wf m ρ c main_c_13) :=
  end_unary outs_h4 (W8 m ρ c) (W15 m ρ c) later9 (last_h4 m ρ c) 34 main_c_13 main_v110 _ _ _ rfl (by decide) (by decide) (by decide) (by decide)
theorem k_h4_35 (c : Dev nD) : Wf m ρ c main_v111 = (cmpi .slt : (⟨S250000, .i32⟩ : BufTy).Contents (Elt Ideal) → (⟨S250000, .i32⟩ : BufTy).Contents (Elt Ideal) → (⟨S250000, .i1⟩ : BufTy).Contents (Elt Ideal)) (Wf m ρ c main_arg11) (Wf m ρ c main_v110) :=
  end_binary outs_h4 (W8 m ρ c) (W15 m ρ c) later9 (last_h4 m ρ c) 35 main_arg11 main_v110 main_v111 _ _ _ _ rfl (by decide) (by decide) (by decide) (by decide) (by decide) (by decide)
theorem k_h4_36 (c : Dev nD) : Wf m ρ c main_c_14 = (constantI S_ 32 10000#32) :=
  end_nullary outs_h4 (W8 m ρ c) (W15 m ρ c) later9 (last_h4 m ρ c) 36 main_c_14 _ _ rfl (by decide) (by decide)
theorem k_h4_37 (c : Dev nD) : Wf m ρ c main_v112 = (broadcastInDim S250000 ![] bcast_S_S250000 : (⟨S_, .i32⟩ : BufTy).Contents (Elt Ideal) → (⟨S250000, .i32⟩ : BufTy).Contents (Elt Ideal)) (Wf m ρ c main_c_14) :=
  end_unary outs_h4 (W8 m ρ c) (W15 m ρ c) later9 (last_h4 m ρ c) 37 main_c_14 main_v112 _ _ _ rfl (by decide) (by decide) (by decide) (by decide)
theorem k_h4_38 (c : Dev nD) : Wf m ρ c main_v113 = (addi : (⟨S250000, .i32⟩ : BufTy).Contents (Elt Ideal) → (⟨S250000, .i32⟩ : BufTy).Contents (Elt Ideal) → (⟨S250000, .i32⟩ : BufTy).Contents (Elt Ideal)) (Wf m ρ c main_arg11) (Wf m ρ c main_v112) :=
  end_binary outs_h4 (W8 m ρ c) (W15 m ρ c) later9 (last_h4 m ρ c) 38 main_arg11 main_v112 main_v113 _ _ _ _ rfl (by decide) (by decide) (by decide) (by decide) (by decide) (by decide)
theorem k_h4_39 (c : Dev nD) : Wf m ρ c main_v114 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (Wf m ρ c main_v111) (Wf m ρ c main_v113) (Wf m ρ c main_arg11) :=
  end_ternary outs_h4 (W8 m ρ c) (W15 m ρ c) later9 (last_h4 m ρ c) 39 main_v111 main_v113 main_arg11 main_v114 _ _ _ _ _ rfl (by decide) (by decide) (by decide) (by decide) (by decide) (by decide) (by decide) (by decide)
theorem k_h4_40 (c : Dev nD) : Wf m ρ c main_v115 = (broadcastInDim S250000x1 ![0] bcast_S250000_S250000x1_0 : (⟨S250000, .i32⟩ : BufTy).Contents (Elt Ideal) → (⟨S250000x1, .i32⟩ : BufTy).Contents (Elt Ideal)) (Wf m ρ c main_v114) :=
  end_unary outs_h4 (W8 m ρ c) (W15 m ρ c) later9 (last_h4 m ρ c) 40 main_v114 main_v115 _ _ _ rfl (by decide) (by decide) (by decide) (by decide)
theorem k_h4_41 (c : Dev nD) : Wf m ρ c main_v116 = ((fun x i => Host.gather gather_S10000x64_S250000x1_S250000x64_1_0_n_n_0_1_164 x i) : (⟨S10000x64, .f32⟩ : BufTy).Contents (Elt Ideal) → (⟨S250000x1, .i32⟩ : BufTy).Contents (Elt Ideal) → (⟨S250000x64, .f32⟩ : BufTy).Contents (Elt Ideal)) (Wf m ρ c main_v51) (Wf m ρ c main_v115) :=
  end_binary outs_h4 (W8 m ρ c) (W15 m ρ c) later9 (last_h4 m ρ c) 41 main_v51 main_v115 main_v116 _ _ _ _ rfl (by decide) (by decide) (by decide) (by decide) (by decide) (by decide)

theorem k_h5_0 (c : Dev nD) : Wf m ρ c main_cst_15 = (constant (F := Ideal) S_ .f32 0x48742400#32) :=
  end_nullary outs_h5 (W10 m ρ c) (W15 m ρ c) later11 (last_h5 m ρ c) 0 main_cst_15 _ _ rfl (by decide) (by decide)
theorem k_h5_1 (c : Dev nD) : Wf m ρ c main_v118 = (broadcastInDim S1x64 ![] bcast_S_S1x64 : (⟨S_, .f32⟩ : BufTy).Contents (Elt Ideal) → (⟨S1x64, .f32⟩ : BufTy).Contents (Elt Ideal)) (Wf m ρ c main_cst_15) :=
  end_unary outs_h5 (W10 m ρ c) (W15 m ρ c) later11 (last_h5 m ρ c) 1 main_cst_15 main_v118 _ _ _ rfl (by decide) (by decide) (by decide) (by decide)
theorem k_h5_2 (c : Dev nD) : Wf m ρ c main_v119 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v117_1) (Wf m ρ c main_v118) :=
  end_binary outs_h5 (W10 m ρ c) (W15 m ρ c) later11 (last_h5 m ρ c) 2 main_v117_1 main_v118 main_v119 _ _ _ _ rfl (by decide) (by decide) (by decide) (by decide) (by decide) (by decide)
theorem k_h5_3 (c : Dev nD) : Wf m ρ c main_cst_16 = (constant (F := Ideal) S_ .f32 0x48742400#32) :=
  end_nullary outs_h5 (W10 m ρ c) (W15 m ρ c) later11 (last_h5 m ρ c) 3 main_cst_16 _ _ rfl (by decide) (by decide)
theorem k_h5_4 (c : Dev nD) : Wf m ρ c main_v120 = (broadcastInDim S1x64 ![] bcast_S_S1x64 : (⟨S_, .f32⟩ : BufTy).Contents (Elt Ideal) → (⟨S1x64, .f32⟩ : BufTy).Contents (Elt Ideal)) (Wf m ρ c main_cst_16) :=
  end_unary outs_h5 (W10 m ρ c) (W15 m ρ c) later11 (last_h5 m ρ c) 4 main_cst_16 main_v120 _ _ _ rfl (by decide) (by decide) (by decide) (by decide)
theorem k_h5_5 (c : Dev nD) : Wf m ρ c main_v121 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v117_2) (Wf m ρ c main_v120) :=
  end_binary outs_h5 (W10 m ρ c) (W15 m ρ c) later11 (last_h5 m ρ c) 5 main_v117_2 main_v120 main_v121 _ _ _ _ rfl (by decide) (by decide) (by decide) (by decide) (by decide) (by decide)
theorem k_h5_6 (c : Dev nD) : Wf m ρ c main_v122 = (mulf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v119) (Wf m ρ c main_v119) :=
  end_binary outs_h5 (W10 m ρ c) (W15 m ρ c) later11 (last_h5 m ρ c) 6 main_v119 main_v119 main_v122 _ _ _ _ rfl (by decide) (by decide) (by decide) (by decide) (by decide) (by decide)
theorem k_h5_7 (c : Dev nD) : Wf m ρ c main_v123 = (subf (F := Ideal) (φ := .f32) : (⟨S1x64, .f32⟩ : BufTy).Contents (Elt Ideal) → (⟨S1x64, .f32⟩ : BufTy).Contents (Elt Ideal) → (⟨S1x64, .f32⟩ : BufTy).Contents (Elt Ideal)) (Wf m ρ c main_v121) (Wf m ρ c main_v122) :=
  end_binary outs_h5 (W10 m ρ c) (W15 m ρ c) later11 (last_h5 m ρ c) 7 main_v121 main_v122 main_v123 _ _ _ _ rfl (by decide) (by decide) (by decide) (by decide) (by decide) (by decide)
theorem k_h5_8 (c : Dev nD) : Wf m ρ c main_v124 = ((extractStridedSlice S1x64 ![1, 0] · slices_S3x64_S1x64_1_0) : (⟨S3x64, .f32⟩ : BufTy).Contents (Elt Ideal) → (⟨S1x64, .f32⟩ : BufTy).Contents (Elt Ideal)) (Wf m ρ c main_arg7) :=
  end_unary outs_h5 (W10 m ρ c) (W15 m ρ c) later11 (last_h5 m ρ c) 8 main_arg7 main_v124 _ _ _ rfl (by decide) (by decide) (by decide) (by decide)
theorem k_h5_9 (c : Dev nD) : Wf m ρ c main_v125 = ((extractStridedSlice S1x64 ![1, 0] · slices_S3x64_S1x64_1_0) : (⟨S3x64, .f32⟩ : BufTy).Contents (Elt Ideal) → (⟨S1x64, .f32⟩ : BufTy).Contents (Elt Ideal)) (Wf m ρ c main_arg8) :=
  end_unary outs_h5 (W10 m ρ c) (W15 m ρ c) later11 (last_h5 m ρ c) 9 main_arg8 main_v125 _ _ _ rfl (by decide) (by decide) (by decide) (by decide)

theorem k_h7_0 (c : Dev nD) : Wf m ρ c main_cst_17 = (constant (F := Ideal) S_ .f32 0x3F800000#32) :=
  end_nullary outs_h7 (W13 m ρ c) (W15 m ρ c) later14 (last_h7 m ρ c) 0 main_cst_17 _ _ rfl (by decide) (by decide)
theorem k_h7_1 (c : Dev nD) : Wf m ρ c main_v128 = (broadcastInDim S250000x1 ![] bcast_S_S250000x1 : (⟨S_, .f32⟩ : BufTy).Contents (Elt Ideal) → (⟨S250000x1, .f32⟩ : BufTy).Contents (Elt Ideal)) (Wf m ρ c main_cst_17) :=
  end_unary outs_h7 (W13 m ρ c) (W15 m ρ c) later14 (last_h7 m ρ c) 1 main_cst_17 main_v128 _ _ _ rfl (by decide) (by decide) (by decide) (by decide)
theorem k_h7_2 (c : Dev nD) : Wf m ρ c main_cst_18 = (constant (F := Ideal) S_ .f32 0x00000000#32) :=
  end_nullary outs_h7 (W13 m ρ c) (W15 m ρ c) later14 (last_h7 m ρ c) 2 main_cst_18 _ _ rfl (by decide) (by decide)
theorem k_h7_3 (c : Dev nD) : Wf m ρ c main_v129 = (broadcastInDim S10000x1 ![] bcast_S_S10000x1 : (⟨S_, .f32⟩ : BufTy).Contents (Elt Ideal) → (⟨S10000x1, .f32⟩ : BufTy).Contents (Elt Ideal)) (Wf m ρ c main_cst_18) :=
  end_unary outs_h7 (W13 m ρ c) (W15 m ρ c) later14 (last_h7 m ρ c) 3 main_cst_18 main_v129 _ _ _ rfl (by decide) (by decide) (by decide) (by decide)
theorem k_h7_4 (c : Dev nD) : Wf m ρ c main_v130 = (broadcastInDim S250000x1 ![0] bcast_S250000_S250000x1_0 : (⟨S250000, .i32⟩ : BufTy).Contents (Elt Ideal) → (⟨S250000x1, .i32⟩ : BufTy).Contents (Elt Ideal)) (Wf m ρ c main_arg11) :=
  end_unary outs_h7 (W13 m ρ c) (W15 m ρ c) later14 (last_h7 m ρ c) 4 main_arg11 main_v130 _ _ _ rfl (by decide) (by decide) (by decide) (by decide)
theorem k_h7_5 (c : Dev nD) : Wf m ρ c main_v131 = ((fun x i u => Host.scatterAdd (F := Ideal) (φ := .f32) scatter_S10000x1_S250000x1_S250000x1_1_0_0_1 x i u) : (⟨S10000x1, .f32⟩ : BufTy).Contents (Elt Ideal) → (⟨S250000x1, .i32⟩ : BufTy).Contents (Elt Ideal) → (⟨S250000x1, .f32⟩ : BufTy).Contents (Elt Ideal) → (⟨S10000x1, .f32⟩ : BufTy).Contents (Elt Ideal)) (Wf m ρ c main_v129) (Wf m ρ c main_v130) (Wf m ρ c main_v128) :=
  end_ternary outs_h7 (W13 m ρ c) (W15 m ρ c) later14 (last_h7 m ρ c) 5 main_v129 main_v130 main_v128 main_v131 _ _ _ _ _ rfl (by decide) (by decide) (by decide) (by decide) (by decide) (by decide) (by decide) (by decide)
theorem k_h7_6 (c : Dev nD) : Wf m ρ c main_cst_19 = (constant (F := Ideal) S_ .f32 0x3F800000#32) :=
  end_nullary outs_h7 (W13 m ρ c) (W15 m ρ c) later14 (last_h7 m ρ c) 6 main_cst_19 _ _ rfl (by decide) (by decide)
theorem k_h7_7 (c : Dev nD) : Wf m ρ c main_v132 = (broadcastInDim S250000x1 ![] bcast_S_S250000x1 : (⟨S_, .f32⟩ : BufTy).Contents (Elt Ideal) → (⟨S250000x1, .f32⟩ : BufTy).Contents (Elt Ideal)) (Wf m ρ c main_cst_19) :=
  end_unary outs_h7 (W13 m ρ c) (W15 m ρ c) later14 (last_h7 m ρ c) 7 main_cst_19 main_v132 _ _ _ rfl (by decide) (by decide) (by decide) (by decide)
theorem k_h7_8 (c : Dev nD) : Wf m ρ c main_cst_20 = (constant (F := Ideal) S_ .f32 0x00000000#32) :=
  end_nullary outs_h7 (W13 m ρ c) (W15 m ρ c) later14 (last_h7 m ρ c) 8 main_cst_20 _ _ rfl (by decide) (by decide)
theorem k_h7_9 (c : Dev nD) : Wf m ρ c main_v133 = (broadcastInDim S10000x1 ![] bcast_S_S10000x1 : (⟨S_, .f32⟩ : BufTy).Contents (Elt Ideal) → (⟨S10000x1, .f32⟩ : BufTy).Contents (Elt Ideal)) (Wf m ρ c main_cst_20) :=
  end_unary outs_h7 (W13 m ρ c) (W15 m ρ c) later14 (last_h7 m ρ c) 9 main_cst_20 main_v133 _ _ _ rfl (by decide) (by decide) (by decide) (by decide)
theorem k_h7_10 (c : Dev nD) : Wf m ρ c main_v134 = (broadcastInDim S250000x1 ![0] bcast_S250000_S250000x1_0 : (⟨S250000, .i32⟩ : BufTy).Contents (Elt Ideal) → (⟨S250000x1, .i32⟩ : BufTy).Contents (Elt Ideal)) (Wf m ρ c main_arg12) :=
  end_unary outs_h7 (W13 m ρ c) (W15 m ρ c) later14 (last_h7 m ρ c) 10 main_arg12 main_v134 _ _ _ rfl (by decide) (by decide) (by decide) (by decide)
theorem k_h7_11 (c : Dev nD) : Wf m ρ c main_v135 = ((fun x i u => Host.scatterAdd (F := Ideal) (φ := .f32) scatter_S10000x1_S250000x1_S250000x1_1_0_0_1 x i u) : (⟨S10000x1, .f32⟩ : BufTy).Contents (Elt Ideal) → (⟨S250000x1, .i32⟩ : BufTy).Contents (Elt Ideal) → (⟨S250000x1, .f32⟩ : BufTy).Contents (Elt Ideal) → (⟨S10000x1, .f32⟩ : BufTy).Contents (Elt Ideal)) (Wf m ρ c main_v133) (Wf m ρ c main_v134) (Wf m ρ c main_v132) :=
  end_ternary outs_h7 (W13 m ρ c) (W15 m ρ c) later14 (last_h7 m ρ c) 11 main_v133 main_v134 main_v132 main_v135 _ _ _ _ _ rfl (by decide) (by decide) (by decide) (by decide) (by decide) (by decide) (by decide) (by decide)
theorem k_h7_12 (c : Dev nD) : Wf m ρ c main_cst_21 = (constant (F := Ideal) S_ .f32 0x00000000#32) :=
  end_nullary outs_h7 (W13 m ρ c) (W15 m ρ c) later14 (last_h7 m ρ c) 12 main_cst_21 _ _ rfl (by decide) (by decide)
theorem k_h7_13 (c : Dev nD) : Wf m ρ c main_v136 = (broadcastInDim S10000x64 ![] bcast_S_S10000x64 : (⟨S_, .f32⟩ : BufTy).Contents (Elt Ideal) → (⟨S10000x64, .f32⟩ : BufTy).Contents (Elt Ideal)) (Wf m ρ c main_cst_21) :=
  end_unary outs_h7 (W13 m ρ c) (W15 m ρ c) later14 (last_h7 m ρ c) 13 main_cst_21 main_v136 _ _ _ rfl (by decide) (by decide) (by decide) (by decide)
theorem k_h7_14 (c : Dev nD) : Wf m ρ c main_v137 = (broadcastInDim S250000x1 ![0] bcast_S250000_S250000x1_0 : (⟨S250000, .i32⟩ : BufTy).Contents (Elt Ideal) → (⟨S250000x1, .i32⟩ : BufTy).Contents (Elt Ideal)) (Wf m ρ c main_arg11) :=
  end_unary outs_h7 (W13 m ρ c) (W15 m ρ c) later14 (last_h7 m ρ c) 14 main_arg11 main_v137 _ _ _ rfl (by decide) (by decide) (by decide) (by decide)
theorem k_h7_15 (c : Dev nD) : Wf m ρ c main_v138 = ((fun x i u => Host.scatterAdd (F := Ideal) (φ := .f32) scatter_S10000x64_S250000x1_S250000x64_1_0_0_1 x i u) : (⟨S10000x64, .f32⟩ : BufTy).Contents (Elt Ideal) → (⟨S250000x1, .i32⟩ : BufTy).Contents (Elt Ideal) → (⟨S250000x64, .f32⟩ : BufTy).Contents (Elt Ideal) → (⟨S10000x64, .f32⟩ : BufTy).Contents (Elt Ideal)) (Wf m ρ c main_v136) (Wf m ρ c main_v137) (Wf m ρ c main_v127_0) :=
  end_ternary outs_h7 (W13 m ρ c) (W15 m ρ c) later14 (last_h7 m ρ c) 15 main_v136 main_v137 main_v127_0 main_v138 _ _ _ _ _ rfl (by decide) (by decide) (by decide) (by decide) (by decide) (by decide) (by decide) (by decide)
theorem k_h7_16 (c : Dev nD) : Wf m ρ c main_cst_22 = (constant (F := Ideal) S_ .f32 0x3F800000#32) :=
  end_nullary outs_h7 (W13 m ρ c) (W15 m ρ c) later14 (last_h7 m ρ c) 16 main_cst_22 _ _ rfl (by decide) (by decide)
theorem k_h7_17 (c : Dev nD) : Wf m ρ c main_v139 = (broadcastInDim S10000x1 ![] bcast_S_S10000x1 : (⟨S_, .f32⟩ : BufTy).Contents (Elt Ideal) → (⟨S10000x1, .f32⟩ : BufTy).Contents (Elt Ideal)) (Wf m ρ c main_cst_22) :=
  end_unary outs_h7 (W13 m ρ c) (W15 m ρ c) later14 (last_h7 m ρ c) 17 main_cst_22 main_v139 _ _ _ rfl (by decide) (by decide) (by decide) (by decide)
theorem k_h7_18 (c : Dev nD) : Wf m ρ c main_v140 = (maximumf (F := Ideal) (φ := .f32) : (⟨S10000x1, .f32⟩ : BufTy).Contents (Elt Ideal) → (⟨S10000x1, .f32⟩ : BufTy).Contents (Elt Ideal) → (⟨S10000x1, .f32⟩ : BufTy).Contents (Elt Ideal)) (Wf m ρ c main_v131) (Wf m ρ c main_v139) :=
  end_binary outs_h7 (W13 m ρ c) (W15 m ρ c) later14 (last_h7 m ρ c) 18 main_v131 main_v139 main_v140 _ _ _ _ rfl (by decide) (by decide) (by decide) (by decide) (by decide) (by decide)
theorem k_h7_19 (c : Dev nD) : Wf m ρ c main_v141 = (broadcastInDim S10000x64 ![0, 1] bcast_S10000x1_S10000x64_0_1 : (⟨S10000x1, .f32⟩ : BufTy).Contents (Elt Ideal) → (⟨S10000x64, .f32⟩ : BufTy).Contents (Elt Ideal)) (Wf m ρ c main_v140) :=
  end_unary outs_h7 (W13 m ρ c) (W15 m ρ c) later14 (last_h7 m ρ c) 19 main_v140 main_v141 _ _ _ rfl (by decide) (by decide) (by decide) (by decide)
theorem k_h7_20 (c : Dev nD) : Wf m ρ c main_v142 = (Host.divf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (Wf m ρ c main_v138) (Wf m ρ c main_v141) :=
  end_binary outs_h7 (W13 m ρ c) (W15 m ρ c) later14 (last_h7 m ρ c) 20 main_v138 main_v141 main_v142 _ _ _ _ rfl (by decide) (by decide) (by decide) (by decide) (by decide) (by decide)
theorem k_h7_21 (c : Dev nD) : Wf m ρ c main_cst_23 = (constant (F := Ideal) S_ .f32 0x00000000#32) :=
  end_nullary outs_h7 (W13 m ρ c) (W15 m ρ c) later14 (last_h7 m ρ c) 21 main_cst_23 _ _ rfl (by decide) (by decide)
theorem k_h7_22 (c : Dev nD) : Wf m ρ c main_v143 = (broadcastInDim S10000x64 ![] bcast_S_S10000x64 : (⟨S_, .f32⟩ : BufTy).Contents (Elt Ideal) → (⟨S10000x64, .f32⟩ : BufTy).Contents (Elt Ideal)) (Wf m ρ c main_cst_23) :=
  end_unary outs_h7 (W13 m ρ c) (W15 m ρ c) later14 (last_h7 m ρ c) 22 main_cst_23 main_v143 _ _ _ rfl (by decide) (by decide) (by decide) (by decide)
theorem k_h7_23 (c : Dev nD) : Wf m ρ c main_v144 = (broadcastInDim S250000x1 ![0] bcast_S250000_S250000x1_0 : (⟨S250000, .i32⟩ : BufTy).Contents (Elt Ideal) → (⟨S250000x1, .i32⟩ : BufTy).Contents (Elt Ideal)) (Wf m ρ c main_arg12) :=
  end_unary outs_h7 (W13 m ρ c) (W15 m ρ c) later14 (last_h7 m ρ c) 23 main_arg12 main_v144 _ _ _ rfl (by decide) (by decide) (by decide) (by decide)
theorem k_h7_24 (c : Dev nD) : Wf m ρ c main_v145 = ((fun x i u => Host.scatterAdd (F := Ideal) (φ := .f32) scatter_S10000x64_S250000x1_S250000x64_1_0_0_1 x i u) : (⟨S10000x64, .f32⟩ : BufTy).Contents (Elt Ideal) → (⟨S250000x1, .i32⟩ : BufTy).Contents (Elt Ideal) → (⟨S250000x64, .f32⟩ : BufTy).Contents (Elt Ideal) → (⟨S10000x64, .f32⟩ : BufTy).Contents (Elt Ideal)) (Wf m ρ c main_v143) (Wf m ρ c main_v144) (Wf m ρ c main_v127_1) :=
  end_ternary outs_h7 (W13 m ρ c) (W15 m ρ c) later14 (last_h7 m ρ c) 24 main_v143 main_v144 main_v127_1 main_v145 _ _ _ _ _ rfl (by decide) (by decide) (by decide) (by decide) (by decide) (by decide) (by decide) (by decide)
theorem k_h7_25 (c : Dev nD) : Wf m ρ c main_cst_24 = (constant (F := Ideal) S_ .f32 0x3F800000#32) :=
  end_nullary outs_h7 (W13 m ρ c) (W15 m ρ c) later14 (last_h7 m ρ c) 25 main_cst_24 _ _ rfl (by decide) (by decide)
theorem k_h7_26 (c : Dev nD) : Wf m ρ c main_v146 = (broadcastInDim S10000x1 ![] bcast_S_S10000x1 : (⟨S_, .f32⟩ : BufTy).Contents (Elt Ideal) → (⟨S10000x1, .f32⟩ : BufTy).Contents (Elt Ideal)) (Wf m ρ c main_cst_24) :=
  end_unary outs_h7 (W13 m ρ c) (W15 m ρ c) later14 (last_h7 m ρ c) 26 main_cst_24 main_v146 _ _ _ rfl (by decide) (by decide) (by decide) (by decide)
theorem k_h7_27 (c : Dev nD) : Wf m ρ c main_v147 = (maximumf (F := Ideal) (φ := .f32) : (⟨S10000x1, .f32⟩ : BufTy).Contents (Elt Ideal) → (⟨S10000x1, .f32⟩ : BufTy).Contents (Elt Ideal) → (⟨S10000x1, .f32⟩ : BufTy).Contents (Elt Ideal)) (Wf m ρ c main_v135) (Wf m ρ c main_v146) :=
  end_binary outs_h7 (W13 m ρ c) (W15 m ρ c) later14 (last_h7 m ρ c) 27 main_v135 main_v146 main_v147 _ _ _ _ rfl (by decide) (by decide) (by decide) (by decide) (by decide) (by decide)
theorem k_h7_28 (c : Dev nD) : Wf m ρ c main_v148 = (broadcastInDim S10000x64 ![0, 1] bcast_S10000x1_S10000x64_0_1 : (⟨S10000x1, .f32⟩ : BufTy).Contents (Elt Ideal) → (⟨S10000x64, .f32⟩ : BufTy).Contents (Elt Ideal)) (Wf m ρ c main_v147) :=
  end_unary outs_h7 (W13 m ρ c) (W15 m ρ c) later14 (last_h7 m ρ c) 28 main_v147 main_v148 _ _ _ rfl (by decide) (by decide) (by decide) (by decide)
theorem k_h7_29 (c : Dev nD) : Wf m ρ c main_v149 = (Host.divf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (Wf m ρ c main_v145) (Wf m ρ c main_v148) :=
  end_binary outs_h7 (W13 m ρ c) (W15 m ρ c) later14 (last_h7 m ρ c) 29 main_v145 main_v148 main_v149 _ _ _ _ rfl (by decide) (by decide) (by decide) (by decide) (by decide) (by decide)
theorem k_h7_30 (c : Dev nD) : Wf m ρ c main_v150 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (Wf m ρ c main_v142) (Wf m ρ c main_v149) :=
  end_binary outs_h7 (W13 m ρ c) (W15 m ρ c) later14 (last_h7 m ρ c) 30 main_v142 main_v149 main_v150 _ _ _ _ rfl (by decide) (by decide) (by decide) (by decide) (by decide) (by decide)
theorem k_h7_31 (c : Dev nD) : Wf m ρ c main_v151 = ((extractStridedSlice S1x64 ![2, 0] · slices_S3x64_S1x64_2_0) : (⟨S3x64, .f32⟩ : BufTy).Contents (Elt Ideal) → (⟨S1x64, .f32⟩ : BufTy).Contents (Elt Ideal)) (Wf m ρ c main_arg7) :=
  end_unary outs_h7 (W13 m ρ c) (W15 m ρ c) later14 (last_h7 m ρ c) 31 main_arg7 main_v151 _ _ _ rfl (by decide) (by decide) (by decide) (by decide)
theorem k_h7_32 (c : Dev nD) : Wf m ρ c main_v152 = ((extractStridedSlice S1x64 ![2, 0] · slices_S3x64_S1x64_2_0) : (⟨S3x64, .f32⟩ : BufTy).Contents (Elt Ideal) → (⟨S1x64, .f32⟩ : BufTy).Contents (Elt Ideal)) (Wf m ρ c main_arg8) :=
  end_unary outs_h7 (W13 m ρ c) (W15 m ρ c) later14 (last_h7 m ρ c) 32 main_arg8 main_v152 _ _ _ rfl (by decide) (by decide) (by decide) (by decide)

end Cert.KernelIdeal.HandV

end
-- ==== Proof.LibHostTyped.lean ====
/-
  A line of host operations in which every buffer is written once: the operations of a module-local function.

  Such an operation names its buffers through typed references and moves contents between a buffer's own type and the
  value's type along the equation of the two. Read at the valuation after the whole line, the result buffer holds the
  operation's function of what its operand buffers hold — stated with heterogeneous equality, so that at literal
  references, where the two types coincide by computation, the transports never have to be opened.
-/
import proofs.«180658_j65867618451767_1_alg».proof.Proof.LibHostOnce

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}
variable {Tx Ta Tb Tc Ty : BufTy}

/-- A constant into a typed reference's buffer. -/
theorem tnullary_at (h : Outs l ys) (V : Valuation τ sig Val) (k : Nat) (y : TRef sig Ty) (v : Ty.Contents Val)
    (hk : l[k]? = some (TRef.nullary y v)) (hy' : y.ref ∉ ys.drop (k + 1)) :
    HEq (after l V (Proc.devRef .tc y.ref)) v := by
  rw [after_at h k _ y.ref hk hy' V]
  exact tnullary_heq y v _

/-- A one-operand operation over typed references. -/
theorem tunary_at (h : Outs l ys) (V : Valuation τ sig Val) (k : Nat) (x : TRef sig Tx) (y : TRef sig Ty)
    (f : Tx.Contents Val → Ty.Contents Val)
    (hk : l[k]? = some (TRef.unary x y f)) (hy' : y.ref ∉ ys.drop (k + 1)) (hx' : x.ref ∉ ys.drop k)
    (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

/-- A two-operand operation over typed references. -/
theorem tbinary_at (h : Outs l ys) (V : Valuation τ sig Val) (k : Nat) (a : TRef sig Ta) (b : TRef sig Tb) (y : TRef sig Ty)
    (f : Ta.Contents Val → Tb.Contents Val → Ty.Contents Val)
    (hk : l[k]? = some (TRef.binary a b y f)) (hy' : y.ref ∉ ys.drop (k + 1)) (ha' : a.ref ∉ ys.drop k) (hb' : b.ref ∉ ys.drop k)
    (va : Ta.Contents Val) (vb : Tb.Contents Val)
    (ha : HEq (after l V (Proc.devRef .tc a.ref)) va) (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

/-- A three-operand operation over typed references. -/
theorem tternary_at (h : Outs l ys) (V : Valuation τ sig Val) (k : Nat) (c : TRef sig Tc) (a : TRef sig Ta) (b : TRef sig Tb)
    (y : TRef sig Ty) (f : Tc.Contents Val → Ta.Contents Val → Tb.Contents Val → Ty.Contents Val)
    (hk : l[k]? = some (TRef.ternary c a b y f)) (hy' : y.ref ∉ ys.drop (k + 1))
    (hc' : c.ref ∉ ys.drop k) (ha' : a.ref ∉ ys.drop k) (hb' : b.ref ∉ ys.drop k)
    (vc : Tc.Contents Val) (va : Ta.Contents Val) (vb : Tb.Contents Val)
    (hc : HEq (after l V (Proc.devRef .tc c.ref)) vc) (ha : HEq (after l V (Proc.devRef .tc a.ref)) va)
    (hb : HEq (after l V (Proc.devRef .tc b.ref)) vb) :
    HEq (after l V (Proc.devRef .tc y.ref)) (f vc va vb) := by
  rw [after_at h k _ y.ref hk hy' V]
  exact tternary_heq c a b y f _ vc va vb (by rw [← after_take h k c.ref hc' V]; exact hc)
    (by rw [← after_take h k a.ref ha' V]; exact ha) (by rw [← after_take h k b.ref hb' V]; exact hb)

end HostRead
-- ==== Proof.Ref.Outs.lean ====
import proofs.«180658_j65867618451767_1_alg».proof.Proof.Ref.Run
import proofs.«180658_j65867618451767_1_alg».proof.Proof.LibHostTyped
import Mathlib.Data.List.Nodup

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The references @main's operations write, in program order: the five windows' lists one after the other. -/
abbrev W : List (Ref sig .tc) := W0 ++ (W1 ++ (W2 ++ (W3 ++ W4)))

/-- Each operation of window 0 writes exactly the reference at its place in `W0`: what a builder writes is its
    result reference, by definition. -/
theorem outs0 : HostRead.Outs (ops0 (F := F)) W0 := by
  show List.Forall₂ _ _ _
  repeat' first | exact List.Forall₂.nil | refine List.Forall₂.cons rfl ?_

/-- Each operation of window 1 writes exactly the reference at its place in `W1`: what a builder writes is its
    result reference, by definition. -/
theorem outs1 : HostRead.Outs (ops1 (F := F)) W1 := by
  show List.Forall₂ _ _ _
  repeat' first | exact List.Forall₂.nil | refine List.Forall₂.cons rfl ?_

/-- Each operation of window 2 writes exactly the reference at its place in `W2`: what a builder writes is its
    result reference, by definition. -/
theorem outs2 : HostRead.Outs (ops2 (F := F)) W2 := by
  show List.Forall₂ _ _ _
  repeat' first | exact List.Forall₂.nil | refine List.Forall₂.cons rfl ?_

/-- Each operation of window 3 writes exactly the reference at its place in `W3`: what a builder writes is its
    result reference, by definition. -/
theorem outs3 : HostRead.Outs (ops3 (F := F)) W3 := by
  show List.Forall₂ _ _ _
  repeat' first | exact List.Forall₂.nil | refine List.Forall₂.cons rfl ?_

/-- Each operation of window 4 writes exactly the reference at its place in `W4`: what a builder writes is its
    result reference, by definition. -/
theorem outs4 : HostRead.Outs (ops4 (F := F)) W4 := by
  show List.Forall₂ _ _ _
  repeat' first | exact List.Forall₂.nil | refine List.Forall₂.cons rfl ?_

/-- Each of @main's operations writes exactly the reference at its place in `W`: window by window. -/
theorem outs : HostRead.Outs (ops (F := F)) W :=
  HostRead.outs_append outs0 (HostRead.outs_append outs1 (HostRead.outs_append outs2 (HostRead.outs_append outs3 outs4)))

/-- No reference is written twice: every operation defines a value of its own, whose buffer is its own — the
    written references' indices among the device's buffers, a list of numbers, are all different. -/
theorem written_nodup : W.Nodup :=
  List.Nodup.of_map (fun r : Ref sig .tc => r.idx.val) (by decide)

end Cert.ReferenceIdeal.HandV

end
-- ==== Proof.Ref.Stage.lean ====
import proofs.«180658_j65867618451767_1_alg».proof.Proof.Ref.Outs

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- What buffer `b` holds once all of @main's operations have run from contents `V`. -/
abbrev R (V : Valuation τ sig (Elt F)) (b : Ref sig .tc) : b.ty.Contents (Elt F) := after ops V (Proc.devRef .tc b)

/-- The reference written at place `k` is not written again after it. -/
theorem res_fresh {k : Nat} {y : Ref sig .tc} (h : W[k]? = some y) : y ∉ W.drop (k + 1) :=
  HostRead.not_mem_drop_of_lt written_nodup h (Nat.lt_succ_self k)

/-- A reference written at an earlier place `j` is not written from place `k` on. -/
theorem opnd_before {j k : Nat} {x : Ref sig .tc} (h : W[j]? = some x) (hjk : j < k) : x ∉ W.drop k :=
  HostRead.not_mem_drop_of_lt written_nodup h hjk

/-- A reference no operation writes is not written from any place on. -/
theorem opnd_never {x : Ref sig .tc} (h : x ∉ W) (k : Nat) : x ∉ W.drop k :=
  fun h' => h (List.mem_of_mem_drop h')

/-- No operation writes an argument. -/
theorem arg0_nw : main_arg0 ∉ W := by decide
theorem arg1_nw : main_arg1 ∉ W := by decide
theorem arg2_nw : main_arg2 ∉ W := by decide
theorem arg3_nw : main_arg3 ∉ W := by decide
theorem arg4_nw : main_arg4 ∉ W := by decide
theorem arg5_nw : main_arg5 ∉ W := by decide
theorem arg6_nw : main_arg6 ∉ W := by decide
theorem arg7_nw : main_arg7 ∉ W := by decide
theorem arg8_nw : main_arg8 ∉ W := by decide
theorem arg9_nw : main_arg9 ∉ W := by decide
theorem arg10_nw : main_arg10 ∉ W := by decide
theorem arg11_nw : main_arg11 ∉ W := by decide
theorem arg12_nw : main_arg12 ∉ W := by decide

/-- A reference no operation writes holds after the line what it held before: an argument's buffer keeps the
    launch contents. -/
theorem R_of_not_written (V : Valuation τ sig (Elt F)) {x : Ref sig .tc} (h : x ∉ W) : R V x = V (Proc.devRef .tc x) :=
  after_of_forall_not_mem ops V (HostRead.not_written outs x h)

end Cert.ReferenceIdeal.HandV

end
-- ==== Proof.Ref.HostEqs0.lean ====
/- A table: window 0 of the reference program's @main, one equation per operation (places 0 … 59 of the line):
   after the whole line the operation's result buffer holds the operation's own function of what its operand
   buffers hold after the whole line — every buffer is written once, an operand before it is read. -/
import proofs.«180658_j65867618451767_1_alg».proof.Proof.Ref.Stage
import Idealize.ShloMosaic.PureOps.Ideal

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable (V : Valuation τ sig (Elt Ideal))

theorem r_0 : R V main_v0 = ((extractStridedSlice S1x64x64 ![0, 0, 0] · slices_S9x64x64_S1x64x64_0_0_0) : (⟨S9x64x64, .f32⟩ : BufTy).Contents (Elt Ideal) → (⟨S1x64x64, .f32⟩ : BufTy).Contents (Elt Ideal)) (R V main_arg5) :=
  HostRead.unary_at outs V 0 main_arg5 main_v0 _ _ _ rfl (res_fresh rfl) (opnd_never arg5_nw 0)
theorem r_1 : R V main_v1 = fun i => shapeCast _ (R V main_v0) shapeCasts_S1x64x64_S64x64 i :=
  HostRead.reshape_at outs V 1 main_v0 main_v1 _ _ _ _ rfl (res_fresh rfl) (opnd_before (j := 0) rfl (by decide))
theorem r_2 : R V main_v2 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_arg0) (R V main_v1) :=
  HostRead.binary_at outs V 2 main_arg0 main_v1 main_v2 _ _ _ _ rfl (res_fresh rfl) (opnd_never arg0_nw 2) (opnd_before (j := 1) rfl (by decide))
theorem r_3 : R V main_v3 = ((extractStridedSlice S1x64 ![0, 0] · slices_S9x64_S1x64_0_0) : (⟨S9x64, .f32⟩ : BufTy).Contents (Elt Ideal) → (⟨S1x64, .f32⟩ : BufTy).Contents (Elt Ideal)) (R V main_arg6) :=
  HostRead.unary_at outs V 3 main_arg6 main_v3 _ _ _ rfl (res_fresh rfl) (opnd_never arg6_nw 3)
theorem r_4 : R V main_v4 = fun i => shapeCast _ (R V main_v3) shapeCasts_S1x64_S64 i :=
  HostRead.reshape_at outs V 4 main_v3 main_v4 _ _ _ _ rfl (res_fresh rfl) (opnd_before (j := 3) rfl (by decide))
theorem r_5 : R V main_v5 = (broadcastInDim S1x64 ![1] bcast_S64_S1x64_1 : (⟨S64, .f32⟩ : BufTy).Contents (Elt Ideal) → (⟨S1x64, .f32⟩ : BufTy).Contents (Elt Ideal)) (R V main_v4) :=
  HostRead.unary_at outs V 5 main_v4 main_v5 _ _ _ rfl (res_fresh rfl) (opnd_before (j := 4) rfl (by decide))
theorem r_6 : R V main_v6 = (broadcastInDim S250000x64 ![0, 1] bcast_S1x64_S250000x64_0_1 : (⟨S1x64, .f32⟩ : BufTy).Contents (Elt Ideal) → (⟨S250000x64, .f32⟩ : BufTy).Contents (Elt Ideal)) (R V main_v5) :=
  HostRead.unary_at outs V 6 main_v5 main_v6 _ _ _ rfl (res_fresh rfl) (opnd_before (j := 5) rfl (by decide))
theorem r_7 : R V main_v7 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v2) (R V main_v6) :=
  HostRead.binary_at outs V 7 main_v2 main_v6 main_v7 _ _ _ _ rfl (res_fresh rfl) (opnd_before (j := 2) rfl (by decide)) (opnd_before (j := 6) rfl (by decide))
theorem r_8 : R V main_v8 = ((extractStridedSlice S1x64x64 ![3, 0, 0] · slices_S9x64x64_S1x64x64_3_0_0) : (⟨S9x64x64, .f32⟩ : BufTy).Contents (Elt Ideal) → (⟨S1x64x64, .f32⟩ : BufTy).Contents (Elt Ideal)) (R V main_arg5) :=
  HostRead.unary_at outs V 8 main_arg5 main_v8 _ _ _ rfl (res_fresh rfl) (opnd_never arg5_nw 8)
theorem r_9 : R V main_v9 = fun i => shapeCast _ (R V main_v8) shapeCasts_S1x64x64_S64x64 i :=
  HostRead.reshape_at outs V 9 main_v8 main_v9 _ _ _ _ rfl (res_fresh rfl) (opnd_before (j := 8) rfl (by decide))
theorem r_10 : R V main_v10 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_arg0) (R V main_v9) :=
  HostRead.binary_at outs V 10 main_arg0 main_v9 main_v10 _ _ _ _ rfl (res_fresh rfl) (opnd_never arg0_nw 10) (opnd_before (j := 9) rfl (by decide))
theorem r_11 : R V main_v11 = ((extractStridedSlice S1x64 ![3, 0] · slices_S9x64_S1x64_3_0) : (⟨S9x64, .f32⟩ : BufTy).Contents (Elt Ideal) → (⟨S1x64, .f32⟩ : BufTy).Contents (Elt Ideal)) (R V main_arg6) :=
  HostRead.unary_at outs V 11 main_arg6 main_v11 _ _ _ rfl (res_fresh rfl) (opnd_never arg6_nw 11)
theorem r_12 : R V main_v12 = fun i => shapeCast _ (R V main_v11) shapeCasts_S1x64_S64 i :=
  HostRead.reshape_at outs V 12 main_v11 main_v12 _ _ _ _ rfl (res_fresh rfl) (opnd_before (j := 11) rfl (by decide))
theorem r_13 : R V main_v13 = (broadcastInDim S1x64 ![1] bcast_S64_S1x64_1 : (⟨S64, .f32⟩ : BufTy).Contents (Elt Ideal) → (⟨S1x64, .f32⟩ : BufTy).Contents (Elt Ideal)) (R V main_v12) :=
  HostRead.unary_at outs V 13 main_v12 main_v13 _ _ _ rfl (res_fresh rfl) (opnd_before (j := 12) rfl (by decide))
theorem r_14 : R V main_v14 = (broadcastInDim S250000x64 ![0, 1] bcast_S1x64_S250000x64_0_1 : (⟨S1x64, .f32⟩ : BufTy).Contents (Elt Ideal) → (⟨S250000x64, .f32⟩ : BufTy).Contents (Elt Ideal)) (R V main_v13) :=
  HostRead.unary_at outs V 14 main_v13 main_v14 _ _ _ rfl (res_fresh rfl) (opnd_before (j := 13) rfl (by decide))
theorem r_15 : R V main_v15 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v10) (R V main_v14) :=
  HostRead.binary_at outs V 15 main_v10 main_v14 main_v15 _ _ _ _ rfl (res_fresh rfl) (opnd_before (j := 10) rfl (by decide)) (opnd_before (j := 14) rfl (by decide))
theorem r_16 : R V main_v16 = ((extractStridedSlice S1x64x64 ![4, 0, 0] · slices_S9x64x64_S1x64x64_4_0_0) : (⟨S9x64x64, .f32⟩ : BufTy).Contents (Elt Ideal) → (⟨S1x64x64, .f32⟩ : BufTy).Contents (Elt Ideal)) (R V main_arg5) :=
  HostRead.unary_at outs V 16 main_arg5 main_v16 _ _ _ rfl (res_fresh rfl) (opnd_never arg5_nw 16)
theorem r_17 : R V main_v17 = fun i => shapeCast _ (R V main_v16) shapeCasts_S1x64x64_S64x64 i :=
  HostRead.reshape_at outs V 17 main_v16 main_v17 _ _ _ _ rfl (res_fresh rfl) (opnd_before (j := 16) rfl (by decide))
theorem r_18 : R V main_v18 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_arg0) (R V main_v17) :=
  HostRead.binary_at outs V 18 main_arg0 main_v17 main_v18 _ _ _ _ rfl (res_fresh rfl) (opnd_never arg0_nw 18) (opnd_before (j := 17) rfl (by decide))
theorem r_19 : R V main_v19 = ((extractStridedSlice S1x64 ![4, 0] · slices_S9x64_S1x64_4_0) : (⟨S9x64, .f32⟩ : BufTy).Contents (Elt Ideal) → (⟨S1x64, .f32⟩ : BufTy).Contents (Elt Ideal)) (R V main_arg6) :=
  HostRead.unary_at outs V 19 main_arg6 main_v19 _ _ _ rfl (res_fresh rfl) (opnd_never arg6_nw 19)
theorem r_20 : R V main_v20 = fun i => shapeCast _ (R V main_v19) shapeCasts_S1x64_S64 i :=
  HostRead.reshape_at outs V 20 main_v19 main_v20 _ _ _ _ rfl (res_fresh rfl) (opnd_before (j := 19) rfl (by decide))
theorem r_21 : R V main_v21 = (broadcastInDim S1x64 ![1] bcast_S64_S1x64_1 : (⟨S64, .f32⟩ : BufTy).Contents (Elt Ideal) → (⟨S1x64, .f32⟩ : BufTy).Contents (Elt Ideal)) (R V main_v20) :=
  HostRead.unary_at outs V 21 main_v20 main_v21 _ _ _ rfl (res_fresh rfl) (opnd_before (j := 20) rfl (by decide))
theorem r_22 : R V main_v22 = (broadcastInDim S250000x64 ![0, 1] bcast_S1x64_S250000x64_0_1 : (⟨S1x64, .f32⟩ : BufTy).Contents (Elt Ideal) → (⟨S250000x64, .f32⟩ : BufTy).Contents (Elt Ideal)) (R V main_v21) :=
  HostRead.unary_at outs V 22 main_v21 main_v22 _ _ _ rfl (res_fresh rfl) (opnd_before (j := 21) rfl (by decide))
theorem r_23 : R V main_v23 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v18) (R V main_v22) :=
  HostRead.binary_at outs V 23 main_v18 main_v22 main_v23 _ _ _ _ rfl (res_fresh rfl) (opnd_before (j := 18) rfl (by decide)) (opnd_before (j := 22) rfl (by decide))
theorem r_24 : R V main_v24 = ((extractStridedSlice S1x64x64 ![1, 0, 0] · slices_S9x64x64_S1x64x64_1_0_0) : (⟨S9x64x64, .f32⟩ : BufTy).Contents (Elt Ideal) → (⟨S1x64x64, .f32⟩ : BufTy).Contents (Elt Ideal)) (R V main_arg5) :=
  HostRead.unary_at outs V 24 main_arg5 main_v24 _ _ _ rfl (res_fresh rfl) (opnd_never arg5_nw 24)
theorem r_25 : R V main_v25 = fun i => shapeCast _ (R V main_v24) shapeCasts_S1x64x64_S64x64 i :=
  HostRead.reshape_at outs V 25 main_v24 main_v25 _ _ _ _ rfl (res_fresh rfl) (opnd_before (j := 24) rfl (by decide))
theorem r_26 : R V main_v26 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_arg1) (R V main_v25) :=
  HostRead.binary_at outs V 26 main_arg1 main_v25 main_v26 _ _ _ _ rfl (res_fresh rfl) (opnd_never arg1_nw 26) (opnd_before (j := 25) rfl (by decide))
theorem r_27 : R V main_v27 = ((extractStridedSlice S1x64 ![1, 0] · slices_S9x64_S1x64_1_0) : (⟨S9x64, .f32⟩ : BufTy).Contents (Elt Ideal) → (⟨S1x64, .f32⟩ : BufTy).Contents (Elt Ideal)) (R V main_arg6) :=
  HostRead.unary_at outs V 27 main_arg6 main_v27 _ _ _ rfl (res_fresh rfl) (opnd_never arg6_nw 27)
theorem r_28 : R V main_v28 = fun i => shapeCast _ (R V main_v27) shapeCasts_S1x64_S64 i :=
  HostRead.reshape_at outs V 28 main_v27 main_v28 _ _ _ _ rfl (res_fresh rfl) (opnd_before (j := 27) rfl (by decide))
theorem r_29 : R V main_v29 = (broadcastInDim S1x64 ![1] bcast_S64_S1x64_1 : (⟨S64, .f32⟩ : BufTy).Contents (Elt Ideal) → (⟨S1x64, .f32⟩ : BufTy).Contents (Elt Ideal)) (R V main_v28) :=
  HostRead.unary_at outs V 29 main_v28 main_v29 _ _ _ rfl (res_fresh rfl) (opnd_before (j := 28) rfl (by decide))
theorem r_30 : R V main_v30 = (broadcastInDim S250000x64 ![0, 1] bcast_S1x64_S250000x64_0_1 : (⟨S1x64, .f32⟩ : BufTy).Contents (Elt Ideal) → (⟨S250000x64, .f32⟩ : BufTy).Contents (Elt Ideal)) (R V main_v29) :=
  HostRead.unary_at outs V 30 main_v29 main_v30 _ _ _ rfl (res_fresh rfl) (opnd_before (j := 29) rfl (by decide))
theorem r_31 : R V main_v31 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v26) (R V main_v30) :=
  HostRead.binary_at outs V 31 main_v26 main_v30 main_v31 _ _ _ _ rfl (res_fresh rfl) (opnd_before (j := 26) rfl (by decide)) (opnd_before (j := 30) rfl (by decide))
theorem r_32 : R V main_v32 = ((extractStridedSlice S1x64x64 ![2, 0, 0] · slices_S9x64x64_S1x64x64_2_0_0) : (⟨S9x64x64, .f32⟩ : BufTy).Contents (Elt Ideal) → (⟨S1x64x64, .f32⟩ : BufTy).Contents (Elt Ideal)) (R V main_arg5) :=
  HostRead.unary_at outs V 32 main_arg5 main_v32 _ _ _ rfl (res_fresh rfl) (opnd_never arg5_nw 32)
theorem r_33 : R V main_v33 = fun i => shapeCast _ (R V main_v32) shapeCasts_S1x64x64_S64x64 i :=
  HostRead.reshape_at outs V 33 main_v32 main_v33 _ _ _ _ rfl (res_fresh rfl) (opnd_before (j := 32) rfl (by decide))
theorem r_34 : R V main_v34 = ((fun l r => Host.dotGeneral (F := Ideal) (φ₁ := .f32) (φ₂ := .f32) dot_S10000x64_S64x64_S10000x64_1_0_0_1_n_n none l r) : (⟨S10000x64, .f32⟩ : BufTy).Contents (Elt Ideal) → (⟨S64x64, .f32⟩ : BufTy).Contents (Elt Ideal) → (⟨S10000x64, .f32⟩ : BufTy).Contents (Elt Ideal)) (R V main_arg2) (R V main_v33) :=
  HostRead.binary_at outs V 34 main_arg2 main_v33 main_v34 _ _ _ _ rfl (res_fresh rfl) (opnd_never arg2_nw 34) (opnd_before (j := 33) rfl (by decide))
theorem r_35 : R V main_v35 = ((extractStridedSlice S1x64 ![2, 0] · slices_S9x64_S1x64_2_0) : (⟨S9x64, .f32⟩ : BufTy).Contents (Elt Ideal) → (⟨S1x64, .f32⟩ : BufTy).Contents (Elt Ideal)) (R V main_arg6) :=
  HostRead.unary_at outs V 35 main_arg6 main_v35 _ _ _ rfl (res_fresh rfl) (opnd_never arg6_nw 35)
theorem r_36 : R V main_v36 = fun i => shapeCast _ (R V main_v35) shapeCasts_S1x64_S64 i :=
  HostRead.reshape_at outs V 36 main_v35 main_v36 _ _ _ _ rfl (res_fresh rfl) (opnd_before (j := 35) rfl (by decide))
theorem r_37 : R V main_v37 = (broadcastInDim S1x64 ![1] bcast_S64_S1x64_1 : (⟨S64, .f32⟩ : BufTy).Contents (Elt Ideal) → (⟨S1x64, .f32⟩ : BufTy).Contents (Elt Ideal)) (R V main_v36) :=
  HostRead.unary_at outs V 37 main_v36 main_v37 _ _ _ rfl (res_fresh rfl) (opnd_before (j := 36) rfl (by decide))
theorem r_38 : R V main_v38 = (broadcastInDim S10000x64 ![0, 1] bcast_S1x64_S10000x64_0_1 : (⟨S1x64, .f32⟩ : BufTy).Contents (Elt Ideal) → (⟨S10000x64, .f32⟩ : BufTy).Contents (Elt Ideal)) (R V main_v37) :=
  HostRead.unary_at outs V 38 main_v37 main_v38 _ _ _ rfl (res_fresh rfl) (opnd_before (j := 37) rfl (by decide))
theorem r_39 : R V main_v39 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v34) (R V main_v38) :=
  HostRead.binary_at outs V 39 main_v34 main_v38 main_v39 _ _ _ _ rfl (res_fresh rfl) (opnd_before (j := 34) rfl (by decide)) (opnd_before (j := 38) rfl (by decide))
theorem r_40 : R V main_v40 = ((extractStridedSlice S1x64x64 ![5, 0, 0] · slices_S9x64x64_S1x64x64_5_0_0) : (⟨S9x64x64, .f32⟩ : BufTy).Contents (Elt Ideal) → (⟨S1x64x64, .f32⟩ : BufTy).Contents (Elt Ideal)) (R V main_arg5) :=
  HostRead.unary_at outs V 40 main_arg5 main_v40 _ _ _ rfl (res_fresh rfl) (opnd_never arg5_nw 40)
theorem r_41 : R V main_v41 = fun i => shapeCast _ (R V main_v40) shapeCasts_S1x64x64_S64x64 i :=
  HostRead.reshape_at outs V 41 main_v40 main_v41 _ _ _ _ rfl (res_fresh rfl) (opnd_before (j := 40) rfl (by decide))
theorem r_42 : R V main_v42 = ((fun l r => Host.dotGeneral (F := Ideal) (φ₁ := .f32) (φ₂ := .f32) dot_S10000x64_S64x64_S10000x64_1_0_0_1_n_n none l r) : (⟨S10000x64, .f32⟩ : BufTy).Contents (Elt Ideal) → (⟨S64x64, .f32⟩ : BufTy).Contents (Elt Ideal) → (⟨S10000x64, .f32⟩ : BufTy).Contents (Elt Ideal)) (R V main_arg2) (R V main_v41) :=
  HostRead.binary_at outs V 42 main_arg2 main_v41 main_v42 _ _ _ _ rfl (res_fresh rfl) (opnd_never arg2_nw 42) (opnd_before (j := 41) rfl (by decide))
theorem r_43 : R V main_v43 = ((extractStridedSlice S1x64 ![5, 0] · slices_S9x64_S1x64_5_0) : (⟨S9x64, .f32⟩ : BufTy).Contents (Elt Ideal) → (⟨S1x64, .f32⟩ : BufTy).Contents (Elt Ideal)) (R V main_arg6) :=
  HostRead.unary_at outs V 43 main_arg6 main_v43 _ _ _ rfl (res_fresh rfl) (opnd_never arg6_nw 43)
theorem r_44 : R V main_v44 = fun i => shapeCast _ (R V main_v43) shapeCasts_S1x64_S64 i :=
  HostRead.reshape_at outs V 44 main_v43 main_v44 _ _ _ _ rfl (res_fresh rfl) (opnd_before (j := 43) rfl (by decide))
theorem r_45 : R V main_v45 = (broadcastInDim S1x64 ![1] bcast_S64_S1x64_1 : (⟨S64, .f32⟩ : BufTy).Contents (Elt Ideal) → (⟨S1x64, .f32⟩ : BufTy).Contents (Elt Ideal)) (R V main_v44) :=
  HostRead.unary_at outs V 45 main_v44 main_v45 _ _ _ rfl (res_fresh rfl) (opnd_before (j := 44) rfl (by decide))
theorem r_46 : R V main_v46 = (broadcastInDim S10000x64 ![0, 1] bcast_S1x64_S10000x64_0_1 : (⟨S1x64, .f32⟩ : BufTy).Contents (Elt Ideal) → (⟨S10000x64, .f32⟩ : BufTy).Contents (Elt Ideal)) (R V main_v45) :=
  HostRead.unary_at outs V 46 main_v45 main_v46 _ _ _ rfl (res_fresh rfl) (opnd_before (j := 45) rfl (by decide))
theorem r_47 : R V main_v47 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v42) (R V main_v46) :=
  HostRead.binary_at outs V 47 main_v42 main_v46 main_v47 _ _ _ _ rfl (res_fresh rfl) (opnd_before (j := 42) rfl (by decide)) (opnd_before (j := 46) rfl (by decide))
theorem r_48 : R V main_c = (constantI S_ 32 0#32) :=
  HostRead.nullary_at outs V 48 main_c _ _ rfl (res_fresh rfl)
theorem r_49 : R V main_v48 = (broadcastInDim S250000 ![] bcast_S_S250000 : (⟨S_, .i32⟩ : BufTy).Contents (Elt Ideal) → (⟨S250000, .i32⟩ : BufTy).Contents (Elt Ideal)) (R V main_c) :=
  HostRead.unary_at outs V 49 main_c main_v48 _ _ _ rfl (res_fresh rfl) (opnd_before (j := 48) rfl (by decide))
theorem r_50 : R V main_v49 = (cmpi .slt : (⟨S250000, .i32⟩ : BufTy).Contents (Elt Ideal) → (⟨S250000, .i32⟩ : BufTy).Contents (Elt Ideal) → (⟨S250000, .i1⟩ : BufTy).Contents (Elt Ideal)) (R V main_arg9) (R V main_v48) :=
  HostRead.binary_at outs V 50 main_arg9 main_v48 main_v49 _ _ _ _ rfl (res_fresh rfl) (opnd_never arg9_nw 50) (opnd_before (j := 49) rfl (by decide))
theorem r_51 : R V main_c_0 = (constantI S_ 32 250000#32) :=
  HostRead.nullary_at outs V 51 main_c_0 _ _ rfl (res_fresh rfl)
theorem r_52 : R V main_v50 = (broadcastInDim S250000 ![] bcast_S_S250000 : (⟨S_, .i32⟩ : BufTy).Contents (Elt Ideal) → (⟨S250000, .i32⟩ : BufTy).Contents (Elt Ideal)) (R V main_c_0) :=
  HostRead.unary_at outs V 52 main_c_0 main_v50 _ _ _ rfl (res_fresh rfl) (opnd_before (j := 51) rfl (by decide))
theorem r_53 : R V main_v51 = (addi : (⟨S250000, .i32⟩ : BufTy).Contents (Elt Ideal) → (⟨S250000, .i32⟩ : BufTy).Contents (Elt Ideal) → (⟨S250000, .i32⟩ : BufTy).Contents (Elt Ideal)) (R V main_arg9) (R V main_v50) :=
  HostRead.binary_at outs V 53 main_arg9 main_v50 main_v51 _ _ _ _ rfl (res_fresh rfl) (opnd_never arg9_nw 53) (opnd_before (j := 52) rfl (by decide))
theorem r_54 : R V main_v52 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v49) (R V main_v51) (R V main_arg9) :=
  HostRead.ternary_at outs V 54 main_v49 main_v51 main_arg9 main_v52 _ _ _ _ _ rfl (res_fresh rfl) (opnd_before (j := 50) rfl (by decide)) (opnd_before (j := 53) rfl (by decide)) (opnd_never arg9_nw 54)
theorem r_55 : R V main_v53 = (broadcastInDim S250000x1 ![0] bcast_S250000_S250000x1_0 : (⟨S250000, .i32⟩ : BufTy).Contents (Elt Ideal) → (⟨S250000x1, .i32⟩ : BufTy).Contents (Elt Ideal)) (R V main_v52) :=
  HostRead.unary_at outs V 55 main_v52 main_v53 _ _ _ rfl (res_fresh rfl) (opnd_before (j := 54) rfl (by decide))
theorem r_56 : R V main_v54 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (R V main_v7) (R V main_v53) :=
  HostRead.binary_at outs V 56 main_v7 main_v53 main_v54 _ _ _ _ rfl (res_fresh rfl) (opnd_before (j := 7) rfl (by decide)) (opnd_before (j := 55) rfl (by decide))
theorem r_57 : R V main_c_1 = (constantI S_ 32 0#32) :=
  HostRead.nullary_at outs V 57 main_c_1 _ _ rfl (res_fresh rfl)
theorem r_58 : R V main_v55 = (broadcastInDim S250000 ![] bcast_S_S250000 : (⟨S_, .i32⟩ : BufTy).Contents (Elt Ideal) → (⟨S250000, .i32⟩ : BufTy).Contents (Elt Ideal)) (R V main_c_1) :=
  HostRead.unary_at outs V 58 main_c_1 main_v55 _ _ _ rfl (res_fresh rfl) (opnd_before (j := 57) rfl (by decide))
theorem r_59 : R V main_v56 = (cmpi .slt : (⟨S250000, .i32⟩ : BufTy).Contents (Elt Ideal) → (⟨S250000, .i32⟩ : BufTy).Contents (Elt Ideal) → (⟨S250000, .i1⟩ : BufTy).Contents (Elt Ideal)) (R V main_arg10) (R V main_v55) :=
  HostRead.binary_at outs V 59 main_arg10 main_v55 main_v56 _ _ _ _ rfl (res_fresh rfl) (opnd_never arg10_nw 59) (opnd_before (j := 58) rfl (by decide))

end Cert.ReferenceIdeal.HandV

end
-- ==== Proof.Ref.HostEqs1.lean ====
/- A table: window 1 of the reference program's @main, one equation per operation (places 60 … 154 of the line):
   after the whole line the operation's result buffer holds the operation's own function of what its operand
   buffers hold after the whole line — every buffer is written once, an operand before it is read. -/
import proofs.«180658_j65867618451767_1_alg».proof.Proof.Ref.Stage
import Idealize.ShloMosaic.PureOps.Ideal

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable (V : Valuation τ sig (Elt Ideal))

theorem r_60 : R V main_c_2 = (constantI S_ 32 250000#32) :=
  HostRead.nullary_at outs V 60 main_c_2 _ _ rfl (res_fresh rfl)
theorem r_61 : R V main_v57 = (broadcastInDim S250000 ![] bcast_S_S250000 : (⟨S_, .i32⟩ : BufTy).Contents (Elt Ideal) → (⟨S250000, .i32⟩ : BufTy).Contents (Elt Ideal)) (R V main_c_2) :=
  HostRead.unary_at outs V 61 main_c_2 main_v57 _ _ _ rfl (res_fresh rfl) (opnd_before (j := 60) rfl (by decide))
theorem r_62 : R V main_v58 = (addi : (⟨S250000, .i32⟩ : BufTy).Contents (Elt Ideal) → (⟨S250000, .i32⟩ : BufTy).Contents (Elt Ideal) → (⟨S250000, .i32⟩ : BufTy).Contents (Elt Ideal)) (R V main_arg10) (R V main_v57) :=
  HostRead.binary_at outs V 62 main_arg10 main_v57 main_v58 _ _ _ _ rfl (res_fresh rfl) (opnd_never arg10_nw 62) (opnd_before (j := 61) rfl (by decide))
theorem r_63 : R V main_v59 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v56) (R V main_v58) (R V main_arg10) :=
  HostRead.ternary_at outs V 63 main_v56 main_v58 main_arg10 main_v59 _ _ _ _ _ rfl (res_fresh rfl) (opnd_before (j := 59) rfl (by decide)) (opnd_before (j := 62) rfl (by decide)) (opnd_never arg10_nw 63)
theorem r_64 : R V main_v60 = (broadcastInDim S250000x1 ![0] bcast_S250000_S250000x1_0 : (⟨S250000, .i32⟩ : BufTy).Contents (Elt Ideal) → (⟨S250000x1, .i32⟩ : BufTy).Contents (Elt Ideal)) (R V main_v59) :=
  HostRead.unary_at outs V 64 main_v59 main_v60 _ _ _ rfl (res_fresh rfl) (opnd_before (j := 63) rfl (by decide))
theorem r_65 : R V main_v61 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (R V main_v7) (R V main_v60) :=
  HostRead.binary_at outs V 65 main_v7 main_v60 main_v61 _ _ _ _ rfl (res_fresh rfl) (opnd_before (j := 7) rfl (by decide)) (opnd_before (j := 64) rfl (by decide))
theorem r_66 : R V main_v62 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v54) (R V main_v61) :=
  HostRead.binary_at outs V 66 main_v54 main_v61 main_v62 _ _ _ _ rfl (res_fresh rfl) (opnd_before (j := 56) rfl (by decide)) (opnd_before (j := 65) rfl (by decide))
theorem r_67 : R V main_v63 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v62) (R V main_v31) :=
  HostRead.binary_at outs V 67 main_v62 main_v31 main_v63 _ _ _ _ rfl (res_fresh rfl) (opnd_before (j := 66) rfl (by decide)) (opnd_before (j := 31) rfl (by decide))
theorem r_68 : R V main_c_3 = (constantI S_ 32 0#32) :=
  HostRead.nullary_at outs V 68 main_c_3 _ _ rfl (res_fresh rfl)
theorem r_69 : R V main_v64 = (broadcastInDim S250000 ![] bcast_S_S250000 : (⟨S_, .i32⟩ : BufTy).Contents (Elt Ideal) → (⟨S250000, .i32⟩ : BufTy).Contents (Elt Ideal)) (R V main_c_3) :=
  HostRead.unary_at outs V 69 main_c_3 main_v64 _ _ _ rfl (res_fresh rfl) (opnd_before (j := 68) rfl (by decide))
theorem r_70 : R V main_v65 = (cmpi .slt : (⟨S250000, .i32⟩ : BufTy).Contents (Elt Ideal) → (⟨S250000, .i32⟩ : BufTy).Contents (Elt Ideal) → (⟨S250000, .i1⟩ : BufTy).Contents (Elt Ideal)) (R V main_arg12) (R V main_v64) :=
  HostRead.binary_at outs V 70 main_arg12 main_v64 main_v65 _ _ _ _ rfl (res_fresh rfl) (opnd_never arg12_nw 70) (opnd_before (j := 69) rfl (by decide))
theorem r_71 : R V main_c_4 = (constantI S_ 32 10000#32) :=
  HostRead.nullary_at outs V 71 main_c_4 _ _ rfl (res_fresh rfl)
theorem r_72 : R V main_v66 = (broadcastInDim S250000 ![] bcast_S_S250000 : (⟨S_, .i32⟩ : BufTy).Contents (Elt Ideal) → (⟨S250000, .i32⟩ : BufTy).Contents (Elt Ideal)) (R V main_c_4) :=
  HostRead.unary_at outs V 72 main_c_4 main_v66 _ _ _ rfl (res_fresh rfl) (opnd_before (j := 71) rfl (by decide))
theorem r_73 : R V main_v67 = (addi : (⟨S250000, .i32⟩ : BufTy).Contents (Elt Ideal) → (⟨S250000, .i32⟩ : BufTy).Contents (Elt Ideal) → (⟨S250000, .i32⟩ : BufTy).Contents (Elt Ideal)) (R V main_arg12) (R V main_v66) :=
  HostRead.binary_at outs V 73 main_arg12 main_v66 main_v67 _ _ _ _ rfl (res_fresh rfl) (opnd_never arg12_nw 73) (opnd_before (j := 72) rfl (by decide))
theorem r_74 : R V main_v68 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v65) (R V main_v67) (R V main_arg12) :=
  HostRead.ternary_at outs V 74 main_v65 main_v67 main_arg12 main_v68 _ _ _ _ _ rfl (res_fresh rfl) (opnd_before (j := 70) rfl (by decide)) (opnd_before (j := 73) rfl (by decide)) (opnd_never arg12_nw 74)
theorem r_75 : R V main_v69 = (broadcastInDim S250000x1 ![0] bcast_S250000_S250000x1_0 : (⟨S250000, .i32⟩ : BufTy).Contents (Elt Ideal) → (⟨S250000x1, .i32⟩ : BufTy).Contents (Elt Ideal)) (R V main_v68) :=
  HostRead.unary_at outs V 75 main_v68 main_v69 _ _ _ rfl (res_fresh rfl) (opnd_before (j := 74) rfl (by decide))
theorem r_76 : R V main_v70 = ((fun x i => Host.gather gather_S10000x64_S250000x1_S250000x64_1_0_n_n_0_1_164 x i) : (⟨S10000x64, .f32⟩ : BufTy).Contents (Elt Ideal) → (⟨S250000x1, .i32⟩ : BufTy).Contents (Elt Ideal) → (⟨S250000x64, .f32⟩ : BufTy).Contents (Elt Ideal)) (R V main_v39) (R V main_v69) :=
  HostRead.binary_at outs V 76 main_v39 main_v69 main_v70 _ _ _ _ rfl (res_fresh rfl) (opnd_before (j := 39) rfl (by decide)) (opnd_before (j := 75) rfl (by decide))
theorem r_77 : R V main_v71 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v63) (R V main_v70) :=
  HostRead.binary_at outs V 77 main_v63 main_v70 main_v71 _ _ _ _ rfl (res_fresh rfl) (opnd_before (j := 67) rfl (by decide)) (opnd_before (j := 76) rfl (by decide))
theorem r_78 : R V main_v72 = (broadcastInDim S250000x64 ![0, 1] bcast_S250000x1_S250000x64_0_1 : (⟨S250000x1, .f32⟩ : BufTy).Contents (Elt Ideal) → (⟨S250000x64, .f32⟩ : BufTy).Contents (Elt Ideal)) (R V main_arg4) :=
  HostRead.unary_at outs V 78 main_arg4 main_v72 _ _ _ rfl (res_fresh rfl) (opnd_never arg4_nw 78)
theorem r_79 : R V main_v73 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v71) (R V main_v72) :=
  HostRead.binary_at outs V 79 main_v71 main_v72 main_v73 _ _ _ _ rfl (res_fresh rfl) (opnd_before (j := 77) rfl (by decide)) (opnd_before (j := 78) rfl (by decide))
theorem r_80 : R V main_v74 = ((extractStridedSlice S1x64 ![0, 0] · slices_S3x64_S1x64_0_0) : (⟨S3x64, .f32⟩ : BufTy).Contents (Elt Ideal) → (⟨S1x64, .f32⟩ : BufTy).Contents (Elt Ideal)) (R V main_arg7) :=
  HostRead.unary_at outs V 80 main_arg7 main_v74 _ _ _ rfl (res_fresh rfl) (opnd_never arg7_nw 80)
theorem r_81 : R V main_v75 = fun i => shapeCast _ (R V main_v74) shapeCasts_S1x64_S64 i :=
  HostRead.reshape_at outs V 81 main_v74 main_v75 _ _ _ _ rfl (res_fresh rfl) (opnd_before (j := 80) rfl (by decide))
theorem r_82 : R V main_v76 = ((extractStridedSlice S1x64 ![0, 0] · slices_S3x64_S1x64_0_0) : (⟨S3x64, .f32⟩ : BufTy).Contents (Elt Ideal) → (⟨S1x64, .f32⟩ : BufTy).Contents (Elt Ideal)) (R V main_arg8) :=
  HostRead.unary_at outs V 82 main_arg8 main_v76 _ _ _ rfl (res_fresh rfl) (opnd_never arg8_nw 82)
theorem r_83 : R V main_v77 = fun i => shapeCast _ (R V main_v76) shapeCasts_S1x64_S64 i :=
  HostRead.reshape_at outs V 83 main_v76 main_v77 _ _ _ _ rfl (res_fresh rfl) (opnd_before (j := 82) rfl (by decide))
theorem r_84 : R V main_cst = (constant (F := Ideal) S_ .f32 0x00000000#32) :=
  HostRead.nullary_at outs V 84 main_cst _ _ rfl (res_fresh rfl)
theorem r_85 : R V main_v78 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_v73) (R V main_cst) :=
  HostRead.binary_at outs V 85 main_v73 main_cst main_v78 _ _ _ _ rfl (res_fresh rfl) (opnd_before (j := 79) rfl (by decide)) (opnd_before (j := 84) rfl (by decide))
theorem r_86 : R V main_cst_5 = (constant (F := Ideal) S_ .f32 0x48742400#32) :=
  HostRead.nullary_at outs V 86 main_cst_5 _ _ rfl (res_fresh rfl)
theorem r_87 : R V main_v79 = (broadcastInDim S64 ![] bcast_S_S64 : (⟨S_, .f32⟩ : BufTy).Contents (Elt Ideal) → (⟨S64, .f32⟩ : BufTy).Contents (Elt Ideal)) (R V main_cst_5) :=
  HostRead.unary_at outs V 87 main_cst_5 main_v79 _ _ _ rfl (res_fresh rfl) (opnd_before (j := 86) rfl (by decide))
theorem r_88 : R V main_v80 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_v78) (R V main_v79) :=
  HostRead.binary_at outs V 88 main_v78 main_v79 main_v80 _ _ _ _ rfl (res_fresh rfl) (opnd_before (j := 85) rfl (by decide)) (opnd_before (j := 87) rfl (by decide))
theorem r_89 : R V main_c_6 = (constantI S_ 32 0#32) :=
  HostRead.nullary_at outs V 89 main_c_6 _ _ rfl (res_fresh rfl)
theorem r_90 : R V main_call0_cst = ((constant (F := Ideal) S_ .f32 0x00000000#32) : (⟨S_, .f32⟩ : BufTy).Contents (Elt Ideal)) :=
  eq_of_heq (HostRead.tnullary_at outs V 90 main_call0.cst _ rfl (res_fresh rfl))
theorem r_91 : R V main_call0_v0 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_v73) (R V main_call0_cst) :=
  eq_of_heq (HostRead.tbinary_at outs V 91 (.of main_v73 : StableHlo.TRef sig ⟨S250000x64, .f32⟩) main_call0.cst main_call0.v0 _ rfl (res_fresh rfl) (opnd_before (j := 79) rfl (by decide)) (opnd_before (j := 90) rfl (by decide)) (R V main_v73) (R V main_call0_cst) HEq.rfl HEq.rfl)
theorem r_92 : R V main_call0_v1 = ((broadcastInDim S1x64 ![1] bcast_S64_S1x64_1) : (⟨S64, .f32⟩ : BufTy).Contents (Elt Ideal) → (⟨S1x64, .f32⟩ : BufTy).Contents (Elt Ideal)) (R V main_call0_v0) :=
  eq_of_heq (HostRead.tunary_at outs V 92 main_call0.v0 main_call0.v1 _ rfl (res_fresh rfl) (opnd_before (j := 91) rfl (by decide)) (R V main_call0_v0) HEq.rfl)
theorem r_93 : R V main_call0_cst_0 = ((constant (F := Ideal) S_ .f32 0x48742400#32) : (⟨S_, .f32⟩ : BufTy).Contents (Elt Ideal)) :=
  eq_of_heq (HostRead.tnullary_at outs V 93 main_call0.cst_0 _ rfl (res_fresh rfl))
theorem r_94 : R V main_call0_v2 = ((broadcastInDim S1x64 ![] bcast_S_S1x64) : (⟨S_, .f32⟩ : BufTy).Contents (Elt Ideal) → (⟨S1x64, .f32⟩ : BufTy).Contents (Elt Ideal)) (R V main_call0_cst_0) :=
  eq_of_heq (HostRead.tunary_at outs V 94 main_call0.cst_0 main_call0.v2 _ rfl (res_fresh rfl) (opnd_before (j := 93) rfl (by decide)) (R V main_call0_cst_0) HEq.rfl)
theorem r_95 : R V main_call0_v3 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (R V main_call0_v1) (R V main_call0_v2) :=
  eq_of_heq (HostRead.tbinary_at outs V 95 main_call0.v1 main_call0.v2 main_call0.v3 _ rfl (res_fresh rfl) (opnd_before (j := 92) rfl (by decide)) (opnd_before (j := 94) rfl (by decide)) (R V main_call0_v1) (R V main_call0_v2) HEq.rfl HEq.rfl)
theorem r_96 : R V main_call0_v4 = ((broadcastInDim S250000x64 ![0, 1] bcast_S1x64_S250000x64_0_1) : (⟨S1x64, .f32⟩ : BufTy).Contents (Elt Ideal) → (⟨S250000x64, .f32⟩ : BufTy).Contents (Elt Ideal)) (R V main_call0_v3) :=
  eq_of_heq (HostRead.tunary_at outs V 96 main_call0.v3 main_call0.v4 _ rfl (res_fresh rfl) (opnd_before (j := 95) rfl (by decide)) (R V main_call0_v3) HEq.rfl)
theorem r_97 : R V main_call0_v5 = (subf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v73) (R V main_call0_v4) :=
  eq_of_heq (HostRead.tbinary_at outs V 97 (.of main_v73 : StableHlo.TRef sig ⟨S250000x64, .f32⟩) main_call0.v4 main_call0.v5 _ rfl (res_fresh rfl) (opnd_before (j := 79) rfl (by decide)) (opnd_before (j := 96) rfl (by decide)) (R V main_v73) (R V main_call0_v4) HEq.rfl HEq.rfl)
theorem r_98 : R V main_call0_v6 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_call0_v5) (R V main_call0_v5) :=
  eq_of_heq (HostRead.tbinary_at outs V 98 main_call0.v5 main_call0.v5 main_call0.v6 _ rfl (res_fresh rfl) (opnd_before (j := 97) rfl (by decide)) (opnd_before (j := 97) rfl (by decide)) (R V main_call0_v5) (R V main_call0_v5) HEq.rfl HEq.rfl)
theorem r_99 : R V main_call0_v7 = ((sitofp (F := Ideal) .f32) : (⟨S_, .i32⟩ : BufTy).Contents (Elt Ideal) → (⟨S_, .f32⟩ : BufTy).Contents (Elt Ideal)) (R V main_c_6) :=
  eq_of_heq (HostRead.tunary_at outs V 99 (.of main_c_6 : StableHlo.TRef sig ⟨S_, .i32⟩) main_call0.v7 _ rfl (res_fresh rfl) (opnd_before (j := 89) rfl (by decide)) (R V main_c_6) HEq.rfl)
theorem r_100 : R V main_call0_cst_1 = ((constant (F := Ideal) S_ .f32 0x48742400#32) : (⟨S_, .f32⟩ : BufTy).Contents (Elt Ideal)) :=
  eq_of_heq (HostRead.tnullary_at outs V 100 main_call0.cst_1 _ rfl (res_fresh rfl))
theorem r_101 : R V main_call0_v8 = (subf (F := Ideal) (φ := .f32) : (⟨S_, .f32⟩ : BufTy).Contents (Elt Ideal) → (⟨S_, .f32⟩ : BufTy).Contents (Elt Ideal) → (⟨S_, .f32⟩ : BufTy).Contents (Elt Ideal)) (R V main_call0_cst_1) (R V main_call0_v7) :=
  eq_of_heq (HostRead.tbinary_at outs V 101 main_call0.cst_1 main_call0.v7 main_call0.v8 _ rfl (res_fresh rfl) (opnd_before (j := 100) rfl (by decide)) (opnd_before (j := 99) rfl (by decide)) (R V main_call0_cst_1) (R V main_call0_v7) HEq.rfl HEq.rfl)
theorem r_102 : R V main_call0_cst_2 = ((constant (F := Ideal) S_ .f32 0x00000000#32) : (⟨S_, .f32⟩ : BufTy).Contents (Elt Ideal)) :=
  eq_of_heq (HostRead.tnullary_at outs V 102 main_call0.cst_2 _ rfl (res_fresh rfl))
theorem r_103 : R V main_call0_v9 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_call0_v6) (R V main_call0_cst_2) :=
  eq_of_heq (HostRead.tbinary_at outs V 103 main_call0.v6 main_call0.cst_2 main_call0.v9 _ rfl (res_fresh rfl) (opnd_before (j := 98) rfl (by decide)) (opnd_before (j := 102) rfl (by decide)) (R V main_call0_v6) (R V main_call0_cst_2) HEq.rfl HEq.rfl)
theorem r_104 : R V main_call0_v10 = ((broadcastInDim S64 ![] bcast_S_S64) : (⟨S_, .f32⟩ : BufTy).Contents (Elt Ideal) → (⟨S64, .f32⟩ : BufTy).Contents (Elt Ideal)) (R V main_call0_v8) :=
  eq_of_heq (HostRead.tunary_at outs V 104 main_call0.v8 main_call0.v10 _ rfl (res_fresh rfl) (opnd_before (j := 101) rfl (by decide)) (R V main_call0_v8) HEq.rfl)
theorem r_105 : R V main_call0_v11 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_call0_v9) (R V main_call0_v10) :=
  eq_of_heq (HostRead.tbinary_at outs V 105 main_call0.v9 main_call0.v10 main_call0.v11 _ rfl (res_fresh rfl) (opnd_before (j := 103) rfl (by decide)) (opnd_before (j := 104) rfl (by decide)) (R V main_call0_v9) (R V main_call0_v10) HEq.rfl HEq.rfl)
theorem r_106 : R V main_call0_cst_3 = ((constant (F := Ideal) S_ .f32 0x00000000#32) : (⟨S_, .f32⟩ : BufTy).Contents (Elt Ideal)) :=
  eq_of_heq (HostRead.tnullary_at outs V 106 main_call0.cst_3 _ rfl (res_fresh rfl))
theorem r_107 : R V main_call0_v12 = ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)) (R V main_call0_v8) (R V main_call0_cst_3) :=
  eq_of_heq (HostRead.tbinary_at outs V 107 main_call0.v8 main_call0.cst_3 main_call0.v12 _ rfl (res_fresh rfl) (opnd_before (j := 101) rfl (by decide)) (opnd_before (j := 106) rfl (by decide)) (R V main_call0_v8) (R V main_call0_cst_3) HEq.rfl HEq.rfl)
theorem r_108 : R V main_call0_cst_4 = ((constant (F := Ideal) S_ .f32 0x7FC00000#32) : (⟨S_, .f32⟩ : BufTy).Contents (Elt Ideal)) :=
  eq_of_heq (HostRead.tnullary_at outs V 108 main_call0.cst_4 _ rfl (res_fresh rfl))
theorem r_109 : R V main_call0_call0_v0 = (id : (⟨S_, .f32⟩ : BufTy).Contents (Elt Ideal) → (⟨S_, .f32⟩ : BufTy).Contents (Elt Ideal)) (R V main_call0_cst_4) :=
  eq_of_heq (HostRead.tunary_at outs V 109 main_call0.cst_4 main_call0.call0.v0 _ rfl (res_fresh rfl) (opnd_before (j := 108) rfl (by decide)) (R V main_call0_cst_4) HEq.rfl)
theorem r_110 : R V main_call0_call0_v1 = ((broadcastInDim S64 ![] bcast_S_S64) : (⟨S_, .f32⟩ : BufTy).Contents (Elt Ideal) → (⟨S64, .f32⟩ : BufTy).Contents (Elt Ideal)) (R V main_call0_call0_v0) :=
  eq_of_heq (HostRead.tunary_at outs V 110 main_call0.call0.v0 main_call0.call0.v1 _ rfl (res_fresh rfl) (opnd_before (j := 109) rfl (by decide)) (R V main_call0_call0_v0) HEq.rfl)
theorem r_111 : R V main_v81 = ((fun p a b => select (broadcastInDim S64 ![] bcast_S_S64 p) a b) : (⟨S_, .i1⟩ : BufTy).Contents (Elt Ideal) → (⟨S64, .f32⟩ : BufTy).Contents (Elt Ideal) → (⟨S64, .f32⟩ : BufTy).Contents (Elt Ideal) → (⟨S64, .f32⟩ : BufTy).Contents (Elt Ideal)) (R V main_call0_v12) (R V main_call0_v11) (R V main_call0_call0_v1) :=
  eq_of_heq (HostRead.tternary_at outs V 111 main_call0.v12 main_call0.v11 main_call0.call0.v1 main_call0.call0.v2 _ rfl (res_fresh rfl) (opnd_before (j := 107) rfl (by decide)) (opnd_before (j := 105) rfl (by decide)) (opnd_before (j := 110) rfl (by decide)) (R V main_call0_v12) (R V main_call0_v11) (R V main_call0_call0_v1) HEq.rfl HEq.rfl HEq.rfl)
theorem r_112 : R V main_v82 = (broadcastInDim S1x64 ![1] bcast_S64_S1x64_1 : (⟨S64, .f32⟩ : BufTy).Contents (Elt Ideal) → (⟨S1x64, .f32⟩ : BufTy).Contents (Elt Ideal)) (R V main_v80) :=
  HostRead.unary_at outs V 112 main_v80 main_v82 _ _ _ rfl (res_fresh rfl) (opnd_before (j := 88) rfl (by decide))
theorem r_113 : R V main_v83 = (broadcastInDim S250000x64 ![0, 1] bcast_S1x64_S250000x64_0_1 : (⟨S1x64, .f32⟩ : BufTy).Contents (Elt Ideal) → (⟨S250000x64, .f32⟩ : BufTy).Contents (Elt Ideal)) (R V main_v82) :=
  HostRead.unary_at outs V 113 main_v82 main_v83 _ _ _ rfl (res_fresh rfl) (opnd_before (j := 112) rfl (by decide))
theorem r_114 : R V main_v84 = (subf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v73) (R V main_v83) :=
  HostRead.binary_at outs V 114 main_v73 main_v83 main_v84 _ _ _ _ rfl (res_fresh rfl) (opnd_before (j := 79) rfl (by decide)) (opnd_before (j := 113) rfl (by decide))
theorem r_115 : R V main_cst_7 = (constant (F := Ideal) S_ .f32 0x3727C5AC#32) :=
  HostRead.nullary_at outs V 115 main_cst_7 _ _ rfl (res_fresh rfl)
theorem r_116 : R V main_v85 = (broadcastInDim S64 ![] bcast_S_S64 : (⟨S_, .f32⟩ : BufTy).Contents (Elt Ideal) → (⟨S64, .f32⟩ : BufTy).Contents (Elt Ideal)) (R V main_cst_7) :=
  HostRead.unary_at outs V 116 main_cst_7 main_v85 _ _ _ rfl (res_fresh rfl) (opnd_before (j := 115) rfl (by decide))
theorem r_117 : R V main_v86 = (addf (F := Ideal) (φ := .f32) : (⟨S64, .f32⟩ : BufTy).Contents (Elt Ideal) → (⟨S64, .f32⟩ : BufTy).Contents (Elt Ideal) → (⟨S64, .f32⟩ : BufTy).Contents (Elt Ideal)) (R V main_v81) (R V main_v85) :=
  HostRead.binary_at outs V 117 main_v81 main_v85 main_v86 _ _ _ _ rfl (res_fresh rfl) (opnd_before (j := 111) rfl (by decide)) (opnd_before (j := 116) rfl (by decide))
theorem r_118 : R V main_v87 = (Host.rsqrt (F := Ideal) (φ := .f32) : (⟨S64, .f32⟩ : BufTy).Contents (Elt Ideal) → (⟨S64, .f32⟩ : BufTy).Contents (Elt Ideal)) (R V main_v86) :=
  HostRead.unary_at outs V 118 main_v86 main_v87 _ _ _ rfl (res_fresh rfl) (opnd_before (j := 117) rfl (by decide))
theorem r_119 : R V main_v88 = (broadcastInDim S1x64 ![1] bcast_S64_S1x64_1 : (⟨S64, .f32⟩ : BufTy).Contents (Elt Ideal) → (⟨S1x64, .f32⟩ : BufTy).Contents (Elt Ideal)) (R V main_v87) :=
  HostRead.unary_at outs V 119 main_v87 main_v88 _ _ _ rfl (res_fresh rfl) (opnd_before (j := 118) rfl (by decide))
theorem r_120 : R V main_v89 = (broadcastInDim S250000x64 ![0, 1] bcast_S1x64_S250000x64_0_1 : (⟨S1x64, .f32⟩ : BufTy).Contents (Elt Ideal) → (⟨S250000x64, .f32⟩ : BufTy).Contents (Elt Ideal)) (R V main_v88) :=
  HostRead.unary_at outs V 120 main_v88 main_v89 _ _ _ rfl (res_fresh rfl) (opnd_before (j := 119) rfl (by decide))
theorem r_121 : R V main_v90 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v84) (R V main_v89) :=
  HostRead.binary_at outs V 121 main_v84 main_v89 main_v90 _ _ _ _ rfl (res_fresh rfl) (opnd_before (j := 114) rfl (by decide)) (opnd_before (j := 120) rfl (by decide))
theorem r_122 : R V main_v91 = (broadcastInDim S1x64 ![1] bcast_S64_S1x64_1 : (⟨S64, .f32⟩ : BufTy).Contents (Elt Ideal) → (⟨S1x64, .f32⟩ : BufTy).Contents (Elt Ideal)) (R V main_v75) :=
  HostRead.unary_at outs V 122 main_v75 main_v91 _ _ _ rfl (res_fresh rfl) (opnd_before (j := 81) rfl (by decide))
theorem r_123 : R V main_v92 = (broadcastInDim S250000x64 ![0, 1] bcast_S1x64_S250000x64_0_1 : (⟨S1x64, .f32⟩ : BufTy).Contents (Elt Ideal) → (⟨S250000x64, .f32⟩ : BufTy).Contents (Elt Ideal)) (R V main_v91) :=
  HostRead.unary_at outs V 123 main_v91 main_v92 _ _ _ rfl (res_fresh rfl) (opnd_before (j := 122) rfl (by decide))
theorem r_124 : R V main_v93 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v90) (R V main_v92) :=
  HostRead.binary_at outs V 124 main_v90 main_v92 main_v93 _ _ _ _ rfl (res_fresh rfl) (opnd_before (j := 121) rfl (by decide)) (opnd_before (j := 123) rfl (by decide))
theorem r_125 : R V main_v94 = (broadcastInDim S1x64 ![1] bcast_S64_S1x64_1 : (⟨S64, .f32⟩ : BufTy).Contents (Elt Ideal) → (⟨S1x64, .f32⟩ : BufTy).Contents (Elt Ideal)) (R V main_v77) :=
  HostRead.unary_at outs V 125 main_v77 main_v94 _ _ _ rfl (res_fresh rfl) (opnd_before (j := 83) rfl (by decide))
theorem r_126 : R V main_v95 = (broadcastInDim S250000x64 ![0, 1] bcast_S1x64_S250000x64_0_1 : (⟨S1x64, .f32⟩ : BufTy).Contents (Elt Ideal) → (⟨S250000x64, .f32⟩ : BufTy).Contents (Elt Ideal)) (R V main_v94) :=
  HostRead.unary_at outs V 126 main_v94 main_v95 _ _ _ rfl (res_fresh rfl) (opnd_before (j := 125) rfl (by decide))
theorem r_127 : R V main_v96 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v93) (R V main_v95) :=
  HostRead.binary_at outs V 127 main_v93 main_v95 main_v96 _ _ _ _ rfl (res_fresh rfl) (opnd_before (j := 124) rfl (by decide)) (opnd_before (j := 126) rfl (by decide))
theorem r_128 : R V main_call1_cst = ((constant (F := Ideal) S_ .f32 0x00000000#32) : (⟨S_, .f32⟩ : BufTy).Contents (Elt Ideal)) :=
  eq_of_heq (HostRead.tnullary_at outs V 128 main_call1.cst _ rfl (res_fresh rfl))
theorem r_129 : R V main_call1_v0 = ((broadcastInDim S250000x64 ![] bcast_S_S250000x64) : (⟨S_, .f32⟩ : BufTy).Contents (Elt Ideal) → (⟨S250000x64, .f32⟩ : BufTy).Contents (Elt Ideal)) (R V main_call1_cst) :=
  eq_of_heq (HostRead.tunary_at outs V 129 main_call1.cst main_call1.v0 _ rfl (res_fresh rfl) (opnd_before (j := 128) rfl (by decide)) (R V main_call1_cst) HEq.rfl)
theorem r_130 : R V main_call1_v1 = ((cmpf (F := Ideal) (φ := .f32) .ogt) : (⟨S250000x64, .f32⟩ : BufTy).Contents (Elt Ideal) → (⟨S250000x64, .f32⟩ : BufTy).Contents (Elt Ideal) → (⟨S250000x64, .i1⟩ : BufTy).Contents (Elt Ideal)) (R V main_v96) (R V main_call1_v0) :=
  eq_of_heq (HostRead.tbinary_at outs V 130 (.of main_v96 : StableHlo.TRef sig ⟨S250000x64, .f32⟩) main_call1.v0 main_call1.v1 _ rfl (res_fresh rfl) (opnd_before (j := 127) rfl (by decide)) (opnd_before (j := 129) rfl (by decide)) (R V main_v96) (R V main_call1_v0) HEq.rfl HEq.rfl)
theorem r_131 : R V main_call1_cst_0 = ((constant (F := Ideal) S_ .f32 0x00000000#32) : (⟨S_, .f32⟩ : BufTy).Contents (Elt Ideal)) :=
  eq_of_heq (HostRead.tnullary_at outs V 131 main_call1.cst_0 _ rfl (res_fresh rfl))
theorem r_132 : R V main_call1_v2 = ((broadcastInDim S250000x64 ![] bcast_S_S250000x64) : (⟨S_, .f32⟩ : BufTy).Contents (Elt Ideal) → (⟨S250000x64, .f32⟩ : BufTy).Contents (Elt Ideal)) (R V main_call1_cst_0) :=
  eq_of_heq (HostRead.tunary_at outs V 132 main_call1.cst_0 main_call1.v2 _ rfl (res_fresh rfl) (opnd_before (j := 131) rfl (by decide)) (R V main_call1_cst_0) HEq.rfl)
theorem r_133 : R V main_call1_v3 = ((cmpf (F := Ideal) (φ := .f32) .ogt) : (⟨S250000x64, .f32⟩ : BufTy).Contents (Elt Ideal) → (⟨S250000x64, .f32⟩ : BufTy).Contents (Elt Ideal) → (⟨S250000x64, .i1⟩ : BufTy).Contents (Elt Ideal)) (R V main_v96) (R V main_call1_v2) :=
  eq_of_heq (HostRead.tbinary_at outs V 133 (.of main_v96 : StableHlo.TRef sig ⟨S250000x64, .f32⟩) main_call1.v2 main_call1.v3 _ rfl (res_fresh rfl) (opnd_before (j := 127) rfl (by decide)) (opnd_before (j := 132) rfl (by decide)) (R V main_v96) (R V main_call1_v2) HEq.rfl HEq.rfl)
theorem r_134 : R V main_call1_cst_1 = ((constant (F := Ideal) S_ .f32 0x00000000#32) : (⟨S_, .f32⟩ : BufTy).Contents (Elt Ideal)) :=
  eq_of_heq (HostRead.tnullary_at outs V 134 main_call1.cst_1 _ rfl (res_fresh rfl))
theorem r_135 : R V main_call1_call0_v0 = (id : (⟨S_, .f32⟩ : BufTy).Contents (Elt Ideal) → (⟨S_, .f32⟩ : BufTy).Contents (Elt Ideal)) (R V main_call1_cst_1) :=
  eq_of_heq (HostRead.tunary_at outs V 135 main_call1.cst_1 main_call1.call0.v0 _ rfl (res_fresh rfl) (opnd_before (j := 134) rfl (by decide)) (R V main_call1_cst_1) HEq.rfl)
theorem r_136 : R V main_call1_call0_v1 = ((broadcastInDim S250000x64 ![] bcast_S_S250000x64) : (⟨S_, .f32⟩ : BufTy).Contents (Elt Ideal) → (⟨S250000x64, .f32⟩ : BufTy).Contents (Elt Ideal)) (R V main_call1_call0_v0) :=
  eq_of_heq (HostRead.tunary_at outs V 136 main_call1.call0.v0 main_call1.call0.v1 _ rfl (res_fresh rfl) (opnd_before (j := 135) rfl (by decide)) (R V main_call1_call0_v0) HEq.rfl)
theorem r_137 : R V main_call1_v4 = (select : (⟨S250000x64, .i1⟩ : BufTy).Contents (Elt Ideal) → (⟨S250000x64, .f32⟩ : BufTy).Contents (Elt Ideal) → (⟨S250000x64, .f32⟩ : BufTy).Contents (Elt Ideal) → (⟨S250000x64, .f32⟩ : BufTy).Contents (Elt Ideal)) (R V main_call1_v3) (R V main_call1_call0_v1) (R V main_v96) :=
  eq_of_heq (HostRead.tternary_at outs V 137 main_call1.v3 main_call1.call0.v1 (.of main_v96 : StableHlo.TRef sig ⟨S250000x64, .f32⟩) main_call1.call0.v2 _ rfl (res_fresh rfl) (opnd_before (j := 133) rfl (by decide)) (opnd_before (j := 136) rfl (by decide)) (opnd_before (j := 127) rfl (by decide)) (R V main_call1_v3) (R V main_call1_call0_v1) (R V main_v96) HEq.rfl HEq.rfl HEq.rfl)
theorem r_138 : R V main_call1_v5 = (Host.expm1 (F := Ideal) (φ := .f32) : (⟨S250000x64, .f32⟩ : BufTy).Contents (Elt Ideal) → (⟨S250000x64, .f32⟩ : BufTy).Contents (Elt Ideal)) (R V main_call1_v4) :=
  eq_of_heq (HostRead.tunary_at outs V 138 main_call1.call0.v2 main_call1.v5 _ rfl (res_fresh rfl) (opnd_before (j := 137) rfl (by decide)) (R V main_call1_v4) HEq.rfl)
theorem r_139 : R V main_call1_cst_2 = ((constant (F := Ideal) S_ .f32 0x3F800000#32) : (⟨S_, .f32⟩ : BufTy).Contents (Elt Ideal)) :=
  eq_of_heq (HostRead.tnullary_at outs V 139 main_call1.cst_2 _ rfl (res_fresh rfl))
theorem r_140 : R V main_call1_v6 = ((broadcastInDim S250000x64 ![] bcast_S_S250000x64) : (⟨S_, .f32⟩ : BufTy).Contents (Elt Ideal) → (⟨S250000x64, .f32⟩ : BufTy).Contents (Elt Ideal)) (R V main_call1_cst_2) :=
  eq_of_heq (HostRead.tunary_at outs V 140 main_call1.cst_2 main_call1.v6 _ rfl (res_fresh rfl) (opnd_before (j := 139) rfl (by decide)) (R V main_call1_cst_2) HEq.rfl)
theorem r_141 : R V main_call1_v7 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_call1_v6) (R V main_call1_v5) :=
  eq_of_heq (HostRead.tbinary_at outs V 141 main_call1.v6 main_call1.v5 main_call1.v7 _ rfl (res_fresh rfl) (opnd_before (j := 140) rfl (by decide)) (opnd_before (j := 138) rfl (by decide)) (R V main_call1_v6) (R V main_call1_v5) HEq.rfl HEq.rfl)
theorem r_142 : R V main_v97 = (select : (⟨S250000x64, .i1⟩ : BufTy).Contents (Elt Ideal) → (⟨S250000x64, .f32⟩ : BufTy).Contents (Elt Ideal) → (⟨S250000x64, .f32⟩ : BufTy).Contents (Elt Ideal) → (⟨S250000x64, .f32⟩ : BufTy).Contents (Elt Ideal)) (R V main_call1_v1) (R V main_v96) (R V main_call1_v7) :=
  eq_of_heq (HostRead.tternary_at outs V 142 main_call1.v1 (.of main_v96 : StableHlo.TRef sig ⟨S250000x64, .f32⟩) main_call1.v7 main_call1.call1.v0 _ rfl (res_fresh rfl) (opnd_before (j := 130) rfl (by decide)) (opnd_before (j := 127) rfl (by decide)) (opnd_before (j := 141) rfl (by decide)) (R V main_call1_v1) (R V main_v96) (R V main_call1_v7) HEq.rfl HEq.rfl HEq.rfl)
theorem r_143 : R V main_v98 = (Host.negf (F := Ideal) (φ := .f32) : (⟨S250000x64, .f32⟩ : BufTy).Contents (Elt Ideal) → (⟨S250000x64, .f32⟩ : BufTy).Contents (Elt Ideal)) (R V main_v97) :=
  HostRead.unary_at outs V 143 main_v97 main_v98 _ _ _ rfl (res_fresh rfl) (opnd_before (j := 142) rfl (by decide))
theorem r_144 : R V main_v99 = (Host.exp (F := Ideal) (φ := .f32) : (⟨S250000x64, .f32⟩ : BufTy).Contents (Elt Ideal) → (⟨S250000x64, .f32⟩ : BufTy).Contents (Elt Ideal)) (R V main_v98) :=
  HostRead.unary_at outs V 144 main_v98 main_v99 _ _ _ rfl (res_fresh rfl) (opnd_before (j := 143) rfl (by decide))
theorem r_145 : R V main_cst_8 = (constant (F := Ideal) S_ .f32 0x3F800000#32) :=
  HostRead.nullary_at outs V 145 main_cst_8 _ _ rfl (res_fresh rfl)
theorem r_146 : R V main_v100 = (broadcastInDim S250000x64 ![] bcast_S_S250000x64 : (⟨S_, .f32⟩ : BufTy).Contents (Elt Ideal) → (⟨S250000x64, .f32⟩ : BufTy).Contents (Elt Ideal)) (R V main_cst_8) :=
  HostRead.unary_at outs V 146 main_cst_8 main_v100 _ _ _ rfl (res_fresh rfl) (opnd_before (j := 145) rfl (by decide))
theorem r_147 : R V main_v101 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v100) (R V main_v99) :=
  HostRead.binary_at outs V 147 main_v100 main_v99 main_v101 _ _ _ _ rfl (res_fresh rfl) (opnd_before (j := 146) rfl (by decide)) (opnd_before (j := 144) rfl (by decide))
theorem r_148 : R V main_cst_9 = (constant (F := Ideal) S_ .f32 0x3F800000#32) :=
  HostRead.nullary_at outs V 148 main_cst_9 _ _ rfl (res_fresh rfl)
theorem r_149 : R V main_v102 = (broadcastInDim S250000x64 ![] bcast_S_S250000x64 : (⟨S_, .f32⟩ : BufTy).Contents (Elt Ideal) → (⟨S250000x64, .f32⟩ : BufTy).Contents (Elt Ideal)) (R V main_cst_9) :=
  HostRead.unary_at outs V 149 main_cst_9 main_v102 _ _ _ rfl (res_fresh rfl) (opnd_before (j := 148) rfl (by decide))
theorem r_150 : R V main_v103 = (Host.divf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v102) (R V main_v101) :=
  HostRead.binary_at outs V 150 main_v102 main_v101 main_v103 _ _ _ _ rfl (res_fresh rfl) (opnd_before (j := 149) rfl (by decide)) (opnd_before (j := 147) rfl (by decide))
theorem r_151 : R V main_v104 = ((fun a b => concatenate S500000 0 [⟨S250000, a⟩, ⟨S250000, b⟩] concatenates_S250000_S250000_S500000_d0) : (⟨S250000, .i32⟩ : BufTy).Contents (Elt Ideal) → (⟨S250000, .i32⟩ : BufTy).Contents (Elt Ideal) → (⟨S500000, .i32⟩ : BufTy).Contents (Elt Ideal)) (R V main_arg9) (R V main_arg10) :=
  HostRead.binary_at outs V 151 main_arg9 main_arg10 main_v104 _ _ _ _ rfl (res_fresh rfl) (opnd_never arg9_nw 151) (opnd_never arg10_nw 151)
theorem r_152 : R V main_c_10 = (constantI S_ 32 0#32) :=
  HostRead.nullary_at outs V 152 main_c_10 _ _ rfl (res_fresh rfl)
theorem r_153 : R V main_v105 = (broadcastInDim S250000 ![] bcast_S_S250000 : (⟨S_, .i32⟩ : BufTy).Contents (Elt Ideal) → (⟨S250000, .i32⟩ : BufTy).Contents (Elt Ideal)) (R V main_c_10) :=
  HostRead.unary_at outs V 153 main_c_10 main_v105 _ _ _ rfl (res_fresh rfl) (opnd_before (j := 152) rfl (by decide))
theorem r_154 : R V main_v106 = (cmpi .slt : (⟨S250000, .i32⟩ : BufTy).Contents (Elt Ideal) → (⟨S250000, .i32⟩ : BufTy).Contents (Elt Ideal) → (⟨S250000, .i1⟩ : BufTy).Contents (Elt Ideal)) (R V main_arg10) (R V main_v105) :=
  HostRead.binary_at outs V 154 main_arg10 main_v105 main_v106 _ _ _ _ rfl (res_fresh rfl) (opnd_never arg10_nw 154) (opnd_before (j := 153) rfl (by decide))

end Cert.ReferenceIdeal.HandV

end
-- ==== Proof.Ref.HostEqs2.lean ====
/- A table: window 2 of the reference program's @main, one equation per operation (places 155 … 235 of the line):
   after the whole line the operation's result buffer holds the operation's own function of what its operand
   buffers hold after the whole line — every buffer is written once, an operand before it is read. -/
import proofs.«180658_j65867618451767_1_alg».proof.Proof.Ref.Stage
import Idealize.ShloMosaic.PureOps.Ideal

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable (V : Valuation τ sig (Elt Ideal))

theorem r_155 : R V main_c_11 = (constantI S_ 32 250000#32) :=
  HostRead.nullary_at outs V 155 main_c_11 _ _ rfl (res_fresh rfl)
theorem r_156 : R V main_v107 = (broadcastInDim S250000 ![] bcast_S_S250000 : (⟨S_, .i32⟩ : BufTy).Contents (Elt Ideal) → (⟨S250000, .i32⟩ : BufTy).Contents (Elt Ideal)) (R V main_c_11) :=
  HostRead.unary_at outs V 156 main_c_11 main_v107 _ _ _ rfl (res_fresh rfl) (opnd_before (j := 155) rfl (by decide))
theorem r_157 : R V main_v108 = (addi : (⟨S250000, .i32⟩ : BufTy).Contents (Elt Ideal) → (⟨S250000, .i32⟩ : BufTy).Contents (Elt Ideal) → (⟨S250000, .i32⟩ : BufTy).Contents (Elt Ideal)) (R V main_arg10) (R V main_v107) :=
  HostRead.binary_at outs V 157 main_arg10 main_v107 main_v108 _ _ _ _ rfl (res_fresh rfl) (opnd_never arg10_nw 157) (opnd_before (j := 156) rfl (by decide))
theorem r_158 : R V main_v109 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v106) (R V main_v108) (R V main_arg10) :=
  HostRead.ternary_at outs V 158 main_v106 main_v108 main_arg10 main_v109 _ _ _ _ _ rfl (res_fresh rfl) (opnd_before (j := 154) rfl (by decide)) (opnd_before (j := 157) rfl (by decide)) (opnd_never arg10_nw 158)
theorem r_159 : R V main_v110 = (broadcastInDim S250000x1 ![0] bcast_S250000_S250000x1_0 : (⟨S250000, .i32⟩ : BufTy).Contents (Elt Ideal) → (⟨S250000x1, .i32⟩ : BufTy).Contents (Elt Ideal)) (R V main_v109) :=
  HostRead.unary_at outs V 159 main_v109 main_v110 _ _ _ rfl (res_fresh rfl) (opnd_before (j := 158) rfl (by decide))
theorem r_160 : R V main_v111 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (R V main_v23) (R V main_v110) :=
  HostRead.binary_at outs V 160 main_v23 main_v110 main_v111 _ _ _ _ rfl (res_fresh rfl) (opnd_before (j := 23) rfl (by decide)) (opnd_before (j := 159) rfl (by decide))
theorem r_161 : R V main_c_12 = (constantI S_ 32 0#32) :=
  HostRead.nullary_at outs V 161 main_c_12 _ _ rfl (res_fresh rfl)
theorem r_162 : R V main_v112 = (broadcastInDim S250000 ![] bcast_S_S250000 : (⟨S_, .i32⟩ : BufTy).Contents (Elt Ideal) → (⟨S250000, .i32⟩ : BufTy).Contents (Elt Ideal)) (R V main_c_12) :=
  HostRead.unary_at outs V 162 main_c_12 main_v112 _ _ _ rfl (res_fresh rfl) (opnd_before (j := 161) rfl (by decide))
theorem r_163 : R V main_v113 = (cmpi .slt : (⟨S250000, .i32⟩ : BufTy).Contents (Elt Ideal) → (⟨S250000, .i32⟩ : BufTy).Contents (Elt Ideal) → (⟨S250000, .i1⟩ : BufTy).Contents (Elt Ideal)) (R V main_arg9) (R V main_v112) :=
  HostRead.binary_at outs V 163 main_arg9 main_v112 main_v113 _ _ _ _ rfl (res_fresh rfl) (opnd_never arg9_nw 163) (opnd_before (j := 162) rfl (by decide))
theorem r_164 : R V main_c_13 = (constantI S_ 32 250000#32) :=
  HostRead.nullary_at outs V 164 main_c_13 _ _ rfl (res_fresh rfl)
theorem r_165 : R V main_v114 = (broadcastInDim S250000 ![] bcast_S_S250000 : (⟨S_, .i32⟩ : BufTy).Contents (Elt Ideal) → (⟨S250000, .i32⟩ : BufTy).Contents (Elt Ideal)) (R V main_c_13) :=
  HostRead.unary_at outs V 165 main_c_13 main_v114 _ _ _ rfl (res_fresh rfl) (opnd_before (j := 164) rfl (by decide))
theorem r_166 : R V main_v115 = (addi : (⟨S250000, .i32⟩ : BufTy).Contents (Elt Ideal) → (⟨S250000, .i32⟩ : BufTy).Contents (Elt Ideal) → (⟨S250000, .i32⟩ : BufTy).Contents (Elt Ideal)) (R V main_arg9) (R V main_v114) :=
  HostRead.binary_at outs V 166 main_arg9 main_v114 main_v115 _ _ _ _ rfl (res_fresh rfl) (opnd_never arg9_nw 166) (opnd_before (j := 165) rfl (by decide))
theorem r_167 : R V main_v116 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v113) (R V main_v115) (R V main_arg9) :=
  HostRead.ternary_at outs V 167 main_v113 main_v115 main_arg9 main_v116 _ _ _ _ _ rfl (res_fresh rfl) (opnd_before (j := 163) rfl (by decide)) (opnd_before (j := 166) rfl (by decide)) (opnd_never arg9_nw 167)
theorem r_168 : R V main_v117 = (broadcastInDim S250000x1 ![0] bcast_S250000_S250000x1_0 : (⟨S250000, .i32⟩ : BufTy).Contents (Elt Ideal) → (⟨S250000x1, .i32⟩ : BufTy).Contents (Elt Ideal)) (R V main_v116) :=
  HostRead.unary_at outs V 168 main_v116 main_v117 _ _ _ rfl (res_fresh rfl) (opnd_before (j := 167) rfl (by decide))
theorem r_169 : R V main_v118 = ((fun x i => Host.gather gather_S250000x64_S250000x1_S250000x64_1_0_n_n_0_1_164 x i) : (⟨S250000x64, .f32⟩ : BufTy).Contents (Elt Ideal) → (⟨S250000x1, .i32⟩ : BufTy).Contents (Elt Ideal) → (⟨S250000x64, .f32⟩ : BufTy).Contents (Elt Ideal)) (R V main_v23) (R V main_v117) :=
  HostRead.binary_at outs V 169 main_v23 main_v117 main_v118 _ _ _ _ rfl (res_fresh rfl) (opnd_before (j := 23) rfl (by decide)) (opnd_before (j := 168) rfl (by decide))
theorem r_170 : R V main_v119 = ((fun a b => concatenate S500000x64 0 [⟨S250000x64, a⟩, ⟨S250000x64, b⟩] concatenates_S250000x64_S250000x64_S500000x64_d0) : (⟨S250000x64, .f32⟩ : BufTy).Contents (Elt Ideal) → (⟨S250000x64, .f32⟩ : BufTy).Contents (Elt Ideal) → (⟨S500000x64, .f32⟩ : BufTy).Contents (Elt Ideal)) (R V main_v111) (R V main_v118) :=
  HostRead.binary_at outs V 170 main_v111 main_v118 main_v119 _ _ _ _ rfl (res_fresh rfl) (opnd_before (j := 160) rfl (by decide)) (opnd_before (j := 169) rfl (by decide))
theorem r_171 : R V main_v120 = ((fun a b => concatenate S500000x64 0 [⟨S250000x64, a⟩, ⟨S250000x64, b⟩] concatenates_S250000x64_S250000x64_S500000x64_d0) : (⟨S250000x64, .f32⟩ : BufTy).Contents (Elt Ideal) → (⟨S250000x64, .f32⟩ : BufTy).Contents (Elt Ideal) → (⟨S500000x64, .f32⟩ : BufTy).Contents (Elt Ideal)) (R V main_v103) (R V main_v103) :=
  HostRead.binary_at outs V 171 main_v103 main_v103 main_v120 _ _ _ _ rfl (res_fresh rfl) (opnd_before (j := 150) rfl (by decide)) (opnd_before (j := 150) rfl (by decide))
theorem r_172 : R V main_v121 = (mulf (F := Ideal) (φ := .f32) : (⟨S500000x64, .f32⟩ : BufTy).Contents (Elt Ideal) → (⟨S500000x64, .f32⟩ : BufTy).Contents (Elt Ideal) → (⟨S500000x64, .f32⟩ : BufTy).Contents (Elt Ideal)) (R V main_v120) (R V main_v119) :=
  HostRead.binary_at outs V 172 main_v120 main_v119 main_v121 _ _ _ _ rfl (res_fresh rfl) (opnd_before (j := 171) rfl (by decide)) (opnd_before (j := 170) rfl (by decide))
theorem r_173 : R V main_cst_14 = (constant (F := Ideal) S_ .f32 0x00000000#32) :=
  HostRead.nullary_at outs V 173 main_cst_14 _ _ rfl (res_fresh rfl)
theorem r_174 : R V main_v122 = (broadcastInDim S250000x64 ![] bcast_S_S250000x64 : (⟨S_, .f32⟩ : BufTy).Contents (Elt Ideal) → (⟨S250000x64, .f32⟩ : BufTy).Contents (Elt Ideal)) (R V main_cst_14) :=
  HostRead.unary_at outs V 174 main_cst_14 main_v122 _ _ _ rfl (res_fresh rfl) (opnd_before (j := 173) rfl (by decide))
theorem r_175 : R V main_v123 = (broadcastInDim S500000x1 ![0] bcast_S500000_S500000x1_0 : (⟨S500000, .i32⟩ : BufTy).Contents (Elt Ideal) → (⟨S500000x1, .i32⟩ : BufTy).Contents (Elt Ideal)) (R V main_v104) :=
  HostRead.unary_at outs V 175 main_v104 main_v123 _ _ _ rfl (res_fresh rfl) (opnd_before (j := 151) rfl (by decide))
theorem r_176 : R V main_v124 = ((fun x i u => Host.scatterAdd (F := Ideal) (φ := .f32) scatter_S250000x64_S500000x1_S500000x64_1_0_0_1 x i u) : (⟨S250000x64, .f32⟩ : BufTy).Contents (Elt Ideal) → (⟨S500000x1, .i32⟩ : BufTy).Contents (Elt Ideal) → (⟨S500000x64, .f32⟩ : BufTy).Contents (Elt Ideal) → (⟨S250000x64, .f32⟩ : BufTy).Contents (Elt Ideal)) (R V main_v122) (R V main_v123) (R V main_v121) :=
  HostRead.ternary_at outs V 176 main_v122 main_v123 main_v121 main_v124 _ _ _ _ _ rfl (res_fresh rfl) (opnd_before (j := 174) rfl (by decide)) (opnd_before (j := 175) rfl (by decide)) (opnd_before (j := 172) rfl (by decide))
theorem r_177 : R V main_cst_15 = (constant (F := Ideal) S_ .f32 0x00000000#32) :=
  HostRead.nullary_at outs V 177 main_cst_15 _ _ rfl (res_fresh rfl)
theorem r_178 : R V main_v125 = (broadcastInDim S250000x64 ![] bcast_S_S250000x64 : (⟨S_, .f32⟩ : BufTy).Contents (Elt Ideal) → (⟨S250000x64, .f32⟩ : BufTy).Contents (Elt Ideal)) (R V main_cst_15) :=
  HostRead.unary_at outs V 178 main_cst_15 main_v125 _ _ _ rfl (res_fresh rfl) (opnd_before (j := 177) rfl (by decide))
theorem r_179 : R V main_v126 = (broadcastInDim S500000x1 ![0] bcast_S500000_S500000x1_0 : (⟨S500000, .i32⟩ : BufTy).Contents (Elt Ideal) → (⟨S500000x1, .i32⟩ : BufTy).Contents (Elt Ideal)) (R V main_v104) :=
  HostRead.unary_at outs V 179 main_v104 main_v126 _ _ _ rfl (res_fresh rfl) (opnd_before (j := 151) rfl (by decide))
theorem r_180 : R V main_v127 = ((fun x i u => Host.scatterAdd (F := Ideal) (φ := .f32) scatter_S250000x64_S500000x1_S500000x64_1_0_0_1 x i u) : (⟨S250000x64, .f32⟩ : BufTy).Contents (Elt Ideal) → (⟨S500000x1, .i32⟩ : BufTy).Contents (Elt Ideal) → (⟨S500000x64, .f32⟩ : BufTy).Contents (Elt Ideal) → (⟨S250000x64, .f32⟩ : BufTy).Contents (Elt Ideal)) (R V main_v125) (R V main_v126) (R V main_v120) :=
  HostRead.ternary_at outs V 180 main_v125 main_v126 main_v120 main_v127 _ _ _ _ _ rfl (res_fresh rfl) (opnd_before (j := 178) rfl (by decide)) (opnd_before (j := 179) rfl (by decide)) (opnd_before (j := 171) rfl (by decide))
theorem r_181 : R V main_cst_16 = (constant (F := Ideal) S_ .f32 0x358637BD#32) :=
  HostRead.nullary_at outs V 181 main_cst_16 _ _ rfl (res_fresh rfl)
theorem r_182 : R V main_v128 = (broadcastInDim S250000x64 ![] bcast_S_S250000x64 : (⟨S_, .f32⟩ : BufTy).Contents (Elt Ideal) → (⟨S250000x64, .f32⟩ : BufTy).Contents (Elt Ideal)) (R V main_cst_16) :=
  HostRead.unary_at outs V 182 main_cst_16 main_v128 _ _ _ rfl (res_fresh rfl) (opnd_before (j := 181) rfl (by decide))
theorem r_183 : R V main_v129 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v127) (R V main_v128) :=
  HostRead.binary_at outs V 183 main_v127 main_v128 main_v129 _ _ _ _ rfl (res_fresh rfl) (opnd_before (j := 180) rfl (by decide)) (opnd_before (j := 182) rfl (by decide))
theorem r_184 : R V main_v130 = (Host.divf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v124) (R V main_v129) :=
  HostRead.binary_at outs V 184 main_v124 main_v129 main_v130 _ _ _ _ rfl (res_fresh rfl) (opnd_before (j := 176) rfl (by decide)) (opnd_before (j := 183) rfl (by decide))
theorem r_185 : R V main_v131 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v15) (R V main_v130) :=
  HostRead.binary_at outs V 185 main_v15 main_v130 main_v131 _ _ _ _ rfl (res_fresh rfl) (opnd_before (j := 15) rfl (by decide)) (opnd_before (j := 184) rfl (by decide))
theorem r_186 : R V main_c_17 = (constantI S_ 32 0#32) :=
  HostRead.nullary_at outs V 186 main_c_17 _ _ rfl (res_fresh rfl)
theorem r_187 : R V main_v132 = (broadcastInDim S250000 ![] bcast_S_S250000 : (⟨S_, .i32⟩ : BufTy).Contents (Elt Ideal) → (⟨S250000, .i32⟩ : BufTy).Contents (Elt Ideal)) (R V main_c_17) :=
  HostRead.unary_at outs V 187 main_c_17 main_v132 _ _ _ rfl (res_fresh rfl) (opnd_before (j := 186) rfl (by decide))
theorem r_188 : R V main_v133 = (cmpi .slt : (⟨S250000, .i32⟩ : BufTy).Contents (Elt Ideal) → (⟨S250000, .i32⟩ : BufTy).Contents (Elt Ideal) → (⟨S250000, .i1⟩ : BufTy).Contents (Elt Ideal)) (R V main_arg11) (R V main_v132) :=
  HostRead.binary_at outs V 188 main_arg11 main_v132 main_v133 _ _ _ _ rfl (res_fresh rfl) (opnd_never arg11_nw 188) (opnd_before (j := 187) rfl (by decide))
theorem r_189 : R V main_c_18 = (constantI S_ 32 10000#32) :=
  HostRead.nullary_at outs V 189 main_c_18 _ _ rfl (res_fresh rfl)
theorem r_190 : R V main_v134 = (broadcastInDim S250000 ![] bcast_S_S250000 : (⟨S_, .i32⟩ : BufTy).Contents (Elt Ideal) → (⟨S250000, .i32⟩ : BufTy).Contents (Elt Ideal)) (R V main_c_18) :=
  HostRead.unary_at outs V 190 main_c_18 main_v134 _ _ _ rfl (res_fresh rfl) (opnd_before (j := 189) rfl (by decide))
theorem r_191 : R V main_v135 = (addi : (⟨S250000, .i32⟩ : BufTy).Contents (Elt Ideal) → (⟨S250000, .i32⟩ : BufTy).Contents (Elt Ideal) → (⟨S250000, .i32⟩ : BufTy).Contents (Elt Ideal)) (R V main_arg11) (R V main_v134) :=
  HostRead.binary_at outs V 191 main_arg11 main_v134 main_v135 _ _ _ _ rfl (res_fresh rfl) (opnd_never arg11_nw 191) (opnd_before (j := 190) rfl (by decide))
theorem r_192 : R V main_v136 = (select : (⟨S250000, .i1⟩ : BufTy).Contents (Elt Ideal) → (⟨S250000, .i32⟩ : BufTy).Contents (Elt Ideal) → (⟨S250000, .i32⟩ : BufTy).Contents (Elt Ideal) → (⟨S250000, .i32⟩ : BufTy).Contents (Elt Ideal)) (R V main_v133) (R V main_v135) (R V main_arg11) :=
  HostRead.ternary_at outs V 192 main_v133 main_v135 main_arg11 main_v136 _ _ _ _ _ rfl (res_fresh rfl) (opnd_before (j := 188) rfl (by decide)) (opnd_before (j := 191) rfl (by decide)) (opnd_never arg11_nw 192)
theorem r_193 : R V main_v137 = (broadcastInDim S250000x1 ![0] bcast_S250000_S250000x1_0 : (⟨S250000, .i32⟩ : BufTy).Contents (Elt Ideal) → (⟨S250000x1, .i32⟩ : BufTy).Contents (Elt Ideal)) (R V main_v136) :=
  HostRead.unary_at outs V 193 main_v136 main_v137 _ _ _ rfl (res_fresh rfl) (opnd_before (j := 192) rfl (by decide))
theorem r_194 : R V main_v138 = ((fun x i => Host.gather gather_S10000x64_S250000x1_S250000x64_1_0_n_n_0_1_164 x i) : (⟨S10000x64, .f32⟩ : BufTy).Contents (Elt Ideal) → (⟨S250000x1, .i32⟩ : BufTy).Contents (Elt Ideal) → (⟨S250000x64, .f32⟩ : BufTy).Contents (Elt Ideal)) (R V main_v47) (R V main_v137) :=
  HostRead.binary_at outs V 194 main_v47 main_v137 main_v138 _ _ _ _ rfl (res_fresh rfl) (opnd_before (j := 47) rfl (by decide)) (opnd_before (j := 193) rfl (by decide))
theorem r_195 : R V main_v139 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v131) (R V main_v138) :=
  HostRead.binary_at outs V 195 main_v131 main_v138 main_v139 _ _ _ _ rfl (res_fresh rfl) (opnd_before (j := 185) rfl (by decide)) (opnd_before (j := 194) rfl (by decide))
theorem r_196 : R V main_v140 = (broadcastInDim S250000x64 ![0, 1] bcast_S250000x1_S250000x64_0_1 : (⟨S250000x1, .f32⟩ : BufTy).Contents (Elt Ideal) → (⟨S250000x64, .f32⟩ : BufTy).Contents (Elt Ideal)) (R V main_arg3) :=
  HostRead.unary_at outs V 196 main_arg3 main_v140 _ _ _ rfl (res_fresh rfl) (opnd_never arg3_nw 196)
theorem r_197 : R V main_v141 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v139) (R V main_v140) :=
  HostRead.binary_at outs V 197 main_v139 main_v140 main_v141 _ _ _ _ rfl (res_fresh rfl) (opnd_before (j := 195) rfl (by decide)) (opnd_before (j := 196) rfl (by decide))
theorem r_198 : R V main_v142 = ((extractStridedSlice S1x64 ![1, 0] · slices_S3x64_S1x64_1_0) : (⟨S3x64, .f32⟩ : BufTy).Contents (Elt Ideal) → (⟨S1x64, .f32⟩ : BufTy).Contents (Elt Ideal)) (R V main_arg7) :=
  HostRead.unary_at outs V 198 main_arg7 main_v142 _ _ _ rfl (res_fresh rfl) (opnd_never arg7_nw 198)
theorem r_199 : R V main_v143 = fun i => shapeCast _ (R V main_v142) shapeCasts_S1x64_S64 i :=
  HostRead.reshape_at outs V 199 main_v142 main_v143 _ _ _ _ rfl (res_fresh rfl) (opnd_before (j := 198) rfl (by decide))
theorem r_200 : R V main_v144 = ((extractStridedSlice S1x64 ![1, 0] · slices_S3x64_S1x64_1_0) : (⟨S3x64, .f32⟩ : BufTy).Contents (Elt Ideal) → (⟨S1x64, .f32⟩ : BufTy).Contents (Elt Ideal)) (R V main_arg8) :=
  HostRead.unary_at outs V 200 main_arg8 main_v144 _ _ _ rfl (res_fresh rfl) (opnd_never arg8_nw 200)
theorem r_201 : R V main_v145 = fun i => shapeCast _ (R V main_v144) shapeCasts_S1x64_S64 i :=
  HostRead.reshape_at outs V 201 main_v144 main_v145 _ _ _ _ rfl (res_fresh rfl) (opnd_before (j := 200) rfl (by decide))
theorem r_202 : R V main_cst_19 = (constant (F := Ideal) S_ .f32 0x00000000#32) :=
  HostRead.nullary_at outs V 202 main_cst_19 _ _ rfl (res_fresh rfl)
theorem r_203 : R V main_v146 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_v141) (R V main_cst_19) :=
  HostRead.binary_at outs V 203 main_v141 main_cst_19 main_v146 _ _ _ _ rfl (res_fresh rfl) (opnd_before (j := 197) rfl (by decide)) (opnd_before (j := 202) rfl (by decide))
theorem r_204 : R V main_cst_20 = (constant (F := Ideal) S_ .f32 0x48742400#32) :=
  HostRead.nullary_at outs V 204 main_cst_20 _ _ rfl (res_fresh rfl)
theorem r_205 : R V main_v147 = (broadcastInDim S64 ![] bcast_S_S64 : (⟨S_, .f32⟩ : BufTy).Contents (Elt Ideal) → (⟨S64, .f32⟩ : BufTy).Contents (Elt Ideal)) (R V main_cst_20) :=
  HostRead.unary_at outs V 205 main_cst_20 main_v147 _ _ _ rfl (res_fresh rfl) (opnd_before (j := 204) rfl (by decide))
theorem r_206 : R V main_v148 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_v146) (R V main_v147) :=
  HostRead.binary_at outs V 206 main_v146 main_v147 main_v148 _ _ _ _ rfl (res_fresh rfl) (opnd_before (j := 203) rfl (by decide)) (opnd_before (j := 205) rfl (by decide))
theorem r_207 : R V main_c_21 = (constantI S_ 32 0#32) :=
  HostRead.nullary_at outs V 207 main_c_21 _ _ rfl (res_fresh rfl)
theorem r_208 : R V main_call2_cst = ((constant (F := Ideal) S_ .f32 0x00000000#32) : (⟨S_, .f32⟩ : BufTy).Contents (Elt Ideal)) :=
  eq_of_heq (HostRead.tnullary_at outs V 208 main_call2.cst _ rfl (res_fresh rfl))
theorem r_209 : R V main_call2_v0 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_v141) (R V main_call2_cst) :=
  eq_of_heq (HostRead.tbinary_at outs V 209 (.of main_v141 : StableHlo.TRef sig ⟨S250000x64, .f32⟩) main_call2.cst main_call2.v0 _ rfl (res_fresh rfl) (opnd_before (j := 197) rfl (by decide)) (opnd_before (j := 208) rfl (by decide)) (R V main_v141) (R V main_call2_cst) HEq.rfl HEq.rfl)
theorem r_210 : R V main_call2_v1 = ((broadcastInDim S1x64 ![1] bcast_S64_S1x64_1) : (⟨S64, .f32⟩ : BufTy).Contents (Elt Ideal) → (⟨S1x64, .f32⟩ : BufTy).Contents (Elt Ideal)) (R V main_call2_v0) :=
  eq_of_heq (HostRead.tunary_at outs V 210 main_call2.v0 main_call2.v1 _ rfl (res_fresh rfl) (opnd_before (j := 209) rfl (by decide)) (R V main_call2_v0) HEq.rfl)
theorem r_211 : R V main_call2_cst_0 = ((constant (F := Ideal) S_ .f32 0x48742400#32) : (⟨S_, .f32⟩ : BufTy).Contents (Elt Ideal)) :=
  eq_of_heq (HostRead.tnullary_at outs V 211 main_call2.cst_0 _ rfl (res_fresh rfl))
theorem r_212 : R V main_call2_v2 = ((broadcastInDim S1x64 ![] bcast_S_S1x64) : (⟨S_, .f32⟩ : BufTy).Contents (Elt Ideal) → (⟨S1x64, .f32⟩ : BufTy).Contents (Elt Ideal)) (R V main_call2_cst_0) :=
  eq_of_heq (HostRead.tunary_at outs V 212 main_call2.cst_0 main_call2.v2 _ rfl (res_fresh rfl) (opnd_before (j := 211) rfl (by decide)) (R V main_call2_cst_0) HEq.rfl)
theorem r_213 : R V main_call2_v3 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (R V main_call2_v1) (R V main_call2_v2) :=
  eq_of_heq (HostRead.tbinary_at outs V 213 main_call2.v1 main_call2.v2 main_call2.v3 _ rfl (res_fresh rfl) (opnd_before (j := 210) rfl (by decide)) (opnd_before (j := 212) rfl (by decide)) (R V main_call2_v1) (R V main_call2_v2) HEq.rfl HEq.rfl)
theorem r_214 : R V main_call2_v4 = ((broadcastInDim S250000x64 ![0, 1] bcast_S1x64_S250000x64_0_1) : (⟨S1x64, .f32⟩ : BufTy).Contents (Elt Ideal) → (⟨S250000x64, .f32⟩ : BufTy).Contents (Elt Ideal)) (R V main_call2_v3) :=
  eq_of_heq (HostRead.tunary_at outs V 214 main_call2.v3 main_call2.v4 _ rfl (res_fresh rfl) (opnd_before (j := 213) rfl (by decide)) (R V main_call2_v3) HEq.rfl)
theorem r_215 : R V main_call2_v5 = (subf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v141) (R V main_call2_v4) :=
  eq_of_heq (HostRead.tbinary_at outs V 215 (.of main_v141 : StableHlo.TRef sig ⟨S250000x64, .f32⟩) main_call2.v4 main_call2.v5 _ rfl (res_fresh rfl) (opnd_before (j := 197) rfl (by decide)) (opnd_before (j := 214) rfl (by decide)) (R V main_v141) (R V main_call2_v4) HEq.rfl HEq.rfl)
theorem r_216 : R V main_call2_v6 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_call2_v5) (R V main_call2_v5) :=
  eq_of_heq (HostRead.tbinary_at outs V 216 main_call2.v5 main_call2.v5 main_call2.v6 _ rfl (res_fresh rfl) (opnd_before (j := 215) rfl (by decide)) (opnd_before (j := 215) rfl (by decide)) (R V main_call2_v5) (R V main_call2_v5) HEq.rfl HEq.rfl)
theorem r_217 : R V main_call2_v7 = ((sitofp (F := Ideal) .f32) : (⟨S_, .i32⟩ : BufTy).Contents (Elt Ideal) → (⟨S_, .f32⟩ : BufTy).Contents (Elt Ideal)) (R V main_c_21) :=
  eq_of_heq (HostRead.tunary_at outs V 217 (.of main_c_21 : StableHlo.TRef sig ⟨S_, .i32⟩) main_call2.v7 _ rfl (res_fresh rfl) (opnd_before (j := 207) rfl (by decide)) (R V main_c_21) HEq.rfl)
theorem r_218 : R V main_call2_cst_1 = ((constant (F := Ideal) S_ .f32 0x48742400#32) : (⟨S_, .f32⟩ : BufTy).Contents (Elt Ideal)) :=
  eq_of_heq (HostRead.tnullary_at outs V 218 main_call2.cst_1 _ rfl (res_fresh rfl))
theorem r_219 : R V main_call2_v8 = (subf (F := Ideal) (φ := .f32) : (⟨S_, .f32⟩ : BufTy).Contents (Elt Ideal) → (⟨S_, .f32⟩ : BufTy).Contents (Elt Ideal) → (⟨S_, .f32⟩ : BufTy).Contents (Elt Ideal)) (R V main_call2_cst_1) (R V main_call2_v7) :=
  eq_of_heq (HostRead.tbinary_at outs V 219 main_call2.cst_1 main_call2.v7 main_call2.v8 _ rfl (res_fresh rfl) (opnd_before (j := 218) rfl (by decide)) (opnd_before (j := 217) rfl (by decide)) (R V main_call2_cst_1) (R V main_call2_v7) HEq.rfl HEq.rfl)
theorem r_220 : R V main_call2_cst_2 = ((constant (F := Ideal) S_ .f32 0x00000000#32) : (⟨S_, .f32⟩ : BufTy).Contents (Elt Ideal)) :=
  eq_of_heq (HostRead.tnullary_at outs V 220 main_call2.cst_2 _ rfl (res_fresh rfl))
theorem r_221 : R V main_call2_v9 = ((fun x v => Host.reduceAdd (F := Ideal) (φ := .f32) x v reducesTo_S250000x64_S64_d0 h_S_) : (⟨S250000x64, .f32⟩ : BufTy).Contents (Elt Ideal) → (⟨S_, .f32⟩ : BufTy).Contents (Elt Ideal) → (⟨S64, .f32⟩ : BufTy).Contents (Elt Ideal)) (R V main_call2_v6) (R V main_call2_cst_2) :=
  eq_of_heq (HostRead.tbinary_at outs V 221 main_call2.v6 main_call2.cst_2 main_call2.v9 _ rfl (res_fresh rfl) (opnd_before (j := 216) rfl (by decide)) (opnd_before (j := 220) rfl (by decide)) (R V main_call2_v6) (R V main_call2_cst_2) HEq.rfl HEq.rfl)
theorem r_222 : R V main_call2_v10 = ((broadcastInDim S64 ![] bcast_S_S64) : (⟨S_, .f32⟩ : BufTy).Contents (Elt Ideal) → (⟨S64, .f32⟩ : BufTy).Contents (Elt Ideal)) (R V main_call2_v8) :=
  eq_of_heq (HostRead.tunary_at outs V 222 main_call2.v8 main_call2.v10 _ rfl (res_fresh rfl) (opnd_before (j := 219) rfl (by decide)) (R V main_call2_v8) HEq.rfl)
theorem r_223 : R V main_call2_v11 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_call2_v9) (R V main_call2_v10) :=
  eq_of_heq (HostRead.tbinary_at outs V 223 main_call2.v9 main_call2.v10 main_call2.v11 _ rfl (res_fresh rfl) (opnd_before (j := 221) rfl (by decide)) (opnd_before (j := 222) rfl (by decide)) (R V main_call2_v9) (R V main_call2_v10) HEq.rfl HEq.rfl)
theorem r_224 : R V main_call2_cst_3 = ((constant (F := Ideal) S_ .f32 0x00000000#32) : (⟨S_, .f32⟩ : BufTy).Contents (Elt Ideal)) :=
  eq_of_heq (HostRead.tnullary_at outs V 224 main_call2.cst_3 _ rfl (res_fresh rfl))
theorem r_225 : R V main_call2_v12 = ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)) (R V main_call2_v8) (R V main_call2_cst_3) :=
  eq_of_heq (HostRead.tbinary_at outs V 225 main_call2.v8 main_call2.cst_3 main_call2.v12 _ rfl (res_fresh rfl) (opnd_before (j := 219) rfl (by decide)) (opnd_before (j := 224) rfl (by decide)) (R V main_call2_v8) (R V main_call2_cst_3) HEq.rfl HEq.rfl)
theorem r_226 : R V main_call2_cst_4 = ((constant (F := Ideal) S_ .f32 0x7FC00000#32) : (⟨S_, .f32⟩ : BufTy).Contents (Elt Ideal)) :=
  eq_of_heq (HostRead.tnullary_at outs V 226 main_call2.cst_4 _ rfl (res_fresh rfl))
theorem r_227 : R V main_call2_call0_v0 = (id : (⟨S_, .f32⟩ : BufTy).Contents (Elt Ideal) → (⟨S_, .f32⟩ : BufTy).Contents (Elt Ideal)) (R V main_call2_cst_4) :=
  eq_of_heq (HostRead.tunary_at outs V 227 main_call2.cst_4 main_call2.call0.v0 _ rfl (res_fresh rfl) (opnd_before (j := 226) rfl (by decide)) (R V main_call2_cst_4) HEq.rfl)
theorem r_228 : R V main_call2_call0_v1 = ((broadcastInDim S64 ![] bcast_S_S64) : (⟨S_, .f32⟩ : BufTy).Contents (Elt Ideal) → (⟨S64, .f32⟩ : BufTy).Contents (Elt Ideal)) (R V main_call2_call0_v0) :=
  eq_of_heq (HostRead.tunary_at outs V 228 main_call2.call0.v0 main_call2.call0.v1 _ rfl (res_fresh rfl) (opnd_before (j := 227) rfl (by decide)) (R V main_call2_call0_v0) HEq.rfl)
theorem r_229 : R V main_v149 = ((fun p a b => select (broadcastInDim S64 ![] bcast_S_S64 p) a b) : (⟨S_, .i1⟩ : BufTy).Contents (Elt Ideal) → (⟨S64, .f32⟩ : BufTy).Contents (Elt Ideal) → (⟨S64, .f32⟩ : BufTy).Contents (Elt Ideal) → (⟨S64, .f32⟩ : BufTy).Contents (Elt Ideal)) (R V main_call2_v12) (R V main_call2_v11) (R V main_call2_call0_v1) :=
  eq_of_heq (HostRead.tternary_at outs V 229 main_call2.v12 main_call2.v11 main_call2.call0.v1 main_call2.call0.v2 _ rfl (res_fresh rfl) (opnd_before (j := 225) rfl (by decide)) (opnd_before (j := 223) rfl (by decide)) (opnd_before (j := 228) rfl (by decide)) (R V main_call2_v12) (R V main_call2_v11) (R V main_call2_call0_v1) HEq.rfl HEq.rfl HEq.rfl)
theorem r_230 : R V main_v150 = (broadcastInDim S1x64 ![1] bcast_S64_S1x64_1 : (⟨S64, .f32⟩ : BufTy).Contents (Elt Ideal) → (⟨S1x64, .f32⟩ : BufTy).Contents (Elt Ideal)) (R V main_v148) :=
  HostRead.unary_at outs V 230 main_v148 main_v150 _ _ _ rfl (res_fresh rfl) (opnd_before (j := 206) rfl (by decide))
theorem r_231 : R V main_v151 = (broadcastInDim S250000x64 ![0, 1] bcast_S1x64_S250000x64_0_1 : (⟨S1x64, .f32⟩ : BufTy).Contents (Elt Ideal) → (⟨S250000x64, .f32⟩ : BufTy).Contents (Elt Ideal)) (R V main_v150) :=
  HostRead.unary_at outs V 231 main_v150 main_v151 _ _ _ rfl (res_fresh rfl) (opnd_before (j := 230) rfl (by decide))
theorem r_232 : R V main_v152 = (subf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v141) (R V main_v151) :=
  HostRead.binary_at outs V 232 main_v141 main_v151 main_v152 _ _ _ _ rfl (res_fresh rfl) (opnd_before (j := 197) rfl (by decide)) (opnd_before (j := 231) rfl (by decide))
theorem r_233 : R V main_cst_22 = (constant (F := Ideal) S_ .f32 0x3727C5AC#32) :=
  HostRead.nullary_at outs V 233 main_cst_22 _ _ rfl (res_fresh rfl)
theorem r_234 : R V main_v153 = (broadcastInDim S64 ![] bcast_S_S64 : (⟨S_, .f32⟩ : BufTy).Contents (Elt Ideal) → (⟨S64, .f32⟩ : BufTy).Contents (Elt Ideal)) (R V main_cst_22) :=
  HostRead.unary_at outs V 234 main_cst_22 main_v153 _ _ _ rfl (res_fresh rfl) (opnd_before (j := 233) rfl (by decide))
theorem r_235 : R V main_v154 = (addf (F := Ideal) (φ := .f32) : (⟨S64, .f32⟩ : BufTy).Contents (Elt Ideal) → (⟨S64, .f32⟩ : BufTy).Contents (Elt Ideal) → (⟨S64, .f32⟩ : BufTy).Contents (Elt Ideal)) (R V main_v149) (R V main_v153) :=
  HostRead.binary_at outs V 235 main_v149 main_v153 main_v154 _ _ _ _ rfl (res_fresh rfl) (opnd_before (j := 229) rfl (by decide)) (opnd_before (j := 234) rfl (by decide))

end Cert.ReferenceIdeal.HandV

end
-- ==== Proof.Ref.HostEqs3.lean ====
/- A table: window 3 of the reference program's @main, one equation per operation (places 236 … 309 of the line):
   after the whole line the operation's result buffer holds the operation's own function of what its operand
   buffers hold after the whole line — every buffer is written once, an operand before it is read. -/
import proofs.«180658_j65867618451767_1_alg».proof.Proof.Ref.Stage
import Idealize.ShloMosaic.PureOps.Ideal

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable (V : Valuation τ sig (Elt Ideal))

theorem r_236 : R V main_v155 = (Host.rsqrt (F := Ideal) (φ := .f32) : (⟨S64, .f32⟩ : BufTy).Contents (Elt Ideal) → (⟨S64, .f32⟩ : BufTy).Contents (Elt Ideal)) (R V main_v154) :=
  HostRead.unary_at outs V 236 main_v154 main_v155 _ _ _ rfl (res_fresh rfl) (opnd_before (j := 235) rfl (by decide))
theorem r_237 : R V main_v156 = (broadcastInDim S1x64 ![1] bcast_S64_S1x64_1 : (⟨S64, .f32⟩ : BufTy).Contents (Elt Ideal) → (⟨S1x64, .f32⟩ : BufTy).Contents (Elt Ideal)) (R V main_v155) :=
  HostRead.unary_at outs V 237 main_v155 main_v156 _ _ _ rfl (res_fresh rfl) (opnd_before (j := 236) rfl (by decide))
theorem r_238 : R V main_v157 = (broadcastInDim S250000x64 ![0, 1] bcast_S1x64_S250000x64_0_1 : (⟨S1x64, .f32⟩ : BufTy).Contents (Elt Ideal) → (⟨S250000x64, .f32⟩ : BufTy).Contents (Elt Ideal)) (R V main_v156) :=
  HostRead.unary_at outs V 238 main_v156 main_v157 _ _ _ rfl (res_fresh rfl) (opnd_before (j := 237) rfl (by decide))
theorem r_239 : R V main_v158 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v152) (R V main_v157) :=
  HostRead.binary_at outs V 239 main_v152 main_v157 main_v158 _ _ _ _ rfl (res_fresh rfl) (opnd_before (j := 232) rfl (by decide)) (opnd_before (j := 238) rfl (by decide))
theorem r_240 : R V main_v159 = (broadcastInDim S1x64 ![1] bcast_S64_S1x64_1 : (⟨S64, .f32⟩ : BufTy).Contents (Elt Ideal) → (⟨S1x64, .f32⟩ : BufTy).Contents (Elt Ideal)) (R V main_v143) :=
  HostRead.unary_at outs V 240 main_v143 main_v159 _ _ _ rfl (res_fresh rfl) (opnd_before (j := 199) rfl (by decide))
theorem r_241 : R V main_v160 = (broadcastInDim S250000x64 ![0, 1] bcast_S1x64_S250000x64_0_1 : (⟨S1x64, .f32⟩ : BufTy).Contents (Elt Ideal) → (⟨S250000x64, .f32⟩ : BufTy).Contents (Elt Ideal)) (R V main_v159) :=
  HostRead.unary_at outs V 241 main_v159 main_v160 _ _ _ rfl (res_fresh rfl) (opnd_before (j := 240) rfl (by decide))
theorem r_242 : R V main_v161 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v158) (R V main_v160) :=
  HostRead.binary_at outs V 242 main_v158 main_v160 main_v161 _ _ _ _ rfl (res_fresh rfl) (opnd_before (j := 239) rfl (by decide)) (opnd_before (j := 241) rfl (by decide))
theorem r_243 : R V main_v162 = (broadcastInDim S1x64 ![1] bcast_S64_S1x64_1 : (⟨S64, .f32⟩ : BufTy).Contents (Elt Ideal) → (⟨S1x64, .f32⟩ : BufTy).Contents (Elt Ideal)) (R V main_v145) :=
  HostRead.unary_at outs V 243 main_v145 main_v162 _ _ _ rfl (res_fresh rfl) (opnd_before (j := 201) rfl (by decide))
theorem r_244 : R V main_v163 = (broadcastInDim S250000x64 ![0, 1] bcast_S1x64_S250000x64_0_1 : (⟨S1x64, .f32⟩ : BufTy).Contents (Elt Ideal) → (⟨S250000x64, .f32⟩ : BufTy).Contents (Elt Ideal)) (R V main_v162) :=
  HostRead.unary_at outs V 244 main_v162 main_v163 _ _ _ rfl (res_fresh rfl) (opnd_before (j := 243) rfl (by decide))
theorem r_245 : R V main_v164 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v161) (R V main_v163) :=
  HostRead.binary_at outs V 245 main_v161 main_v163 main_v164 _ _ _ _ rfl (res_fresh rfl) (opnd_before (j := 242) rfl (by decide)) (opnd_before (j := 244) rfl (by decide))
theorem r_246 : R V main_call3_cst = ((constant (F := Ideal) S_ .f32 0x00000000#32) : (⟨S_, .f32⟩ : BufTy).Contents (Elt Ideal)) :=
  eq_of_heq (HostRead.tnullary_at outs V 246 main_call3.cst _ rfl (res_fresh rfl))
theorem r_247 : R V main_call3_v0 = ((broadcastInDim S250000x64 ![] bcast_S_S250000x64) : (⟨S_, .f32⟩ : BufTy).Contents (Elt Ideal) → (⟨S250000x64, .f32⟩ : BufTy).Contents (Elt Ideal)) (R V main_call3_cst) :=
  eq_of_heq (HostRead.tunary_at outs V 247 main_call3.cst main_call3.v0 _ rfl (res_fresh rfl) (opnd_before (j := 246) rfl (by decide)) (R V main_call3_cst) HEq.rfl)
theorem r_248 : R V main_call3_v1 = ((cmpf (F := Ideal) (φ := .f32) .ogt) : (⟨S250000x64, .f32⟩ : BufTy).Contents (Elt Ideal) → (⟨S250000x64, .f32⟩ : BufTy).Contents (Elt Ideal) → (⟨S250000x64, .i1⟩ : BufTy).Contents (Elt Ideal)) (R V main_v164) (R V main_call3_v0) :=
  eq_of_heq (HostRead.tbinary_at outs V 248 (.of main_v164 : StableHlo.TRef sig ⟨S250000x64, .f32⟩) main_call3.v0 main_call3.v1 _ rfl (res_fresh rfl) (opnd_before (j := 245) rfl (by decide)) (opnd_before (j := 247) rfl (by decide)) (R V main_v164) (R V main_call3_v0) HEq.rfl HEq.rfl)
theorem r_249 : R V main_call3_cst_0 = ((constant (F := Ideal) S_ .f32 0x00000000#32) : (⟨S_, .f32⟩ : BufTy).Contents (Elt Ideal)) :=
  eq_of_heq (HostRead.tnullary_at outs V 249 main_call3.cst_0 _ rfl (res_fresh rfl))
theorem r_250 : R V main_call3_v2 = ((broadcastInDim S250000x64 ![] bcast_S_S250000x64) : (⟨S_, .f32⟩ : BufTy).Contents (Elt Ideal) → (⟨S250000x64, .f32⟩ : BufTy).Contents (Elt Ideal)) (R V main_call3_cst_0) :=
  eq_of_heq (HostRead.tunary_at outs V 250 main_call3.cst_0 main_call3.v2 _ rfl (res_fresh rfl) (opnd_before (j := 249) rfl (by decide)) (R V main_call3_cst_0) HEq.rfl)
theorem r_251 : R V main_call3_v3 = ((cmpf (F := Ideal) (φ := .f32) .ogt) : (⟨S250000x64, .f32⟩ : BufTy).Contents (Elt Ideal) → (⟨S250000x64, .f32⟩ : BufTy).Contents (Elt Ideal) → (⟨S250000x64, .i1⟩ : BufTy).Contents (Elt Ideal)) (R V main_v164) (R V main_call3_v2) :=
  eq_of_heq (HostRead.tbinary_at outs V 251 (.of main_v164 : StableHlo.TRef sig ⟨S250000x64, .f32⟩) main_call3.v2 main_call3.v3 _ rfl (res_fresh rfl) (opnd_before (j := 245) rfl (by decide)) (opnd_before (j := 250) rfl (by decide)) (R V main_v164) (R V main_call3_v2) HEq.rfl HEq.rfl)
theorem r_252 : R V main_call3_cst_1 = ((constant (F := Ideal) S_ .f32 0x00000000#32) : (⟨S_, .f32⟩ : BufTy).Contents (Elt Ideal)) :=
  eq_of_heq (HostRead.tnullary_at outs V 252 main_call3.cst_1 _ rfl (res_fresh rfl))
theorem r_253 : R V main_call3_call0_v0 = (id : (⟨S_, .f32⟩ : BufTy).Contents (Elt Ideal) → (⟨S_, .f32⟩ : BufTy).Contents (Elt Ideal)) (R V main_call3_cst_1) :=
  eq_of_heq (HostRead.tunary_at outs V 253 main_call3.cst_1 main_call3.call0.v0 _ rfl (res_fresh rfl) (opnd_before (j := 252) rfl (by decide)) (R V main_call3_cst_1) HEq.rfl)
theorem r_254 : R V main_call3_call0_v1 = ((broadcastInDim S250000x64 ![] bcast_S_S250000x64) : (⟨S_, .f32⟩ : BufTy).Contents (Elt Ideal) → (⟨S250000x64, .f32⟩ : BufTy).Contents (Elt Ideal)) (R V main_call3_call0_v0) :=
  eq_of_heq (HostRead.tunary_at outs V 254 main_call3.call0.v0 main_call3.call0.v1 _ rfl (res_fresh rfl) (opnd_before (j := 253) rfl (by decide)) (R V main_call3_call0_v0) HEq.rfl)
theorem r_255 : R V main_call3_v4 = (select : (⟨S250000x64, .i1⟩ : BufTy).Contents (Elt Ideal) → (⟨S250000x64, .f32⟩ : BufTy).Contents (Elt Ideal) → (⟨S250000x64, .f32⟩ : BufTy).Contents (Elt Ideal) → (⟨S250000x64, .f32⟩ : BufTy).Contents (Elt Ideal)) (R V main_call3_v3) (R V main_call3_call0_v1) (R V main_v164) :=
  eq_of_heq (HostRead.tternary_at outs V 255 main_call3.v3 main_call3.call0.v1 (.of main_v164 : StableHlo.TRef sig ⟨S250000x64, .f32⟩) main_call3.call0.v2 _ rfl (res_fresh rfl) (opnd_before (j := 251) rfl (by decide)) (opnd_before (j := 254) rfl (by decide)) (opnd_before (j := 245) rfl (by decide)) (R V main_call3_v3) (R V main_call3_call0_v1) (R V main_v164) HEq.rfl HEq.rfl HEq.rfl)
theorem r_256 : R V main_call3_v5 = (Host.expm1 (F := Ideal) (φ := .f32) : (⟨S250000x64, .f32⟩ : BufTy).Contents (Elt Ideal) → (⟨S250000x64, .f32⟩ : BufTy).Contents (Elt Ideal)) (R V main_call3_v4) :=
  eq_of_heq (HostRead.tunary_at outs V 256 main_call3.call0.v2 main_call3.v5 _ rfl (res_fresh rfl) (opnd_before (j := 255) rfl (by decide)) (R V main_call3_v4) HEq.rfl)
theorem r_257 : R V main_call3_cst_2 = ((constant (F := Ideal) S_ .f32 0x3F800000#32) : (⟨S_, .f32⟩ : BufTy).Contents (Elt Ideal)) :=
  eq_of_heq (HostRead.tnullary_at outs V 257 main_call3.cst_2 _ rfl (res_fresh rfl))
theorem r_258 : R V main_call3_v6 = ((broadcastInDim S250000x64 ![] bcast_S_S250000x64) : (⟨S_, .f32⟩ : BufTy).Contents (Elt Ideal) → (⟨S250000x64, .f32⟩ : BufTy).Contents (Elt Ideal)) (R V main_call3_cst_2) :=
  eq_of_heq (HostRead.tunary_at outs V 258 main_call3.cst_2 main_call3.v6 _ rfl (res_fresh rfl) (opnd_before (j := 257) rfl (by decide)) (R V main_call3_cst_2) HEq.rfl)
theorem r_259 : R V main_call3_v7 = (mulf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_call3_v6) (R V main_call3_v5) :=
  eq_of_heq (HostRead.tbinary_at outs V 259 main_call3.v6 main_call3.v5 main_call3.v7 _ rfl (res_fresh rfl) (opnd_before (j := 258) rfl (by decide)) (opnd_before (j := 256) rfl (by decide)) (R V main_call3_v6) (R V main_call3_v5) HEq.rfl HEq.rfl)
theorem r_260 : R V main_v165 = (select : (⟨S250000x64, .i1⟩ : BufTy).Contents (Elt Ideal) → (⟨S250000x64, .f32⟩ : BufTy).Contents (Elt Ideal) → (⟨S250000x64, .f32⟩ : BufTy).Contents (Elt Ideal) → (⟨S250000x64, .f32⟩ : BufTy).Contents (Elt Ideal)) (R V main_call3_v1) (R V main_v164) (R V main_call3_v7) :=
  eq_of_heq (HostRead.tternary_at outs V 260 main_call3.v1 (.of main_v164 : StableHlo.TRef sig ⟨S250000x64, .f32⟩) main_call3.v7 main_call3.call1.v0 _ rfl (res_fresh rfl) (opnd_before (j := 248) rfl (by decide)) (opnd_before (j := 245) rfl (by decide)) (opnd_before (j := 259) rfl (by decide)) (R V main_call3_v1) (R V main_v164) (R V main_call3_v7) HEq.rfl HEq.rfl HEq.rfl)
theorem r_261 : R V main_v166 = ((extractStridedSlice S1x64x64 ![6, 0, 0] · slices_S9x64x64_S1x64x64_6_0_0) : (⟨S9x64x64, .f32⟩ : BufTy).Contents (Elt Ideal) → (⟨S1x64x64, .f32⟩ : BufTy).Contents (Elt Ideal)) (R V main_arg5) :=
  HostRead.unary_at outs V 261 main_arg5 main_v166 _ _ _ rfl (res_fresh rfl) (opnd_never arg5_nw 261)
theorem r_262 : R V main_v167 = fun i => shapeCast _ (R V main_v166) shapeCasts_S1x64x64_S64x64 i :=
  HostRead.reshape_at outs V 262 main_v166 main_v167 _ _ _ _ rfl (res_fresh rfl) (opnd_before (j := 261) rfl (by decide))
theorem r_263 : R V main_v168 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_v165) (R V main_v167) :=
  HostRead.binary_at outs V 263 main_v165 main_v167 main_v168 _ _ _ _ rfl (res_fresh rfl) (opnd_before (j := 260) rfl (by decide)) (opnd_before (j := 262) rfl (by decide))
theorem r_264 : R V main_v169 = ((extractStridedSlice S1x64 ![6, 0] · slices_S9x64_S1x64_6_0) : (⟨S9x64, .f32⟩ : BufTy).Contents (Elt Ideal) → (⟨S1x64, .f32⟩ : BufTy).Contents (Elt Ideal)) (R V main_arg6) :=
  HostRead.unary_at outs V 264 main_arg6 main_v169 _ _ _ rfl (res_fresh rfl) (opnd_never arg6_nw 264)
theorem r_265 : R V main_v170 = fun i => shapeCast _ (R V main_v169) shapeCasts_S1x64_S64 i :=
  HostRead.reshape_at outs V 265 main_v169 main_v170 _ _ _ _ rfl (res_fresh rfl) (opnd_before (j := 264) rfl (by decide))
theorem r_266 : R V main_v171 = (broadcastInDim S1x64 ![1] bcast_S64_S1x64_1 : (⟨S64, .f32⟩ : BufTy).Contents (Elt Ideal) → (⟨S1x64, .f32⟩ : BufTy).Contents (Elt Ideal)) (R V main_v170) :=
  HostRead.unary_at outs V 266 main_v170 main_v171 _ _ _ rfl (res_fresh rfl) (opnd_before (j := 265) rfl (by decide))
theorem r_267 : R V main_v172 = (broadcastInDim S250000x64 ![0, 1] bcast_S1x64_S250000x64_0_1 : (⟨S1x64, .f32⟩ : BufTy).Contents (Elt Ideal) → (⟨S250000x64, .f32⟩ : BufTy).Contents (Elt Ideal)) (R V main_v171) :=
  HostRead.unary_at outs V 267 main_v171 main_v172 _ _ _ rfl (res_fresh rfl) (opnd_before (j := 266) rfl (by decide))
theorem r_268 : R V main_v173 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v168) (R V main_v172) :=
  HostRead.binary_at outs V 268 main_v168 main_v172 main_v173 _ _ _ _ rfl (res_fresh rfl) (opnd_before (j := 263) rfl (by decide)) (opnd_before (j := 267) rfl (by decide))
theorem r_269 : R V main_v174 = ((extractStridedSlice S1x64x64 ![7, 0, 0] · slices_S9x64x64_S1x64x64_7_0_0) : (⟨S9x64x64, .f32⟩ : BufTy).Contents (Elt Ideal) → (⟨S1x64x64, .f32⟩ : BufTy).Contents (Elt Ideal)) (R V main_arg5) :=
  HostRead.unary_at outs V 269 main_arg5 main_v174 _ _ _ rfl (res_fresh rfl) (opnd_never arg5_nw 269)
theorem r_270 : R V main_v175 = fun i => shapeCast _ (R V main_v174) shapeCasts_S1x64x64_S64x64 i :=
  HostRead.reshape_at outs V 270 main_v174 main_v175 _ _ _ _ rfl (res_fresh rfl) (opnd_before (j := 269) rfl (by decide))
theorem r_271 : R V main_v176 = ((fun l r => Host.dotGeneral (F := Ideal) (φ₁ := .f32) (φ₂ := .f32) dot_S250000x64_S64x64_S250000x64_1_0_0_1_n_n none l r) : (⟨S250000x64, .f32⟩ : BufTy).Contents (Elt Ideal) → (⟨S64x64, .f32⟩ : BufTy).Contents (Elt Ideal) → (⟨S250000x64, .f32⟩ : BufTy).Contents (Elt Ideal)) (R V main_v97) (R V main_v175) :=
  HostRead.binary_at outs V 271 main_v97 main_v175 main_v176 _ _ _ _ rfl (res_fresh rfl) (opnd_before (j := 142) rfl (by decide)) (opnd_before (j := 270) rfl (by decide))
theorem r_272 : R V main_v177 = ((extractStridedSlice S1x64 ![7, 0] · slices_S9x64_S1x64_7_0) : (⟨S9x64, .f32⟩ : BufTy).Contents (Elt Ideal) → (⟨S1x64, .f32⟩ : BufTy).Contents (Elt Ideal)) (R V main_arg6) :=
  HostRead.unary_at outs V 272 main_arg6 main_v177 _ _ _ rfl (res_fresh rfl) (opnd_never arg6_nw 272)
theorem r_273 : R V main_v178 = fun i => shapeCast _ (R V main_v177) shapeCasts_S1x64_S64 i :=
  HostRead.reshape_at outs V 273 main_v177 main_v178 _ _ _ _ rfl (res_fresh rfl) (opnd_before (j := 272) rfl (by decide))
theorem r_274 : R V main_v179 = (broadcastInDim S1x64 ![1] bcast_S64_S1x64_1 : (⟨S64, .f32⟩ : BufTy).Contents (Elt Ideal) → (⟨S1x64, .f32⟩ : BufTy).Contents (Elt Ideal)) (R V main_v178) :=
  HostRead.unary_at outs V 274 main_v178 main_v179 _ _ _ rfl (res_fresh rfl) (opnd_before (j := 273) rfl (by decide))
theorem r_275 : R V main_v180 = (broadcastInDim S250000x64 ![0, 1] bcast_S1x64_S250000x64_0_1 : (⟨S1x64, .f32⟩ : BufTy).Contents (Elt Ideal) → (⟨S250000x64, .f32⟩ : BufTy).Contents (Elt Ideal)) (R V main_v179) :=
  HostRead.unary_at outs V 275 main_v179 main_v180 _ _ _ rfl (res_fresh rfl) (opnd_before (j := 274) rfl (by decide))
theorem r_276 : R V main_v181 = (addf (F := Ideal) (φ := .f32) : (⟨S250000x64, .f32⟩ : BufTy).Contents (Elt Ideal) → (⟨S250000x64, .f32⟩ : BufTy).Contents (Elt Ideal) → (⟨S250000x64, .f32⟩ : BufTy).Contents (Elt Ideal)) (R V main_v176) (R V main_v180) :=
  HostRead.binary_at outs V 276 main_v176 main_v180 main_v181 _ _ _ _ rfl (res_fresh rfl) (opnd_before (j := 271) rfl (by decide)) (opnd_before (j := 275) rfl (by decide))
theorem r_277 : R V main_v182 = ((extractStridedSlice S1x64x64 ![8, 0, 0] · slices_S9x64x64_S1x64x64_8_0_0) : (⟨S9x64x64, .f32⟩ : BufTy).Contents (Elt Ideal) → (⟨S1x64x64, .f32⟩ : BufTy).Contents (Elt Ideal)) (R V main_arg5) :=
  HostRead.unary_at outs V 277 main_arg5 main_v182 _ _ _ rfl (res_fresh rfl) (opnd_never arg5_nw 277)
theorem r_278 : R V main_v183 = fun i => shapeCast _ (R V main_v182) shapeCasts_S1x64x64_S64x64 i :=
  HostRead.reshape_at outs V 278 main_v182 main_v183 _ _ _ _ rfl (res_fresh rfl) (opnd_before (j := 277) rfl (by decide))
theorem r_279 : R V main_v184 = ((fun l r => Host.dotGeneral (F := Ideal) (φ₁ := .f32) (φ₂ := .f32) dot_S10000x64_S64x64_S10000x64_1_0_0_1_n_n none l r) : (⟨S10000x64, .f32⟩ : BufTy).Contents (Elt Ideal) → (⟨S64x64, .f32⟩ : BufTy).Contents (Elt Ideal) → (⟨S10000x64, .f32⟩ : BufTy).Contents (Elt Ideal)) (R V main_arg2) (R V main_v183) :=
  HostRead.binary_at outs V 279 main_arg2 main_v183 main_v184 _ _ _ _ rfl (res_fresh rfl) (opnd_never arg2_nw 279) (opnd_before (j := 278) rfl (by decide))
theorem r_280 : R V main_v185 = ((extractStridedSlice S1x64 ![8, 0] · slices_S9x64_S1x64_8_0) : (⟨S9x64, .f32⟩ : BufTy).Contents (Elt Ideal) → (⟨S1x64, .f32⟩ : BufTy).Contents (Elt Ideal)) (R V main_arg6) :=
  HostRead.unary_at outs V 280 main_arg6 main_v185 _ _ _ rfl (res_fresh rfl) (opnd_never arg6_nw 280)
theorem r_281 : R V main_v186 = fun i => shapeCast _ (R V main_v185) shapeCasts_S1x64_S64 i :=
  HostRead.reshape_at outs V 281 main_v185 main_v186 _ _ _ _ rfl (res_fresh rfl) (opnd_before (j := 280) rfl (by decide))
theorem r_282 : R V main_v187 = (broadcastInDim S1x64 ![1] bcast_S64_S1x64_1 : (⟨S64, .f32⟩ : BufTy).Contents (Elt Ideal) → (⟨S1x64, .f32⟩ : BufTy).Contents (Elt Ideal)) (R V main_v186) :=
  HostRead.unary_at outs V 282 main_v186 main_v187 _ _ _ rfl (res_fresh rfl) (opnd_before (j := 281) rfl (by decide))
theorem r_283 : R V main_v188 = (broadcastInDim S10000x64 ![0, 1] bcast_S1x64_S10000x64_0_1 : (⟨S1x64, .f32⟩ : BufTy).Contents (Elt Ideal) → (⟨S10000x64, .f32⟩ : BufTy).Contents (Elt Ideal)) (R V main_v187) :=
  HostRead.unary_at outs V 283 main_v187 main_v188 _ _ _ rfl (res_fresh rfl) (opnd_before (j := 282) rfl (by decide))
theorem r_284 : R V main_v189 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v184) (R V main_v188) :=
  HostRead.binary_at outs V 284 main_v184 main_v188 main_v189 _ _ _ _ rfl (res_fresh rfl) (opnd_before (j := 279) rfl (by decide)) (opnd_before (j := 283) rfl (by decide))
theorem r_285 : R V main_cst_23 = (constant (F := Ideal) S_ .f32 0x3F800000#32) :=
  HostRead.nullary_at outs V 285 main_cst_23 _ _ rfl (res_fresh rfl)
theorem r_286 : R V main_v190 = (broadcastInDim S250000x1 ![] bcast_S_S250000x1 : (⟨S_, .f32⟩ : BufTy).Contents (Elt Ideal) → (⟨S250000x1, .f32⟩ : BufTy).Contents (Elt Ideal)) (R V main_cst_23) :=
  HostRead.unary_at outs V 286 main_cst_23 main_v190 _ _ _ rfl (res_fresh rfl) (opnd_before (j := 285) rfl (by decide))
theorem r_287 : R V main_cst_24 = (constant (F := Ideal) S_ .f32 0x00000000#32) :=
  HostRead.nullary_at outs V 287 main_cst_24 _ _ rfl (res_fresh rfl)
theorem r_288 : R V main_v191 = (broadcastInDim S10000x1 ![] bcast_S_S10000x1 : (⟨S_, .f32⟩ : BufTy).Contents (Elt Ideal) → (⟨S10000x1, .f32⟩ : BufTy).Contents (Elt Ideal)) (R V main_cst_24) :=
  HostRead.unary_at outs V 288 main_cst_24 main_v191 _ _ _ rfl (res_fresh rfl) (opnd_before (j := 287) rfl (by decide))
theorem r_289 : R V main_v192 = (broadcastInDim S250000x1 ![0] bcast_S250000_S250000x1_0 : (⟨S250000, .i32⟩ : BufTy).Contents (Elt Ideal) → (⟨S250000x1, .i32⟩ : BufTy).Contents (Elt Ideal)) (R V main_arg11) :=
  HostRead.unary_at outs V 289 main_arg11 main_v192 _ _ _ rfl (res_fresh rfl) (opnd_never arg11_nw 289)
theorem r_290 : R V main_v193 = ((fun x i u => Host.scatterAdd (F := Ideal) (φ := .f32) scatter_S10000x1_S250000x1_S250000x1_1_0_0_1 x i u) : (⟨S10000x1, .f32⟩ : BufTy).Contents (Elt Ideal) → (⟨S250000x1, .i32⟩ : BufTy).Contents (Elt Ideal) → (⟨S250000x1, .f32⟩ : BufTy).Contents (Elt Ideal) → (⟨S10000x1, .f32⟩ : BufTy).Contents (Elt Ideal)) (R V main_v191) (R V main_v192) (R V main_v190) :=
  HostRead.ternary_at outs V 290 main_v191 main_v192 main_v190 main_v193 _ _ _ _ _ rfl (res_fresh rfl) (opnd_before (j := 288) rfl (by decide)) (opnd_before (j := 289) rfl (by decide)) (opnd_before (j := 286) rfl (by decide))
theorem r_291 : R V main_cst_25 = (constant (F := Ideal) S_ .f32 0x3F800000#32) :=
  HostRead.nullary_at outs V 291 main_cst_25 _ _ rfl (res_fresh rfl)
theorem r_292 : R V main_v194 = (broadcastInDim S250000x1 ![] bcast_S_S250000x1 : (⟨S_, .f32⟩ : BufTy).Contents (Elt Ideal) → (⟨S250000x1, .f32⟩ : BufTy).Contents (Elt Ideal)) (R V main_cst_25) :=
  HostRead.unary_at outs V 292 main_cst_25 main_v194 _ _ _ rfl (res_fresh rfl) (opnd_before (j := 291) rfl (by decide))
theorem r_293 : R V main_cst_26 = (constant (F := Ideal) S_ .f32 0x00000000#32) :=
  HostRead.nullary_at outs V 293 main_cst_26 _ _ rfl (res_fresh rfl)
theorem r_294 : R V main_v195 = (broadcastInDim S10000x1 ![] bcast_S_S10000x1 : (⟨S_, .f32⟩ : BufTy).Contents (Elt Ideal) → (⟨S10000x1, .f32⟩ : BufTy).Contents (Elt Ideal)) (R V main_cst_26) :=
  HostRead.unary_at outs V 294 main_cst_26 main_v195 _ _ _ rfl (res_fresh rfl) (opnd_before (j := 293) rfl (by decide))
theorem r_295 : R V main_v196 = (broadcastInDim S250000x1 ![0] bcast_S250000_S250000x1_0 : (⟨S250000, .i32⟩ : BufTy).Contents (Elt Ideal) → (⟨S250000x1, .i32⟩ : BufTy).Contents (Elt Ideal)) (R V main_arg12) :=
  HostRead.unary_at outs V 295 main_arg12 main_v196 _ _ _ rfl (res_fresh rfl) (opnd_never arg12_nw 295)
theorem r_296 : R V main_v197 = ((fun x i u => Host.scatterAdd (F := Ideal) (φ := .f32) scatter_S10000x1_S250000x1_S250000x1_1_0_0_1 x i u) : (⟨S10000x1, .f32⟩ : BufTy).Contents (Elt Ideal) → (⟨S250000x1, .i32⟩ : BufTy).Contents (Elt Ideal) → (⟨S250000x1, .f32⟩ : BufTy).Contents (Elt Ideal) → (⟨S10000x1, .f32⟩ : BufTy).Contents (Elt Ideal)) (R V main_v195) (R V main_v196) (R V main_v194) :=
  HostRead.ternary_at outs V 296 main_v195 main_v196 main_v194 main_v197 _ _ _ _ _ rfl (res_fresh rfl) (opnd_before (j := 294) rfl (by decide)) (opnd_before (j := 295) rfl (by decide)) (opnd_before (j := 292) rfl (by decide))
theorem r_297 : R V main_cst_27 = (constant (F := Ideal) S_ .f32 0x00000000#32) :=
  HostRead.nullary_at outs V 297 main_cst_27 _ _ rfl (res_fresh rfl)
theorem r_298 : R V main_v198 = (broadcastInDim S10000x64 ![] bcast_S_S10000x64 : (⟨S_, .f32⟩ : BufTy).Contents (Elt Ideal) → (⟨S10000x64, .f32⟩ : BufTy).Contents (Elt Ideal)) (R V main_cst_27) :=
  HostRead.unary_at outs V 298 main_cst_27 main_v198 _ _ _ rfl (res_fresh rfl) (opnd_before (j := 297) rfl (by decide))
theorem r_299 : R V main_v199 = (broadcastInDim S250000x1 ![0] bcast_S250000_S250000x1_0 : (⟨S250000, .i32⟩ : BufTy).Contents (Elt Ideal) → (⟨S250000x1, .i32⟩ : BufTy).Contents (Elt Ideal)) (R V main_arg11) :=
  HostRead.unary_at outs V 299 main_arg11 main_v199 _ _ _ rfl (res_fresh rfl) (opnd_never arg11_nw 299)
theorem r_300 : R V main_v200 = ((fun x i u => Host.scatterAdd (F := Ideal) (φ := .f32) scatter_S10000x64_S250000x1_S250000x64_1_0_0_1 x i u) : (⟨S10000x64, .f32⟩ : BufTy).Contents (Elt Ideal) → (⟨S250000x1, .i32⟩ : BufTy).Contents (Elt Ideal) → (⟨S250000x64, .f32⟩ : BufTy).Contents (Elt Ideal) → (⟨S10000x64, .f32⟩ : BufTy).Contents (Elt Ideal)) (R V main_v198) (R V main_v199) (R V main_v173) :=
  HostRead.ternary_at outs V 300 main_v198 main_v199 main_v173 main_v200 _ _ _ _ _ rfl (res_fresh rfl) (opnd_before (j := 298) rfl (by decide)) (opnd_before (j := 299) rfl (by decide)) (opnd_before (j := 268) rfl (by decide))
theorem r_301 : R V main_cst_28 = (constant (F := Ideal) S_ .f32 0x3F800000#32) :=
  HostRead.nullary_at outs V 301 main_cst_28 _ _ rfl (res_fresh rfl)
theorem r_302 : R V main_v201 = (broadcastInDim S10000x1 ![] bcast_S_S10000x1 : (⟨S_, .f32⟩ : BufTy).Contents (Elt Ideal) → (⟨S10000x1, .f32⟩ : BufTy).Contents (Elt Ideal)) (R V main_cst_28) :=
  HostRead.unary_at outs V 302 main_cst_28 main_v201 _ _ _ rfl (res_fresh rfl) (opnd_before (j := 301) rfl (by decide))
theorem r_303 : R V main_v202 = (maximumf (F := Ideal) (φ := .f32) : (⟨S10000x1, .f32⟩ : BufTy).Contents (Elt Ideal) → (⟨S10000x1, .f32⟩ : BufTy).Contents (Elt Ideal) → (⟨S10000x1, .f32⟩ : BufTy).Contents (Elt Ideal)) (R V main_v193) (R V main_v201) :=
  HostRead.binary_at outs V 303 main_v193 main_v201 main_v202 _ _ _ _ rfl (res_fresh rfl) (opnd_before (j := 290) rfl (by decide)) (opnd_before (j := 302) rfl (by decide))
theorem r_304 : R V main_v203 = (broadcastInDim S10000x64 ![0, 1] bcast_S10000x1_S10000x64_0_1 : (⟨S10000x1, .f32⟩ : BufTy).Contents (Elt Ideal) → (⟨S10000x64, .f32⟩ : BufTy).Contents (Elt Ideal)) (R V main_v202) :=
  HostRead.unary_at outs V 304 main_v202 main_v203 _ _ _ rfl (res_fresh rfl) (opnd_before (j := 303) rfl (by decide))
theorem r_305 : R V main_v204 = (Host.divf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v200) (R V main_v203) :=
  HostRead.binary_at outs V 305 main_v200 main_v203 main_v204 _ _ _ _ rfl (res_fresh rfl) (opnd_before (j := 300) rfl (by decide)) (opnd_before (j := 304) rfl (by decide))
theorem r_306 : R V main_cst_29 = (constant (F := Ideal) S_ .f32 0x00000000#32) :=
  HostRead.nullary_at outs V 306 main_cst_29 _ _ rfl (res_fresh rfl)
theorem r_307 : R V main_v205 = (broadcastInDim S10000x64 ![] bcast_S_S10000x64 : (⟨S_, .f32⟩ : BufTy).Contents (Elt Ideal) → (⟨S10000x64, .f32⟩ : BufTy).Contents (Elt Ideal)) (R V main_cst_29) :=
  HostRead.unary_at outs V 307 main_cst_29 main_v205 _ _ _ rfl (res_fresh rfl) (opnd_before (j := 306) rfl (by decide))
theorem r_308 : R V main_v206 = (broadcastInDim S250000x1 ![0] bcast_S250000_S250000x1_0 : (⟨S250000, .i32⟩ : BufTy).Contents (Elt Ideal) → (⟨S250000x1, .i32⟩ : BufTy).Contents (Elt Ideal)) (R V main_arg12) :=
  HostRead.unary_at outs V 308 main_arg12 main_v206 _ _ _ rfl (res_fresh rfl) (opnd_never arg12_nw 308)
theorem r_309 : R V main_v207 = ((fun x i u => Host.scatterAdd (F := Ideal) (φ := .f32) scatter_S10000x64_S250000x1_S250000x64_1_0_0_1 x i u) : (⟨S10000x64, .f32⟩ : BufTy).Contents (Elt Ideal) → (⟨S250000x1, .i32⟩ : BufTy).Contents (Elt Ideal) → (⟨S250000x64, .f32⟩ : BufTy).Contents (Elt Ideal) → (⟨S10000x64, .f32⟩ : BufTy).Contents (Elt Ideal)) (R V main_v205) (R V main_v206) (R V main_v181) :=
  HostRead.ternary_at outs V 309 main_v205 main_v206 main_v181 main_v207 _ _ _ _ _ rfl (res_fresh rfl) (opnd_before (j := 307) rfl (by decide)) (opnd_before (j := 308) rfl (by decide)) (opnd_before (j := 276) rfl (by decide))

end Cert.ReferenceIdeal.HandV

end
-- ==== Proof.Ref.HostEqs4.lean ====
/- A table: window 4 of the reference program's @main, one equation per operation (places 310 … 379 of the line):
   after the whole line the operation's result buffer holds the operation's own function of what its operand
   buffers hold after the whole line — every buffer is written once, an operand before it is read. -/
import proofs.«180658_j65867618451767_1_alg».proof.Proof.Ref.Stage
import Idealize.ShloMosaic.PureOps.Ideal

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable (V : Valuation τ sig (Elt Ideal))

theorem r_310 : R V main_cst_30 = (constant (F := Ideal) S_ .f32 0x3F800000#32) :=
  HostRead.nullary_at outs V 310 main_cst_30 _ _ rfl (res_fresh rfl)
theorem r_311 : R V main_v208 = (broadcastInDim S10000x1 ![] bcast_S_S10000x1 : (⟨S_, .f32⟩ : BufTy).Contents (Elt Ideal) → (⟨S10000x1, .f32⟩ : BufTy).Contents (Elt Ideal)) (R V main_cst_30) :=
  HostRead.unary_at outs V 311 main_cst_30 main_v208 _ _ _ rfl (res_fresh rfl) (opnd_before (j := 310) rfl (by decide))
theorem r_312 : R V main_v209 = (maximumf (F := Ideal) (φ := .f32) : (⟨S10000x1, .f32⟩ : BufTy).Contents (Elt Ideal) → (⟨S10000x1, .f32⟩ : BufTy).Contents (Elt Ideal) → (⟨S10000x1, .f32⟩ : BufTy).Contents (Elt Ideal)) (R V main_v197) (R V main_v208) :=
  HostRead.binary_at outs V 312 main_v197 main_v208 main_v209 _ _ _ _ rfl (res_fresh rfl) (opnd_before (j := 296) rfl (by decide)) (opnd_before (j := 311) rfl (by decide))
theorem r_313 : R V main_v210 = (broadcastInDim S10000x64 ![0, 1] bcast_S10000x1_S10000x64_0_1 : (⟨S10000x1, .f32⟩ : BufTy).Contents (Elt Ideal) → (⟨S10000x64, .f32⟩ : BufTy).Contents (Elt Ideal)) (R V main_v209) :=
  HostRead.unary_at outs V 313 main_v209 main_v210 _ _ _ rfl (res_fresh rfl) (opnd_before (j := 312) rfl (by decide))
theorem r_314 : R V main_v211 = (Host.divf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v207) (R V main_v210) :=
  HostRead.binary_at outs V 314 main_v207 main_v210 main_v211 _ _ _ _ rfl (res_fresh rfl) (opnd_before (j := 309) rfl (by decide)) (opnd_before (j := 313) rfl (by decide))
theorem r_315 : R V main_v212 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v204) (R V main_v211) :=
  HostRead.binary_at outs V 315 main_v204 main_v211 main_v212 _ _ _ _ rfl (res_fresh rfl) (opnd_before (j := 305) rfl (by decide)) (opnd_before (j := 314) rfl (by decide))
theorem r_316 : R V main_v213 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v212) (R V main_v189) :=
  HostRead.binary_at outs V 316 main_v212 main_v189 main_v213 _ _ _ _ rfl (res_fresh rfl) (opnd_before (j := 315) rfl (by decide)) (opnd_before (j := 284) rfl (by decide))
theorem r_317 : R V main_v214 = ((extractStridedSlice S1x64 ![2, 0] · slices_S3x64_S1x64_2_0) : (⟨S3x64, .f32⟩ : BufTy).Contents (Elt Ideal) → (⟨S1x64, .f32⟩ : BufTy).Contents (Elt Ideal)) (R V main_arg7) :=
  HostRead.unary_at outs V 317 main_arg7 main_v214 _ _ _ rfl (res_fresh rfl) (opnd_never arg7_nw 317)
theorem r_318 : R V main_v215 = fun i => shapeCast _ (R V main_v214) shapeCasts_S1x64_S64 i :=
  HostRead.reshape_at outs V 318 main_v214 main_v215 _ _ _ _ rfl (res_fresh rfl) (opnd_before (j := 317) rfl (by decide))
theorem r_319 : R V main_v216 = ((extractStridedSlice S1x64 ![2, 0] · slices_S3x64_S1x64_2_0) : (⟨S3x64, .f32⟩ : BufTy).Contents (Elt Ideal) → (⟨S1x64, .f32⟩ : BufTy).Contents (Elt Ideal)) (R V main_arg8) :=
  HostRead.unary_at outs V 319 main_arg8 main_v216 _ _ _ rfl (res_fresh rfl) (opnd_never arg8_nw 319)
theorem r_320 : R V main_v217 = fun i => shapeCast _ (R V main_v216) shapeCasts_S1x64_S64 i :=
  HostRead.reshape_at outs V 320 main_v216 main_v217 _ _ _ _ rfl (res_fresh rfl) (opnd_before (j := 319) rfl (by decide))
theorem r_321 : R V main_cst_31 = (constant (F := Ideal) S_ .f32 0x00000000#32) :=
  HostRead.nullary_at outs V 321 main_cst_31 _ _ rfl (res_fresh rfl)
theorem r_322 : R V main_v218 = ((fun x v => Host.reduceAdd (F := Ideal) (φ := .f32) x v reducesTo_S10000x64_S64_d0 h_S_) : (⟨S10000x64, .f32⟩ : BufTy).Contents (Elt Ideal) → (⟨S_, .f32⟩ : BufTy).Contents (Elt Ideal) → (⟨S64, .f32⟩ : BufTy).Contents (Elt Ideal)) (R V main_v213) (R V main_cst_31) :=
  HostRead.binary_at outs V 322 main_v213 main_cst_31 main_v218 _ _ _ _ rfl (res_fresh rfl) (opnd_before (j := 316) rfl (by decide)) (opnd_before (j := 321) rfl (by decide))
theorem r_323 : R V main_cst_32 = (constant (F := Ideal) S_ .f32 0x461C4000#32) :=
  HostRead.nullary_at outs V 323 main_cst_32 _ _ rfl (res_fresh rfl)
theorem r_324 : R V main_v219 = (broadcastInDim S64 ![] bcast_S_S64 : (⟨S_, .f32⟩ : BufTy).Contents (Elt Ideal) → (⟨S64, .f32⟩ : BufTy).Contents (Elt Ideal)) (R V main_cst_32) :=
  HostRead.unary_at outs V 324 main_cst_32 main_v219 _ _ _ rfl (res_fresh rfl) (opnd_before (j := 323) rfl (by decide))
theorem r_325 : R V main_v220 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_v218) (R V main_v219) :=
  HostRead.binary_at outs V 325 main_v218 main_v219 main_v220 _ _ _ _ rfl (res_fresh rfl) (opnd_before (j := 322) rfl (by decide)) (opnd_before (j := 324) rfl (by decide))
theorem r_326 : R V main_c_33 = (constantI S_ 32 0#32) :=
  HostRead.nullary_at outs V 326 main_c_33 _ _ rfl (res_fresh rfl)
theorem r_327 : R V main_call4_cst = ((constant (F := Ideal) S_ .f32 0x00000000#32) : (⟨S_, .f32⟩ : BufTy).Contents (Elt Ideal)) :=
  eq_of_heq (HostRead.tnullary_at outs V 327 main_call4.cst _ rfl (res_fresh rfl))
theorem r_328 : R V main_call4_v0 = ((fun x v => Host.reduceAdd (F := Ideal) (φ := .f32) x v reducesTo_S10000x64_S64_d0 h_S_) : (⟨S10000x64, .f32⟩ : BufTy).Contents (Elt Ideal) → (⟨S_, .f32⟩ : BufTy).Contents (Elt Ideal) → (⟨S64, .f32⟩ : BufTy).Contents (Elt Ideal)) (R V main_v213) (R V main_call4_cst) :=
  eq_of_heq (HostRead.tbinary_at outs V 328 (.of main_v213 : StableHlo.TRef sig ⟨S10000x64, .f32⟩) main_call4.cst main_call4.v0 _ rfl (res_fresh rfl) (opnd_before (j := 316) rfl (by decide)) (opnd_before (j := 327) rfl (by decide)) (R V main_v213) (R V main_call4_cst) HEq.rfl HEq.rfl)
theorem r_329 : R V main_call4_v1 = ((broadcastInDim S1x64 ![1] bcast_S64_S1x64_1) : (⟨S64, .f32⟩ : BufTy).Contents (Elt Ideal) → (⟨S1x64, .f32⟩ : BufTy).Contents (Elt Ideal)) (R V main_call4_v0) :=
  eq_of_heq (HostRead.tunary_at outs V 329 main_call4.v0 main_call4.v1 _ rfl (res_fresh rfl) (opnd_before (j := 328) rfl (by decide)) (R V main_call4_v0) HEq.rfl)
theorem r_330 : R V main_call4_cst_0 = ((constant (F := Ideal) S_ .f32 0x461C4000#32) : (⟨S_, .f32⟩ : BufTy).Contents (Elt Ideal)) :=
  eq_of_heq (HostRead.tnullary_at outs V 330 main_call4.cst_0 _ rfl (res_fresh rfl))
theorem r_331 : R V main_call4_v2 = ((broadcastInDim S1x64 ![] bcast_S_S1x64) : (⟨S_, .f32⟩ : BufTy).Contents (Elt Ideal) → (⟨S1x64, .f32⟩ : BufTy).Contents (Elt Ideal)) (R V main_call4_cst_0) :=
  eq_of_heq (HostRead.tunary_at outs V 331 main_call4.cst_0 main_call4.v2 _ rfl (res_fresh rfl) (opnd_before (j := 330) rfl (by decide)) (R V main_call4_cst_0) HEq.rfl)
theorem r_332 : R V main_call4_v3 = (Host.divf (F := Ideal) (φ := .f32) : (⟨S1x64, .f32⟩ : BufTy).Contents (Elt Ideal) → (⟨S1x64, .f32⟩ : BufTy).Contents (Elt Ideal) → (⟨S1x64, .f32⟩ : BufTy).Contents (Elt Ideal)) (R V main_call4_v1) (R V main_call4_v2) :=
  eq_of_heq (HostRead.tbinary_at outs V 332 main_call4.v1 main_call4.v2 main_call4.v3 _ rfl (res_fresh rfl) (opnd_before (j := 329) rfl (by decide)) (opnd_before (j := 331) rfl (by decide)) (R V main_call4_v1) (R V main_call4_v2) HEq.rfl HEq.rfl)
theorem r_333 : R V main_call4_v4 = ((broadcastInDim S10000x64 ![0, 1] bcast_S1x64_S10000x64_0_1) : (⟨S1x64, .f32⟩ : BufTy).Contents (Elt Ideal) → (⟨S10000x64, .f32⟩ : BufTy).Contents (Elt Ideal)) (R V main_call4_v3) :=
  eq_of_heq (HostRead.tunary_at outs V 333 main_call4.v3 main_call4.v4 _ rfl (res_fresh rfl) (opnd_before (j := 332) rfl (by decide)) (R V main_call4_v3) HEq.rfl)
theorem r_334 : R V main_call4_v5 = (subf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v213) (R V main_call4_v4) :=
  eq_of_heq (HostRead.tbinary_at outs V 334 (.of main_v213 : StableHlo.TRef sig ⟨S10000x64, .f32⟩) main_call4.v4 main_call4.v5 _ rfl (res_fresh rfl) (opnd_before (j := 316) rfl (by decide)) (opnd_before (j := 333) rfl (by decide)) (R V main_v213) (R V main_call4_v4) HEq.rfl HEq.rfl)
theorem r_335 : R V main_call4_v6 = (mulf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_call4_v5) (R V main_call4_v5) :=
  eq_of_heq (HostRead.tbinary_at outs V 335 main_call4.v5 main_call4.v5 main_call4.v6 _ rfl (res_fresh rfl) (opnd_before (j := 334) rfl (by decide)) (opnd_before (j := 334) rfl (by decide)) (R V main_call4_v5) (R V main_call4_v5) HEq.rfl HEq.rfl)
theorem r_336 : R V main_call4_v7 = ((sitofp (F := Ideal) .f32) : (⟨S_, .i32⟩ : BufTy).Contents (Elt Ideal) → (⟨S_, .f32⟩ : BufTy).Contents (Elt Ideal)) (R V main_c_33) :=
  eq_of_heq (HostRead.tunary_at outs V 336 (.of main_c_33 : StableHlo.TRef sig ⟨S_, .i32⟩) main_call4.v7 _ rfl (res_fresh rfl) (opnd_before (j := 326) rfl (by decide)) (R V main_c_33) HEq.rfl)
theorem r_337 : R V main_call4_cst_1 = ((constant (F := Ideal) S_ .f32 0x461C4000#32) : (⟨S_, .f32⟩ : BufTy).Contents (Elt Ideal)) :=
  eq_of_heq (HostRead.tnullary_at outs V 337 main_call4.cst_1 _ rfl (res_fresh rfl))
theorem r_338 : R V main_call4_v8 = (subf (F := Ideal) (φ := .f32) : (⟨S_, .f32⟩ : BufTy).Contents (Elt Ideal) → (⟨S_, .f32⟩ : BufTy).Contents (Elt Ideal) → (⟨S_, .f32⟩ : BufTy).Contents (Elt Ideal)) (R V main_call4_cst_1) (R V main_call4_v7) :=
  eq_of_heq (HostRead.tbinary_at outs V 338 main_call4.cst_1 main_call4.v7 main_call4.v8 _ rfl (res_fresh rfl) (opnd_before (j := 337) rfl (by decide)) (opnd_before (j := 336) rfl (by decide)) (R V main_call4_cst_1) (R V main_call4_v7) HEq.rfl HEq.rfl)
theorem r_339 : R V main_call4_cst_2 = ((constant (F := Ideal) S_ .f32 0x00000000#32) : (⟨S_, .f32⟩ : BufTy).Contents (Elt Ideal)) :=
  eq_of_heq (HostRead.tnullary_at outs V 339 main_call4.cst_2 _ rfl (res_fresh rfl))
theorem r_340 : R V main_call4_v9 = ((fun x v => Host.reduceAdd (F := Ideal) (φ := .f32) x v reducesTo_S10000x64_S64_d0 h_S_) : (⟨S10000x64, .f32⟩ : BufTy).Contents (Elt Ideal) → (⟨S_, .f32⟩ : BufTy).Contents (Elt Ideal) → (⟨S64, .f32⟩ : BufTy).Contents (Elt Ideal)) (R V main_call4_v6) (R V main_call4_cst_2) :=
  eq_of_heq (HostRead.tbinary_at outs V 340 main_call4.v6 main_call4.cst_2 main_call4.v9 _ rfl (res_fresh rfl) (opnd_before (j := 335) rfl (by decide)) (opnd_before (j := 339) rfl (by decide)) (R V main_call4_v6) (R V main_call4_cst_2) HEq.rfl HEq.rfl)
theorem r_341 : R V main_call4_v10 = ((broadcastInDim S64 ![] bcast_S_S64) : (⟨S_, .f32⟩ : BufTy).Contents (Elt Ideal) → (⟨S64, .f32⟩ : BufTy).Contents (Elt Ideal)) (R V main_call4_v8) :=
  eq_of_heq (HostRead.tunary_at outs V 341 main_call4.v8 main_call4.v10 _ rfl (res_fresh rfl) (opnd_before (j := 338) rfl (by decide)) (R V main_call4_v8) HEq.rfl)
theorem r_342 : R V main_call4_v11 = (Host.divf (F := Ideal) (φ := .f32) : (⟨S64, .f32⟩ : BufTy).Contents (Elt Ideal) → (⟨S64, .f32⟩ : BufTy).Contents (Elt Ideal) → (⟨S64, .f32⟩ : BufTy).Contents (Elt Ideal)) (R V main_call4_v9) (R V main_call4_v10) :=
  eq_of_heq (HostRead.tbinary_at outs V 342 main_call4.v9 main_call4.v10 main_call4.v11 _ rfl (res_fresh rfl) (opnd_before (j := 340) rfl (by decide)) (opnd_before (j := 341) rfl (by decide)) (R V main_call4_v9) (R V main_call4_v10) HEq.rfl HEq.rfl)
theorem r_343 : R V main_call4_cst_3 = ((constant (F := Ideal) S_ .f32 0x00000000#32) : (⟨S_, .f32⟩ : BufTy).Contents (Elt Ideal)) :=
  eq_of_heq (HostRead.tnullary_at outs V 343 main_call4.cst_3 _ rfl (res_fresh rfl))
theorem r_344 : R V main_call4_v12 = ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)) (R V main_call4_v8) (R V main_call4_cst_3) :=
  eq_of_heq (HostRead.tbinary_at outs V 344 main_call4.v8 main_call4.cst_3 main_call4.v12 _ rfl (res_fresh rfl) (opnd_before (j := 338) rfl (by decide)) (opnd_before (j := 343) rfl (by decide)) (R V main_call4_v8) (R V main_call4_cst_3) HEq.rfl HEq.rfl)
theorem r_345 : R V main_call4_cst_4 = ((constant (F := Ideal) S_ .f32 0x7FC00000#32) : (⟨S_, .f32⟩ : BufTy).Contents (Elt Ideal)) :=
  eq_of_heq (HostRead.tnullary_at outs V 345 main_call4.cst_4 _ rfl (res_fresh rfl))
theorem r_346 : R V main_call4_call0_v0 = (id : (⟨S_, .f32⟩ : BufTy).Contents (Elt Ideal) → (⟨S_, .f32⟩ : BufTy).Contents (Elt Ideal)) (R V main_call4_cst_4) :=
  eq_of_heq (HostRead.tunary_at outs V 346 main_call4.cst_4 main_call4.call0.v0 _ rfl (res_fresh rfl) (opnd_before (j := 345) rfl (by decide)) (R V main_call4_cst_4) HEq.rfl)
theorem r_347 : R V main_call4_call0_v1 = ((broadcastInDim S64 ![] bcast_S_S64) : (⟨S_, .f32⟩ : BufTy).Contents (Elt Ideal) → (⟨S64, .f32⟩ : BufTy).Contents (Elt Ideal)) (R V main_call4_call0_v0) :=
  eq_of_heq (HostRead.tunary_at outs V 347 main_call4.call0.v0 main_call4.call0.v1 _ rfl (res_fresh rfl) (opnd_before (j := 346) rfl (by decide)) (R V main_call4_call0_v0) HEq.rfl)
theorem r_348 : R V main_v221 = ((fun p a b => select (broadcastInDim S64 ![] bcast_S_S64 p) a b) : (⟨S_, .i1⟩ : BufTy).Contents (Elt Ideal) → (⟨S64, .f32⟩ : BufTy).Contents (Elt Ideal) → (⟨S64, .f32⟩ : BufTy).Contents (Elt Ideal) → (⟨S64, .f32⟩ : BufTy).Contents (Elt Ideal)) (R V main_call4_v12) (R V main_call4_v11) (R V main_call4_call0_v1) :=
  eq_of_heq (HostRead.tternary_at outs V 348 main_call4.v12 main_call4.v11 main_call4.call0.v1 main_call4.call0.v2 _ rfl (res_fresh rfl) (opnd_before (j := 344) rfl (by decide)) (opnd_before (j := 342) rfl (by decide)) (opnd_before (j := 347) rfl (by decide)) (R V main_call4_v12) (R V main_call4_v11) (R V main_call4_call0_v1) HEq.rfl HEq.rfl HEq.rfl)
theorem r_349 : R V main_v222 = (broadcastInDim S1x64 ![1] bcast_S64_S1x64_1 : (⟨S64, .f32⟩ : BufTy).Contents (Elt Ideal) → (⟨S1x64, .f32⟩ : BufTy).Contents (Elt Ideal)) (R V main_v220) :=
  HostRead.unary_at outs V 349 main_v220 main_v222 _ _ _ rfl (res_fresh rfl) (opnd_before (j := 325) rfl (by decide))
theorem r_350 : R V main_v223 = (broadcastInDim S10000x64 ![0, 1] bcast_S1x64_S10000x64_0_1 : (⟨S1x64, .f32⟩ : BufTy).Contents (Elt Ideal) → (⟨S10000x64, .f32⟩ : BufTy).Contents (Elt Ideal)) (R V main_v222) :=
  HostRead.unary_at outs V 350 main_v222 main_v223 _ _ _ rfl (res_fresh rfl) (opnd_before (j := 349) rfl (by decide))
theorem r_351 : R V main_v224 = (subf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v213) (R V main_v223) :=
  HostRead.binary_at outs V 351 main_v213 main_v223 main_v224 _ _ _ _ rfl (res_fresh rfl) (opnd_before (j := 316) rfl (by decide)) (opnd_before (j := 350) rfl (by decide))
theorem r_352 : R V main_cst_34 = (constant (F := Ideal) S_ .f32 0x3727C5AC#32) :=
  HostRead.nullary_at outs V 352 main_cst_34 _ _ rfl (res_fresh rfl)
theorem r_353 : R V main_v225 = (broadcastInDim S64 ![] bcast_S_S64 : (⟨S_, .f32⟩ : BufTy).Contents (Elt Ideal) → (⟨S64, .f32⟩ : BufTy).Contents (Elt Ideal)) (R V main_cst_34) :=
  HostRead.unary_at outs V 353 main_cst_34 main_v225 _ _ _ rfl (res_fresh rfl) (opnd_before (j := 352) rfl (by decide))
theorem r_354 : R V main_v226 = (addf (F := Ideal) (φ := .f32) : (⟨S64, .f32⟩ : BufTy).Contents (Elt Ideal) → (⟨S64, .f32⟩ : BufTy).Contents (Elt Ideal) → (⟨S64, .f32⟩ : BufTy).Contents (Elt Ideal)) (R V main_v221) (R V main_v225) :=
  HostRead.binary_at outs V 354 main_v221 main_v225 main_v226 _ _ _ _ rfl (res_fresh rfl) (opnd_before (j := 348) rfl (by decide)) (opnd_before (j := 353) rfl (by decide))
theorem r_355 : R V main_v227 = (Host.rsqrt (F := Ideal) (φ := .f32) : (⟨S64, .f32⟩ : BufTy).Contents (Elt Ideal) → (⟨S64, .f32⟩ : BufTy).Contents (Elt Ideal)) (R V main_v226) :=
  HostRead.unary_at outs V 355 main_v226 main_v227 _ _ _ rfl (res_fresh rfl) (opnd_before (j := 354) rfl (by decide))
theorem r_356 : R V main_v228 = (broadcastInDim S1x64 ![1] bcast_S64_S1x64_1 : (⟨S64, .f32⟩ : BufTy).Contents (Elt Ideal) → (⟨S1x64, .f32⟩ : BufTy).Contents (Elt Ideal)) (R V main_v227) :=
  HostRead.unary_at outs V 356 main_v227 main_v228 _ _ _ rfl (res_fresh rfl) (opnd_before (j := 355) rfl (by decide))
theorem r_357 : R V main_v229 = (broadcastInDim S10000x64 ![0, 1] bcast_S1x64_S10000x64_0_1 : (⟨S1x64, .f32⟩ : BufTy).Contents (Elt Ideal) → (⟨S10000x64, .f32⟩ : BufTy).Contents (Elt Ideal)) (R V main_v228) :=
  HostRead.unary_at outs V 357 main_v228 main_v229 _ _ _ rfl (res_fresh rfl) (opnd_before (j := 356) rfl (by decide))
theorem r_358 : R V main_v230 = (mulf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v224) (R V main_v229) :=
  HostRead.binary_at outs V 358 main_v224 main_v229 main_v230 _ _ _ _ rfl (res_fresh rfl) (opnd_before (j := 351) rfl (by decide)) (opnd_before (j := 357) rfl (by decide))
theorem r_359 : R V main_v231 = (broadcastInDim S1x64 ![1] bcast_S64_S1x64_1 : (⟨S64, .f32⟩ : BufTy).Contents (Elt Ideal) → (⟨S1x64, .f32⟩ : BufTy).Contents (Elt Ideal)) (R V main_v215) :=
  HostRead.unary_at outs V 359 main_v215 main_v231 _ _ _ rfl (res_fresh rfl) (opnd_before (j := 318) rfl (by decide))
theorem r_360 : R V main_v232 = (broadcastInDim S10000x64 ![0, 1] bcast_S1x64_S10000x64_0_1 : (⟨S1x64, .f32⟩ : BufTy).Contents (Elt Ideal) → (⟨S10000x64, .f32⟩ : BufTy).Contents (Elt Ideal)) (R V main_v231) :=
  HostRead.unary_at outs V 360 main_v231 main_v232 _ _ _ rfl (res_fresh rfl) (opnd_before (j := 359) rfl (by decide))
theorem r_361 : R V main_v233 = (mulf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v230) (R V main_v232) :=
  HostRead.binary_at outs V 361 main_v230 main_v232 main_v233 _ _ _ _ rfl (res_fresh rfl) (opnd_before (j := 358) rfl (by decide)) (opnd_before (j := 360) rfl (by decide))
theorem r_362 : R V main_v234 = (broadcastInDim S1x64 ![1] bcast_S64_S1x64_1 : (⟨S64, .f32⟩ : BufTy).Contents (Elt Ideal) → (⟨S1x64, .f32⟩ : BufTy).Contents (Elt Ideal)) (R V main_v217) :=
  HostRead.unary_at outs V 362 main_v217 main_v234 _ _ _ rfl (res_fresh rfl) (opnd_before (j := 320) rfl (by decide))
theorem r_363 : R V main_v235 = (broadcastInDim S10000x64 ![0, 1] bcast_S1x64_S10000x64_0_1 : (⟨S1x64, .f32⟩ : BufTy).Contents (Elt Ideal) → (⟨S10000x64, .f32⟩ : BufTy).Contents (Elt Ideal)) (R V main_v234) :=
  HostRead.unary_at outs V 363 main_v234 main_v235 _ _ _ rfl (res_fresh rfl) (opnd_before (j := 362) rfl (by decide))
theorem r_364 : R V main_v236 = (addf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_v233) (R V main_v235) :=
  HostRead.binary_at outs V 364 main_v233 main_v235 main_v236 _ _ _ _ rfl (res_fresh rfl) (opnd_before (j := 361) rfl (by decide)) (opnd_before (j := 363) rfl (by decide))
theorem r_365 : R V main_call5_cst = ((constant (F := Ideal) S_ .f32 0x00000000#32) : (⟨S_, .f32⟩ : BufTy).Contents (Elt Ideal)) :=
  eq_of_heq (HostRead.tnullary_at outs V 365 main_call5.cst _ rfl (res_fresh rfl))
theorem r_366 : R V main_call5_v0 = ((broadcastInDim S10000x64 ![] bcast_S_S10000x64) : (⟨S_, .f32⟩ : BufTy).Contents (Elt Ideal) → (⟨S10000x64, .f32⟩ : BufTy).Contents (Elt Ideal)) (R V main_call5_cst) :=
  eq_of_heq (HostRead.tunary_at outs V 366 main_call5.cst main_call5.v0 _ rfl (res_fresh rfl) (opnd_before (j := 365) rfl (by decide)) (R V main_call5_cst) HEq.rfl)
theorem r_367 : R V main_call5_v1 = ((cmpf (F := Ideal) (φ := .f32) .ogt) : (⟨S10000x64, .f32⟩ : BufTy).Contents (Elt Ideal) → (⟨S10000x64, .f32⟩ : BufTy).Contents (Elt Ideal) → (⟨S10000x64, .i1⟩ : BufTy).Contents (Elt Ideal)) (R V main_v236) (R V main_call5_v0) :=
  eq_of_heq (HostRead.tbinary_at outs V 367 (.of main_v236 : StableHlo.TRef sig ⟨S10000x64, .f32⟩) main_call5.v0 main_call5.v1 _ rfl (res_fresh rfl) (opnd_before (j := 364) rfl (by decide)) (opnd_before (j := 366) rfl (by decide)) (R V main_v236) (R V main_call5_v0) HEq.rfl HEq.rfl)
theorem r_368 : R V main_call5_cst_0 = ((constant (F := Ideal) S_ .f32 0x00000000#32) : (⟨S_, .f32⟩ : BufTy).Contents (Elt Ideal)) :=
  eq_of_heq (HostRead.tnullary_at outs V 368 main_call5.cst_0 _ rfl (res_fresh rfl))
theorem r_369 : R V main_call5_v2 = ((broadcastInDim S10000x64 ![] bcast_S_S10000x64) : (⟨S_, .f32⟩ : BufTy).Contents (Elt Ideal) → (⟨S10000x64, .f32⟩ : BufTy).Contents (Elt Ideal)) (R V main_call5_cst_0) :=
  eq_of_heq (HostRead.tunary_at outs V 369 main_call5.cst_0 main_call5.v2 _ rfl (res_fresh rfl) (opnd_before (j := 368) rfl (by decide)) (R V main_call5_cst_0) HEq.rfl)
theorem r_370 : R V main_call5_v3 = ((cmpf (F := Ideal) (φ := .f32) .ogt) : (⟨S10000x64, .f32⟩ : BufTy).Contents (Elt Ideal) → (⟨S10000x64, .f32⟩ : BufTy).Contents (Elt Ideal) → (⟨S10000x64, .i1⟩ : BufTy).Contents (Elt Ideal)) (R V main_v236) (R V main_call5_v2) :=
  eq_of_heq (HostRead.tbinary_at outs V 370 (.of main_v236 : StableHlo.TRef sig ⟨S10000x64, .f32⟩) main_call5.v2 main_call5.v3 _ rfl (res_fresh rfl) (opnd_before (j := 364) rfl (by decide)) (opnd_before (j := 369) rfl (by decide)) (R V main_v236) (R V main_call5_v2) HEq.rfl HEq.rfl)
theorem r_371 : R V main_call5_cst_1 = ((constant (F := Ideal) S_ .f32 0x00000000#32) : (⟨S_, .f32⟩ : BufTy).Contents (Elt Ideal)) :=
  eq_of_heq (HostRead.tnullary_at outs V 371 main_call5.cst_1 _ rfl (res_fresh rfl))
theorem r_372 : R V main_call5_call0_v0 = (id : (⟨S_, .f32⟩ : BufTy).Contents (Elt Ideal) → (⟨S_, .f32⟩ : BufTy).Contents (Elt Ideal)) (R V main_call5_cst_1) :=
  eq_of_heq (HostRead.tunary_at outs V 372 main_call5.cst_1 main_call5.call0.v0 _ rfl (res_fresh rfl) (opnd_before (j := 371) rfl (by decide)) (R V main_call5_cst_1) HEq.rfl)
theorem r_373 : R V main_call5_call0_v1 = ((broadcastInDim S10000x64 ![] bcast_S_S10000x64) : (⟨S_, .f32⟩ : BufTy).Contents (Elt Ideal) → (⟨S10000x64, .f32⟩ : BufTy).Contents (Elt Ideal)) (R V main_call5_call0_v0) :=
  eq_of_heq (HostRead.tunary_at outs V 373 main_call5.call0.v0 main_call5.call0.v1 _ rfl (res_fresh rfl) (opnd_before (j := 372) rfl (by decide)) (R V main_call5_call0_v0) HEq.rfl)
theorem r_374 : R V main_call5_v4 = (select : (⟨S10000x64, .i1⟩ : BufTy).Contents (Elt Ideal) → (⟨S10000x64, .f32⟩ : BufTy).Contents (Elt Ideal) → (⟨S10000x64, .f32⟩ : BufTy).Contents (Elt Ideal) → (⟨S10000x64, .f32⟩ : BufTy).Contents (Elt Ideal)) (R V main_call5_v3) (R V main_call5_call0_v1) (R V main_v236) :=
  eq_of_heq (HostRead.tternary_at outs V 374 main_call5.v3 main_call5.call0.v1 (.of main_v236 : StableHlo.TRef sig ⟨S10000x64, .f32⟩) main_call5.call0.v2 _ rfl (res_fresh rfl) (opnd_before (j := 370) rfl (by decide)) (opnd_before (j := 373) rfl (by decide)) (opnd_before (j := 364) rfl (by decide)) (R V main_call5_v3) (R V main_call5_call0_v1) (R V main_v236) HEq.rfl HEq.rfl HEq.rfl)
theorem r_375 : R V main_call5_v5 = (Host.expm1 (F := Ideal) (φ := .f32) : (⟨S10000x64, .f32⟩ : BufTy).Contents (Elt Ideal) → (⟨S10000x64, .f32⟩ : BufTy).Contents (Elt Ideal)) (R V main_call5_v4) :=
  eq_of_heq (HostRead.tunary_at outs V 375 main_call5.call0.v2 main_call5.v5 _ rfl (res_fresh rfl) (opnd_before (j := 374) rfl (by decide)) (R V main_call5_v4) HEq.rfl)
theorem r_376 : R V main_call5_cst_2 = ((constant (F := Ideal) S_ .f32 0x3F800000#32) : (⟨S_, .f32⟩ : BufTy).Contents (Elt Ideal)) :=
  eq_of_heq (HostRead.tnullary_at outs V 376 main_call5.cst_2 _ rfl (res_fresh rfl))
theorem r_377 : R V main_call5_v6 = ((broadcastInDim S10000x64 ![] bcast_S_S10000x64) : (⟨S_, .f32⟩ : BufTy).Contents (Elt Ideal) → (⟨S10000x64, .f32⟩ : BufTy).Contents (Elt Ideal)) (R V main_call5_cst_2) :=
  eq_of_heq (HostRead.tunary_at outs V 377 main_call5.cst_2 main_call5.v6 _ rfl (res_fresh rfl) (opnd_before (j := 376) rfl (by decide)) (R V main_call5_cst_2) HEq.rfl)
theorem r_378 : R V main_call5_v7 = (mulf (F := Ideal) (φ := .f32) : (⟨S10000x64, .f32⟩ : BufTy).Contents (Elt Ideal) → (⟨S10000x64, .f32⟩ : BufTy).Contents (Elt Ideal) → (⟨S10000x64, .f32⟩ : BufTy).Contents (Elt Ideal)) (R V main_call5_v6) (R V main_call5_v5) :=
  eq_of_heq (HostRead.tbinary_at outs V 378 main_call5.v6 main_call5.v5 main_call5.v7 _ rfl (res_fresh rfl) (opnd_before (j := 377) rfl (by decide)) (opnd_before (j := 375) rfl (by decide)) (R V main_call5_v6) (R V main_call5_v5) HEq.rfl HEq.rfl)
theorem r_379 : R V main_v237 = (select : (⟨S10000x64, .i1⟩ : BufTy).Contents (Elt Ideal) → (⟨S10000x64, .f32⟩ : BufTy).Contents (Elt Ideal) → (⟨S10000x64, .f32⟩ : BufTy).Contents (Elt Ideal) → (⟨S10000x64, .f32⟩ : BufTy).Contents (Elt Ideal)) (R V main_call5_v1) (R V main_v236) (R V main_call5_v7) :=
  eq_of_heq (HostRead.tternary_at outs V 379 main_call5.v1 (.of main_v236 : StableHlo.TRef sig ⟨S10000x64, .f32⟩) main_call5.v7 main_call5.call1.v0 _ rfl (res_fresh rfl) (opnd_before (j := 367) rfl (by decide)) (opnd_before (j := 364) rfl (by decide)) (opnd_before (j := 378) rfl (by decide)) (R V main_call5_v1) (R V main_v236) (R V main_call5_v7) HEq.rfl HEq.rfl HEq.rfl)

end Cert.ReferenceIdeal.HandV

end
-- ==== Proof.Ref.HostEqs.lean ====
import proofs.«180658_j65867618451767_1_alg».proof.Proof.Ref.HostEqs0
import proofs.«180658_j65867618451767_1_alg».proof.Proof.Ref.HostEqs1
import proofs.«180658_j65867618451767_1_alg».proof.Proof.Ref.HostEqs2
import proofs.«180658_j65867618451767_1_alg».proof.Proof.Ref.HostEqs3
import proofs.«180658_j65867618451767_1_alg».proof.Proof.Ref.HostEqs4

/-! The reference program's operations, one equation each (`r_0` … `r_379`, by place in the line): the five
    windows' tables together. -/
-- ==== Proof.Bridge.Base.lean ====
/-
  The bridge between the two programs: its vocabulary. On core `c`, `Kv b` is what the kernel program's buffer `b` holds
  at its last boundary, `Rv b` what the reference's buffer `b` holds after its whole line run from contents `V'`. The two
  programs are run from memories that agree on the thirteen arguments; no operation of either writes an argument.
-/
import proofs.«180658_j65867618451767_1_alg».proof.Proof.KI.HostEqs
import proofs.«180658_j65867618451767_1_alg».proof.Proof.Ref.HostEqs

set_option maxRecDepth 16384

noncomputable section

namespace Cert.Bridge

open Idealize.ShloMosaic Idealize.ShloMosaic.TcCoe Idealize.ShloMosaic.StableHlo

/-- The kernel program's buffer `b` at its last boundary. -/
abbrev Kv (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (b : Ref Cert.KernelIdeal.sig .tc) :=
  Cert.KernelIdeal.HandV.Wf m ρ c b
/-- The reference's buffer `b` after its whole line, from contents `V'`. -/
abbrev Rv (V' : Valuation Cert.ReferenceIdeal.τ Cert.ReferenceIdeal.sig (Elt Ideal)) (b : Ref Cert.ReferenceIdeal.sig .tc) :=
  Cert.ReferenceIdeal.HandV.R (F := Ideal) V' b

/-- An array of extended reals, its type stated (each buffer's own type reduces to this). -/
abbrev fn (S : Shape) (x : S.Idx → EReal) : S.Idx → EReal := x

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-- The two programs' argument buffers hold the same contents. -/
structure Agree : Prop where
  a0 : Rv V' Cert.ReferenceIdeal.main_arg0 = Kv m ρ c Cert.KernelIdeal.main_arg0
  a1 : Rv V' Cert.ReferenceIdeal.main_arg1 = Kv m ρ c Cert.KernelIdeal.main_arg1
  a2 : Rv V' Cert.ReferenceIdeal.main_arg2 = Kv m ρ c Cert.KernelIdeal.main_arg2
  a3 : Rv V' Cert.ReferenceIdeal.main_arg3 = Kv m ρ c Cert.KernelIdeal.main_arg3
  a4 : Rv V' Cert.ReferenceIdeal.main_arg4 = Kv m ρ c Cert.KernelIdeal.main_arg4
  a5 : Rv V' Cert.ReferenceIdeal.main_arg5 = Kv m ρ c Cert.KernelIdeal.main_arg5
  a6 : Rv V' Cert.ReferenceIdeal.main_arg6 = Kv m ρ c Cert.KernelIdeal.main_arg6
  a7 : Rv V' Cert.ReferenceIdeal.main_arg7 = Kv m ρ c Cert.KernelIdeal.main_arg7
  a8 : Rv V' Cert.ReferenceIdeal.main_arg8 = Kv m ρ c Cert.KernelIdeal.main_arg8
  a9 : Rv V' Cert.ReferenceIdeal.main_arg9 = Kv m ρ c Cert.KernelIdeal.main_arg9
  a10 : Rv V' Cert.ReferenceIdeal.main_arg10 = Kv m ρ c Cert.KernelIdeal.main_arg10
  a11 : Rv V' Cert.ReferenceIdeal.main_arg11 = Kv m ρ c Cert.KernelIdeal.main_arg11
  a12 : Rv V' Cert.ReferenceIdeal.main_arg12 = Kv m ρ c Cert.KernelIdeal.main_arg12

/-- The kernel program's argument buffers at the last boundary hold the launch contents. -/
theorem Kv_arg0 : Kv m ρ c Cert.KernelIdeal.main_arg0 = m ((c.tc : Thread Cert.KernelIdeal.nD Cert.KernelIdeal.τ).loc Cert.KernelIdeal.main_arg0) :=
  Cert.KernelIdeal.Hand.W15_main_arg0 m ρ c
theorem Kv_arg1 : Kv m ρ c Cert.KernelIdeal.main_arg1 = m ((c.tc : Thread Cert.KernelIdeal.nD Cert.KernelIdeal.τ).loc Cert.KernelIdeal.main_arg1) :=
  Cert.KernelIdeal.Hand.W15_main_arg1 m ρ c
theorem Kv_arg2 : Kv m ρ c Cert.KernelIdeal.main_arg2 = m ((c.tc : Thread Cert.KernelIdeal.nD Cert.KernelIdeal.τ).loc Cert.KernelIdeal.main_arg2) :=
  Cert.KernelIdeal.Hand.W15_main_arg2 m ρ c
theorem Kv_arg3 : Kv m ρ c Cert.KernelIdeal.main_arg3 = m ((c.tc : Thread Cert.KernelIdeal.nD Cert.KernelIdeal.τ).loc Cert.KernelIdeal.main_arg3) :=
  Cert.KernelIdeal.Hand.W15_main_arg3 m ρ c
theorem Kv_arg4 : Kv m ρ c Cert.KernelIdeal.main_arg4 = m ((c.tc : Thread Cert.KernelIdeal.nD Cert.KernelIdeal.τ).loc Cert.KernelIdeal.main_arg4) :=
  Cert.KernelIdeal.Hand.W15_main_arg4 m ρ c
theorem Kv_arg5 : Kv m ρ c Cert.KernelIdeal.main_arg5 = m ((c.tc : Thread Cert.KernelIdeal.nD Cert.KernelIdeal.τ).loc Cert.KernelIdeal.main_arg5) :=
  Cert.KernelIdeal.Hand.W15_main_arg5 m ρ c
theorem Kv_arg6 : Kv m ρ c Cert.KernelIdeal.main_arg6 = m ((c.tc : Thread Cert.KernelIdeal.nD Cert.KernelIdeal.τ).loc Cert.KernelIdeal.main_arg6) :=
  Cert.KernelIdeal.Hand.W15_main_arg6 m ρ c
theorem Kv_arg7 : Kv m ρ c Cert.KernelIdeal.main_arg7 = m ((c.tc : Thread Cert.KernelIdeal.nD Cert.KernelIdeal.τ).loc Cert.KernelIdeal.main_arg7) :=
  Cert.KernelIdeal.Hand.W15_main_arg7 m ρ c
theorem Kv_arg8 : Kv m ρ c Cert.KernelIdeal.main_arg8 = m ((c.tc : Thread Cert.KernelIdeal.nD Cert.KernelIdeal.τ).loc Cert.KernelIdeal.main_arg8) :=
  Cert.KernelIdeal.Hand.W15_main_arg8 m ρ c
theorem Kv_arg9 : Kv m ρ c Cert.KernelIdeal.main_arg9 = m ((c.tc : Thread Cert.KernelIdeal.nD Cert.KernelIdeal.τ).loc Cert.KernelIdeal.main_arg9) :=
  Cert.KernelIdeal.Hand.W15_main_arg9 m ρ c
theorem Kv_arg10 : Kv m ρ c Cert.KernelIdeal.main_arg10 = m ((c.tc : Thread Cert.KernelIdeal.nD Cert.KernelIdeal.τ).loc Cert.KernelIdeal.main_arg10) :=
  Cert.KernelIdeal.Hand.W15_main_arg10 m ρ c
theorem Kv_arg11 : Kv m ρ c Cert.KernelIdeal.main_arg11 = m ((c.tc : Thread Cert.KernelIdeal.nD Cert.KernelIdeal.τ).loc Cert.KernelIdeal.main_arg11) :=
  Cert.KernelIdeal.Hand.W15_main_arg11 m ρ c
theorem Kv_arg12 : Kv m ρ c Cert.KernelIdeal.main_arg12 = m ((c.tc : Thread Cert.KernelIdeal.nD Cert.KernelIdeal.τ).loc Cert.KernelIdeal.main_arg12) :=
  Cert.KernelIdeal.Hand.W15_main_arg12 m ρ c

/-- Memories that agree on the arguments give agreeing argument buffers. -/
theorem agree_of (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Agree m ρ c (launchContents m' c) :=
  ⟨(Cert.ReferenceIdeal.HandV.R_of_not_written _ Cert.ReferenceIdeal.HandV.arg0_nw).trans (h0.trans (Kv_arg0 m ρ c).symm),
   (Cert.ReferenceIdeal.HandV.R_of_not_written _ Cert.ReferenceIdeal.HandV.arg1_nw).trans (h1.trans (Kv_arg1 m ρ c).symm),
   (Cert.ReferenceIdeal.HandV.R_of_not_written _ Cert.ReferenceIdeal.HandV.arg2_nw).trans (h2.trans (Kv_arg2 m ρ c).symm),
   (Cert.ReferenceIdeal.HandV.R_of_not_written _ Cert.ReferenceIdeal.HandV.arg3_nw).trans (h3.trans (Kv_arg3 m ρ c).symm),
   (Cert.ReferenceIdeal.HandV.R_of_not_written _ Cert.ReferenceIdeal.HandV.arg4_nw).trans (h4.trans (Kv_arg4 m ρ c).symm),
   (Cert.ReferenceIdeal.HandV.R_of_not_written _ Cert.ReferenceIdeal.HandV.arg5_nw).trans (h5.trans (Kv_arg5 m ρ c).symm),
   (Cert.ReferenceIdeal.HandV.R_of_not_written _ Cert.ReferenceIdeal.HandV.arg6_nw).trans (h6.trans (Kv_arg6 m ρ c).symm),
   (Cert.ReferenceIdeal.HandV.R_of_not_written _ Cert.ReferenceIdeal.HandV.arg7_nw).trans (h7.trans (Kv_arg7 m ρ c).symm),
   (Cert.ReferenceIdeal.HandV.R_of_not_written _ Cert.ReferenceIdeal.HandV.arg8_nw).trans (h8.trans (Kv_arg8 m ρ c).symm),
   (Cert.ReferenceIdeal.HandV.R_of_not_written _ Cert.ReferenceIdeal.HandV.arg9_nw).trans (h9.trans (Kv_arg9 m ρ c).symm),
   (Cert.ReferenceIdeal.HandV.R_of_not_written _ Cert.ReferenceIdeal.HandV.arg10_nw).trans (h10.trans (Kv_arg10 m ρ c).symm),
   (Cert.ReferenceIdeal.HandV.R_of_not_written _ Cert.ReferenceIdeal.HandV.arg11_nw).trans (h11.trans (Kv_arg11 m ρ c).symm),
   (Cert.ReferenceIdeal.HandV.R_of_not_written _ Cert.ReferenceIdeal.HandV.arg12_nw).trans (h12.trans (Kv_arg12 m ρ c).symm)⟩

end Cert.Bridge

end
-- ==== Proof.KI.ValMm.lean ====
import proofs.«180658_j65867618451767_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

/-! Facts on the extended reals that several regions' value halves share: a whole-buffer access has zero offsets;
    the matrix unit's product into a zero accumulator at an index; the sum over the rows of a [10000,64] block kept as
    a [1,64] row, at a column; and the regrouping of a sum over 250000 rows into 25 blocks of 10000. -/

set_option maxRecDepth 16384

noncomputable section

open scoped BigOperators

namespace Cert.KernelIdeal.HandV

open Cert.KernelIdeal Cert.KernelIdeal.Gen
open Idealize.ShloMosaic
open Idealize.ShloMosaic.ValueIdx

/-- The zero offset of a whole-buffer access. -/
theorem zero_offsets : (![0, 0] : Fin 2 → Nat) = fun _ => 0 := funext fun a => by fin_cases a <;> rfl

/-- The same, under the name the accumulating regions' modules use. -/
theorem hz2 : (![0, 0] : Fin 2 → Nat) = fun _ => 0 := zero_offsets

/-- The matrix unit's product of a 10000×64 by a 64×192 operand into a zero accumulator, read at row `r`, column `q`:
    the sum over the 64 contracted coordinates of the products of the entries. The one contracted axis is
    re-indexed by its coordinate. -/
theorem matmul192_at (A : FVec Ideal S10000x64 .bf16) (B : FVec Ideal S64x192 .bf16) (r : Fin 10000) (q : Fin 192) :
    FloatOps.matmul dot_S10000x64_S64x192_S10000x192_1_0_0_1_n_n none A B (constant (F := Ideal) S10000x192 .f32 0x00000000#32) (ix2 r q)
      = ∑ k : Fin 64, A (ix2 r k) * B (ix2 k q) := by
  refine (Ideal.matmul_constant_zero_apply dot_S10000x64_S64x192_S10000x192_1_0_0_1_n_n none A B (ix2 r q)).trans ?_
  rw [← Equiv.sum_comp (contrEquiv1 dot_S10000x64_S64x192_S10000x192_1_0_0_1_n_n 64 rfl rfl).symm]
  refine Finset.sum_congr rfl fun k _ => ?_
  have ck := contrEquiv1_symm_val dot_S10000x64_S64x192_S10000x192_1_0_0_1_n_n 64 rfl rfl k
  have hl : dot_S10000x64_S64x192_S10000x192_1_0_0_1_n_n.lhsIdx (ix2 r q) ((contrEquiv1 _ 64 rfl rfl).symm k) = ix2 r k := by
    funext ax; apply Fin.ext
    match ax with
    | ⟨0, _⟩ => simp [DotDims.lhsIdx, dot_S10000x64_S64x192_S10000x192_1_0_0_1_n_n]; rfl
    | ⟨1, _⟩ => simp [DotDims.lhsIdx, dot_S10000x64_S64x192_S10000x192_1_0_0_1_n_n]; exact ck
  have hr : dot_S10000x64_S64x192_S10000x192_1_0_0_1_n_n.rhsIdx (ix2 r q) ((contrEquiv1 _ 64 rfl rfl).symm k) = ix2 k q := by
    funext ax; apply Fin.ext
    match ax with
    | ⟨0, _⟩ => simp [DotDims.rhsIdx, dot_S10000x64_S64x192_S10000x192_1_0_0_1_n_n]; exact ck
    | ⟨1, _⟩ => simp [DotDims.rhsIdx, dot_S10000x64_S64x192_S10000x192_1_0_0_1_n_n]; rfl
  rw [hl, hr]

/-- The matrix unit's product of a 10000×64 by a 64×64 operand into a zero accumulator, read at row `r`, column `q`:
    the sum over the 64 contracted coordinates of the products of the entries. The one contracted axis is
    re-indexed by its coordinate. -/
theorem matmul64_at (A : FVec Ideal S10000x64 .bf16) (B : FVec Ideal S64x64 .bf16) (r : Fin 10000) (q : Fin 64) :
    FloatOps.matmul dot_S10000x64_S64x64_S10000x64_1_0_0_1_n_n none A B (constant (F := Ideal) S10000x64 .f32 0x00000000#32) (ix2 r q)
      = ∑ k : Fin 64, A (ix2 r k) * B (ix2 k q) := by
  refine (Ideal.matmul_constant_zero_apply dot_S10000x64_S64x64_S10000x64_1_0_0_1_n_n none A B (ix2 r q)).trans ?_
  rw [← Equiv.sum_comp (contrEquiv1 dot_S10000x64_S64x64_S10000x64_1_0_0_1_n_n 64 rfl rfl).symm]
  refine Finset.sum_congr rfl fun k _ => ?_
  have ck := contrEquiv1_symm_val dot_S10000x64_S64x64_S10000x64_1_0_0_1_n_n 64 rfl rfl k
  have hl : dot_S10000x64_S64x64_S10000x64_1_0_0_1_n_n.lhsIdx (ix2 r q) ((contrEquiv1 _ 64 rfl rfl).symm k) = ix2 r k := by
    funext ax; apply Fin.ext
    match ax with
    | ⟨0, _⟩ => simp [DotDims.lhsIdx, dot_S10000x64_S64x64_S10000x64_1_0_0_1_n_n]; rfl
    | ⟨1, _⟩ => simp [DotDims.lhsIdx, dot_S10000x64_S64x64_S10000x64_1_0_0_1_n_n]; exact ck
  have hr : dot_S10000x64_S64x64_S10000x64_1_0_0_1_n_n.rhsIdx (ix2 r q) ((contrEquiv1 _ 64 rfl rfl).symm k) = ix2 k q := by
    funext ax; apply Fin.ext
    match ax with
    | ⟨0, _⟩ => simp [DotDims.rhsIdx, dot_S10000x64_S64x64_S10000x64_1_0_0_1_n_n]; exact ck
    | ⟨1, _⟩ => simp [DotDims.rhsIdx, dot_S10000x64_S64x64_S10000x64_1_0_0_1_n_n]; rfl
  rw [hl, hr]

/-- The sum over the rows of a [10000,64] block, kept as a [1,64] row, read at column `q`: the sum over the 10000 rows
    of the block's entries in that column. -/
theorem colSum_at (src : FVec Ideal S10000x64 .f32) (hacc : (0x00000000#32 : BitVec 32) = 0x00000000#32) (q : Fin 64) :
    shapeCast S1x64 (multiReduction (F := Ideal) .add [0] S64 src 0x00000000#32 reduces_S10000x64_S64 (.inl rfl) hacc) shapeCasts_S64_S1x64 (ix2 (0 : Fin 1) q)
      = ∑ y : Fin 10000, src (ix2 y q) := by
  refine (shapeCast_addUnit_apply ![64] _ shapeCasts_S64_S1x64 (ix2 (0 : Fin 1) q)).trans ?_
  refine (Ideal.multiReduction_add_single src 0x00000000#32 reduces_S10000x64_S64 (.inl rfl) hacc _).trans ?_
  refine Finset.sum_congr rfl fun y _ => congrArg src ?_
  funext a; apply Fin.ext
  match a with
  | ⟨0, _⟩ => rfl
  | ⟨1, _⟩ => rfl

/-- Summing over the 250000 rows is summing over the 25 blocks and the 10000 rows of each. -/
theorem sum_rows_by_block {M : Type} [AddCommMonoid M] (f : Fin 250000 → M) :
    ∑ r : Fin 250000, f r = ∑ s : Fin 25, ∑ y : Fin 10000, f ⟨s.val * 10000 + y.val, by have h1 := s.isLt; have h2 := y.isLt; omega⟩ := by
  rw [← Equiv.sum_comp (finProdFinEquiv : Fin 25 × Fin 10000 ≃ Fin 250000) f, Fintype.sum_prod_type]
  refine Finset.sum_congr rfl fun s _ => Finset.sum_congr rfl fun y _ => congrArg f (Fin.ext ?_)
  show y.val + 10000 * s.val = s.val * 10000 + y.val
  omega

end Cert.KernelIdeal.HandV

end
-- ==== Proof.KI.Val0.lean ====
import proofs.«180658_j65867618451767_1_alg».proof.Proof.KI.Reg0
import proofs.«180658_j65867618451767_1_alg».proof.Proof.KI.ValMm
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! The value half of region 0 on the extended reals: each output array after the region as one function of the
    region's input arrays, index by index. Every output is a linear layer: the row of the first operand times the
    weight matrix, plus the bias row. On the extended reals the roundings to bf16 are the identity and the matrix
    unit's product into a zero accumulator is the plain sum of products. -/

variable (V : (c : Dev nD) → (b : Ref sig .tc) → Buf (Elt Ideal) ((c : Thread nD τ).loc b))

/-! ## Output window 6: rows of window 0 times window 2, plus window 3's row -/

/-- The specification: entry (r, q) of the output array is Σₖ A0(r, k) · A2(k, q) + A3(0, q). -/
def G0_6 (A0 : S250000x64.Idx → EReal) (A2 : S64x192.Idx → EReal) (A3 : S1x192.Idx → EReal) : S250000x192.Idx → EReal :=
  fun i => (∑ k : Fin 64, A0 (ix2 (i 0 : Fin 250000) k) * A2 (ix2 k (i 1 : Fin 192))) + A3 (ix2 (0 : Fin 1) (i 1 : Fin 192))

/-- The body's payload for this window at row `r`, column `q` of the block: the roundings and the same-shape casts
    are the identity, the product is the sum over the contracted coordinate, the bias row is read at its one row. -/
theorem pay0_6_at (x0 : Vec Ideal S10000x64 .f32) (x1 : Vec Ideal S64x192 .f32) (x2 : Vec Ideal S1x192 .f32) (r : Fin 10000) (q : Fin 192) :
    k0_pay1 (F := Ideal) x0 x1 x2 (ix2 r q) = (∑ k : Fin 64, x0 (ix2 r k) * x1 (ix2 k q)) + x2 (ix2 (0 : Fin 1) q) := by
  unfold k0_pay1
  have hm : FloatOps.matmul dot_S10000x64_S64x192_S10000x192_1_0_0_1_n_n none (truncf .bf16 x0 bitsLt_bf16_f32)
      (truncf .bf16 (shapeCast S64x192 x1 shapeCasts_S64x192_S64x192) bitsLt_bf16_f32) (constant (F := Ideal) S10000x192 .f32 0x00000000#32) (ix2 r q)
        = ∑ k : Fin 64, x0 (ix2 r k) * x1 (ix2 k q) := by
    refine (matmul192_at _ _ r q).trans ?_
    refine Finset.sum_congr rfl fun k _ => ?_
    show x0 (ix2 r k) * shapeCast S64x192 x1 shapeCasts_S64x192_S64x192 (ix2 k q) = _
    rw [shapeCast_self]
  have hb : broadcastTo S10000x192 (shapeCast S1x192 x2 shapeCasts_S1x192_S1x192) broadcasts_S1x192_S10000x192 (ix2 r q) = x2 (ix2 (0 : Fin 1) q) := by
    refine (broadcastTo_apply _ broadcasts_S1x192_S10000x192 (ix2 r q) (ix2 (0 : Fin 1) q) ?_).trans ?_
    · intro a
      match a with
      | ⟨0, _⟩ => rfl
      | ⟨1, _⟩ => rfl
    · rw [shapeCast_self]
  exact congrArg₂ (· + ·) hm hb

/-- The printed index maps, decided over the grid: the row operand's blocks move with the output's, the weight and
    the bias stay at their one block, and the output's block index stays in range. -/
theorem idx_facts0_6 : ∀ t : Fin cfg0.N, win0_0.index t (0 : Fin 2) = win0_6.index t (0 : Fin 2)
    ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (1 : Fin 2) = 0 ∧ win0_6.index t (0 : Fin 2) ≤ 24 :=
  (by decide +kernel : ∀ t : Fin grid0.N, _)

/-- Every block row of the output array is some point's. -/
theorem idx_onto0_6 : ∀ q0 : Fin 25, ∃ t : Fin cfg0.N, win0_6.index t = ![q0.val, 0] :=
  (by decide +kernel : ∀ q0 : Fin 25, ∃ t : Fin grid0.N, win0_6.index t = ![q0.val, 0])

set_option maxHeartbeats 1000000 in
/-- What point `t` writes back is block `t` of the specification of the input arrays as the region finds them: a
    block's coordinate is its index times the block's extent plus the coordinate inside the block. -/
theorem flushed0_6_eq (c : Dev nD) (t : Fin cfg0.N) :
    (dat0 (F := Ideal) V c).flushed 6 t = ((cfg0.win 6).blk t).view.read (Elt Ideal)
      (G0_6 (V c (Pipeline.arrRef spec0 0)) (V c (Pipeline.arrRef spec0 2)) (V c (Pipeline.arrRef spec0 3))) := by
  show (cfg0.win 6).cut (grid0.coords t) ((dat0 (F := Ideal) V c).after 6 t) = _
  rw [after0_6]
  unfold out0_6
  rw [View.canon_unit_zero zero_offsets]
  simp only [View.ld_unit_zero (S := S10000x64) zero_offsets, View.ld_unit_zero (S := S64x192) zero_offsets, View.ld_unit_zero (S := S1x192) zero_offsets]
  obtain ⟨e0, e1, e2, e3, e4, e5, e6, e7⟩ := idx_facts0_6 t
  funext j
  obtain ⟨r, q, rfl⟩ : ∃ (r : Fin 10000) (q : Fin 192), j = ix2 r q := ⟨j 0, j 1, eq_ix2 j⟩
  show k0_pay1 (F := Ideal) (iblk0 V c 0 t) (iblk0 V c 2 t) (iblk0 V c 3 t) (ix2 r q)
    = G0_6 (V c (Pipeline.arrRef spec0 0)) (V c (Pipeline.arrRef spec0 2)) (V c (Pipeline.arrRef spec0 3)) (((cfg0.win 6).blk t).view.emb (ix2 r q))
  refine (pay0_6_at (iblk0 V c 0 t) (iblk0 V c 2 t) (iblk0 V c 3 t) r q).trans ?_
  have hx : ∀ k : Fin 64, ((cfg0.win 0).blk t).view.emb (ix2 r k)
      = ix2 ((((cfg0.win 6).blk t).view.emb (ix2 r q)) 0 : Fin 250000) k := fun k => by
    funext a; apply Fin.ext
    match a with
    | ⟨0, _⟩ => show win0_0.index t (0 : Fin 2) * 10000 + 1 * r.val = win0_6.index t (0 : Fin 2) * 10000 + 1 * r.val; omega
    | ⟨1, _⟩ => show win0_0.index t (1 : Fin 2) * 64 + 1 * k.val = k.val; omega
  have hw : ∀ k : Fin 64, ((cfg0.win 2).blk t).view.emb (ix2 k q)
      = ix2 k ((((cfg0.win 6).blk t).view.emb (ix2 r q)) 1 : Fin 192) := fun k => by
    funext a; apply Fin.ext
    match a with
    | ⟨0, _⟩ => show win0_2.index t (0 : Fin 2) * 64 + 1 * k.val = k.val; omega
    | ⟨1, _⟩ => show win0_2.index t (1 : Fin 2) * 192 + 1 * q.val = win0_6.index t (1 : Fin 2) * 192 + 1 * q.val; omega
  have hbias : ((cfg0.win 3).blk t).view.emb (ix2 (0 : Fin 1) q)
      = ix2 (0 : Fin 1) ((((cfg0.win 6).blk t).view.emb (ix2 r q)) 1 : Fin 192) := by
    funext a; apply Fin.ext
    match a with
    | ⟨0, _⟩ => show win0_3.index t (0 : Fin 2) * 1 + 1 * 0 = 0; omega
    | ⟨1, _⟩ => show win0_3.index t (1 : Fin 2) * 192 + 1 * q.val = win0_6.index t (1 : Fin 2) * 192 + 1 * q.val; omega
  unfold G0_6
  refine congrArg₂ (· + ·) (Finset.sum_congr rfl fun k _ => congrArg₂ (· * ·) ?_ ?_) ?_
  · exact congrArg (V c (Pipeline.arrRef spec0 0)) (hx k)
  · exact congrArg (V c (Pipeline.arrRef spec0 2)) (hw k)
  · exact congrArg (V c (Pipeline.arrRef spec0 3)) hbias

/-- An index of the array is in point `t`'s block iff each coordinate is in the block's range on its axis. -/
theorem mem_blk0_6 (t : Fin cfg0.N) (i : S250000x192.Idx) :
    i ∈ ((cfg0.win 6).blk t).view.set ↔ ∀ a : Fin 2, win0_6.index t a * S10000x192.size a ≤ (i a).val ∧ (i a).val < win0_6.index t a * S10000x192.size a + S10000x192.size a := by
  show i ∈ ((View.whole main_v45_0).slice (win0_6.rect t)).set ↔ _
  rw [View.set_slice_whole, Rect.mem_set_unit]
  exact Iff.rfl

/-- Every index of the output array is in some point's block: row `r` in the block of point `r / 10000`. -/
theorem covered0_6 (i : S250000x192.Idx) :
    ∃ t : Fin cfg0.N, (cfg0.win 6).flush t = true ∧ i ∈ ((cfg0.win 6).blk t).view.set := by
  have hi0 : (i 0).val < 250000 := (i 0).isLt
  have hi1 : (i 1).val < 192 := (i 1).isLt
  obtain ⟨t, ht⟩ := idx_onto0_6 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 192 ≤ (i 1).val ∧ (i 1).val < win0_6.index t (1 : Fin 2) * 192 + 192; omega

/-- The output array after the region is the specification of the input arrays as the region finds them. -/
theorem final0_6 (c : Dev nD) :
    (dat0 (F := Ideal) V c).arrAt 6 cfg0.N = G0_6 (V c (Pipeline.arrRef spec0 0)) (V c (Pipeline.arrRef spec0 2)) (V c (Pipeline.arrRef spec0 3)) :=
  (dat0 (F := Ideal) V c).arrAt_eq_of_cover 6 _ (fun t _ => flushed0_6_eq V c t) covered0_6

/-! ## Output window 7: rows of window 1 times window 4, plus window 5's row -/

/-- The specification: entry (r, q) of the output array is Σₖ A1(r, k) · A4(k, q) + A5(0, q). -/
def G0_7 (A1 : S250000x64.Idx → EReal) (A4 : S64x64.Idx → EReal) (A5 : S1x64.Idx → EReal) : S250000x64.Idx → EReal :=
  fun i => (∑ k : Fin 64, A1 (ix2 (i 0 : Fin 250000) k) * A4 (ix2 k (i 1 : Fin 64))) + A5 (ix2 (0 : Fin 1) (i 1 : Fin 64))

/-- The body's payload for this window at row `r`, column `q` of the block: the roundings and the same-shape casts
    are the identity, the product is the sum over the contracted coordinate, the bias row is read at its one row. -/
theorem pay0_7_at (x0 : Vec Ideal S10000x64 .f32) (x1 : Vec Ideal S64x64 .f32) (x2 : Vec Ideal S1x64 .f32) (r : Fin 10000) (q : Fin 64) :
    k0_pay2 (F := Ideal) x0 x1 x2 (ix2 r q) = (∑ k : Fin 64, x0 (ix2 r k) * x1 (ix2 k q)) + x2 (ix2 (0 : Fin 1) q) := by
  unfold k0_pay2
  have hm : FloatOps.matmul dot_S10000x64_S64x64_S10000x64_1_0_0_1_n_n none (truncf .bf16 x0 bitsLt_bf16_f32)
      (truncf .bf16 (shapeCast S64x64 x1 shapeCasts_S64x64_S64x64) bitsLt_bf16_f32) (constant (F := Ideal) S10000x64 .f32 0x00000000#32) (ix2 r q)
        = ∑ k : Fin 64, x0 (ix2 r k) * x1 (ix2 k q) := by
    refine (matmul64_at _ _ r q).trans ?_
    refine Finset.sum_congr rfl fun k _ => ?_
    show x0 (ix2 r k) * shapeCast S64x64 x1 shapeCasts_S64x64_S64x64 (ix2 k q) = _
    rw [shapeCast_self]
  have hb : broadcastTo S10000x64 (shapeCast S1x64 x2 shapeCasts_S1x64_S1x64) broadcasts_S1x64_S10000x64 (ix2 r q) = x2 (ix2 (0 : Fin 1) q) := by
    refine (broadcastTo_apply _ broadcasts_S1x64_S10000x64 (ix2 r q) (ix2 (0 : Fin 1) q) ?_).trans ?_
    · intro a
      match a with
      | ⟨0, _⟩ => rfl
      | ⟨1, _⟩ => rfl
    · rw [shapeCast_self]
  exact congrArg₂ (· + ·) hm hb

/-- The printed index maps, decided over the grid: the row operand's blocks move with the output's, the weight and
    the bias stay at their one block, and the output's block index stays in range. -/
theorem idx_facts0_7 : ∀ t : Fin cfg0.N, win0_1.index t (0 : Fin 2) = win0_7.index t (0 : Fin 2)
    ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (1 : Fin 2) = 0 ∧ win0_7.index t (0 : Fin 2) ≤ 24 :=
  (by decide +kernel : ∀ t : Fin grid0.N, _)

/-- Every block row of the output array is some point's. -/
theorem idx_onto0_7 : ∀ q0 : Fin 25, ∃ t : Fin cfg0.N, win0_7.index t = ![q0.val, 0] :=
  (by decide +kernel : ∀ q0 : Fin 25, ∃ t : Fin grid0.N, win0_7.index t = ![q0.val, 0])

set_option maxHeartbeats 1000000 in
/-- What point `t` writes back is block `t` of the specification of the input arrays as the region finds them: a
    block's coordinate is its index times the block's extent plus the coordinate inside the block. -/
theorem flushed0_7_eq (c : Dev nD) (t : Fin cfg0.N) :
    (dat0 (F := Ideal) V c).flushed 7 t = ((cfg0.win 7).blk t).view.read (Elt Ideal)
      (G0_7 (V c (Pipeline.arrRef spec0 1)) (V c (Pipeline.arrRef spec0 4)) (V c (Pipeline.arrRef spec0 5))) := by
  show (cfg0.win 7).cut (grid0.coords t) ((dat0 (F := Ideal) V c).after 7 t) = _
  rw [after0_7]
  unfold out0_7
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := idx_facts0_7 t
  funext j
  obtain ⟨r, q, rfl⟩ : ∃ (r : Fin 10000) (q : Fin 64), j = ix2 r q := ⟨j 0, j 1, eq_ix2 j⟩
  show k0_pay2 (F := Ideal) (iblk0 V c 1 t) (iblk0 V c 4 t) (iblk0 V c 5 t) (ix2 r q)
    = G0_7 (V c (Pipeline.arrRef spec0 1)) (V c (Pipeline.arrRef spec0 4)) (V c (Pipeline.arrRef spec0 5)) (((cfg0.win 7).blk t).view.emb (ix2 r q))
  refine (pay0_7_at (iblk0 V c 1 t) (iblk0 V c 4 t) (iblk0 V c 5 t) r q).trans ?_
  have hx : ∀ k : Fin 64, ((cfg0.win 1).blk t).view.emb (ix2 r k)
      = ix2 ((((cfg0.win 7).blk t).view.emb (ix2 r q)) 0 : Fin 250000) k := fun k => by
    funext a; apply Fin.ext
    match a with
    | ⟨0, _⟩ => show win0_1.index t (0 : Fin 2) * 10000 + 1 * r.val = win0_7.index t (0 : Fin 2) * 10000 + 1 * r.val; omega
    | ⟨1, _⟩ => show win0_1.index t (1 : Fin 2) * 64 + 1 * k.val = k.val; omega
  have hw : ∀ k : Fin 64, ((cfg0.win 4).blk t).view.emb (ix2 k q)
      = ix2 k ((((cfg0.win 7).blk t).view.emb (ix2 r q)) 1 : Fin 64) := fun k => by
    funext a; apply Fin.ext
    match a with
    | ⟨0, _⟩ => show win0_4.index t (0 : Fin 2) * 64 + 1 * k.val = k.val; omega
    | ⟨1, _⟩ => show win0_4.index t (1 : Fin 2) * 64 + 1 * q.val = win0_7.index t (1 : Fin 2) * 64 + 1 * q.val; omega
  have hbias : ((cfg0.win 5).blk t).view.emb (ix2 (0 : Fin 1) q)
      = ix2 (0 : Fin 1) ((((cfg0.win 7).blk t).view.emb (ix2 r q)) 1 : Fin 64) := by
    funext a; apply Fin.ext
    match a with
    | ⟨0, _⟩ => show win0_5.index t (0 : Fin 2) * 1 + 1 * 0 = 0; omega
    | ⟨1, _⟩ => show win0_5.index t (1 : Fin 2) * 64 + 1 * q.val = win0_7.index t (1 : Fin 2) * 64 + 1 * q.val; omega
  unfold G0_7
  refine congrArg₂ (· + ·) (Finset.sum_congr rfl fun k _ => congrArg₂ (· * ·) ?_ ?_) ?_
  · exact congrArg (V c (Pipeline.arrRef spec0 1)) (hx k)
  · exact congrArg (V c (Pipeline.arrRef spec0 4)) (hw k)
  · exact congrArg (V c (Pipeline.arrRef spec0 5)) hbias

/-- An index of the array is in point `t`'s block iff each coordinate is in the block's range on its axis. -/
theorem mem_blk0_7 (t : Fin cfg0.N) (i : S250000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v45_1).slice (win0_7.rect t)).set ↔ _
  rw [View.set_slice_whole, Rect.mem_set_unit]
  exact Iff.rfl

/-- Every index of the output array is in some point's block: row `r` in the block of point `r / 10000`. -/
theorem covered0_7 (i : S250000x64.Idx) :
    ∃ t : Fin cfg0.N, (cfg0.win 7).flush t = true ∧ i ∈ ((cfg0.win 7).blk t).view.set := by
  have hi0 : (i 0).val < 250000 := (i 0).isLt
  have hi1 : (i 1).val < 64 := (i 1).isLt
  obtain ⟨t, ht⟩ := idx_onto0_7 ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk0_7]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- The output array after the region is the specification of the input arrays as the region finds them. -/
theorem final0_7 (c : Dev nD) :
    (dat0 (F := Ideal) V c).arrAt 7 cfg0.N = G0_7 (V c (Pipeline.arrRef spec0 1)) (V c (Pipeline.arrRef spec0 4)) (V c (Pipeline.arrRef spec0 5)) :=
  (dat0 (F := Ideal) V c).arrAt_eq_of_cover 7 _ (fun t _ => flushed0_7_eq V c t) covered0_7

end Cert.KernelIdeal.HandV

end
-- ==== Proof.KI.Val1.lean ====
import proofs.«180658_j65867618451767_1_alg».proof.Proof.KI.Reg1
import proofs.«180658_j65867618451767_1_alg».proof.Proof.KI.ValMm
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! The value half of region 1 on the extended reals: each output array after the region as one function of the
    region's input arrays, index by index. Every output is a linear layer: the row of the first operand times the
    weight matrix, plus the bias row. On the extended reals the roundings to bf16 are the identity and the matrix
    unit's product into a zero accumulator is the plain sum of products. -/

variable (V : (c : Dev nD) → (b : Ref sig .tc) → Buf (Elt Ideal) ((c : Thread nD τ).loc b))

/-! ## Output window 3: rows of window 0 times window 1, plus window 2's row -/

/-- The specification: entry (r, q) of the output array is Σₖ A0(r, k) · A1(k, q) + A2(0, q). -/
def G1_3 (A0 : S10000x64.Idx → EReal) (A1 : S64x192.Idx → EReal) (A2 : S1x192.Idx → EReal) : S10000x192.Idx → EReal :=
  fun i => (∑ k : Fin 64, A0 (ix2 (i 0 : Fin 10000) k) * A1 (ix2 k (i 1 : Fin 192))) + A2 (ix2 (0 : Fin 1) (i 1 : Fin 192))

/-- The body's payload for this window at row `r`, column `q` of the block: the roundings and the same-shape casts
    are the identity, the product is the sum over the contracted coordinate, the bias row is read at its one row. -/
theorem pay1_3_at (x0 : Vec Ideal S10000x64 .f32) (x1 : Vec Ideal S64x192 .f32) (x2 : Vec Ideal S1x192 .f32) (r : Fin 10000) (q : Fin 192) :
    k1_pay1 (F := Ideal) x0 x1 x2 (ix2 r q) = (∑ k : Fin 64, x0 (ix2 r k) * x1 (ix2 k q)) + x2 (ix2 (0 : Fin 1) q) := by
  unfold k1_pay1
  have hm : FloatOps.matmul dot_S10000x64_S64x192_S10000x192_1_0_0_1_n_n none (truncf .bf16 x0 bitsLt_bf16_f32)
      (truncf .bf16 (shapeCast S64x192 x1 shapeCasts_S64x192_S64x192) bitsLt_bf16_f32) (constant (F := Ideal) S10000x192 .f32 0x00000000#32) (ix2 r q)
        = ∑ k : Fin 64, x0 (ix2 r k) * x1 (ix2 k q) := by
    refine (matmul192_at _ _ r q).trans ?_
    refine Finset.sum_congr rfl fun k _ => ?_
    show x0 (ix2 r k) * shapeCast S64x192 x1 shapeCasts_S64x192_S64x192 (ix2 k q) = _
    rw [shapeCast_self]
  have hb : broadcastTo S10000x192 (shapeCast S1x192 x2 shapeCasts_S1x192_S1x192) broadcasts_S1x192_S10000x192 (ix2 r q) = x2 (ix2 (0 : Fin 1) q) := by
    refine (broadcastTo_apply _ broadcasts_S1x192_S10000x192 (ix2 r q) (ix2 (0 : Fin 1) q) ?_).trans ?_
    · intro a
      match a with
      | ⟨0, _⟩ => rfl
      | ⟨1, _⟩ => rfl
    · rw [shapeCast_self]
  exact congrArg₂ (· + ·) hm hb

/-- The printed index maps, decided over the grid: the row operand's blocks move with the output's, the weight and
    the bias stay at their one block, and the output's block index stays in range. -/
theorem idx_facts1_3 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 0 :=
  (by decide +kernel : ∀ t : Fin grid1.N, _)

/-- Every block row of the output array is some point's. -/
theorem idx_onto1_3 : ∀ q0 : Fin 1, ∃ t : Fin cfg1.N, win1_3.index t = ![q0.val, 0] :=
  (by decide +kernel : ∀ q0 : Fin 1, ∃ t : Fin grid1.N, win1_3.index t = ![q0.val, 0])

set_option maxHeartbeats 1000000 in
/-- What point `t` writes back is block `t` of the specification of the input arrays as the region finds them: a
    block's coordinate is its index times the block's extent plus the coordinate inside the block. -/
theorem flushed1_3_eq (c : Dev nD) (t : Fin cfg1.N) :
    (dat1 (F := Ideal) V c).flushed 3 t = ((cfg1.win 3).blk t).view.read (Elt Ideal)
      (G1_3 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offsets]
  simp only [View.ld_unit_zero (S := S10000x64) zero_offsets, View.ld_unit_zero (S := S64x192) zero_offsets, View.ld_unit_zero (S := S1x192) zero_offsets]
  obtain ⟨e0, e1, e2, e3, e4, e5, e6, e7⟩ := idx_facts1_3 t
  funext j
  obtain ⟨r, q, rfl⟩ : ∃ (r : Fin 10000) (q : Fin 192), j = ix2 r q := ⟨j 0, j 1, eq_ix2 j⟩
  show k1_pay1 (F := Ideal) (iblk1 V c 0 t) (iblk1 V c 1 t) (iblk1 V c 2 t) (ix2 r q)
    = G1_3 (V c (Pipeline.arrRef spec1 0)) (V c (Pipeline.arrRef spec1 1)) (V c (Pipeline.arrRef spec1 2)) (((cfg1.win 3).blk t).view.emb (ix2 r q))
  refine (pay1_3_at (iblk1 V c 0 t) (iblk1 V c 1 t) (iblk1 V c 2 t) r q).trans ?_
  have hx : ∀ k : Fin 64, ((cfg1.win 0).blk t).view.emb (ix2 r k)
      = ix2 ((((cfg1.win 3).blk t).view.emb (ix2 r q)) 0 : Fin 10000) k := fun k => by
    funext a; apply Fin.ext
    match a with
    | ⟨0, _⟩ => show win1_0.index t (0 : Fin 2) * 10000 + 1 * r.val = win1_3.index t (0 : Fin 2) * 10000 + 1 * r.val; omega
    | ⟨1, _⟩ => show win1_0.index t (1 : Fin 2) * 64 + 1 * k.val = k.val; omega
  have hw : ∀ k : Fin 64, ((cfg1.win 1).blk t).view.emb (ix2 k q)
      = ix2 k ((((cfg1.win 3).blk t).view.emb (ix2 r q)) 1 : Fin 192) := fun k => by
    funext a; apply Fin.ext
    match a with
    | ⟨0, _⟩ => show win1_1.index t (0 : Fin 2) * 64 + 1 * k.val = k.val; omega
    | ⟨1, _⟩ => show win1_1.index t (1 : Fin 2) * 192 + 1 * q.val = win1_3.index t (1 : Fin 2) * 192 + 1 * q.val; omega
  have hbias : ((cfg1.win 2).blk t).view.emb (ix2 (0 : Fin 1) q)
      = ix2 (0 : Fin 1) ((((cfg1.win 3).blk t).view.emb (ix2 r q)) 1 : Fin 192) := by
    funext a; apply Fin.ext
    match a with
    | ⟨0, _⟩ => show win1_2.index t (0 : Fin 2) * 1 + 1 * 0 = 0; omega
    | ⟨1, _⟩ => show win1_2.index t (1 : Fin 2) * 192 + 1 * q.val = win1_3.index t (1 : Fin 2) * 192 + 1 * q.val; omega
  unfold G1_3
  refine congrArg₂ (· + ·) (Finset.sum_congr rfl fun k _ => congrArg₂ (· * ·) ?_ ?_) ?_
  · exact congrArg (V c (Pipeline.arrRef spec1 0)) (hx k)
  · exact congrArg (V c (Pipeline.arrRef spec1 1)) (hw k)
  · exact congrArg (V c (Pipeline.arrRef spec1 2)) hbias

/-- An index of the array is in point `t`'s block iff each coordinate is in the block's range on its axis. -/
theorem mem_blk1_3 (t : Fin cfg1.N) (i : S10000x192.Idx) :
    i ∈ ((cfg1.win 3).blk t).view.set ↔ ∀ a : Fin 2, win1_3.index t a * S10000x192.size a ≤ (i a).val ∧ (i a).val < win1_3.index t a * S10000x192.size a + S10000x192.size a := by
  show i ∈ ((View.whole main_v49).slice (win1_3.rect t)).set ↔ _
  rw [View.set_slice_whole, Rect.mem_set_unit]
  exact Iff.rfl

/-- Every index of the output array is in some point's block: row `r` in the block of point `r / 10000`. -/
theorem covered1_3 (i : S10000x192.Idx) :
    ∃ t : Fin cfg1.N, (cfg1.win 3).flush t = true ∧ i ∈ ((cfg1.win 3).blk t).view.set := by
  have hi0 : (i 0).val < 10000 := (i 0).isLt
  have hi1 : (i 1).val < 192 := (i 1).isLt
  obtain ⟨t, ht⟩ := idx_onto1_3 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 192 ≤ (i 1).val ∧ (i 1).val < win1_3.index t (1 : Fin 2) * 192 + 192; omega

/-- The output array after the region is the specification of the input arrays as the region finds them. -/
theorem final1_3 (c : Dev nD) :
    (dat1 (F := Ideal) V c).arrAt 3 cfg1.N = G1_3 (V c (Pipeline.arrRef spec1 0)) (V c (Pipeline.arrRef spec1 1)) (V c (Pipeline.arrRef spec1 2)) :=
  (dat1 (F := Ideal) V c).arrAt_eq_of_cover 3 _ (fun t _ => flushed1_3_eq V c t) covered1_3

end Cert.KernelIdeal.HandV

end
-- ==== Proof.KI.ValPw.lean ====
import Idealize.ShloMosaic.PureOps.Ideal
import Idealize.ShloMosaic.Lib.ValueIdx

/-! The scalar expressions of the three pointwise kernels, on the extended reals, in the order and grouping the kernels
    compute them. No program is imported: these are plain functions of extended reals. -/

noncomputable section

namespace Cert.KernelIdeal.HandV

open Idealize.ShloMosaic Idealize.ShloMosaic.ValueIdx

/-- The variance offset of the normalizations: the f32 word nearest to `1e-5`. -/
abbrev pwEps : Ideal .f32 := Ideal.ofBits .f32 0x3727C5AC#32

/-- The affine normalization of an entry `x` by a column's mean `μ`, variance `v`, scale `g` and shift `b`:
    `((x - μ) * rsqrt (v + eps)) * g + b`, grouped as written (the extended reals are no field). -/
def pwNorm (x μ v g b : Ideal .f32) : Ideal .f32 :=
  (x - μ) * Ideal.rsqrt (v + pwEps) * g + b

/-- ELU: `x` where `x > 0`, else `exp x - 1`, the choice made by the comparison's bit. -/
def pwElu (x : Ideal .f32) : Ideal .f32 :=
  Scalar.select (FloatOps.cmpf (F := Ideal) .ogt x (Ideal.ofBits .f32 0x00000000#32)) x
    (Ideal.exp x - Ideal.ofBits .f32 0x3F800000#32)

/-- The logistic function as the quotient `1 / (1 + exp (0 - y))`. -/
def pwSigmoid (y : Ideal .f32) : Ideal .f32 :=
  Ideal.div (Ideal.ofBits .f32 0x3F800000#32)
    (Ideal.ofBits .f32 0x3F800000#32 + Ideal.exp (Ideal.ofBits .f32 0x00000000#32 - y))

/-- The one row of a `[1, 64]` array, read at column `q`. -/
abbrev pwRow (A : (⟨2, ![1, 64]⟩ : Shape).Idx → Ideal .f32) (q : Fin 64) : Ideal .f32 := A (ix2 (0 : Fin 1) q)

/-- The vector reciprocal square root and exponential act entry by entry. -/
theorem pw_rsqrt_apply {s : Shape} {φ : FTy} (x : FVec Ideal s φ) (i : s.Idx) : rsqrt x i = Ideal.rsqrt (x i) := rfl
theorem pw_exp_apply {s : Shape} {φ : FTy} (x : FVec Ideal s φ) (i : s.Idx) : exp x i = Ideal.exp (x i) := rfl

theorem pw_hz : (![0, 0] : Fin 2 → Nat) = fun _ => 0 := funext fun a => by fin_cases a <;> rfl
-- ==== Proof.KI.Val3.lean ====
import proofs.«180658_j65867618451767_1_alg».proof.Proof.KI.Reg3
import proofs.«180658_j65867618451767_1_alg».proof.Proof.KI.ValPw
import Idealize.ShloMosaic.Lib.ValueIdx
import Idealize.ShloMosaic.Lib.Pipeline.Value
import Idealize.ShloMosaic.Lib.ValueLayout
import Idealize.ShloMosaic.PureOps.Ideal.Laws

/-! The value of pipeline 3 on the extended reals: each output array after the region as one function of the
    region's input arrays, index by index. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The specification -/

/-- Output 5 of the region: every entry `(r, q)` of the `[250000, 64]` array is ELU of the entry of `A0` normalized
    by column `q` of the four one-row parameter arrays (mean `A1`, variance `A2`, scale `A3`, shift `A4`). -/
def G3_5 (A0 : S250000x64.Idx → Ideal .f32) (A1 A2 A3 A4 : S1x64.Idx → Ideal .f32) : S250000x64.Idx → Ideal .f32 :=
  fun i => pwElu (pwNorm (A0 i) (pwRow A1 (i 1)) (pwRow A2 (i 1)) (pwRow A3 (i 1)) (pwRow A4 (i 1)))

/-- Output 6 of the region: the logistic function of output 5's entry, as the quotient `1 / (1 + exp (0 - e))`. -/
def G3_6 (A0 : S250000x64.Idx → Ideal .f32) (A1 A2 A3 A4 : S1x64.Idx → Ideal .f32) : S250000x64.Idx → Ideal .f32 :=
  fun i => pwSigmoid (pwElu (pwNorm (A0 i) (pwRow A1 (i 1)) (pwRow A2 (i 1)) (pwRow A3 (i 1)) (pwRow A4 (i 1))))

/-! ## The body's payloads at an index -/

/-- The first stored block at row `p`, column `q`: ELU of the normalized entry, the parameters read at column `q` of their row. -/
theorem pay3_5_apply (x0 : Vec Ideal S10000x64 .f32) (x1 x2 x3 x4 : Vec Ideal S1x64 .f32) (p : Fin 10000) (q : Fin 64) :
    k3_pay1 x0 x2 x1 x3 x4 (ix2 p q)
      = pwElu (pwNorm (x0 (ix2 p q)) (pwRow x1 q) (pwRow x2 q) (pwRow x3 q) (pwRow x4 q)) := by
  unfold k3_pay1 pwElu pwNorm
  simp only [select_apply, cmpf_apply, subf_apply, addf_apply, mulf_apply, divf_apply, broadcast_apply, shapeCast_self,
    broadcastTo_1b_ab_apply, pw_rsqrt_apply, pw_exp_apply]
  rfl

/-- The second stored block at row `p`, column `q`: the logistic quotient of the first block's entry. -/
theorem pay3_6_apply (x0 : Vec Ideal S10000x64 .f32) (x1 x2 x3 x4 : Vec Ideal S1x64 .f32) (p : Fin 10000) (q : Fin 64) :
    k3_pay2 x0 x2 x1 x3 x4 (ix2 p q)
      = pwSigmoid (pwElu (pwNorm (x0 (ix2 p q)) (pwRow x1 q) (pwRow x2 q) (pwRow x3 q) (pwRow x4 q))) := by
  unfold k3_pay2 k3_pay1 pwSigmoid pwElu pwNorm
  simp only [select_apply, cmpf_apply, subf_apply, addf_apply, mulf_apply, divf_apply, broadcast_apply, shapeCast_self,
    broadcastTo_1b_ab_apply, pw_rsqrt_apply, pw_exp_apply]
  rfl

/-! ## From blocks to the array -/

/-- The block indices over the grid: at point `t` the big input and the outputs sit at row block `t`, column block 0;
    the four parameter rows at block (0, 0). -/
theorem idx3 : ∀ t : Fin cfg3.N, win3_5.index t (0 : Fin 2) = t.val ∧ win3_5.index t (1 : Fin 2) = 0
    ∧ win3_6.index t (0 : Fin 2) = t.val ∧ win3_6.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-- Parameter window 1's block at every point is its whole one-row array. -/
theorem row3_1 (c : Dev nD) (t : Fin cfg3.N) : (iblk3 V c 1 t : Vec Ideal S1x64 .f32) = V c (Pipeline.arrRef spec3 1) := by
  obtain ⟨e50, e51, e60, e61, e00, e01, e10, e11, e20, e21, e30, e31, e40, e41⟩ := idx3 t
  funext y
  show V c (Pipeline.arrRef spec3 1) (((cfg3.win 1).blk t).view.emb y) = V c (Pipeline.arrRef spec3 1) y
  congr 1
  funext a; apply Fin.ext
  match a with
  | ⟨0, _⟩ => show win3_1.index t (0 : Fin 2) * 1 + 1 * (y 0).val = (y 0).val; rw [e10]; omega
  | ⟨1, _⟩ => show win3_1.index t (1 : Fin 2) * 64 + 1 * (y 1).val = (y 1).val; rw [e11]; omega

/-- Parameter window 2's block at every point is its whole one-row array. -/
theorem row3_2 (c : Dev nD) (t : Fin cfg3.N) : (iblk3 V c 2 t : Vec Ideal S1x64 .f32) = V c (Pipeline.arrRef spec3 2) := by
  obtain ⟨e50, e51, e60, e61, e00, e01, e10, e11, e20, e21, e30, e31, e40, e41⟩ := idx3 t
  funext y
  show V c (Pipeline.arrRef spec3 2) (((cfg3.win 2).blk t).view.emb y) = V c (Pipeline.arrRef spec3 2) y
  congr 1
  funext a; apply Fin.ext
  match a with
  | ⟨0, _⟩ => show win3_2.index t (0 : Fin 2) * 1 + 1 * (y 0).val = (y 0).val; rw [e20]; omega
  | ⟨1, _⟩ => show win3_2.index t (1 : Fin 2) * 64 + 1 * (y 1).val = (y 1).val; rw [e21]; omega

/-- Parameter window 3's block at every point is its whole one-row array. -/
theorem row3_3 (c : Dev nD) (t : Fin cfg3.N) : (iblk3 V c 3 t : Vec Ideal S1x64 .f32) = V c (Pipeline.arrRef spec3 3) := by
  obtain ⟨e50, e51, e60, e61, e00, e01, e10, e11, e20, e21, e30, e31, e40, e41⟩ := idx3 t
  funext y
  show V c (Pipeline.arrRef spec3 3) (((cfg3.win 3).blk t).view.emb y) = V c (Pipeline.arrRef spec3 3) y
  congr 1
  funext a; apply Fin.ext
  match a with
  | ⟨0, _⟩ => show win3_3.index t (0 : Fin 2) * 1 + 1 * (y 0).val = (y 0).val; rw [e30]; omega
  | ⟨1, _⟩ => show win3_3.index t (1 : Fin 2) * 64 + 1 * (y 1).val = (y 1).val; rw [e31]; omega

/-- Parameter window 4's block at every point is its whole one-row array. -/
theorem row3_4 (c : Dev nD) (t : Fin cfg3.N) : (iblk3 V c 4 t : Vec Ideal S1x64 .f32) = V c (Pipeline.arrRef spec3 4) := by
  obtain ⟨e50, e51, e60, e61, e00, e01, e10, e11, e20, e21, e30, e31, e40, e41⟩ := idx3 t
  funext y
  show V c (Pipeline.arrRef spec3 4) (((cfg3.win 4).blk t).view.emb y) = V c (Pipeline.arrRef spec3 4) y
  congr 1
  funext a; apply Fin.ext
  match a with
  | ⟨0, _⟩ => show win3_4.index t (0 : Fin 2) * 1 + 1 * (y 0).val = (y 0).val; rw [e40]; omega
  | ⟨1, _⟩ => show win3_4.index t (1 : Fin 2) * 64 + 1 * (y 1).val = (y 1).val; rw [e41]; omega

set_option maxHeartbeats 1000000 in
/-- What point `t` writes back to output 5 is block `t` of `G3_5` of the input arrays as the region finds them. -/
theorem flushed3_5_eq (c : Dev nD) (t : Fin cfg3.N) :
    (dat3 (F := Ideal) V c).flushed 5 t = ((cfg3.win 5).blk t).view.read (Elt Ideal)
      (G3_5 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero pw_hz]
  simp only [View.ld_unit_zero (S := S10000x64) pw_hz, View.ld_unit_zero (S := S1x64) pw_hz]
  obtain ⟨e50, e51, e60, e61, e00, e01, e10, e11, e20, e21, e30, e31, e40, e41⟩ := idx3 t
  funext j
  obtain ⟨p, q, rfl⟩ : ∃ (p : Fin 10000) (q : Fin 64), j = ix2 p q := ⟨j 0, j 1, eq_ix2 j⟩
  show k3_pay1 (iblk3 V c 0 t) (iblk3 V c 2 t) (iblk3 V c 1 t) (iblk3 V c 3 t) (iblk3 V c 4 t) (ix2 p q)
    = G3_5 (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  refine (pay3_5_apply (iblk3 V c 0 t) (iblk3 V c 1 t) (iblk3 V c 2 t) (iblk3 V c 3 t) (iblk3 V c 4 t) p q).trans ?_
  have h0 : (iblk3 V c 0 t : Vec Ideal S10000x64 .f32) (ix2 p q)
      = V c (Pipeline.arrRef spec3 0) (((cfg3.win 5).blk t).view.emb (ix2 p q)) := by
    show V c (Pipeline.arrRef spec3 0) (((cfg3.win 0).blk t).view.emb (ix2 p q)) = _
    congr 1
  have hq : ((((cfg3.win 5).blk t).view.emb (ix2 p q)) 1 : Fin 64) = q :=
    Fin.ext (show win3_5.index t (1 : Fin 2) * 64 + 1 * q.val = q.val by rw [e51]; omega)
  unfold G3_5
  rw [h0, row3_1, row3_2, row3_3, row3_4, hq]

/-- An index of output 5's array is in point `t`'s block iff each coordinate is in the block's range on its axis. -/
theorem mem_blk3_5 (t : Fin cfg3.N) (i : S250000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v83_0).slice (win3_5.rect t)).set ↔ _
  rw [View.set_slice_whole, Rect.mem_set_unit]
  exact Iff.rfl

/-- Every index of output 5's array lies in the block of the point its row falls in: row `r` in block `r / 10000`. -/
theorem cover3_5_arr (i : S250000x64.Idx) : ∃ t : Fin cfg3.N, (cfg3.win 5).flush t = true ∧ i ∈ ((cfg3.win 5).blk t).view.set := by
  have hi0 : (i 0).val < 250000 := (i 0).isLt
  have hi1 : (i 1).val < 64 := (i 1).isLt
  have hN : cfg3.N = 25 := N_3
  have hlt : (i 0).val / 10000 < cfg3.N := by rw [hN]; omega
  have hidx := idx3 ⟨(i 0).val / 10000, hlt⟩
  obtain ⟨e50, e51, e60, e61, e00, e01, e10, e11, e20, e21, e30, e31, e40, e41⟩ := hidx
  refine ⟨⟨(i 0).val / 10000, hlt⟩, flush3_5 _, ?_⟩
  rw [mem_blk3_5]
  intro a
  match a with
  | ⟨0, _⟩ =>
    show win3_5.index ⟨(i 0).val / 10000, hlt⟩ (0 : Fin 2) * 10000 ≤ (i 0).val
      ∧ (i 0).val < win3_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win3_5.index ⟨(i 0).val / 10000, hlt⟩ (1 : Fin 2) * 64 ≤ (i 1).val
      ∧ (i 1).val < win3_5.index ⟨(i 0).val / 10000, hlt⟩ (1 : Fin 2) * 64 + 64
    rw [e51]; omega

/-- Output 5's array after the region is `G3_5` of the input arrays as the region finds them. -/
theorem final3_5 (c : Dev nD) :
    (dat3 (F := Ideal) V c).arrAt 5 cfg3.N = G3_5 (V c (Pipeline.arrRef spec3 0)) (V c (Pipeline.arrRef spec3 1))
      (V c (Pipeline.arrRef spec3 2)) (V c (Pipeline.arrRef spec3 3)) (V c (Pipeline.arrRef spec3 4)) :=
  (dat3 (F := Ideal) V c).arrAt_eq_of_cover 5 _ (fun t _ => flushed3_5_eq V c t) cover3_5_arr

set_option maxHeartbeats 1000000 in
/-- What point `t` writes back to output 6 is block `t` of `G3_6` of the input arrays as the region finds them. -/
theorem flushed3_6_eq (c : Dev nD) (t : Fin cfg3.N) :
    (dat3 (F := Ideal) V c).flushed 6 t = ((cfg3.win 6).blk t).view.read (Elt Ideal)
      (G3_6 (V c (Pipeline.arrRef spec3 0)) (V c (Pipeline.arrRef spec3 1)) (V c (Pipeline.arrRef spec3 2))
        (V c (Pipeline.arrRef spec3 3)) (V c (Pipeline.arrRef spec3 4))) := by
  show (cfg3.win 6).cut (grid3.coords t) ((dat3 (F := Ideal) V c).after 6 t) = _
  rw [after3_6]
  unfold out3_6
  rw [View.canon_unit_zero pw_hz]
  simp only [View.ld_unit_zero (S := S10000x64) pw_hz, View.ld_unit_zero (S := S1x64) pw_hz]
  obtain ⟨e50, e51, e60, e61, e00, e01, e10, e11, e20, e21, e30, e31, e40, e41⟩ := idx3 t
  funext j
  obtain ⟨p, q, rfl⟩ : ∃ (p : Fin 10000) (q : Fin 64), j = ix2 p q := ⟨j 0, j 1, eq_ix2 j⟩
  show k3_pay2 (iblk3 V c 0 t) (iblk3 V c 2 t) (iblk3 V c 1 t) (iblk3 V c 3 t) (iblk3 V c 4 t) (ix2 p q)
    = G3_6 (V c (Pipeline.arrRef spec3 0)) (V c (Pipeline.arrRef spec3 1)) (V c (Pipeline.arrRef spec3 2))
        (V c (Pipeline.arrRef spec3 3)) (V c (Pipeline.arrRef spec3 4)) (((cfg3.win 6).blk t).view.emb (ix2 p q))
  refine (pay3_6_apply (iblk3 V c 0 t) (iblk3 V c 1 t) (iblk3 V c 2 t) (iblk3 V c 3 t) (iblk3 V c 4 t) p q).trans ?_
  have h0 : (iblk3 V c 0 t : Vec Ideal S10000x64 .f32) (ix2 p q)
      = V c (Pipeline.arrRef spec3 0) (((cfg3.win 6).blk t).view.emb (ix2 p q)) := by
    show V c (Pipeline.arrRef spec3 0) (((cfg3.win 0).blk t).view.emb (ix2 p q)) = _
    congr 1
  have hq : ((((cfg3.win 6).blk t).view.emb (ix2 p q)) 1 : Fin 64) = q :=
    Fin.ext (show win3_6.index t (1 : Fin 2) * 64 + 1 * q.val = q.val by rw [e61]; omega)
  unfold G3_6
  rw [h0, row3_1, row3_2, row3_3, row3_4, hq]

/-- An index of output 6's array is in point `t`'s block iff each coordinate is in the block's range on its axis. -/
theorem mem_blk3_6 (t : Fin cfg3.N) (i : S250000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v83_1).slice (win3_6.rect t)).set ↔ _
  rw [View.set_slice_whole, Rect.mem_set_unit]
  exact Iff.rfl

/-- Every index of output 6's array lies in the block of the point its row falls in: row `r` in block `r / 10000`. -/
theorem cover3_6_arr (i : S250000x64.Idx) : ∃ t : Fin cfg3.N, (cfg3.win 6).flush t = true ∧ i ∈ ((cfg3.win 6).blk t).view.set := by
  have hi0 : (i 0).val < 250000 := (i 0).isLt
  have hi1 : (i 1).val < 64 := (i 1).isLt
  have hN : cfg3.N = 25 := N_3
  have hlt : (i 0).val / 10000 < cfg3.N := by rw [hN]; omega
  have hidx := idx3 ⟨(i 0).val / 10000, hlt⟩
  obtain ⟨e50, e51, e60, e61, e00, e01, e10, e11, e20, e21, e30, e31, e40, e41⟩ := hidx
  refine ⟨⟨(i 0).val / 10000, hlt⟩, flush3_6 _, ?_⟩
  rw [mem_blk3_6]
  intro a
  match a with
  | ⟨0, _⟩ =>
    show win3_6.index ⟨(i 0).val / 10000, hlt⟩ (0 : Fin 2) * 10000 ≤ (i 0).val
      ∧ (i 0).val < win3_6.index ⟨(i 0).val / 10000, hlt⟩ (0 : Fin 2) * 10000 + 10000
    rw [e60]; show (i 0).val / 10000 * 10000 ≤ (i 0).val ∧ (i 0).val < (i 0).val / 10000 * 10000 + 10000; omega
  | ⟨1, _⟩ =>
    show win3_6.index ⟨(i 0).val / 10000, hlt⟩ (1 : Fin 2) * 64 ≤ (i 1).val
      ∧ (i 1).val < win3_6.index ⟨(i 0).val / 10000, hlt⟩ (1 : Fin 2) * 64 + 64
    rw [e61]; omega

/-- Output 6's array after the region is `G3_6` of the input arrays as the region finds them. -/
theorem final3_6 (c : Dev nD) :
    (dat3 (F := Ideal) V c).arrAt 6 cfg3.N = G3_6 (V c (Pipeline.arrRef spec3 0)) (V c (Pipeline.arrRef spec3 1))
      (V c (Pipeline.arrRef spec3 2)) (V c (Pipeline.arrRef spec3 3)) (V c (Pipeline.arrRef spec3 4)) :=
  (dat3 (F := Ideal) V c).arrAt_eq_of_cover 6 _ (fun t _ => flushed3_6_eq V c t) cover3_6_arr
-- ==== Proof.KI.Val5.lean ====
import proofs.«180658_j65867618451767_1_alg».proof.Proof.KI.Reg5
import proofs.«180658_j65867618451767_1_alg».proof.Proof.KI.ValPw
import Idealize.ShloMosaic.Lib.ValueIdx
import Idealize.ShloMosaic.Lib.Pipeline.Value
import Idealize.ShloMosaic.Lib.ValueLayout
import Idealize.ShloMosaic.PureOps.Ideal.Laws

/-! The value of pipeline 5 on the extended reals: each output array after the region as one function of the
    region's input arrays, index by index. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The specification -/

/-- Output 5 of the region: every entry `(r, q)` of the `[250000, 64]` array is ELU of the entry of `A0` normalized
    by column `q` of the four one-row parameter arrays (mean `A1`, variance `A2`, scale `A3`, shift `A4`). -/
def G5_5 (A0 : S250000x64.Idx → Ideal .f32) (A1 A2 A3 A4 : S1x64.Idx → Ideal .f32) : S250000x64.Idx → Ideal .f32 :=
  fun i => pwElu (pwNorm (A0 i) (pwRow A1 (i 1)) (pwRow A2 (i 1)) (pwRow A3 (i 1)) (pwRow A4 (i 1)))

/-! ## The body's payloads at an index -/

/-- The stored block at row `p`, column `q`: ELU of the normalized entry, the parameters read at column `q` of their row. -/
theorem pay5_5_apply (x0 : Vec Ideal S10000x64 .f32) (x1 x2 x3 x4 : Vec Ideal S1x64 .f32) (p : Fin 10000) (q : Fin 64) :
    k5_pay1 x0 x2 x1 x3 x4 (ix2 p q)
      = pwElu (pwNorm (x0 (ix2 p q)) (pwRow x1 q) (pwRow x2 q) (pwRow x3 q) (pwRow x4 q)) := by
  unfold k5_pay1 pwElu pwNorm
  simp only [select_apply, cmpf_apply, subf_apply, addf_apply, mulf_apply, divf_apply, broadcast_apply, shapeCast_self,
    broadcastTo_1b_ab_apply, pw_rsqrt_apply, pw_exp_apply]
  rfl

/-! ## From blocks to the array -/

/-- The block indices over the grid: at point `t` the big input and the output sit at row block `t`, column block 0;
    the four parameter rows at block (0, 0). -/
theorem idx5 : ∀ t : Fin cfg5.N, win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b))

/-- Parameter window 1's block at every point is its whole one-row array. -/
theorem row5_1 (c : Dev nD) (t : Fin cfg5.N) : (iblk5 V c 1 t : Vec Ideal S1x64 .f32) = V c (Pipeline.arrRef spec5 1) := by
  obtain ⟨e50, e51, e00, e01, e10, e11, e20, e21, e30, e31, e40, e41⟩ := idx5 t
  funext y
  show V c (Pipeline.arrRef spec5 1) (((cfg5.win 1).blk t).view.emb y) = V c (Pipeline.arrRef spec5 1) y
  congr 1
  funext a; apply Fin.ext
  match a with
  | ⟨0, _⟩ => show win5_1.index t (0 : Fin 2) * 1 + 1 * (y 0).val = (y 0).val; rw [e10]; omega
  | ⟨1, _⟩ => show win5_1.index t (1 : Fin 2) * 64 + 1 * (y 1).val = (y 1).val; rw [e11]; omega

/-- Parameter window 2's block at every point is its whole one-row array. -/
theorem row5_2 (c : Dev nD) (t : Fin cfg5.N) : (iblk5 V c 2 t : Vec Ideal S1x64 .f32) = V c (Pipeline.arrRef spec5 2) := by
  obtain ⟨e50, e51, e00, e01, e10, e11, e20, e21, e30, e31, e40, e41⟩ := idx5 t
  funext y
  show V c (Pipeline.arrRef spec5 2) (((cfg5.win 2).blk t).view.emb y) = V c (Pipeline.arrRef spec5 2) y
  congr 1
  funext a; apply Fin.ext
  match a with
  | ⟨0, _⟩ => show win5_2.index t (0 : Fin 2) * 1 + 1 * (y 0).val = (y 0).val; rw [e20]; omega
  | ⟨1, _⟩ => show win5_2.index t (1 : Fin 2) * 64 + 1 * (y 1).val = (y 1).val; rw [e21]; omega

/-- Parameter window 3's block at every point is its whole one-row array. -/
theorem row5_3 (c : Dev nD) (t : Fin cfg5.N) : (iblk5 V c 3 t : Vec Ideal S1x64 .f32) = V c (Pipeline.arrRef spec5 3) := by
  obtain ⟨e50, e51, e00, e01, e10, e11, e20, e21, e30, e31, e40, e41⟩ := idx5 t
  funext y
  show V c (Pipeline.arrRef spec5 3) (((cfg5.win 3).blk t).view.emb y) = V c (Pipeline.arrRef spec5 3) y
  congr 1
  funext a; apply Fin.ext
  match a with
  | ⟨0, _⟩ => show win5_3.index t (0 : Fin 2) * 1 + 1 * (y 0).val = (y 0).val; rw [e30]; omega
  | ⟨1, _⟩ => show win5_3.index t (1 : Fin 2) * 64 + 1 * (y 1).val = (y 1).val; rw [e31]; omega

/-- Parameter window 4's block at every point is its whole one-row array. -/
theorem row5_4 (c : Dev nD) (t : Fin cfg5.N) : (iblk5 V c 4 t : Vec Ideal S1x64 .f32) = V c (Pipeline.arrRef spec5 4) := by
  obtain ⟨e50, e51, e00, e01, e10, e11, e20, e21, e30, e31, e40, e41⟩ := idx5 t
  funext y
  show V c (Pipeline.arrRef spec5 4) (((cfg5.win 4).blk t).view.emb y) = V c (Pipeline.arrRef spec5 4) y
  congr 1
  funext a; apply Fin.ext
  match a with
  | ⟨0, _⟩ => show win5_4.index t (0 : Fin 2) * 1 + 1 * (y 0).val = (y 0).val; rw [e40]; omega
  | ⟨1, _⟩ => show win5_4.index t (1 : Fin 2) * 64 + 1 * (y 1).val = (y 1).val; rw [e41]; omega

set_option maxHeartbeats 1000000 in
/-- What point `t` writes back to output 5 is block `t` of `G5_5` of the input arrays as the region finds them. -/
theorem flushed5_5_eq (c : Dev nD) (t : Fin cfg5.N) :
    (dat5 (F := Ideal) V c).flushed 5 t = ((cfg5.win 5).blk t).view.read (Elt Ideal)
      (G5_5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero pw_hz]
  simp only [View.ld_unit_zero (S := S10000x64) pw_hz, View.ld_unit_zero (S := S1x64) pw_hz]
  obtain ⟨e50, e51, e00, e01, e10, e11, e20, e21, e30, e31, e40, e41⟩ := idx5 t
  funext j
  obtain ⟨p, q, rfl⟩ : ∃ (p : Fin 10000) (q : Fin 64), j = ix2 p q := ⟨j 0, j 1, eq_ix2 j⟩
  show k5_pay1 (iblk5 V c 0 t) (iblk5 V c 2 t) (iblk5 V c 1 t) (iblk5 V c 3 t) (iblk5 V c 4 t) (ix2 p q)
    = G5_5 (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  refine (pay5_5_apply (iblk5 V c 0 t) (iblk5 V c 1 t) (iblk5 V c 2 t) (iblk5 V c 3 t) (iblk5 V c 4 t) p q).trans ?_
  have h0 : (iblk5 V c 0 t : Vec Ideal S10000x64 .f32) (ix2 p q)
      = V c (Pipeline.arrRef spec5 0) (((cfg5.win 5).blk t).view.emb (ix2 p q)) := by
    show V c (Pipeline.arrRef spec5 0) (((cfg5.win 0).blk t).view.emb (ix2 p q)) = _
    congr 1
  have hq : ((((cfg5.win 5).blk t).view.emb (ix2 p q)) 1 : Fin 64) = q :=
    Fin.ext (show win5_5.index t (1 : Fin 2) * 64 + 1 * q.val = q.val by rw [e51]; omega)
  unfold G5_5
  rw [h0, row5_1, row5_2, row5_3, row5_4, hq]

/-- An index of output 5's array is in point `t`'s block iff each coordinate is in the block's range on its axis. -/
theorem mem_blk5_5 (t : Fin cfg5.N) (i : S250000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v126).slice (win5_5.rect t)).set ↔ _
  rw [View.set_slice_whole, Rect.mem_set_unit]
  exact Iff.rfl

/-- Every index of output 5's array lies in the block of the point its row falls in: row `r` in block `r / 10000`. -/
theorem cover5_5_arr (i : S250000x64.Idx) : ∃ t : Fin cfg5.N, (cfg5.win 5).flush t = true ∧ i ∈ ((cfg5.win 5).blk t).view.set := by
  have hi0 : (i 0).val < 250000 := (i 0).isLt
  have hi1 : (i 1).val < 64 := (i 1).isLt
  have hN : cfg5.N = 25 := N_5
  have hlt : (i 0).val / 10000 < cfg5.N := by rw [hN]; omega
  have hidx := idx5 ⟨(i 0).val / 10000, hlt⟩
  obtain ⟨e50, e51, e00, e01, e10, e11, e20, e21, e30, e31, e40, e41⟩ := hidx
  refine ⟨⟨(i 0).val / 10000, hlt⟩, flush5_5 _, ?_⟩
  rw [mem_blk5_5]
  intro a
  match a with
  | ⟨0, _⟩ =>
    show win5_5.index ⟨(i 0).val / 10000, hlt⟩ (0 : Fin 2) * 10000 ≤ (i 0).val
      ∧ (i 0).val < win5_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win5_5.index ⟨(i 0).val / 10000, hlt⟩ (1 : Fin 2) * 64 ≤ (i 1).val
      ∧ (i 1).val < win5_5.index ⟨(i 0).val / 10000, hlt⟩ (1 : Fin 2) * 64 + 64
    rw [e51]; omega

/-- Output 5's array after the region is `G5_5` of the input arrays as the region finds them. -/
theorem final5_5 (c : Dev nD) :
    (dat5 (F := Ideal) V c).arrAt 5 cfg5.N = G5_5 (V c (Pipeline.arrRef spec5 0)) (V c (Pipeline.arrRef spec5 1))
      (V c (Pipeline.arrRef spec5 2)) (V c (Pipeline.arrRef spec5 3)) (V c (Pipeline.arrRef spec5 4)) :=
  (dat5 (F := Ideal) V c).arrAt_eq_of_cover 5 _ (fun t _ => flushed5_5_eq V c t) cover5_5_arr
-- ==== Proof.KI.Val6.lean ====
import proofs.«180658_j65867618451767_1_alg».proof.Proof.KI.Reg6
import proofs.«180658_j65867618451767_1_alg».proof.Proof.KI.ValMm
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! The value half of region 6 on the extended reals: each output array after the region as one function of the
    region's input arrays, index by index. Every output is a linear layer: the row of the first operand times the
    weight matrix, plus the bias row. On the extended reals the roundings to bf16 are the identity and the matrix
    unit's product into a zero accumulator is the plain sum of products. -/

variable (V : (c : Dev nD) → (b : Ref sig .tc) → Buf (Elt Ideal) ((c : Thread nD τ).loc b))

/-! ## Output window 6: rows of window 0 times window 2, plus window 3's row -/

/-- The specification: entry (r, q) of the output array is Σₖ A0(r, k) · A2(k, q) + A3(0, q). -/
def G6_6 (A0 : S250000x64.Idx → EReal) (A2 : S64x64.Idx → EReal) (A3 : S1x64.Idx → EReal) : S250000x64.Idx → EReal :=
  fun i => (∑ k : Fin 64, A0 (ix2 (i 0 : Fin 250000) k) * A2 (ix2 k (i 1 : Fin 64))) + A3 (ix2 (0 : Fin 1) (i 1 : Fin 64))

/-- The body's payload for this window at row `r`, column `q` of the block: the roundings and the same-shape casts
    are the identity, the product is the sum over the contracted coordinate, the bias row is read at its one row. -/
theorem pay6_6_at (x0 : Vec Ideal S10000x64 .f32) (x1 : Vec Ideal S64x64 .f32) (x2 : Vec Ideal S1x64 .f32) (r : Fin 10000) (q : Fin 64) :
    k6_pay1 (F := Ideal) x0 x1 x2 (ix2 r q) = (∑ k : Fin 64, x0 (ix2 r k) * x1 (ix2 k q)) + x2 (ix2 (0 : Fin 1) q) := by
  unfold k6_pay1
  have hm : FloatOps.matmul dot_S10000x64_S64x64_S10000x64_1_0_0_1_n_n none (truncf .bf16 (shapeCast S10000x64 x0 shapeCasts_S10000x64_S10000x64) bitsLt_bf16_f32)
      (truncf .bf16 (shapeCast S64x64 x1 shapeCasts_S64x64_S64x64) bitsLt_bf16_f32) (constant (F := Ideal) S10000x64 .f32 0x00000000#32) (ix2 r q)
        = ∑ k : Fin 64, x0 (ix2 r k) * x1 (ix2 k q) := by
    refine (matmul64_at _ _ r q).trans ?_
    refine Finset.sum_congr rfl fun k _ => ?_
    show (shapeCast S10000x64 x0 shapeCasts_S10000x64_S10000x64) (ix2 r k) * shapeCast S64x64 x1 shapeCasts_S64x64_S64x64 (ix2 k q) = _
    rw [shapeCast_self, shapeCast_self]
  have hb : broadcastTo S10000x64 (shapeCast S1x64 x2 shapeCasts_S1x64_S1x64) broadcasts_S1x64_S10000x64 (ix2 r q) = x2 (ix2 (0 : Fin 1) q) := by
    refine (broadcastTo_apply _ broadcasts_S1x64_S10000x64 (ix2 r q) (ix2 (0 : Fin 1) q) ?_).trans ?_
    · intro a
      match a with
      | ⟨0, _⟩ => rfl
      | ⟨1, _⟩ => rfl
    · rw [shapeCast_self]
  exact congrArg₂ (· + ·) hm hb

/-- The printed index maps, decided over the grid: the row operand's blocks move with the output's, the weight and
    the bias stay at their one block, and the output's block index stays in range. -/
theorem idx_facts6_6 : ∀ t : Fin cfg6.N, win6_0.index t (0 : Fin 2) = win6_6.index t (0 : Fin 2)
    ∧ win6_0.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_6.index t (1 : Fin 2) = 0 ∧ win6_6.index t (0 : Fin 2) ≤ 24 :=
  (by decide +kernel : ∀ t : Fin grid6.N, _)

/-- Every block row of the output array is some point's. -/
theorem idx_onto6_6 : ∀ q0 : Fin 25, ∃ t : Fin cfg6.N, win6_6.index t = ![q0.val, 0] :=
  (by decide +kernel : ∀ q0 : Fin 25, ∃ t : Fin grid6.N, win6_6.index t = ![q0.val, 0])

set_option maxHeartbeats 1000000 in
/-- What point `t` writes back is block `t` of the specification of the input arrays as the region finds them: a
    block's coordinate is its index times the block's extent plus the coordinate inside the block. -/
theorem flushed6_6_eq (c : Dev nD) (t : Fin cfg6.N) :
    (dat6 (F := Ideal) V c).flushed 6 t = ((cfg6.win 6).blk t).view.read (Elt Ideal)
      (G6_6 (V c (Pipeline.arrRef spec6 0)) (V c (Pipeline.arrRef spec6 2)) (V c (Pipeline.arrRef spec6 3))) := by
  show (cfg6.win 6).cut (grid6.coords t) ((dat6 (F := Ideal) V c).after 6 t) = _
  rw [after6_6]
  unfold out6_6
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := idx_facts6_6 t
  funext j
  obtain ⟨r, q, rfl⟩ : ∃ (r : Fin 10000) (q : Fin 64), j = ix2 r q := ⟨j 0, j 1, eq_ix2 j⟩
  show k6_pay1 (F := Ideal) (iblk6 V c 0 t) (iblk6 V c 2 t) (iblk6 V c 3 t) (ix2 r q)
    = G6_6 (V c (Pipeline.arrRef spec6 0)) (V c (Pipeline.arrRef spec6 2)) (V c (Pipeline.arrRef spec6 3)) (((cfg6.win 6).blk t).view.emb (ix2 r q))
  refine (pay6_6_at (iblk6 V c 0 t) (iblk6 V c 2 t) (iblk6 V c 3 t) r q).trans ?_
  have hx : ∀ k : Fin 64, ((cfg6.win 0).blk t).view.emb (ix2 r k)
      = ix2 ((((cfg6.win 6).blk t).view.emb (ix2 r q)) 0 : Fin 250000) k := fun k => by
    funext a; apply Fin.ext
    match a with
    | ⟨0, _⟩ => show win6_0.index t (0 : Fin 2) * 10000 + 1 * r.val = win6_6.index t (0 : Fin 2) * 10000 + 1 * r.val; omega
    | ⟨1, _⟩ => show win6_0.index t (1 : Fin 2) * 64 + 1 * k.val = k.val; omega
  have hw : ∀ k : Fin 64, ((cfg6.win 2).blk t).view.emb (ix2 k q)
      = ix2 k ((((cfg6.win 6).blk t).view.emb (ix2 r q)) 1 : Fin 64) := fun k => by
    funext a; apply Fin.ext
    match a with
    | ⟨0, _⟩ => show win6_2.index t (0 : Fin 2) * 64 + 1 * k.val = k.val; omega
    | ⟨1, _⟩ => show win6_2.index t (1 : Fin 2) * 64 + 1 * q.val = win6_6.index t (1 : Fin 2) * 64 + 1 * q.val; omega
  have hbias : ((cfg6.win 3).blk t).view.emb (ix2 (0 : Fin 1) q)
      = ix2 (0 : Fin 1) ((((cfg6.win 6).blk t).view.emb (ix2 r q)) 1 : Fin 64) := by
    funext a; apply Fin.ext
    match a with
    | ⟨0, _⟩ => show win6_3.index t (0 : Fin 2) * 1 + 1 * 0 = 0; omega
    | ⟨1, _⟩ => show win6_3.index t (1 : Fin 2) * 64 + 1 * q.val = win6_6.index t (1 : Fin 2) * 64 + 1 * q.val; omega
  unfold G6_6
  refine congrArg₂ (· + ·) (Finset.sum_congr rfl fun k _ => congrArg₂ (· * ·) ?_ ?_) ?_
  · exact congrArg (V c (Pipeline.arrRef spec6 0)) (hx k)
  · exact congrArg (V c (Pipeline.arrRef spec6 2)) (hw k)
  · exact congrArg (V c (Pipeline.arrRef spec6 3)) hbias

/-- An index of the array is in point `t`'s block iff each coordinate is in the block's range on its axis. -/
theorem mem_blk6_6 (t : Fin cfg6.N) (i : S250000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v127_0).slice (win6_6.rect t)).set ↔ _
  rw [View.set_slice_whole, Rect.mem_set_unit]
  exact Iff.rfl

/-- Every index of the output array is in some point's block: row `r` in the block of point `r / 10000`. -/
theorem covered6_6 (i : S250000x64.Idx) :
    ∃ t : Fin cfg6.N, (cfg6.win 6).flush t = true ∧ i ∈ ((cfg6.win 6).blk t).view.set := by
  have hi0 : (i 0).val < 250000 := (i 0).isLt
  have hi1 : (i 1).val < 64 := (i 1).isLt
  obtain ⟨t, ht⟩ := idx_onto6_6 ⟨(i 0).val / 10000, by omega⟩
  have q0 : win6_6.index t (0 : Fin 2) = (i 0).val / 10000 := congrFun ht 0
  have q1 : win6_6.index t (1 : Fin 2) = 0 := congrFun ht 1
  refine ⟨t, flush6_6 t, ?_⟩
  rw [mem_blk6_6]
  intro a
  match a with
  | ⟨0, _⟩ => show win6_6.index t (0 : Fin 2) * 10000 ≤ (i 0).val ∧ (i 0).val < win6_6.index t (0 : Fin 2) * 10000 + 10000; omega
  | ⟨1, _⟩ => show win6_6.index t (1 : Fin 2) * 64 ≤ (i 1).val ∧ (i 1).val < win6_6.index t (1 : Fin 2) * 64 + 64; omega

/-- The output array after the region is the specification of the input arrays as the region finds them. -/
theorem final6_6 (c : Dev nD) :
    (dat6 (F := Ideal) V c).arrAt 6 cfg6.N = G6_6 (V c (Pipeline.arrRef spec6 0)) (V c (Pipeline.arrRef spec6 2)) (V c (Pipeline.arrRef spec6 3)) :=
  (dat6 (F := Ideal) V c).arrAt_eq_of_cover 6 _ (fun t _ => flushed6_6_eq V c t) covered6_6

/-! ## Output window 7: rows of window 1 times window 4, plus window 5's row -/

/-- The specification: entry (r, q) of the output array is Σₖ A1(r, k) · A4(k, q) + A5(0, q). -/
def G6_7 (A1 : S250000x64.Idx → EReal) (A4 : S64x64.Idx → EReal) (A5 : S1x64.Idx → EReal) : S250000x64.Idx → EReal :=
  fun i => (∑ k : Fin 64, A1 (ix2 (i 0 : Fin 250000) k) * A4 (ix2 k (i 1 : Fin 64))) + A5 (ix2 (0 : Fin 1) (i 1 : Fin 64))

/-- The body's payload for this window at row `r`, column `q` of the block: the roundings and the same-shape casts
    are the identity, the product is the sum over the contracted coordinate, the bias row is read at its one row. -/
theorem pay6_7_at (x0 : Vec Ideal S10000x64 .f32) (x1 : Vec Ideal S64x64 .f32) (x2 : Vec Ideal S1x64 .f32) (r : Fin 10000) (q : Fin 64) :
    k6_pay2 (F := Ideal) x0 x1 x2 (ix2 r q) = (∑ k : Fin 64, x0 (ix2 r k) * x1 (ix2 k q)) + x2 (ix2 (0 : Fin 1) q) := by
  unfold k6_pay2
  have hm : FloatOps.matmul dot_S10000x64_S64x64_S10000x64_1_0_0_1_n_n none (truncf .bf16 (shapeCast S10000x64 x0 shapeCasts_S10000x64_S10000x64) bitsLt_bf16_f32)
      (truncf .bf16 (shapeCast S64x64 x1 shapeCasts_S64x64_S64x64) bitsLt_bf16_f32) (constant (F := Ideal) S10000x64 .f32 0x00000000#32) (ix2 r q)
        = ∑ k : Fin 64, x0 (ix2 r k) * x1 (ix2 k q) := by
    refine (matmul64_at _ _ r q).trans ?_
    refine Finset.sum_congr rfl fun k _ => ?_
    show (shapeCast S10000x64 x0 shapeCasts_S10000x64_S10000x64) (ix2 r k) * shapeCast S64x64 x1 shapeCasts_S64x64_S64x64 (ix2 k q) = _
    rw [shapeCast_self, shapeCast_self]
  have hb : broadcastTo S10000x64 (shapeCast S1x64 x2 shapeCasts_S1x64_S1x64) broadcasts_S1x64_S10000x64 (ix2 r q) = x2 (ix2 (0 : Fin 1) q) := by
    refine (broadcastTo_apply _ broadcasts_S1x64_S10000x64 (ix2 r q) (ix2 (0 : Fin 1) q) ?_).trans ?_
    · intro a
      match a with
      | ⟨0, _⟩ => rfl
      | ⟨1, _⟩ => rfl
    · rw [shapeCast_self]
  exact congrArg₂ (· + ·) hm hb

/-- The printed index maps, decided over the grid: the row operand's blocks move with the output's, the weight and
    the bias stay at their one block, and the output's block index stays in range. -/
theorem idx_facts6_7 : ∀ t : Fin cfg6.N, win6_1.index t (0 : Fin 2) = win6_7.index t (0 : Fin 2)
    ∧ win6_1.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_7.index t (1 : Fin 2) = 0 ∧ win6_7.index t (0 : Fin 2) ≤ 24 :=
  (by decide +kernel : ∀ t : Fin grid6.N, _)

/-- Every block row of the output array is some point's. -/
theorem idx_onto6_7 : ∀ q0 : Fin 25, ∃ t : Fin cfg6.N, win6_7.index t = ![q0.val, 0] :=
  (by decide +kernel : ∀ q0 : Fin 25, ∃ t : Fin grid6.N, win6_7.index t = ![q0.val, 0])

set_option maxHeartbeats 1000000 in
/-- What point `t` writes back is block `t` of the specification of the input arrays as the region finds them: a
    block's coordinate is its index times the block's extent plus the coordinate inside the block. -/
theorem flushed6_7_eq (c : Dev nD) (t : Fin cfg6.N) :
    (dat6 (F := Ideal) V c).flushed 7 t = ((cfg6.win 7).blk t).view.read (Elt Ideal)
      (G6_7 (V c (Pipeline.arrRef spec6 1)) (V c (Pipeline.arrRef spec6 4)) (V c (Pipeline.arrRef spec6 5))) := by
  show (cfg6.win 7).cut (grid6.coords t) ((dat6 (F := Ideal) V c).after 7 t) = _
  rw [after6_7]
  unfold out6_7
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := idx_facts6_7 t
  funext j
  obtain ⟨r, q, rfl⟩ : ∃ (r : Fin 10000) (q : Fin 64), j = ix2 r q := ⟨j 0, j 1, eq_ix2 j⟩
  show k6_pay2 (F := Ideal) (iblk6 V c 1 t) (iblk6 V c 4 t) (iblk6 V c 5 t) (ix2 r q)
    = G6_7 (V c (Pipeline.arrRef spec6 1)) (V c (Pipeline.arrRef spec6 4)) (V c (Pipeline.arrRef spec6 5)) (((cfg6.win 7).blk t).view.emb (ix2 r q))
  refine (pay6_7_at (iblk6 V c 1 t) (iblk6 V c 4 t) (iblk6 V c 5 t) r q).trans ?_
  have hx : ∀ k : Fin 64, ((cfg6.win 1).blk t).view.emb (ix2 r k)
      = ix2 ((((cfg6.win 7).blk t).view.emb (ix2 r q)) 0 : Fin 250000) k := fun k => by
    funext a; apply Fin.ext
    match a with
    | ⟨0, _⟩ => show win6_1.index t (0 : Fin 2) * 10000 + 1 * r.val = win6_7.index t (0 : Fin 2) * 10000 + 1 * r.val; omega
    | ⟨1, _⟩ => show win6_1.index t (1 : Fin 2) * 64 + 1 * k.val = k.val; omega
  have hw : ∀ k : Fin 64, ((cfg6.win 4).blk t).view.emb (ix2 k q)
      = ix2 k ((((cfg6.win 7).blk t).view.emb (ix2 r q)) 1 : Fin 64) := fun k => by
    funext a; apply Fin.ext
    match a with
    | ⟨0, _⟩ => show win6_4.index t (0 : Fin 2) * 64 + 1 * k.val = k.val; omega
    | ⟨1, _⟩ => show win6_4.index t (1 : Fin 2) * 64 + 1 * q.val = win6_7.index t (1 : Fin 2) * 64 + 1 * q.val; omega
  have hbias : ((cfg6.win 5).blk t).view.emb (ix2 (0 : Fin 1) q)
      = ix2 (0 : Fin 1) ((((cfg6.win 7).blk t).view.emb (ix2 r q)) 1 : Fin 64) := by
    funext a; apply Fin.ext
    match a with
    | ⟨0, _⟩ => show win6_5.index t (0 : Fin 2) * 1 + 1 * 0 = 0; omega
    | ⟨1, _⟩ => show win6_5.index t (1 : Fin 2) * 64 + 1 * q.val = win6_7.index t (1 : Fin 2) * 64 + 1 * q.val; omega
  unfold G6_7
  refine congrArg₂ (· + ·) (Finset.sum_congr rfl fun k _ => congrArg₂ (· * ·) ?_ ?_) ?_
  · exact congrArg (V c (Pipeline.arrRef spec6 1)) (hx k)
  · exact congrArg (V c (Pipeline.arrRef spec6 4)) (hw k)
  · exact congrArg (V c (Pipeline.arrRef spec6 5)) hbias

/-- An index of the array is in point `t`'s block iff each coordinate is in the block's range on its axis. -/
theorem mem_blk6_7 (t : Fin cfg6.N) (i : S250000x64.Idx) :
    i ∈ ((cfg6.win 7).blk t).view.set ↔ ∀ a : Fin 2, win6_7.index t a * S10000x64.size a ≤ (i a).val ∧ (i a).val < win6_7.index t a * S10000x64.size a + S10000x64.size a := by
  show i ∈ ((View.whole main_v127_1).slice (win6_7.rect t)).set ↔ _
  rw [View.set_slice_whole, Rect.mem_set_unit]
  exact Iff.rfl

/-- Every index of the output array is in some point's block: row `r` in the block of point `r / 10000`. -/
theorem covered6_7 (i : S250000x64.Idx) :
    ∃ t : Fin cfg6.N, (cfg6.win 7).flush t = true ∧ i ∈ ((cfg6.win 7).blk t).view.set := by
  have hi0 : (i 0).val < 250000 := (i 0).isLt
  have hi1 : (i 1).val < 64 := (i 1).isLt
  obtain ⟨t, ht⟩ := idx_onto6_7 ⟨(i 0).val / 10000, by omega⟩
  have q0 : win6_7.index t (0 : Fin 2) = (i 0).val / 10000 := congrFun ht 0
  have q1 : win6_7.index t (1 : Fin 2) = 0 := congrFun ht 1
  refine ⟨t, flush6_7 t, ?_⟩
  rw [mem_blk6_7]
  intro a
  match a with
  | ⟨0, _⟩ => show win6_7.index t (0 : Fin 2) * 10000 ≤ (i 0).val ∧ (i 0).val < win6_7.index t (0 : Fin 2) * 10000 + 10000; omega
  | ⟨1, _⟩ => show win6_7.index t (1 : Fin 2) * 64 ≤ (i 1).val ∧ (i 1).val < win6_7.index t (1 : Fin 2) * 64 + 64; omega

/-- The output array after the region is the specification of the input arrays as the region finds them. -/
theorem final6_7 (c : Dev nD) :
    (dat6 (F := Ideal) V c).arrAt 7 cfg6.N = G6_7 (V c (Pipeline.arrRef spec6 1)) (V c (Pipeline.arrRef spec6 4)) (V c (Pipeline.arrRef spec6 5)) :=
  (dat6 (F := Ideal) V c).arrAt_eq_of_cover 7 _ (fun t _ => flushed6_7_eq V c t) covered6_7

end Cert.KernelIdeal.HandV

end
-- ==== Proof.KI.Val7.lean ====
import proofs.«180658_j65867618451767_1_alg».proof.Proof.KI.Reg7
import proofs.«180658_j65867618451767_1_alg».proof.Proof.KI.ValPw
import Idealize.ShloMosaic.Lib.ValueIdx
import Idealize.ShloMosaic.Lib.Pipeline.Value
import Idealize.ShloMosaic.Lib.ValueLayout
import Idealize.ShloMosaic.PureOps.Ideal.Laws

/-! The value of pipeline 7 on the extended reals: each output array after the region as one function of the
    region's input arrays, index by index. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The specification -/

/-- The sum of the two `[10000, 64]` inputs at an entry. -/
def guSum (A0 A1 : S10000x64.Idx → Ideal .f32) (r : Fin 10000) (q : Fin 64) : Ideal .f32 :=
  A0 (ix2 r q) + A1 (ix2 r q)

/-- The 10000 rows as an extended real: the f32 word of `1e4`. -/
abbrev guRows : Ideal .f32 := Ideal.ofBits .f32 0x461C4000#32

/-- Column `q`'s mean: the plain sum over the rows, divided by the number of rows. -/
def guMean (A0 A1 : S10000x64.Idx → Ideal .f32) (q : Fin 64) : Ideal .f32 :=
  Ideal.div (∑ r : Fin 10000, guSum A0 A1 r q) guRows

/-- An entry's deviation from its column's mean. -/
def guDev (A0 A1 : S10000x64.Idx → Ideal .f32) (r : Fin 10000) (q : Fin 64) : Ideal .f32 :=
  guSum A0 A1 r q - guMean A0 A1 q

/-- Column `q`'s variance: the sum of the squared deviations over the rows, divided by the number of rows. -/
def guVar (A0 A1 : S10000x64.Idx → Ideal .f32) (q : Fin 64) : Ideal .f32 :=
  Ideal.div (∑ r : Fin 10000, guDev A0 A1 r q * guDev A0 A1 r q) guRows

/-- Output 4 of the region: ELU of the deviation scaled by the reciprocal root of the column's variance (offset by
    `eps`), then by the scale row `A2`, shifted by the row `A3`; the products grouped as written. -/
def G7_4 (A0 A1 : S10000x64.Idx → Ideal .f32) (A2 A3 : S1x64.Idx → Ideal .f32) : S10000x64.Idx → Ideal .f32 :=
  fun i => pwElu (guDev A0 A1 (i 0) (i 1) * Ideal.rsqrt (guVar A0 A1 (i 1) + pwEps) * pwRow A2 (i 1) + pwRow A3 (i 1))

/-! ## The body's payload at an index -/

/-- A reduced column index with row `k` put back is `(k, q)`. -/
theorem gu_lift (q : Fin 64) (k : Fin (S10000x64.size 0)) :
    reduces_S10000x64_S64.lift (ix1 q) k = ix2 (⟨k.val, k.isLt⟩ : Fin 10000) q := by
  funext c; apply Fin.ext
  fin_cases c <;> rfl

/-- The sum-reduction over the rows, at column `q`, is the plain sum of the column's entries. -/
theorem gu_colSum (x : FVec Ideal S10000x64 .f32) (hφ : FTy.f32 = FTy.f32 ∨ FTy.f32 = FTy.bf16)
    (hacc : (0x00000000#32 : BitVec 32) = 0x00000000#32) (q : Fin 64) :
    multiReduction .add [0] S64 x 0x00000000#32 reduces_S10000x64_S64 hφ hacc (ix1 q)
      = ∑ k : Fin 10000, x (ix2 k q) := by
  refine (Ideal.multiReduction_add_single x 0x00000000#32 reduces_S10000x64_S64 hφ hacc (ix1 q)).trans ?_
  show (∑ k : Fin 10000, x (reduces_S10000x64_S64.lift (ix1 q) k)) = _
  exact Finset.sum_congr rfl fun k _ => congrArg x (gu_lift q k)

/-- The stored block at row `p`, column `q`. -/
theorem pay7_apply (x0 x1 : Vec Ideal S10000x64 .f32) (x2 x3 : Vec Ideal S1x64 .f32) (p : Fin 10000) (q : Fin 64) :
    k7_pay1 x0 x1 x2 x3 (ix2 p q)
      = pwElu (guDev x0 x1 p q * Ideal.rsqrt (guVar x0 x1 q + pwEps) * pwRow x2 q + pwRow x3 q) := by
  unfold k7_pay1 pwElu guVar guDev guMean guSum
  simp only [select_apply, cmpf_apply, subf_apply, addf_apply, mulf_apply, divf_apply, broadcast_apply, shapeCast_self,
    broadcastTo_1b_ab_apply, pw_rsqrt_apply, pw_exp_apply, shapeCast_a_1a_apply]
  rw [gu_colSum (addf x0 x1)]
  rw [gu_colSum]
  simp only [select_apply, cmpf_apply, subf_apply, addf_apply, mulf_apply, divf_apply, broadcast_apply, shapeCast_self,
    broadcastTo_1b_ab_apply, pw_rsqrt_apply, pw_exp_apply, shapeCast_a_1a_apply]
  rw [gu_colSum (addf x0 x1)]
  simp only [addf_apply]
  rfl

/-! ## From the one block to the array -/

/-- At the grid's one point every window sits at block (0, 0). -/
theorem idx7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

variable (V : (c : Dev nD) → (b : Ref sig .tc) → Buf (Elt Ideal) ((c : Thread nD τ).loc b))

/-- Input window 0's one block is its whole array. -/
theorem blk7_0 (c : Dev nD) (t : Fin cfg7.N) : (iblk7 V c 0 t : Vec Ideal S10000x64 .f32) = V c (Pipeline.arrRef spec7 0) := by
  obtain ⟨e00, e01, e10, e11, e20, e21, e30, e31, e40, e41⟩ := idx7 t
  funext y
  show V c (Pipeline.arrRef spec7 0) (((cfg7.win 0).blk t).view.emb y) = V c (Pipeline.arrRef spec7 0) y
  congr 1
  funext a; apply Fin.ext
  match a with
  | ⟨0, _⟩ => show win7_0.index t (0 : Fin 2) * 10000 + 1 * (y 0).val = (y 0).val; rw [e00]; omega
  | ⟨1, _⟩ => show win7_0.index t (1 : Fin 2) * 64 + 1 * (y 1).val = (y 1).val; rw [e01]; omega

/-- Input window 1's one block is its whole array. -/
theorem blk7_1 (c : Dev nD) (t : Fin cfg7.N) : (iblk7 V c 1 t : Vec Ideal S10000x64 .f32) = V c (Pipeline.arrRef spec7 1) := by
  obtain ⟨e00, e01, e10, e11, e20, e21, e30, e31, e40, e41⟩ := idx7 t
  funext y
  show V c (Pipeline.arrRef spec7 1) (((cfg7.win 1).blk t).view.emb y) = V c (Pipeline.arrRef spec7 1) y
  congr 1
  funext a; apply Fin.ext
  match a with
  | ⟨0, _⟩ => show win7_1.index t (0 : Fin 2) * 10000 + 1 * (y 0).val = (y 0).val; rw [e10]; omega
  | ⟨1, _⟩ => show win7_1.index t (1 : Fin 2) * 64 + 1 * (y 1).val = (y 1).val; rw [e11]; omega

/-- Input window 2's one block is its whole array. -/
theorem blk7_2 (c : Dev nD) (t : Fin cfg7.N) : (iblk7 V c 2 t : Vec Ideal S1x64 .f32) = V c (Pipeline.arrRef spec7 2) := by
  obtain ⟨e00, e01, e10, e11, e20, e21, e30, e31, e40, e41⟩ := idx7 t
  funext y
  show V c (Pipeline.arrRef spec7 2) (((cfg7.win 2).blk t).view.emb y) = V c (Pipeline.arrRef spec7 2) y
  congr 1
  funext a; apply Fin.ext
  match a with
  | ⟨0, _⟩ => show win7_2.index t (0 : Fin 2) * 1 + 1 * (y 0).val = (y 0).val; rw [e20]; omega
  | ⟨1, _⟩ => show win7_2.index t (1 : Fin 2) * 64 + 1 * (y 1).val = (y 1).val; rw [e21]; omega

/-- Input window 3's one block is its whole array. -/
theorem blk7_3 (c : Dev nD) (t : Fin cfg7.N) : (iblk7 V c 3 t : Vec Ideal S1x64 .f32) = V c (Pipeline.arrRef spec7 3) := by
  obtain ⟨e00, e01, e10, e11, e20, e21, e30, e31, e40, e41⟩ := idx7 t
  funext y
  show V c (Pipeline.arrRef spec7 3) (((cfg7.win 3).blk t).view.emb y) = V c (Pipeline.arrRef spec7 3) y
  congr 1
  funext a; apply Fin.ext
  match a with
  | ⟨0, _⟩ => show win7_3.index t (0 : Fin 2) * 1 + 1 * (y 0).val = (y 0).val; rw [e30]; omega
  | ⟨1, _⟩ => show win7_3.index t (1 : Fin 2) * 64 + 1 * (y 1).val = (y 1).val; rw [e31]; omega

set_option maxHeartbeats 1000000 in
/-- What the one point writes back is `G7_4` of the input arrays as the region finds them, read through the block. -/
theorem flushed7_4_eq (c : Dev nD) (t : Fin cfg7.N) :
    (dat7 (F := Ideal) V c).flushed 4 t = ((cfg7.win 4).blk t).view.read (Elt Ideal)
      (G7_4 (V c (Pipeline.arrRef spec7 0)) (V c (Pipeline.arrRef spec7 1)) (V c (Pipeline.arrRef spec7 2))
        (V c (Pipeline.arrRef spec7 3))) := by
  show (cfg7.win 4).cut (grid7.coords t) ((dat7 (F := Ideal) V c).after 4 t) = _
  rw [after7_4]
  unfold out7_4
  rw [View.canon_unit_zero pw_hz]
  simp only [View.ld_unit_zero (S := S10000x64) pw_hz, View.ld_unit_zero (S := S1x64) pw_hz]
  rw [blk7_0, blk7_1, blk7_2, blk7_3]
  obtain ⟨e00, e01, e10, e11, e20, e21, e30, e31, e40, e41⟩ := idx7 t
  funext j
  obtain ⟨p, q, rfl⟩ : ∃ (p : Fin 10000) (q : Fin 64), j = ix2 p q := ⟨j 0, j 1, eq_ix2 j⟩
  show k7_pay1 (V c (Pipeline.arrRef spec7 0)) (V c (Pipeline.arrRef spec7 1)) (V c (Pipeline.arrRef spec7 2))
      (V c (Pipeline.arrRef spec7 3)) (ix2 p q)
    = G7_4 (V c (Pipeline.arrRef spec7 0)) (V c (Pipeline.arrRef spec7 1)) (V c (Pipeline.arrRef spec7 2))
        (V c (Pipeline.arrRef spec7 3)) (((cfg7.win 4).blk t).view.emb (ix2 p q))
  have hemb : ((cfg7.win 4).blk t).view.emb (ix2 p q) = (ix2 p q : S10000x64.Idx) := by
    funext a; apply Fin.ext
    match a with
    | ⟨0, _⟩ => show win7_4.index t (0 : Fin 2) * 10000 + 1 * p.val = p.val; rw [e40]; omega
    | ⟨1, _⟩ => show win7_4.index t (1 : Fin 2) * 64 + 1 * q.val = q.val; rw [e41]; omega
  rw [hemb]
  exact pay7_apply _ _ _ _ p q

/-- An index of the output array is in the one block iff each coordinate is in the block's range on its axis. -/
theorem mem_blk7_4 (t : Fin cfg7.N) (i : S10000x64.Idx) :
    i ∈ ((cfg7.win 4).blk t).view.set ↔ ∀ a : Fin 2, win7_4.index t a * S10000x64.size a ≤ (i a).val
      ∧ (i a).val < win7_4.index t a * S10000x64.size a + S10000x64.size a := by
  show i ∈ ((View.whole main_v153).slice (win7_4.rect t)).set ↔ _
  rw [View.set_slice_whole, Rect.mem_set_unit]
  exact Iff.rfl

/-- The one block is the whole output array. -/
theorem cover7_4_arr (i : S10000x64.Idx) : ∃ t : Fin cfg7.N, (cfg7.win 4).flush t = true ∧ i ∈ ((cfg7.win 4).blk t).view.set := by
  have hi0 : (i 0).val < 10000 := (i 0).isLt
  have hi1 : (i 1).val < 64 := (i 1).isLt
  obtain ⟨e00, e01, e10, e11, e20, e21, e30, e31, e40, e41⟩ := idx7 t7_0
  refine ⟨t7_0, flush7_4 _, ?_⟩
  rw [mem_blk7_4]
  intro a
  match a with
  | ⟨0, _⟩ =>
    show win7_4.index t7_0 (0 : Fin 2) * 10000 ≤ (i 0).val ∧ (i 0).val < win7_4.index t7_0 (0 : Fin 2) * 10000 + 10000
    rw [e40]; omega
  | ⟨1, _⟩ =>
    show win7_4.index t7_0 (1 : Fin 2) * 64 ≤ (i 1).val ∧ (i 1).val < win7_4.index t7_0 (1 : Fin 2) * 64 + 64
    rw [e41]; omega

/-- The output array after the region is `G7_4` of the input arrays as the region finds them. -/
theorem final7_4 (c : Dev nD) :
    (dat7 (F := Ideal) V c).arrAt 4 cfg7.N = G7_4 (V c (Pipeline.arrRef spec7 0)) (V c (Pipeline.arrRef spec7 1))
      (V c (Pipeline.arrRef spec7 2)) (V c (Pipeline.arrRef spec7 3)) :=
  (dat7 (F := Ideal) V c).arrAt_eq_of_cover 4 _ (fun t _ => flushed7_4_eq V c t) cover7_4_arr
-- ==== Proof.KI.RegEqs.lean ====
/-
  Each region's output array, at the last boundary's contents, as its closed form of the region's input arrays at the
  last boundary's contents: what the region's write-backs leave, the input arrays being what they were when the region
  was entered (nothing writes them afterwards).
-/
import proofs.«180658_j65867618451767_1_alg».proof.Proof.KI.HostEqs
import proofs.«180658_j65867618451767_1_alg».proof.Proof.KI.Val0
import proofs.«180658_j65867618451767_1_alg».proof.Proof.KI.Val1
import proofs.«180658_j65867618451767_1_alg».proof.Proof.KI.Val3
import proofs.«180658_j65867618451767_1_alg».proof.Proof.KI.Val5
import proofs.«180658_j65867618451767_1_alg».proof.Proof.KI.Val6
import proofs.«180658_j65867618451767_1_alg».proof.Proof.KI.Val7

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.StableHlo

variable (m : (ℓ : Loc nD τ sig) → Buf (Elt Ideal) ℓ) (ρ : Dev nD → PrngReg)

theorem reg0_6 (c : Dev nD) :
    Wf m ρ c main_v45_0 = G0_6 (Wf m ρ c main_arg0) (Wf m ρ c main_v6) (Wf m ρ c main_v14) := by
  have h := (last_arr0 (F := Ideal) m ρ c 6 (by decide)).trans (final0_6 (En1 m ρ) c)
  rw [entry0 m ρ c (Pipeline.arrRef spec0 0) (by decide),
    entry0 m ρ c (Pipeline.arrRef spec0 2) (by decide),
    entry0 m ρ c (Pipeline.arrRef spec0 3) (by decide)] at h
  exact h

theorem reg0_7 (c : Dev nD) :
    Wf m ρ c main_v45_1 = G0_7 (Wf m ρ c main_arg1) (Wf m ρ c main_v16) (Wf m ρ c main_v19) := by
  have h := (last_arr0 (F := Ideal) m ρ c 7 (by decide)).trans (final0_7 (En1 m ρ) c)
  rw [entry0 m ρ c (Pipeline.arrRef spec0 1) (by decide),
    entry0 m ρ c (Pipeline.arrRef spec0 4) (by decide),
    entry0 m ρ c (Pipeline.arrRef spec0 5) (by decide)] at h
  exact h

theorem reg1_3 (c : Dev nD) :
    Wf m ρ c main_v49 = G1_3 (Wf m ρ c main_arg2) (Wf m ρ c main_v26) (Wf m ρ c main_v34) := by
  have h := (last_arr1 (F := Ideal) m ρ c 3 (by decide)).trans (final1_3 (En3 m ρ) c)
  rw [entry1 m ρ c (Pipeline.arrRef spec1 0) (by decide),
    entry1 m ρ c (Pipeline.arrRef spec1 1) (by decide),
    entry1 m ρ c (Pipeline.arrRef spec1 2) (by decide)] at h
  exact h

theorem reg3_5 (c : Dev nD) :
    Wf m ρ c main_v83_0 = G3_5 (Wf m ρ c main_v74_0) (Wf m ρ c main_v76) (Wf m ρ c main_v80) (Wf m ρ c main_v81) (Wf m ρ c main_v82) := by
  have h := (last_arr3 (F := Ideal) m ρ c 5 (by decide)).trans (final3_5 (En7 m ρ) c)
  rw [entry3 m ρ c (Pipeline.arrRef spec3 0) (by decide),
    entry3 m ρ c (Pipeline.arrRef spec3 1) (by decide),
    entry3 m ρ c (Pipeline.arrRef spec3 2) (by decide),
    entry3 m ρ c (Pipeline.arrRef spec3 3) (by decide),
    entry3 m ρ c (Pipeline.arrRef spec3 4) (by decide)] at h
  exact h

theorem reg3_6 (c : Dev nD) :
    Wf m ρ c main_v83_1 = G3_6 (Wf m ρ c main_v74_0) (Wf m ρ c main_v76) (Wf m ρ c main_v80) (Wf m ρ c main_v81) (Wf m ρ c main_v82) := by
  have h := (last_arr3 (F := Ideal) m ρ c 6 (by decide)).trans (final3_6 (En7 m ρ) c)
  rw [entry3 m ρ c (Pipeline.arrRef spec3 0) (by decide),
    entry3 m ρ c (Pipeline.arrRef spec3 1) (by decide),
    entry3 m ρ c (Pipeline.arrRef spec3 2) (by decide),
    entry3 m ρ c (Pipeline.arrRef spec3 3) (by decide),
    entry3 m ρ c (Pipeline.arrRef spec3 4) (by decide)] at h
  exact h

theorem reg5_5 (c : Dev nD) :
    Wf m ρ c main_v126 = G5_5 (Wf m ρ c main_v117_0) (Wf m ρ c main_v119) (Wf m ρ c main_v123) (Wf m ρ c main_v124) (Wf m ρ c main_v125) := by
  have h := (last_arr5 (F := Ideal) m ρ c 5 (by decide)).trans (final5_5 (En11 m ρ) c)
  rw [entry5 m ρ c (Pipeline.arrRef spec5 0) (by decide),
    entry5 m ρ c (Pipeline.arrRef spec5 1) (by decide),
    entry5 m ρ c (Pipeline.arrRef spec5 2) (by decide),
    entry5 m ρ c (Pipeline.arrRef spec5 3) (by decide),
    entry5 m ρ c (Pipeline.arrRef spec5 4) (by decide)] at h
  exact h

theorem reg6_6 (c : Dev nD) :
    Wf m ρ c main_v127_0 = G6_6 (Wf m ρ c main_v126) (Wf m ρ c main_v36) (Wf m ρ c main_v39) := by
  have h := (last_arr6 (F := Ideal) m ρ c 6 (by decide)).trans (final6_6 (En12 m ρ) c)
  rw [entry6 m ρ c (Pipeline.arrRef spec6 0) (by decide),
    entry6 m ρ c (Pipeline.arrRef spec6 2) (by decide),
    entry6 m ρ c (Pipeline.arrRef spec6 3) (by decide)] at h
  exact h

theorem reg6_7 (c : Dev nD) :
    Wf m ρ c main_v127_1 = G6_7 (Wf m ρ c main_v83_0) (Wf m ρ c main_v41) (Wf m ρ c main_v44) := by
  have h := (last_arr6 (F := Ideal) m ρ c 7 (by decide)).trans (final6_7 (En12 m ρ) c)
  rw [entry6 m ρ c (Pipeline.arrRef spec6 1) (by decide),
    entry6 m ρ c (Pipeline.arrRef spec6 4) (by decide),
    entry6 m ρ c (Pipeline.arrRef spec6 5) (by decide)] at h
  exact h

theorem reg7_4 (c : Dev nD) :
    Wf m ρ c main_v153 = G7_4 (Wf m ρ c main_v150) (Wf m ρ c main_v52) (Wf m ρ c main_v151) (Wf m ρ c main_v152) := by
  have h := (last_arr7 (F := Ideal) m ρ c 4).trans (final7_4 (En14 m ρ) c)
  rw [entry7 m ρ c (Pipeline.arrRef spec7 0) (by decide),
    entry7 m ρ c (Pipeline.arrRef spec7 1) (by decide),
    entry7 m ρ c (Pipeline.arrRef spec7 2) (by decide),
    entry7 m ρ c (Pipeline.arrRef spec7 3) (by decide)] at h
  exact h

end Cert.KernelIdeal.HandV

end
-- ==== Proof.KI.Dense.lean ====
/-
  The kernel program's nine dense layers, entry by entry, at the last boundary's contents: each is
  (the row of its input) · (slice i of the weight stack) + (row i of the bias table).
  The fused layers take three slices of the stack side by side as one 64×192 matrix and three bias rows end to end as one
  row of 192, and the three results are the three column bands of the fused product.
-/
import proofs.«180658_j65867618451767_1_alg».proof.Proof.KI.HostEqs
import proofs.«180658_j65867618451767_1_alg».proof.Proof.KI.RegEqs
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.StableHlo
open Idealize.ShloMosaic.ValueIdx

/-! ## Slices of the weight stack and of the bias table, read at an index -/

/-- Slice `i` of the [9,64,64] weight stack, with its unit axis dropped, at (k, q) is the stack at (i, k, q). -/
theorem wslice_at (X : S9x64x64.Idx → EReal) (i : Fin 9) (o : Nat) (ho : o = i.val) (hsl : S9x64x64.Slices ![o, 0, 0] S1x64x64)
    (k q : Fin 64) :
    shapeCast S64x64 (extractStridedSlice S1x64x64 ![o, 0, 0] X hsl) shapeCasts_S1x64x64_S64x64 (ix2 k q) = X (ix3 i k q) := by
  refine (shapeCast_dropUnit_apply ![64, 64] _ shapeCasts_S1x64x64_S64x64 (ix2 k q)).trans ?_
  refine extractStridedSlice_apply ![o, 0, 0] X hsl _ (ix3 i k q) fun a => ?_
  match a with
  | ⟨0, _⟩ => show i.val = o + 0; omega
  | ⟨1, _⟩ => show k.val = 0 + k.val; omega
  | ⟨2, _⟩ => show q.val = 0 + q.val; omega

/-- Row `i` of the [9,64] bias table, recast as a vector of 64, at q is the table at (i, q). -/
theorem bslice_at (X : S9x64.Idx → EReal) (i : Fin 9) (o : Nat) (ho : o = i.val) (hsl : S9x64.Slices ![o, 0] S1x64) (q : Fin 64) :
    shapeCast S64 (extractStridedSlice S1x64 ![o, 0] X hsl) shapeCasts_S1x64_S64 (ix1 q) = X (ix2 i q) := by
  refine (shapeCast_dropUnit_apply ![64] _ shapeCasts_S1x64_S64 (ix1 q)).trans ?_
  refine extractStridedSlice_apply ![o, 0] X hsl _ (ix2 i q) fun a => ?_
  match a with
  | ⟨0, _⟩ => show i.val = o + 0; omega
  | ⟨1, _⟩ => show q.val = 0 + q.val; omega

/-- A vector of 64 recast as a [1,64] row reads at (0, q) the vector at q. -/
theorem row_at (x : S64.Idx → EReal) (q : Fin 64) : shapeCast S1x64 x shapeCasts_S64_S1x64 (ix2 (0 : Fin 1) q) = x (ix1 q) := by
  refine (shapeCast_addUnit_apply ![64] x shapeCasts_S64_S1x64 (ix2 (0 : Fin 1) q)).trans ?_
  exact congrArg x (funext fun a => by match a with | ⟨0, _⟩ => rfl)

/-- An array of extended reals, its type stated (the buffers' own types reduce to this). -/
abbrev asArr {S : Shape} (x : S.Idx → EReal) : S.Idx → EReal := x

/-! ## Three 64-column pieces side by side, and three 64-vectors end to end, read at a band -/

/-- Three 64×64 pieces joined along the columns: at column `64·p + q` the entry is piece `p`'s at column `q`. -/
theorem cat3_cols_at (x0 x1 x2 : S64x64.Idx → EReal) (h : Shape.Concatenates (([⟨S64x64, x0⟩, ⟨S64x64, x1⟩, ⟨S64x64, x2⟩] : List ((s : Shape) × (s.Idx → EReal))).map (·.1)) S64x192 1)
    (p : Fin 3) (k q : Fin 64) (q' : Fin 192) (hq : q'.val = 64 * p.val + q.val) :
    concatenate S64x192 1 [⟨S64x64, x0⟩, ⟨S64x64, x1⟩, ⟨S64x64, x2⟩] h (ix2 k q') = (![x0, x1, x2] p) (ix2 k q) := by
  have hi : ∀ b : Fin S64x64.rank, b.cast (rfl : S64x64.rank = S64x192.rank) ≠ (1 : Fin S64x192.rank) → ((ix2 k q) b).val = ((ix2 k q') (b.cast rfl)).val := by
    intro b hb
    match b with
    | ⟨0, _⟩ => rfl
    | ⟨1, _⟩ => exact absurd rfl hb
  match p with
  | ⟨0, _⟩ =>
    have hq0 : q'.val = 64 * 0 + q.val := hq
    exact concatenate_apply_piece 1 _ h (ix2 k q') 0 (by simp) S64x64 x0 rfl rfl 0 rfl (ix2 k q) hi (by show 0 + q.val = q'.val; omega)
  | ⟨1, _⟩ =>
    have hq0 : q'.val = 64 * 1 + q.val := hq
    exact concatenate_apply_piece 1 _ h (ix2 k q') 1 (by simp) S64x64 x1 rfl rfl 64 rfl (ix2 k q) hi (by show 64 + q.val = q'.val; omega)
  | ⟨2, _⟩ =>
    have hq0 : q'.val = 64 * 2 + q.val := hq
    exact concatenate_apply_piece 1 _ h (ix2 k q') 2 (by simp) S64x64 x2 rfl rfl 128 rfl (ix2 k q) hi (by show 128 + q.val = q'.val; omega)

/-- Three vectors of 64 joined end to end: at place `64·p + q` the entry is piece `p`'s at `q`. -/
theorem cat3_vec_at (x0 x1 x2 : S64.Idx → EReal) (h : Shape.Concatenates (([⟨S64, x0⟩, ⟨S64, x1⟩, ⟨S64, x2⟩] : List ((s : Shape) × (s.Idx → EReal))).map (·.1)) S192 0)
    (p : Fin 3) (q : Fin 64) (q' : Fin 192) (hq : q'.val = 64 * p.val + q.val) :
    concatenate S192 0 [⟨S64, x0⟩, ⟨S64, x1⟩, ⟨S64, x2⟩] h (ix1 q') = (![x0, x1, x2] p) (ix1 q) := by
  have hi : ∀ b : Fin S64.rank, b.cast (rfl : S64.rank = S192.rank) ≠ (0 : Fin S192.rank) → ((ix1 q) b).val = ((ix1 q') (b.cast rfl)).val := by
    intro b hb
    match b with
    | ⟨0, _⟩ => exact absurd rfl hb
  match p with
  | ⟨0, _⟩ =>
    have hq0 : q'.val = 64 * 0 + q.val := hq
    exact concatenate_apply_piece 0 _ h (ix1 q') 0 (by simp) S64 x0 rfl rfl 0 rfl (ix1 q) hi (by show 0 + q.val = q'.val; omega)
  | ⟨1, _⟩ =>
    have hq0 : q'.val = 64 * 1 + q.val := hq
    exact concatenate_apply_piece 0 _ h (ix1 q') 1 (by simp) S64 x1 rfl rfl 64 rfl (ix1 q) hi (by show 64 + q.val = q'.val; omega)
  | ⟨2, _⟩ =>
    have hq0 : q'.val = 64 * 2 + q.val := hq
    exact concatenate_apply_piece 0 _ h (ix1 q') 2 (by simp) S64 x2 rfl rfl 128 rfl (ix1 q) hi (by show 128 + q.val = q'.val; omega)

theorem cat3_cols_0 (x0 x1 x2 : S64x64.Idx → EReal) (h : Shape.Concatenates (([⟨S64x64, x0⟩, ⟨S64x64, x1⟩, ⟨S64x64, x2⟩] : List ((s : Shape) × (s.Idx → EReal))).map (·.1)) S64x192 1)
    (k q : Fin 64) (q' : Fin 192) (hq : q'.val = 0 + q.val) :
    concatenate S64x192 1 [⟨S64x64, x0⟩, ⟨S64x64, x1⟩, ⟨S64x64, x2⟩] h (ix2 k q') = x0 (ix2 k q) :=
  cat3_cols_at x0 x1 x2 h 0 k q q' (by show q'.val = 64 * 0 + q.val; omega)
theorem cat3_vec_0 (x0 x1 x2 : S64.Idx → EReal) (h : Shape.Concatenates (([⟨S64, x0⟩, ⟨S64, x1⟩, ⟨S64, x2⟩] : List ((s : Shape) × (s.Idx → EReal))).map (·.1)) S192 0)
    (q : Fin 64) (q' : Fin 192) (hq : q'.val = 0 + q.val) :
    concatenate S192 0 [⟨S64, x0⟩, ⟨S64, x1⟩, ⟨S64, x2⟩] h (ix1 q') = x0 (ix1 q) :=
  cat3_vec_at x0 x1 x2 h 0 q q' (by show q'.val = 64 * 0 + q.val; omega)
theorem cat3_cols_1 (x0 x1 x2 : S64x64.Idx → EReal) (h : Shape.Concatenates (([⟨S64x64, x0⟩, ⟨S64x64, x1⟩, ⟨S64x64, x2⟩] : List ((s : Shape) × (s.Idx → EReal))).map (·.1)) S64x192 1)
    (k q : Fin 64) (q' : Fin 192) (hq : q'.val = 64 + q.val) :
    concatenate S64x192 1 [⟨S64x64, x0⟩, ⟨S64x64, x1⟩, ⟨S64x64, x2⟩] h (ix2 k q') = x1 (ix2 k q) :=
  cat3_cols_at x0 x1 x2 h 1 k q q' (by show q'.val = 64 * 1 + q.val; omega)
theorem cat3_vec_1 (x0 x1 x2 : S64.Idx → EReal) (h : Shape.Concatenates (([⟨S64, x0⟩, ⟨S64, x1⟩, ⟨S64, x2⟩] : List ((s : Shape) × (s.Idx → EReal))).map (·.1)) S192 0)
    (q : Fin 64) (q' : Fin 192) (hq : q'.val = 64 + q.val) :
    concatenate S192 0 [⟨S64, x0⟩, ⟨S64, x1⟩, ⟨S64, x2⟩] h (ix1 q') = x1 (ix1 q) :=
  cat3_vec_at x0 x1 x2 h 1 q q' (by show q'.val = 64 * 1 + q.val; omega)
theorem cat3_cols_2 (x0 x1 x2 : S64x64.Idx → EReal) (h : Shape.Concatenates (([⟨S64x64, x0⟩, ⟨S64x64, x1⟩, ⟨S64x64, x2⟩] : List ((s : Shape) × (s.Idx → EReal))).map (·.1)) S64x192 1)
    (k q : Fin 64) (q' : Fin 192) (hq : q'.val = 128 + q.val) :
    concatenate S64x192 1 [⟨S64x64, x0⟩, ⟨S64x64, x1⟩, ⟨S64x64, x2⟩] h (ix2 k q') = x2 (ix2 k q) :=
  cat3_cols_at x0 x1 x2 h 2 k q q' (by show q'.val = 64 * 2 + q.val; omega)
theorem cat3_vec_2 (x0 x1 x2 : S64.Idx → EReal) (h : Shape.Concatenates (([⟨S64, x0⟩, ⟨S64, x1⟩, ⟨S64, x2⟩] : List ((s : Shape) × (s.Idx → EReal))).map (·.1)) S192 0)
    (q : Fin 64) (q' : Fin 192) (hq : q'.val = 128 + q.val) :
    concatenate S192 0 [⟨S64, x0⟩, ⟨S64, x1⟩, ⟨S64, x2⟩] h (ix1 q') = x2 (ix1 q) :=
  cat3_vec_at x0 x1 x2 h 2 q q' (by show q'.val = 64 * 2 + q.val; omega)

/-- A vector of 192 recast as a [1,192] row reads at (0, q') the vector at q'. -/
theorem row192_at (x : S192.Idx → EReal) (q' : Fin 192) : shapeCast S1x192 x shapeCasts_S192_S1x192 (ix2 (0 : Fin 1) q') = x (ix1 q') := by
  refine (shapeCast_addUnit_apply ![192] x shapeCasts_S192_S1x192 (ix2 (0 : Fin 1) q')).trans ?_
  exact congrArg x (funext fun a => by match a with | ⟨0, _⟩ => rfl)

/-- The column band `[o, o + 64)` of a [n,192] array, at (r, q), is the array at (r, o + q). -/
theorem band_at {n : Nat} (X : (⟨2, ![n, 192]⟩ : Shape).Idx → EReal) (o : Nat) (hsl : (⟨2, ![n, 192]⟩ : Shape).Slices ![0, o] ⟨2, ![n, 64]⟩)
    (r : Fin n) (q : Fin 64) (q' : Fin 192) (hq : q'.val = o + q.val) :
    extractStridedSlice ⟨2, ![n, 64]⟩ ![0, o] X hsl (ix2 r q) = X (ix2 r q') := by
  refine extractStridedSlice_apply ![0, o] X hsl (ix2 r q) (ix2 r q') fun a => ?_
  match a with
  | ⟨0, _⟩ => show r.val = 0 + r.val; omega
  | ⟨1, _⟩ => show q'.val = o + q.val; omega

-- the last boundary's contents are only ever rewritten by equations here, never unfolded
attribute [local irreducible] W15

variable (m : (ℓ : Loc nD τ sig) → Buf (Elt Ideal) ℓ) (ρ : Dev nD → PrngReg)

/-! ## The bond layer (slice 1): the second output of the first region -/

theorem wf_v16 (c : Dev nD) (k q : Fin 64) :
    asArr (S := S64x64) (Wf m ρ c main_v16) (ix2 k q) = asArr (S := S9x64x64) (Wf m ρ c main_arg5) (ix3 (1 : Fin 9) k q) := by
  rw [k_h0_16 m ρ c, k_h0_15 m ρ c]
  exact wslice_at _ 1 1 rfl _ k q

theorem wf_v19 (c : Dev nD) (q : Fin 64) :
    asArr (S := S1x64) (Wf m ρ c main_v19) (ix2 (0 : Fin 1) q) = asArr (S := S9x64) (Wf m ρ c main_arg6) (ix2 (1 : Fin 9) q) := by
  rw [k_h0_19 m ρ c, k_h0_18 m ρ c, k_h0_17 m ρ c]
  exact (row_at _ q).trans (bslice_at _ 1 1 rfl _ q)

/-- The bond layer: Be(r, q) = Σₖ e(r, k) · Ws(1, k, q) + bs(1, q). -/
theorem ker_lin1 (c : Dev nD) (r : Fin 250000) (q : Fin 64) :
    asArr (S := S250000x64) (Wf m ρ c main_v45_1) (ix2 r q)
      = (∑ k : Fin 64, asArr (S := S250000x64) (Wf m ρ c main_arg1) (ix2 r k) * asArr (S := S9x64x64) (Wf m ρ c main_arg5) (ix3 (1 : Fin 9) k q))
        + asArr (S := S9x64) (Wf m ρ c main_arg6) (ix2 (1 : Fin 9) q) := by
  refine (congrFun (reg0_7 m ρ c) (ix2 r q)).trans ?_
  unfold G0_7
  refine congrArg₂ (· + ·) (Finset.sum_congr rfl fun k _ => congrArg₂ (· * ·) rfl ?_) ?_
  · exact wf_v16 m ρ c k q
  · exact wf_v19 m ρ c q

/-! ## The fused weights and biases of the atom-side and graph-side layers, band by band -/

theorem wcat_h_0 (c : Dev nD) (k q : Fin 64) (q' : Fin 192) (hq : q'.val = 0 + q.val) :
    asArr (S := S64x192) (Wf m ρ c main_v6) (ix2 k q') = asArr (S := S9x64x64) (Wf m ρ c main_arg5) (ix3 (0 : Fin 9) k q) := by
  rw [k_h0_6 m ρ c]
  refine (cat3_cols_0 _ _ _ _ k q q' hq).trans ?_
  show asArr (S := S64x64) (Wf m ρ c main_v1) (ix2 k q) = _
  rw [k_h0_1 m ρ c, k_h0_0 m ρ c]
  exact wslice_at _ 0 0 rfl _ k q

theorem bcat_h_0 (c : Dev nD) (q : Fin 64) (q' : Fin 192) (hq : q'.val = 0 + q.val) :
    asArr (S := S1x192) (Wf m ρ c main_v14) (ix2 (0 : Fin 1) q') = asArr (S := S9x64) (Wf m ρ c main_arg6) (ix2 (0 : Fin 9) q) := by
  rw [k_h0_14 m ρ c]
  refine (row192_at _ q').trans ?_
  rw [k_h0_13 m ρ c]
  refine (cat3_vec_0 _ _ _ _ q q' hq).trans ?_
  show asArr (S := S64) (Wf m ρ c main_v8) (ix1 q) = _
  rw [k_h0_8 m ρ c, k_h0_7 m ρ c]
  exact bslice_at _ 0 0 rfl _ q

theorem wcat_h_1 (c : Dev nD) (k q : Fin 64) (q' : Fin 192) (hq : q'.val = 64 + q.val) :
    asArr (S := S64x192) (Wf m ρ c main_v6) (ix2 k q') = asArr (S := S9x64x64) (Wf m ρ c main_arg5) (ix3 (3 : Fin 9) k q) := by
  rw [k_h0_6 m ρ c]
  refine (cat3_cols_1 _ _ _ _ k q q' hq).trans ?_
  show asArr (S := S64x64) (Wf m ρ c main_v3) (ix2 k q) = _
  rw [k_h0_3 m ρ c, k_h0_2 m ρ c]
  exact wslice_at _ 3 3 rfl _ k q

theorem bcat_h_1 (c : Dev nD) (q : Fin 64) (q' : Fin 192) (hq : q'.val = 64 + q.val) :
    asArr (S := S1x192) (Wf m ρ c main_v14) (ix2 (0 : Fin 1) q') = asArr (S := S9x64) (Wf m ρ c main_arg6) (ix2 (3 : Fin 9) q) := by
  rw [k_h0_14 m ρ c]
  refine (row192_at _ q').trans ?_
  rw [k_h0_13 m ρ c]
  refine (cat3_vec_1 _ _ _ _ q q' hq).trans ?_
  show asArr (S := S64) (Wf m ρ c main_v10) (ix1 q) = _
  rw [k_h0_10 m ρ c, k_h0_9 m ρ c]
  exact bslice_at _ 3 3 rfl _ q

theorem wcat_h_2 (c : Dev nD) (k q : Fin 64) (q' : Fin 192) (hq : q'.val = 128 + q.val) :
    asArr (S := S64x192) (Wf m ρ c main_v6) (ix2 k q') = asArr (S := S9x64x64) (Wf m ρ c main_arg5) (ix3 (4 : Fin 9) k q) := by
  rw [k_h0_6 m ρ c]
  refine (cat3_cols_2 _ _ _ _ k q q' hq).trans ?_
  show asArr (S := S64x64) (Wf m ρ c main_v5) (ix2 k q) = _
  rw [k_h0_5 m ρ c, k_h0_4 m ρ c]
  exact wslice_at _ 4 4 rfl _ k q

theorem bcat_h_2 (c : Dev nD) (q : Fin 64) (q' : Fin 192) (hq : q'.val = 128 + q.val) :
    asArr (S := S1x192) (Wf m ρ c main_v14) (ix2 (0 : Fin 1) q') = asArr (S := S9x64) (Wf m ρ c main_arg6) (ix2 (4 : Fin 9) q) := by
  rw [k_h0_14 m ρ c]
  refine (row192_at _ q').trans ?_
  rw [k_h0_13 m ρ c]
  refine (cat3_vec_2 _ _ _ _ q q' hq).trans ?_
  show asArr (S := S64) (Wf m ρ c main_v12) (ix1 q) = _
  rw [k_h0_12 m ρ c, k_h0_11 m ρ c]
  exact bslice_at _ 4 4 rfl _ q

theorem wcat_u_0 (c : Dev nD) (k q : Fin 64) (q' : Fin 192) (hq : q'.val = 0 + q.val) :
    asArr (S := S64x192) (Wf m ρ c main_v26) (ix2 k q') = asArr (S := S9x64x64) (Wf m ρ c main_arg5) (ix3 (2 : Fin 9) k q) := by
  rw [k_h0_26 m ρ c]
  refine (cat3_cols_0 _ _ _ _ k q q' hq).trans ?_
  show asArr (S := S64x64) (Wf m ρ c main_v21) (ix2 k q) = _
  rw [k_h0_21 m ρ c, k_h0_20 m ρ c]
  exact wslice_at _ 2 2 rfl _ k q

theorem bcat_u_0 (c : Dev nD) (q : Fin 64) (q' : Fin 192) (hq : q'.val = 0 + q.val) :
    asArr (S := S1x192) (Wf m ρ c main_v34) (ix2 (0 : Fin 1) q') = asArr (S := S9x64) (Wf m ρ c main_arg6) (ix2 (2 : Fin 9) q) := by
  rw [k_h0_34 m ρ c]
  refine (row192_at _ q').trans ?_
  rw [k_h0_33 m ρ c]
  refine (cat3_vec_0 _ _ _ _ q q' hq).trans ?_
  show asArr (S := S64) (Wf m ρ c main_v28) (ix1 q) = _
  rw [k_h0_28 m ρ c, k_h0_27 m ρ c]
  exact bslice_at _ 2 2 rfl _ q

theorem wcat_u_1 (c : Dev nD) (k q : Fin 64) (q' : Fin 192) (hq : q'.val = 64 + q.val) :
    asArr (S := S64x192) (Wf m ρ c main_v26) (ix2 k q') = asArr (S := S9x64x64) (Wf m ρ c main_arg5) (ix3 (5 : Fin 9) k q) := by
  rw [k_h0_26 m ρ c]
  refine (cat3_cols_1 _ _ _ _ k q q' hq).trans ?_
  show asArr (S := S64x64) (Wf m ρ c main_v23) (ix2 k q) = _
  rw [k_h0_23 m ρ c, k_h0_22 m ρ c]
  exact wslice_at _ 5 5 rfl _ k q

theorem bcat_u_1 (c : Dev nD) (q : Fin 64) (q' : Fin 192) (hq : q'.val = 64 + q.val) :
    asArr (S := S1x192) (Wf m ρ c main_v34) (ix2 (0 : Fin 1) q') = asArr (S := S9x64) (Wf m ρ c main_arg6) (ix2 (5 : Fin 9) q) := by
  rw [k_h0_34 m ρ c]
  refine (row192_at _ q').trans ?_
  rw [k_h0_33 m ρ c]
  refine (cat3_vec_1 _ _ _ _ q q' hq).trans ?_
  show asArr (S := S64) (Wf m ρ c main_v30) (ix1 q) = _
  rw [k_h0_30 m ρ c, k_h0_29 m ρ c]
  exact bslice_at _ 5 5 rfl _ q

theorem wcat_u_2 (c : Dev nD) (k q : Fin 64) (q' : Fin 192) (hq : q'.val = 128 + q.val) :
    asArr (S := S64x192) (Wf m ρ c main_v26) (ix2 k q') = asArr (S := S9x64x64) (Wf m ρ c main_arg5) (ix3 (8 : Fin 9) k q) := by
  rw [k_h0_26 m ρ c]
  refine (cat3_cols_2 _ _ _ _ k q q' hq).trans ?_
  show asArr (S := S64x64) (Wf m ρ c main_v25) (ix2 k q) = _
  rw [k_h0_25 m ρ c, k_h0_24 m ρ c]
  exact wslice_at _ 8 8 rfl _ k q

theorem bcat_u_2 (c : Dev nD) (q : Fin 64) (q' : Fin 192) (hq : q'.val = 128 + q.val) :
    asArr (S := S1x192) (Wf m ρ c main_v34) (ix2 (0 : Fin 1) q') = asArr (S := S9x64) (Wf m ρ c main_arg6) (ix2 (8 : Fin 9) q) := by
  rw [k_h0_34 m ρ c]
  refine (row192_at _ q').trans ?_
  rw [k_h0_33 m ρ c]
  refine (cat3_vec_2 _ _ _ _ q q' hq).trans ?_
  show asArr (S := S64) (Wf m ρ c main_v32) (ix1 q) = _
  rw [k_h0_32 m ρ c, k_h0_31 m ρ c]
  exact bslice_at _ 8 8 rfl _ q

/-! ## The six band layers -/

/-- Layer 0: the band at columns 0…63 of the atom-side fused product. -/
theorem ker_lin0 (c : Dev nD) (r : Fin 250000) (q : Fin 64) :
    asArr (S := S250000x64) (Wf m ρ c main_v46) (ix2 r q)
      = (∑ k : Fin 64, asArr (S := S250000x64) (Wf m ρ c main_arg0) (ix2 r k) * asArr (S := S9x64x64) (Wf m ρ c main_arg5) (ix3 (0 : Fin 9) k q))
        + asArr (S := S9x64) (Wf m ρ c main_arg6) (ix2 (0 : Fin 9) q) := by
  rw [k_h1_0 m ρ c]
  refine (band_at (n := 250000) _ 0 _ r q ⟨0 + q.val, by omega⟩ rfl).trans ?_
  refine (congrFun (reg0_6 m ρ c) (ix2 r ⟨0 + q.val, by omega⟩)).trans ?_
  unfold G0_6
  exact congrArg₂ (· + ·) (Finset.sum_congr rfl fun k _ => congrArg₂ (· * ·) rfl (wcat_h_0 m ρ c k q ⟨0 + q.val, by omega⟩ rfl)) (bcat_h_0 m ρ c q ⟨0 + q.val, by omega⟩ rfl)

/-- Layer 3: the band at columns 64…127 of the atom-side fused product. -/
theorem ker_lin3 (c : Dev nD) (r : Fin 250000) (q : Fin 64) :
    asArr (S := S250000x64) (Wf m ρ c main_v47) (ix2 r q)
      = (∑ k : Fin 64, asArr (S := S250000x64) (Wf m ρ c main_arg0) (ix2 r k) * asArr (S := S9x64x64) (Wf m ρ c main_arg5) (ix3 (3 : Fin 9) k q))
        + asArr (S := S9x64) (Wf m ρ c main_arg6) (ix2 (3 : Fin 9) q) := by
  rw [k_h1_1 m ρ c]
  refine (band_at (n := 250000) _ 64 _ r q ⟨64 + q.val, by omega⟩ rfl).trans ?_
  refine (congrFun (reg0_6 m ρ c) (ix2 r ⟨64 + q.val, by omega⟩)).trans ?_
  unfold G0_6
  exact congrArg₂ (· + ·) (Finset.sum_congr rfl fun k _ => congrArg₂ (· * ·) rfl (wcat_h_1 m ρ c k q ⟨64 + q.val, by omega⟩ rfl)) (bcat_h_1 m ρ c q ⟨64 + q.val, by omega⟩ rfl)

/-- Layer 4: the band at columns 128…191 of the atom-side fused product. -/
theorem ker_lin4 (c : Dev nD) (r : Fin 250000) (q : Fin 64) :
    asArr (S := S250000x64) (Wf m ρ c main_v48) (ix2 r q)
      = (∑ k : Fin 64, asArr (S := S250000x64) (Wf m ρ c main_arg0) (ix2 r k) * asArr (S := S9x64x64) (Wf m ρ c main_arg5) (ix3 (4 : Fin 9) k q))
        + asArr (S := S9x64) (Wf m ρ c main_arg6) (ix2 (4 : Fin 9) q) := by
  rw [k_h1_2 m ρ c]
  refine (band_at (n := 250000) _ 128 _ r q ⟨128 + q.val, by omega⟩ rfl).trans ?_
  refine (congrFun (reg0_6 m ρ c) (ix2 r ⟨128 + q.val, by omega⟩)).trans ?_
  unfold G0_6
  exact congrArg₂ (· + ·) (Finset.sum_congr rfl fun k _ => congrArg₂ (· * ·) rfl (wcat_h_2 m ρ c k q ⟨128 + q.val, by omega⟩ rfl)) (bcat_h_2 m ρ c q ⟨128 + q.val, by omega⟩ rfl)

/-- Layer 2: the band at columns 0…63 of the graph-side fused product. -/
theorem ker_lin2 (c : Dev nD) (r : Fin 10000) (q : Fin 64) :
    asArr (S := S10000x64) (Wf m ρ c main_v50) (ix2 r q)
      = (∑ k : Fin 64, asArr (S := S10000x64) (Wf m ρ c main_arg2) (ix2 r k) * asArr (S := S9x64x64) (Wf m ρ c main_arg5) (ix3 (2 : Fin 9) k q))
        + asArr (S := S9x64) (Wf m ρ c main_arg6) (ix2 (2 : Fin 9) q) := by
  rw [k_h2_0 m ρ c]
  refine (band_at (n := 10000) _ 0 _ r q ⟨0 + q.val, by omega⟩ rfl).trans ?_
  refine (congrFun (reg1_3 m ρ c) (ix2 r ⟨0 + q.val, by omega⟩)).trans ?_
  unfold G1_3
  exact congrArg₂ (· + ·) (Finset.sum_congr rfl fun k _ => congrArg₂ (· * ·) rfl (wcat_u_0 m ρ c k q ⟨0 + q.val, by omega⟩ rfl)) (bcat_u_0 m ρ c q ⟨0 + q.val, by omega⟩ rfl)

/-- Layer 5: the band at columns 64…127 of the graph-side fused product. -/
theorem ker_lin5 (c : Dev nD) (r : Fin 10000) (q : Fin 64) :
    asArr (S := S10000x64) (Wf m ρ c main_v51) (ix2 r q)
      = (∑ k : Fin 64, asArr (S := S10000x64) (Wf m ρ c main_arg2) (ix2 r k) * asArr (S := S9x64x64) (Wf m ρ c main_arg5) (ix3 (5 : Fin 9) k q))
        + asArr (S := S9x64) (Wf m ρ c main_arg6) (ix2 (5 : Fin 9) q) := by
  rw [k_h2_1 m ρ c]
  refine (band_at (n := 10000) _ 64 _ r q ⟨64 + q.val, by omega⟩ rfl).trans ?_
  refine (congrFun (reg1_3 m ρ c) (ix2 r ⟨64 + q.val, by omega⟩)).trans ?_
  unfold G1_3
  exact congrArg₂ (· + ·) (Finset.sum_congr rfl fun k _ => congrArg₂ (· * ·) rfl (wcat_u_1 m ρ c k q ⟨64 + q.val, by omega⟩ rfl)) (bcat_u_1 m ρ c q ⟨64 + q.val, by omega⟩ rfl)

/-- Layer 8: the band at columns 128…191 of the graph-side fused product. -/
theorem ker_lin8 (c : Dev nD) (r : Fin 10000) (q : Fin 64) :
    asArr (S := S10000x64) (Wf m ρ c main_v52) (ix2 r q)
      = (∑ k : Fin 64, asArr (S := S10000x64) (Wf m ρ c main_arg2) (ix2 r k) * asArr (S := S9x64x64) (Wf m ρ c main_arg5) (ix3 (8 : Fin 9) k q))
        + asArr (S := S9x64) (Wf m ρ c main_arg6) (ix2 (8 : Fin 9) q) := by
  rw [k_h2_2 m ρ c]
  refine (band_at (n := 10000) _ 128 _ r q ⟨128 + q.val, by omega⟩ rfl).trans ?_
  refine (congrFun (reg1_3 m ρ c) (ix2 r ⟨128 + q.val, by omega⟩)).trans ?_
  unfold G1_3
  exact congrArg₂ (· + ·) (Finset.sum_congr rfl fun k _ => congrArg₂ (· * ·) rfl (wcat_u_2 m ρ c k q ⟨128 + q.val, by omega⟩ rfl)) (bcat_u_2 m ρ c q ⟨128 + q.val, by omega⟩ rfl)

/-! ## The two layers on the new features -/

theorem wf_v36 (c : Dev nD) (k q : Fin 64) :
    asArr (S := S64x64) (Wf m ρ c main_v36) (ix2 k q) = asArr (S := S9x64x64) (Wf m ρ c main_arg5) (ix3 (6 : Fin 9) k q) := by
  rw [k_h0_36 m ρ c, k_h0_35 m ρ c]
  exact wslice_at _ 6 6 rfl _ k q
theorem wf_v39 (c : Dev nD) (q : Fin 64) :
    asArr (S := S1x64) (Wf m ρ c main_v39) (ix2 (0 : Fin 1) q) = asArr (S := S9x64) (Wf m ρ c main_arg6) (ix2 (6 : Fin 9) q) := by
  rw [k_h0_39 m ρ c, k_h0_38 m ρ c, k_h0_37 m ρ c]
  exact (row_at _ q).trans (bslice_at _ 6 6 rfl _ q)
theorem wf_v41 (c : Dev nD) (k q : Fin 64) :
    asArr (S := S64x64) (Wf m ρ c main_v41) (ix2 k q) = asArr (S := S9x64x64) (Wf m ρ c main_arg5) (ix3 (7 : Fin 9) k q) := by
  rw [k_h0_41 m ρ c, k_h0_40 m ρ c]
  exact wslice_at _ 7 7 rfl _ k q
theorem wf_v44 (c : Dev nD) (q : Fin 64) :
    asArr (S := S1x64) (Wf m ρ c main_v44) (ix2 (0 : Fin 1) q) = asArr (S := S9x64) (Wf m ρ c main_arg6) (ix2 (7 : Fin 9) q) := by
  rw [k_h0_44 m ρ c, k_h0_43 m ρ c, k_h0_42 m ρ c]
  exact (row_at _ q).trans (bslice_at _ 7 7 rfl _ q)

/-- Layer 6 on the new atom features. -/
theorem ker_lin6 (c : Dev nD) (r : Fin 250000) (q : Fin 64) :
    asArr (S := S250000x64) (Wf m ρ c main_v127_0) (ix2 r q)
      = (∑ k : Fin 64, asArr (S := S250000x64) (Wf m ρ c main_v126) (ix2 r k) * asArr (S := S9x64x64) (Wf m ρ c main_arg5) (ix3 (6 : Fin 9) k q))
        + asArr (S := S9x64) (Wf m ρ c main_arg6) (ix2 (6 : Fin 9) q) := by
  refine (congrFun (reg6_6 m ρ c) (ix2 r q)).trans ?_
  unfold G6_6
  exact congrArg₂ (· + ·) (Finset.sum_congr rfl fun k _ => congrArg₂ (· * ·) rfl (wf_v36 m ρ c k q)) (wf_v39 m ρ c q)

/-- Layer 7 on the new bond features. -/
theorem ker_lin7 (c : Dev nD) (r : Fin 250000) (q : Fin 64) :
    asArr (S := S250000x64) (Wf m ρ c main_v127_1) (ix2 r q)
      = (∑ k : Fin 64, asArr (S := S250000x64) (Wf m ρ c main_v83_0) (ix2 r k) * asArr (S := S9x64x64) (Wf m ρ c main_arg5) (ix3 (7 : Fin 9) k q))
        + asArr (S := S9x64) (Wf m ρ c main_arg6) (ix2 (7 : Fin 9) q) := by
  refine (congrFun (reg6_7 m ρ c) (ix2 r q)).trans ?_
  unfold G6_7
  exact congrArg₂ (· + ·) (Finset.sum_congr rfl fun k _ => congrArg₂ (· * ·) rfl (wf_v41 m ρ c k q)) (wf_v44 m ρ c q)

end Cert.KernelIdeal.HandV

end
-- ==== Proof.LibDense.lean ====
/-
  Dense products read at an index, at the ideal instance.

  For the plain dimension numbers of an `M×K` by `K×N` product (`DotDims.plain M K N`: no batch axis, the left
  operand contracted on its columns, the right on its rows) the operand indices at result index `(r, c)` and
  contraction position `k` are `(r, k)` and `(k, c)`. Hence both the kernel's matrix product into a zero
  accumulator and the host's `dot_general` are, entry by entry, the textbook sum `∑ k, lhs (r, k) · rhs (k, c)` on the
  extended reals. Everything here is generic in `M`, `K`, `N` and in the operands' float formats.
-/
import Idealize.ShloMosaic.PureOps.Ideal.Laws
import Idealize.ShloMosaic.Lib.ValueIdx
import Idealize.ShloMosaic.Lib.Pipeline.Value

noncomputable section

namespace LibDense

open Idealize.ShloMosaic Idealize.ShloMosaic.ValueIdx

variable {M K N : Nat} {φ₁ φ₂ : FTy}

/-- The one-axis contraction index of the plain product, as a number below `K`. -/
abbrev ce (M K N : Nat) : (DotDims.plain M K N).contr.Idx ≃ Fin K := contrEquiv1 (DotDims.plain M K N) K rfl rfl

/-- The left operand is read at row `r`, column `k`. -/
theorem plain_lhsIdx (r : Fin M) (c : Fin N) (k : Fin K) :
    (DotDims.plain M K N).lhsIdx (ix2 r c) ((ce M K N).symm k) = ix2 r k := by
  funext a
  apply Fin.ext
  match a with
  | ⟨0, h0⟩ =>
    have hb : ¬(⟨0, h0⟩ : Fin (⟨2, ![M, K]⟩ : Shape).rank) ∈ (DotDims.plain M K N).lhsBatch := List.not_mem_nil
    have hn : (⟨0, h0⟩ : Fin (⟨2, ![M, K]⟩ : Shape).rank) ∈ (DotDims.plain M K N).lhsNonContracting :=
      List.mem_singleton.mpr rfl
    unfold DotDims.lhsIdx
    rw [dif_neg hb, dif_pos hn]
    rfl
  | ⟨1, _⟩ =>
    exact ((DotDims.plain M K N).lhsIdx_val_of_single (cl := 1) rfl (ix2 r c) _).trans
      (contrEquiv1_symm_val (DotDims.plain M K N) K rfl rfl k)

/-- The right operand is read at row `k`, column `c`. -/
theorem plain_rhsIdx (r : Fin M) (c : Fin N) (k : Fin K) :
    (DotDims.plain M K N).rhsIdx (ix2 r c) ((ce M K N).symm k) = ix2 k c := by
  funext a
  apply Fin.ext
  match a with
  | ⟨0, _⟩ =>
    exact ((DotDims.plain M K N).rhsIdx_val_of_single (cr := 0) rfl (ix2 r c) _).trans
      (contrEquiv1_symm_val (DotDims.plain M K N) K rfl rfl k)
  | ⟨1, h1⟩ =>
    have hb : ¬(⟨1, h1⟩ : Fin (⟨2, ![K, N]⟩ : Shape).rank) ∈ (DotDims.plain M K N).rhsBatch := List.not_mem_nil
    have hn : (⟨1, h1⟩ : Fin (⟨2, ![K, N]⟩ : Shape).rank) ∈ (DotDims.plain M K N).rhsNonContracting :=
      List.mem_singleton.mpr rfl
    unfold DotDims.rhsIdx
    rw [dif_neg hb, dif_pos hn]
    rfl

/-- The contraction sum of the plain product, re-indexed by `k < K`. -/
theorem plain_sum (lhs : FVec Ideal ⟨2, ![M, K]⟩ φ₁) (rhs : FVec Ideal ⟨2, ![K, N]⟩ φ₂) (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (ce M K N).symm]
  refine Finset.sum_congr rfl fun k _ => ?_
  rw [plain_lhsIdx, plain_rhsIdx]

/-- A matrix product accumulated into zero, at `(r, c)`. -/
theorem matmul_plain_zero_apply (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, plain_sum]

/-- The host's `dot_general`, whatever its schedule key, at `(r, c)`. -/
theorem dotGeneral_plain_apply (prec : Option ContractPrecision) (sched : HostSchedule) (lhs : FVec Ideal ⟨2, ![M, K]⟩ φ₁)
    (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, plain_sum]

/-! ## A bias row broadcast along the rows -/

section Rows
variable {α : Type}

/-- The host's `broadcast_in_dim` of a `[1, N]` row to `[M, N]`, at `(r, c)`: the row's entry `c`. -/
theorem rowBroadcastInDim_apply (h : (⟨2, ![1, N]⟩ : Shape).BroadcastsInDim ⟨2, ![M, N]⟩ ![0, 1])
    (b : (⟨2, ![1, N]⟩ : Shape).Idx → α) (r : Fin M) (c : Fin N) :
    broadcastInDim ⟨2, ![M, N]⟩ ![0, 1] h b (ix2 r c) = b (ix2 0 c) :=
  broadcastInDim_apply _ h b (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- The kernel's `vector.broadcast` of a `[1, N]` row to `[M, N]`, at `(r, c)`: the row's entry `c`. -/
theorem rowBroadcastTo_apply (h : (⟨2, ![1, N]⟩ : Shape).Broadcasts ⟨2, ![M, N]⟩)
    (b : (⟨2, ![1, N]⟩ : Shape).Idx → α) (r : Fin M) (c : Fin N) :
    broadcastTo ⟨2, ![M, N]⟩ b h (ix2 r c) = b (ix2 0 c) :=
  broadcastTo_apply b h (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- A length-`N` vector recast as a `[1, N]` row is the vector broadcast along axis 1: both read entry `c` at `(0, c)`
    (the bias as the kernel's caller reshapes it, and as the host's reference broadcasts it). -/
theorem rowOfVec_eq (h : (⟨1, ![N]⟩ : Shape).ShapeCasts ⟨2, ![1, N]⟩)
    (h' : (⟨1, ![N]⟩ : Shape).BroadcastsInDim ⟨2, ![1, N]⟩ ![1]) (b : (⟨1, ![N]⟩ : Shape).Idx → α) :
    shapeCast ⟨2, ![1, N]⟩ b h = broadcastInDim ⟨2, ![1, N]⟩ ![1] h' b := by
  funext j
  obtain ⟨r, c, rfl⟩ : ∃ (r : Fin 1) (c : Fin N), j = ix2 r c := ⟨j 0, j 1, eq_ix2 j⟩
  rw [shapeCast_apply b h (ix2 r c) (ix1 c) (by
      rw [Shape.rowMajor_val_one, Shape.rowMajor_val_two]
      show c.val = r.val * N + c.val
      have := r.isLt; have hr : r.val = 0 := by omega
      rw [hr]; omega),
    broadcastInDim_apply ![1] h' b (ix2 r c) (ix1 c) (fun a => match a with
      | ⟨0, _⟩ => by
        show c.val = if N = 1 then 0 else c.val
        split
        · have := c.isLt; omega
        · rfl)]

end Rows

/-! ## Two products and a bias row: the affine part of a layer -/

/-- The host's spelling: `a · Wl`, plus the bias row on every row, plus `x · Wr`, on whole arrays. -/
def hostAffine (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) : FVec Ideal ⟨2, ![M, N]⟩ .f32 :=
  addf (addf (Host.dotGeneral (DotDims.plain M K N) none a Wl) (broadcastInDim ⟨2, ![M, N]⟩ ![0, 1] h b))
    (Host.dotGeneral (DotDims.plain M K N) none x Wr)

/-- Entry `(r, c)` of the host's spelling. -/
theorem hostAffine_apply (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) (r : Fin M) (c : Fin N) :
    hostAffine h a x Wl b Wr (ix2 r c)
      = ((∑ k : Fin K, a (ix2 r k) * Wl (ix2 k c)) + b (ix2 0 c)) + ∑ k : Fin K, x (ix2 r k) * Wr (ix2 k c) := by
  show (FloatOps.dotGeneral (DotDims.plain M K N) none .single a Wl (ix2 r c)
      + broadcastInDim ⟨2, ![M, N]⟩ ![0, 1] h b (ix2 r c))
      + FloatOps.dotGeneral (DotDims.plain M K N) none .single x Wr (ix2 r c) = _
  rw [dotGeneral_plain_apply, dotGeneral_plain_apply, rowBroadcastInDim_apply]

/-- The kernel body's spelling on a block of `M` rows — both products accumulated into zero and added, then the
    bias row — has the same entry `(r, c)`: addition on the extended reals is commutative and associative, so the
    bias may be added before or after the second product. -/
theorem blockAffine_apply (h : (⟨2, ![1, N]⟩ : Shape).Broadcasts ⟨2, ![M, N]⟩)
    (a x : FVec Ideal ⟨2, ![M, K]⟩ φ₁) (Wl Wr : FVec Ideal ⟨2, ![K, N]⟩ φ₂) (b : FVec Ideal ⟨2, ![1, N]⟩ .f32)
    (r : Fin M) (c : Fin N) :
    (FloatOps.matmul (DotDims.plain M K N) none a Wl (constant ⟨2, ![M, N]⟩ .f32 0x00000000#32) (ix2 r c)
        + FloatOps.matmul (DotDims.plain M K N) none x Wr (constant ⟨2, ![M, N]⟩ .f32 0x00000000#32) (ix2 r c))
        + broadcastTo ⟨2, ![M, N]⟩ b h (ix2 r c)
      = ((∑ k : Fin K, a (ix2 r k) * Wl (ix2 k c)) + b (ix2 0 c)) + ∑ k : Fin K, x (ix2 r k) * Wr (ix2 k c) := by
  rw [matmul_plain_zero_apply, matmul_plain_zero_apply, rowBroadcastTo_apply, add_right_comm]

end LibDense

end
-- ==== Proof.Ref.DenseValue.lean ====
import proofs.«180658_j65867618451767_1_alg».proof.Proof.Ref.Stage
import proofs.«180658_j65867618451767_1_alg».proof.Proof.LibDense
import Idealize.ShloMosaic.Lib.ValueLayout

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx

/-- A float buffer's contents at the ideal instance, read as an `S`-shaped array of extended reals (the identity:
    it only says at which type the contents are read). -/
abbrev rd (S : Shape) (x : S.Idx → EReal) : S.Idx → EReal := x

/-! ## One dense layer on whole arrays

The reference's `x @ Ws[i] + bs[i]` is eight operations: weight matrix `i` cut out of the stack and its leading unit
axis dropped, the product, bias row `i` cut out and recast as a vector, broadcast back to a row and then to every row,
the sum. Read at `(r, q)` it is the textbook `(∑ k, x (r, k) · Ws (i, k, q)) + bs (i, q)`. -/

section Value

variable {M : Nat}

/-- The eight operations composed, at `(r, q)`. `o` is the cut's offset as the program writes it, `i` the same number
    as a coordinate of the stacks. -/
theorem lin_apply (o : Nat) (i : Fin 9) (hi : i.val = o)
    (d : DotDims ⟨2, ![M, 64]⟩ ⟨2, ![64, 64]⟩ ⟨2, ![M, 64]⟩) (hd : d = DotDims.plain M 64 64)
    (hsW : (⟨3, ![9, 64, 64]⟩ : Shape).Slices ![o, 0, 0] ⟨3, ![1, 64, 64]⟩)
    (hcW : (⟨3, ![1, 64, 64]⟩ : Shape).ShapeCasts ⟨2, ![64, 64]⟩)
    (hsb : (⟨2, ![9, 64]⟩ : Shape).Slices ![o, 0] ⟨2, ![1, 64]⟩)
    (hcb : (⟨2, ![1, 64]⟩ : Shape).ShapeCasts ⟨1, ![64]⟩)
    (hb1 : (⟨1, ![64]⟩ : Shape).BroadcastsInDim ⟨2, ![1, 64]⟩ ![1])
    (hb2 : (⟨2, ![1, 64]⟩ : Shape).BroadcastsInDim ⟨2, ![M, 64]⟩ ![0, 1])
    (X : FVec Ideal ⟨2, ![M, 64]⟩ .f32) (Ws : FVec Ideal ⟨3, ![9, 64, 64]⟩ .f32) (bs : FVec Ideal ⟨2, ![9, 64]⟩ .f32)
    (r : Fin M) (q : Fin 64) :
    (addf (F := Ideal)
        (Host.dotGeneral (F := Ideal) d none X
          (shapeCast ⟨2, ![64, 64]⟩ (extractStridedSlice ⟨3, ![1, 64, 64]⟩ ![o, 0, 0] Ws hsW) hcW))
        (broadcastInDim ⟨2, ![M, 64]⟩ ![0, 1] hb2 (broadcastInDim ⟨2, ![1, 64]⟩ ![1] hb1
          (shapeCast ⟨1, ![64]⟩ (extractStridedSlice ⟨2, ![1, 64]⟩ ![o, 0] bs hsb) hcb)))
        : FVec Ideal ⟨2, ![M, 64]⟩ .f32) (ix2 r q)
      = (∑ k : Fin 64, X (ix2 r k) * Ws (ix3 i k q)) + bs (ix2 i q) := by
  subst hd
  -- the weight matrix at (k, q): the stack at (i, k, q)
  have hW : ∀ k : Fin 64,
      shapeCast ⟨2, ![64, 64]⟩ (extractStridedSlice ⟨3, ![1, 64, 64]⟩ ![o, 0, 0] Ws hsW) hcW (ix2 k q) = Ws (ix3 i k q) := fun k => by
    rw [shapeCast_1ab_ab_apply]
    exact extractStridedSlice_apply _ _ _ _ _ (fun ax => by
      match ax with
      | ⟨0, _⟩ => exact hi.trans (Nat.add_zero o).symm
      | ⟨1, _⟩ => exact (Nat.zero_add _).symm
      | ⟨2, _⟩ => exact (Nat.zero_add _).symm)
  -- the bias row at (0, q): the stack of rows at (i, q)
  have hc' : (⟨1, ![64]⟩ : Shape).ShapeCasts ⟨2, ![1, 64]⟩ := by decide
  have hB : broadcastInDim ⟨2, ![1, 64]⟩ ![1] hb1
      (shapeCast ⟨1, ![64]⟩ (extractStridedSlice ⟨2, ![1, 64]⟩ ![o, 0] bs hsb) hcb) (ix2 (0 : Fin 1) q) = bs (ix2 i q) := by
    rw [← LibDense.rowOfVec_eq hc' hb1, shapeCast_a_1a_apply, shapeCast_1a_a_apply]
    exact slice2_axis0_apply o bs hsb 0 q i (hi.trans (Nat.add_zero o).symm)
  show FloatOps.dotGeneral (DotDims.plain M 64 64) none .single X _ (ix2 r q) + _ = _
  rw [LibDense.dotGeneral_plain_apply, LibDense.rowBroadcastInDim_apply, hB]
  exact congrArg (· + bs (ix2 i q)) (Finset.sum_congr rfl fun k _ => by rw [hW k])

/-- The same from the eight operations' equations, each value named. -/
theorem lin_of_eqs (o : Nat) (i : Fin 9) (hi : i.val = o)
    (d : DotDims ⟨2, ![M, 64]⟩ ⟨2, ![64, 64]⟩ ⟨2, ![M, 64]⟩) (hd : d = DotDims.plain M 64 64)
    (hsW : (⟨3, ![9, 64, 64]⟩ : Shape).Slices ![o, 0, 0] ⟨3, ![1, 64, 64]⟩)
    (hcW : (⟨3, ![1, 64, 64]⟩ : Shape).ShapeCasts ⟨2, ![64, 64]⟩)
    (hsb : (⟨2, ![9, 64]⟩ : Shape).Slices ![o, 0] ⟨2, ![1, 64]⟩)
    (hcb : (⟨2, ![1, 64]⟩ : Shape).ShapeCasts ⟨1, ![64]⟩)
    (hb1 : (⟨1, ![64]⟩ : Shape).BroadcastsInDim ⟨2, ![1, 64]⟩ ![1])
    (hb2 : (⟨2, ![1, 64]⟩ : Shape).BroadcastsInDim ⟨2, ![M, 64]⟩ ![0, 1])
    (X : FVec Ideal ⟨2, ![M, 64]⟩ .f32) (Ws : FVec Ideal ⟨3, ![9, 64, 64]⟩ .f32) (bs : FVec Ideal ⟨2, ![9, 64]⟩ .f32)
    (w0 : FVec Ideal ⟨3, ![1, 64, 64]⟩ .f32) (w1 : FVec Ideal ⟨2, ![64, 64]⟩ .f32) (p : FVec Ideal ⟨2, ![M, 64]⟩ .f32)
    (b0 : FVec Ideal ⟨2, ![1, 64]⟩ .f32) (b1 : FVec Ideal ⟨1, ![64]⟩ .f32) (b2 : FVec Ideal ⟨2, ![1, 64]⟩ .f32)
    (b3 y : FVec Ideal ⟨2, ![M, 64]⟩ .f32)
    (e0 : w0 = extractStridedSlice ⟨3, ![1, 64, 64]⟩ ![o, 0, 0] Ws hsW)
    (e1 : w1 = shapeCast ⟨2, ![64, 64]⟩ w0 hcW)
    (e2 : p = Host.dotGeneral (F := Ideal) d none X w1)
    (e3 : b0 = extractStridedSlice ⟨2, ![1, 64]⟩ ![o, 0] bs hsb)
    (e4 : b1 = shapeCast ⟨1, ![64]⟩ b0 hcb)
    (e5 : b2 = broadcastInDim ⟨2, ![1, 64]⟩ ![1] hb1 b1)
    (e6 : b3 = broadcastInDim ⟨2, ![M, 64]⟩ ![0, 1] hb2 b2)
    (e7 : y = addf (F := Ideal) p b3) (r : Fin M) (q : Fin 64) :
    y (ix2 r q) = (∑ k : Fin 64, X (ix2 r k) * Ws (ix3 i k q)) + bs (ix2 i q) := by
  subst e0 e1 e2 e3 e4 e5 e6 e7
  exact lin_apply o i hi d hd hsW hcW hsb hcb hb1 hb2 X Ws bs r q

end Value

end Cert.ReferenceIdeal.HandV

end
-- ==== Proof.Ref.Dense.lean ====
import proofs.«180658_j65867618451767_1_alg».proof.Proof.Ref.DenseValue
import proofs.«180658_j65867618451767_1_alg».proof.Proof.Ref.HostEqs

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx

/-! ## The nine dense layers

Each layer's eight operations sit at consecutive places of the line; their equations between what the buffers hold
after the whole line compose to the layer's value at an index. -/

/-- Dense layer 0 of the reference, read at row `r`, column `q`: `main_v7` holds the input's row against column `q` of
    weight matrix 0, plus entry `q` of bias row 0. -/
theorem ref_lin0 (V : Valuation τ sig (Elt Ideal)) (r : Fin 250000) (q : Fin 64) :
    rd S250000x64 (R V main_v7) (ix2 r q)
      = (∑ k : Fin 64, rd S250000x64 (R V main_arg0) (ix2 r k) * rd S9x64x64 (R V main_arg5) (ix3 (0 : Fin 9) k q))
        + rd S9x64 (R V main_arg6) (ix2 (0 : Fin 9) q) :=
  lin_of_eqs 0 (0 : Fin 9) rfl dot_S250000x64_S64x64_S250000x64_1_0_0_1_n_n rfl _ _ _ _ _ _
    (R V main_arg0) (R V main_arg5) (R V main_arg6) (R V main_v0) (R V main_v1) (R V main_v2)
    (R V main_v3) (R V main_v4) (R V main_v5) (R V main_v6) (R V main_v7)
    (r_0 V) (r_1 V) (r_2 V) (r_3 V) (r_4 V) (r_5 V) (r_6 V) (r_7 V) r q

/-- Dense layer 1 of the reference, read at row `r`, column `q`: `main_v31` holds the input's row against column `q` of
    weight matrix 1, plus entry `q` of bias row 1. -/
theorem ref_lin1 (V : Valuation τ sig (Elt Ideal)) (r : Fin 250000) (q : Fin 64) :
    rd S250000x64 (R V main_v31) (ix2 r q)
      = (∑ k : Fin 64, rd S250000x64 (R V main_arg1) (ix2 r k) * rd S9x64x64 (R V main_arg5) (ix3 (1 : Fin 9) k q))
        + rd S9x64 (R V main_arg6) (ix2 (1 : Fin 9) q) :=
  lin_of_eqs 1 (1 : Fin 9) rfl dot_S250000x64_S64x64_S250000x64_1_0_0_1_n_n rfl _ _ _ _ _ _
    (R V main_arg1) (R V main_arg5) (R V main_arg6) (R V main_v24) (R V main_v25) (R V main_v26)
    (R V main_v27) (R V main_v28) (R V main_v29) (R V main_v30) (R V main_v31)
    (r_24 V) (r_25 V) (r_26 V) (r_27 V) (r_28 V) (r_29 V) (r_30 V) (r_31 V) r q

/-- Dense layer 2 of the reference, read at row `r`, column `q`: `main_v39` holds the input's row against column `q` of
    weight matrix 2, plus entry `q` of bias row 2. -/
theorem ref_lin2 (V : Valuation τ sig (Elt Ideal)) (r : Fin 10000) (q : Fin 64) :
    rd S10000x64 (R V main_v39) (ix2 r q)
      = (∑ k : Fin 64, rd S10000x64 (R V main_arg2) (ix2 r k) * rd S9x64x64 (R V main_arg5) (ix3 (2 : Fin 9) k q))
        + rd S9x64 (R V main_arg6) (ix2 (2 : Fin 9) q) :=
  lin_of_eqs 2 (2 : Fin 9) rfl dot_S10000x64_S64x64_S10000x64_1_0_0_1_n_n rfl _ _ _ _ _ _
    (R V main_arg2) (R V main_arg5) (R V main_arg6) (R V main_v32) (R V main_v33) (R V main_v34)
    (R V main_v35) (R V main_v36) (R V main_v37) (R V main_v38) (R V main_v39)
    (r_32 V) (r_33 V) (r_34 V) (r_35 V) (r_36 V) (r_37 V) (r_38 V) (r_39 V) r q

/-- Dense layer 3 of the reference, read at row `r`, column `q`: `main_v15` holds the input's row against column `q` of
    weight matrix 3, plus entry `q` of bias row 3. -/
theorem ref_lin3 (V : Valuation τ sig (Elt Ideal)) (r : Fin 250000) (q : Fin 64) :
    rd S250000x64 (R V main_v15) (ix2 r q)
      = (∑ k : Fin 64, rd S250000x64 (R V main_arg0) (ix2 r k) * rd S9x64x64 (R V main_arg5) (ix3 (3 : Fin 9) k q))
        + rd S9x64 (R V main_arg6) (ix2 (3 : Fin 9) q) :=
  lin_of_eqs 3 (3 : Fin 9) rfl dot_S250000x64_S64x64_S250000x64_1_0_0_1_n_n rfl _ _ _ _ _ _
    (R V main_arg0) (R V main_arg5) (R V main_arg6) (R V main_v8) (R V main_v9) (R V main_v10)
    (R V main_v11) (R V main_v12) (R V main_v13) (R V main_v14) (R V main_v15)
    (r_8 V) (r_9 V) (r_10 V) (r_11 V) (r_12 V) (r_13 V) (r_14 V) (r_15 V) r q

/-- Dense layer 4 of the reference, read at row `r`, column `q`: `main_v23` holds the input's row against column `q` of
    weight matrix 4, plus entry `q` of bias row 4. -/
theorem ref_lin4 (V : Valuation τ sig (Elt Ideal)) (r : Fin 250000) (q : Fin 64) :
    rd S250000x64 (R V main_v23) (ix2 r q)
      = (∑ k : Fin 64, rd S250000x64 (R V main_arg0) (ix2 r k) * rd S9x64x64 (R V main_arg5) (ix3 (4 : Fin 9) k q))
        + rd S9x64 (R V main_arg6) (ix2 (4 : Fin 9) q) :=
  lin_of_eqs 4 (4 : Fin 9) rfl dot_S250000x64_S64x64_S250000x64_1_0_0_1_n_n rfl _ _ _ _ _ _
    (R V main_arg0) (R V main_arg5) (R V main_arg6) (R V main_v16) (R V main_v17) (R V main_v18)
    (R V main_v19) (R V main_v20) (R V main_v21) (R V main_v22) (R V main_v23)
    (r_16 V) (r_17 V) (r_18 V) (r_19 V) (r_20 V) (r_21 V) (r_22 V) (r_23 V) r q

/-- Dense layer 5 of the reference, read at row `r`, column `q`: `main_v47` holds the input's row against column `q` of
    weight matrix 5, plus entry `q` of bias row 5. -/
theorem ref_lin5 (V : Valuation τ sig (Elt Ideal)) (r : Fin 10000) (q : Fin 64) :
    rd S10000x64 (R V main_v47) (ix2 r q)
      = (∑ k : Fin 64, rd S10000x64 (R V main_arg2) (ix2 r k) * rd S9x64x64 (R V main_arg5) (ix3 (5 : Fin 9) k q))
        + rd S9x64 (R V main_arg6) (ix2 (5 : Fin 9) q) :=
  lin_of_eqs 5 (5 : Fin 9) rfl dot_S10000x64_S64x64_S10000x64_1_0_0_1_n_n rfl _ _ _ _ _ _
    (R V main_arg2) (R V main_arg5) (R V main_arg6) (R V main_v40) (R V main_v41) (R V main_v42)
    (R V main_v43) (R V main_v44) (R V main_v45) (R V main_v46) (R V main_v47)
    (r_40 V) (r_41 V) (r_42 V) (r_43 V) (r_44 V) (r_45 V) (r_46 V) (r_47 V) r q

/-- Dense layer 6 of the reference, read at row `r`, column `q`: `main_v173` holds the input's row against column `q` of
    weight matrix 6, plus entry `q` of bias row 6. -/
theorem ref_lin6 (V : Valuation τ sig (Elt Ideal)) (r : Fin 250000) (q : Fin 64) :
    rd S250000x64 (R V main_v173) (ix2 r q)
      = (∑ k : Fin 64, rd S250000x64 (R V main_v165) (ix2 r k) * rd S9x64x64 (R V main_arg5) (ix3 (6 : Fin 9) k q))
        + rd S9x64 (R V main_arg6) (ix2 (6 : Fin 9) q) :=
  lin_of_eqs 6 (6 : Fin 9) rfl dot_S250000x64_S64x64_S250000x64_1_0_0_1_n_n rfl _ _ _ _ _ _
    (R V main_v165) (R V main_arg5) (R V main_arg6) (R V main_v166) (R V main_v167) (R V main_v168)
    (R V main_v169) (R V main_v170) (R V main_v171) (R V main_v172) (R V main_v173)
    (r_261 V) (r_262 V) (r_263 V) (r_264 V) (r_265 V) (r_266 V) (r_267 V) (r_268 V) r q

/-- Dense layer 7 of the reference, read at row `r`, column `q`: `main_v181` holds the input's row against column `q` of
    weight matrix 7, plus entry `q` of bias row 7. -/
theorem ref_lin7 (V : Valuation τ sig (Elt Ideal)) (r : Fin 250000) (q : Fin 64) :
    rd S250000x64 (R V main_v181) (ix2 r q)
      = (∑ k : Fin 64, rd S250000x64 (R V main_v97) (ix2 r k) * rd S9x64x64 (R V main_arg5) (ix3 (7 : Fin 9) k q))
        + rd S9x64 (R V main_arg6) (ix2 (7 : Fin 9) q) :=
  lin_of_eqs 7 (7 : Fin 9) rfl dot_S250000x64_S64x64_S250000x64_1_0_0_1_n_n rfl _ _ _ _ _ _
    (R V main_v97) (R V main_arg5) (R V main_arg6) (R V main_v174) (R V main_v175) (R V main_v176)
    (R V main_v177) (R V main_v178) (R V main_v179) (R V main_v180) (R V main_v181)
    (r_269 V) (r_270 V) (r_271 V) (r_272 V) (r_273 V) (r_274 V) (r_275 V) (r_276 V) r q

/-- Dense layer 8 of the reference, read at row `r`, column `q`: `main_v189` holds the input's row against column `q` of
    weight matrix 8, plus entry `q` of bias row 8. -/
theorem ref_lin8 (V : Valuation τ sig (Elt Ideal)) (r : Fin 10000) (q : Fin 64) :
    rd S10000x64 (R V main_v189) (ix2 r q)
      = (∑ k : Fin 64, rd S10000x64 (R V main_arg2) (ix2 r k) * rd S9x64x64 (R V main_arg5) (ix3 (8 : Fin 9) k q))
        + rd S9x64 (R V main_arg6) (ix2 (8 : Fin 9) q) :=
  lin_of_eqs 8 (8 : Fin 9) rfl dot_S10000x64_S64x64_S10000x64_1_0_0_1_n_n rfl _ _ _ _ _ _
    (R V main_arg2) (R V main_arg5) (R V main_arg6) (R V main_v182) (R V main_v183) (R V main_v184)
    (R V main_v185) (R V main_v186) (R V main_v187) (R V main_v188) (R V main_v189)
    (r_277 V) (r_278 V) (r_279 V) (r_280 V) (r_281 V) (r_282 V) (r_283 V) (r_284 V) r q

end Cert.ReferenceIdeal.HandV

end
-- ==== Proof.Bridge.Lin.lean ====
/-
  The nine dense layers agree. On both sides layer `i` of an input is, entry by entry, the input's row times slice `i` of
  the weight stack plus row `i` of the bias table — the kernel program through its fused matrix products and column bands,
  the reference through its own matrix product and broadcast bias — so equal inputs and equal arguments give equal layers.
-/
import proofs.«180658_j65867618451767_1_alg».proof.Proof.Bridge.Base
import proofs.«180658_j65867618451767_1_alg».proof.Proof.KI.Dense
import proofs.«180658_j65867618451767_1_alg».proof.Proof.Ref.Dense

set_option maxRecDepth 16384

noncomputable section

open scoped BigOperators

namespace Cert.Bridge

open Idealize.ShloMosaic Idealize.ShloMosaic.TcCoe Idealize.ShloMosaic.StableHlo Idealize.ShloMosaic.ValueIdx

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

theorem lin0 (hA : Agree m ρ c V')  : Rv V' Cert.ReferenceIdeal.main_v7 = Kv m ρ c Cert.KernelIdeal.main_v46 := by
  show fn Cert.KernelIdeal.S250000x64 (Rv V' Cert.ReferenceIdeal.main_v7) = fn Cert.KernelIdeal.S250000x64 (Kv m ρ c Cert.KernelIdeal.main_v46)
  funext j
  obtain ⟨r, q, rfl⟩ : ∃ (r : Fin 250000) (q : Fin 64), j = ix2 r q := ⟨j 0, j 1, eq_ix2 j⟩
  refine (Cert.ReferenceIdeal.HandV.ref_lin0 V' r q).trans ?_
  refine Eq.trans ?_ (Cert.KernelIdeal.HandV.ker_lin0 m ρ c r q).symm
  have e0 := hA.a0
  have e5 := hA.a5
  have e6 := hA.a6
  unfold Rv at e0 e5 e6
  rw [e0, e5, e6]

theorem lin3 (hA : Agree m ρ c V')  : Rv V' Cert.ReferenceIdeal.main_v15 = Kv m ρ c Cert.KernelIdeal.main_v47 := by
  show fn Cert.KernelIdeal.S250000x64 (Rv V' Cert.ReferenceIdeal.main_v15) = fn Cert.KernelIdeal.S250000x64 (Kv m ρ c Cert.KernelIdeal.main_v47)
  funext j
  obtain ⟨r, q, rfl⟩ : ∃ (r : Fin 250000) (q : Fin 64), j = ix2 r q := ⟨j 0, j 1, eq_ix2 j⟩
  refine (Cert.ReferenceIdeal.HandV.ref_lin3 V' r q).trans ?_
  refine Eq.trans ?_ (Cert.KernelIdeal.HandV.ker_lin3 m ρ c r q).symm
  have e0 := hA.a0
  have e5 := hA.a5
  have e6 := hA.a6
  unfold Rv at e0 e5 e6
  rw [e0, e5, e6]

theorem lin4 (hA : Agree m ρ c V')  : Rv V' Cert.ReferenceIdeal.main_v23 = Kv m ρ c Cert.KernelIdeal.main_v48 := by
  show fn Cert.KernelIdeal.S250000x64 (Rv V' Cert.ReferenceIdeal.main_v23) = fn Cert.KernelIdeal.S250000x64 (Kv m ρ c Cert.KernelIdeal.main_v48)
  funext j
  obtain ⟨r, q, rfl⟩ : ∃ (r : Fin 250000) (q : Fin 64), j = ix2 r q := ⟨j 0, j 1, eq_ix2 j⟩
  refine (Cert.ReferenceIdeal.HandV.ref_lin4 V' r q).trans ?_
  refine Eq.trans ?_ (Cert.KernelIdeal.HandV.ker_lin4 m ρ c r q).symm
  have e0 := hA.a0
  have e5 := hA.a5
  have e6 := hA.a6
  unfold Rv at e0 e5 e6
  rw [e0, e5, e6]

theorem lin1 (hA : Agree m ρ c V')  : Rv V' Cert.ReferenceIdeal.main_v31 = Kv m ρ c Cert.KernelIdeal.main_v45_1 := by
  show fn Cert.KernelIdeal.S250000x64 (Rv V' Cert.ReferenceIdeal.main_v31) = fn Cert.KernelIdeal.S250000x64 (Kv m ρ c Cert.KernelIdeal.main_v45_1)
  funext j
  obtain ⟨r, q, rfl⟩ : ∃ (r : Fin 250000) (q : Fin 64), j = ix2 r q := ⟨j 0, j 1, eq_ix2 j⟩
  refine (Cert.ReferenceIdeal.HandV.ref_lin1 V' r q).trans ?_
  refine Eq.trans ?_ (Cert.KernelIdeal.HandV.ker_lin1 m ρ c r q).symm
  have e0 := hA.a1
  have e5 := hA.a5
  have e6 := hA.a6
  unfold Rv at e0 e5 e6
  rw [e0, e5, e6]

theorem lin2 (hA : Agree m ρ c V')  : Rv V' Cert.ReferenceIdeal.main_v39 = Kv m ρ c Cert.KernelIdeal.main_v50 := by
  show fn Cert.KernelIdeal.S10000x64 (Rv V' Cert.ReferenceIdeal.main_v39) = fn Cert.KernelIdeal.S10000x64 (Kv m ρ c Cert.KernelIdeal.main_v50)
  funext j
  obtain ⟨r, q, rfl⟩ : ∃ (r : Fin 10000) (q : Fin 64), j = ix2 r q := ⟨j 0, j 1, eq_ix2 j⟩
  refine (Cert.ReferenceIdeal.HandV.ref_lin2 V' r q).trans ?_
  refine Eq.trans ?_ (Cert.KernelIdeal.HandV.ker_lin2 m ρ c r q).symm
  have e0 := hA.a2
  have e5 := hA.a5
  have e6 := hA.a6
  unfold Rv at e0 e5 e6
  rw [e0, e5, e6]

theorem lin5 (hA : Agree m ρ c V')  : Rv V' Cert.ReferenceIdeal.main_v47 = Kv m ρ c Cert.KernelIdeal.main_v51 := by
  show fn Cert.KernelIdeal.S10000x64 (Rv V' Cert.ReferenceIdeal.main_v47) = fn Cert.KernelIdeal.S10000x64 (Kv m ρ c Cert.KernelIdeal.main_v51)
  funext j
  obtain ⟨r, q, rfl⟩ : ∃ (r : Fin 10000) (q : Fin 64), j = ix2 r q := ⟨j 0, j 1, eq_ix2 j⟩
  refine (Cert.ReferenceIdeal.HandV.ref_lin5 V' r q).trans ?_
  refine Eq.trans ?_ (Cert.KernelIdeal.HandV.ker_lin5 m ρ c r q).symm
  have e0 := hA.a2
  have e5 := hA.a5
  have e6 := hA.a6
  unfold Rv at e0 e5 e6
  rw [e0, e5, e6]

theorem lin8 (hA : Agree m ρ c V')  : Rv V' Cert.ReferenceIdeal.main_v189 = Kv m ρ c Cert.KernelIdeal.main_v52 := by
  show fn Cert.KernelIdeal.S10000x64 (Rv V' Cert.ReferenceIdeal.main_v189) = fn Cert.KernelIdeal.S10000x64 (Kv m ρ c Cert.KernelIdeal.main_v52)
  funext j
  obtain ⟨r, q, rfl⟩ : ∃ (r : Fin 10000) (q : Fin 64), j = ix2 r q := ⟨j 0, j 1, eq_ix2 j⟩
  refine (Cert.ReferenceIdeal.HandV.ref_lin8 V' r q).trans ?_
  refine Eq.trans ?_ (Cert.KernelIdeal.HandV.ker_lin8 m ρ c r q).symm
  have e0 := hA.a2
  have e5 := hA.a5
  have e6 := hA.a6
  unfold Rv at e0 e5 e6
  rw [e0, e5, e6]

theorem lin6 (hA : Agree m ρ c V') (hx : Rv V' Cert.ReferenceIdeal.main_v165 = Kv m ρ c Cert.KernelIdeal.main_v126) : Rv V' Cert.ReferenceIdeal.main_v173 = Kv m ρ c Cert.KernelIdeal.main_v127_0 := by
  show fn Cert.KernelIdeal.S250000x64 (Rv V' Cert.ReferenceIdeal.main_v173) = fn Cert.KernelIdeal.S250000x64 (Kv m ρ c Cert.KernelIdeal.main_v127_0)
  funext j
  obtain ⟨r, q, rfl⟩ : ∃ (r : Fin 250000) (q : Fin 64), j = ix2 r q := ⟨j 0, j 1, eq_ix2 j⟩
  refine (Cert.ReferenceIdeal.HandV.ref_lin6 V' r q).trans ?_
  refine Eq.trans ?_ (Cert.KernelIdeal.HandV.ker_lin6 m ρ c r q).symm
  have e0 := hx
  have e5 := hA.a5
  have e6 := hA.a6
  unfold Rv at e0 e5 e6
  rw [e0, e5, e6]

theorem lin7 (hA : Agree m ρ c V') (hx : Rv V' Cert.ReferenceIdeal.main_v97 = Kv m ρ c Cert.KernelIdeal.main_v83_0) : Rv V' Cert.ReferenceIdeal.main_v181 = Kv m ρ c Cert.KernelIdeal.main_v127_1 := by
  show fn Cert.KernelIdeal.S250000x64 (Rv V' Cert.ReferenceIdeal.main_v181) = fn Cert.KernelIdeal.S250000x64 (Kv m ρ c Cert.KernelIdeal.main_v127_1)
  funext j
  obtain ⟨r, q, rfl⟩ : ∃ (r : Fin 250000) (q : Fin 64), j = ix2 r q := ⟨j 0, j 1, eq_ix2 j⟩
  refine (Cert.ReferenceIdeal.HandV.ref_lin7 V' r q).trans ?_
  refine Eq.trans ?_ (Cert.KernelIdeal.HandV.ker_lin7 m ρ c r q).symm
  have e0 := hx
  have e5 := hA.a5
  have e6 := hA.a6
  unfold Rv at e0 e5 e6
  rw [e0, e5, e6]

end Cert.Bridge

end
-- ==== Proof.Bridge.Gathers.lean ====
/-
  The three gathers both programs make of their first dense layers' results: a table of row indices, wrapped into range
  (a negative index has the table's length added), selects rows of an array. Both programs spell the wrap and the
  gather with the same operations; from equal arrays and equal index arguments the gathered arrays are equal.
-/
import proofs.«180658_j65867618451767_1_alg».proof.Proof.Bridge.Base

set_option maxRecDepth 16384

noncomputable section

namespace Cert.Bridge

open Idealize.ShloMosaic Idealize.ShloMosaic.TcCoe Idealize.ShloMosaic.StableHlo
open Cert.ReferenceIdeal.HandV (R)
open Cert.KernelIdeal.HandV (Wf)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-- The rows of the first layer's result selected by the first index argument. -/
theorem gather_bond_u (hA : Agree m ρ c V') (hAh : Rv V' Cert.ReferenceIdeal.main_v7 = Kv m ρ c Cert.KernelIdeal.main_v46) :
    Rv V' Cert.ReferenceIdeal.main_v54 = Kv m ρ c Cert.KernelIdeal.main_v59 := by
  have ha9 : R V' Cert.ReferenceIdeal.main_arg9 = Wf m ρ c Cert.KernelIdeal.main_arg9 := hA.a9
  have hAh' : R V' Cert.ReferenceIdeal.main_v7 = Wf m ρ c Cert.KernelIdeal.main_v46 := hAh
  show R V' Cert.ReferenceIdeal.main_v54 = Wf m ρ c Cert.KernelIdeal.main_v59
  rw [
    Cert.ReferenceIdeal.HandV.r_56 V', Cert.ReferenceIdeal.HandV.r_55 V', Cert.ReferenceIdeal.HandV.r_54 V', Cert.ReferenceIdeal.HandV.r_53 V', Cert.ReferenceIdeal.HandV.r_52 V', Cert.ReferenceIdeal.HandV.r_51 V',
    Cert.ReferenceIdeal.HandV.r_50 V', Cert.ReferenceIdeal.HandV.r_49 V', Cert.ReferenceIdeal.HandV.r_48 V',
    Cert.KernelIdeal.HandV.k_h2_11 m ρ c, Cert.KernelIdeal.HandV.k_h2_10 m ρ c, Cert.KernelIdeal.HandV.k_h2_9 m ρ c, Cert.KernelIdeal.HandV.k_h2_8 m ρ c, Cert.KernelIdeal.HandV.k_h2_7 m ρ c, Cert.KernelIdeal.HandV.k_h2_6 m ρ c,
    Cert.KernelIdeal.HandV.k_h2_5 m ρ c, Cert.KernelIdeal.HandV.k_h2_4 m ρ c, Cert.KernelIdeal.HandV.k_h2_3 m ρ c,
    ha9, hAh']
  rfl

/-- The rows of the same array selected by the second index argument. -/
theorem gather_bond_v (hA : Agree m ρ c V') (hAh : Rv V' Cert.ReferenceIdeal.main_v7 = Kv m ρ c Cert.KernelIdeal.main_v46) :
    Rv V' Cert.ReferenceIdeal.main_v61 = Kv m ρ c Cert.KernelIdeal.main_v66 := by
  have ha10 : R V' Cert.ReferenceIdeal.main_arg10 = Wf m ρ c Cert.KernelIdeal.main_arg10 := hA.a10
  have hAh' : R V' Cert.ReferenceIdeal.main_v7 = Wf m ρ c Cert.KernelIdeal.main_v46 := hAh
  show R V' Cert.ReferenceIdeal.main_v61 = Wf m ρ c Cert.KernelIdeal.main_v66
  rw [
    Cert.ReferenceIdeal.HandV.r_65 V', Cert.ReferenceIdeal.HandV.r_64 V', Cert.ReferenceIdeal.HandV.r_63 V', Cert.ReferenceIdeal.HandV.r_62 V', Cert.ReferenceIdeal.HandV.r_61 V', Cert.ReferenceIdeal.HandV.r_60 V',
    Cert.ReferenceIdeal.HandV.r_59 V', Cert.ReferenceIdeal.HandV.r_58 V', Cert.ReferenceIdeal.HandV.r_57 V',
    Cert.KernelIdeal.HandV.k_h2_20 m ρ c, Cert.KernelIdeal.HandV.k_h2_19 m ρ c, Cert.KernelIdeal.HandV.k_h2_18 m ρ c, Cert.KernelIdeal.HandV.k_h2_17 m ρ c, Cert.KernelIdeal.HandV.k_h2_16 m ρ c, Cert.KernelIdeal.HandV.k_h2_15 m ρ c,
    Cert.KernelIdeal.HandV.k_h2_14 m ρ c, Cert.KernelIdeal.HandV.k_h2_13 m ρ c, Cert.KernelIdeal.HandV.k_h2_12 m ρ c,
    ha10, hAh']
  rfl

/-- The rows of the third layer's result selected by the fourth index argument. -/
theorem gather_bond2mol (hA : Agree m ρ c V') (hCu : Rv V' Cert.ReferenceIdeal.main_v39 = Kv m ρ c Cert.KernelIdeal.main_v50) :
    Rv V' Cert.ReferenceIdeal.main_v70 = Kv m ρ c Cert.KernelIdeal.main_v73 := by
  have ha12 : R V' Cert.ReferenceIdeal.main_arg12 = Wf m ρ c Cert.KernelIdeal.main_arg12 := hA.a12
  have hCu' : R V' Cert.ReferenceIdeal.main_v39 = Wf m ρ c Cert.KernelIdeal.main_v50 := hCu
  show R V' Cert.ReferenceIdeal.main_v70 = Wf m ρ c Cert.KernelIdeal.main_v73
  rw [
    Cert.ReferenceIdeal.HandV.r_76 V', Cert.ReferenceIdeal.HandV.r_75 V', Cert.ReferenceIdeal.HandV.r_74 V', Cert.ReferenceIdeal.HandV.r_73 V', Cert.ReferenceIdeal.HandV.r_72 V', Cert.ReferenceIdeal.HandV.r_71 V',
    Cert.ReferenceIdeal.HandV.r_70 V', Cert.ReferenceIdeal.HandV.r_69 V', Cert.ReferenceIdeal.HandV.r_68 V',
    Cert.KernelIdeal.HandV.k_h2_29 m ρ c, Cert.KernelIdeal.HandV.k_h2_28 m ρ c, Cert.KernelIdeal.HandV.k_h2_27 m ρ c, Cert.KernelIdeal.HandV.k_h2_26 m ρ c, Cert.KernelIdeal.HandV.k_h2_25 m ρ c, Cert.KernelIdeal.HandV.k_h2_24 m ρ c,
    Cert.KernelIdeal.HandV.k_h2_23 m ρ c, Cert.KernelIdeal.HandV.k_h2_22 m ρ c, Cert.KernelIdeal.HandV.k_h2_21 m ρ c,
    ha12, hCu']
  rfl

end Cert.Bridge

end
-- ==== Proof.Bridge.Messages.lean ====
/-
  The message stretch both programs share: the second layer's result gathered by both index arguments and stacked,
  weighted by the stacked gate, scatter-added over the stacked indices (the numerator); the stacked gate scatter-added the
  same way, plus a small constant (the denominator); and the sixth layer's result gathered by the third index argument.
  Both programs spell each with the same operations; from equal inputs the results are equal.
-/
import proofs.«180658_j65867618451767_1_alg».proof.Proof.Bridge.Base

set_option maxRecDepth 16384

noncomputable section

namespace Cert.Bridge

open Idealize.ShloMosaic Idealize.ShloMosaic.TcCoe Idealize.ShloMosaic.StableHlo
open Cert.ReferenceIdeal.HandV (R)
open Cert.KernelIdeal.HandV (Wf)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-- The numerator: the weighted messages scatter-added to their atoms. -/
theorem messages_num (hA : Agree m ρ c V') (hEh : Rv V' Cert.ReferenceIdeal.main_v23 = Kv m ρ c Cert.KernelIdeal.main_v48) (hsig : Rv V' Cert.ReferenceIdeal.main_v103 = Kv m ρ c Cert.KernelIdeal.main_v83_1) :
    Rv V' Cert.ReferenceIdeal.main_v124 = Kv m ρ c Cert.KernelIdeal.main_v104 := by
  have ha9 : R V' Cert.ReferenceIdeal.main_arg9 = Wf m ρ c Cert.KernelIdeal.main_arg9 := hA.a9
  have ha10 : R V' Cert.ReferenceIdeal.main_arg10 = Wf m ρ c Cert.KernelIdeal.main_arg10 := hA.a10
  have hEh' : R V' Cert.ReferenceIdeal.main_v23 = Wf m ρ c Cert.KernelIdeal.main_v48 := hEh
  have hsig' : R V' Cert.ReferenceIdeal.main_v103 = Wf m ρ c Cert.KernelIdeal.main_v83_1 := hsig
  show R V' Cert.ReferenceIdeal.main_v124 = Wf m ρ c Cert.KernelIdeal.main_v104
  rw [
    Cert.ReferenceIdeal.HandV.r_176 V', Cert.ReferenceIdeal.HandV.r_175 V', Cert.ReferenceIdeal.HandV.r_174 V', Cert.ReferenceIdeal.HandV.r_173 V', Cert.ReferenceIdeal.HandV.r_172 V', Cert.ReferenceIdeal.HandV.r_171 V',
    Cert.ReferenceIdeal.HandV.r_170 V', Cert.ReferenceIdeal.HandV.r_169 V', Cert.ReferenceIdeal.HandV.r_168 V', Cert.ReferenceIdeal.HandV.r_167 V', Cert.ReferenceIdeal.HandV.r_166 V', Cert.ReferenceIdeal.HandV.r_165 V',
    Cert.ReferenceIdeal.HandV.r_164 V', Cert.ReferenceIdeal.HandV.r_163 V', Cert.ReferenceIdeal.HandV.r_162 V', Cert.ReferenceIdeal.HandV.r_161 V', Cert.ReferenceIdeal.HandV.r_160 V', Cert.ReferenceIdeal.HandV.r_159 V',
    Cert.ReferenceIdeal.HandV.r_158 V', Cert.ReferenceIdeal.HandV.r_157 V', Cert.ReferenceIdeal.HandV.r_156 V', Cert.ReferenceIdeal.HandV.r_155 V', Cert.ReferenceIdeal.HandV.r_154 V', Cert.ReferenceIdeal.HandV.r_153 V',
    Cert.ReferenceIdeal.HandV.r_152 V', Cert.ReferenceIdeal.HandV.r_151 V',
    Cert.KernelIdeal.HandV.k_h4_25 m ρ c, Cert.KernelIdeal.HandV.k_h4_24 m ρ c, Cert.KernelIdeal.HandV.k_h4_23 m ρ c, Cert.KernelIdeal.HandV.k_h4_22 m ρ c, Cert.KernelIdeal.HandV.k_h4_21 m ρ c, Cert.KernelIdeal.HandV.k_h4_20 m ρ c,
    Cert.KernelIdeal.HandV.k_h4_19 m ρ c, Cert.KernelIdeal.HandV.k_h4_18 m ρ c, Cert.KernelIdeal.HandV.k_h4_17 m ρ c, Cert.KernelIdeal.HandV.k_h4_16 m ρ c, Cert.KernelIdeal.HandV.k_h4_15 m ρ c, Cert.KernelIdeal.HandV.k_h4_14 m ρ c,
    Cert.KernelIdeal.HandV.k_h4_13 m ρ c, Cert.KernelIdeal.HandV.k_h4_12 m ρ c, Cert.KernelIdeal.HandV.k_h4_11 m ρ c, Cert.KernelIdeal.HandV.k_h4_10 m ρ c, Cert.KernelIdeal.HandV.k_h4_9 m ρ c, Cert.KernelIdeal.HandV.k_h4_8 m ρ c,
    Cert.KernelIdeal.HandV.k_h4_7 m ρ c, Cert.KernelIdeal.HandV.k_h4_6 m ρ c, Cert.KernelIdeal.HandV.k_h4_5 m ρ c, Cert.KernelIdeal.HandV.k_h4_4 m ρ c, Cert.KernelIdeal.HandV.k_h4_3 m ρ c, Cert.KernelIdeal.HandV.k_h4_2 m ρ c,
    Cert.KernelIdeal.HandV.k_h4_1 m ρ c, Cert.KernelIdeal.HandV.k_h4_0 m ρ c,
    ha9, ha10, hEh', hsig']
  rfl

/-- The denominator: the gate scatter-added to the atoms, plus the constant. -/
theorem messages_den (hA : Agree m ρ c V') (hsig : Rv V' Cert.ReferenceIdeal.main_v103 = Kv m ρ c Cert.KernelIdeal.main_v83_1) :
    Rv V' Cert.ReferenceIdeal.main_v129 = Kv m ρ c Cert.KernelIdeal.main_v109 := by
  have ha9 : R V' Cert.ReferenceIdeal.main_arg9 = Wf m ρ c Cert.KernelIdeal.main_arg9 := hA.a9
  have ha10 : R V' Cert.ReferenceIdeal.main_arg10 = Wf m ρ c Cert.KernelIdeal.main_arg10 := hA.a10
  have hsig' : R V' Cert.ReferenceIdeal.main_v103 = Wf m ρ c Cert.KernelIdeal.main_v83_1 := hsig
  show R V' Cert.ReferenceIdeal.main_v129 = Wf m ρ c Cert.KernelIdeal.main_v109
  rw [
    Cert.ReferenceIdeal.HandV.r_183 V', Cert.ReferenceIdeal.HandV.r_182 V', Cert.ReferenceIdeal.HandV.r_181 V', Cert.ReferenceIdeal.HandV.r_180 V', Cert.ReferenceIdeal.HandV.r_179 V', Cert.ReferenceIdeal.HandV.r_178 V',
    Cert.ReferenceIdeal.HandV.r_177 V', Cert.ReferenceIdeal.HandV.r_171 V', Cert.ReferenceIdeal.HandV.r_151 V',
    Cert.KernelIdeal.HandV.k_h4_32 m ρ c, Cert.KernelIdeal.HandV.k_h4_31 m ρ c, Cert.KernelIdeal.HandV.k_h4_30 m ρ c, Cert.KernelIdeal.HandV.k_h4_29 m ρ c, Cert.KernelIdeal.HandV.k_h4_28 m ρ c, Cert.KernelIdeal.HandV.k_h4_27 m ρ c,
    Cert.KernelIdeal.HandV.k_h4_26 m ρ c, Cert.KernelIdeal.HandV.k_h4_20 m ρ c, Cert.KernelIdeal.HandV.k_h4_0 m ρ c,
    ha9, ha10, hsig']
  rfl

/-- The rows of the sixth layer's result selected by the third index argument. -/
theorem gather_atom2mol (hA : Agree m ρ c V') (hFu : Rv V' Cert.ReferenceIdeal.main_v47 = Kv m ρ c Cert.KernelIdeal.main_v51) :
    Rv V' Cert.ReferenceIdeal.main_v138 = Kv m ρ c Cert.KernelIdeal.main_v116 := by
  have ha11 : R V' Cert.ReferenceIdeal.main_arg11 = Wf m ρ c Cert.KernelIdeal.main_arg11 := hA.a11
  have hFu' : R V' Cert.ReferenceIdeal.main_v47 = Wf m ρ c Cert.KernelIdeal.main_v51 := hFu
  show R V' Cert.ReferenceIdeal.main_v138 = Wf m ρ c Cert.KernelIdeal.main_v116
  rw [
    Cert.ReferenceIdeal.HandV.r_194 V', Cert.ReferenceIdeal.HandV.r_193 V', Cert.ReferenceIdeal.HandV.r_192 V', Cert.ReferenceIdeal.HandV.r_191 V', Cert.ReferenceIdeal.HandV.r_190 V', Cert.ReferenceIdeal.HandV.r_189 V',
    Cert.ReferenceIdeal.HandV.r_188 V', Cert.ReferenceIdeal.HandV.r_187 V', Cert.ReferenceIdeal.HandV.r_186 V',
    Cert.KernelIdeal.HandV.k_h4_41 m ρ c, Cert.KernelIdeal.HandV.k_h4_40 m ρ c, Cert.KernelIdeal.HandV.k_h4_39 m ρ c, Cert.KernelIdeal.HandV.k_h4_38 m ρ c, Cert.KernelIdeal.HandV.k_h4_37 m ρ c, Cert.KernelIdeal.HandV.k_h4_36 m ρ c,
    Cert.KernelIdeal.HandV.k_h4_35 m ρ c, Cert.KernelIdeal.HandV.k_h4_34 m ρ c, Cert.KernelIdeal.HandV.k_h4_33 m ρ c,
    ha11, hFu']
  rfl

end Cert.Bridge

end
-- ==== Proof.Bridge.Pool.lean ====
/-
  The pooling stretch both programs share: per graph, the mean of the atoms' rows and the mean of the bonds' rows — each a
  scatter-add of the rows over the graph indices divided by the count of rows (a scatter-add of ones, at least one) —
  added. Both programs spell it with the same operations; from equal inputs the results are equal.
-/
import proofs.«180658_j65867618451767_1_alg».proof.Proof.Bridge.Base

set_option maxRecDepth 16384

noncomputable section

namespace Cert.Bridge

open Idealize.ShloMosaic Idealize.ShloMosaic.TcCoe Idealize.ShloMosaic.StableHlo
open Cert.ReferenceIdeal.HandV (R)
open Cert.KernelIdeal.HandV (Wf)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-- The two per-graph means, added. -/
theorem pool_means (hA : Agree m ρ c V') (hGh : Rv V' Cert.ReferenceIdeal.main_v173 = Kv m ρ c Cert.KernelIdeal.main_v127_0) (hHe : Rv V' Cert.ReferenceIdeal.main_v181 = Kv m ρ c Cert.KernelIdeal.main_v127_1) :
    Rv V' Cert.ReferenceIdeal.main_v212 = Kv m ρ c Cert.KernelIdeal.main_v150 := by
  have ha11 : R V' Cert.ReferenceIdeal.main_arg11 = Wf m ρ c Cert.KernelIdeal.main_arg11 := hA.a11
  have ha12 : R V' Cert.ReferenceIdeal.main_arg12 = Wf m ρ c Cert.KernelIdeal.main_arg12 := hA.a12
  have hGh' : R V' Cert.ReferenceIdeal.main_v173 = Wf m ρ c Cert.KernelIdeal.main_v127_0 := hGh
  have hHe' : R V' Cert.ReferenceIdeal.main_v181 = Wf m ρ c Cert.KernelIdeal.main_v127_1 := hHe
  show R V' Cert.ReferenceIdeal.main_v212 = Wf m ρ c Cert.KernelIdeal.main_v150
  rw [
    Cert.ReferenceIdeal.HandV.r_315 V', Cert.ReferenceIdeal.HandV.r_314 V', Cert.ReferenceIdeal.HandV.r_313 V', Cert.ReferenceIdeal.HandV.r_312 V', Cert.ReferenceIdeal.HandV.r_311 V', Cert.ReferenceIdeal.HandV.r_310 V',
    Cert.ReferenceIdeal.HandV.r_309 V', Cert.ReferenceIdeal.HandV.r_308 V', Cert.ReferenceIdeal.HandV.r_307 V', Cert.ReferenceIdeal.HandV.r_306 V', Cert.ReferenceIdeal.HandV.r_305 V', Cert.ReferenceIdeal.HandV.r_304 V',
    Cert.ReferenceIdeal.HandV.r_303 V', Cert.ReferenceIdeal.HandV.r_302 V', Cert.ReferenceIdeal.HandV.r_301 V', Cert.ReferenceIdeal.HandV.r_300 V', Cert.ReferenceIdeal.HandV.r_299 V', Cert.ReferenceIdeal.HandV.r_298 V',
    Cert.ReferenceIdeal.HandV.r_297 V', Cert.ReferenceIdeal.HandV.r_296 V', Cert.ReferenceIdeal.HandV.r_295 V', Cert.ReferenceIdeal.HandV.r_294 V', Cert.ReferenceIdeal.HandV.r_293 V', Cert.ReferenceIdeal.HandV.r_292 V',
    Cert.ReferenceIdeal.HandV.r_291 V', Cert.ReferenceIdeal.HandV.r_290 V', Cert.ReferenceIdeal.HandV.r_289 V', Cert.ReferenceIdeal.HandV.r_288 V', Cert.ReferenceIdeal.HandV.r_287 V', Cert.ReferenceIdeal.HandV.r_286 V',
    Cert.ReferenceIdeal.HandV.r_285 V',
    Cert.KernelIdeal.HandV.k_h7_30 m ρ c, Cert.KernelIdeal.HandV.k_h7_29 m ρ c, Cert.KernelIdeal.HandV.k_h7_28 m ρ c, Cert.KernelIdeal.HandV.k_h7_27 m ρ c, Cert.KernelIdeal.HandV.k_h7_26 m ρ c, Cert.KernelIdeal.HandV.k_h7_25 m ρ c,
    Cert.KernelIdeal.HandV.k_h7_24 m ρ c, Cert.KernelIdeal.HandV.k_h7_23 m ρ c, Cert.KernelIdeal.HandV.k_h7_22 m ρ c, Cert.KernelIdeal.HandV.k_h7_21 m ρ c, Cert.KernelIdeal.HandV.k_h7_20 m ρ c, Cert.KernelIdeal.HandV.k_h7_19 m ρ c,
    Cert.KernelIdeal.HandV.k_h7_18 m ρ c, Cert.KernelIdeal.HandV.k_h7_17 m ρ c, Cert.KernelIdeal.HandV.k_h7_16 m ρ c, Cert.KernelIdeal.HandV.k_h7_15 m ρ c, Cert.KernelIdeal.HandV.k_h7_14 m ρ c, Cert.KernelIdeal.HandV.k_h7_13 m ρ c,
    Cert.KernelIdeal.HandV.k_h7_12 m ρ c, Cert.KernelIdeal.HandV.k_h7_11 m ρ c, Cert.KernelIdeal.HandV.k_h7_10 m ρ c, Cert.KernelIdeal.HandV.k_h7_9 m ρ c, Cert.KernelIdeal.HandV.k_h7_8 m ρ c, Cert.KernelIdeal.HandV.k_h7_7 m ρ c,
    Cert.KernelIdeal.HandV.k_h7_6 m ρ c, Cert.KernelIdeal.HandV.k_h7_5 m ρ c, Cert.KernelIdeal.HandV.k_h7_4 m ρ c, Cert.KernelIdeal.HandV.k_h7_3 m ρ c, Cert.KernelIdeal.HandV.k_h7_2 m ρ c, Cert.KernelIdeal.HandV.k_h7_1 m ρ c,
    Cert.KernelIdeal.HandV.k_h7_0 m ρ c,
    ha11, ha12, hGh', hHe']
  rfl

end Cert.Bridge

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KI.Val2.lean ====
/-
  Region 2, the values: what each case of the body leaves in the three output buffers, as the body's own arithmetic
  (the skeleton's payloads) of the blocks it loaded. The first output's block is the row values themselves; each of the two
  [1,64] outputs is "what the buffer held, plus this block's column sum" — at the first point on top of the zeros just stored,
  at a later point on top of the running contents.
-/
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic
import proofs.«180658_j65867618451767_1_alg».proof.Proof.KI.Reg2
import Idealize.ShloMosaic.Lib.Pipeline.Value
import proofs.«180658_j65867618451767_1_alg».proof.Proof.KI.ValMm
import proofs.«180658_j65867618451767_1_alg».proof.Proof.LibKeepdims
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem out2_A_5_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 x1 x2 x3 : Vec F S10000x64 .f32) (x4 : Vec F S10000x1 .f32) :
    out2_A_5 c i arg1 harg1 arg2 harg2 arg3 harg3 arg4 harg4 arg5 harg5 arg6 harg6 arg7 harg7 arg8 harg8 hc0 x0 x1 x2 x3 x4 = k2_pay1 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out2_A_6_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 x1 x2 x3 : Vec F S10000x64 .f32) (x4 : Vec F S10000x1 .f32) :
    out2_A_6 c i arg1 harg1 arg2 harg2 arg3 harg3 arg4 harg4 arg5 harg5 arg6 harg6 arg7 harg7 arg8 harg8 hc0 x0 x1 x2 x3 x4 = k2_pay4 x0 x1 x2 x3 x4 (k2_pay2 (F := F)) := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out2_A_7_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond2_0 i)
    (x0 x1 x2 x3 : Vec F S10000x64 .f32) (x4 : Vec F S10000x1 .f32) :
    out2_A_7 c i arg1 harg1 arg2 harg2 arg3 harg3 arg4 harg4 arg5 harg5 arg6 harg6 arg7 harg7 arg8 harg8 hc0 x0 x1 x2 x3 x4 = k2_pay5 x0 x1 x2 x3 x4 (k2_pay3 (F := F)) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out2_B_5_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 x1 x2 x3 : Vec F S10000x64 .f32) (x4 : Vec F S10000x1 .f32) (xo6 xo7 : Vec F S1x64 .f32) :
    out2_B_5 c i arg1 harg1 arg2 harg2 arg3 harg3 arg4 harg4 arg5 harg5 arg6 harg6 arg7 harg7 arg8 harg8 hc0 x0 x1 x2 x3 x4 xo6 xo7 = k2_pay1 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out2_B_6_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 x1 x2 x3 : Vec F S10000x64 .f32) (x4 : Vec F S10000x1 .f32) (xo6 xo7 : Vec F S1x64 .f32) :
    out2_B_6 c i arg1 harg1 arg2 harg2 arg3 harg3 arg4 harg4 arg5 harg5 arg6 harg6 arg7 harg7 arg8 harg8 hc0 x0 x1 x2 x3 x4 xo6 xo7 = k2_pay4 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out2_B_7_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i)
    (x0 x1 x2 x3 : Vec F S10000x64 .f32) (x4 : Vec F S10000x1 .f32) (xo6 xo7 : Vec F S1x64 .f32) :
    out2_B_7 c i arg1 harg1 arg2 harg2 arg3 harg3 arg4 harg4 arg5 harg5 arg6 harg6 arg7 harg7 arg8 harg8 hc0 x0 x1 x2 x3 x4 xo6 xo7 = k2_pay5 x0 x1 x2 x3 x4 xo7 := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

/-! # The values on the extended reals

    From here on the float instance is the extended reals. The first output array is the row values, block by block;
    the two [1,64] outputs are the column sums of the row values and of their squares over all 250000 rows, built up
    point by point in their one staging buffer and written back at the last point. -/

section AtIdeal

open scoped BigOperators
open Idealize.ShloMosaic.ValueIdx

/-! ## On the extended reals: the payloads at an index -/

/-- The row values at row `y`, column `q` of a block: the four summands added left to right, times the row's
    scale (the [10000,1] column read at its one column). The same-shape casts are the identity. -/
theorem rowVals2_at (x0 x1 x2 x3 : Vec Ideal S10000x64 .f32) (x4 : Vec Ideal S10000x1 .f32) (y : Fin 10000) (q : Fin 64) :
    k2_pay1 (F := Ideal) x0 x1 x2 x3 x4 (ix2 y q)
      = (((x0 (ix2 y q) + x1 (ix2 y q)) + x2 (ix2 y q)) + x3 (ix2 y q)) * x4 (ix2 y (0 : Fin 1)) := by
  unfold k2_pay1
  have h0 : shapeCast S10000x64 x0 shapeCasts_S10000x64_S10000x64 = x0 := shapeCast_self _ _
  have h1 : shapeCast S10000x64 x1 shapeCasts_S10000x64_S10000x64 = x1 := shapeCast_self _ _
  have h2 : shapeCast S10000x64 x2 shapeCasts_S10000x64_S10000x64 = x2 := shapeCast_self _ _
  have h3 : shapeCast S10000x64 x3 shapeCasts_S10000x64_S10000x64 = x3 := shapeCast_self _ _
  have hb : broadcastTo S10000x64 x4 broadcasts_S10000x1_S10000x64 (ix2 y q) = x4 (ix2 y (0 : Fin 1)) :=
    Cert.LibKeepdims.broadcastTo_a1_ab_apply x4 broadcasts_S10000x1_S10000x64 y q
  show (((shapeCast S10000x64 x0 shapeCasts_S10000x64_S10000x64 (ix2 y q) + shapeCast S10000x64 x1 shapeCasts_S10000x64_S10000x64 (ix2 y q))
      + shapeCast S10000x64 x2 shapeCasts_S10000x64_S10000x64 (ix2 y q)) + shapeCast S10000x64 x3 shapeCasts_S10000x64_S10000x64 (ix2 y q))
      * broadcastTo S10000x64 x4 broadcasts_S10000x1_S10000x64 (ix2 y q) = _
  rw [h0, h1, h2, h3, hb]

/-- The running column sum after a block: what the buffer held, plus the block's column sum of the row values. -/
theorem sumAcc2_at (x0 x1 x2 x3 : Vec Ideal S10000x64 .f32) (x4 : Vec Ideal S10000x1 .f32) (v : Vec Ideal S1x64 .f32) (q : Fin 64) :
    k2_pay4 (F := Ideal) x0 x1 x2 x3 x4 v (ix2 (0 : Fin 1) q)
      = v (ix2 (0 : Fin 1) q) + ∑ y : Fin 10000, k2_pay1 (F := Ideal) x0 x1 x2 x3 x4 (ix2 y q) := by
  unfold k2_pay4
  have hv : shapeCast S1x64 v shapeCasts_S1x64_S1x64 = v := shapeCast_self _ _
  show shapeCast S1x64 v shapeCasts_S1x64_S1x64 (ix2 (0 : Fin 1) q)
      + shapeCast S1x64 (multiReduction (F := Ideal) .add [0] S64 (k2_pay1 (F := Ideal) x0 x1 x2 x3 x4) 0x00000000#32 reduces_S10000x64_S64 (.inl rfl) rfl) shapeCasts_S64_S1x64 (ix2 (0 : Fin 1) q) = _
  rw [hv]
  exact congrArg (v (ix2 (0 : Fin 1) q) + ·) (colSum_at (k2_pay1 (F := Ideal) x0 x1 x2 x3 x4) rfl q)

/-- The running column sum of squares after a block: what the buffer held, plus the block's column sum of the squared
    row values. -/
theorem sqAcc2_at (x0 x1 x2 x3 : Vec Ideal S10000x64 .f32) (x4 : Vec Ideal S10000x1 .f32) (v : Vec Ideal S1x64 .f32) (q : Fin 64) :
    k2_pay5 (F := Ideal) x0 x1 x2 x3 x4 v (ix2 (0 : Fin 1) q)
      = v (ix2 (0 : Fin 1) q) + ∑ y : Fin 10000, k2_pay1 (F := Ideal) x0 x1 x2 x3 x4 (ix2 y q) * k2_pay1 (F := Ideal) x0 x1 x2 x3 x4 (ix2 y q) := by
  unfold k2_pay5
  have hv : shapeCast S1x64 v shapeCasts_S1x64_S1x64 = v := shapeCast_self _ _
  show shapeCast S1x64 v shapeCasts_S1x64_S1x64 (ix2 (0 : Fin 1) q)
      + shapeCast S1x64 (multiReduction (F := Ideal) .add [0] S64 (mulf (k2_pay1 (F := Ideal) x0 x1 x2 x3 x4) (k2_pay1 (F := Ideal) x0 x1 x2 x3 x4)) 0x00000000#32 reduces_S10000x64_S64 (.inl rfl) rfl) shapeCasts_S64_S1x64 (ix2 (0 : Fin 1) q) = _
  rw [hv]
  exact congrArg (v (ix2 (0 : Fin 1) q) + ·) (colSum_at (mulf (k2_pay1 (F := Ideal) x0 x1 x2 x3 x4) (k2_pay1 (F := Ideal) x0 x1 x2 x3 x4)) rfl q)

/-- The zero row stored at the first point reads 0 everywhere. -/
theorem zeroRowA2_at (j : S1x64.Idx) : k2_pay2 (F := Ideal) j = 0 := by
  unfold k2_pay2
  show Ideal.ofBits .f32 0x00000000#32 = 0
  exact Ideal.ofBits_zero_f32

theorem zeroRowB2_at (j : S1x64.Idx) : k2_pay3 (F := Ideal) j = 0 := by
  unfold k2_pay3
  show Ideal.ofBits .f32 0x00000000#32 = 0
  exact Ideal.ofBits_zero_f32

/-! ## The specification of the row values -/

/-- Entry (r, q) of the first output: the four summands added left to right, times row `r`'s scale. -/
def G2_5 (A0 A1 A2 A3 : S250000x64.Idx → EReal) (A4 : S250000x1.Idx → EReal) : S250000x64.Idx → EReal :=
  fun i => (((A0 i + A1 i) + A2 i) + A3 i) * A4 (ix2 (i 0 : Fin 250000) (0 : Fin 1))

/-! ## From blocks to the arrays -/

/-- The printed index maps, decided over the grid: the five inputs' and the first output's blocks are block `t` of
    their arrays at point `t`; the two [1,64] outputs stay at their one block. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- Row `y` of block `t` is row 10000·t + y of the array. -/
def rowOf2 (t : Fin cfg2.N) (y : Fin 10000) : Fin 250000 :=
  ⟨t.val * 10000 + y.val, by have h1 := t.isLt; have h2 := y.isLt; have hN : cfg2.N = 25 := N_2; omega⟩

set_option maxHeartbeats 1000000 in
/-- The row values of the blocks at point `t` are the specification's at the rows of block `t`: a block's coordinate is
    its index times the block's extent plus the coordinate inside the block. -/
theorem rowVals2_block (V : (c : Dev nD) → (b : Ref sig .tc) → Buf (Elt Ideal) ((c : Thread nD τ).loc b)) (c : Dev nD) (t : Fin cfg2.N) (y : Fin 10000) (q : Fin 64) :
    k2_pay1 (F := Ideal) (iblk2 V c 0 t) (iblk2 V c 1 t) (iblk2 V c 2 t) (iblk2 V c 3 t) (iblk2 V c 4 t) (ix2 y q) = G2_5 (V c (Pipeline.arrRef spec2 0)) (V c (Pipeline.arrRef spec2 1)) (V c (Pipeline.arrRef spec2 2)) (V c (Pipeline.arrRef spec2 3)) (V c (Pipeline.arrRef spec2 4)) (ix2 (rowOf2 t y) q) := by
  obtain ⟨e0, e1, e2, e3, e4, e5, e6, e7, e8, e9, e10, e11, e12, e13, e14, e15⟩ := idx_facts2 t
  refine (rowVals2_at (iblk2 V c 0 t) (iblk2 V c 1 t) (iblk2 V c 2 t) (iblk2 V c 3 t) (iblk2 V c 4 t) y q).trans ?_
  have hx0 : ((cfg2.win 0).blk t).view.emb (ix2 y q) = ix2 (rowOf2 t y) q := by
    funext a; apply Fin.ext
    match a with
    | ⟨0, _⟩ => show win2_0.index t (0 : Fin 2) * 10000 + 1 * y.val = t.val * 10000 + y.val; omega
    | ⟨1, _⟩ => show win2_0.index t (1 : Fin 2) * 64 + 1 * q.val = q.val; omega
  have hx1 : ((cfg2.win 1).blk t).view.emb (ix2 y q) = ix2 (rowOf2 t y) q := by
    funext a; apply Fin.ext
    match a with
    | ⟨0, _⟩ => show win2_1.index t (0 : Fin 2) * 10000 + 1 * y.val = t.val * 10000 + y.val; omega
    | ⟨1, _⟩ => show win2_1.index t (1 : Fin 2) * 64 + 1 * q.val = q.val; omega
  have hx2 : ((cfg2.win 2).blk t).view.emb (ix2 y q) = ix2 (rowOf2 t y) q := by
    funext a; apply Fin.ext
    match a with
    | ⟨0, _⟩ => show win2_2.index t (0 : Fin 2) * 10000 + 1 * y.val = t.val * 10000 + y.val; omega
    | ⟨1, _⟩ => show win2_2.index t (1 : Fin 2) * 64 + 1 * q.val = q.val; omega
  have hx3 : ((cfg2.win 3).blk t).view.emb (ix2 y q) = ix2 (rowOf2 t y) q := by
    funext a; apply Fin.ext
    match a with
    | ⟨0, _⟩ => show win2_3.index t (0 : Fin 2) * 10000 + 1 * y.val = t.val * 10000 + y.val; omega
    | ⟨1, _⟩ => show win2_3.index t (1 : Fin 2) * 64 + 1 * q.val = q.val; omega
  have hx4 : ((cfg2.win 4).blk t).view.emb (ix2 y (0 : Fin 1)) = ix2 (rowOf2 t y) (0 : Fin 1) := by
    funext a; apply Fin.ext
    match a with
    | ⟨0, _⟩ => show win2_4.index t (0 : Fin 2) * 10000 + 1 * y.val = t.val * 10000 + y.val; omega
    | ⟨1, _⟩ => show win2_4.index t (1 : Fin 2) * 1 + 1 * 0 = 0; omega
  unfold G2_5
  refine congrArg₂ (· * ·) (congrArg₂ (· + ·) (congrArg₂ (· + ·) (congrArg₂ (· + ·) ?_ ?_) ?_) ?_) ?_
  · exact congrArg (V c (Pipeline.arrRef spec2 0)) hx0
  · exact congrArg (V c (Pipeline.arrRef spec2 1)) hx1
  · exact congrArg (V c (Pipeline.arrRef spec2 2)) hx2
  · exact congrArg (V c (Pipeline.arrRef spec2 3)) hx3
  · exact congrArg (V c (Pipeline.arrRef spec2 4)) hx4

set_option maxHeartbeats 1000000 in
/-- After the body at any point the first output's buffer holds the row values of that point's blocks: in either
    case of the body the first output's one store is of the row values. -/
theorem outs2_rows (V : (c : Dev nD) → (b : Ref sig .tc) → Buf (Elt Ideal) ((c : Thread nD τ).loc b)) (c : Dev nD) (t : Fin cfg2.N) :
    (outsAt2 V c t.val t.isLt).1 = k2_pay1 (F := Ideal) (iblk2 V c 0 t) (iblk2 V c 1 t) (iblk2 V c 2 t) (iblk2 V c 3 t) (iblk2 V c 4 t) := by
  by_cases h0 : t.val % 25 = 0
  · rw [outsAt2_A V c t h0]
    dsimp only
    exact out2_A_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact out2_B_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2

/-- Block `s`'s contribution to column `q` of the running sum: the column sum of its row values (0 past the grid). -/
def blockSum2 (V : (c : Dev nD) → (b : Ref sig .tc) → Buf (Elt Ideal) ((c : Thread nD τ).loc b)) (c : Dev nD) (q : Fin 64) (s : ℕ) : EReal :=
  if h : s < cfg2.N then ∑ y : Fin 10000, k2_pay1 (F := Ideal) (iblk2 V c 0 ⟨s, h⟩) (iblk2 V c 1 ⟨s, h⟩) (iblk2 V c 2 ⟨s, h⟩) (iblk2 V c 3 ⟨s, h⟩) (iblk2 V c 4 ⟨s, h⟩) (ix2 y q) else 0

/-- and to the running sum of squares. -/
def blockSq2 (V : (c : Dev nD) → (b : Ref sig .tc) → Buf (Elt Ideal) ((c : Thread nD τ).loc b)) (c : Dev nD) (q : Fin 64) (s : ℕ) : EReal :=
  if h : s < cfg2.N then ∑ y : Fin 10000, k2_pay1 (F := Ideal) (iblk2 V c 0 ⟨s, h⟩) (iblk2 V c 1 ⟨s, h⟩) (iblk2 V c 2 ⟨s, h⟩) (iblk2 V c 3 ⟨s, h⟩) (iblk2 V c 4 ⟨s, h⟩) (ix2 y q) * k2_pay1 (F := Ideal) (iblk2 V c 0 ⟨s, h⟩) (iblk2 V c 1 ⟨s, h⟩) (iblk2 V c 2 ⟨s, h⟩) (iblk2 V c 3 ⟨s, h⟩) (iblk2 V c 4 ⟨s, h⟩) (ix2 y q) else 0

set_option maxHeartbeats 1000000 in
/-- By recursion on the point: after point `n` the buffer's column `q` holds the sum over the points up to `n` of
    their blocks' contributions — the first point adds to the zeros just stored, a later point to what the point
    before left. -/
theorem runSum2 (V : (c : Dev nD) → (b : Ref sig .tc) → Buf (Elt Ideal) ((c : Thread nD τ).loc b)) (c : Dev nD) (q : Fin 64) : ∀ (n : ℕ) (hn : n < cfg2.N),
    (outsAt2 V c n hn).2.1 (ix2 (0 : Fin 1) q) = ∑ s ∈ Finset.range (n + 1), blockSum2 V c q s
  | 0, hn => by
    have h6 : (outsAt2 V c 0 hn).2.1 = k2_pay4 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) :=
      (congrArg (fun p => p.2.1) (outsAt2_A V c ⟨0, hn⟩ (Nat.zero_mod _))).trans
        (out2_A_6_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
    rw [h6]
    refine (sumAcc2_at (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) q).trans ?_
    rw [zeroRowA2_at, zero_add, Finset.sum_range_one]
    unfold blockSum2
    rw [dif_pos hn]
  | n + 1, hn => by
    have hN : cfg2.N = 25 := N_2
    have h0 : ¬ (n + 1) % 25 = 0 := by omega
    have h6 : (outsAt2 V c (n + 1) hn).2.1 = k2_pay4 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 :=
      (congrArg (fun p => p.2.1) (outsAt2_B V c ⟨n + 1, hn⟩ h0)).trans
        (out2_B_6_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 (outsAt2 V c n (Nat.lt_of_succ_lt hn)).2.2)
    rw [h6]
    refine (sumAcc2_at (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 q).trans ?_
    rw [runSum2 V c q n (Nat.lt_of_succ_lt hn), Finset.sum_range_succ _ (n + 1)]
    refine congrArg (_ + ·) ?_
    unfold blockSum2
    rw [dif_pos hn]

set_option maxHeartbeats 1000000 in
/-- By recursion on the point: after point `n` the buffer's column `q` holds the sum over the points up to `n` of
    their blocks' contributions — the first point adds to the zeros just stored, a later point to what the point
    before left. -/
theorem runSq2 (V : (c : Dev nD) → (b : Ref sig .tc) → Buf (Elt Ideal) ((c : Thread nD τ).loc b)) (c : Dev nD) (q : Fin 64) : ∀ (n : ℕ) (hn : n < cfg2.N),
    (outsAt2 V c n hn).2.2 (ix2 (0 : Fin 1) q) = ∑ s ∈ Finset.range (n + 1), blockSq2 V c q s
  | 0, hn => by
    have h6 : (outsAt2 V c 0 hn).2.2 = k2_pay5 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (k2_pay3 (F := Ideal)) :=
      (congrArg (fun p => p.2.2) (outsAt2_A V c ⟨0, hn⟩ (Nat.zero_mod _))).trans
        (out2_A_7_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
    rw [h6]
    refine (sqAcc2_at (iblk2 V c 0 ⟨0, hn⟩) (iblk2 V c 1 ⟨0, hn⟩) (iblk2 V c 2 ⟨0, hn⟩) (iblk2 V c 3 ⟨0, hn⟩) (iblk2 V c 4 ⟨0, hn⟩) (k2_pay3 (F := Ideal)) q).trans ?_
    rw [zeroRowB2_at, zero_add, Finset.sum_range_one]
    unfold blockSq2
    rw [dif_pos hn]
  | n + 1, hn => by
    have hN : cfg2.N = 25 := N_2
    have h0 : ¬ (n + 1) % 25 = 0 := by omega
    have h6 : (outsAt2 V c (n + 1) hn).2.2 = k2_pay5 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.2 :=
      (congrArg (fun p => p.2.2) (outsAt2_B V c ⟨n + 1, hn⟩ h0)).trans
        (out2_B_7_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 (outsAt2 V c n (Nat.lt_of_succ_lt hn)).2.2)
    rw [h6]
    refine (sqAcc2_at (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.2 q).trans ?_
    rw [runSq2 V c q n (Nat.lt_of_succ_lt hn), Finset.sum_range_succ _ (n + 1)]
    refine congrArg (_ + ·) ?_
    unfold blockSq2
    rw [dif_pos hn]

/-! ## Output window 5: the row values, block by block -/

set_option maxHeartbeats 1000000 in
/-- What point `t` writes back is block `t` of the specification. -/
theorem flushed2_5_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal) (G2_5 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5, outs2_rows]
  obtain ⟨e0, e1, e2, e3, e4, e5, e6, e7, e8, e9, e10, e11, e12, e13, e14, e15⟩ := idx_facts2 t
  funext j
  obtain ⟨y, q, rfl⟩ : ∃ (y : Fin 10000) (q : Fin 64), j = ix2 y q := ⟨j 0, j 1, eq_ix2 j⟩
  have h5 : ((cfg2.win 5).blk t).view.emb (ix2 y q) = ix2 (rowOf2 t y) q := by
    funext a; apply Fin.ext
    match a with
    | ⟨0, _⟩ => show win2_5.index t (0 : Fin 2) * 10000 + 1 * y.val = t.val * 10000 + y.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 y q) = G2_5 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 y q))
  exact (rowVals2_block V c t y q).trans (congrArg (G2_5 (V c (Pipeline.arrRef spec2 0)) (V c (Pipeline.arrRef spec2 1)) (V c (Pipeline.arrRef spec2 2)) (V c (Pipeline.arrRef spec2 3)) (V c (Pipeline.arrRef spec2 4))) h5.symm)

/-- An index of the array is in point `t`'s block iff each coordinate is in the block's range on its axis. -/
theorem mem_blk2_5 (t : Fin cfg2.N) (i : S250000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v74_0).slice (win2_5.rect t)).set ↔ _
  rw [View.set_slice_whole, Rect.mem_set_unit]
  exact Iff.rfl

/-- Every index of the array is in some point's block: row `r` in the block of point `r / 10000`. -/
theorem covered2_5 (i : S250000x64.Idx) :
    ∃ t : Fin cfg2.N, (cfg2.win 5).flush t = true ∧ i ∈ ((cfg2.win 5).blk t).view.set := by
  have hi0 : (i 0).val < 250000 := (i 0).isLt
  have hi1 : (i 1).val < 64 := (i 1).isLt
  have hN : cfg2.N = 25 := N_2
  have ht : (i 0).val / 10000 < cfg2.N := by omega
  obtain ⟨e0, e1, e2, e3, e4, e5, e6, e7, e8, e9, e10, e11, e12, e13, e14, e15⟩ := idx_facts2 ⟨(i 0).val / 10000, ht⟩
  refine ⟨⟨(i 0).val / 10000, ht⟩, flush2_5 _, ?_⟩
  rw [mem_blk2_5]
  intro a
  match a with
  | ⟨0, _⟩ => show win2_5.index ⟨(i 0).val / 10000, ht⟩ (0 : Fin 2) * 10000 ≤ (i 0).val ∧ (i 0).val < win2_5.index ⟨(i 0).val / 10000, ht⟩ (0 : Fin 2) * 10000 + 10000; (have e : (⟨(i 0).val / 10000, ht⟩ : Fin cfg2.N).val = (i 0).val / 10000 := rfl); omega
  | ⟨1, _⟩ => show win2_5.index ⟨(i 0).val / 10000, ht⟩ (1 : Fin 2) * 64 ≤ (i 1).val ∧ (i 1).val < win2_5.index ⟨(i 0).val / 10000, ht⟩ (1 : Fin 2) * 64 + 64; omega

/-- The first output array after the region is the row values of the input arrays as the region finds them. -/
theorem final2_5 (V : (c : Dev nD) → (b : Ref sig .tc) → Buf (Elt Ideal) ((c : Thread nD τ).loc b)) (c : Dev nD) :
    (dat2 (F := Ideal) V c).arrAt 5 cfg2.N = G2_5 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2_5_eq V c t) covered2_5

/-! ## Output windows 6 and 7: the column sums of the row values and of their squares, over all rows -/

/-- Window 6's specification: the column sums of the row values over all 250000 rows. -/
def colTotals2 (G : S250000x64.Idx → EReal) : S1x64.Idx → EReal :=
  fun j => ∑ r : Fin 250000, G (ix2 r (j 1 : Fin 64))

/-- All 25 blocks' contributions are the sum over all 250000 rows: row 10000·s + y of the array is row `y` of block `s`. -/
theorem total2_6 (V : (c : Dev nD) → (b : Ref sig .tc) → Buf (Elt Ideal) ((c : Thread nD τ).loc b)) (c : Dev nD) (q : Fin 64) :
    ∑ s ∈ Finset.range 25, blockSum2 V c q s = colTotals2 (G2_5 (V c (Pipeline.arrRef spec2 0)) (V c (Pipeline.arrRef spec2 1)) (V c (Pipeline.arrRef spec2 2)) (V c (Pipeline.arrRef spec2 3)) (V c (Pipeline.arrRef spec2 4))) (ix2 (0 : Fin 1) q) := by
  have hN : cfg2.N = 25 := N_2
  unfold colTotals2
  show _ = ∑ r : Fin 250000, G2_5 (V c (Pipeline.arrRef spec2 0)) (V c (Pipeline.arrRef spec2 1)) (V c (Pipeline.arrRef spec2 2)) (V c (Pipeline.arrRef spec2 3)) (V c (Pipeline.arrRef spec2 4)) (ix2 r q)
  rw [sum_rows_by_block (fun r => G2_5 (V c (Pipeline.arrRef spec2 0)) (V c (Pipeline.arrRef spec2 1)) (V c (Pipeline.arrRef spec2 2)) (V c (Pipeline.arrRef spec2 3)) (V c (Pipeline.arrRef spec2 4)) (ix2 r q)), Finset.sum_range]
  refine Finset.sum_congr rfl fun s _ => ?_
  have hs : s.val < cfg2.N := by have := s.isLt; omega
  unfold blockSum2
  rw [dif_pos hs]
  refine Finset.sum_congr rfl fun y _ => ?_
  exact rowVals2_block V c ⟨s.val, hs⟩ y q

/-- Window 6's one block, read through the window, is the whole [1,64] row: a buffer that agrees with a row function
    at every column is that function's block. -/
theorem oneBlock2_6 (t : Fin cfg2.N) (X : Vec Ideal S1x64 .f32) (G : S1x64.Idx → EReal)
    (h : ∀ q : Fin 64, X (ix2 (0 : Fin 1) q) = G (ix2 (0 : Fin 1) q)) :
    (cfg2.win 6).cut (grid2.coords t) X = ((cfg2.win 6).blk t).view.read (Elt Ideal) G := by
  obtain ⟨e0, e1, e2, e3, e4, e5, e6, e7, e8, e9, e10, e11, e12, e13, e14, e15⟩ := idx_facts2 t
  funext j
  obtain ⟨u, q, rfl⟩ : ∃ (u : Fin 1) (q : Fin 64), j = ix2 u q := ⟨j 0, j 1, eq_ix2 j⟩
  have hu : u = 0 := Fin.ext (by have := u.isLt; omega)
  subst hu
  have hemb : ((cfg2.win 6).blk t).view.emb (ix2 (0 : Fin 1) q) = ix2 (0 : Fin 1) q := by
    funext a; apply Fin.ext
    match a with
    | ⟨0, _⟩ => show win2_6.index t (0 : Fin 2) * 1 + 1 * 0 = 0; omega
    | ⟨1, _⟩ => show win2_6.index t (1 : Fin 2) * 64 + 1 * q.val = q.val; omega
  show X (ix2 (0 : Fin 1) q) = G (((cfg2.win 6).blk t).view.emb (ix2 (0 : Fin 1) q))
  exact (h q).trans (congrArg G hemb.symm)

set_option maxHeartbeats 1000000 in
/-- What the last point writes back to window 6's one block is the row of those sums. -/
theorem flushed2_6_eq (V : (c : Dev nD) → (b : Ref sig .tc) → Buf (Elt Ideal) ((c : Thread nD τ).loc b)) (c : Dev nD) (t : Fin cfg2.N) (hf : (cfg2.win 6).flush t = true) :
    (dat2 (F := Ideal) V c).flushed 6 t = ((cfg2.win 6).blk t).view.read (Elt Ideal) (colTotals2 (G2_5 (V c (Pipeline.arrRef spec2 0)) (V c (Pipeline.arrRef spec2 1)) (V c (Pipeline.arrRef spec2 2)) (V c (Pipeline.arrRef spec2 3)) (V c (Pipeline.arrRef spec2 4)))) := by
  have hN : cfg2.N = 25 := N_2
  have ht : t.val = 24 := by have h1 := (flush2_6 t).mp hf; have h2 := t.isLt; omega
  show (cfg2.win 6).cut (grid2.coords t) ((dat2 (F := Ideal) V c).after 6 t) = _
  rw [after2_6]
  refine oneBlock2_6 t _ _ fun q => ?_
  refine (runSum2 V c q t.val t.isLt).trans ?_
  rw [ht]
  exact total2_6 V c q

/-- An index of window 6's array is in point `t`'s block iff each coordinate is in the block's range on its axis. -/
theorem mem_blk2_6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v74_1).slice (win2_6.rect t)).set ↔ _
  rw [View.set_slice_whole, Rect.mem_set_unit]
  exact Iff.rfl

/-- The array is one block, written back at the last point. -/
theorem covered2_6 (i : S1x64.Idx) :
    ∃ t : Fin cfg2.N, (cfg2.win 6).flush t = true ∧ i ∈ ((cfg2.win 6).blk t).view.set := by
  have hi0 : (i 0).val < 1 := (i 0).isLt
  have hi1 : (i 1).val < 64 := (i 1).isLt
  have hN : cfg2.N = 25 := N_2
  have h24 : 24 < cfg2.N := by omega
  obtain ⟨e0, e1, e2, e3, e4, e5, e6, e7, e8, e9, e10, e11, e12, e13, e14, e15⟩ := idx_facts2 ⟨24, h24⟩
  refine ⟨⟨24, h24⟩, (flush2_6 ⟨24, h24⟩).mpr rfl, ?_⟩
  rw [mem_blk2_6]
  intro a
  match a with
  | ⟨0, _⟩ => show win2_6.index ⟨24, h24⟩ (0 : Fin 2) * 1 ≤ (i 0).val ∧ (i 0).val < win2_6.index ⟨24, h24⟩ (0 : Fin 2) * 1 + 1; omega
  | ⟨1, _⟩ => show win2_6.index ⟨24, h24⟩ (1 : Fin 2) * 64 ≤ (i 1).val ∧ (i 1).val < win2_6.index ⟨24, h24⟩ (1 : Fin 2) * 64 + 64; omega

/-- The array after the region is its specification, -/
theorem final2_6_named (V : (c : Dev nD) → (b : Ref sig .tc) → Buf (Elt Ideal) ((c : Thread nD τ).loc b)) (c : Dev nD) :
    (dat2 (F := Ideal) V c).arrAt 6 cfg2.N = colTotals2 (G2_5 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 6 _ (fun t hf => flushed2_6_eq V c t hf) covered2_6

/-- and the same with the specification written out. -/
theorem final2_6 (V : (c : Dev nD) → (b : Ref sig .tc) → Buf (Elt Ideal) ((c : Thread nD τ).loc b)) (c : Dev nD) :
    (dat2 (F := Ideal) V c).arrAt 6 cfg2.N = ((fun (j : S1x64.Idx) => ∑ r : Fin 250000, G2_5 (V c (Pipeline.arrRef spec2 0)) (V c (Pipeline.arrRef spec2 1)) (V c (Pipeline.arrRef spec2 2)) (V c (Pipeline.arrRef spec2 3)) (V c (Pipeline.arrRef spec2 4)) (ix2 r (j 1 : Fin 64))) : S1x64.Idx → EReal) :=
  final2_6_named V c

/-- Window 7's specification: the column sums of the squared row values over all 250000 rows. -/
def colSqTotals2 (G : S250000x64.Idx → EReal) : S1x64.Idx → EReal :=
  fun j => ∑ r : Fin 250000, G (ix2 r (j 1 : Fin 64)) * G (ix2 r (j 1 : Fin 64))

/-- All 25 blocks' contributions are the sum over all 250000 rows: row 10000·s + y of the array is row `y` of block `s`. -/
theorem total2_7 (V : (c : Dev nD) → (b : Ref sig .tc) → Buf (Elt Ideal) ((c : Thread nD τ).loc b)) (c : Dev nD) (q : Fin 64) :
    ∑ s ∈ Finset.range 25, blockSq2 V c q s = colSqTotals2 (G2_5 (V c (Pipeline.arrRef spec2 0)) (V c (Pipeline.arrRef spec2 1)) (V c (Pipeline.arrRef spec2 2)) (V c (Pipeline.arrRef spec2 3)) (V c (Pipeline.arrRef spec2 4))) (ix2 (0 : Fin 1) q) := by
  have hN : cfg2.N = 25 := N_2
  unfold colSqTotals2
  show _ = ∑ r : Fin 250000, G2_5 (V c (Pipeline.arrRef spec2 0)) (V c (Pipeline.arrRef spec2 1)) (V c (Pipeline.arrRef spec2 2)) (V c (Pipeline.arrRef spec2 3)) (V c (Pipeline.arrRef spec2 4)) (ix2 r q) * G2_5 (V c (Pipeline.arrRef spec2 0)) (V c (Pipeline.arrRef spec2 1)) (V c (Pipeline.arrRef spec2 2)) (V c (Pipeline.arrRef spec2 3)) (V c (Pipeline.arrRef spec2 4)) (ix2 r q)
  rw [sum_rows_by_block (fun r => G2_5 (V c (Pipeline.arrRef spec2 0)) (V c (Pipeline.arrRef spec2 1)) (V c (Pipeline.arrRef spec2 2)) (V c (Pipeline.arrRef spec2 3)) (V c (Pipeline.arrRef spec2 4)) (ix2 r q) * G2_5 (V c (Pipeline.arrRef spec2 0)) (V c (Pipeline.arrRef spec2 1)) (V c (Pipeline.arrRef spec2 2)) (V c (Pipeline.arrRef spec2 3)) (V c (Pipeline.arrRef spec2 4)) (ix2 r q)), Finset.sum_range]
  refine Finset.sum_congr rfl fun s _ => ?_
  have hs : s.val < cfg2.N := by have := s.isLt; omega
  unfold blockSq2
  rw [dif_pos hs]
  refine Finset.sum_congr rfl fun y _ => ?_
  exact congrArg₂ (· * ·) (rowVals2_block V c ⟨s.val, hs⟩ y q) (rowVals2_block V c ⟨s.val, hs⟩ y q)

/-- Window 7's one block, read through the window, is the whole [1,64] row: a buffer that agrees with a row function
    at every column is that function's block. -/
theorem oneBlock2_7 (t : Fin cfg2.N) (X : Vec Ideal S1x64 .f32) (G : S1x64.Idx → EReal)
    (h : ∀ q : Fin 64, X (ix2 (0 : Fin 1) q) = G (ix2 (0 : Fin 1) q)) :
    (cfg2.win 7).cut (grid2.coords t) X = ((cfg2.win 7).blk t).view.read (Elt Ideal) G := by
  obtain ⟨e0, e1, e2, e3, e4, e5, e6, e7, e8, e9, e10, e11, e12, e13, e14, e15⟩ := idx_facts2 t
  funext j
  obtain ⟨u, q, rfl⟩ : ∃ (u : Fin 1) (q : Fin 64), j = ix2 u q := ⟨j 0, j 1, eq_ix2 j⟩
  have hu : u = 0 := Fin.ext (by have := u.isLt; omega)
  subst hu
  have hemb : ((cfg2.win 7).blk t).view.emb (ix2 (0 : Fin 1) q) = ix2 (0 : Fin 1) q := by
    funext a; apply Fin.ext
    match a with
    | ⟨0, _⟩ => show win2_7.index t (0 : Fin 2) * 1 + 1 * 0 = 0; omega
    | ⟨1, _⟩ => show win2_7.index t (1 : Fin 2) * 64 + 1 * q.val = q.val; omega
  show X (ix2 (0 : Fin 1) q) = G (((cfg2.win 7).blk t).view.emb (ix2 (0 : Fin 1) q))
  exact (h q).trans (congrArg G hemb.symm)

set_option maxHeartbeats 1000000 in
/-- What the last point writes back to window 7's one block is the row of those sums. -/
theorem flushed2_7_eq (V : (c : Dev nD) → (b : Ref sig .tc) → Buf (Elt Ideal) ((c : Thread nD τ).loc b)) (c : Dev nD) (t : Fin cfg2.N) (hf : (cfg2.win 7).flush t = true) :
    (dat2 (F := Ideal) V c).flushed 7 t = ((cfg2.win 7).blk t).view.read (Elt Ideal) (colSqTotals2 (G2_5 (V c (Pipeline.arrRef spec2 0)) (V c (Pipeline.arrRef spec2 1)) (V c (Pipeline.arrRef spec2 2)) (V c (Pipeline.arrRef spec2 3)) (V c (Pipeline.arrRef spec2 4)))) := by
  have hN : cfg2.N = 25 := N_2
  have ht : t.val = 24 := by have h1 := (flush2_7 t).mp hf; have h2 := t.isLt; omega
  show (cfg2.win 7).cut (grid2.coords t) ((dat2 (F := Ideal) V c).after 7 t) = _
  rw [after2_7]
  refine oneBlock2_7 t _ _ fun q => ?_
  refine (runSq2 V c q t.val t.isLt).trans ?_
  rw [ht]
  exact total2_7 V c q

/-- An index of window 7's array is in point `t`'s block iff each coordinate is in the block's range on its axis. -/
theorem mem_blk2_7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v74_2).slice (win2_7.rect t)).set ↔ _
  rw [View.set_slice_whole, Rect.mem_set_unit]
  exact Iff.rfl

/-- The array is one block, written back at the last point. -/
theorem covered2_7 (i : S1x64.Idx) :
    ∃ t : Fin cfg2.N, (cfg2.win 7).flush t = true ∧ i ∈ ((cfg2.win 7).blk t).view.set := by
  have hi0 : (i 0).val < 1 := (i 0).isLt
  have hi1 : (i 1).val < 64 := (i 1).isLt
  have hN : cfg2.N = 25 := N_2
  have h24 : 24 < cfg2.N := by omega
  obtain ⟨e0, e1, e2, e3, e4, e5, e6, e7, e8, e9, e10, e11, e12, e13, e14, e15⟩ := idx_facts2 ⟨24, h24⟩
  refine ⟨⟨24, h24⟩, (flush2_7 ⟨24, h24⟩).mpr rfl, ?_⟩
  rw [mem_blk2_7]
  intro a
  match a with
  | ⟨0, _⟩ => show win2_7.index ⟨24, h24⟩ (0 : Fin 2) * 1 ≤ (i 0).val ∧ (i 0).val < win2_7.index ⟨24, h24⟩ (0 : Fin 2) * 1 + 1; omega
  | ⟨1, _⟩ => show win2_7.index ⟨24, h24⟩ (1 : Fin 2) * 64 ≤ (i 1).val ∧ (i 1).val < win2_7.index ⟨24, h24⟩ (1 : Fin 2) * 64 + 64; omega

/-- The array after the region is its specification, -/
theorem final2_7_named (V : (c : Dev nD) → (b : Ref sig .tc) → Buf (Elt Ideal) ((c : Thread nD τ).loc b)) (c : Dev nD) :
    (dat2 (F := Ideal) V c).arrAt 7 cfg2.N = colSqTotals2 (G2_5 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 7 _ (fun t hf => flushed2_7_eq V c t hf) covered2_7

/-- and the same with the specification written out. -/
theorem final2_7 (V : (c : Dev nD) → (b : Ref sig .tc) → Buf (Elt Ideal) ((c : Thread nD τ).loc b)) (c : Dev nD) :
    (dat2 (F := Ideal) V c).arrAt 7 cfg2.N = ((fun (j : S1x64.Idx) => ∑ r : Fin 250000, G2_5 (V c (Pipeline.arrRef spec2 0)) (V c (Pipeline.arrRef spec2 1)) (V c (Pipeline.arrRef spec2 2)) (V c (Pipeline.arrRef spec2 3)) (V c (Pipeline.arrRef spec2 4)) (ix2 r (j 1 : Fin 64)) * G2_5 (V c (Pipeline.arrRef spec2 0)) (V c (Pipeline.arrRef spec2 1)) (V c (Pipeline.arrRef spec2 2)) (V c (Pipeline.arrRef spec2 3)) (V c (Pipeline.arrRef spec2 4)) (ix2 r (j 1 : Fin 64))) : S1x64.Idx → EReal) :=
  final2_7_named V c

end AtIdeal

end Cert.KernelIdeal.HandV

end
-- ==== Proof.KI.RegEqs2.lean ====
/-
  Region 2's three output arrays at the last boundary: the row values, and the column sums of the row values and of their
  squares over all 250000 rows, as closed forms of the region's input arrays at the last boundary.
-/
import proofs.«180658_j65867618451767_1_alg».proof.Proof.KI.HostEqs
import proofs.«180658_j65867618451767_1_alg».proof.Proof.KI.Val2

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg)

theorem reg2_5 (c : Dev nD) :
    Wf m ρ c main_v74_0 = G2_5 (Wf m ρ c main_v59) (Wf m ρ c main_v66) (Wf m ρ c main_v45_1) (Wf m ρ c main_v73) (Wf m ρ c main_arg4) := by
  have h := (last_arr2 (F := Ideal) m ρ c 5 (by decide)).trans (final2_5 (En5 m ρ) c)
  rw [entry2 m ρ c (Pipeline.arrRef spec2 0) (by decide),
    entry2 m ρ c (Pipeline.arrRef spec2 1) (by decide),
    entry2 m ρ c (Pipeline.arrRef spec2 2) (by decide),
    entry2 m ρ c (Pipeline.arrRef spec2 3) (by decide),
    entry2 m ρ c (Pipeline.arrRef spec2 4) (by decide)] at h
  exact h

theorem reg2_6 (c : Dev nD) :
    Wf m ρ c main_v74_1 = ((fun (j : S1x64.Idx) => ∑ r : Fin 250000, G2_5 (Wf m ρ c main_v59) (Wf m ρ c main_v66) (Wf m ρ c main_v45_1) (Wf m ρ c main_v73) (Wf m ρ c main_arg4) (ix2 r (j 1 : Fin 64))) : S1x64.Idx → EReal) := by
  have h := (last_arr2 (F := Ideal) m ρ c 6 (by decide)).trans (final2_6 (En5 m ρ) c)
  rw [entry2 m ρ c (Pipeline.arrRef spec2 0) (by decide),
    entry2 m ρ c (Pipeline.arrRef spec2 1) (by decide),
    entry2 m ρ c (Pipeline.arrRef spec2 2) (by decide),
    entry2 m ρ c (Pipeline.arrRef spec2 3) (by decide),
    entry2 m ρ c (Pipeline.arrRef spec2 4) (by decide)] at h
  exact h

theorem reg2_7 (c : Dev nD) :
    Wf m ρ c main_v74_2 = ((fun (j : S1x64.Idx) => ∑ r : Fin 250000, G2_5 (Wf m ρ c main_v59) (Wf m ρ c main_v66) (Wf m ρ c main_v45_1) (Wf m ρ c main_v73) (Wf m ρ c main_arg4) (ix2 r (j 1 : Fin 64)) * G2_5 (Wf m ρ c main_v59) (Wf m ρ c main_v66) (Wf m ρ c main_v45_1) (Wf m ρ c main_v73) (Wf m ρ c main_arg4) (ix2 r (j 1 : Fin 64))) : S1x64.Idx → EReal) := by
  have h := (last_arr2 (F := Ideal) m ρ c 7 (by decide)).trans (final2_7 (En5 m ρ) c)
  rw [entry2 m ρ c (Pipeline.arrRef spec2 0) (by decide),
    entry2 m ρ c (Pipeline.arrRef spec2 1) (by decide),
    entry2 m ρ c (Pipeline.arrRef spec2 2) (by decide),
    entry2 m ρ c (Pipeline.arrRef spec2 3) (by decide),
    entry2 m ρ c (Pipeline.arrRef spec2 4) (by decide)] at h
  exact h

end Cert.KernelIdeal.HandV

end
-- ==== Proof.LibBatchNorm.lean ====
/-
  Batch-norm statistics on the extended reals, for real-valued data.
  The extended reals are not a field: distributing a product over a sum, or cancelling, fails at the infinities. On data
  whose every entry is a real number all of a batch norm's arithmetic stays inside the reals, where the two usual ways of
  writing a variance agree: the mean of the squared deviations from the mean, and the mean of the squares minus the
  square of the mean. Here: the reals' coercion through finite sums; the quotient by a non-zero real; the variance identity
  for a family of reals and its form on the extended reals; the variance is non-negative; and the closure of "is a real
  number" under the operations such a pipeline uses.
-/
import Idealize.ShloMosaic.PureOps.Ideal

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩

/-- The reals' coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (X : ι → EReal) (hX : ∀ i ∈ s, IsReal (X i)) : IsReal (∑ i ∈ s, X i) := by
  classical
  induction s using Finset.induction_on with
  | empty => simpa using isReal_zero
  | insert a s ha ih =>
    rw [Finset.sum_insert ha]
    exact (hX a (Finset.mem_insert_self a s)).add (ih fun i hi => hX i (Finset.mem_insert_of_mem hi))

/-- The quotient of a real by a non-zero real, as the exact division reads it. -/
theorem div_coe_coe (x y : ℝ) (hy : y ≠ 0) : Ideal.div (x : EReal) (y : EReal) = ((x / y : ℝ) : EReal) := by
  rw [Ideal.div_coe hy, ← EReal.coe_mul]
  congr 1
  rw [mul_one_div]

theorem IsReal.div_coe {x : EReal} (hx : IsReal x) {y : ℝ} (hy : y ≠ 0) : IsReal (Ideal.div x (y : EReal)) := by
  obtain ⟨a, rfl⟩ := hx; exact ⟨a / y, div_coe_coe a y hy⟩

/-- The reciprocal square root of a positive real is a real. -/
theorem isReal_rsqrt_pos {r : ℝ} (hr : 0 < r) : IsReal (Ideal.rsqrt (r : EReal)) := by
  refine ⟨(Real.sqrt r)⁻¹, ?_⟩
  show (if r < 0 then ⊥ else if r = 0 then ⊤ else (((Real.sqrt r)⁻¹ : ℝ) : EReal)) = _
  rw [if_neg (not_lt.mpr hr.le), if_neg hr.ne']

/-- The exponential of a real is a positive real. -/
theorem exp_coe (r : ℝ) : Ideal.exp (r : EReal) = ((Real.exp r : ℝ) : EReal) := rfl
theorem isReal_exp {x : EReal} (hx : IsReal x) : IsReal (Ideal.exp x) := by
  obtain ⟨a, rfl⟩ := hx; exact ⟨Real.exp a, rfl⟩

/-- THE VARIANCE IDENTITY over the reals: the mean of the squared deviations from the mean is the mean of the squares
    minus the square of the mean, for a family of `N` reals. -/
theorem real_var {ι : Type*} [Fintype ι] (x : ι → ℝ) (N : ℝ) (hN : N ≠ 0) (hc : (Fintype.card ι : ℝ) = N) :
    (∑ i, (x i - (∑ j, x j) / N) * (x i - (∑ j, x j) / N)) / N
      = (∑ i, x i * x i) / N - (∑ j, x j) / N * ((∑ j, x j) / N) := by
  have h1 : ∑ i, (x i - (∑ j, x j) / N) * (x i - (∑ j, x j) / N)
      = (∑ i, x i * x i) - 2 * ((∑ j, x j) / N) * (∑ j, x j) + N * ((∑ j, x j) / N * ((∑ j, x j) / N)) := by
    have : ∀ i, (x i - (∑ j, x j) / N) * (x i - (∑ j, x j) / N)
        = x i * x i - 2 * ((∑ j, x j) / N) * x i + (∑ j, x j) / N * ((∑ j, x j) / N) := fun i => by ring
    simp only [this, Finset.sum_add_distrib, Finset.sum_sub_distrib, ← Finset.mul_sum, Finset.sum_const, Finset.card_univ,
      nsmul_eq_mul, hc]
    ring
  rw [h1]
  field_simp
  ring

/-- The variance of a family of reals, in either form, is non-negative when the count is positive. -/
theorem real_var_nonneg {ι : Type*} [Fintype ι] (x : ι → ℝ) (N : ℝ) (hN : 0 < N) :
    0 ≤ (∑ i, (x i - (∑ j, x j) / N) * (x i - (∑ j, x j) / N)) / N :=
  div_nonneg (Finset.sum_nonneg fun i _ => mul_self_nonneg _) hN.le

/-- The same identity on the extended reals, for real-valued data, the quotients read as the exact division does. -/
theorem var_law {ι : Type*} [Fintype ι] (X : ι → EReal) (hX : ∀ i, IsReal (X i)) (N : ℝ) (hN : N ≠ 0)
    (hc : (Fintype.card ι : ℝ) = N) :
    Ideal.div (∑ i, (X i - Ideal.div (∑ j, X j) (N : EReal)) * (X i - Ideal.div (∑ j, X j) (N : EReal))) (N : EReal)
      = Ideal.div (∑ i, X i * X i) (N : EReal) - Ideal.div (∑ j, X j) (N : EReal) * Ideal.div (∑ j, X j) (N : EReal) := by
  choose x hx using hX
  have hXx : X = fun i => (x i : EReal) := funext hx
  subst hXx
  simp only [← coe_sum, div_coe_coe _ _ hN, ← EReal.coe_sub, ← EReal.coe_mul]
  exact congrArg _ (real_var x N hN hc)

/-- … and both sides are then a non-negative real when the count is positive. -/
theorem var_isReal_nonneg {ι : Type*} [Fintype ι] (X : ι → EReal) (hX : ∀ i, IsReal (X i)) (N : ℝ) (hN : 0 < N) :
    ∃ v : ℝ, 0 ≤ v ∧
      Ideal.div (∑ i, (X i - Ideal.div (∑ j, X j) (N : EReal)) * (X i - Ideal.div (∑ j, X j) (N : EReal))) (N : EReal) = (v : EReal) := by
  choose x hx using hX
  have hXx : X = fun i => (x i : EReal) := funext hx
  subst hXx
  refine ⟨_, real_var_nonneg x N hN, ?_⟩
  simp only [← coe_sum, div_coe_coe _ _ hN.ne', ← EReal.coe_sub, ← EReal.coe_mul]

end Cert.LibBatchNorm

end
-- ==== Proof.KI.PwLaws.lean ====
import proofs.«180658_j65867618451767_1_alg».proof.Proof.KI.ValPw
import proofs.«180658_j65867618451767_1_alg».proof.Proof.LibBatchNorm

/-! Scalar laws of the pointwise specifications on the extended reals: the float words the programs spell as the reals
    they denote; the other spellings of ELU, the logistic quotient and the affine normalization, equal to the
    specifications'; and the specifications' values on real arguments are real. -/

noncomputable section

namespace Cert.KernelIdeal.HandV

open Idealize.ShloMosaic Idealize.ShloMosaic.ValueIdx Cert.LibBatchNorm

/-! ## The float words as reals -/

/-- `+0.0` denotes `0`. -/
theorem pw_ofBits_zero : Ideal.ofBits .f32 0x00000000#32 = 0 := by
  simp [Ideal.ofBits, Ideal.ieee]

/-- `1.0` denotes `1`. -/
theorem pw_ofBits_one : Ideal.ofBits .f32 0x3F800000#32 = 1 := by
  simp [Ideal.ofBits, Ideal.ieee, -EReal.coe_mul]; norm_num

/-- `1e4` denotes the real `10000`. -/
theorem pw_ofBits_10000 : Ideal.ofBits .f32 0x461C4000#32 = ((10000 : ℝ) : EReal) := by
  simp [Ideal.ofBits, Ideal.ieee, -EReal.coe_mul]; norm_num

/-- `2.5e5` denotes the real `250000`. -/
theorem pw_ofBits_250000 : Ideal.ofBits .f32 0x48742400#32 = ((250000 : ℝ) : EReal) := by
  simp [Ideal.ofBits, Ideal.ieee, -EReal.coe_mul]; norm_num

/-- The word nearest `1e-5` denotes a positive real. -/
theorem pw_eps_pos : ∃ e : ℝ, 0 < e ∧ pwEps = (e : EReal) := by
  refine ⟨(10995116 : ℝ) * (2 : ℝ) ^ (-40 : ℤ), by positivity, ?_⟩
  simp [Ideal.ofBits, Ideal.ieee, -EReal.coe_mul]

/-- The word nearest `1e-6` denotes a positive real. -/
theorem pw_ofBits_1em6_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-! ## Other spellings of the three scalar functions -/

/-- ELU spelt with the exponential-minus-one of the argument clamped to zero where positive, times `1.0`: on the
    positive side both spellings pick `x`; elsewhere the clamp leaves `x`, `expm1 x` is `exp x - 1`, and `1 · y = y`. -/
theorem elu_ref (x : Ideal .f32) :
    Scalar.select (FloatOps.cmpf (F := Ideal) .ogt x (Ideal.ofBits .f32 0x00000000#32)) x
        (Ideal.ofBits .f32 0x3F800000#32 * FloatOps.hostUnary (F := Ideal) .expm1
          (Scalar.select (FloatOps.cmpf (F := Ideal) .ogt x (Ideal.ofBits .f32 0x00000000#32))
            (Ideal.ofBits .f32 0x00000000#32) x))
      = pwElu x := by
  unfold pwElu Scalar.select
  by_cases h : FloatOps.cmpf (F := Ideal) .ogt x (Ideal.ofBits .f32 0x00000000#32) = 1
  · rw [if_pos h, if_pos h]
  · rw [if_neg h, if_neg h, if_neg h, pw_ofBits_one, one_mul]
    rfl

/-- The logistic quotient spelt with a negation: `0 - y` is `-y`. -/
theorem sigmoid_ref (y : Ideal .f32) :
    Ideal.div (Ideal.ofBits .f32 0x3F800000#32) (Ideal.ofBits .f32 0x3F800000#32 + Ideal.exp (-y)) = pwSigmoid y := by
  unfold pwSigmoid
  rw [pw_ofBits_zero, zero_sub]

/-- The affine normalization, grouped `((x - μ) · rsqrt (v + eps)) · g + b`, is the specification's by definition. -/
theorem norm_ref (x μ v g b : Ideal .f32) :
    (x - μ) * Ideal.rsqrt (v + Ideal.ofBits .f32 0x3727C5AC#32) * g + b = pwNorm x μ v g b := rfl

/-! ## The specifications on real arguments -/

/-- ELU of a real is a real. -/
theorem isReal_pwElu {x : Ideal .f32} (hx : IsReal x) : IsReal (pwElu x) := by
  unfold pwElu Scalar.select
  split
  · exact hx
  · rw [pw_ofBits_one]; exact (isReal_exp hx).sub isReal_one

/-- The logistic quotient of a real is a positive real. -/
theorem isReal_pwSigmoid {y : Ideal .f32} (hy : IsReal y) : IsReal (pwSigmoid y) ∧ 0 < pwSigmoid y := by
  obtain ⟨r, rfl⟩ := hy
  have hpos : (0 : ℝ) < 1 + Real.exp (0 - r) := by positivity
  have e : pwSigmoid (r : EReal) = ((1 / (1 + Real.exp (0 - r)) : ℝ) : EReal) := by
    unfold pwSigmoid
    rw [pw_ofBits_zero, pw_ofBits_one, ← EReal.coe_zero, ← EReal.coe_sub, exp_coe, ← EReal.coe_one, ← EReal.coe_add,
      div_coe_coe _ _ hpos.ne']
  rw [e]
  exact ⟨isReal_coe _, by exact_mod_cast (by positivity : (0 : ℝ) < 1 / (1 + Real.exp (0 - r)))⟩

/-- The affine normalization of reals by a non-negative real variance is a real: `v + eps` is a positive real, so its
    reciprocal root is a real. -/
theorem isReal_pwNorm {x μ v g b : Ideal .f32} (hx : IsReal x) (hμ : IsReal μ) (hg : IsReal g) (hb : IsReal b)
    (hv : ∃ r : ℝ, 0 ≤ r ∧ v = (r : EReal)) : IsReal (pwNorm x μ v g b) := by
  obtain ⟨r, hr, rfl⟩ := hv
  obtain ⟨e, he, hE⟩ := pw_eps_pos
  unfold pwNorm
  rw [hE, ← EReal.coe_add]
  exact (((hx.sub hμ).mul (isReal_rsqrt_pos (by positivity))).mul hg).add hb
-- ==== Proof.KI.BnLaw.lean ====
import proofs.«180658_j65867618451767_1_alg».proof.Proof.KI.PwLaws
import proofs.«180658_j65867618451767_1_alg».proof.Proof.LibBatchNorm

/-! The column law joining the two spellings of a batch norm's variance over 250000 rows of real numbers: the mean of the
    squares minus the square of the mean, and the guarded mean of the squared deviations from the mean (sums started
    from zero, the divisor the row count less a zero degrees-of-freedom correction, a not-a-number fallback where that
    divisor is not positive). On real data both are the same non-negative real. -/

noncomputable section

namespace Cert.KernelIdeal.HandV

open Idealize.ShloMosaic Cert.LibBatchNorm
open scoped BigOperators

/-- The row count as an extended real: the f32 word of `2.5e5`. -/
abbrev bnRows : Ideal .f32 := Ideal.ofBits .f32 0x48742400#32

/-- A column's mean as the sum over the row count. -/
def bnMean (x : Fin 250000 → EReal) : EReal := Ideal.div (∑ r, x r) bnRows

/-- The variance as the mean of the squares minus the square of the mean. -/
def bnVarOfSquares (x : Fin 250000 → EReal) : EReal :=
  Ideal.div (∑ r, x r * x r) bnRows - bnMean x * bnMean x

/-- A column's mean with its sum started from the zero word. -/
def bnMeanFromZero (x : Fin 250000 → EReal) : EReal :=
  Ideal.div (Ideal.ofBits .f32 0x00000000#32 + ∑ r, x r) bnRows

/-- The divisor of the guarded variance: the row count less the integer zero converted to a float. -/
abbrev bnDivisor : Ideal .f32 := bnRows - FloatOps.sitofp (F := Ideal) .f32 (0#32 : BitVec 32)

/-- The guarded variance: where the divisor is positive, the sum (started from the zero word) of the squared deviations
    from the mean over the divisor; the not-a-number word elsewhere. -/
def bnVarGuarded (x : Fin 250000 → EReal) : EReal :=
  Scalar.select (FloatOps.cmpf (F := Ideal) (φ := .f32) .ogt bnDivisor (Ideal.ofBits .f32 0x00000000#32))
    (Ideal.div (Ideal.ofBits .f32 0x00000000#32
        + ∑ r, (x r - bnMeanFromZero x) * (x r - bnMeanFromZero x)) bnDivisor)
    (Ideal.ofBits .f32 0x7FC00000#32)

/-- A sum started from the zero word is the sum: the two means agree. -/
theorem bn_mean_eq (x : Fin 250000 → EReal) : bnMeanFromZero x = bnMean x := by
  unfold bnMeanFromZero bnMean
  rw [pw_ofBits_zero, zero_add]

/-- The divisor is the row count, the real `250000`. -/
theorem bn_divisor_eq : bnDivisor = ((250000 : ℝ) : EReal) := by
  show bnRows - (((0#32 : BitVec 32).toInt : ℝ) : EReal) = _
  rw [show bnRows = ((250000 : ℝ) : EReal) from pw_ofBits_250000]
  simp

/-- The guard holds: the guarded variance is the mean of the squared deviations. -/
theorem bn_varGuarded_eq (x : Fin 250000 → EReal) :
    bnVarGuarded x = Ideal.div (∑ r, (x r - bnMean x) * (x r - bnMean x)) ((250000 : ℝ) : EReal) := by
  unfold bnVarGuarded
  rw [bn_mean_eq, bn_divisor_eq, pw_ofBits_zero, zero_add]
  have hc : FloatOps.cmpf (F := Ideal) (φ := .f32) .ogt (((250000 : ℝ) : EReal)) 0 = 1#1 := by
    show BitVec.ofBool (decide ((0 : EReal) < ((250000 : ℝ) : EReal))) = 1#1
    rw [decide_eq_true (by exact_mod_cast (by norm_num : (0 : ℝ) < 250000))]; rfl
  unfold Scalar.select
  exact if_pos hc

/-- THE COLUMN LAW: on a column of reals the mean of the squares minus the square of the mean is the guarded mean of the
    squared deviations. -/
theorem bn_var_eq (x : Fin 250000 → EReal) (hx : ∀ r, IsReal (x r)) : bnVarOfSquares x = bnVarGuarded x := by
  rw [bn_varGuarded_eq]
  unfold bnVarOfSquares bnMean
  rw [show bnRows = ((250000 : ℝ) : EReal) from pw_ofBits_250000]
  exact (var_law x hx 250000 (by norm_num) (by simp)).symm

/-- … and it is a non-negative real. -/
theorem bn_var_nonneg (x : Fin 250000 → EReal) (hx : ∀ r, IsReal (x r)) :
    ∃ v : ℝ, 0 ≤ v ∧ bnVarOfSquares x = (v : EReal) := by
  obtain ⟨v, hv, e⟩ := var_isReal_nonneg x hx 250000 (by norm_num)
  refine ⟨v, hv, ?_⟩
  rw [bn_var_eq x hx, bn_varGuarded_eq]
  unfold bnMean
  rw [show bnRows = ((250000 : ℝ) : EReal) from pw_ofBits_250000]
  exact e

/-- The mean of a column of reals is a real. -/
theorem bn_mean_isReal (x : Fin 250000 → EReal) (hx : ∀ r, IsReal (x r)) : IsReal (bnMean x) := by
  unfold bnMean
  rw [show bnRows = ((250000 : ℝ) : EReal) from pw_ofBits_250000]
  exact (isReal_sum _ _ fun r _ => hx r).div_coe (by norm_num)
-- ==== Proof.Ref.SumRead.lean ====
import proofs.«180658_j65867618451767_1_alg».proof.Proof.Ref.HostEqs
import proofs.«180658_j65867618451767_1_alg».proof.Proof.KI.BnLaw
import Idealize.ShloMosaic.Lib.ValueIdx
import Idealize.ShloMosaic.Lib.Pipeline.Value
import Idealize.ShloMosaic.Lib.ValueLayout
import Idealize.ShloMosaic.PureOps.Ideal.Laws

/-! The three arrays the reference normalizes, read at an entry as the sums and products of the arrays they are built
    from. -/

set_option maxRecDepth 16384

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx
open Cert.KernelIdeal.HandV (bnRows bnMean bnMeanFromZero bnDivisor bnVarGuarded pwElu pwNorm pwSigmoid pwEps)
open scoped BigOperators

/-- A buffer's contents as an array of extended reals over a stated shape. -/
abbrev sarr {S : Shape} (x : S.Idx → EReal) : S.Idx → EReal := x

/-- A `[250000, 1]` column repeated across 64 columns reads the column's row. -/
theorem bcast_col250000_apply {α : Type} (x : S250000x1.Idx → α) (r : Fin 250000) (q : Fin 64) :
    broadcastInDim S250000x64 ![0, 1] bcast_S250000x1_S250000x64_0_1 x (ix2 r q) = x (ix2 r (0 : Fin 1)) :=
  broadcastInDim_apply _ _ x _ _ (fun a => by
    match a with
    | ⟨0, _⟩ => rfl
    | ⟨1, _⟩ => rfl)

/-- The host's quotient acts entry by entry. -/
theorem hostDivf_apply {s : Shape} (a b : FVec Ideal s .f32) (i : s.Idx) :
    Host.divf (F := Ideal) (φ := .f32) a b i = Ideal.div (a i) (b i) := rfl

variable (V : Valuation τ sig (Elt Ideal)) (r : Fin 250000) (q : Fin 64)

/-- The bond array before its normalization: four terms added left to right, times the bond mask's row. -/
theorem bond_sum :
    sarr (S := S250000x64) (R V main_v73) (ix2 r q)
      = (((sarr (S := S250000x64) (R V main_v54) (ix2 r q) + sarr (S := S250000x64) (R V main_v61) (ix2 r q))
          + sarr (S := S250000x64) (R V main_v31) (ix2 r q)) + sarr (S := S250000x64) (R V main_v70) (ix2 r q))
        * sarr (S := S250000x1) (R V main_arg4) (ix2 r (0 : Fin 1)) := by
  rw [r_79, r_77, r_67, r_66, r_78]
  show (((sarr (S := S250000x64) (R V main_v54) (ix2 r q) + sarr (S := S250000x64) (R V main_v61) (ix2 r q))
          + sarr (S := S250000x64) (R V main_v31) (ix2 r q)) + sarr (S := S250000x64) (R V main_v70) (ix2 r q))
        * broadcastInDim S250000x64 ![0, 1] bcast_S250000x1_S250000x64_0_1 (R V main_arg4) (ix2 r q) = _
  rw [bcast_col250000_apply]

/-- The atom array before its normalization: the atom term, the quotient of the scattered sum by its count, the
    global term, times the atom mask's row. -/
theorem atom_sum :
    sarr (S := S250000x64) (R V main_v141) (ix2 r q)
      = ((sarr (S := S250000x64) (R V main_v15) (ix2 r q)
            + Ideal.div (sarr (S := S250000x64) (R V main_v124) (ix2 r q)) (sarr (S := S250000x64) (R V main_v129) (ix2 r q)))
          + sarr (S := S250000x64) (R V main_v138) (ix2 r q))
        * sarr (S := S250000x1) (R V main_arg3) (ix2 r (0 : Fin 1)) := by
  rw [r_197, r_195, r_185, r_184, r_196]
  simp only [mulf_apply, addf_apply, hostDivf_apply]
  rw [bcast_col250000_apply]

/-- The graph array before its normalization: three terms added left to right. -/
theorem graph_sum (p : Fin 10000) :
    sarr (S := S10000x64) (R V main_v213) (ix2 p q)
      = (sarr (S := S10000x64) (R V main_v204) (ix2 p q) + sarr (S := S10000x64) (R V main_v211) (ix2 p q))
        + sarr (S := S10000x64) (R V main_v189) (ix2 p q) := by
  rw [r_316, r_315]
  rfl
-- ==== Proof.Bridge.BondSum.lean ====
/-
  The bond array before its normalization agrees: on both sides the four terms are added left to right and the sum is
  multiplied by the bond mask's row, so equal terms and an equal mask give equal arrays.
-/
import proofs.«180658_j65867618451767_1_alg».proof.Proof.Bridge.Base
import proofs.«180658_j65867618451767_1_alg».proof.Proof.KI.RegEqs2
import proofs.«180658_j65867618451767_1_alg».proof.Proof.Ref.SumRead

set_option maxRecDepth 16384

noncomputable section

open scoped BigOperators

namespace Cert.Bridge

open Idealize.ShloMosaic Idealize.ShloMosaic.TcCoe Idealize.ShloMosaic.StableHlo Idealize.ShloMosaic.ValueIdx

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

theorem bond_sum (hA : Agree m ρ c V')
    (h54 : Rv V' Cert.ReferenceIdeal.main_v54 = Kv m ρ c Cert.KernelIdeal.main_v59)
    (h61 : Rv V' Cert.ReferenceIdeal.main_v61 = Kv m ρ c Cert.KernelIdeal.main_v66)
    (h31 : Rv V' Cert.ReferenceIdeal.main_v31 = Kv m ρ c Cert.KernelIdeal.main_v45_1)
    (h70 : Rv V' Cert.ReferenceIdeal.main_v70 = Kv m ρ c Cert.KernelIdeal.main_v73) :
    Rv V' Cert.ReferenceIdeal.main_v73 = Kv m ρ c Cert.KernelIdeal.main_v74_0 := by
  show fn Cert.KernelIdeal.S250000x64 (Rv V' Cert.ReferenceIdeal.main_v73) = fn Cert.KernelIdeal.S250000x64 (Kv m ρ c Cert.KernelIdeal.main_v74_0)
  funext j
  obtain ⟨r, q, rfl⟩ : ∃ (r : Fin 250000) (q : Fin 64), j = ix2 r q := ⟨j 0, j 1, eq_ix2 j⟩
  refine (Cert.ReferenceIdeal.HandV.bond_sum V' r q).trans ?_
  refine Eq.trans ?_ (congrFun (Cert.KernelIdeal.HandV.reg2_5 m ρ c) (ix2 r q)).symm
  have e54 := h54
  have e61 := h61
  have e31 := h31
  have e70 := h70
  have e4 := hA.a4
  unfold Rv at e54 e61 e31 e70 e4
  rw [e54, e61, e31, e70, e4]
  rfl
-- ==== Proof.KI.StatsEqs.lean ====
import proofs.«180658_j65867618451767_1_alg».proof.Proof.KI.HostEqs
import Idealize.ShloMosaic.Lib.ValueIdx
import Idealize.ShloMosaic.Lib.Pipeline.Value
import Idealize.ShloMosaic.Lib.ValueLayout

/-! The host operations between the regions that turn the column sums into the normalizations' parameter rows, read at
    a column: the mean is the sum over the row count; the variance is the sum of squares over the row count minus the
    mean squared; the scale and shift rows are rows of the two `[3, 64]` tables. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg)

/-- A buffer's contents as an array of extended reals over a stated shape. -/
abbrev arr {S : Shape} (x : S.Idx → EReal) : S.Idx → EReal := x

/-! ## The bond normalization's parameters (between regions 2 and 3) -/

/-- The mean row: the column sums divided by the row count. -/
theorem bond_mean (c : Dev nD) (q : Fin 64) :
    arr (S := S1x64) (Wf m ρ c main_v76) (ix2 0 q)
      = Ideal.div (arr (S := S1x64) (Wf m ρ c main_v74_1) (ix2 0 q)) (Ideal.ofBits .f32 0x48742400#32) := by
  rw [k_h3_2, k_h3_1, k_h3_0]
  rfl

/-- The variance row: the column sums of squares divided by the row count, minus the mean squared. -/
theorem bond_var (c : Dev nD) (q : Fin 64) :
    arr (S := S1x64) (Wf m ρ c main_v80) (ix2 0 q)
      = Ideal.div (arr (S := S1x64) (Wf m ρ c main_v74_2) (ix2 0 q)) (Ideal.ofBits .f32 0x48742400#32)
        - arr (S := S1x64) (Wf m ρ c main_v76) (ix2 0 q) * arr (S := S1x64) (Wf m ρ c main_v76) (ix2 0 q) := by
  rw [k_h3_7, k_h3_5, k_h3_4, k_h3_3, k_h3_6]
  rfl

/-- The scale row is row 0 of the scale table. -/
theorem bond_scale (c : Dev nD) (q : Fin 64) :
    arr (S := S1x64) (Wf m ρ c main_v81) (ix2 0 q) = arr (S := S3x64) (Wf m ρ c main_arg7) (ix2 (0 : Fin 3) q) := by
  rw [k_h3_8]
  exact slice2_axis0_apply 0 (arr (S := S3x64) (Wf m ρ c main_arg7)) slices_S3x64_S1x64_0_0 (0 : Fin 1) q (0 : Fin 3) rfl

/-- The shift row is row 0 of the shift table. -/
theorem bond_shift (c : Dev nD) (q : Fin 64) :
    arr (S := S1x64) (Wf m ρ c main_v82) (ix2 0 q) = arr (S := S3x64) (Wf m ρ c main_arg8) (ix2 (0 : Fin 3) q) := by
  rw [k_h3_9]
  exact slice2_axis0_apply 0 (arr (S := S3x64) (Wf m ρ c main_arg8)) slices_S3x64_S1x64_0_0 (0 : Fin 1) q (0 : Fin 3) rfl

/-! ## The atom normalization's parameters (between regions 4 and 5) -/

/-- The mean row: the column sums divided by the row count. -/
theorem atom_mean (c : Dev nD) (q : Fin 64) :
    arr (S := S1x64) (Wf m ρ c main_v119) (ix2 0 q)
      = Ideal.div (arr (S := S1x64) (Wf m ρ c main_v117_1) (ix2 0 q)) (Ideal.ofBits .f32 0x48742400#32) := by
  rw [k_h5_2, k_h5_1, k_h5_0]
  rfl

/-- The variance row: the column sums of squares divided by the row count, minus the mean squared. -/
theorem atom_var (c : Dev nD) (q : Fin 64) :
    arr (S := S1x64) (Wf m ρ c main_v123) (ix2 0 q)
      = Ideal.div (arr (S := S1x64) (Wf m ρ c main_v117_2) (ix2 0 q)) (Ideal.ofBits .f32 0x48742400#32)
        - arr (S := S1x64) (Wf m ρ c main_v119) (ix2 0 q) * arr (S := S1x64) (Wf m ρ c main_v119) (ix2 0 q) := by
  rw [k_h5_7, k_h5_5, k_h5_4, k_h5_3, k_h5_6]
  rfl

/-- The scale row is row 1 of the scale table. -/
theorem atom_scale (c : Dev nD) (q : Fin 64) :
    arr (S := S1x64) (Wf m ρ c main_v124) (ix2 0 q) = arr (S := S3x64) (Wf m ρ c main_arg7) (ix2 (1 : Fin 3) q) := by
  rw [k_h5_8]
  exact slice2_axis0_apply 1 (arr (S := S3x64) (Wf m ρ c main_arg7)) slices_S3x64_S1x64_1_0 (0 : Fin 1) q (1 : Fin 3) rfl

/-- The shift row is row 1 of the shift table. -/
theorem atom_shift (c : Dev nD) (q : Fin 64) :
    arr (S := S1x64) (Wf m ρ c main_v125) (ix2 0 q) = arr (S := S3x64) (Wf m ρ c main_arg8) (ix2 (1 : Fin 3) q) := by
  rw [k_h5_9]
  exact slice2_axis0_apply 1 (arr (S := S3x64) (Wf m ρ c main_arg8)) slices_S3x64_S1x64_1_0 (0 : Fin 1) q (1 : Fin 3) rfl

/-! ## The graph normalization's scale and shift (before region 7) -/

/-- The scale row is row 2 of the scale table. -/
theorem graph_scale (c : Dev nD) (q : Fin 64) :
    arr (S := S1x64) (Wf m ρ c main_v151) (ix2 0 q) = arr (S := S3x64) (Wf m ρ c main_arg7) (ix2 (2 : Fin 3) q) := by
  rw [k_h7_31]
  exact slice2_axis0_apply 2 (arr (S := S3x64) (Wf m ρ c main_arg7)) slices_S3x64_S1x64_2_0 (0 : Fin 1) q (2 : Fin 3) rfl

/-- The shift row is row 2 of the shift table. -/
theorem graph_shift (c : Dev nD) (q : Fin 64) :
    arr (S := S1x64) (Wf m ρ c main_v152) (ix2 0 q) = arr (S := S3x64) (Wf m ρ c main_arg8) (ix2 (2 : Fin 3) q) := by
  rw [k_h7_32]
  exact slice2_axis0_apply 2 (arr (S := S3x64) (Wf m ρ c main_arg8)) slices_S3x64_S1x64_2_0 (0 : Fin 1) q (2 : Fin 3) rfl
-- ==== Proof.Ref.StatsRead.lean ====
import proofs.«180658_j65867618451767_1_alg».proof.Proof.Ref.HostEqs
import proofs.«180658_j65867618451767_1_alg».proof.Proof.KI.BnLaw
import Idealize.ShloMosaic.Lib.ValueIdx
import Idealize.ShloMosaic.Lib.Pipeline.Value
import Idealize.ShloMosaic.Lib.ValueLayout
import Idealize.ShloMosaic.PureOps.Ideal.Laws

/-! Reading the reference's layout operations and column sums at an index: a sum-reduction over the rows started from a
    constant, a scalar broadcast, a vector laid out as one row, one row repeated down the rows. -/

set_option maxRecDepth 16384

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx
open Cert.KernelIdeal.HandV (bnRows bnMean bnMeanFromZero bnDivisor bnVarGuarded pwElu pwNorm pwSigmoid pwEps)
open scoped BigOperators

/-- A reduced column index with row `k` put back is `(k, t)`. -/
theorem lift_rows {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The column shapes as reductions of the row axis (the vector form of the host's fact). -/
theorem reduces250000 : S250000x64.Reduces [0] S64 :=
  ⟨reducesTo_S250000x64_S64_d0.1, Nat.one_pos, reducesTo_S250000x64_S64_d0.2⟩
theorem reduces10000 : S10000x64.Reduces [0] S64 :=
  ⟨reducesTo_S10000x64_S64_d0.1, Nat.one_pos, reducesTo_S10000x64_S64_d0.2⟩

/-- The sum-reduction over the 250000 rows, started from a constant word, at column `q`. -/
theorem colSum250000 (x : FVec Ideal S250000x64 .f32) (w : BitVec 32) (q : Fin 64) :
    Host.reduceAdd (F := Ideal) (φ := .f32) x (constant (F := Ideal) S_ .f32 w) reducesTo_S250000x64_S64_d0 h_S_ (ix1 q)
      = Ideal.ofBits .f32 w + ∑ r : Fin 250000, x (ix2 r q) := by
  have h : S250000x64.Reduces [0] S64 := reduces250000
  show Ideal.hostReduceAdd reducesTo_S250000x64_S64_d0 x (Ideal.ofBits .f32 w) (ix1 q) = _
  refine (Ideal.hostReduceAdd_single reducesTo_S250000x64_S64_d0 h x (Ideal.ofBits .f32 w) (ix1 q)).trans ?_
  refine congrArg (fun z => Ideal.ofBits .f32 w + z) ?_
  show (∑ k : Fin 250000, x (h.lift (ix1 q) k)) = _
  exact Finset.sum_congr rfl fun k _ => congrArg x (lift_rows h q k)

/-- The sum-reduction over the 10000 rows, started from a constant word, at column `q`. -/
theorem colSum10000 (x : FVec Ideal S10000x64 .f32) (w : BitVec 32) (q : Fin 64) :
    Host.reduceAdd (F := Ideal) (φ := .f32) x (constant (F := Ideal) S_ .f32 w) reducesTo_S10000x64_S64_d0 h_S_ (ix1 q)
      = Ideal.ofBits .f32 w + ∑ r : Fin 10000, x (ix2 r q) := by
  have h : S10000x64.Reduces [0] S64 := reduces10000
  show Ideal.hostReduceAdd reducesTo_S10000x64_S64_d0 x (Ideal.ofBits .f32 w) (ix1 q) = _
  refine (Ideal.hostReduceAdd_single reducesTo_S10000x64_S64_d0 h x (Ideal.ofBits .f32 w) (ix1 q)).trans ?_
  refine congrArg (fun z => Ideal.ofBits .f32 w + z) ?_
  show (∑ k : Fin 10000, x (h.lift (ix1 q) k)) = _
  exact Finset.sum_congr rfl fun k _ => congrArg x (lift_rows h q k)

/-- A scalar broadcast to any shape reads the scalar at every index. -/
theorem bcast_scalar_apply {α : Type} {t : Shape} (h : S_.BroadcastsInDim t (![] : Fin 0 → Fin t.rank)) (x : S_.Idx → α)
    (i : t.Idx) : broadcastInDim t ![] h x i = x ix0 :=
  congrArg x (funext fun a => a.elim0)

/-- A `[64]` vector laid out as the one row of a `[1, 64]` array. -/
theorem bcast_row_apply {α : Type} (x : S64.Idx → α) (u : Fin 1) (q : Fin 64) :
    broadcastInDim S1x64 ![1] bcast_S64_S1x64_1 x (ix2 u q) = x (ix1 q) :=
  broadcastInDim_apply _ _ x _ _ (fun a => by
    match a with
    | ⟨0, _⟩ => rfl)

/-- One row repeated down 250000 rows reads the row at the column. -/
theorem bcast_rows250000_apply {α : Type} (x : S1x64.Idx → α) (r : Fin 250000) (q : Fin 64) :
    broadcastInDim S250000x64 ![0, 1] bcast_S1x64_S250000x64_0_1 x (ix2 r q) = x (ix2 (0 : Fin 1) q) :=
  broadcastInDim_apply _ _ x _ _ (fun a => by
    match a with
    | ⟨0, _⟩ => rfl
    | ⟨1, _⟩ => rfl)

/-- One row repeated down 10000 rows reads the row at the column. -/
theorem bcast_rows10000_apply {α : Type} (x : S1x64.Idx → α) (r : Fin 10000) (q : Fin 64) :
    broadcastInDim S10000x64 ![0, 1] bcast_S1x64_S10000x64_0_1 x (ix2 r q) = x (ix2 (0 : Fin 1) q) :=
  broadcastInDim_apply _ _ x _ _ (fun a => by
    match a with
    | ⟨0, _⟩ => rfl
    | ⟨1, _⟩ => rfl)

/-- A buffer's contents as an array of extended reals over a stated shape. -/
abbrev rarr {S : Shape} (x : S.Idx → EReal) : S.Idx → EReal := x

variable (V : Valuation τ sig (Elt Ideal))

/-! ## The bond normalization's statistics and parameter rows -/

section bond
variable (q : Fin 64)

/-- The mean, as the reference spells it: the column sum started from zero over the row count. -/
theorem bond_mean : R V main_v80 (ix1 q) = bnMeanFromZero (fun r => rarr (S := S250000x64) (R V main_v73) (ix2 r q)) := by
  rw [r_88, r_85, r_84, r_87, r_86]
  show Ideal.div (Host.reduceAdd (F := Ideal) (φ := .f32) (R V main_v73) (constant (F := Ideal) S_ .f32 0x00000000#32)
      reducesTo_S250000x64_S64_d0 h_S_ (ix1 q)) (Ideal.ofBits .f32 0x48742400#32) = _
  rw [colSum250000]
  rfl

/-- The mean inside the variance's own computation, the same. -/
theorem bond_varMean : R V main_call0_v3 (ix2 (0 : Fin 1) q) = bnMeanFromZero (fun r => rarr (S := S250000x64) (R V main_v73) (ix2 r q)) := by
  rw [r_95, r_92, r_91, r_90, r_94, r_93]
  show Ideal.div (broadcastInDim S1x64 ![1] bcast_S64_S1x64_1
      (Host.reduceAdd (F := Ideal) (φ := .f32) (R V main_v73) (constant (F := Ideal) S_ .f32 0x00000000#32)
        reducesTo_S250000x64_S64_d0 h_S_) (ix2 (0 : Fin 1) q)) (Ideal.ofBits .f32 0x48742400#32) = _
  rw [bcast_row_apply, colSum250000]
  rfl

/-- A squared deviation from that mean. -/
theorem bond_sqDev (r : Fin 250000) : R V main_call0_v6 (ix2 r q)
    = (rarr (S := S250000x64) (R V main_v73) (ix2 r q) - bnMeanFromZero (fun r => rarr (S := S250000x64) (R V main_v73) (ix2 r q)))
      * (rarr (S := S250000x64) (R V main_v73) (ix2 r q) - bnMeanFromZero (fun r => rarr (S := S250000x64) (R V main_v73) (ix2 r q))) := by
  rw [r_98, r_97, r_96]
  show (rarr (S := S250000x64) (R V main_v73) (ix2 r q) - broadcastInDim S250000x64 ![0, 1] bcast_S1x64_S250000x64_0_1 (R V main_call0_v3) (ix2 r q))
      * (rarr (S := S250000x64) (R V main_v73) (ix2 r q) - broadcastInDim S250000x64 ![0, 1] bcast_S1x64_S250000x64_0_1 (R V main_call0_v3) (ix2 r q)) = _
  rw [bcast_rows250000_apply, bond_varMean]

/-- The variance's divisor: the row count less the converted integer zero. -/
theorem bond_divisor : R V main_call0_v8 ix0 = bnDivisor := by
  rw [r_101, r_100, r_99, r_89]
  rfl

/-- The variance, as the reference spells it: guarded by the divisor's sign, the sum of the squared deviations started
    from zero over the divisor. -/
theorem bond_var : R V main_v81 (ix1 q) = bnVarGuarded (fun r => rarr (S := S250000x64) (R V main_v73) (ix2 r q)) := by
  have hsum : R V main_call0_v9 (ix1 q) = Ideal.ofBits .f32 0x00000000#32
      + ∑ r : Fin 250000, (rarr (S := S250000x64) (R V main_v73) (ix2 r q) - bnMeanFromZero (fun r => rarr (S := S250000x64) (R V main_v73) (ix2 r q)))
        * (rarr (S := S250000x64) (R V main_v73) (ix2 r q) - bnMeanFromZero (fun r => rarr (S := S250000x64) (R V main_v73) (ix2 r q))) := by
    rw [r_103, r_102]
    beta_reduce
    rw [colSum250000]
    exact congrArg (fun z => Ideal.ofBits .f32 0x00000000#32 + z) (Finset.sum_congr rfl fun r _ => bond_sqDev V q r)
  have hquot : R V main_call0_v11 (ix1 q) = Ideal.div (R V main_call0_v9 (ix1 q)) bnDivisor := by
    rw [r_105, r_104]
    show Ideal.div (R V main_call0_v9 (ix1 q)) (broadcastInDim S64 ![] bcast_S_S64 (R V main_call0_v8) (ix1 q)) = _
    rw [bcast_scalar_apply, bond_divisor]
  have hguard : R V main_call0_v12 ix0 = FloatOps.cmpf (F := Ideal) (φ := .f32) .ogt bnDivisor (Ideal.ofBits .f32 0x00000000#32) := by
    rw [r_107, r_106]
    show FloatOps.cmpf (F := Ideal) (φ := .f32) .ogt (R V main_call0_v8 ix0) (Ideal.ofBits .f32 0x00000000#32) = _
    rw [bond_divisor]
  have hnan : R V main_call0_call0_v1 (ix1 q) = Ideal.ofBits .f32 0x7FC00000#32 := by
    rw [r_110, r_109, r_108]
    rfl
  rw [r_111]
  show Scalar.select (broadcastInDim S64 ![] bcast_S_S64 (R V main_call0_v12) (ix1 q)) (R V main_call0_v11 (ix1 q))
      (R V main_call0_call0_v1 (ix1 q)) = _
  rw [bcast_scalar_apply, hguard, hquot, hsum, hnan]
  unfold bnVarGuarded
  rfl

/-- The scale and shift vectors are rows of the two `[3, 64]` tables. -/
theorem bond_scale : R V main_v75 (ix1 q) = R V main_arg7 (ix2 (0 : Fin 3) q) := by
  rw [r_81, r_80]
  show shapeCast S64 (extractStridedSlice S1x64 ![0, 0] (R V main_arg7) slices_S3x64_S1x64_0_0) shapeCasts_S1x64_S64 (ix1 q) = _
  rw [shapeCast_1a_a_apply]
  exact slice2_axis0_apply 0 (R V main_arg7) slices_S3x64_S1x64_0_0 (0 : Fin 1) q (0 : Fin 3) rfl

theorem bond_shift : R V main_v77 (ix1 q) = R V main_arg8 (ix2 (0 : Fin 3) q) := by
  rw [r_83, r_82]
  show shapeCast S64 (extractStridedSlice S1x64 ![0, 0] (R V main_arg8) slices_S3x64_S1x64_0_0) shapeCasts_S1x64_S64 (ix1 q) = _
  rw [shapeCast_1a_a_apply]
  exact slice2_axis0_apply 0 (R V main_arg8) slices_S3x64_S1x64_0_0 (0 : Fin 1) q (0 : Fin 3) rfl

end bond

/-! ## The atom normalization's statistics and parameter rows -/

section atom
variable (q : Fin 64)

/-- The mean, as the reference spells it: the column sum started from zero over the row count. -/
theorem atom_mean : R V main_v148 (ix1 q) = bnMeanFromZero (fun r => rarr (S := S250000x64) (R V main_v141) (ix2 r q)) := by
  rw [r_206, r_203, r_202, r_205, r_204]
  show Ideal.div (Host.reduceAdd (F := Ideal) (φ := .f32) (R V main_v141) (constant (F := Ideal) S_ .f32 0x00000000#32)
      reducesTo_S250000x64_S64_d0 h_S_ (ix1 q)) (Ideal.ofBits .f32 0x48742400#32) = _
  rw [colSum250000]
  rfl

/-- The mean inside the variance's own computation, the same. -/
theorem atom_varMean : R V main_call2_v3 (ix2 (0 : Fin 1) q) = bnMeanFromZero (fun r => rarr (S := S250000x64) (R V main_v141) (ix2 r q)) := by
  rw [r_213, r_210, r_209, r_208, r_212, r_211]
  show Ideal.div (broadcastInDim S1x64 ![1] bcast_S64_S1x64_1
      (Host.reduceAdd (F := Ideal) (φ := .f32) (R V main_v141) (constant (F := Ideal) S_ .f32 0x00000000#32)
        reducesTo_S250000x64_S64_d0 h_S_) (ix2 (0 : Fin 1) q)) (Ideal.ofBits .f32 0x48742400#32) = _
  rw [bcast_row_apply, colSum250000]
  rfl

/-- A squared deviation from that mean. -/
theorem atom_sqDev (r : Fin 250000) : R V main_call2_v6 (ix2 r q)
    = (rarr (S := S250000x64) (R V main_v141) (ix2 r q) - bnMeanFromZero (fun r => rarr (S := S250000x64) (R V main_v141) (ix2 r q)))
      * (rarr (S := S250000x64) (R V main_v141) (ix2 r q) - bnMeanFromZero (fun r => rarr (S := S250000x64) (R V main_v141) (ix2 r q))) := by
  rw [r_216, r_215, r_214]
  show (rarr (S := S250000x64) (R V main_v141) (ix2 r q) - broadcastInDim S250000x64 ![0, 1] bcast_S1x64_S250000x64_0_1 (R V main_call2_v3) (ix2 r q))
      * (rarr (S := S250000x64) (R V main_v141) (ix2 r q) - broadcastInDim S250000x64 ![0, 1] bcast_S1x64_S250000x64_0_1 (R V main_call2_v3) (ix2 r q)) = _
  rw [bcast_rows250000_apply, atom_varMean]

/-- The variance's divisor: the row count less the converted integer zero. -/
theorem atom_divisor : R V main_call2_v8 ix0 = bnDivisor := by
  rw [r_219, r_218, r_217, r_207]
  rfl

/-- The variance, as the reference spells it: guarded by the divisor's sign, the sum of the squared deviations started
    from zero over the divisor. -/
theorem atom_var : R V main_v149 (ix1 q) = bnVarGuarded (fun r => rarr (S := S250000x64) (R V main_v141) (ix2 r q)) := by
  have hsum : R V main_call2_v9 (ix1 q) = Ideal.ofBits .f32 0x00000000#32
      + ∑ r : Fin 250000, (rarr (S := S250000x64) (R V main_v141) (ix2 r q) - bnMeanFromZero (fun r => rarr (S := S250000x64) (R V main_v141) (ix2 r q)))
        * (rarr (S := S250000x64) (R V main_v141) (ix2 r q) - bnMeanFromZero (fun r => rarr (S := S250000x64) (R V main_v141) (ix2 r q))) := by
    rw [r_221, r_220]
    beta_reduce
    rw [colSum250000]
    exact congrArg (fun z => Ideal.ofBits .f32 0x00000000#32 + z) (Finset.sum_congr rfl fun r _ => atom_sqDev V q r)
  have hquot : R V main_call2_v11 (ix1 q) = Ideal.div (R V main_call2_v9 (ix1 q)) bnDivisor := by
    rw [r_223, r_222]
    show Ideal.div (R V main_call2_v9 (ix1 q)) (broadcastInDim S64 ![] bcast_S_S64 (R V main_call2_v8) (ix1 q)) = _
    rw [bcast_scalar_apply, atom_divisor]
  have hguard : R V main_call2_v12 ix0 = FloatOps.cmpf (F := Ideal) (φ := .f32) .ogt bnDivisor (Ideal.ofBits .f32 0x00000000#32) := by
    rw [r_225, r_224]
    show FloatOps.cmpf (F := Ideal) (φ := .f32) .ogt (R V main_call2_v8 ix0) (Ideal.ofBits .f32 0x00000000#32) = _
    rw [atom_divisor]
  have hnan : R V main_call2_call0_v1 (ix1 q) = Ideal.ofBits .f32 0x7FC00000#32 := by
    rw [r_228, r_227, r_226]
    rfl
  rw [r_229]
  show Scalar.select (broadcastInDim S64 ![] bcast_S_S64 (R V main_call2_v12) (ix1 q)) (R V main_call2_v11 (ix1 q))
      (R V main_call2_call0_v1 (ix1 q)) = _
  rw [bcast_scalar_apply, hguard, hquot, hsum, hnan]
  unfold bnVarGuarded
  rfl

/-- The scale and shift vectors are rows of the two `[3, 64]` tables. -/
theorem atom_scale : R V main_v143 (ix1 q) = R V main_arg7 (ix2 (1 : Fin 3) q) := by
  rw [r_199, r_198]
  show shapeCast S64 (extractStridedSlice S1x64 ![1, 0] (R V main_arg7) slices_S3x64_S1x64_1_0) shapeCasts_S1x64_S64 (ix1 q) = _
  rw [shapeCast_1a_a_apply]
  exact slice2_axis0_apply 1 (R V main_arg7) slices_S3x64_S1x64_1_0 (0 : Fin 1) q (1 : Fin 3) rfl

theorem atom_shift : R V main_v145 (ix1 q) = R V main_arg8 (ix2 (1 : Fin 3) q) := by
  rw [r_201, r_200]
  show shapeCast S64 (extractStridedSlice S1x64 ![1, 0] (R V main_arg8) slices_S3x64_S1x64_1_0) shapeCasts_S1x64_S64 (ix1 q) = _
  rw [shapeCast_1a_a_apply]
  exact slice2_axis0_apply 1 (R V main_arg8) slices_S3x64_S1x64_1_0 (0 : Fin 1) q (1 : Fin 3) rfl

end atom

/-! ## The graph normalization (10000 rows): the same two spellings -/

/-- The graph's row count as an extended real: the f32 word of `1e4`. -/
abbrev gnRows : Ideal .f32 := Ideal.ofBits .f32 0x461C4000#32

/-- A column's mean with its sum started from the zero word. -/
def gnMeanFromZero (x : Fin 10000 → EReal) : EReal :=
  Ideal.div (Ideal.ofBits .f32 0x00000000#32 + ∑ r, x r) gnRows

/-- The guarded variance's divisor: the row count less the converted integer zero. -/
abbrev gnDivisor : Ideal .f32 := gnRows - FloatOps.sitofp (F := Ideal) .f32 (0#32 : BitVec 32)

/-- The guarded variance over 10000 rows. -/
def gnVarGuarded (x : Fin 10000 → EReal) : EReal :=
  Scalar.select (FloatOps.cmpf (F := Ideal) (φ := .f32) .ogt gnDivisor (Ideal.ofBits .f32 0x00000000#32))
    (Ideal.div (Ideal.ofBits .f32 0x00000000#32
        + ∑ r, (x r - gnMeanFromZero x) * (x r - gnMeanFromZero x)) gnDivisor)
    (Ideal.ofBits .f32 0x7FC00000#32)

/-- A sum started from the zero word is the sum. -/
theorem gn_mean_eq (x : Fin 10000 → EReal) : gnMeanFromZero x = Ideal.div (∑ r, x r) gnRows := by
  unfold gnMeanFromZero
  rw [Cert.KernelIdeal.HandV.pw_ofBits_zero, zero_add]

/-- The divisor is the row count. -/
theorem gn_divisor_eq : gnDivisor = gnRows := by
  show gnRows - (((0#32 : BitVec 32).toInt : ℝ) : EReal) = gnRows
  simp

/-- The guard holds: the guarded variance is the mean of the squared deviations from the mean. -/
theorem gn_var_eq (x : Fin 10000 → EReal) :
    gnVarGuarded x = Ideal.div (∑ r, (x r - Ideal.div (∑ r, x r) gnRows) * (x r - Ideal.div (∑ r, x r) gnRows)) gnRows := by
  unfold gnVarGuarded
  rw [gn_mean_eq, gn_divisor_eq, Cert.KernelIdeal.HandV.pw_ofBits_zero, zero_add]
  have hc : FloatOps.cmpf (F := Ideal) (φ := .f32) .ogt gnRows 0 = 1#1 := by
    rw [show gnRows = ((10000 : ℝ) : EReal) from Cert.KernelIdeal.HandV.pw_ofBits_10000]
    show BitVec.ofBool (decide ((0 : EReal) < ((10000 : ℝ) : EReal))) = 1#1
    rw [decide_eq_true (by exact_mod_cast (by norm_num : (0 : ℝ) < 10000))]; rfl
  unfold Scalar.select
  exact if_pos hc

section graph
variable (q : Fin 64)

/-- The mean, as the reference spells it. -/
theorem graph_mean : R V main_v220 (ix1 q) = gnMeanFromZero (fun r => rarr (S := S10000x64) (R V main_v213) (ix2 r q)) := by
  rw [r_325, r_322, r_321, r_324, r_323]
  show Ideal.div (Host.reduceAdd (F := Ideal) (φ := .f32) (R V main_v213) (constant (F := Ideal) S_ .f32 0x00000000#32)
      reducesTo_S10000x64_S64_d0 h_S_ (ix1 q)) (Ideal.ofBits .f32 0x461C4000#32) = _
  rw [colSum10000]
  rfl

theorem graph_varMean : R V main_call4_v3 (ix2 (0 : Fin 1) q) = gnMeanFromZero (fun r => rarr (S := S10000x64) (R V main_v213) (ix2 r q)) := by
  rw [r_332, r_329, r_328, r_327, r_331, r_330]
  show Ideal.div (broadcastInDim S1x64 ![1] bcast_S64_S1x64_1
      (Host.reduceAdd (F := Ideal) (φ := .f32) (R V main_v213) (constant (F := Ideal) S_ .f32 0x00000000#32)
        reducesTo_S10000x64_S64_d0 h_S_) (ix2 (0 : Fin 1) q)) (Ideal.ofBits .f32 0x461C4000#32) = _
  rw [bcast_row_apply, colSum10000]
  rfl

theorem graph_sqDev (r : Fin 10000) : R V main_call4_v6 (ix2 r q)
    = (rarr (S := S10000x64) (R V main_v213) (ix2 r q) - gnMeanFromZero (fun r => rarr (S := S10000x64) (R V main_v213) (ix2 r q)))
      * (rarr (S := S10000x64) (R V main_v213) (ix2 r q) - gnMeanFromZero (fun r => rarr (S := S10000x64) (R V main_v213) (ix2 r q))) := by
  rw [r_335, r_334, r_333]
  show (rarr (S := S10000x64) (R V main_v213) (ix2 r q) - broadcastInDim S10000x64 ![0, 1] bcast_S1x64_S10000x64_0_1 (R V main_call4_v3) (ix2 r q))
      * (rarr (S := S10000x64) (R V main_v213) (ix2 r q) - broadcastInDim S10000x64 ![0, 1] bcast_S1x64_S10000x64_0_1 (R V main_call4_v3) (ix2 r q)) = _
  rw [bcast_rows10000_apply, graph_varMean]

theorem graph_divisor : R V main_call4_v8 ix0 = gnDivisor := by
  rw [r_338, r_337, r_336, r_326]
  rfl

/-- The variance, as the reference spells it. -/
theorem graph_var : R V main_v221 (ix1 q) = gnVarGuarded (fun r => rarr (S := S10000x64) (R V main_v213) (ix2 r q)) := by
  have hsum : R V main_call4_v9 (ix1 q) = Ideal.ofBits .f32 0x00000000#32
      + ∑ r : Fin 10000, (rarr (S := S10000x64) (R V main_v213) (ix2 r q) - gnMeanFromZero (fun r => rarr (S := S10000x64) (R V main_v213) (ix2 r q)))
        * (rarr (S := S10000x64) (R V main_v213) (ix2 r q) - gnMeanFromZero (fun r => rarr (S := S10000x64) (R V main_v213) (ix2 r q))) := by
    rw [r_340, r_339]
    beta_reduce
    rw [colSum10000]
    exact congrArg (fun z => Ideal.ofBits .f32 0x00000000#32 + z) (Finset.sum_congr rfl fun r _ => graph_sqDev V q r)
  have hquot : R V main_call4_v11 (ix1 q) = Ideal.div (R V main_call4_v9 (ix1 q)) gnDivisor := by
    rw [r_342, r_341]
    show Ideal.div (R V main_call4_v9 (ix1 q)) (broadcastInDim S64 ![] bcast_S_S64 (R V main_call4_v8) (ix1 q)) = _
    rw [bcast_scalar_apply, graph_divisor]
  have hguard : R V main_call4_v12 ix0 = FloatOps.cmpf (F := Ideal) (φ := .f32) .ogt gnDivisor (Ideal.ofBits .f32 0x00000000#32) := by
    rw [r_344, r_343]
    show FloatOps.cmpf (F := Ideal) (φ := .f32) .ogt (R V main_call4_v8 ix0) (Ideal.ofBits .f32 0x00000000#32) = _
    rw [graph_divisor]
  have hnan : R V main_call4_call0_v1 (ix1 q) = Ideal.ofBits .f32 0x7FC00000#32 := by
    rw [r_347, r_346, r_345]
    rfl
  rw [r_348]
  show Scalar.select (broadcastInDim S64 ![] bcast_S_S64 (R V main_call4_v12) (ix1 q)) (R V main_call4_v11 (ix1 q))
      (R V main_call4_call0_v1 (ix1 q)) = _
  rw [bcast_scalar_apply, hguard, hquot, hsum, hnan]
  unfold gnVarGuarded
  rfl

/-- The scale and shift vectors are rows 2 of the two `[3, 64]` tables. -/
theorem graph_scale : R V main_v215 (ix1 q) = R V main_arg7 (ix2 (2 : Fin 3) q) := by
  rw [r_318, r_317]
  show shapeCast S64 (extractStridedSlice S1x64 ![2, 0] (R V main_arg7) slices_S3x64_S1x64_2_0) shapeCasts_S1x64_S64 (ix1 q) = _
  rw [shapeCast_1a_a_apply]
  exact slice2_axis0_apply 2 (R V main_arg7) slices_S3x64_S1x64_2_0 (0 : Fin 1) q (2 : Fin 3) rfl

theorem graph_shift : R V main_v217 (ix1 q) = R V main_arg8 (ix2 (2 : Fin 3) q) := by
  rw [r_320, r_319]
  show shapeCast S64 (extractStridedSlice S1x64 ![2, 0] (R V main_arg8) slices_S3x64_S1x64_2_0) shapeCasts_S1x64_S64 (ix1 q) = _
  rw [shapeCast_1a_a_apply]
  exact slice2_axis0_apply 2 (R V main_arg8) slices_S3x64_S1x64_2_0 (0 : Fin 1) q (2 : Fin 3) rfl

/-- When the normalized array is the entrywise sum `A0 + A1`, the reference's mean and variance are the column mean and
    variance of that sum, spelt as the plain sums over the row count. -/
theorem graph_mean_of_sum (A0 A1 : S10000x64.Idx → EReal)
    (h : ∀ r : Fin 10000, rarr (S := S10000x64) (R V main_v213) (ix2 r q) = A0 (ix2 r q) + A1 (ix2 r q)) :
    R V main_v220 (ix1 q) = Ideal.div (∑ r : Fin 10000, (A0 (ix2 r q) + A1 (ix2 r q))) gnRows := by
  rw [graph_mean, gn_mean_eq]
  exact congrArg (fun z => Ideal.div z gnRows) (Finset.sum_congr rfl fun r _ => h r)

theorem graph_var_of_sum (A0 A1 : S10000x64.Idx → EReal)
    (h : ∀ r : Fin 10000, rarr (S := S10000x64) (R V main_v213) (ix2 r q) = A0 (ix2 r q) + A1 (ix2 r q)) :
    R V main_v221 (ix1 q)
      = Ideal.div (∑ r : Fin 10000,
          ((A0 (ix2 r q) + A1 (ix2 r q)) - Ideal.div (∑ r : Fin 10000, (A0 (ix2 r q) + A1 (ix2 r q))) gnRows)
          * ((A0 (ix2 r q) + A1 (ix2 r q)) - Ideal.div (∑ r : Fin 10000, (A0 (ix2 r q) + A1 (ix2 r q))) gnRows)) gnRows := by
  have hx : (fun r : Fin 10000 => rarr (S := S10000x64) (R V main_v213) (ix2 r q)) = fun r => A0 (ix2 r q) + A1 (ix2 r q) :=
    funext h
  rw [graph_var, hx, gn_var_eq]

end graph
-- ==== Proof.Ref.NormRead.lean ====
import proofs.«180658_j65867618451767_1_alg».proof.Proof.Ref.StatsRead
import proofs.«180658_j65867618451767_1_alg».proof.Proof.KI.PwLaws
import Idealize.ShloMosaic.Lib.ValueIdx
import Idealize.ShloMosaic.Lib.Pipeline.Value
import Idealize.ShloMosaic.Lib.ValueLayout
import Idealize.ShloMosaic.PureOps.Ideal.Laws

/-! The reference's three normalizations read at an entry: the affine normalization by the column's statistics and
    parameter rows, then ELU, in the specification's scalar functions; and the bond gate's logistic quotient. -/

set_option maxRecDepth 16384

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx
open Cert.KernelIdeal.HandV (bnRows bnMean bnMeanFromZero bnDivisor bnVarGuarded pwElu pwNorm pwSigmoid pwEps)
open scoped BigOperators

/-- A buffer's contents as an array of extended reals over a stated shape. -/
abbrev narr {S : Shape} (x : S.Idx → EReal) : S.Idx → EReal := x

variable (V : Valuation τ sig (Elt Ideal))

/-! ## The bond normalization -/

section bondN
variable (r : Fin 250000) (q : Fin 64)

/-- The mean, the reciprocal root of the offset variance, the scale and the shift, each laid out as one row and repeated
    down the rows, read at an entry. -/
theorem bondN_meanAt : narr (S := S250000x64) (R V main_v83) (ix2 r q) = narr (S := S64) (R V main_v80) (ix1 q) := by
  rw [r_113, r_112]
  exact (bcast_rows250000_apply _ r q).trans (bcast_row_apply _ 0 q)

theorem bondN_rsqrtAt : narr (S := S250000x64) (R V main_v89) (ix2 r q)
    = Ideal.rsqrt (narr (S := S64) (R V main_v81) (ix1 q) + pwEps) := by
  rw [r_120, r_119, r_118, r_117, r_116, r_115]
  exact (bcast_rows250000_apply _ r q).trans ((bcast_row_apply _ 0 q).trans rfl)

theorem bondN_scaleAt : narr (S := S250000x64) (R V main_v92) (ix2 r q) = narr (S := S64) (R V main_v75) (ix1 q) := by
  rw [r_123, r_122]
  exact (bcast_rows250000_apply _ r q).trans (bcast_row_apply _ 0 q)

theorem bondN_shiftAt : narr (S := S250000x64) (R V main_v95) (ix2 r q) = narr (S := S64) (R V main_v77) (ix1 q) := by
  rw [r_126, r_125]
  exact (bcast_rows250000_apply _ r q).trans (bcast_row_apply _ 0 q)

/-- The normalized entry before the ELU. -/
theorem bondN_norm : narr (S := S250000x64) (R V main_v96) (ix2 r q)
    = pwNorm (narr (S := S250000x64) (R V main_v73) (ix2 r q)) (narr (S := S64) (R V main_v80) (ix1 q)) (narr (S := S64) (R V main_v81) (ix1 q))
        (narr (S := S64) (R V main_v75) (ix1 q)) (narr (S := S64) (R V main_v77) (ix1 q)) := by
  rw [r_127, r_124, r_121, r_114]
  show (narr (S := S250000x64) (R V main_v73) (ix2 r q) - narr (S := S250000x64) (R V main_v83) (ix2 r q)) * narr (S := S250000x64) (R V main_v89) (ix2 r q)
      * narr (S := S250000x64) (R V main_v92) (ix2 r q) + narr (S := S250000x64) (R V main_v95) (ix2 r q) = _
  rw [bondN_meanAt, bondN_rsqrtAt, bondN_scaleAt, bondN_shiftAt]
  rfl

/-- The ELU of an entry, in the reference's spelling, is the specification's. -/
theorem bondN_elu : narr (S := S250000x64) (R V main_v97) (ix2 r q) = pwElu (narr (S := S250000x64) (R V main_v96) (ix2 r q)) := by
  rw [r_142, r_130, r_129, r_128, r_141, r_140, r_139, r_138, r_137, r_133, r_132, r_131, r_136, r_135, r_134]
  exact Cert.KernelIdeal.HandV.elu_ref (narr (S := S250000x64) (R V main_v96) (ix2 r q))

/-- The normalized, activated entry. -/
theorem bondN_out : narr (S := S250000x64) (R V main_v97) (ix2 r q)
    = pwElu (pwNorm (narr (S := S250000x64) (R V main_v73) (ix2 r q)) (narr (S := S64) (R V main_v80) (ix1 q)) (narr (S := S64) (R V main_v81) (ix1 q))
        (narr (S := S64) (R V main_v75) (ix1 q)) (narr (S := S64) (R V main_v77) (ix1 q))) := by
  rw [bondN_elu, bondN_norm]

end bondN

/-- The bond gate: the logistic quotient of the activated entry. -/
theorem bondN_gate (r : Fin 250000) (q : Fin 64) :
    narr (S := S250000x64) (R V main_v103) (ix2 r q) = pwSigmoid (narr (S := S250000x64) (R V main_v97) (ix2 r q)) := by
  rw [r_150, r_149, r_148, r_147, r_146, r_145, r_144, r_143]
  exact Cert.KernelIdeal.HandV.sigmoid_ref (narr (S := S250000x64) (R V main_v97) (ix2 r q))

/-! ## The atom normalization -/

section atomN
variable (r : Fin 250000) (q : Fin 64)

/-- The mean, the reciprocal root of the offset variance, the scale and the shift, each laid out as one row and repeated
    down the rows, read at an entry. -/
theorem atomN_meanAt : narr (S := S250000x64) (R V main_v151) (ix2 r q) = narr (S := S64) (R V main_v148) (ix1 q) := by
  rw [r_231, r_230]
  exact (bcast_rows250000_apply _ r q).trans (bcast_row_apply _ 0 q)

theorem atomN_rsqrtAt : narr (S := S250000x64) (R V main_v157) (ix2 r q)
    = Ideal.rsqrt (narr (S := S64) (R V main_v149) (ix1 q) + pwEps) := by
  rw [r_238, r_237, r_236, r_235, r_234, r_233]
  exact (bcast_rows250000_apply _ r q).trans ((bcast_row_apply _ 0 q).trans rfl)

theorem atomN_scaleAt : narr (S := S250000x64) (R V main_v160) (ix2 r q) = narr (S := S64) (R V main_v143) (ix1 q) := by
  rw [r_241, r_240]
  exact (bcast_rows250000_apply _ r q).trans (bcast_row_apply _ 0 q)

theorem atomN_shiftAt : narr (S := S250000x64) (R V main_v163) (ix2 r q) = narr (S := S64) (R V main_v145) (ix1 q) := by
  rw [r_244, r_243]
  exact (bcast_rows250000_apply _ r q).trans (bcast_row_apply _ 0 q)

/-- The normalized entry before the ELU. -/
theorem atomN_norm : narr (S := S250000x64) (R V main_v164) (ix2 r q)
    = pwNorm (narr (S := S250000x64) (R V main_v141) (ix2 r q)) (narr (S := S64) (R V main_v148) (ix1 q)) (narr (S := S64) (R V main_v149) (ix1 q))
        (narr (S := S64) (R V main_v143) (ix1 q)) (narr (S := S64) (R V main_v145) (ix1 q)) := by
  rw [r_245, r_242, r_239, r_232]
  show (narr (S := S250000x64) (R V main_v141) (ix2 r q) - narr (S := S250000x64) (R V main_v151) (ix2 r q)) * narr (S := S250000x64) (R V main_v157) (ix2 r q)
      * narr (S := S250000x64) (R V main_v160) (ix2 r q) + narr (S := S250000x64) (R V main_v163) (ix2 r q) = _
  rw [atomN_meanAt, atomN_rsqrtAt, atomN_scaleAt, atomN_shiftAt]
  rfl

/-- The ELU of an entry, in the reference's spelling, is the specification's. -/
theorem atomN_elu : narr (S := S250000x64) (R V main_v165) (ix2 r q) = pwElu (narr (S := S250000x64) (R V main_v164) (ix2 r q)) := by
  rw [r_260, r_248, r_247, r_246, r_259, r_258, r_257, r_256, r_255, r_251, r_250, r_249, r_254, r_253, r_252]
  exact Cert.KernelIdeal.HandV.elu_ref (narr (S := S250000x64) (R V main_v164) (ix2 r q))

/-- The normalized, activated entry. -/
theorem atomN_out : narr (S := S250000x64) (R V main_v165) (ix2 r q)
    = pwElu (pwNorm (narr (S := S250000x64) (R V main_v141) (ix2 r q)) (narr (S := S64) (R V main_v148) (ix1 q)) (narr (S := S64) (R V main_v149) (ix1 q))
        (narr (S := S64) (R V main_v143) (ix1 q)) (narr (S := S64) (R V main_v145) (ix1 q))) := by
  rw [atomN_elu, atomN_norm]

end atomN

/-! ## The graph normalization -/

section graphN
variable (r : Fin 10000) (q : Fin 64)

/-- The mean, the reciprocal root of the offset variance, the scale and the shift, each laid out as one row and repeated
    down the rows, read at an entry. -/
theorem graphN_meanAt : narr (S := S10000x64) (R V main_v223) (ix2 r q) = narr (S := S64) (R V main_v220) (ix1 q) := by
  rw [r_350, r_349]
  exact (bcast_rows10000_apply _ r q).trans (bcast_row_apply _ 0 q)

theorem graphN_rsqrtAt : narr (S := S10000x64) (R V main_v229) (ix2 r q)
    = Ideal.rsqrt (narr (S := S64) (R V main_v221) (ix1 q) + pwEps) := by
  rw [r_357, r_356, r_355, r_354, r_353, r_352]
  exact (bcast_rows10000_apply _ r q).trans ((bcast_row_apply _ 0 q).trans rfl)

theorem graphN_scaleAt : narr (S := S10000x64) (R V main_v232) (ix2 r q) = narr (S := S64) (R V main_v215) (ix1 q) := by
  rw [r_360, r_359]
  exact (bcast_rows10000_apply _ r q).trans (bcast_row_apply _ 0 q)

theorem graphN_shiftAt : narr (S := S10000x64) (R V main_v235) (ix2 r q) = narr (S := S64) (R V main_v217) (ix1 q) := by
  rw [r_363, r_362]
  exact (bcast_rows10000_apply _ r q).trans (bcast_row_apply _ 0 q)

/-- The normalized entry before the ELU. -/
theorem graphN_norm : narr (S := S10000x64) (R V main_v236) (ix2 r q)
    = pwNorm (narr (S := S10000x64) (R V main_v213) (ix2 r q)) (narr (S := S64) (R V main_v220) (ix1 q)) (narr (S := S64) (R V main_v221) (ix1 q))
        (narr (S := S64) (R V main_v215) (ix1 q)) (narr (S := S64) (R V main_v217) (ix1 q)) := by
  rw [r_364, r_361, r_358, r_351]
  show (narr (S := S10000x64) (R V main_v213) (ix2 r q) - narr (S := S10000x64) (R V main_v223) (ix2 r q)) * narr (S := S10000x64) (R V main_v229) (ix2 r q)
      * narr (S := S10000x64) (R V main_v232) (ix2 r q) + narr (S := S10000x64) (R V main_v235) (ix2 r q) = _
  rw [graphN_meanAt, graphN_rsqrtAt, graphN_scaleAt, graphN_shiftAt]
  rfl

/-- The ELU of an entry, in the reference's spelling, is the specification's. -/
theorem graphN_elu : narr (S := S10000x64) (R V main_v237) (ix2 r q) = pwElu (narr (S := S10000x64) (R V main_v236) (ix2 r q)) := by
  rw [r_379, r_367, r_366, r_365, r_378, r_377, r_376, r_375, r_374, r_370, r_369, r_368, r_373, r_372, r_371]
  exact Cert.KernelIdeal.HandV.elu_ref (narr (S := S10000x64) (R V main_v236) (ix2 r q))

/-- The normalized, activated entry. -/
theorem graphN_out : narr (S := S10000x64) (R V main_v237) (ix2 r q)
    = pwElu (pwNorm (narr (S := S10000x64) (R V main_v213) (ix2 r q)) (narr (S := S64) (R V main_v220) (ix1 q)) (narr (S := S64) (R V main_v221) (ix1 q))
        (narr (S := S64) (R V main_v215) (ix1 q)) (narr (S := S64) (R V main_v217) (ix1 q))) := by
  rw [graphN_elu, graphN_norm]

end graphN
-- ==== Proof.Bridge.BondNorm.lean ====
/-
  The bond normalization agrees, given that the array it normalizes does and is real-valued. The kernel program keeps
  each column's sum and sum of squares and forms the variance as the mean of the squares less the square of the mean;
  the reference forms the guarded mean of the squared deviations. On a real column these are one number; the scale and
  shift rows are row 0 of the shared tables; then both apply the same affine normalization, ELU and logistic gate.
-/
import proofs.«180658_j65867618451767_1_alg».proof.Proof.Bridge.Base
import proofs.«180658_j65867618451767_1_alg».proof.Proof.KI.RegEqs
import proofs.«180658_j65867618451767_1_alg».proof.Proof.KI.RegEqs2
import proofs.«180658_j65867618451767_1_alg».proof.Proof.KI.StatsEqs
import proofs.«180658_j65867618451767_1_alg».proof.Proof.KI.BnLaw
import proofs.«180658_j65867618451767_1_alg».proof.Proof.Ref.NormRead

set_option maxRecDepth 16384

noncomputable section

open scoped BigOperators

namespace Cert.Bridge

open Idealize.ShloMosaic Idealize.ShloMosaic.TcCoe Idealize.ShloMosaic.StableHlo Idealize.ShloMosaic.ValueIdx
open Cert.KernelIdeal.HandV (pwElu pwNorm pwSigmoid pwRow pwEps guMean guVar guDev guSum guRows G7_4 G3_5 G3_6 G5_5
  bnRows bnMean bnMeanFromZero bnVarGuarded bnVarOfSquares)
open Cert.LibBatchNorm (IsReal)

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-! ## The bond normalization, column by column -/

section bond

/-- Column `q` of the normalized array, as the kernel program holds it. -/
abbrev bondCol (q : Fin 64) : Fin 250000 → EReal := fun r => fn Cert.KernelIdeal.S250000x64 (Kv m ρ c Cert.KernelIdeal.main_v74_0) (ix2 r q)

variable (hA : Agree m ρ c V')
  (hx : Rv V' Cert.ReferenceIdeal.main_v73 = Kv m ρ c Cert.KernelIdeal.main_v74_0)
  (hreal : ∀ i, IsReal (fn Cert.KernelIdeal.S250000x64 (Kv m ρ c Cert.KernelIdeal.main_v74_0) i))
  (hs1 : ∀ q : Fin 64, fn Cert.KernelIdeal.S1x64 (Kv m ρ c Cert.KernelIdeal.main_v74_1) (ix2 0 q) = ∑ r : Fin 250000, fn Cert.KernelIdeal.S250000x64 (Kv m ρ c Cert.KernelIdeal.main_v74_0) (ix2 r q))
  (hs2 : ∀ q : Fin 64, fn Cert.KernelIdeal.S1x64 (Kv m ρ c Cert.KernelIdeal.main_v74_2) (ix2 0 q)
      = ∑ r : Fin 250000, fn Cert.KernelIdeal.S250000x64 (Kv m ρ c Cert.KernelIdeal.main_v74_0) (ix2 r q) * fn Cert.KernelIdeal.S250000x64 (Kv m ρ c Cert.KernelIdeal.main_v74_0) (ix2 r q))

include hs1 in
/-- The kernel program's mean row is the column's mean. -/
theorem bond_kmean (q : Fin 64) : pwRow (fn Cert.KernelIdeal.S1x64 (Kv m ρ c Cert.KernelIdeal.main_v76)) q = bnMean (bondCol m ρ c q) := by
  refine (Cert.KernelIdeal.HandV.bond_mean m ρ c q).trans ?_
  show Ideal.div (fn Cert.KernelIdeal.S1x64 (Kv m ρ c Cert.KernelIdeal.main_v74_1) (ix2 0 q)) bnRows = _
  rw [hs1 q]
  rfl

include hs1 hs2 in
/-- The kernel program's variance row is the mean of the column's squares less the square of its mean. -/
theorem bond_kvar (q : Fin 64) : pwRow (fn Cert.KernelIdeal.S1x64 (Kv m ρ c Cert.KernelIdeal.main_v80)) q = bnVarOfSquares (bondCol m ρ c q) := by
  refine (Cert.KernelIdeal.HandV.bond_var m ρ c q).trans ?_
  show Ideal.div (fn Cert.KernelIdeal.S1x64 (Kv m ρ c Cert.KernelIdeal.main_v74_2) (ix2 0 q)) bnRows
      - pwRow (fn Cert.KernelIdeal.S1x64 (Kv m ρ c Cert.KernelIdeal.main_v76)) q * pwRow (fn Cert.KernelIdeal.S1x64 (Kv m ρ c Cert.KernelIdeal.main_v76)) q = _
  rw [hs2 q, bond_kmean m ρ c hs1 q]
  rfl

include hx in
/-- The reference's normalized array, column `q`, is the kernel program's. -/
theorem bond_col (q : Fin 64) :
    (fun r : Fin 250000 => Cert.ReferenceIdeal.HandV.rarr (S := Cert.ReferenceIdeal.S250000x64) (Cert.ReferenceIdeal.HandV.R V' Cert.ReferenceIdeal.main_v73) (ix2 r q)) = bondCol m ρ c q := by
  have e := hx
  unfold Rv at e
  funext r
  show Cert.ReferenceIdeal.HandV.R V' Cert.ReferenceIdeal.main_v73 (ix2 r q) = _
  rw [e]

include hx in
/-- The reference's mean is the column's mean (its sum started from zero). -/
theorem bond_rmean (q : Fin 64) :
    Cert.ReferenceIdeal.HandV.narr (S := Cert.ReferenceIdeal.S64) (Cert.ReferenceIdeal.HandV.R V' Cert.ReferenceIdeal.main_v80) (ix1 q) = bnMean (bondCol m ρ c q) := by
  refine (Cert.ReferenceIdeal.HandV.bond_mean V' q).trans ?_
  rw [bond_col m ρ c V' hx q]
  exact Cert.KernelIdeal.HandV.bn_mean_eq _

include hx hreal in
/-- The reference's guarded variance of a real column is the mean of the squares less the square of the mean. -/
theorem bond_rvar (q : Fin 64) :
    Cert.ReferenceIdeal.HandV.narr (S := Cert.ReferenceIdeal.S64) (Cert.ReferenceIdeal.HandV.R V' Cert.ReferenceIdeal.main_v81) (ix1 q) = bnVarOfSquares (bondCol m ρ c q) := by
  refine (Cert.ReferenceIdeal.HandV.bond_var V' q).trans ?_
  rw [bond_col m ρ c V' hx q]
  exact (Cert.KernelIdeal.HandV.bn_var_eq _ (fun r => hreal (ix2 r q))).symm

include hA in
/-- The scale and shift rows are the same rows of the shared tables. -/
theorem bond_rscale (q : Fin 64) :
    Cert.ReferenceIdeal.HandV.narr (S := Cert.ReferenceIdeal.S64) (Cert.ReferenceIdeal.HandV.R V' Cert.ReferenceIdeal.main_v75) (ix1 q) = pwRow (fn Cert.KernelIdeal.S1x64 (Kv m ρ c Cert.KernelIdeal.main_v81)) q := by
  have e7 := hA.a7
  unfold Rv at e7
  refine (Cert.ReferenceIdeal.HandV.bond_scale V' q).trans ?_
  rw [e7]
  exact (Cert.KernelIdeal.HandV.bond_scale m ρ c q).symm

include hA in
theorem bond_rshift (q : Fin 64) :
    Cert.ReferenceIdeal.HandV.narr (S := Cert.ReferenceIdeal.S64) (Cert.ReferenceIdeal.HandV.R V' Cert.ReferenceIdeal.main_v77) (ix1 q) = pwRow (fn Cert.KernelIdeal.S1x64 (Kv m ρ c Cert.KernelIdeal.main_v82)) q := by
  have e8 := hA.a8
  unfold Rv at e8
  refine (Cert.ReferenceIdeal.HandV.bond_shift V' q).trans ?_
  rw [e8]
  exact (Cert.KernelIdeal.HandV.bond_shift m ρ c q).symm

include hA hx hreal hs1 hs2 in
/-- An entry of the normalized, activated array: the same on both sides. -/
theorem bond_entry (r : Fin 250000) (q : Fin 64) :
    Cert.ReferenceIdeal.HandV.narr (S := Cert.ReferenceIdeal.S250000x64) (Cert.ReferenceIdeal.HandV.R V' Cert.ReferenceIdeal.main_v97) (ix2 r q)
      = G3_5 (fn Cert.KernelIdeal.S250000x64 (Kv m ρ c Cert.KernelIdeal.main_v74_0)) (fn Cert.KernelIdeal.S1x64 (Kv m ρ c Cert.KernelIdeal.main_v76))
          (fn Cert.KernelIdeal.S1x64 (Kv m ρ c Cert.KernelIdeal.main_v80)) (fn Cert.KernelIdeal.S1x64 (Kv m ρ c Cert.KernelIdeal.main_v81)) (fn Cert.KernelIdeal.S1x64 (Kv m ρ c Cert.KernelIdeal.main_v82)) (ix2 r q) := by
  refine (Cert.ReferenceIdeal.HandV.bondN_out V' r q).trans ?_
  have hxe : Cert.ReferenceIdeal.HandV.narr (S := Cert.ReferenceIdeal.S250000x64) (Cert.ReferenceIdeal.HandV.R V' Cert.ReferenceIdeal.main_v73) (ix2 r q) = fn Cert.KernelIdeal.S250000x64 (Kv m ρ c Cert.KernelIdeal.main_v74_0) (ix2 r q) :=
    congrFun (bond_col m ρ c V' hx q) r
  rw [hxe, bond_rmean m ρ c V' hx q, bond_rvar m ρ c V' hx hreal q, bond_rscale m ρ c V' hA q, bond_rshift m ρ c V' hA q,
    ← bond_kmean m ρ c hs1 q, ← bond_kvar m ρ c hs1 hs2 q]
  rfl

end bond

/-- The bond normalization and its gate agree, the kernel program's two column-sum rows being the sums of the array's
    columns and of their squares. -/
theorem bond_norm_of (hA : Agree m ρ c V')
    (hx : Rv V' Cert.ReferenceIdeal.main_v73 = Kv m ρ c Cert.KernelIdeal.main_v74_0)
    (hreal : ∀ i, IsReal (fn Cert.KernelIdeal.S250000x64 (Kv m ρ c Cert.KernelIdeal.main_v74_0) i))
    (hs1 : ∀ q : Fin 64, fn Cert.KernelIdeal.S1x64 (Kv m ρ c Cert.KernelIdeal.main_v74_1) (ix2 0 q) = ∑ r : Fin 250000, fn Cert.KernelIdeal.S250000x64 (Kv m ρ c Cert.KernelIdeal.main_v74_0) (ix2 r q))
    (hs2 : ∀ q : Fin 64, fn Cert.KernelIdeal.S1x64 (Kv m ρ c Cert.KernelIdeal.main_v74_2) (ix2 0 q)
      = ∑ r : Fin 250000, fn Cert.KernelIdeal.S250000x64 (Kv m ρ c Cert.KernelIdeal.main_v74_0) (ix2 r q) * fn Cert.KernelIdeal.S250000x64 (Kv m ρ c Cert.KernelIdeal.main_v74_0) (ix2 r q)) :
    Rv V' Cert.ReferenceIdeal.main_v97 = Kv m ρ c Cert.KernelIdeal.main_v83_0 ∧ Rv V' Cert.ReferenceIdeal.main_v103 = Kv m ρ c Cert.KernelIdeal.main_v83_1 := by
  have h97 : Rv V' Cert.ReferenceIdeal.main_v97 = Kv m ρ c Cert.KernelIdeal.main_v83_0 := by
    show fn Cert.KernelIdeal.S250000x64 (Rv V' Cert.ReferenceIdeal.main_v97) = fn Cert.KernelIdeal.S250000x64 (Kv m ρ c Cert.KernelIdeal.main_v83_0)
    funext j
    obtain ⟨r, q, rfl⟩ : ∃ (r : Fin 250000) (q : Fin 64), j = ix2 r q := ⟨j 0, j 1, eq_ix2 j⟩
    refine (bond_entry m ρ c V' hA hx hreal hs1 hs2 r q).trans ?_
    exact (congrFun (Cert.KernelIdeal.HandV.reg3_5 m ρ c) (ix2 r q)).symm
  refine ⟨h97, ?_⟩
  show fn Cert.KernelIdeal.S250000x64 (Rv V' Cert.ReferenceIdeal.main_v103) = fn Cert.KernelIdeal.S250000x64 (Kv m ρ c Cert.KernelIdeal.main_v83_1)
  funext j
  obtain ⟨r, q, rfl⟩ : ∃ (r : Fin 250000) (q : Fin 64), j = ix2 r q := ⟨j 0, j 1, eq_ix2 j⟩
  refine (Cert.ReferenceIdeal.HandV.bondN_gate V' r q).trans ?_
  refine Eq.trans ?_ (congrFun (Cert.KernelIdeal.HandV.reg3_6 m ρ c) (ix2 r q)).symm
  rw [bond_entry m ρ c V' hA hx hreal hs1 hs2 r q]
  rfl

/-- The bond normalization and its gate agree: the kernel program's column-sum rows are, by the region's closed forms,
    the sums of the array's columns and of their squares. -/
theorem bond_norm (hA : Agree m ρ c V')
    (hx : Rv V' Cert.ReferenceIdeal.main_v73 = Kv m ρ c Cert.KernelIdeal.main_v74_0)
    (hreal : ∀ i, IsReal (fn Cert.KernelIdeal.S250000x64 (Kv m ρ c Cert.KernelIdeal.main_v74_0) i)) :
    Rv V' Cert.ReferenceIdeal.main_v97 = Kv m ρ c Cert.KernelIdeal.main_v83_0 ∧ Rv V' Cert.ReferenceIdeal.main_v103 = Kv m ρ c Cert.KernelIdeal.main_v83_1 := by
  have e5 := Cert.KernelIdeal.HandV.reg2_5 m ρ c
  have e6 := Cert.KernelIdeal.HandV.reg2_6 m ρ c
  have e7 := Cert.KernelIdeal.HandV.reg2_7 m ρ c
  refine bond_norm_of m ρ c V' hA hx hreal (fun q => ?_) (fun q => ?_)
  · show fn Cert.KernelIdeal.S1x64 (Cert.KernelIdeal.HandV.Wf m ρ c Cert.KernelIdeal.main_v74_1) (ix2 0 q)
      = ∑ r : Fin 250000, fn Cert.KernelIdeal.S250000x64 (Cert.KernelIdeal.HandV.Wf m ρ c Cert.KernelIdeal.main_v74_0) (ix2 r q)
    rw [e6, e5]
  · show fn Cert.KernelIdeal.S1x64 (Cert.KernelIdeal.HandV.Wf m ρ c Cert.KernelIdeal.main_v74_2) (ix2 0 q)
      = ∑ r : Fin 250000, fn Cert.KernelIdeal.S250000x64 (Cert.KernelIdeal.HandV.Wf m ρ c Cert.KernelIdeal.main_v74_0) (ix2 r q) * fn Cert.KernelIdeal.S250000x64 (Cert.KernelIdeal.HandV.Wf m ρ c Cert.KernelIdeal.main_v74_0) (ix2 r q)
    rw [e7, e5]
-- ==== Proof.KI.Val4.lean ====
/-
  Region 4, the values: what each case of the body leaves in the three output buffers, as the body's own arithmetic
  (the skeleton's payloads) of the blocks it loaded. The first output's block is the row values themselves; each of the two
  [1,64] outputs is "what the buffer held, plus this block's column sum" — at the first point on top of the zeros just stored,
  at a later point on top of the running contents.
-/
import proofs.«180658_j65867618451767_1_alg».proof.Proof.Gen.KernelIdeal.Launch
import proofs.«180658_j65867618451767_1_alg».proof.Proof.Gen.KernelIdeal.Skeleton
import proofs.«180658_j65867618451767_1_alg».proof.Proof.Gen.KernelIdeal.Points
import Idealize.ShloMosaic.Lib.Pipeline.FrameBody
import Idealize.ShloMosaic.Lib.Ring
import Idealize.ShloMosaic.Lib.Tactic
import proofs.«180658_j65867618451767_1_alg».proof.Proof.KI.Reg4
import Idealize.ShloMosaic.Lib.Pipeline.Value
import proofs.«180658_j65867618451767_1_alg».proof.Proof.LibKeepdims
import Idealize.ShloMosaic.Lib.ValueIdx
import Idealize.ShloMosaic.Lib.ValueLayout
import Idealize.ShloMosaic.PureOps.Ideal.Laws
import proofs.«180658_j65867618451767_1_alg».proof.Proof.KI.ValMm

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem out4_A_5_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 x1 x2 x3 : Vec F S10000x64 .f32) (x4 : Vec F S10000x1 .f32) :
    out4_A_5 c i arg1 harg1 arg2 harg2 arg3 harg3 arg4 harg4 arg5 harg5 arg6 harg6 arg7 harg7 arg8 harg8 hc0 x0 x1 x2 x3 x4 = k4_pay1 x1 x2 x0 x3 x4 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out4_A_6_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 x1 x2 x3 : Vec F S10000x64 .f32) (x4 : Vec F S10000x1 .f32) :
    out4_A_6 c i arg1 harg1 arg2 harg2 arg3 harg3 arg4 harg4 arg5 harg5 arg6 harg6 arg7 harg7 arg8 harg8 hc0 x0 x1 x2 x3 x4 = k4_pay4 x1 x2 x0 x3 x4 (k4_pay2 (F := F)) := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out4_A_7_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : cond4_0 i)
    (x0 x1 x2 x3 : Vec F S10000x64 .f32) (x4 : Vec F S10000x1 .f32) :
    out4_A_7 c i arg1 harg1 arg2 harg2 arg3 harg3 arg4 harg4 arg5 harg5 arg6 harg6 arg7 harg7 arg8 harg8 hc0 x0 x1 x2 x3 x4 = k4_pay5 x1 x2 x0 x3 x4 (k4_pay3 (F := F)) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out4_B_5_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 x1 x2 x3 : Vec F S10000x64 .f32) (x4 : Vec F S10000x1 .f32) (xo6 xo7 : Vec F S1x64 .f32) :
    out4_B_5 c i arg1 harg1 arg2 harg2 arg3 harg3 arg4 harg4 arg5 harg5 arg6 harg6 arg7 harg7 arg8 harg8 hc0 x0 x1 x2 x3 x4 xo6 xo7 = k4_pay1 x1 x2 x0 x3 x4 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out4_B_6_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 x1 x2 x3 : Vec F S10000x64 .f32) (x4 : Vec F S10000x1 .f32) (xo6 xo7 : Vec F S1x64 .f32) :
    out4_B_6 c i arg1 harg1 arg2 harg2 arg3 harg3 arg4 harg4 arg5 harg5 arg6 harg6 arg7 harg7 arg8 harg8 hc0 x0 x1 x2 x3 x4 xo6 xo7 = k4_pay4 x1 x2 x0 x3 x4 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

theorem out4_B_7_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x1 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (hc0 : ¬cond4_0 i)
    (x0 x1 x2 x3 : Vec F S10000x64 .f32) (x4 : Vec F S10000x1 .f32) (xo6 xo7 : Vec F S1x64 .f32) :
    out4_B_7 c i arg1 harg1 arg2 harg2 arg3 harg3 arg4 harg4 arg5 harg5 arg6 harg6 arg7 harg7 arg8 harg8 hc0 x0 x1 x2 x3 x4 xo6 xo7 = k4_pay5 x1 x2 x0 x3 x4 xo7 := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_unit_zero hz2]
  simp only [View.readAt_eq_ld, harg1.read_unread, harg2.read_unread, harg3.read_unread, harg4.read_unread, harg5.read_unread, harg7.read_unread, harg8.read_unread,
    View.ld_unit_zero (S := S10000x64) hz2, View.ld_unit_zero (S := S10000x1) hz2, View.ld_unit_zero (S := S1x64) hz2, View.readCov_unit_zero (S := S1x64) _ hz2]

/-! # The values on the extended reals

    From here on the float instance is the extended reals. The first output array is the row values, block by block;
    the two [1,64] outputs are the column sums of the row values and of their squares over all 250000 rows, built up
    point by point in their one staging buffer and written back at the last point. -/

section AtIdeal

open scoped BigOperators
open Idealize.ShloMosaic.ValueIdx

/-! ## On the extended reals: the payloads at an index -/

/-- The row values at row `y`, column `q` of a block, in the payload's own grouping, times the row's scale (the
    [10000,1] column read at its one column). The same-shape casts are the identity. -/
theorem rowVals4_at (p0 p1 p2 p3 : Vec Ideal S10000x64 .f32) (p4 : Vec Ideal S10000x1 .f32) (y : Fin 10000) (q : Fin 64) :
    k4_pay1 (F := Ideal) p0 p1 p2 p3 p4 (ix2 y q)
      = ((p2 (ix2 y q) + Ideal.div (p0 (ix2 y q)) (p1 (ix2 y q))) + p3 (ix2 y q)) * p4 (ix2 y (0 : Fin 1)) := by
  unfold k4_pay1
  have h0 : shapeCast S10000x64 p0 shapeCasts_S10000x64_S10000x64 = p0 := shapeCast_self _ _
  have h1 : shapeCast S10000x64 p1 shapeCasts_S10000x64_S10000x64 = p1 := shapeCast_self _ _
  have h2 : shapeCast S10000x64 p2 shapeCasts_S10000x64_S10000x64 = p2 := shapeCast_self _ _
  have h3 : shapeCast S10000x64 p3 shapeCasts_S10000x64_S10000x64 = p3 := shapeCast_self _ _
  have hb : broadcastTo S10000x64 p4 broadcasts_S10000x1_S10000x64 (ix2 y q) = p4 (ix2 y (0 : Fin 1)) :=
    Cert.LibKeepdims.broadcastTo_a1_ab_apply p4 broadcasts_S10000x1_S10000x64 y q
  show ((shapeCast S10000x64 p2 shapeCasts_S10000x64_S10000x64 (ix2 y q) + Ideal.div (shapeCast S10000x64 p0 shapeCasts_S10000x64_S10000x64 (ix2 y q)) (shapeCast S10000x64 p1 shapeCasts_S10000x64_S10000x64 (ix2 y q))) + shapeCast S10000x64 p3 shapeCasts_S10000x64_S10000x64 (ix2 y q))
      * broadcastTo S10000x64 p4 broadcasts_S10000x1_S10000x64 (ix2 y q) = _
  rw [h0, h1, h2, h3, hb]

/-- The running column sum after a block: what the buffer held, plus the block's column sum of the row values. -/
theorem sumAcc4_at (p0 p1 p2 p3 : Vec Ideal S10000x64 .f32) (p4 : Vec Ideal S10000x1 .f32) (v : Vec Ideal S1x64 .f32) (q : Fin 64) :
    k4_pay4 (F := Ideal) p0 p1 p2 p3 p4 v (ix2 (0 : Fin 1) q)
      = v (ix2 (0 : Fin 1) q) + ∑ y : Fin 10000, k4_pay1 (F := Ideal) p0 p1 p2 p3 p4 (ix2 y q) := by
  unfold k4_pay4
  have hv : shapeCast S1x64 v shapeCasts_S1x64_S1x64 = v := shapeCast_self _ _
  show shapeCast S1x64 v shapeCasts_S1x64_S1x64 (ix2 (0 : Fin 1) q)
      + shapeCast S1x64 (multiReduction (F := Ideal) .add [0] S64 (k4_pay1 (F := Ideal) p0 p1 p2 p3 p4) 0x00000000#32 reduces_S10000x64_S64 (.inl rfl) rfl) shapeCasts_S64_S1x64 (ix2 (0 : Fin 1) q) = _
  rw [hv]
  exact congrArg (v (ix2 (0 : Fin 1) q) + ·) (colSum_at (k4_pay1 (F := Ideal) p0 p1 p2 p3 p4) rfl q)

/-- The running column sum of squares after a block: what the buffer held, plus the block's column sum of the squared
    row values. -/
theorem sqAcc4_at (p0 p1 p2 p3 : Vec Ideal S10000x64 .f32) (p4 : Vec Ideal S10000x1 .f32) (v : Vec Ideal S1x64 .f32) (q : Fin 64) :
    k4_pay5 (F := Ideal) p0 p1 p2 p3 p4 v (ix2 (0 : Fin 1) q)
      = v (ix2 (0 : Fin 1) q) + ∑ y : Fin 10000, k4_pay1 (F := Ideal) p0 p1 p2 p3 p4 (ix2 y q) * k4_pay1 (F := Ideal) p0 p1 p2 p3 p4 (ix2 y q) := by
  unfold k4_pay5
  have hv : shapeCast S1x64 v shapeCasts_S1x64_S1x64 = v := shapeCast_self _ _
  show shapeCast S1x64 v shapeCasts_S1x64_S1x64 (ix2 (0 : Fin 1) q)
      + shapeCast S1x64 (multiReduction (F := Ideal) .add [0] S64 (mulf (k4_pay1 (F := Ideal) p0 p1 p2 p3 p4) (k4_pay1 (F := Ideal) p0 p1 p2 p3 p4)) 0x00000000#32 reduces_S10000x64_S64 (.inl rfl) rfl) shapeCasts_S64_S1x64 (ix2 (0 : Fin 1) q) = _
  rw [hv]
  exact congrArg (v (ix2 (0 : Fin 1) q) + ·) (colSum_at (mulf (k4_pay1 (F := Ideal) p0 p1 p2 p3 p4) (k4_pay1 (F := Ideal) p0 p1 p2 p3 p4)) rfl q)

/-- The zero rows stored at the first point read 0 everywhere. -/
theorem zeroRowA4_at (j : S1x64.Idx) : k4_pay2 (F := Ideal) j = 0 := by
  unfold k4_pay2
  show Ideal.ofBits .f32 0x00000000#32 = 0
  exact Ideal.ofBits_zero_f32

theorem zeroRowB4_at (j : S1x64.Idx) : k4_pay3 (F := Ideal) j = 0 := by
  unfold k4_pay3
  show Ideal.ofBits .f32 0x00000000#32 = 0
  exact Ideal.ofBits_zero_f32

/-! ## The specification of the row values -/

/-- Entry (r, q) of the first output: the self term plus the quotient of the second and third arrays, plus the fourth, times row `r`'s scale; the quotient is the extended reals' division as the payload reads. -/
def G4_5 (A0 A1 A2 A3 : S250000x64.Idx → EReal) (A4 : S250000x1.Idx → EReal) : S250000x64.Idx → EReal :=
  fun i => ((A0 i + Ideal.div (A1 i) (A2 i)) + A3 i) * A4 (ix2 (i 0 : Fin 250000) (0 : Fin 1))

/-! ## From blocks to the arrays -/

/-- The printed index maps, decided over the grid: the five inputs' and the first output's blocks are block `t` of
    their arrays at point `t`; the two [1,64] outputs stay at their one block. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0
    ∧ win4_5.index t (0 : Fin 2) = t.val
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0 :=
  (by decide +kernel : ∀ t : Fin grid4.N, _)

/-- Row `y` of block `t` is row 10000·t + y of the array. -/
def rowOf4 (t : Fin cfg4.N) (y : Fin 10000) : Fin 250000 :=
  ⟨t.val * 10000 + y.val, by have h1 := t.isLt; have h2 := y.isLt; have hN : cfg4.N = 25 := N_4; omega⟩

set_option maxHeartbeats 1000000 in
/-- The row values of the blocks at point `t` are the specification's at the rows of block `t`: a block's coordinate is
    its index times the block's extent plus the coordinate inside the block. -/
theorem rowVals4_block (V : (c : Dev nD) → (b : Ref sig .tc) → Buf (Elt Ideal) ((c : Thread nD τ).loc b)) (c : Dev nD) (t : Fin cfg4.N) (y : Fin 10000) (q : Fin 64) :
    k4_pay1 (F := Ideal) (iblk4 V c 1 t) (iblk4 V c 2 t) (iblk4 V c 0 t) (iblk4 V c 3 t) (iblk4 V c 4 t) (ix2 y q) = G4_5 (V c (Pipeline.arrRef spec4 0)) (V c (Pipeline.arrRef spec4 1)) (V c (Pipeline.arrRef spec4 2)) (V c (Pipeline.arrRef spec4 3)) (V c (Pipeline.arrRef spec4 4)) (ix2 (rowOf4 t y) q) := by
  obtain ⟨e0, e1, e2, e3, e4, e5, e6, e7, e8, e9, e10, e11, e12, e13, e14, e15⟩ := idx_facts4 t
  refine (rowVals4_at (iblk4 V c 1 t) (iblk4 V c 2 t) (iblk4 V c 0 t) (iblk4 V c 3 t) (iblk4 V c 4 t) y q).trans ?_
  have hx0 : ((cfg4.win 0).blk t).view.emb (ix2 y q) = ix2 (rowOf4 t y) q := by
    funext a; apply Fin.ext
    match a with
    | ⟨0, _⟩ => show win4_0.index t (0 : Fin 2) * 10000 + 1 * y.val = t.val * 10000 + y.val; omega
    | ⟨1, _⟩ => show win4_0.index t (1 : Fin 2) * 64 + 1 * q.val = q.val; omega
  have hx1 : ((cfg4.win 1).blk t).view.emb (ix2 y q) = ix2 (rowOf4 t y) q := by
    funext a; apply Fin.ext
    match a with
    | ⟨0, _⟩ => show win4_1.index t (0 : Fin 2) * 10000 + 1 * y.val = t.val * 10000 + y.val; omega
    | ⟨1, _⟩ => show win4_1.index t (1 : Fin 2) * 64 + 1 * q.val = q.val; omega
  have hx2 : ((cfg4.win 2).blk t).view.emb (ix2 y q) = ix2 (rowOf4 t y) q := by
    funext a; apply Fin.ext
    match a with
    | ⟨0, _⟩ => show win4_2.index t (0 : Fin 2) * 10000 + 1 * y.val = t.val * 10000 + y.val; omega
    | ⟨1, _⟩ => show win4_2.index t (1 : Fin 2) * 64 + 1 * q.val = q.val; omega
  have hx3 : ((cfg4.win 3).blk t).view.emb (ix2 y q) = ix2 (rowOf4 t y) q := by
    funext a; apply Fin.ext
    match a with
    | ⟨0, _⟩ => show win4_3.index t (0 : Fin 2) * 10000 + 1 * y.val = t.val * 10000 + y.val; omega
    | ⟨1, _⟩ => show win4_3.index t (1 : Fin 2) * 64 + 1 * q.val = q.val; omega
  have hx4 : ((cfg4.win 4).blk t).view.emb (ix2 y (0 : Fin 1)) = ix2 (rowOf4 t y) (0 : Fin 1) := by
    funext a; apply Fin.ext
    match a with
    | ⟨0, _⟩ => show win4_4.index t (0 : Fin 2) * 10000 + 1 * y.val = t.val * 10000 + y.val; omega
    | ⟨1, _⟩ => show win4_4.index t (1 : Fin 2) * 1 + 1 * 0 = 0; omega
  unfold G4_5
  refine congrArg₂ (· * ·) (congrArg₂ (· + ·) (congrArg₂ (· + ·) ?_ (congrArg₂ Ideal.div ?_ ?_)) ?_) ?_
  · exact congrArg (V c (Pipeline.arrRef spec4 0)) hx0
  · exact congrArg (V c (Pipeline.arrRef spec4 1)) hx1
  · exact congrArg (V c (Pipeline.arrRef spec4 2)) hx2
  · exact congrArg (V c (Pipeline.arrRef spec4 3)) hx3
  · exact congrArg (V c (Pipeline.arrRef spec4 4)) hx4

set_option maxHeartbeats 1000000 in
/-- After the body at any point the first output's buffer holds the row values of that point's blocks: in either
    case of the body the first output's one store is of the row values. -/
theorem outs4_rows (V : (c : Dev nD) → (b : Ref sig .tc) → Buf (Elt Ideal) ((c : Thread nD τ).loc b)) (c : Dev nD) (t : Fin cfg4.N) :
    (outsAt4 V c t.val t.isLt).1 = k4_pay1 (F := Ideal) (iblk4 V c 1 t) (iblk4 V c 2 t) (iblk4 V c 0 t) (iblk4 V c 3 t) (iblk4 V c 4 t) := by
  by_cases h0 : t.val % 25 = 0
  · rw [outsAt4_A V c t h0]
    dsimp only
    exact out4_A_5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)
  · rw [outsAt4_B V c t h0]
    dsimp only
    exact out4_B_5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2

/-- Block `s`'s contribution to column `q` of the running sum: the column sum of its row values (0 past the grid). -/
def blockSum4 (V : (c : Dev nD) → (b : Ref sig .tc) → Buf (Elt Ideal) ((c : Thread nD τ).loc b)) (c : Dev nD) (q : Fin 64) (s : ℕ) : EReal :=
  if h : s < cfg4.N then ∑ y : Fin 10000, k4_pay1 (F := Ideal) (iblk4 V c 1 ⟨s, h⟩) (iblk4 V c 2 ⟨s, h⟩) (iblk4 V c 0 ⟨s, h⟩) (iblk4 V c 3 ⟨s, h⟩) (iblk4 V c 4 ⟨s, h⟩) (ix2 y q) else 0

/-- and to the running sum of squares. -/
def blockSq4 (V : (c : Dev nD) → (b : Ref sig .tc) → Buf (Elt Ideal) ((c : Thread nD τ).loc b)) (c : Dev nD) (q : Fin 64) (s : ℕ) : EReal :=
  if h : s < cfg4.N then ∑ y : Fin 10000, k4_pay1 (F := Ideal) (iblk4 V c 1 ⟨s, h⟩) (iblk4 V c 2 ⟨s, h⟩) (iblk4 V c 0 ⟨s, h⟩) (iblk4 V c 3 ⟨s, h⟩) (iblk4 V c 4 ⟨s, h⟩) (ix2 y q) * k4_pay1 (F := Ideal) (iblk4 V c 1 ⟨s, h⟩) (iblk4 V c 2 ⟨s, h⟩) (iblk4 V c 0 ⟨s, h⟩) (iblk4 V c 3 ⟨s, h⟩) (iblk4 V c 4 ⟨s, h⟩) (ix2 y q) else 0

set_option maxHeartbeats 1000000 in
/-- By recursion on the point: after point `n` the buffer's column `q` holds the sum over the points up to `n` of
    their blocks' contributions — the first point adds to the zeros just stored, a later point to what the point
    before left. -/
theorem runSum4 (V : (c : Dev nD) → (b : Ref sig .tc) → Buf (Elt Ideal) ((c : Thread nD τ).loc b)) (c : Dev nD) (q : Fin 64) : ∀ (n : ℕ) (hn : n < cfg4.N),
    (outsAt4 V c n hn).2.1 (ix2 (0 : Fin 1) q) = ∑ s ∈ Finset.range (n + 1), blockSum4 V c q s
  | 0, hn => by
    have h6 : (outsAt4 V c 0 hn).2.1 = k4_pay4 (F := Ideal) (iblk4 V c 1 ⟨0, hn⟩) (iblk4 V c 2 ⟨0, hn⟩) (iblk4 V c 0 ⟨0, hn⟩) (iblk4 V c 3 ⟨0, hn⟩) (iblk4 V c 4 ⟨0, hn⟩) (k4_pay2 (F := Ideal)) :=
      (congrArg (fun p => p.2.1) (outsAt4_A V c ⟨0, hn⟩ (Nat.zero_mod _))).trans
        (out4_A_6_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
    rw [h6]
    refine (sumAcc4_at (iblk4 V c 1 ⟨0, hn⟩) (iblk4 V c 2 ⟨0, hn⟩) (iblk4 V c 0 ⟨0, hn⟩) (iblk4 V c 3 ⟨0, hn⟩) (iblk4 V c 4 ⟨0, hn⟩) (k4_pay2 (F := Ideal)) q).trans ?_
    rw [zeroRowA4_at, zero_add, Finset.sum_range_one]
    unfold blockSum4
    rw [dif_pos hn]
  | n + 1, hn => by
    have hN : cfg4.N = 25 := N_4
    have h0 : ¬ (n + 1) % 25 = 0 := by omega
    have h6 : (outsAt4 V c (n + 1) hn).2.1 = k4_pay4 (F := Ideal) (iblk4 V c 1 ⟨n + 1, hn⟩) (iblk4 V c 2 ⟨n + 1, hn⟩) (iblk4 V c 0 ⟨n + 1, hn⟩) (iblk4 V c 3 ⟨n + 1, hn⟩) (iblk4 V c 4 ⟨n + 1, hn⟩) (outsAt4 V c n (Nat.lt_of_succ_lt hn)).2.1 :=
      (congrArg (fun p => p.2.1) (outsAt4_B V c ⟨n + 1, hn⟩ h0)).trans
        (out4_B_6_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.1 (outsAt4 V c n (Nat.lt_of_succ_lt hn)).2.2)
    rw [h6]
    refine (sumAcc4_at (iblk4 V c 1 ⟨n + 1, hn⟩) (iblk4 V c 2 ⟨n + 1, hn⟩) (iblk4 V c 0 ⟨n + 1, hn⟩) (iblk4 V c 3 ⟨n + 1, hn⟩) (iblk4 V c 4 ⟨n + 1, hn⟩) (outsAt4 V c n (Nat.lt_of_succ_lt hn)).2.1 q).trans ?_
    rw [runSum4 V c q n (Nat.lt_of_succ_lt hn), Finset.sum_range_succ _ (n + 1)]
    refine congrArg (_ + ·) ?_
    unfold blockSum4
    rw [dif_pos hn]

set_option maxHeartbeats 1000000 in
/-- By recursion on the point: after point `n` the buffer's column `q` holds the sum over the points up to `n` of
    their blocks' contributions — the first point adds to the zeros just stored, a later point to what the point
    before left. -/
theorem runSq4 (V : (c : Dev nD) → (b : Ref sig .tc) → Buf (Elt Ideal) ((c : Thread nD τ).loc b)) (c : Dev nD) (q : Fin 64) : ∀ (n : ℕ) (hn : n < cfg4.N),
    (outsAt4 V c n hn).2.2 (ix2 (0 : Fin 1) q) = ∑ s ∈ Finset.range (n + 1), blockSq4 V c q s
  | 0, hn => by
    have h6 : (outsAt4 V c 0 hn).2.2 = k4_pay5 (F := Ideal) (iblk4 V c 1 ⟨0, hn⟩) (iblk4 V c 2 ⟨0, hn⟩) (iblk4 V c 0 ⟨0, hn⟩) (iblk4 V c 3 ⟨0, hn⟩) (iblk4 V c 4 ⟨0, hn⟩) (k4_pay3 (F := Ideal)) :=
      (congrArg (fun p => p.2.2) (outsAt4_A V c ⟨0, hn⟩ (Nat.zero_mod _))).trans
        (out4_A_7_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
    rw [h6]
    refine (sqAcc4_at (iblk4 V c 1 ⟨0, hn⟩) (iblk4 V c 2 ⟨0, hn⟩) (iblk4 V c 0 ⟨0, hn⟩) (iblk4 V c 3 ⟨0, hn⟩) (iblk4 V c 4 ⟨0, hn⟩) (k4_pay3 (F := Ideal)) q).trans ?_
    rw [zeroRowB4_at, zero_add, Finset.sum_range_one]
    unfold blockSq4
    rw [dif_pos hn]
  | n + 1, hn => by
    have hN : cfg4.N = 25 := N_4
    have h0 : ¬ (n + 1) % 25 = 0 := by omega
    have h6 : (outsAt4 V c (n + 1) hn).2.2 = k4_pay5 (F := Ideal) (iblk4 V c 1 ⟨n + 1, hn⟩) (iblk4 V c 2 ⟨n + 1, hn⟩) (iblk4 V c 0 ⟨n + 1, hn⟩) (iblk4 V c 3 ⟨n + 1, hn⟩) (iblk4 V c 4 ⟨n + 1, hn⟩) (outsAt4 V c n (Nat.lt_of_succ_lt hn)).2.2 :=
      (congrArg (fun p => p.2.2) (outsAt4_B V c ⟨n + 1, hn⟩ h0)).trans
        (out4_B_7_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.1 (outsAt4 V c n (Nat.lt_of_succ_lt hn)).2.2)
    rw [h6]
    refine (sqAcc4_at (iblk4 V c 1 ⟨n + 1, hn⟩) (iblk4 V c 2 ⟨n + 1, hn⟩) (iblk4 V c 0 ⟨n + 1, hn⟩) (iblk4 V c 3 ⟨n + 1, hn⟩) (iblk4 V c 4 ⟨n + 1, hn⟩) (outsAt4 V c n (Nat.lt_of_succ_lt hn)).2.2 q).trans ?_
    rw [runSq4 V c q n (Nat.lt_of_succ_lt hn), Finset.sum_range_succ _ (n + 1)]
    refine congrArg (_ + ·) ?_
    unfold blockSq4
    rw [dif_pos hn]

/-! ## Output window 5: the row values, block by block -/

set_option maxHeartbeats 1000000 in
/-- What point `t` writes back is block `t` of the specification. -/
theorem flushed4_5_eq (V : (c : Dev nD) → (b : Ref sig .tc) → Buf (Elt Ideal) ((c : Thread nD τ).loc b)) (c : Dev nD) (t : Fin cfg4.N) :
    (dat4 (F := Ideal) V c).flushed 5 t = ((cfg4.win 5).blk t).view.read (Elt Ideal) (G4_5 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5, outs4_rows]
  obtain ⟨e0, e1, e2, e3, e4, e5, e6, e7, e8, e9, e10, e11, e12, e13, e14, e15⟩ := idx_facts4 t
  funext j
  obtain ⟨y, q, rfl⟩ : ∃ (y : Fin 10000) (q : Fin 64), j = ix2 y q := ⟨j 0, j 1, eq_ix2 j⟩
  have h5 : ((cfg4.win 5).blk t).view.emb (ix2 y q) = ix2 (rowOf4 t y) q := by
    funext a; apply Fin.ext
    match a with
    | ⟨0, _⟩ => show win4_5.index t (0 : Fin 2) * 10000 + 1 * y.val = t.val * 10000 + y.val; omega
    | ⟨1, _⟩ => show win4_5.index t (1 : Fin 2) * 64 + 1 * q.val = q.val; omega
  show k4_pay1 (F := Ideal) (iblk4 V c 1 t) (iblk4 V c 2 t) (iblk4 V c 0 t) (iblk4 V c 3 t) (iblk4 V c 4 t) (ix2 y q) = G4_5 (V c (Pipeline.arrRef spec4 0)) (V c (Pipeline.arrRef spec4 1)) (V c (Pipeline.arrRef spec4 2)) (V c (Pipeline.arrRef spec4 3)) (V c (Pipeline.arrRef spec4 4)) (((cfg4.win 5).blk t).view.emb (ix2 y q))
  exact (rowVals4_block V c t y q).trans (congrArg (G4_5 (V c (Pipeline.arrRef spec4 0)) (V c (Pipeline.arrRef spec4 1)) (V c (Pipeline.arrRef spec4 2)) (V c (Pipeline.arrRef spec4 3)) (V c (Pipeline.arrRef spec4 4))) h5.symm)

/-- An index of the array is in point `t`'s block iff each coordinate is in the block's range on its axis. -/
theorem mem_blk4_5 (t : Fin cfg4.N) (i : S250000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v117_0).slice (win4_5.rect t)).set ↔ _
  rw [View.set_slice_whole, Rect.mem_set_unit]
  exact Iff.rfl

/-- Every index of the array is in some point's block: row `r` in the block of point `r / 10000`. -/
theorem covered4_5 (i : S250000x64.Idx) :
    ∃ t : Fin cfg4.N, (cfg4.win 5).flush t = true ∧ i ∈ ((cfg4.win 5).blk t).view.set := by
  have hi0 : (i 0).val < 250000 := (i 0).isLt
  have hi1 : (i 1).val < 64 := (i 1).isLt
  have hN : cfg4.N = 25 := N_4
  have ht : (i 0).val / 10000 < cfg4.N := by omega
  obtain ⟨e0, e1, e2, e3, e4, e5, e6, e7, e8, e9, e10, e11, e12, e13, e14, e15⟩ := idx_facts4 ⟨(i 0).val / 10000, ht⟩
  refine ⟨⟨(i 0).val / 10000, ht⟩, flush4_5 _, ?_⟩
  rw [mem_blk4_5]
  intro a
  match a with
  | ⟨0, _⟩ => show win4_5.index ⟨(i 0).val / 10000, ht⟩ (0 : Fin 2) * 10000 ≤ (i 0).val ∧ (i 0).val < win4_5.index ⟨(i 0).val / 10000, ht⟩ (0 : Fin 2) * 10000 + 10000; (have e : (⟨(i 0).val / 10000, ht⟩ : Fin cfg4.N).val = (i 0).val / 10000 := rfl); omega
  | ⟨1, _⟩ => show win4_5.index ⟨(i 0).val / 10000, ht⟩ (1 : Fin 2) * 64 ≤ (i 1).val ∧ (i 1).val < win4_5.index ⟨(i 0).val / 10000, ht⟩ (1 : Fin 2) * 64 + 64; omega

/-- The first output array after the region is the row values of the input arrays as the region finds them. -/
theorem final4_5 (V : (c : Dev nD) → (b : Ref sig .tc) → Buf (Elt Ideal) ((c : Thread nD τ).loc b)) (c : Dev nD) :
    (dat4 (F := Ideal) V c).arrAt 5 cfg4.N = G4_5 (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => flushed4_5_eq V c t) covered4_5

/-! ## Output windows 6 and 7: the column sums of the row values and of their squares, over all rows -/

/-- Window 6's specification: the column sums of the row values over all 250000 rows. -/
def colTotals4 (G : S250000x64.Idx → EReal) : S1x64.Idx → EReal :=
  fun j => ∑ r : Fin 250000, G (ix2 r (j 1 : Fin 64))

/-- All 25 blocks' contributions are the sum over all 250000 rows: row 10000·s + y of the array is row `y` of block `s`. -/
theorem total4_6 (V : (c : Dev nD) → (b : Ref sig .tc) → Buf (Elt Ideal) ((c : Thread nD τ).loc b)) (c : Dev nD) (q : Fin 64) :
    ∑ s ∈ Finset.range 25, blockSum4 V c q s = colTotals4 (G4_5 (V c (Pipeline.arrRef spec4 0)) (V c (Pipeline.arrRef spec4 1)) (V c (Pipeline.arrRef spec4 2)) (V c (Pipeline.arrRef spec4 3)) (V c (Pipeline.arrRef spec4 4))) (ix2 (0 : Fin 1) q) := by
  have hN : cfg4.N = 25 := N_4
  unfold colTotals4
  show _ = ∑ r : Fin 250000, G4_5 (V c (Pipeline.arrRef spec4 0)) (V c (Pipeline.arrRef spec4 1)) (V c (Pipeline.arrRef spec4 2)) (V c (Pipeline.arrRef spec4 3)) (V c (Pipeline.arrRef spec4 4)) (ix2 r q)
  rw [sum_rows_by_block (fun r => G4_5 (V c (Pipeline.arrRef spec4 0)) (V c (Pipeline.arrRef spec4 1)) (V c (Pipeline.arrRef spec4 2)) (V c (Pipeline.arrRef spec4 3)) (V c (Pipeline.arrRef spec4 4)) (ix2 r q)), Finset.sum_range]
  refine Finset.sum_congr rfl fun s _ => ?_
  have hs : s.val < cfg4.N := by have := s.isLt; omega
  unfold blockSum4
  rw [dif_pos hs]
  refine Finset.sum_congr rfl fun y _ => ?_
  exact rowVals4_block V c ⟨s.val, hs⟩ y q

/-- Window 6's one block, read through the window, is the whole [1,64] row: a buffer that agrees with a row function
    at every column is that function's block. -/
theorem oneBlock4_6 (t : Fin cfg4.N) (X : Vec Ideal S1x64 .f32) (G : S1x64.Idx → EReal)
    (h : ∀ q : Fin 64, X (ix2 (0 : Fin 1) q) = G (ix2 (0 : Fin 1) q)) :
    (cfg4.win 6).cut (grid4.coords t) X = ((cfg4.win 6).blk t).view.read (Elt Ideal) G := by
  obtain ⟨e0, e1, e2, e3, e4, e5, e6, e7, e8, e9, e10, e11, e12, e13, e14, e15⟩ := idx_facts4 t
  funext j
  obtain ⟨u, q, rfl⟩ : ∃ (u : Fin 1) (q : Fin 64), j = ix2 u q := ⟨j 0, j 1, eq_ix2 j⟩
  have hu : u = 0 := Fin.ext (by have := u.isLt; omega)
  subst hu
  have hemb : ((cfg4.win 6).blk t).view.emb (ix2 (0 : Fin 1) q) = ix2 (0 : Fin 1) q := by
    funext a; apply Fin.ext
    match a with
    | ⟨0, _⟩ => show win4_6.index t (0 : Fin 2) * 1 + 1 * 0 = 0; omega
    | ⟨1, _⟩ => show win4_6.index t (1 : Fin 2) * 64 + 1 * q.val = q.val; omega
  show X (ix2 (0 : Fin 1) q) = G (((cfg4.win 6).blk t).view.emb (ix2 (0 : Fin 1) q))
  exact (h q).trans (congrArg G hemb.symm)

set_option maxHeartbeats 1000000 in
/-- What the last point writes back to window 6's one block is the row of those sums. -/
theorem flushed4_6_eq (V : (c : Dev nD) → (b : Ref sig .tc) → Buf (Elt Ideal) ((c : Thread nD τ).loc b)) (c : Dev nD) (t : Fin cfg4.N) (hf : (cfg4.win 6).flush t = true) :
    (dat4 (F := Ideal) V c).flushed 6 t = ((cfg4.win 6).blk t).view.read (Elt Ideal) (colTotals4 (G4_5 (V c (Pipeline.arrRef spec4 0)) (V c (Pipeline.arrRef spec4 1)) (V c (Pipeline.arrRef spec4 2)) (V c (Pipeline.arrRef spec4 3)) (V c (Pipeline.arrRef spec4 4)))) := by
  have hN : cfg4.N = 25 := N_4
  have ht : t.val = 24 := by have h1 := (flush4_6 t).mp hf; have h2 := t.isLt; omega
  show (cfg4.win 6).cut (grid4.coords t) ((dat4 (F := Ideal) V c).after 6 t) = _
  rw [after4_6]
  refine oneBlock4_6 t _ _ fun q => ?_
  refine (runSum4 V c q t.val t.isLt).trans ?_
  rw [ht]
  exact total4_6 V c q

/-- An index of window 6's array is in point `t`'s block iff each coordinate is in the block's range on its axis. -/
theorem mem_blk4_6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v117_1).slice (win4_6.rect t)).set ↔ _
  rw [View.set_slice_whole, Rect.mem_set_unit]
  exact Iff.rfl

/-- The array is one block, written back at the last point. -/
theorem covered4_6 (i : S1x64.Idx) :
    ∃ t : Fin cfg4.N, (cfg4.win 6).flush t = true ∧ i ∈ ((cfg4.win 6).blk t).view.set := by
  have hi0 : (i 0).val < 1 := (i 0).isLt
  have hi1 : (i 1).val < 64 := (i 1).isLt
  have hN : cfg4.N = 25 := N_4
  have h24 : 24 < cfg4.N := by omega
  obtain ⟨e0, e1, e2, e3, e4, e5, e6, e7, e8, e9, e10, e11, e12, e13, e14, e15⟩ := idx_facts4 ⟨24, h24⟩
  refine ⟨⟨24, h24⟩, (flush4_6 ⟨24, h24⟩).mpr rfl, ?_⟩
  rw [mem_blk4_6]
  intro a
  match a with
  | ⟨0, _⟩ => show win4_6.index ⟨24, h24⟩ (0 : Fin 2) * 1 ≤ (i 0).val ∧ (i 0).val < win4_6.index ⟨24, h24⟩ (0 : Fin 2) * 1 + 1; omega
  | ⟨1, _⟩ => show win4_6.index ⟨24, h24⟩ (1 : Fin 2) * 64 ≤ (i 1).val ∧ (i 1).val < win4_6.index ⟨24, h24⟩ (1 : Fin 2) * 64 + 64; omega

/-- The array after the region is its specification, -/
theorem final4_6_named (V : (c : Dev nD) → (b : Ref sig .tc) → Buf (Elt Ideal) ((c : Thread nD τ).loc b)) (c : Dev nD) :
    (dat4 (F := Ideal) V c).arrAt 6 cfg4.N = colTotals4 (G4_5 (V c (Pipeline.arrRef spec4 0)) (V c (Pipeline.arrRef spec4 1)) (V c (Pipeline.arrRef spec4 2)) (V c (Pipeline.arrRef spec4 3)) (V c (Pipeline.arrRef spec4 4))) :=
  (dat4 (F := Ideal) V c).arrAt_eq_of_cover 6 _ (fun t hf => flushed4_6_eq V c t hf) covered4_6

/-- and the same with the specification written out. -/
theorem final4_6 (V : (c : Dev nD) → (b : Ref sig .tc) → Buf (Elt Ideal) ((c : Thread nD τ).loc b)) (c : Dev nD) :
    (dat4 (F := Ideal) V c).arrAt 6 cfg4.N = ((fun (j : S1x64.Idx) => ∑ r : Fin 250000, G4_5 (V c (Pipeline.arrRef spec4 0)) (V c (Pipeline.arrRef spec4 1)) (V c (Pipeline.arrRef spec4 2)) (V c (Pipeline.arrRef spec4 3)) (V c (Pipeline.arrRef spec4 4)) (ix2 r (j 1 : Fin 64))) : S1x64.Idx → EReal) :=
  final4_6_named V c

/-- Window 7's specification: the column sums of the squared row values over all 250000 rows. -/
def colSqTotals4 (G : S250000x64.Idx → EReal) : S1x64.Idx → EReal :=
  fun j => ∑ r : Fin 250000, G (ix2 r (j 1 : Fin 64)) * G (ix2 r (j 1 : Fin 64))

/-- All 25 blocks' contributions are the sum over all 250000 rows: row 10000·s + y of the array is row `y` of block `s`. -/
theorem total4_7 (V : (c : Dev nD) → (b : Ref sig .tc) → Buf (Elt Ideal) ((c : Thread nD τ).loc b)) (c : Dev nD) (q : Fin 64) :
    ∑ s ∈ Finset.range 25, blockSq4 V c q s = colSqTotals4 (G4_5 (V c (Pipeline.arrRef spec4 0)) (V c (Pipeline.arrRef spec4 1)) (V c (Pipeline.arrRef spec4 2)) (V c (Pipeline.arrRef spec4 3)) (V c (Pipeline.arrRef spec4 4))) (ix2 (0 : Fin 1) q) := by
  have hN : cfg4.N = 25 := N_4
  unfold colSqTotals4
  show _ = ∑ r : Fin 250000, G4_5 (V c (Pipeline.arrRef spec4 0)) (V c (Pipeline.arrRef spec4 1)) (V c (Pipeline.arrRef spec4 2)) (V c (Pipeline.arrRef spec4 3)) (V c (Pipeline.arrRef spec4 4)) (ix2 r q) * G4_5 (V c (Pipeline.arrRef spec4 0)) (V c (Pipeline.arrRef spec4 1)) (V c (Pipeline.arrRef spec4 2)) (V c (Pipeline.arrRef spec4 3)) (V c (Pipeline.arrRef spec4 4)) (ix2 r q)
  rw [sum_rows_by_block (fun r => G4_5 (V c (Pipeline.arrRef spec4 0)) (V c (Pipeline.arrRef spec4 1)) (V c (Pipeline.arrRef spec4 2)) (V c (Pipeline.arrRef spec4 3)) (V c (Pipeline.arrRef spec4 4)) (ix2 r q) * G4_5 (V c (Pipeline.arrRef spec4 0)) (V c (Pipeline.arrRef spec4 1)) (V c (Pipeline.arrRef spec4 2)) (V c (Pipeline.arrRef spec4 3)) (V c (Pipeline.arrRef spec4 4)) (ix2 r q)), Finset.sum_range]
  refine Finset.sum_congr rfl fun s _ => ?_
  have hs : s.val < cfg4.N := by have := s.isLt; omega
  unfold blockSq4
  rw [dif_pos hs]
  refine Finset.sum_congr rfl fun y _ => ?_
  exact congrArg₂ (· * ·) (rowVals4_block V c ⟨s.val, hs⟩ y q) (rowVals4_block V c ⟨s.val, hs⟩ y q)

/-- Window 7's one block, read through the window, is the whole [1,64] row: a buffer that agrees with a row function
    at every column is that function's block. -/
theorem oneBlock4_7 (t : Fin cfg4.N) (X : Vec Ideal S1x64 .f32) (G : S1x64.Idx → EReal)
    (h : ∀ q : Fin 64, X (ix2 (0 : Fin 1) q) = G (ix2 (0 : Fin 1) q)) :
    (cfg4.win 7).cut (grid4.coords t) X = ((cfg4.win 7).blk t).view.read (Elt Ideal) G := by
  obtain ⟨e0, e1, e2, e3, e4, e5, e6, e7, e8, e9, e10, e11, e12, e13, e14, e15⟩ := idx_facts4 t
  funext j
  obtain ⟨u, q, rfl⟩ : ∃ (u : Fin 1) (q : Fin 64), j = ix2 u q := ⟨j 0, j 1, eq_ix2 j⟩
  have hu : u = 0 := Fin.ext (by have := u.isLt; omega)
  subst hu
  have hemb : ((cfg4.win 7).blk t).view.emb (ix2 (0 : Fin 1) q) = ix2 (0 : Fin 1) q := by
    funext a; apply Fin.ext
    match a with
    | ⟨0, _⟩ => show win4_7.index t (0 : Fin 2) * 1 + 1 * 0 = 0; omega
    | ⟨1, _⟩ => show win4_7.index t (1 : Fin 2) * 64 + 1 * q.val = q.val; omega
  show X (ix2 (0 : Fin 1) q) = G (((cfg4.win 7).blk t).view.emb (ix2 (0 : Fin 1) q))
  exact (h q).trans (congrArg G hemb.symm)

set_option maxHeartbeats 1000000 in
/-- What the last point writes back to window 7's one block is the row of those sums. -/
theorem flushed4_7_eq (V : (c : Dev nD) → (b : Ref sig .tc) → Buf (Elt Ideal) ((c : Thread nD τ).loc b)) (c : Dev nD) (t : Fin cfg4.N) (hf : (cfg4.win 7).flush t = true) :
    (dat4 (F := Ideal) V c).flushed 7 t = ((cfg4.win 7).blk t).view.read (Elt Ideal) (colSqTotals4 (G4_5 (V c (Pipeline.arrRef spec4 0)) (V c (Pipeline.arrRef spec4 1)) (V c (Pipeline.arrRef spec4 2)) (V c (Pipeline.arrRef spec4 3)) (V c (Pipeline.arrRef spec4 4)))) := by
  have hN : cfg4.N = 25 := N_4
  have ht : t.val = 24 := by have h1 := (flush4_7 t).mp hf; have h2 := t.isLt; omega
  show (cfg4.win 7).cut (grid4.coords t) ((dat4 (F := Ideal) V c).after 7 t) = _
  rw [after4_7]
  refine oneBlock4_7 t _ _ fun q => ?_
  refine (runSq4 V c q t.val t.isLt).trans ?_
  rw [ht]
  exact total4_7 V c q

/-- An index of window 7's array is in point `t`'s block iff each coordinate is in the block's range on its axis. -/
theorem mem_blk4_7 (t : Fin cfg4.N) (i : S1x64.Idx) :
    i ∈ ((cfg4.win 7).blk t).view.set ↔ ∀ a : Fin 2, win4_7.index t a * S1x64.size a ≤ (i a).val ∧ (i a).val < win4_7.index t a * S1x64.size a + S1x64.size a := by
  show i ∈ ((View.whole main_v117_2).slice (win4_7.rect t)).set ↔ _
  rw [View.set_slice_whole, Rect.mem_set_unit]
  exact Iff.rfl

/-- The array is one block, written back at the last point. -/
theorem covered4_7 (i : S1x64.Idx) :
    ∃ t : Fin cfg4.N, (cfg4.win 7).flush t = true ∧ i ∈ ((cfg4.win 7).blk t).view.set := by
  have hi0 : (i 0).val < 1 := (i 0).isLt
  have hi1 : (i 1).val < 64 := (i 1).isLt
  have hN : cfg4.N = 25 := N_4
  have h24 : 24 < cfg4.N := by omega
  obtain ⟨e0, e1, e2, e3, e4, e5, e6, e7, e8, e9, e10, e11, e12, e13, e14, e15⟩ := idx_facts4 ⟨24, h24⟩
  refine ⟨⟨24, h24⟩, (flush4_7 ⟨24, h24⟩).mpr rfl, ?_⟩
  rw [mem_blk4_7]
  intro a
  match a with
  | ⟨0, _⟩ => show win4_7.index ⟨24, h24⟩ (0 : Fin 2) * 1 ≤ (i 0).val ∧ (i 0).val < win4_7.index ⟨24, h24⟩ (0 : Fin 2) * 1 + 1; omega
  | ⟨1, _⟩ => show win4_7.index ⟨24, h24⟩ (1 : Fin 2) * 64 ≤ (i 1).val ∧ (i 1).val < win4_7.index ⟨24, h24⟩ (1 : Fin 2) * 64 + 64; omega

/-- The array after the region is its specification, -/
theorem final4_7_named (V : (c : Dev nD) → (b : Ref sig .tc) → Buf (Elt Ideal) ((c : Thread nD τ).loc b)) (c : Dev nD) :
    (dat4 (F := Ideal) V c).arrAt 7 cfg4.N = colSqTotals4 (G4_5 (V c (Pipeline.arrRef spec4 0)) (V c (Pipeline.arrRef spec4 1)) (V c (Pipeline.arrRef spec4 2)) (V c (Pipeline.arrRef spec4 3)) (V c (Pipeline.arrRef spec4 4))) :=
  (dat4 (F := Ideal) V c).arrAt_eq_of_cover 7 _ (fun t hf => flushed4_7_eq V c t hf) covered4_7

/-- and the same with the specification written out. -/
theorem final4_7 (V : (c : Dev nD) → (b : Ref sig .tc) → Buf (Elt Ideal) ((c : Thread nD τ).loc b)) (c : Dev nD) :
    (dat4 (F := Ideal) V c).arrAt 7 cfg4.N = ((fun (j : S1x64.Idx) => ∑ r : Fin 250000, G4_5 (V c (Pipeline.arrRef spec4 0)) (V c (Pipeline.arrRef spec4 1)) (V c (Pipeline.arrRef spec4 2)) (V c (Pipeline.arrRef spec4 3)) (V c (Pipeline.arrRef spec4 4)) (ix2 r (j 1 : Fin 64)) * G4_5 (V c (Pipeline.arrRef spec4 0)) (V c (Pipeline.arrRef spec4 1)) (V c (Pipeline.arrRef spec4 2)) (V c (Pipeline.arrRef spec4 3)) (V c (Pipeline.arrRef spec4 4)) (ix2 r (j 1 : Fin 64))) : S1x64.Idx → EReal) :=
  final4_7_named V c

end AtIdeal

end Cert.KernelIdeal.HandV

end
-- ==== Proof.KI.RegEqs4.lean ====
/-
  Region 4's three output arrays at the last boundary: the row values, and the column sums of the row values and of their
  squares over all 250000 rows, as closed forms of the region's input arrays at the last boundary.
-/
import proofs.«180658_j65867618451767_1_alg».proof.Proof.KI.HostEqs
import proofs.«180658_j65867618451767_1_alg».proof.Proof.KI.Val4

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg)

theorem reg4_5 (c : Dev nD) :
    Wf m ρ c main_v117_0 = G4_5 (Wf m ρ c main_v47) (Wf m ρ c main_v104) (Wf m ρ c main_v109) (Wf m ρ c main_v116) (Wf m ρ c main_arg3) := by
  have h := (last_arr4 (F := Ideal) m ρ c 5 (by decide)).trans (final4_5 (En9 m ρ) c)
  rw [entry4 m ρ c (Pipeline.arrRef spec4 0) (by decide),
    entry4 m ρ c (Pipeline.arrRef spec4 1) (by decide),
    entry4 m ρ c (Pipeline.arrRef spec4 2) (by decide),
    entry4 m ρ c (Pipeline.arrRef spec4 3) (by decide),
    entry4 m ρ c (Pipeline.arrRef spec4 4) (by decide)] at h
  exact h

theorem reg4_6 (c : Dev nD) :
    Wf m ρ c main_v117_1 = ((fun (j : S1x64.Idx) => ∑ r : Fin 250000, G4_5 (Wf m ρ c main_v47) (Wf m ρ c main_v104) (Wf m ρ c main_v109) (Wf m ρ c main_v116) (Wf m ρ c main_arg3) (ix2 r (j 1 : Fin 64))) : S1x64.Idx → EReal) := by
  have h := (last_arr4 (F := Ideal) m ρ c 6 (by decide)).trans (final4_6 (En9 m ρ) c)
  rw [entry4 m ρ c (Pipeline.arrRef spec4 0) (by decide),
    entry4 m ρ c (Pipeline.arrRef spec4 1) (by decide),
    entry4 m ρ c (Pipeline.arrRef spec4 2) (by decide),
    entry4 m ρ c (Pipeline.arrRef spec4 3) (by decide),
    entry4 m ρ c (Pipeline.arrRef spec4 4) (by decide)] at h
  exact h

theorem reg4_7 (c : Dev nD) :
    Wf m ρ c main_v117_2 = ((fun (j : S1x64.Idx) => ∑ r : Fin 250000, G4_5 (Wf m ρ c main_v47) (Wf m ρ c main_v104) (Wf m ρ c main_v109) (Wf m ρ c main_v116) (Wf m ρ c main_arg3) (ix2 r (j 1 : Fin 64)) * G4_5 (Wf m ρ c main_v47) (Wf m ρ c main_v104) (Wf m ρ c main_v109) (Wf m ρ c main_v116) (Wf m ρ c main_arg3) (ix2 r (j 1 : Fin 64))) : S1x64.Idx → EReal) := by
  have h := (last_arr4 (F := Ideal) m ρ c 7 (by decide)).trans (final4_7 (En9 m ρ) c)
  rw [entry4 m ρ c (Pipeline.arrRef spec4 0) (by decide),
    entry4 m ρ c (Pipeline.arrRef spec4 1) (by decide),
    entry4 m ρ c (Pipeline.arrRef spec4 2) (by decide),
    entry4 m ρ c (Pipeline.arrRef spec4 3) (by decide),
    entry4 m ρ c (Pipeline.arrRef spec4 4) (by decide)] at h
  exact h

end Cert.KernelIdeal.HandV

end
-- ==== Proof.Bridge.AtomSum.lean ====
/-
  The atom array before its normalization agrees: on both sides the atom term, the quotient of the scattered sum by its
  count and the global term are added left to right and the sum is multiplied by the atom mask's row.
-/
import proofs.«180658_j65867618451767_1_alg».proof.Proof.Bridge.Base
import proofs.«180658_j65867618451767_1_alg».proof.Proof.KI.RegEqs4
import proofs.«180658_j65867618451767_1_alg».proof.Proof.Ref.SumRead

set_option maxRecDepth 16384

noncomputable section

open scoped BigOperators

namespace Cert.Bridge

open Idealize.ShloMosaic Idealize.ShloMosaic.TcCoe Idealize.ShloMosaic.StableHlo Idealize.ShloMosaic.ValueIdx

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

theorem atom_sum (hA : Agree m ρ c V')
    (h15 : Rv V' Cert.ReferenceIdeal.main_v15 = Kv m ρ c Cert.KernelIdeal.main_v47)
    (h124 : Rv V' Cert.ReferenceIdeal.main_v124 = Kv m ρ c Cert.KernelIdeal.main_v104)
    (h129 : Rv V' Cert.ReferenceIdeal.main_v129 = Kv m ρ c Cert.KernelIdeal.main_v109)
    (h138 : Rv V' Cert.ReferenceIdeal.main_v138 = Kv m ρ c Cert.KernelIdeal.main_v116) :
    Rv V' Cert.ReferenceIdeal.main_v141 = Kv m ρ c Cert.KernelIdeal.main_v117_0 := by
  show fn Cert.KernelIdeal.S250000x64 (Rv V' Cert.ReferenceIdeal.main_v141) = fn Cert.KernelIdeal.S250000x64 (Kv m ρ c Cert.KernelIdeal.main_v117_0)
  funext j
  obtain ⟨r, q, rfl⟩ : ∃ (r : Fin 250000) (q : Fin 64), j = ix2 r q := ⟨j 0, j 1, eq_ix2 j⟩
  refine (Cert.ReferenceIdeal.HandV.atom_sum V' r q).trans ?_
  refine Eq.trans ?_ (congrFun (Cert.KernelIdeal.HandV.reg4_5 m ρ c) (ix2 r q)).symm
  have e15 := h15
  have e124 := h124
  have e129 := h129
  have e138 := h138
  have e3 := hA.a3
  unfold Rv at e15 e124 e129 e138 e3
  rw [e15, e124, e129, e138, e3]
  rfl
-- ==== Proof.Bridge.AtomNorm.lean ====
/-
  The atom normalization agrees, given that the array it normalizes does and is real-valued: the same joint as the
  bond normalization's, with row 1 of the shared tables and no gate.
-/
import proofs.«180658_j65867618451767_1_alg».proof.Proof.Bridge.Base
import proofs.«180658_j65867618451767_1_alg».proof.Proof.KI.RegEqs
import proofs.«180658_j65867618451767_1_alg».proof.Proof.KI.RegEqs4
import proofs.«180658_j65867618451767_1_alg».proof.Proof.KI.StatsEqs
import proofs.«180658_j65867618451767_1_alg».proof.Proof.KI.BnLaw
import proofs.«180658_j65867618451767_1_alg».proof.Proof.Ref.NormRead

set_option maxRecDepth 16384

noncomputable section

open scoped BigOperators

namespace Cert.Bridge

open Idealize.ShloMosaic Idealize.ShloMosaic.TcCoe Idealize.ShloMosaic.StableHlo Idealize.ShloMosaic.ValueIdx
open Cert.KernelIdeal.HandV (pwElu pwNorm pwSigmoid pwRow pwEps guMean guVar guDev guSum guRows G7_4 G3_5 G3_6 G5_5
  bnRows bnMean bnMeanFromZero bnVarGuarded bnVarOfSquares)
open Cert.LibBatchNorm (IsReal)

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-! ## The atom normalization, column by column -/

section atom

/-- Column `q` of the normalized array, as the kernel program holds it. -/
abbrev atomCol (q : Fin 64) : Fin 250000 → EReal := fun r => fn Cert.KernelIdeal.S250000x64 (Kv m ρ c Cert.KernelIdeal.main_v117_0) (ix2 r q)

variable (hA : Agree m ρ c V')
  (hx : Rv V' Cert.ReferenceIdeal.main_v141 = Kv m ρ c Cert.KernelIdeal.main_v117_0)
  (hreal : ∀ i, IsReal (fn Cert.KernelIdeal.S250000x64 (Kv m ρ c Cert.KernelIdeal.main_v117_0) i))
  (hs1 : ∀ q : Fin 64, fn Cert.KernelIdeal.S1x64 (Kv m ρ c Cert.KernelIdeal.main_v117_1) (ix2 0 q) = ∑ r : Fin 250000, fn Cert.KernelIdeal.S250000x64 (Kv m ρ c Cert.KernelIdeal.main_v117_0) (ix2 r q))
  (hs2 : ∀ q : Fin 64, fn Cert.KernelIdeal.S1x64 (Kv m ρ c Cert.KernelIdeal.main_v117_2) (ix2 0 q)
      = ∑ r : Fin 250000, fn Cert.KernelIdeal.S250000x64 (Kv m ρ c Cert.KernelIdeal.main_v117_0) (ix2 r q) * fn Cert.KernelIdeal.S250000x64 (Kv m ρ c Cert.KernelIdeal.main_v117_0) (ix2 r q))

include hs1 in
/-- The kernel program's mean row is the column's mean. -/
theorem atom_kmean (q : Fin 64) : pwRow (fn Cert.KernelIdeal.S1x64 (Kv m ρ c Cert.KernelIdeal.main_v119)) q = bnMean (atomCol m ρ c q) := by
  refine (Cert.KernelIdeal.HandV.atom_mean m ρ c q).trans ?_
  show Ideal.div (fn Cert.KernelIdeal.S1x64 (Kv m ρ c Cert.KernelIdeal.main_v117_1) (ix2 0 q)) bnRows = _
  rw [hs1 q]
  rfl

include hs1 hs2 in
/-- The kernel program's variance row is the mean of the column's squares less the square of its mean. -/
theorem atom_kvar (q : Fin 64) : pwRow (fn Cert.KernelIdeal.S1x64 (Kv m ρ c Cert.KernelIdeal.main_v123)) q = bnVarOfSquares (atomCol m ρ c q) := by
  refine (Cert.KernelIdeal.HandV.atom_var m ρ c q).trans ?_
  show Ideal.div (fn Cert.KernelIdeal.S1x64 (Kv m ρ c Cert.KernelIdeal.main_v117_2) (ix2 0 q)) bnRows
      - pwRow (fn Cert.KernelIdeal.S1x64 (Kv m ρ c Cert.KernelIdeal.main_v119)) q * pwRow (fn Cert.KernelIdeal.S1x64 (Kv m ρ c Cert.KernelIdeal.main_v119)) q = _
  rw [hs2 q, atom_kmean m ρ c hs1 q]
  rfl

include hx in
/-- The reference's normalized array, column `q`, is the kernel program's. -/
theorem atom_col (q : Fin 64) :
    (fun r : Fin 250000 => Cert.ReferenceIdeal.HandV.rarr (S := Cert.ReferenceIdeal.S250000x64) (Cert.ReferenceIdeal.HandV.R V' Cert.ReferenceIdeal.main_v141) (ix2 r q)) = atomCol m ρ c q := by
  have e := hx
  unfold Rv at e
  funext r
  show Cert.ReferenceIdeal.HandV.R V' Cert.ReferenceIdeal.main_v141 (ix2 r q) = _
  rw [e]

include hx in
/-- The reference's mean is the column's mean (its sum started from zero). -/
theorem atom_rmean (q : Fin 64) :
    Cert.ReferenceIdeal.HandV.narr (S := Cert.ReferenceIdeal.S64) (Cert.ReferenceIdeal.HandV.R V' Cert.ReferenceIdeal.main_v148) (ix1 q) = bnMean (atomCol m ρ c q) := by
  refine (Cert.ReferenceIdeal.HandV.atom_mean V' q).trans ?_
  rw [atom_col m ρ c V' hx q]
  exact Cert.KernelIdeal.HandV.bn_mean_eq _

include hx hreal in
/-- The reference's guarded variance of a real column is the mean of the squares less the square of the mean. -/
theorem atom_rvar (q : Fin 64) :
    Cert.ReferenceIdeal.HandV.narr (S := Cert.ReferenceIdeal.S64) (Cert.ReferenceIdeal.HandV.R V' Cert.ReferenceIdeal.main_v149) (ix1 q) = bnVarOfSquares (atomCol m ρ c q) := by
  refine (Cert.ReferenceIdeal.HandV.atom_var V' q).trans ?_
  rw [atom_col m ρ c V' hx q]
  exact (Cert.KernelIdeal.HandV.bn_var_eq _ (fun r => hreal (ix2 r q))).symm

include hA in
/-- The scale and shift rows are the same rows of the shared tables. -/
theorem atom_rscale (q : Fin 64) :
    Cert.ReferenceIdeal.HandV.narr (S := Cert.ReferenceIdeal.S64) (Cert.ReferenceIdeal.HandV.R V' Cert.ReferenceIdeal.main_v143) (ix1 q) = pwRow (fn Cert.KernelIdeal.S1x64 (Kv m ρ c Cert.KernelIdeal.main_v124)) q := by
  have e7 := hA.a7
  unfold Rv at e7
  refine (Cert.ReferenceIdeal.HandV.atom_scale V' q).trans ?_
  rw [e7]
  exact (Cert.KernelIdeal.HandV.atom_scale m ρ c q).symm

include hA in
theorem atom_rshift (q : Fin 64) :
    Cert.ReferenceIdeal.HandV.narr (S := Cert.ReferenceIdeal.S64) (Cert.ReferenceIdeal.HandV.R V' Cert.ReferenceIdeal.main_v145) (ix1 q) = pwRow (fn Cert.KernelIdeal.S1x64 (Kv m ρ c Cert.KernelIdeal.main_v125)) q := by
  have e8 := hA.a8
  unfold Rv at e8
  refine (Cert.ReferenceIdeal.HandV.atom_shift V' q).trans ?_
  rw [e8]
  exact (Cert.KernelIdeal.HandV.atom_shift m ρ c q).symm

include hA hx hreal hs1 hs2 in
/-- An entry of the normalized, activated array: the same on both sides. -/
theorem atom_entry (r : Fin 250000) (q : Fin 64) :
    Cert.ReferenceIdeal.HandV.narr (S := Cert.ReferenceIdeal.S250000x64) (Cert.ReferenceIdeal.HandV.R V' Cert.ReferenceIdeal.main_v165) (ix2 r q)
      = G5_5 (fn Cert.KernelIdeal.S250000x64 (Kv m ρ c Cert.KernelIdeal.main_v117_0)) (fn Cert.KernelIdeal.S1x64 (Kv m ρ c Cert.KernelIdeal.main_v119))
          (fn Cert.KernelIdeal.S1x64 (Kv m ρ c Cert.KernelIdeal.main_v123)) (fn Cert.KernelIdeal.S1x64 (Kv m ρ c Cert.KernelIdeal.main_v124)) (fn Cert.KernelIdeal.S1x64 (Kv m ρ c Cert.KernelIdeal.main_v125)) (ix2 r q) := by
  refine (Cert.ReferenceIdeal.HandV.atomN_out V' r q).trans ?_
  have hxe : Cert.ReferenceIdeal.HandV.narr (S := Cert.ReferenceIdeal.S250000x64) (Cert.ReferenceIdeal.HandV.R V' Cert.ReferenceIdeal.main_v141) (ix2 r q) = fn Cert.KernelIdeal.S250000x64 (Kv m ρ c Cert.KernelIdeal.main_v117_0) (ix2 r q) :=
    congrFun (atom_col m ρ c V' hx q) r
  rw [hxe, atom_rmean m ρ c V' hx q, atom_rvar m ρ c V' hx hreal q, atom_rscale m ρ c V' hA q, atom_rshift m ρ c V' hA q,
    ← atom_kmean m ρ c hs1 q, ← atom_kvar m ρ c hs1 hs2 q]
  rfl

end atom

/-- The atom normalization agrees, the kernel program's two column-sum rows being the sums of the array's columns and of
    their squares. -/
theorem atom_norm_of (hA : Agree m ρ c V')
    (hx : Rv V' Cert.ReferenceIdeal.main_v141 = Kv m ρ c Cert.KernelIdeal.main_v117_0)
    (hreal : ∀ i, IsReal (fn Cert.KernelIdeal.S250000x64 (Kv m ρ c Cert.KernelIdeal.main_v117_0) i))
    (hs1 : ∀ q : Fin 64, fn Cert.KernelIdeal.S1x64 (Kv m ρ c Cert.KernelIdeal.main_v117_1) (ix2 0 q) = ∑ r : Fin 250000, fn Cert.KernelIdeal.S250000x64 (Kv m ρ c Cert.KernelIdeal.main_v117_0) (ix2 r q))
    (hs2 : ∀ q : Fin 64, fn Cert.KernelIdeal.S1x64 (Kv m ρ c Cert.KernelIdeal.main_v117_2) (ix2 0 q)
      = ∑ r : Fin 250000, fn Cert.KernelIdeal.S250000x64 (Kv m ρ c Cert.KernelIdeal.main_v117_0) (ix2 r q) * fn Cert.KernelIdeal.S250000x64 (Kv m ρ c Cert.KernelIdeal.main_v117_0) (ix2 r q)) :
    Rv V' Cert.ReferenceIdeal.main_v165 = Kv m ρ c Cert.KernelIdeal.main_v126 := by
  show fn Cert.KernelIdeal.S250000x64 (Rv V' Cert.ReferenceIdeal.main_v165) = fn Cert.KernelIdeal.S250000x64 (Kv m ρ c Cert.KernelIdeal.main_v126)
  funext j
  obtain ⟨r, q, rfl⟩ : ∃ (r : Fin 250000) (q : Fin 64), j = ix2 r q := ⟨j 0, j 1, eq_ix2 j⟩
  refine (atom_entry m ρ c V' hA hx hreal hs1 hs2 r q).trans ?_
  exact (congrFun (Cert.KernelIdeal.HandV.reg5_5 m ρ c) (ix2 r q)).symm

/-- The atom normalization agrees: the kernel program's column-sum rows are, by the region's closed forms, the sums of
    the array's columns and of their squares. -/
theorem atom_norm (hA : Agree m ρ c V')
    (hx : Rv V' Cert.ReferenceIdeal.main_v141 = Kv m ρ c Cert.KernelIdeal.main_v117_0)
    (hreal : ∀ i, IsReal (fn Cert.KernelIdeal.S250000x64 (Kv m ρ c Cert.KernelIdeal.main_v117_0) i)) :
    Rv V' Cert.ReferenceIdeal.main_v165 = Kv m ρ c Cert.KernelIdeal.main_v126 := by
  have e5 := Cert.KernelIdeal.HandV.reg4_5 m ρ c
  have e6 := Cert.KernelIdeal.HandV.reg4_6 m ρ c
  have e7 := Cert.KernelIdeal.HandV.reg4_7 m ρ c
  refine atom_norm_of m ρ c V' hA hx hreal (fun q => ?_) (fun q => ?_)
  · show fn Cert.KernelIdeal.S1x64 (Cert.KernelIdeal.HandV.Wf m ρ c Cert.KernelIdeal.main_v117_1) (ix2 0 q)
      = ∑ r : Fin 250000, fn Cert.KernelIdeal.S250000x64 (Cert.KernelIdeal.HandV.Wf m ρ c Cert.KernelIdeal.main_v117_0) (ix2 r q)
    rw [e6, e5]
  · show fn Cert.KernelIdeal.S1x64 (Cert.KernelIdeal.HandV.Wf m ρ c Cert.KernelIdeal.main_v117_2) (ix2 0 q)
      = ∑ r : Fin 250000, fn Cert.KernelIdeal.S250000x64 (Cert.KernelIdeal.HandV.Wf m ρ c Cert.KernelIdeal.main_v117_0) (ix2 r q) * fn Cert.KernelIdeal.S250000x64 (Cert.KernelIdeal.HandV.Wf m ρ c Cert.KernelIdeal.main_v117_0) (ix2 r q)
    rw [e7, e5]
-- ==== Proof.Bridge.GraphNorm.lean ====
/-
  The graph normalization agrees. Both programs normalize the entrywise sum of the same two arrays by that sum's own
  column mean and variance over the 10000 rows (the reference starts its sums from zero and guards the variance by a
  divisor that is positive), scale and shift by row 2 of the same two tables, and apply the same ELU: one formula.
-/
import proofs.«180658_j65867618451767_1_alg».proof.Proof.Bridge.Base
import proofs.«180658_j65867618451767_1_alg».proof.Proof.KI.RegEqs
import proofs.«180658_j65867618451767_1_alg».proof.Proof.KI.StatsEqs
import proofs.«180658_j65867618451767_1_alg».proof.Proof.Ref.NormRead

set_option maxRecDepth 16384

noncomputable section

open scoped BigOperators

namespace Cert.Bridge

open Idealize.ShloMosaic Idealize.ShloMosaic.TcCoe Idealize.ShloMosaic.StableHlo Idealize.ShloMosaic.ValueIdx
open Cert.KernelIdeal.HandV (pwElu pwNorm pwSigmoid pwRow pwEps guMean guVar guDev guSum guRows G7_4 G3_5 G3_6 G5_5
  bnRows bnMean bnMeanFromZero bnVarGuarded bnVarOfSquares)
open Cert.LibBatchNorm (IsReal)

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

theorem graph_norm (hA : Agree m ρ c V')
    (h212 : Rv V' Cert.ReferenceIdeal.main_v212 = Kv m ρ c Cert.KernelIdeal.main_v150)
    (h189 : Rv V' Cert.ReferenceIdeal.main_v189 = Kv m ρ c Cert.KernelIdeal.main_v52) :
    Rv V' Cert.ReferenceIdeal.main_v237 = Kv m ρ c Cert.KernelIdeal.main_v153 := by
  show fn Cert.KernelIdeal.S10000x64 (Rv V' Cert.ReferenceIdeal.main_v237) = fn Cert.KernelIdeal.S10000x64 (Kv m ρ c Cert.KernelIdeal.main_v153)
  funext j
  obtain ⟨r, q, rfl⟩ : ∃ (r : Fin 10000) (q : Fin 64), j = ix2 r q := ⟨j 0, j 1, eq_ix2 j⟩
  refine (Cert.ReferenceIdeal.HandV.graphN_out V' r q).trans ?_
  refine Eq.trans ?_ (congrFun (Cert.KernelIdeal.HandV.reg7_4 m ρ c) (ix2 r q)).symm
  have e212 := h212
  have e189 := h189
  have e7 := hA.a7
  have e8 := hA.a8
  unfold Rv at e212 e189 e7 e8
  -- the normalized array is the entrywise sum of the two shared arrays
  have hsum : ∀ p : Fin 10000, Cert.ReferenceIdeal.HandV.rarr (S := Cert.ReferenceIdeal.S10000x64) (Cert.ReferenceIdeal.HandV.R V' Cert.ReferenceIdeal.main_v213) (ix2 p q)
      = fn Cert.KernelIdeal.S10000x64 (Kv m ρ c Cert.KernelIdeal.main_v150) (ix2 p q) + fn Cert.KernelIdeal.S10000x64 (Kv m ρ c Cert.KernelIdeal.main_v52) (ix2 p q) := by
    intro p
    rw [Cert.ReferenceIdeal.HandV.r_316, e212, e189]
    rfl
  have hx : Cert.ReferenceIdeal.HandV.narr (S := Cert.ReferenceIdeal.S10000x64) (Cert.ReferenceIdeal.HandV.R V' Cert.ReferenceIdeal.main_v213) (ix2 r q)
      = guSum (fn Cert.KernelIdeal.S10000x64 (Kv m ρ c Cert.KernelIdeal.main_v150)) (fn Cert.KernelIdeal.S10000x64 (Kv m ρ c Cert.KernelIdeal.main_v52)) r q := hsum r
  have hmean : Cert.ReferenceIdeal.HandV.narr (S := Cert.ReferenceIdeal.S64) (Cert.ReferenceIdeal.HandV.R V' Cert.ReferenceIdeal.main_v220) (ix1 q)
      = guMean (fn Cert.KernelIdeal.S10000x64 (Kv m ρ c Cert.KernelIdeal.main_v150)) (fn Cert.KernelIdeal.S10000x64 (Kv m ρ c Cert.KernelIdeal.main_v52)) q :=
    Cert.ReferenceIdeal.HandV.graph_mean_of_sum V' q _ _ hsum
  have hvar : Cert.ReferenceIdeal.HandV.narr (S := Cert.ReferenceIdeal.S64) (Cert.ReferenceIdeal.HandV.R V' Cert.ReferenceIdeal.main_v221) (ix1 q)
      = guVar (fn Cert.KernelIdeal.S10000x64 (Kv m ρ c Cert.KernelIdeal.main_v150)) (fn Cert.KernelIdeal.S10000x64 (Kv m ρ c Cert.KernelIdeal.main_v52)) q :=
    Cert.ReferenceIdeal.HandV.graph_var_of_sum V' q _ _ hsum
  have hg : Cert.ReferenceIdeal.HandV.narr (S := Cert.ReferenceIdeal.S64) (Cert.ReferenceIdeal.HandV.R V' Cert.ReferenceIdeal.main_v215) (ix1 q)
      = pwRow (fn Cert.KernelIdeal.S1x64 (Kv m ρ c Cert.KernelIdeal.main_v151)) q := by
    refine (Cert.ReferenceIdeal.HandV.graph_scale V' q).trans ?_
    rw [e7]
    exact (Cert.KernelIdeal.HandV.graph_scale m ρ c q).symm
  have hb : Cert.ReferenceIdeal.HandV.narr (S := Cert.ReferenceIdeal.S64) (Cert.ReferenceIdeal.HandV.R V' Cert.ReferenceIdeal.main_v217) (ix1 q)
      = pwRow (fn Cert.KernelIdeal.S1x64 (Kv m ρ c Cert.KernelIdeal.main_v152)) q := by
    refine (Cert.ReferenceIdeal.HandV.graph_shift V' q).trans ?_
    rw [e8]
    exact (Cert.KernelIdeal.HandV.graph_shift m ρ c q).symm
  rw [hx, hmean, hvar, hg, hb]
  rfl
-- ==== Proof.KI.PreReal.lean ====
import proofs.«180658_j65867618451767_1_alg».proof.Defs
import proofs.«180658_j65867618451767_1_alg».proof.Proof.Gen.Pre_finite_inputs
import proofs.«180658_j65867618451767_1_alg».proof.Proof.LibBatchNorm
import Idealize.ShloMosaic.Lib.ReduceAll
import Idealize.ShloMosaic.Lib.ValueIdx
import Idealize.ShloMosaic.Lib.Affine

/-! The precondition decoded: when the finiteness predicate of the argument arrays is all ones, every entry of every
    float argument is a real number. The predicate is, per float argument, "the absolute value of every entry is
    below +∞", and-ed together; on the extended reals an entry whose absolute value is below +∞ is neither
    infinity. -/

set_option maxRecDepth 16384

noncomputable section

namespace Cert.KernelIdeal.HandV

open Cert.KernelIdeal Idealize.ShloMosaic Idealize.ShloMosaic.TcCoe Idealize.SL.Sem Idealize.ShloMosaic.ValueIdx
open Cert.LibBatchNorm

/-- The rank-0 shape has one index. -/
instance pre_subsingleton : Subsingleton Cert.Pre_finite_inputs.S_.Idx := ⟨fun a b => funext fun d => d.elim0⟩

/-- The word of `+∞` denotes the top of the extended reals. -/
theorem pre_ofBits_inf : Ideal.ofBits .f32 0x7F800000#32 = ⊤ := by
  simp [Ideal.ofBits, Ideal.ieee]

/-- An extended real whose absolute value `max x (-x)` compares below `+∞` is a real number. -/
theorem isReal_of_abs_lt_inf (x : EReal)
    (h : FloatOps.cmpf (F := Ideal) (φ := .f32) .olt (FloatOps.hostAbsf (F := Ideal) (φ := .f32) x) (Ideal.ofBits .f32 0x7F800000#32) = 1#1) :
    IsReal x := by
  rw [pre_ofBits_inf] at h
  have h' : max x (-x) < ⊤ := by
    by_contra hn
    have : FloatOps.cmpf (F := Ideal) (φ := .f32) .olt (FloatOps.hostAbsf (F := Ideal) (φ := .f32) x) ⊤ = 0#1 := by
      show BitVec.ofBool (decide (max x (-x) < ⊤)) = 0#1
      rw [decide_eq_false hn]; rfl
    rw [this] at h
    exact absurd h (by decide)
  induction x using EReal.rec with
  | bot => exact absurd h' (by simp)
  | top => exact absurd h' (by simp)
  | coe r => exact ⟨r, rfl⟩

/-- One argument's conjunct: the "all" over the comparison of the entries' absolute values with `+∞` being one, every
    entry is a real. -/
theorem all_finite_isReal {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) : IsReal (x i) :=
  isReal_of_abs_lt_inf (x i) (Host.reduce_andi_all _ _ hr hu ix0 e i)

/-- A conjunction of two scalar predicates that is one has both conjuncts one. -/
theorem andi_ix0 (a b : IVec Cert.Pre_finite_inputs.S_ 1) (h : andi a b ix0 = 1#1) : a ix0 = 1#1 ∧ b ix0 = 1#1 :=
  IntOp.andi_eq_one.mp h

/-- Under the precondition every entry of each of the nine float arguments is a real number. -/
theorem pre_real (m : (ℓ : Loc nD τ sig) → Buf (Elt Ideal) ℓ)
    (h : Cert.Pre_KernelIdeal (hPre_finite_inputs := Cert.Pre_finite_inputs.Gen.facts) m) (c : Dev nD) :
    (∀ i, IsReal (m ((c.tc : Thread nD τ).loc main_arg0) i)) ∧ (∀ i, IsReal (m ((c.tc : Thread nD τ).loc main_arg1) i))
    ∧ (∀ i, IsReal (m ((c.tc : Thread nD τ).loc main_arg2) i)) ∧ (∀ i, IsReal (m ((c.tc : Thread nD τ).loc main_arg3) i))
    ∧ (∀ i, IsReal (m ((c.tc : Thread nD τ).loc main_arg4) i)) ∧ (∀ i, IsReal (m ((c.tc : Thread nD τ).loc main_arg5) i))
    ∧ (∀ i, IsReal (m ((c.tc : Thread nD τ).loc main_arg6) i)) ∧ (∀ i, IsReal (m ((c.tc : Thread nD τ).loc main_arg7) i))
    ∧ (∀ i, IsReal (m ((c.tc : Thread nD τ).loc main_arg8) i)) := by
  have h0 := congrFun (h c) ix0
  dsimp only [Cert.Pre_finite_inputs.fn, Cert.Pre_finite_inputs.fn_part1, Cert.Pre_finite_inputs.fn_part2] at h0
  obtain ⟨g7, r8⟩ := andi_ix0 _ _ h0
  obtain ⟨g6, r7⟩ := andi_ix0 _ _ g7
  obtain ⟨g5, r6⟩ := andi_ix0 _ _ g6
  obtain ⟨g4, r5⟩ := andi_ix0 _ _ g5
  obtain ⟨g3, r4⟩ := andi_ix0 _ _ g4
  obtain ⟨g2, r3⟩ := andi_ix0 _ _ g3
  obtain ⟨g1, r2⟩ := andi_ix0 _ _ g2
  obtain ⟨r0, r1⟩ := andi_ix0 _ _ g1
  exact ⟨all_finite_isReal _ _ _ _ r0, all_finite_isReal _ _ _ _ r1, all_finite_isReal _ _ _ _ r2,
    all_finite_isReal _ _ _ _ r3, all_finite_isReal _ _ _ _ r4, all_finite_isReal _ _ _ _ r5,
    all_finite_isReal _ _ _ _ r6, all_finite_isReal _ _ _ _ r7, all_finite_isReal _ _ _ _ r8⟩
-- ==== Proof.Bridge.RealArgs.lean ====
/-
  The nine float arguments are real-valued at the kernel program's last boundary: the precondition says every entry of
  every float argument is finite, and no segment writes an argument.
-/
import proofs.«180658_j65867618451767_1_alg».proof.Proof.Bridge.Base
import proofs.«180658_j65867618451767_1_alg».proof.Proof.KI.PreReal

set_option maxRecDepth 16384

noncomputable section

namespace Cert.Bridge

open Idealize.ShloMosaic Idealize.ShloMosaic.TcCoe Idealize.ShloMosaic.StableHlo Cert.LibBatchNorm

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- Every entry of every float argument, at the last boundary, is a real number. -/
structure RealArgs : Prop where
  r0 : ∀ i, IsReal (fn Cert.KernelIdeal.S250000x64 (Kv m ρ c Cert.KernelIdeal.main_arg0) i)
  r1 : ∀ i, IsReal (fn Cert.KernelIdeal.S250000x64 (Kv m ρ c Cert.KernelIdeal.main_arg1) i)
  r2 : ∀ i, IsReal (fn Cert.KernelIdeal.S10000x64 (Kv m ρ c Cert.KernelIdeal.main_arg2) i)
  r3 : ∀ i, IsReal (fn Cert.KernelIdeal.S250000x1 (Kv m ρ c Cert.KernelIdeal.main_arg3) i)
  r4 : ∀ i, IsReal (fn Cert.KernelIdeal.S250000x1 (Kv m ρ c Cert.KernelIdeal.main_arg4) i)
  r5 : ∀ i, IsReal (fn Cert.KernelIdeal.S9x64x64 (Kv m ρ c Cert.KernelIdeal.main_arg5) i)
  r6 : ∀ i, IsReal (fn Cert.KernelIdeal.S9x64 (Kv m ρ c Cert.KernelIdeal.main_arg6) i)
  r7 : ∀ i, IsReal (fn Cert.KernelIdeal.S3x64 (Kv m ρ c Cert.KernelIdeal.main_arg7) i)
  r8 : ∀ i, IsReal (fn Cert.KernelIdeal.S3x64 (Kv m ρ c Cert.KernelIdeal.main_arg8) i)

theorem realArgs_of_pre (h : Cert.Pre_KernelIdeal (hPre_finite_inputs := Cert.Pre_finite_inputs.Gen.facts) m) : RealArgs m ρ c := by
  obtain ⟨p0, p1, p2, p3, p4, p5, p6, p7, p8⟩ := Cert.KernelIdeal.HandV.pre_real m h c
  refine ⟨?_, ?_, ?_, ?_, ?_, ?_, ?_, ?_, ?_⟩
  · intro i; show IsReal (Kv m ρ c Cert.KernelIdeal.main_arg0 i); rw [Kv_arg0 m ρ c]; exact p0 i
  · intro i; show IsReal (Kv m ρ c Cert.KernelIdeal.main_arg1 i); rw [Kv_arg1 m ρ c]; exact p1 i
  · intro i; show IsReal (Kv m ρ c Cert.KernelIdeal.main_arg2 i); rw [Kv_arg2 m ρ c]; exact p2 i
  · intro i; show IsReal (Kv m ρ c Cert.KernelIdeal.main_arg3 i); rw [Kv_arg3 m ρ c]; exact p3 i
  · intro i; show IsReal (Kv m ρ c Cert.KernelIdeal.main_arg4 i); rw [Kv_arg4 m ρ c]; exact p4 i
  · intro i; show IsReal (Kv m ρ c Cert.KernelIdeal.main_arg5 i); rw [Kv_arg5 m ρ c]; exact p5 i
  · intro i; show IsReal (Kv m ρ c Cert.KernelIdeal.main_arg6 i); rw [Kv_arg6 m ρ c]; exact p6 i
  · intro i; show IsReal (Kv m ρ c Cert.KernelIdeal.main_arg7 i); rw [Kv_arg7 m ρ c]; exact p7 i
  · intro i; show IsReal (Kv m ρ c Cert.KernelIdeal.main_arg8 i); rw [Kv_arg8 m ρ c]; exact p8 i

end Cert.Bridge

end
-- ==== Proof.KI.RowReal.lean ====
import proofs.«180658_j65867618451767_1_alg».proof.Proof.Gen.KernelIdeal
import proofs.«180658_j65867618451767_1_alg».proof.Proof.LibBatchNorm
import Idealize.ShloMosaic.PureOps.Ideal
import Idealize.ShloMosaic.Lib.ValueIdx

/-! Real-valuedness and sign through the host's gather and accumulating scatter on the extended reals. A gather only
    reads entries of its table, so it keeps any property of every entry. An accumulating scatter leaves at each index
    the entry plus a finite sum of updates, so it keeps "is a real number" and "is non-negative" when the table and the
    updates have it. Neither fact depends on where the indices point. -/

noncomputable section

namespace Cert.KernelIdeal.HandV

open Cert.KernelIdeal Cert.KernelIdeal.Gen Idealize.ShloMosaic Idealize.ShloMosaic.ValueIdx Cert.LibBatchNorm
open scoped BigOperators

/-! ## Any gather, any accumulating scatter -/

/-- Every entry of a gather is an entry of its table: a property of all the table's entries is one of the gather's. -/
theorem gather_forall {s si t : Shape} {w : Nat} {α : Type} (d : GatherDims s si t) (P : α → Prop) (X : s.Idx → α)
    (I : IVec si w) (hX : ∀ i, P (X i)) (j : t.Idx) : P (Host.gather d X I j) :=
  hX _

/-- The accumulating scatter at an index: the entry plus the sum of the updates landing there. -/
theorem scatterAdd_apply {s si u : Shape} {w : Nat} (d : ScatterDims s si u) (X : s.Idx → EReal) (I : IVec si w)
    (U : u.Idx → EReal) (j : s.Idx) :
    Host.scatterAdd (F := Ideal) (φ := .f32) d X I U j
      = X j + ∑ k ∈ Finset.univ.filter (fun k => d.resultIdx? k I = some j), U k := rfl

/-- An accumulating scatter of reals into reals is real at every index. -/
theorem scatterAdd_isReal_of {s si u : Shape} {w : Nat} (d : ScatterDims s si u) (X : s.Idx → EReal) (I : IVec si w)
    (U : u.Idx → EReal) (hX : ∀ i, IsReal (X i)) (hU : ∀ i, IsReal (U i)) (j : s.Idx) :
    IsReal (Host.scatterAdd (F := Ideal) (φ := .f32) d X I U j) := by
  rw [scatterAdd_apply]
  exact (hX j).add (isReal_sum _ _ fun k _ => hU k)

/-- An accumulating scatter of non-negative updates into a non-negative table is non-negative at every index. -/
theorem scatterAdd_nonneg_of {s si u : Shape} {w : Nat} (d : ScatterDims s si u) (X : s.Idx → EReal) (I : IVec si w)
    (U : u.Idx → EReal) (hX : ∀ i, 0 ≤ X i) (hU : ∀ i, 0 ≤ U i) (j : s.Idx) :
    0 ≤ Host.scatterAdd (F := Ideal) (φ := .f32) d X I U j := by
  rw [scatterAdd_apply]
  exact add_nonneg (hX j) (Finset.sum_nonneg fun k _ => hU k)

/-! ## The program's two gathers and three scatters -/

/-- The gather of rows of a `[250000, 64]` table keeps real entries. -/
theorem gather_isReal_250000 (X : (⟨S250000x64, .f32⟩ : BufTy).Contents (Elt Ideal)) (I : (⟨S250000x1, .i32⟩ : BufTy).Contents (Elt Ideal))
    (hX : ∀ i, IsReal (X i)) (j : S250000x64.Idx) :
    IsReal (Host.gather gather_S250000x64_S250000x1_S250000x64_1_0_n_n_0_1_164 X I j) :=
  gather_forall _ IsReal X I hX j

/-- The gather of rows of a `[10000, 64]` table keeps real entries. -/
theorem gather_isReal_10000 (X : (⟨S10000x64, .f32⟩ : BufTy).Contents (Elt Ideal)) (I : (⟨S250000x1, .i32⟩ : BufTy).Contents (Elt Ideal))
    (hX : ∀ i, IsReal (X i)) (j : S250000x64.Idx) :
    IsReal (Host.gather gather_S10000x64_S250000x1_S250000x64_1_0_n_n_0_1_164 X I j) :=
  gather_forall _ IsReal X I hX j

/-- The accumulating scatter of `[500000, 64]` rows into a `[250000, 64]` table keeps real entries. -/
theorem scatterAdd_isReal_250000x64 (X : (⟨S250000x64, .f32⟩ : BufTy).Contents (Elt Ideal)) (I : (⟨S500000x1, .i32⟩ : BufTy).Contents (Elt Ideal))
    (U : (⟨S500000x64, .f32⟩ : BufTy).Contents (Elt Ideal)) (hX : ∀ i, IsReal (X i)) (hU : ∀ i, IsReal (U i)) (j : S250000x64.Idx) :
    IsReal (Host.scatterAdd (F := Ideal) (φ := .f32) scatter_S250000x64_S500000x1_S500000x64_1_0_0_1 X I U j) :=
  scatterAdd_isReal_of _ X I U hX hU j

/-- … and non-negative ones. -/
theorem scatterAdd_nonneg_250000x64 (X : (⟨S250000x64, .f32⟩ : BufTy).Contents (Elt Ideal)) (I : (⟨S500000x1, .i32⟩ : BufTy).Contents (Elt Ideal))
    (U : (⟨S500000x64, .f32⟩ : BufTy).Contents (Elt Ideal)) (hX : ∀ i, 0 ≤ X i) (hU : ∀ i, 0 ≤ U i) (j : S250000x64.Idx) :
    0 ≤ Host.scatterAdd (F := Ideal) (φ := .f32) scatter_S250000x64_S500000x1_S500000x64_1_0_0_1 X I U j :=
  scatterAdd_nonneg_of _ X I U hX hU j

/-- The accumulating scatter of `[250000, 1]` rows into a `[10000, 1]` table keeps real entries. -/
theorem scatterAdd_isReal_10000x1 (X : (⟨S10000x1, .f32⟩ : BufTy).Contents (Elt Ideal)) (I : (⟨S250000x1, .i32⟩ : BufTy).Contents (Elt Ideal))
    (U : (⟨S250000x1, .f32⟩ : BufTy).Contents (Elt Ideal)) (hX : ∀ i, IsReal (X i)) (hU : ∀ i, IsReal (U i)) (j : S10000x1.Idx) :
    IsReal (Host.scatterAdd (F := Ideal) (φ := .f32) scatter_S10000x1_S250000x1_S250000x1_1_0_0_1 X I U j) :=
  scatterAdd_isReal_of _ X I U hX hU j

/-- The accumulating scatter of `[250000, 64]` rows into a `[10000, 64]` table keeps real entries. -/
theorem scatterAdd_isReal_10000x64 (X : (⟨S10000x64, .f32⟩ : BufTy).Contents (Elt Ideal)) (I : (⟨S250000x1, .i32⟩ : BufTy).Contents (Elt Ideal))
    (U : (⟨S250000x64, .f32⟩ : BufTy).Contents (Elt Ideal)) (hX : ∀ i, IsReal (X i)) (hU : ∀ i, IsReal (U i)) (j : S10000x64.Idx) :
    IsReal (Host.scatterAdd (F := Ideal) (φ := .f32) scatter_S10000x64_S250000x1_S250000x64_1_0_0_1 X I U j) :=
  scatterAdd_isReal_of _ X I U hX hU j
-- ==== Proof.Bridge.Real.lean ====
/-
  Real-valuedness on the kernel program's side, at its last boundary. The float arguments are real-valued; sums, products
  and differences of reals are reals; a gather reads entries of its table and a concatenation entries of its pieces; an
  accumulating scatter into zeros adds finitely many updates. Hence the dense layers, their gathers, the bond sums, the
  gate (a logistic function of a real: a positive real), the weighted messages, their scatter-added numerator and the
  denominator (a non-negative real plus a positive constant: a positive real) are real-valued, and so is the atom sum.
-/
import proofs.«180658_j65867618451767_1_alg».proof.Proof.Bridge.RealArgs
import proofs.«180658_j65867618451767_1_alg».proof.Proof.KI.Dense
import proofs.«180658_j65867618451767_1_alg».proof.Proof.KI.StatsEqs
import proofs.«180658_j65867618451767_1_alg».proof.Proof.KI.BnLaw
import proofs.«180658_j65867618451767_1_alg».proof.Proof.KI.RowReal
import proofs.«180658_j65867618451767_1_alg».proof.Proof.KI.RegEqs2
import proofs.«180658_j65867618451767_1_alg».proof.Proof.KI.RegEqs4

set_option maxRecDepth 16384

noncomputable section

open scoped BigOperators

namespace Cert.Bridge

open Idealize.ShloMosaic Idealize.ShloMosaic.TcCoe Idealize.ShloMosaic.StableHlo Idealize.ShloMosaic.ValueIdx
open Cert.LibBatchNorm Cert.KernelIdeal Cert.KernelIdeal.Gen Cert.KernelIdeal.HandV

attribute [local irreducible] Cert.KernelIdeal.Hand.W15

/-! ## Entries of composite arrays -/

/-- A broadcast's entry is an entry of its operand. -/
theorem broadcastInDim_forall {α : Type} {s t : Shape} (P : α → Prop) (dims : Fin s.rank → Fin t.rank) (h : s.BroadcastsInDim t dims)
    (x : s.Idx → α) (hx : ∀ k, P (x k)) (j : t.Idx) : P (broadcastInDim t dims h x j) := by
  unfold broadcastInDim; exact hx _

/-- A concatenation's entry is an entry of one of its pieces. -/
theorem concatenate_forall {α : Type} (P : α → Prop) (t : Shape) (a : Fin t.rank) (xs : List ((s : Shape) × (s.Idx → α)))
    (h : Shape.Concatenates (xs.map (·.1)) t a) (hP : ∀ p ∈ xs, ∀ j, P (p.2 j)) (j : t.Idx) : P (concatenate t a xs h j) := by
  unfold concatenate; exact hP _ (List.getElem_mem _) _

/-- Two pieces: the property of both. -/
theorem concatenate2_forall {α : Type} (P : α → Prop) (t s : Shape) (a : Fin t.rank) (x y : s.Idx → α)
    (h : Shape.Concatenates (([⟨s, x⟩, ⟨s, y⟩] : List ((s : Shape) × (s.Idx → α))).map (·.1)) t a)
    (hx : ∀ j, P (x j)) (hy : ∀ j, P (y j)) (j : t.Idx) : P (concatenate t a [⟨s, x⟩, ⟨s, y⟩] h j) :=
  concatenate_forall P t a _ h (fun p hp => by
    rcases List.mem_cons.mp hp with rfl | hp
    · exact hx
    · rcases List.mem_cons.mp hp with rfl | hp
      · exact hy
      · cases hp) j

/-- A dense layer of real-valued arrays is real-valued. -/
theorem real_of_lin {M : Nat} (Y X : (⟨2, ![M, 64]⟩ : Shape).Idx → EReal) (Ws : S9x64x64.Idx → EReal) (bs : S9x64.Idx → EReal) (i : Fin 9)
    (h : ∀ (r : Fin M) (q : Fin 64), Y (ix2 r q) = (∑ k : Fin 64, X (ix2 r k) * Ws (ix3 i k q)) + bs (ix2 i q))
    (hX : ∀ j, IsReal (X j)) (hW : ∀ j, IsReal (Ws j)) (hb : ∀ j, IsReal (bs j)) : ∀ j, IsReal (Y j) := by
  intro j
  obtain ⟨r, q, rfl⟩ : ∃ (r : Fin M) (q : Fin 64), j = ix2 r q := ⟨j 0, j 1, eq_ix2 j⟩
  rw [h r q]
  exact (isReal_sum _ _ fun k _ => (hX _).mul (hW _)).add (hb _)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-! ## The dense layers of the arguments and their gathers -/

theorem real_v46 (hR : RealArgs m ρ c) : ∀ j, IsReal (fn S250000x64 (Kv m ρ c main_v46) j) :=
  real_of_lin (fn S250000x64 (Kv m ρ c main_v46)) (fn S250000x64 (Kv m ρ c main_arg0)) (fn S9x64x64 (Kv m ρ c main_arg5))
    (fn S9x64 (Kv m ρ c main_arg6)) 0 (ker_lin0 m ρ c) hR.r0 hR.r5 hR.r6
theorem real_v47 (hR : RealArgs m ρ c) : ∀ j, IsReal (fn S250000x64 (Kv m ρ c main_v47) j) :=
  real_of_lin (fn S250000x64 (Kv m ρ c main_v47)) (fn S250000x64 (Kv m ρ c main_arg0)) (fn S9x64x64 (Kv m ρ c main_arg5))
    (fn S9x64 (Kv m ρ c main_arg6)) 3 (ker_lin3 m ρ c) hR.r0 hR.r5 hR.r6
theorem real_v48 (hR : RealArgs m ρ c) : ∀ j, IsReal (fn S250000x64 (Kv m ρ c main_v48) j) :=
  real_of_lin (fn S250000x64 (Kv m ρ c main_v48)) (fn S250000x64 (Kv m ρ c main_arg0)) (fn S9x64x64 (Kv m ρ c main_arg5))
    (fn S9x64 (Kv m ρ c main_arg6)) 4 (ker_lin4 m ρ c) hR.r0 hR.r5 hR.r6
theorem real_v45_1 (hR : RealArgs m ρ c) : ∀ j, IsReal (fn S250000x64 (Kv m ρ c main_v45_1) j) :=
  real_of_lin (fn S250000x64 (Kv m ρ c main_v45_1)) (fn S250000x64 (Kv m ρ c main_arg1)) (fn S9x64x64 (Kv m ρ c main_arg5))
    (fn S9x64 (Kv m ρ c main_arg6)) 1 (ker_lin1 m ρ c) hR.r1 hR.r5 hR.r6
theorem real_v50 (hR : RealArgs m ρ c) : ∀ j, IsReal (fn S10000x64 (Kv m ρ c main_v50) j) :=
  real_of_lin (fn S10000x64 (Kv m ρ c main_v50)) (fn S10000x64 (Kv m ρ c main_arg2)) (fn S9x64x64 (Kv m ρ c main_arg5))
    (fn S9x64 (Kv m ρ c main_arg6)) 2 (ker_lin2 m ρ c) hR.r2 hR.r5 hR.r6
theorem real_v51 (hR : RealArgs m ρ c) : ∀ j, IsReal (fn S10000x64 (Kv m ρ c main_v51) j) :=
  real_of_lin (fn S10000x64 (Kv m ρ c main_v51)) (fn S10000x64 (Kv m ρ c main_arg2)) (fn S9x64x64 (Kv m ρ c main_arg5))
    (fn S9x64 (Kv m ρ c main_arg6)) 5 (ker_lin5 m ρ c) hR.r2 hR.r5 hR.r6

theorem real_v59 (hR : RealArgs m ρ c) : ∀ j, IsReal (fn S250000x64 (Kv m ρ c main_v59) j) := by
  intro j; show IsReal (Wf m ρ c main_v59 j); rw [k_h2_11 m ρ c]; exact gather_isReal_250000 _ _ (real_v46 m ρ c hR) j
theorem real_v66 (hR : RealArgs m ρ c) : ∀ j, IsReal (fn S250000x64 (Kv m ρ c main_v66) j) := by
  intro j; show IsReal (Wf m ρ c main_v66 j); rw [k_h2_20 m ρ c]; exact gather_isReal_250000 _ _ (real_v46 m ρ c hR) j
theorem real_v73 (hR : RealArgs m ρ c) : ∀ j, IsReal (fn S250000x64 (Kv m ρ c main_v73) j) := by
  intro j; show IsReal (Wf m ρ c main_v73 j); rw [k_h2_29 m ρ c]; exact gather_isReal_10000 _ _ (real_v50 m ρ c hR) j
theorem real_v91 (hR : RealArgs m ρ c) : ∀ j, IsReal (fn S250000x64 (Kv m ρ c main_v91) j) := by
  intro j; show IsReal (Wf m ρ c main_v91 j); rw [k_h4_9 m ρ c]; exact gather_isReal_250000 _ _ (real_v48 m ρ c hR) j
theorem real_v98 (hR : RealArgs m ρ c) : ∀ j, IsReal (fn S250000x64 (Kv m ρ c main_v98) j) := by
  intro j; show IsReal (Wf m ρ c main_v98 j); rw [k_h4_18 m ρ c]; exact gather_isReal_250000 _ _ (real_v48 m ρ c hR) j
theorem real_v116 (hR : RealArgs m ρ c) : ∀ j, IsReal (fn S250000x64 (Kv m ρ c main_v116) j) := by
  intro j; show IsReal (Wf m ρ c main_v116 j); rw [k_h4_41 m ρ c]; exact gather_isReal_10000 _ _ (real_v51 m ρ c hR) j

/-! ## The bond sums -/

/-- The bond sums are real-valued: gathers of dense layers of the arguments, added, times a column of an argument.
    `h25` is the second region's first output at an index. -/
theorem real_bond_sum_of (hR : RealArgs m ρ c)
    (h25 : ∀ i : S250000x64.Idx, fn S250000x64 (Kv m ρ c main_v74_0) i
      = (((fn S250000x64 (Kv m ρ c main_v59) i + fn S250000x64 (Kv m ρ c main_v66) i) + fn S250000x64 (Kv m ρ c main_v45_1) i)
          + fn S250000x64 (Kv m ρ c main_v73) i) * fn S250000x1 (Kv m ρ c main_arg4) (ix2 (i 0 : Fin 250000) (0 : Fin 1))) :
    ∀ i, IsReal (fn S250000x64 (Kv m ρ c main_v74_0) i) := by
  intro i
  rw [h25 i]
  exact ((((real_v59 m ρ c hR i).add (real_v66 m ρ c hR i)).add (real_v45_1 m ρ c hR i)).add (real_v73 m ρ c hR i)).mul (hR.r4 _)

/-- The same with the second region's first output read from its closed form. -/
theorem real_bond_sum (hR : RealArgs m ρ c) : ∀ i, IsReal (fn S250000x64 (Kv m ρ c main_v74_0) i) :=
  real_bond_sum_of m ρ c hR fun i => congrFun (reg2_5 m ρ c) i

/-- The second region's second output at a column: the column's sum of the bond sums. -/
theorem bond_colsum (q : Fin 64) : fn S1x64 (Kv m ρ c main_v74_1) (ix2 (0 : Fin 1) q)
    = ∑ r : Fin 250000, fn S250000x64 (Kv m ρ c main_v74_0) (ix2 r q) := by
  have e : fn S1x64 (Kv m ρ c main_v74_1) (ix2 (0 : Fin 1) q)
      = ∑ r : Fin 250000, G2_5 (Wf m ρ c main_v59) (Wf m ρ c main_v66) (Wf m ρ c main_v45_1) (Wf m ρ c main_v73) (Wf m ρ c main_arg4) (ix2 r q) := congrFun (reg2_6 m ρ c) (ix2 (0 : Fin 1) q)
  rw [e]
  exact Finset.sum_congr rfl fun r _ => (congrFun (reg2_5 m ρ c) (ix2 r q)).symm

/-- The second region's third output at a column: the column's sum of the bond sums' squares. -/
theorem bond_colsumsq (q : Fin 64) : fn S1x64 (Kv m ρ c main_v74_2) (ix2 (0 : Fin 1) q)
    = ∑ r : Fin 250000, fn S250000x64 (Kv m ρ c main_v74_0) (ix2 r q) * fn S250000x64 (Kv m ρ c main_v74_0) (ix2 r q) := by
  have e : fn S1x64 (Kv m ρ c main_v74_2) (ix2 (0 : Fin 1) q)
      = ∑ r : Fin 250000, G2_5 (Wf m ρ c main_v59) (Wf m ρ c main_v66) (Wf m ρ c main_v45_1) (Wf m ρ c main_v73) (Wf m ρ c main_arg4) (ix2 r q)
          * G2_5 (Wf m ρ c main_v59) (Wf m ρ c main_v66) (Wf m ρ c main_v45_1) (Wf m ρ c main_v73) (Wf m ρ c main_arg4) (ix2 r q) := congrFun (reg2_7 m ρ c) (ix2 (0 : Fin 1) q)
  rw [e]
  exact Finset.sum_congr rfl fun r _ =>
    congrArg₂ (fun a b : EReal => a * b) (congrFun (reg2_5 m ρ c) (ix2 r q)).symm (congrFun (reg2_5 m ρ c) (ix2 r q)).symm

/-! ## The gate -/

/-- The gate — the third region's second output — is real-valued and positive: a logistic function of a real. The
    normalization's mean row is the mean of the bond sums' column, its variance row the mean of the squares less the
    squared mean (a non-negative real on real data), its scale and shift rows are rows of arguments. `h26`, `h27` are
    the second region's column sums at a column. -/
theorem real_sig_of (hR : RealArgs m ρ c) (hB : ∀ i, IsReal (fn S250000x64 (Kv m ρ c main_v74_0) i))
    (h26 : ∀ q : Fin 64, fn S1x64 (Kv m ρ c main_v74_1) (ix2 (0 : Fin 1) q)
      = ∑ r : Fin 250000, fn S250000x64 (Kv m ρ c main_v74_0) (ix2 r q))
    (h27 : ∀ q : Fin 64, fn S1x64 (Kv m ρ c main_v74_2) (ix2 (0 : Fin 1) q)
      = ∑ r : Fin 250000, fn S250000x64 (Kv m ρ c main_v74_0) (ix2 r q) * fn S250000x64 (Kv m ρ c main_v74_0) (ix2 r q)) :
    ∀ i, IsReal (fn S250000x64 (Kv m ρ c main_v83_1) i) ∧ 0 < fn S250000x64 (Kv m ρ c main_v83_1) i := by
  intro i
  obtain ⟨r, q, rfl⟩ : ∃ (r : Fin 250000) (q : Fin 64), i = ix2 r q := ⟨i 0, i 1, eq_ix2 i⟩
  have hxr : ∀ r' : Fin 250000, IsReal ((fun r' : Fin 250000 => fn S250000x64 (Kv m ρ c main_v74_0) (ix2 r' q)) r') := fun r' => hB _
  have hmean : fn S1x64 (Kv m ρ c main_v76) (ix2 (0 : Fin 1) q)
      = bnMean (fun r' : Fin 250000 => fn S250000x64 (Kv m ρ c main_v74_0) (ix2 r' q)) := by
    have e : fn S1x64 (Kv m ρ c main_v76) (ix2 (0 : Fin 1) q)
        = Ideal.div (fn S1x64 (Kv m ρ c main_v74_1) (ix2 (0 : Fin 1) q)) bnRows := bond_mean m ρ c q
    rw [e, h26 q]; rfl
  have hvar : fn S1x64 (Kv m ρ c main_v80) (ix2 (0 : Fin 1) q)
      = bnVarOfSquares (fun r' : Fin 250000 => fn S250000x64 (Kv m ρ c main_v74_0) (ix2 r' q)) := by
    have e : fn S1x64 (Kv m ρ c main_v80) (ix2 (0 : Fin 1) q)
        = Ideal.div (fn S1x64 (Kv m ρ c main_v74_2) (ix2 (0 : Fin 1) q)) bnRows
          - fn S1x64 (Kv m ρ c main_v76) (ix2 (0 : Fin 1) q) * fn S1x64 (Kv m ρ c main_v76) (ix2 (0 : Fin 1) q) := bond_var m ρ c q
    rw [e, h27 q, hmean]; rfl
  have hμ : IsReal (fn S1x64 (Kv m ρ c main_v76) (ix2 (0 : Fin 1) q)) := by rw [hmean]; exact bn_mean_isReal _ hxr
  have hv : ∃ v : ℝ, 0 ≤ v ∧ fn S1x64 (Kv m ρ c main_v80) (ix2 (0 : Fin 1) q) = (v : EReal) := by
    obtain ⟨v, hv0, hv⟩ := bn_var_nonneg _ hxr
    exact ⟨v, hv0, hvar.trans hv⟩
  have hg : IsReal (fn S1x64 (Kv m ρ c main_v81) (ix2 (0 : Fin 1) q)) := by
    have e : fn S1x64 (Kv m ρ c main_v81) (ix2 (0 : Fin 1) q) = fn S3x64 (Kv m ρ c main_arg7) (ix2 (0 : Fin 3) q) := bond_scale m ρ c q
    rw [e]; exact hR.r7 _
  have hb : IsReal (fn S1x64 (Kv m ρ c main_v82) (ix2 (0 : Fin 1) q)) := by
    have e : fn S1x64 (Kv m ρ c main_v82) (ix2 (0 : Fin 1) q) = fn S3x64 (Kv m ρ c main_arg8) (ix2 (0 : Fin 3) q) := bond_shift m ρ c q
    rw [e]; exact hR.r8 _
  have e36 : fn S250000x64 (Kv m ρ c main_v83_1) (ix2 r q)
      = pwSigmoid (pwElu (pwNorm (fn S250000x64 (Kv m ρ c main_v74_0) (ix2 r q)) (fn S1x64 (Kv m ρ c main_v76) (ix2 (0 : Fin 1) q))
          (fn S1x64 (Kv m ρ c main_v80) (ix2 (0 : Fin 1) q)) (fn S1x64 (Kv m ρ c main_v81) (ix2 (0 : Fin 1) q))
          (fn S1x64 (Kv m ρ c main_v82) (ix2 (0 : Fin 1) q)))) := congrFun (reg3_6 m ρ c) (ix2 r q)
  rw [e36]
  exact isReal_pwSigmoid (isReal_pwElu (isReal_pwNorm (hB _) hμ hg hb hv))

/-- The gate is real-valued and positive. -/
theorem real_sig (hR : RealArgs m ρ c) :
    ∀ i, IsReal (fn S250000x64 (Kv m ρ c main_v83_1) i) ∧ 0 < fn S250000x64 (Kv m ρ c main_v83_1) i :=
  real_sig_of m ρ c hR (real_bond_sum m ρ c hR) (bond_colsum m ρ c) (bond_colsumsq m ρ c)

/-! ## The messages: numerator and denominator -/

/-- A broadcast scalar zero is real-valued … -/
theorem real_zeros {t : Shape} (h : S_.BroadcastsInDim t ![]) (j : t.Idx) :
    IsReal (broadcastInDim t ![] h (constant (F := Ideal) S_ .f32 0x00000000#32) j) :=
  broadcastInDim_forall IsReal _ h _ (fun _ => by show IsReal (Ideal.ofBits .f32 0x00000000#32); rw [pw_ofBits_zero]; exact isReal_zero) j

/-- … and non-negative. -/
theorem nonneg_zeros {t : Shape} (h : S_.BroadcastsInDim t ![]) (j : t.Idx) :
    0 ≤ broadcastInDim t ![] h (constant (F := Ideal) S_ .f32 0x00000000#32) j :=
  broadcastInDim_forall (fun v : EReal => 0 ≤ v) _ h _ (fun _ => by show (0 : EReal) ≤ Ideal.ofBits .f32 0x00000000#32; rw [pw_ofBits_zero]) j

/-- The gate stacked on itself: entries of the gate. -/
theorem v100_forall (P : EReal → Prop) (hS : ∀ i, P (fn S250000x64 (Kv m ρ c main_v83_1) i)) :
    ∀ i, P (fn S500000x64 (Kv m ρ c main_v100) i) := by
  intro i
  show P (Wf m ρ c main_v100 i)
  rw [k_h4_20 m ρ c]
  exact concatenate2_forall P _ _ _ _ _ _ hS hS i

/-- The numerator is real-valued: the gate times the gathered second-layer rows, scatter-added into zeros. -/
theorem real_num (hR : RealArgs m ρ c) (hS : ∀ i, IsReal (fn S250000x64 (Kv m ρ c main_v83_1) i)) :
    ∀ j, IsReal (fn S250000x64 (Kv m ρ c main_v104) j) := by
  intro j
  show IsReal (Wf m ρ c main_v104 j)
  rw [k_h4_25 m ρ c]
  refine scatterAdd_isReal_250000x64 _ _ _ (fun i => ?_) (fun i => ?_) j
  · show IsReal (Wf m ρ c main_v102 i)
    rw [k_h4_23 m ρ c, k_h4_22 m ρ c]
    exact real_zeros _ i
  · show IsReal (Wf m ρ c main_v101 i)
    rw [k_h4_21 m ρ c]
    refine IsReal.mul (x := fn S500000x64 (Kv m ρ c main_v100) i) (y := fn S500000x64 (Kv m ρ c main_v99) i)
      (v100_forall m ρ c IsReal hS i) ?_
    show IsReal (Wf m ρ c main_v99 i)
    rw [k_h4_19 m ρ c]
    exact concatenate2_forall IsReal _ _ _ _ _ _ (real_v91 m ρ c hR) (real_v98 m ρ c hR) i

/-- The denominator is a positive real: the gate (positive reals) scatter-added into zeros, plus a positive constant. -/
theorem den_pos (hS : ∀ i, IsReal (fn S250000x64 (Kv m ρ c main_v83_1) i) ∧ 0 < fn S250000x64 (Kv m ρ c main_v83_1) i) :
    ∀ j, ∃ d : ℝ, 0 < d ∧ fn S250000x64 (Kv m ρ c main_v109) j = (d : EReal) := by
  intro j
  obtain ⟨e, he, hE⟩ := pw_ofBits_1em6_pos
  have e107 : fn S250000x64 (Kv m ρ c main_v107) j
      = Host.scatterAdd (F := Ideal) (φ := .f32) scatter_S250000x64_S500000x1_S500000x64_1_0_0_1
          (Wf m ρ c main_v105) (Wf m ρ c main_v106) (Wf m ρ c main_v100) j := congrFun (k_h4_29 m ρ c) j
  have h105 : Wf m ρ c main_v105 = broadcastInDim S250000x64 ![] bcast_S_S250000x64 (constant (F := Ideal) S_ .f32 0x00000000#32) := by
    rw [k_h4_27 m ρ c, k_h4_26 m ρ c]
  have h107r : IsReal (fn S250000x64 (Kv m ρ c main_v107) j) := by
    rw [e107]
    refine scatterAdd_isReal_250000x64 _ _ _ (fun i => ?_) (v100_forall m ρ c IsReal (fun i => (hS i).1)) j
    rw [h105]; exact real_zeros _ i
  have h107n : 0 ≤ fn S250000x64 (Kv m ρ c main_v107) j := by
    rw [e107]
    refine scatterAdd_nonneg_250000x64 _ _ _ (fun i => ?_) (v100_forall m ρ c (fun v => 0 ≤ v) (fun i => (hS i).2.le)) j
    rw [h105]; exact nonneg_zeros _ i
  have e108 : fn S250000x64 (Kv m ρ c main_v108) j = (e : EReal) := by
    show Wf m ρ c main_v108 j = _
    rw [k_h4_31 m ρ c, k_h4_30 m ρ c]
    exact broadcastInDim_forall (fun v : EReal => v = (e : EReal)) _ _ _ (fun _ => hE) j
  have e109 : fn S250000x64 (Kv m ρ c main_v109) j
      = fn S250000x64 (Kv m ρ c main_v107) j + fn S250000x64 (Kv m ρ c main_v108) j := congrFun (k_h4_32 m ρ c) j
  obtain ⟨a, ha⟩ := h107r
  have ha0 : 0 ≤ a := by rw [ha] at h107n; exact EReal.coe_nonneg.mp h107n
  exact ⟨a + e, by linarith, by rw [e109, e108, ha, EReal.coe_add]⟩

/-! ## The atom sums -/

/-- The atom sums are real-valued: a dense layer of the arguments, plus the numerator over the denominator (a real over a
    positive real), plus a gather of a dense layer, times a column of an argument. `h45` is the fourth region's first
    output at an index. -/
theorem real_atom_sum_of (hR : RealArgs m ρ c)
    (h45 : ∀ i : S250000x64.Idx, fn S250000x64 (Kv m ρ c main_v117_0) i
      = ((fn S250000x64 (Kv m ρ c main_v47) i + Ideal.div (fn S250000x64 (Kv m ρ c main_v104) i) (fn S250000x64 (Kv m ρ c main_v109) i))
          + fn S250000x64 (Kv m ρ c main_v116) i) * fn S250000x1 (Kv m ρ c main_arg3) (ix2 (i 0 : Fin 250000) (0 : Fin 1))) :
    ∀ i, IsReal (fn S250000x64 (Kv m ρ c main_v117_0) i) := by
  intro i
  have hS := real_sig m ρ c hR
  obtain ⟨d, hd, hD⟩ := den_pos m ρ c hS i
  rw [h45 i, hD]
  exact (((real_v47 m ρ c hR i).add ((real_num m ρ c hR (fun i => (hS i).1) i).div_coe hd.ne')).add (real_v116 m ρ c hR i)).mul (hR.r3 _)

/-- The same with the fourth region's first output read from its closed form. -/
theorem real_atom_sum (hR : RealArgs m ρ c) : ∀ i, IsReal (fn S250000x64 (Kv m ρ c main_v117_0) i) :=
  real_atom_sum_of m ρ c hR fun i => congrFun (reg4_5 m ρ c) i

end Cert.Bridge

end
-- ==== Proof.Bridge.Top.lean ====
/-
  The three results agree. In program order: the dense layers of the inputs; the gathered rows; the bond sums, their batch
  norm (the one place where the two programs spell the variance differently: the kernel program as the mean of the squares
  minus the square of the mean, the reference as the mean of the squared deviations — equal on real-valued data), ELU and
  sigmoid; the gated messages scattered to the atoms; the atom sums and their batch norm and ELU; the dense layers of the
  new features pooled per graph; and the graph update, which both programs compute by the same formula.
-/
import proofs.«180658_j65867618451767_1_alg».proof.Proof.Bridge.Lin
import proofs.«180658_j65867618451767_1_alg».proof.Proof.Bridge.Gathers
import proofs.«180658_j65867618451767_1_alg».proof.Proof.Bridge.Messages
import proofs.«180658_j65867618451767_1_alg».proof.Proof.Bridge.Pool
import proofs.«180658_j65867618451767_1_alg».proof.Proof.Bridge.BondSum
import proofs.«180658_j65867618451767_1_alg».proof.Proof.Bridge.BondNorm
import proofs.«180658_j65867618451767_1_alg».proof.Proof.Bridge.AtomSum
import proofs.«180658_j65867618451767_1_alg».proof.Proof.Bridge.AtomNorm
import proofs.«180658_j65867618451767_1_alg».proof.Proof.Bridge.GraphNorm
import proofs.«180658_j65867618451767_1_alg».proof.Proof.Bridge.RealArgs
import proofs.«180658_j65867618451767_1_alg».proof.Proof.Bridge.Real

set_option maxRecDepth 16384

noncomputable section

namespace Cert.Bridge

open Idealize.ShloMosaic Idealize.ShloMosaic.TcCoe Idealize.ShloMosaic.StableHlo

attribute [local irreducible] Cert.KernelIdeal.Hand.W15

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V' : Valuation Cert.ReferenceIdeal.τ Cert.ReferenceIdeal.sig (Elt Ideal))

/-- The new atom, bond and graph features agree, given agreeing real-valued arguments. -/
theorem results (hA : Agree m ρ c V') (hR : RealArgs m ρ c) :
    Rv V' Cert.ReferenceIdeal.main_v165 = Kv m ρ c Cert.KernelIdeal.main_v126
      ∧ Rv V' Cert.ReferenceIdeal.main_v97 = Kv m ρ c Cert.KernelIdeal.main_v83_0
      ∧ Rv V' Cert.ReferenceIdeal.main_v237 = Kv m ρ c Cert.KernelIdeal.main_v153 := by
  have hAh := lin0 m ρ c V' hA
  have hDh := lin3 m ρ c V' hA
  have hEh := lin4 m ρ c V' hA
  have hBe := lin1 m ρ c V' hA
  have hCu := lin2 m ρ c V' hA
  have hFu := lin5 m ρ c V' hA
  have hIu := lin8 m ρ c V' hA
  have g1 := gather_bond_u m ρ c V' hA hAh
  have g2 := gather_bond_v m ρ c V' hA hAh
  have g3 := gather_bond2mol m ρ c V' hA hCu
  have hes := bond_sum m ρ c V' hA g1 g2 hBe g3
  obtain ⟨hen, hsig⟩ := bond_norm m ρ c V' hA hes (real_bond_sum m ρ c hR)
  have hnum := messages_num m ρ c V' hA hEh hsig
  have hden := messages_den m ρ c V' hA hsig
  have hFa := gather_atom2mol m ρ c V' hA hFu
  have hhs := atom_sum m ρ c V' hA hDh hnum hden hFa
  have hhn := atom_norm m ρ c V' hA hhs (real_atom_sum m ρ c hR)
  have hGh := lin6 m ρ c V' hA hhn
  have hHe := lin7 m ρ c V' hA hen
  have hag := pool_means m ρ c V' hA hGh hHe
  have hun := graph_norm m ρ c V' hA hag hIu
  exact ⟨hhn, hen, hun⟩

end Cert.Bridge

end
-- ==== Proof.lean ====
/-
  The certificate of the gated graph-convolution layer: a pipeline of eight kernel regions among host operations against
  its plain reference.
  Frames: each program runs to the end, faults nowhere and leaves its thirteen argument arrays as launched — for the kernel
  program (read at the word level and at the extended reals) from the run of its fifteen segments, for the reference from
  the run of its line of host operations. The idealization rewrote no operation, so there is nothing to preserve.
  Values: at the extended reals the three results (the new atom, bond and graph features) agree entry by entry.
-/
import proofs.«180658_j65867618451767_1_alg».proof.Defs
import proofs.«180658_j65867618451767_1_alg».proof.Proof.Gen.Kernel
import proofs.«180658_j65867618451767_1_alg».proof.Proof.Gen.KernelIdeal
import proofs.«180658_j65867618451767_1_alg».proof.Proof.Gen.ReferenceIdeal
import proofs.«180658_j65867618451767_1_alg».proof.Proof.Gen.Pre_finite_inputs
import proofs.«180658_j65867618451767_1_alg».proof.Proof.K.Run
import proofs.«180658_j65867618451767_1_alg».proof.Proof.KI.Run
import proofs.«180658_j65867618451767_1_alg».proof.Proof.Ref.Run
import proofs.«180658_j65867618451767_1_alg».proof.Proof.Bridge.Top
import Idealize.ShloMosaic.Adequacy
import Idealize.ShloMosaic.Init

noncomputable section

namespace Cert.Proof

open Idealize.ShloMosaic Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ
theorem preserves : Cert.preserves_Kernel_KernelIdeal := trivial

attribute [local irreducible] Cert.KernelIdeal.Hand.W15

/-- At the extended reals both programs run to the end from memories agreeing on the arguments, the kernel program's three
    results at its last boundary's contents and the reference's after its whole line, and those agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Bridge.Kv m ρ c Cert.KernelIdeal.main_v126, fun c => Cert.Bridge.Kv m ρ c Cert.KernelIdeal.main_v83_0,
    fun c => Cert.Bridge.Kv m ρ c Cert.KernelIdeal.main_v153, ?_, ?_⟩
  · refine (θ_run _ _ _).mono (fun r h c => ?_) (Cert.KernelIdeal.Hand.run_all (F := Ideal) m ρ)
    refine ⟨h c _ (Cert.KernelIdeal.Hand.mem_uc Cert.KernelIdeal.main_v126 (by decide)), ?_⟩
    refine ⟨h c _ (Cert.KernelIdeal.Hand.mem_uc Cert.KernelIdeal.main_v83_0 (by decide)), ?_⟩
    refine ⟨h c _ (Cert.KernelIdeal.Hand.mem_uc Cert.KernelIdeal.main_v153 (by decide)), ?_⟩
    exact ⟨(h c _ (Cert.KernelIdeal.Hand.mem_uc Cert.KernelIdeal.main_arg0 (by decide))).trans (Cert.KernelIdeal.Hand.W15_main_arg0 m ρ c),
      (h c _ (Cert.KernelIdeal.Hand.mem_uc Cert.KernelIdeal.main_arg1 (by decide))).trans (Cert.KernelIdeal.Hand.W15_main_arg1 m ρ c),
      (h c _ (Cert.KernelIdeal.Hand.mem_uc Cert.KernelIdeal.main_arg2 (by decide))).trans (Cert.KernelIdeal.Hand.W15_main_arg2 m ρ c),
      (h c _ (Cert.KernelIdeal.Hand.mem_uc Cert.KernelIdeal.main_arg3 (by decide))).trans (Cert.KernelIdeal.Hand.W15_main_arg3 m ρ c),
      (h c _ (Cert.KernelIdeal.Hand.mem_uc Cert.KernelIdeal.main_arg4 (by decide))).trans (Cert.KernelIdeal.Hand.W15_main_arg4 m ρ c),
      (h c _ (Cert.KernelIdeal.Hand.mem_uc Cert.KernelIdeal.main_arg5 (by decide))).trans (Cert.KernelIdeal.Hand.W15_main_arg5 m ρ c),
      (h c _ (Cert.KernelIdeal.Hand.mem_uc Cert.KernelIdeal.main_arg6 (by decide))).trans (Cert.KernelIdeal.Hand.W15_main_arg6 m ρ c),
      (h c _ (Cert.KernelIdeal.Hand.mem_uc Cert.KernelIdeal.main_arg7 (by decide))).trans (Cert.KernelIdeal.Hand.W15_main_arg7 m ρ c),
      (h c _ (Cert.KernelIdeal.Hand.mem_uc Cert.KernelIdeal.main_arg8 (by decide))).trans (Cert.KernelIdeal.Hand.W15_main_arg8 m ρ c),
      (h c _ (Cert.KernelIdeal.Hand.mem_uc Cert.KernelIdeal.main_arg9 (by decide))).trans (Cert.KernelIdeal.Hand.W15_main_arg9 m ρ c),
      (h c _ (Cert.KernelIdeal.Hand.mem_uc Cert.KernelIdeal.main_arg10 (by decide))).trans (Cert.KernelIdeal.Hand.W15_main_arg10 m ρ c),
      (h c _ (Cert.KernelIdeal.Hand.mem_uc Cert.KernelIdeal.main_arg11 (by decide))).trans (Cert.KernelIdeal.Hand.W15_main_arg11 m ρ c),
      (h c _ (Cert.KernelIdeal.Hand.mem_uc Cert.KernelIdeal.main_arg12 (by decide))).trans (Cert.KernelIdeal.Hand.W15_main_arg12 m ρ c)⟩
  · refine (θ_run _ _ _).mono (fun r h c => ?_) (Cert.ReferenceIdeal.Hand.run_after (F := Ideal) m' ρ')
    obtain ⟨a0, a1, a2, a3, a4, a5, a6, a7, a8, a9, a10, a11, a12⟩ := hagree c
    have hA := Cert.Bridge.agree_of m ρ c m' a0 a1 a2 a3 a4 a5 a6 a7 a8 a9 a10 a11 a12
    have hR := Cert.Bridge.realArgs_of_pre m ρ c hpre
    obtain ⟨e0, e1, e2⟩ := Cert.Bridge.results m ρ c _ hA hR
    refine ⟨(h c Cert.ReferenceIdeal.main_v165).trans e0, ?_⟩
    refine ⟨(h c Cert.ReferenceIdeal.main_v97).trans e1, ?_⟩
    refine ⟨(h c Cert.ReferenceIdeal.main_v237).trans e2, ?_⟩
    exact ⟨(h c Cert.ReferenceIdeal.main_arg0).trans (Cert.ReferenceIdeal.HandV.R_of_not_written _ Cert.ReferenceIdeal.HandV.arg0_nw),
      (h c Cert.ReferenceIdeal.main_arg1).trans (Cert.ReferenceIdeal.HandV.R_of_not_written _ Cert.ReferenceIdeal.HandV.arg1_nw),
      (h c Cert.ReferenceIdeal.main_arg2).trans (Cert.ReferenceIdeal.HandV.R_of_not_written _ Cert.ReferenceIdeal.HandV.arg2_nw),
      (h c Cert.ReferenceIdeal.main_arg3).trans (Cert.ReferenceIdeal.HandV.R_of_not_written _ Cert.ReferenceIdeal.HandV.arg3_nw),
      (h c Cert.ReferenceIdeal.main_arg4).trans (Cert.ReferenceIdeal.HandV.R_of_not_written _ Cert.ReferenceIdeal.HandV.arg4_nw),
      (h c Cert.ReferenceIdeal.main_arg5).trans (Cert.ReferenceIdeal.HandV.R_of_not_written _ Cert.ReferenceIdeal.HandV.arg5_nw),
      (h c Cert.ReferenceIdeal.main_arg6).trans (Cert.ReferenceIdeal.HandV.R_of_not_written _ Cert.ReferenceIdeal.HandV.arg6_nw),
      (h c Cert.ReferenceIdeal.main_arg7).trans (Cert.ReferenceIdeal.HandV.R_of_not_written _ Cert.ReferenceIdeal.HandV.arg7_nw),
      (h c Cert.ReferenceIdeal.main_arg8).trans (Cert.ReferenceIdeal.HandV.R_of_not_written _ Cert.ReferenceIdeal.HandV.arg8_nw),
      (h c Cert.ReferenceIdeal.main_arg9).trans (Cert.ReferenceIdeal.HandV.R_of_not_written _ Cert.ReferenceIdeal.HandV.arg9_nw),
      (h c Cert.ReferenceIdeal.main_arg10).trans (Cert.ReferenceIdeal.HandV.R_of_not_written _ Cert.ReferenceIdeal.HandV.arg10_nw),
      (h c Cert.ReferenceIdeal.main_arg11).trans (Cert.ReferenceIdeal.HandV.R_of_not_written _ Cert.ReferenceIdeal.HandV.arg11_nw),
      (h c Cert.ReferenceIdeal.main_arg12).trans (Cert.ReferenceIdeal.HandV.R_of_not_written _ Cert.ReferenceIdeal.HandV.arg12_nw)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
